-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩
abbrev S1x1600000 : Shape := ⟨2, ![1, 1600000]⟩
abbrev S1600000 : Shape := ⟨1, ![1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S2x1600000 32) (main_v33 : IVec S_ 1) : IVec S_ 1 :=
  let main_v34 : IVec S1x1600000 32 := (extractStridedSlice S1x1600000 ![0, 0] · slices_S2x1600000_S1x1600000_0_0) main_arg1
  let main_v35 : IVec S1600000 32 := shapeCast S1600000 main_v34 shapeCasts_S1x1600000_S1600000
  let main_c_12 : IVec S_ 32 := constantI S_ 32 0#32
  let main_v36 : IVec S1600000 32 := broadcastInDim S1600000 ![] bcast_S_S1600000 main_c_12
  let main_v37 : IVec S1600000 1 := cmpi .sge main_v35 main_v36
  let main_v38 : IVec S1x1600000 32 := (extractStridedSlice S1x1600000 ![0, 0] · slices_S2x1600000_S1x1600000_0_0) main_arg1
  let main_v39 : IVec S1600000 32 := shapeCast S1600000 main_v38 shapeCasts_S1x1600000_S1600000
  let main_c_13 : IVec S_ 32 := constantI S_ 32 100000#32
  let main_v40 : IVec S1600000 32 := broadcastInDim S1600000 ![] bcast_S_S1600000 main_c_13
  let main_v41 : IVec S1600000 1 := cmpi .slt main_v39 main_v40
  let main_v42 : IVec S1600000 1 := andi main_v37 main_v41
  let main_c_14 : IVec S_ 1 := constantI S_ 1 1#1
  let main_v43 : IVec S_ 1 := (fun x v => Host.reduce IntOp.andi x v reducesTo_S1600000_S_d0 h_S_) main_v42 main_c_14
  let main_v44 : IVec S_ 1 := andi main_v33 main_v43
  main_v44

def fn_part1 {F : FTy → Type} [FloatOps F] (main_arg1 : IVec S2x1600000 32) (main_arg5 : FVec F S64 .f32) (main_arg6 : FVec F S64x32 .f32) (main_arg7 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg1 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) (main_arg6 : FVec F S64x32 .f32) (main_arg7 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S864 : Shape := ⟨1, ![864]⟩
abbrev S1700864 : Shape := ⟨1, ![1700864]⟩
abbrev S106496x64 : Shape := ⟨2, ![106496, 64]⟩
abbrev S8192x64 : Shape := ⟨2, ![8192, 64]⟩
abbrev S1700864x64 : Shape := ⟨2, ![1700864, 64]⟩
abbrev S1024 : Shape := ⟨1, ![1024]⟩
abbrev S1024x64 : Shape := ⟨2, ![1024, 64]⟩
abbrev S1x8192 : Shape := ⟨2, ![1, 8192]⟩
abbrev S1024x1 : Shape := ⟨2, ![1024, 1]⟩
abbrev S1024x8192 : Shape := ⟨2, ![1024, 8192]⟩
abbrev S8192x1 : Shape := ⟨2, ![8192, 1]⟩
abbrev S1x1024 : Shape := ⟨2, ![1, 1024]⟩
abbrev S8192x1024 : Shape := ⟨2, ![8192, 1024]⟩
abbrev S1x64 : Shape := ⟨2, ![1, 64]⟩
abbrev S106496x32 : Shape := ⟨2, ![106496, 32]⟩
abbrev S8192x32 : Shape := ⟨2, ![8192, 32]⟩
abbrev S1700864x32 : Shape := ⟨2, ![1700864, 32]⟩
abbrev S1024x32 : Shape := ⟨2, ![1024, 32]⟩
abbrev S1x32 : Shape := ⟨2, ![1, 32]⟩
abbrev S100000x32 : Shape := ⟨2, ![100000, 32]⟩

abbrev nBuf : Space → Nat
  | .hbm => 84
  | .vmem => 66
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S864, .i32⟩
  | .hbm, ⟨50, _⟩ => ⟨S1700864, .i32⟩
  | .hbm, ⟨51, _⟩ => ⟨S_, .i32⟩
  | .hbm, ⟨52, _⟩ => ⟨S864, .i32⟩
  | .hbm, ⟨53, _⟩ => ⟨S1700864, .i32⟩
  | .hbm, ⟨54, _⟩ => ⟨S_, .f32⟩
  | .hbm, ⟨55, _⟩ => ⟨S864, .f32⟩
  | .hbm, ⟨56, _⟩ => ⟨S1700864, .f32⟩
  | .hbm, ⟨57, _⟩ => ⟨S_, .i32⟩
  | .hbm, ⟨58, _⟩ => ⟨S_, .f32⟩
  | .hbm, ⟨59, _⟩ => ⟨S106496x64, .f32⟩
  | .hbm, ⟨60, _⟩ => ⟨S106496x64, .f32⟩
  | .hbm, ⟨61, _⟩ => ⟨S1700864x64, .f32⟩
  | .hbm, ⟨62, _⟩ => ⟨S106496x64, .f32⟩
  | .hbm, ⟨63, _⟩ => ⟨S100000x64, .f32⟩
  | .hbm, ⟨64, _⟩ => ⟨S_, .f32⟩
  | .hbm, ⟨65, _⟩ => ⟨S100000x64, .f32⟩
  | .hbm, ⟨66, _⟩ => ⟨S100000x64, .f32⟩
  | .hbm, ⟨67, _⟩ => ⟨S_, .i32⟩
  | .hbm, ⟨68, _⟩ => ⟨S_, .f32⟩
  | .hbm, ⟨69, _⟩ => ⟨S106496x64, .f32⟩
  | .hbm, ⟨70, _⟩ => ⟨S106496x64, .f32⟩
  | .hbm, ⟨71, _⟩ => ⟨S1700864x64, .f32⟩
  | .hbm, ⟨72, _⟩ => ⟨S106496x64, .f32⟩
  | .hbm, ⟨73, _⟩ => ⟨S100000x64, .f32⟩
  | .hbm, ⟨74, _⟩ => ⟨S_, .f32⟩
  | .hbm, ⟨75, _⟩ => ⟨S100000x64, .f32⟩
  | .hbm, ⟨76, _⟩ => ⟨S100000x64, .f32⟩
  | .hbm, ⟨77, _⟩ => ⟨S_, .i32⟩
  | .hbm, ⟨78, _⟩ => ⟨S_, .f32⟩
  | .hbm, ⟨79, _⟩ => ⟨S106496x64, .f32⟩
  | .hbm, ⟨80, _⟩ => ⟨S106496x32, .f32⟩
  | .hbm, ⟨81, _⟩ => ⟨S1700864x32, .f32⟩
  | .hbm, ⟨82, _⟩ => ⟨S106496x32, .f32⟩
  | .hbm, ⟨83, _⟩ => ⟨S100000x32, .f32⟩
  | .local _ .vmem, ⟨0, _⟩ => ⟨S8192x64, .f32⟩
  | .local _ .vmem, ⟨1, _⟩ => ⟨S8192x64, .f32⟩
  | .local _ .vmem, ⟨2, _⟩ => ⟨S64x64, .f32⟩
  | .local _ .vmem, ⟨3, _⟩ => ⟨S8192x64, .f32⟩
  | .local _ .vmem, ⟨4, _⟩ => ⟨S8192x64, .f32⟩
  | .local _ .vmem, ⟨5, _⟩ => ⟨S1024, .i32⟩
  | .local _ .vmem, ⟨6, _⟩ => ⟨S1024, .i32⟩
  | .local _ .vmem, ⟨7, _⟩ => ⟨S1024, .f32⟩
  | .local _ .vmem, ⟨8, _⟩ => ⟨S1024, .f32⟩
  | .local _ .vmem, ⟨9, _⟩ => ⟨S8192x64, .f32⟩
  | .local _ .vmem, ⟨10, _⟩ => ⟨S8192x64, .f32⟩
  | .local _ .vmem, ⟨11, _⟩ => ⟨S1024x64, .f32⟩
  | .local _ .vmem, ⟨12, _⟩ => ⟨S1024x64, .f32⟩
  | .local _ .vmem, ⟨13, _⟩ => ⟨S1024x64, .f32⟩
  | .local _ .vmem, ⟨14, _⟩ => ⟨S1024, .i32⟩
  | .local _ .vmem, ⟨15, _⟩ => ⟨S1024, .i32⟩
  | .local _ .vmem, ⟨16, _⟩ => ⟨S1024x64, .f32⟩
  | .local _ .vmem, ⟨17, _⟩ => ⟨S1024x64, .f32⟩
  | .local _ .vmem, ⟨18, _⟩ => ⟨S64, .f32⟩
  | .local _ .vmem, ⟨19, _⟩ => ⟨S8192x64, .f32⟩
  | .local _ .vmem, ⟨20, _⟩ => ⟨S8192x64, .f32⟩
  | .local _ .vmem, ⟨21, _⟩ => ⟨S8192x64, .f32⟩
  | .local _ .vmem, ⟨22, _⟩ => ⟨S8192x64, .f32⟩
  | .local _ .vmem, ⟨23, _⟩ => ⟨S8192x64, .f32⟩
  | .local _ .vmem, ⟨24, _⟩ => ⟨S64x64, .f32⟩
  | .local _ .vmem, ⟨25, _⟩ => ⟨S8192x64, .f32⟩
  | .local _ .vmem, ⟨26, _⟩ => ⟨S8192x64, .f32⟩
  | .local _ .vmem, ⟨27, _⟩ => ⟨S1024, .i32⟩
  | .local _ .vmem, ⟨28, _⟩ => ⟨S1024, .i32⟩
  | .local _ .vmem, ⟨29, _⟩ => ⟨S1024, .f32⟩
  | .local _ .vmem, ⟨30, _⟩ => ⟨S1024, .f32⟩
  | .local _ .vmem, ⟨31, _⟩ => ⟨S8192x64, .f32⟩
  | .local _ .vmem, ⟨32, _⟩ => ⟨S8192x64, .f32⟩
  | .local _ .vmem, ⟨33, _⟩ => ⟨S1024x64, .f32⟩
  | .local _ .vmem, ⟨34, _⟩ => ⟨S1024x64, .f32⟩
  | .local _ .vmem, ⟨35, _⟩ => ⟨S1024x64, .f32⟩
  | .local _ .vmem, ⟨36, _⟩ => ⟨S1024, .i32⟩
  | .local _ .vmem, ⟨37, _⟩ => ⟨S1024, .i32⟩
  | .local _ .vmem, ⟨38, _⟩ => ⟨S1024x64, .f32⟩
  | .local _ .vmem, ⟨39, _⟩ => ⟨S1024x64, .f32⟩
  | .local _ .vmem, ⟨40, _⟩ => ⟨S64, .f32⟩
  | .local _ .vmem, ⟨41, _⟩ => ⟨S8192x64, .f32⟩
  | .local _ .vmem, ⟨42, _⟩ => ⟨S8192x64, .f32⟩
  | .local _ .vmem, ⟨43, _⟩ => ⟨S8192x64, .f32⟩
  | .local _ .vmem, ⟨44, _⟩ => ⟨S8192x64, .f32⟩
  | .local _ .vmem, ⟨45, _⟩ => ⟨S8192x64, .f32⟩
  | .local _ .vmem, ⟨46, _⟩ => ⟨S64x32, .f32⟩
  | .local _ .vmem, ⟨47, _⟩ => ⟨S8192x32, .f32⟩
  | .local _ .vmem, ⟨48, _⟩ => ⟨S8192x32, .f32⟩
  | .local _ .vmem, ⟨49, _⟩ => ⟨S1024, .i32⟩
  | .local _ .vmem, ⟨50, _⟩ => ⟨S1024, .i32⟩
  | .local _ .vmem, ⟨51, _⟩ => ⟨S1024, .f32⟩
  | .local _ .vmem, ⟨52, _⟩ => ⟨S1024, .f32⟩
  | .local _ .vmem, ⟨53, _⟩ => ⟨S8192x32, .f32⟩
  | .local _ .vmem, ⟨54, _⟩ => ⟨S8192x32, .f32⟩
  | .local _ .vmem, ⟨55, _⟩ => ⟨S1024x32, .f32⟩
  | .local _ .vmem, ⟨56, _⟩ => ⟨S1024x32, .f32⟩
  | .local _ .vmem, ⟨57, _⟩ => ⟨S1024x32, .f32⟩
  | .local _ .vmem, ⟨58, _⟩ => ⟨S1024, .i32⟩
  | .local _ .vmem, ⟨59, _⟩ => ⟨S1024, .i32⟩
  | .local _ .vmem, ⟨60, _⟩ => ⟨S1024x32, .f32⟩
  | .local _ .vmem, ⟨61, _⟩ => ⟨S1024x32, .f32⟩
  | .local _ .vmem, ⟨62, _⟩ => ⟨S32, .f32⟩
  | .local _ .vmem, ⟨63, _⟩ => ⟨S8192x32, .f32⟩
  | .local _ .vmem, ⟨64, _⟩ => ⟨S8192x32, .f32⟩
  | .local _ .vmem, ⟨65, _⟩ => ⟨S8192x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_c_9 : Ref sig .tc := ⟨.hbm, 57, rfl⟩
abbrev main_call1_v0 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_call2_cst : Ref sig .tc := ⟨.hbm, 64, rfl⟩
abbrev main_call2_v0 : Ref sig .tc := ⟨.hbm, 65, rfl⟩
abbrev main_v41 : Ref sig .tc := ⟨.hbm, 66, rfl⟩
abbrev main_c_10 : Ref sig .tc := ⟨.hbm, 67, rfl⟩
abbrev main_call3_v0 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call4_cst : Ref sig .tc := ⟨.hbm, 74, rfl⟩
abbrev main_call4_v0 : Ref sig .tc := ⟨.hbm, 75, rfl⟩
abbrev main_v47 : Ref sig .tc := ⟨.hbm, 76, rfl⟩
abbrev main_c_11 : Ref sig .tc := ⟨.hbm, 77, rfl⟩
abbrev main_call5_v0 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc4_scratch0 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg3_1 : Ref sig .tc := ⟨.vmem, 42, rfl⟩
abbrev cc5_scratch0 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg2_0 : Ref sig .tc := ⟨.vmem, 47, rfl⟩
abbrev cc6_stg2_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg1_1 : Ref sig .tc := ⟨.vmem, 52, rfl⟩
abbrev cc7_stg2_0 : Ref sig .tc := ⟨.vmem, 53, rfl⟩
abbrev cc7_stg2_1 : Ref sig .tc := ⟨.vmem, 54, rfl⟩
abbrev cc7_stg3_0 : Ref sig .tc := ⟨.vmem, 55, rfl⟩
abbrev cc7_stg3_1 : Ref sig .tc := ⟨.vmem, 56, rfl⟩
abbrev cc7_scratch0 : Ref sig .tc := ⟨.vmem, 57, rfl⟩
abbrev cc8_stg0_0 : Ref sig .tc := ⟨.vmem, 58, rfl⟩
abbrev cc8_stg0_1 : Ref sig .tc := ⟨.vmem, 59, rfl⟩
abbrev cc8_stg1_0 : Ref sig .tc := ⟨.vmem, 60, rfl⟩
abbrev cc8_stg1_1 : Ref sig .tc := ⟨.vmem, 61, rfl⟩
abbrev cc8_stg2_0 : Ref sig .tc := ⟨.vmem, 62, rfl⟩
abbrev cc8_stg3_0 : Ref sig .tc := ⟨.vmem, 63, rfl⟩
abbrev cc8_stg3_1 : Ref sig .tc := ⟨.vmem, 64, rfl⟩
abbrev cc8_scratch0 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc4_sem3_0 : DmaSem sig := 31
abbrev cc4_sem3_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem3_0 : DmaSem sig := 38
abbrev cc5_sem3_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem2_1 : DmaSem sig := 44
abbrev cc7_sem0_0 : DmaSem sig := 45
abbrev cc7_sem0_1 : DmaSem sig := 46
abbrev cc7_sem1_0 : DmaSem sig := 47
abbrev cc7_sem1_1 : DmaSem sig := 48
abbrev cc7_sem2_0 : DmaSem sig := 49
abbrev cc7_sem2_1 : DmaSem sig := 50
abbrev cc7_sem3_0 : DmaSem sig := 51
abbrev cc7_sem3_1 : DmaSem sig := 52
abbrev cc8_sem0_0 : DmaSem sig := 53
abbrev cc8_sem0_1 : DmaSem sig := 54
abbrev cc8_sem1_0 : DmaSem sig := 55
abbrev cc8_sem1_1 : DmaSem sig := 56
abbrev cc8_sem2_0 : DmaSem sig := 57
abbrev cc8_sem3_0 : DmaSem sig := 58
abbrev cc8_sem3_1 : DmaSem sig := 59

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![1661, 13], ![false, false]⟩

def k1_cond2 (i : grid1.Coords) : BitVec 1 :=
  let arg1 : BitVec 32 := BitVec.ofNat 32 (i 1).val
  let c12_i32 : BitVec 32 := 12#32
  let v25 : BitVec 1 := Scalar.cmpi .eq arg1 c12_i32
  let v26 : BitVec 32 := Scalar.extui v25
  let c0_i32_7 : BitVec 32 := 0#32
  let v27 : BitVec 1 := Scalar.cmpi .ne v26 c0_i32_7
  v27

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8192x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![13, 1661], ![false, false]⟩

def k2_cond2 (i : grid2.Coords) : BitVec 1 :=
  let arg1 : BitVec 32 := BitVec.ofNat 32 (i 1).val
  let c1660_i32 : BitVec 32 := 1660#32
  let v25 : BitVec 1 := Scalar.cmpi .eq arg1 c1660_i32
  let v26 : BitVec 32 := Scalar.extui v25
  let c0_i32_7 : BitVec 32 := 0#32
  let v27 : BitVec 1 := Scalar.cmpi .ne v26 c0_i32_7
  v27

def cc2_transform_0 (i : grid2.Coords) : Fin 1 → Nat :=
  let arg0 : BitVec 32 := BitVec.ofNat 32 (i 0).val
  let arg1 : BitVec 32 := BitVec.ofNat 32 (i 1).val
  let c0_i32 : BitVec 32 := 0#32
  ![arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S8192x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨1, ![13], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S8192x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![1661, 13], ![false, false]⟩

def k4_cond2 (i : grid4.Coords) : BitVec 1 :=
  let arg1 : BitVec 32 := BitVec.ofNat 32 (i 1).val
  let c12_i32 : BitVec 32 := 12#32
  let v25 : BitVec 1 := Scalar.cmpi .eq arg1 c12_i32
  let v26 : BitVec 32 := Scalar.extui v25
  let c0_i32_7 : BitVec 32 := 0#32
  let v27 : BitVec 1 := Scalar.cmpi .ne v26 c0_i32_7
  v27

def cc4_transform_0 (i : grid4.Coords) : Fin 1 → Nat :=
  let arg0 : BitVec 32 := BitVec.ofNat 32 (i 0).val
  let arg1 : BitVec 32 := BitVec.ofNat 32 (i 1).val
  let c0_i32 : BitVec 32 := 0#32
  ![arg0.toNat]

def cc4_transform_1 (i : grid4.Coords) : Fin 1 → Nat :=
  let arg0 : BitVec 32 := BitVec.ofNat 32 (i 0).val
  let arg1 : BitVec 32 := BitVec.ofNat 32 (i 1).val
  let c0_i32 : BitVec 32 := 0#32
  ![arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S8192x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S1024x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![13, 1661], ![false, false]⟩

def k5_cond2 (i : grid5.Coords) : BitVec 1 :=
  let arg1 : BitVec 32 := BitVec.ofNat 32 (i 1).val
  let c1660_i32 : BitVec 32 := 1660#32
  let v25 : BitVec 1 := Scalar.cmpi .eq arg1 c1660_i32
  let v26 : BitVec 32 := Scalar.extui v25
  let c0_i32_7 : BitVec 32 := 0#32
  let v27 : BitVec 1 := Scalar.cmpi .ne v26 c0_i32_7
  v27

def cc5_transform_0 (i : grid5.Coords) : Fin 1 → Nat :=
  let arg0 : BitVec 32 := BitVec.ofNat 32 (i 0).val
  let arg1 : BitVec 32 := BitVec.ofNat 32 (i 1).val
  let c0_i32 : BitVec 32 := 0#32
  ![arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1024 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S1024x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 1 → Memref sig .tc .vmem S64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S8192x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev grid6 : Pipeline.Grid := ⟨1, ![13], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8192x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S8192x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨2, ![1661, 13], ![false, false]⟩

def k7_cond2 (i : grid7.Coords) : BitVec 1 :=
  let arg1 : BitVec 32 := BitVec.ofNat 32 (i 1).val
  let c12_i32 : BitVec 32 := 12#32
  let v25 : BitVec 1 := Scalar.cmpi .eq arg1 c12_i32
  let v26 : BitVec 32 := Scalar.extui v25
  let c0_i32_7 : BitVec 32 := 0#32
  let v27 : BitVec 1 := Scalar.cmpi .ne v26 c0_i32_7
  v27

def cc7_transform_0 (i : grid7.Coords) : Fin 1 → Nat :=
  let arg0 : BitVec 32 := BitVec.ofNat 32 (i 0).val
  let arg1 : BitVec 32 := BitVec.ofNat 32 (i 1).val
  let c0_i32 : BitVec 32 := 0#32
  ![arg0.toNat]

def cc7_transform_1 (i : grid7.Coords) : Fin 1 → Nat :=
  let arg0 : BitVec 32 := BitVec.ofNat 32 (i 0).val
  let arg1 : BitVec 32 := BitVec.ofNat 32 (i 1).val
  let c0_i32 : BitVec 32 := 0#32
  ![arg0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S1024 .i32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S1024 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

abbrev stage7_2 : Fin 2 → Memref sig .tc .vmem S8192x32 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![false, true]

abbrev stage7_3 : Fin 2 → Memref sig .tc .vmem S1024x32 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false]

abbrev grid8 : Pipeline.Grid := ⟨2, ![13, 1661], ![false, false]⟩

def k8_cond2 (i : grid8.Coords) : BitVec 1 :=
  let arg1 : BitVec 32 := BitVec.ofNat 32 (i 1).val
  let c1660_i32 : BitVec 32 := 1660#32
  let v25 : BitVec 1 := Scalar.cmpi .eq arg1 c1660_i32
  let v26 : BitVec 32 := Scalar.extui v25
  let c0_i32_7 : BitVec 32 := 0#32
  let v27 : BitVec 1 := Scalar.cmpi .ne v26 c0_i32_7
  v27

def cc8_transform_0 (i : grid8.Coords) : Fin 1 → Nat :=
  let arg0 : BitVec 32 := BitVec.ofNat 32 (i 0).val
  let arg1 : BitVec 32 := BitVec.ofNat 32 (i 1).val
  let c0_i32 : BitVec 32 := 0#32
  ![arg1.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_2 (i : grid8.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 2 → Memref sig .tc .vmem S1024 .i32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![false, true]

abbrev stage8_1 : Fin 2 → Memref sig .tc .vmem S1024x32 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 1 → Memref sig .tc .vmem S32 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false, false]

abbrev stage8_3 : Fin 2 → Memref sig .tc .vmem S8192x32 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S864 : S_.BroadcastsInDim S864 (![] : Fin 0 → Fin S864.rank)
  concatenates_S1700000_S864_S1700864_d0 : Shape.Concatenates [S1700000, S864] S1700864 0
  pads_S100000x64_S106496x64_064960_000 : S100000x64.Pads (![0, 0] : Fin 2 → Nat) ![6496, 0] ![0, 0] S106496x64
  h_S_ : 0 < S_.numel
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024_S1024_0 : ∀ a, (![0] : Fin 1 → Nat) a + S1024.size a ≤ S1024.size a
  h_S1024 : 0 < S1024.numel
  shapeCasts_S1024_S1024 : S1024.ShapeCasts S1024
  iota_S1x8192_d1_w32 : S1x8192.Iotas .tc 32 [1]
  shapeCasts_S1024_S1024x1 : S1024.ShapeCasts S1024x1
  broadcasts_S1024x1_S1024x8192 : S1024x1.Broadcasts S1024x8192
  broadcasts_S1x8192_S1024x8192 : S1x8192.Broadcasts S1024x8192
  natLt_1_32 : 1 < 32
  broadcasts_S1024x1_S1024x64 : S1024x1.Broadcasts S1024x64
  iota_S8192x1_d0_w32 : S8192x1.Iotas .tc 32 [0]
  shapeCasts_S1024_S1x1024 : S1024.ShapeCasts S1x1024
  broadcasts_S8192x1_S8192x1024 : S8192x1.Broadcasts S8192x1024
  broadcasts_S1x1024_S8192x1024 : S1x1024.Broadcasts S8192x1024
  inb_S64_S64_0 : ∀ a, (![0] : Fin 1 → Nat) a + S64.size a ≤ S64.size a
  h_S64 : 0 < S64.numel
  shapeCasts_S64_S1x64 : S64.ShapeCasts S1x64
  broadcasts_S1x64_S8192x64 : S1x64.Broadcasts S8192x64
  slices_S106496x64_S100000x64_0_0 : S106496x64.Slices ![0, 0] S100000x64
  bcast_S_S100000x64 : S_.BroadcastsInDim S100000x64 (![] : Fin 0 → Fin S100000x64.rank)
  inb_S64x32_S64x32_0_0 : ∀ a, (![0, 0] : Fin 2 → Nat) a + S64x32.size a ≤ S64x32.size a
  h_S64x32 : 0 < S64x32.numel
  inb_S8192x32_S8192x32_0_0 : ∀ a, (![0, 0] : Fin 2 → Nat) a + S8192x32.size a ≤ S8192x32.size a
  h_S8192x32 : 0 < S8192x32.numel
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  shapeCasts_S8192x32_S8192x32 : S8192x32.ShapeCasts S8192x32
  broadcasts_S1024x1_S1024x32 : S1024x1.Broadcasts S1024x32
  inb_S32_S32_0 : ∀ a, (![0] : Fin 1 → Nat) a + S32.size a ≤ S32.size a
  h_S32 : 0 < S32.numel
  shapeCasts_S32_S1x32 : S32.ShapeCasts S1x32
  broadcasts_S1x32_S8192x32 : S1x32.Broadcasts S8192x32
  slices_S106496x32_S100000x32_0_0 : S106496x32.Slices ![0, 0] S100000x32
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S8192x64_S64x64_S8192x64_1_0_0_1_n_n_wf : DotDims.WF S8192x64 S64x64 S8192x64 [1] [0] [0] [1] [] []
  dot_S1024x8192_S8192x64_S1024x64_1_0_0_1_n_n_wf : DotDims.WF S1024x8192 S8192x64 S1024x64 [1] [0] [0] [1] [] []
  dot_S8192x1024_S1024x64_S8192x64_1_0_0_1_n_n_wf : DotDims.WF S8192x1024 S1024x64 S8192x64 [1] [0] [0] [1] [] []
  dot_S8192x64_S64x32_S8192x32_1_0_0_1_n_n_wf : DotDims.WF S8192x64 S64x32 S8192x32 [1] [0] [0] [1] [] []
  dot_S1024x8192_S8192x32_S1024x32_1_0_0_1_n_n_wf : DotDims.WF S1024x8192 S8192x32 S1024x32 [1] [0] [0] [1] [] []
  dot_S8192x1024_S1024x32_S8192x32_1_0_0_1_n_n_wf : DotDims.WF S8192x1024 S1024x32 S8192x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S106496x64.size a
  hwx0_0 : ∀ i : grid0.Coords, EltTy.bits .f32 = 32 ∨ (Rect.block (s := S106496x64) S8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S106496x64.size a
  hwx0_2 : ∀ i : grid0.Coords, EltTy.bits .f32 = 32 ∨ (Rect.block (s := S106496x64) S8192x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024.size a ≤ S1700864.size a
  hwx1_0 : ∀ i : grid1.Coords, EltTy.bits .i32 = 32 ∨ (Rect.block (s := S1700864) S1024.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024.size a ≤ S1700864.size a
  hwx1_1 : ∀ i : grid1.Coords, EltTy.bits .f32 = 32 ∨ (Rect.block (s := S1700864) S1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x64.size a ≤ S106496x64.size a
  hwx1_2 : ∀ i : grid1.Coords, EltTy.bits .f32 = 32 ∨ (Rect.block (s := S106496x64) S8192x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S1700864x64.size a
  hwx1_3 : ∀ i : grid1.Coords, EltTy.bits .f32 = 32 ∨ (Rect.block (s := S1700864x64) S1024x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024.size a ≤ S1700864.size a
  hwx2_0 : ∀ i : grid2.Coords, EltTy.bits .i32 = 32 ∨ (Rect.block (s := S1700864) S1024.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x64.size a ≤ S1700864x64.size a
  hwx2_1 : ∀ i : grid2.Coords, EltTy.bits .f32 = 32 ∨ (Rect.block (s := S1700864x64) S1024x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8192x64.size a ≤ S106496x64.size a
  hwx2_3 : ∀ i : grid2.Coords, EltTy.bits .f32 = 32 ∨ (Rect.block (s := S106496x64) S8192x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x64.size a ≤ S106496x64.size a
  hwx3_0 : ∀ i : grid3.Coords, EltTy.bits .f32 = 32 ∨ (Rect.block (s := S106496x64) S8192x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8192x64.size a ≤ S106496x64.size a
  hwx3_2 : ∀ i : grid3.Coords, EltTy.bits .f32 = 32 ∨ (Rect.block (s := S106496x64) S8192x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024.size a ≤ S1700864.size a
  hwx4_0 : ∀ i : grid4.Coords, EltTy.bits .i32 = 32 ∨ (Rect.block (s := S1700864) S1024.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024.size a ≤ S1700864.size a
  hwx4_1 : ∀ i : grid4.Coords, EltTy.bits .f32 = 32 ∨ (Rect.block (s := S1700864) S1024.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8192x64.size a ≤ S106496x64.size a
  hwx4_2 : ∀ i : grid4.Coords, EltTy.bits .f32 = 32 ∨ (Rect.block (s := S106496x64) S8192x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x64.size a ≤ S1700864x64.size a
  hwx4_3 : ∀ i : grid4.Coords, EltTy.bits .f32 = 32 ∨ (Rect.block (s := S1700864x64) S1024x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024.size a ≤ S1700864.size a
  hwx5_0 : ∀ i : grid5.Coords, EltTy.bits .i32 = 32 ∨ (Rect.block (s := S1700864) S1024.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x64.size a ≤ S1700864x64.size a
  hwx5_1 : ∀ i : grid5.Coords, EltTy.bits .f32 = 32 ∨ (Rect.block (s := S1700864x64) S1024x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64.size a ≤ S64.size a
  hwx5_2 : ∀ i : grid5.Coords, EltTy.bits .f32 = 32 ∨ (Rect.block (s := S64) S64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S8192x64.size a ≤ S106496x64.size a
  hwx5_3 : ∀ i : grid5.Coords, EltTy.bits .f32 = 32 ∨ (Rect.block (s := S106496x64) S8192x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8192x64.size a ≤ S106496x64.size a
  hwx6_0 : ∀ i : grid6.Coords, EltTy.bits .f32 = 32 ∨ (Rect.block (s := S106496x64) S8192x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x32.size a ≤ S64x32.size a
  hwx6_1 : ∀ i : grid6.Coords, EltTy.bits .f32 = 32 ∨ (Rect.block (s := S64x32) S64x32.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S8192x32.size a ≤ S106496x32.size a
  hwx6_2 : ∀ i : grid6.Coords, EltTy.bits .f32 = 32 ∨ (Rect.block (s := S106496x32) S8192x32.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024.size a ≤ S1700864.size a
  hwx7_0 : ∀ i : grid7.Coords, EltTy.bits .i32 = 32 ∨ (Rect.block (s := S1700864) S1024.size (cc7_transform_0 i) (hinb7_0 i)).WholeWords (EltTy.packing .i32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1024.size a ≤ S1700864.size a
  hwx7_1 : ∀ i : grid7.Coords, EltTy.bits .f32 = 32 ∨ (Rect.block (s := S1700864) S1024.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S8192x32.size a ≤ S106496x32.size a
  hwx7_2 : ∀ i : grid7.Coords, EltTy.bits .f32 = 32 ∨ (Rect.block (s := S106496x32) S8192x32.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1024x32.size a ≤ S1700864x32.size a
  hwx7_3 : ∀ i : grid7.Coords, EltTy.bits .f32 = 32 ∨ (Rect.block (s := S1700864x32) S1024x32.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1024.size a ≤ S1700864.size a
  hwx8_0 : ∀ i : grid8.Coords, EltTy.bits .i32 = 32 ∨ (Rect.block (s := S1700864) S1024.size (cc8_transform_0 i) (hinb8_0 i)).WholeWords (EltTy.packing .i32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1024x32.size a ≤ S1700864x32.size a
  hwx8_1 : ∀ i : grid8.Coords, EltTy.bits .f32 = 32 ∨ (Rect.block (s := S1700864x32) S1024x32.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S32.size a ≤ S32.size a
  hwx8_2 : ∀ i : grid8.Coords, EltTy.bits .f32 = 32 ∨ (Rect.block (s := S32) S32.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S8192x32.size a ≤ S106496x32.size a
  hwx8_3 : ∀ i : grid8.Coords, EltTy.bits .f32 = 32 ∨ (Rect.block (s := S106496x32) S8192x32.size (cc8_transform_3 i) (hinb8_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S1024x8192_S8192x64_S1024x64_1_0_0_1_n_n : DotDims S1024x8192 S8192x64 S1024x64 where
  lhsContracting := [1]
  rhsContracting := [0]
  lhsNonContracting := [0]
  rhsNonContracting := [1]
  lhsBatch := []
  rhsBatch := []
  wf := dot_S1024x8192_S8192x64_S1024x64_1_0_0_1_n_n_wf
def dot_S8192x1024_S1024x64_S8192x64_1_0_0_1_n_n : DotDims S8192x1024 S1024x64 S8192x64 where
  lhsContracting := [1]
  rhsContracting := [0]
  lhsNonContracting := [0]
  rhsNonContracting := [1]
  lhsBatch := []
  rhsBatch := []
  wf := dot_S8192x1024_S1024x64_S8192x64_1_0_0_1_n_n_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf
def dot_S1024x8192_S8192x32_S1024x32_1_0_0_1_n_n : DotDims S1024x8192 S8192x32 S1024x32 where
  lhsContracting := [1]
  rhsContracting := [0]
  lhsNonContracting := [0]
  rhsNonContracting := [1]
  lhsBatch := []
  rhsBatch := []
  wf := dot_S1024x8192_S8192x32_S1024x32_1_0_0_1_n_n_wf
def dot_S8192x1024_S1024x32_S8192x32_1_0_0_1_n_n : DotDims S8192x1024 S1024x32 S8192x32 where
  lhsContracting := [1]
  rhsContracting := [0]
  lhsNonContracting := [0]
  rhsNonContracting := [1]
  lhsBatch := []
  rhsBatch := []
  wf := dot_S8192x1024_S1024x32_S8192x32_1_0_0_1_n_n_wf

abbrev win0_0 : Pipeline.Window sig grid0 :=
  Pipeline.Window.ofSpec (Memref.whole main_v36) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S8192x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v31) S1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S8192x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v33) S1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S1024x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S8192x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v42) S8192x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v43) S8192x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v31) S1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v35) S1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v43) S8192x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v44) S1024x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v33) S1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v44) S1024x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg5) S64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v45) S8192x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

abbrev win6_0 : Pipeline.Window sig grid6 :=
  Pipeline.Window.ofSpec (Memref.whole main_v48) S8192x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S64x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v49) S8192x32.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v31) S1024.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v35) S1024.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v49) S8192x32.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v50) S1024x32.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun _ => false | 3 => fun i => !(k7_cond2 i == 1#1) | ⟨_ + 4, h⟩ => absurd h (Nat.not_lt.2 (Nat.le_add_left _ _))

abbrev win8_0 : Pipeline.Window sig grid8 :=
  Pipeline.Window.ofSpec (Memref.whole main_v33) S1024.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v50) S1024x32.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_arg7) S32.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v51) S8192x32.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev idle8 : Fin 4 → grid8.Coords → Bool := fun | 0 => fun _ => false | 1 => fun _ => false | 2 => fun _ => false | 3 => fun i => !(k8_cond2 i == 1#1) | ⟨_ + 4, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 186
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x64, .f32⟩
  | 5 => ⟨S64, .f32⟩
  | 6 => ⟨S64x32, .f32⟩
  | 7 => ⟨S32, .f32⟩
  | 8 => ⟨S1x1600000, .i32⟩
  | 9 => ⟨S1600000, .i32⟩
  | 10 => ⟨S1x1600000, .i32⟩
  | 11 => ⟨S1600000, .i32⟩
  | 12 => ⟨S100000, .i32⟩
  | 13 => ⟨S1700000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S_, .f32⟩
  | 26 => ⟨S100000, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S100000x64, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x64, .f32⟩
  | 58 => ⟨S1700000x1, .f32⟩
  | 59 => ⟨S1700000x64, .f32⟩
  | 60 => ⟨S1700000x64, .f32⟩
  | 61 => ⟨S_, .f32⟩
  | 62 => ⟨S100000x64, .f32⟩
  | 63 => ⟨S1700000x1, .i32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S100000, .i32⟩
  | 72 => ⟨S1700000, .i32⟩
  | 73 => ⟨S1700000, .i32⟩
  | 74 => ⟨S_, .f32⟩
  | 75 => ⟨S1700000, .f32⟩
  | 76 => ⟨S_, .f32⟩
  | 77 => ⟨S100000, .f32⟩
  | 78 => ⟨S1700000x1, .i32⟩
  | 79 => ⟨S100000, .f32⟩
  | 80 => ⟨S_, .f32⟩
  | 81 => ⟨S100000, .f32⟩
  | 82 => ⟨S100000, .i1⟩
  | 83 => ⟨S_, .f32⟩
  | 84 => ⟨S_, .f32⟩
  | 85 => ⟨S100000, .f32⟩
  | 86 => ⟨S100000, .f32⟩
  | 87 => ⟨S100000, .f32⟩
  | 88 => ⟨S_, .i32⟩
  | 89 => ⟨S1700000, .i32⟩
  | 90 => ⟨S1700000, .i1⟩
  | 91 => ⟨S_, .i32⟩
  | 92 => ⟨S1700000, .i32⟩
  | 93 => ⟨S1700000, .i32⟩
  | 94 => ⟨S1700000, .i32⟩
  | 95 => ⟨S1700000x1, .i32⟩
  | 96 => ⟨S1700000, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000, .f32⟩
  | 106 => ⟨S1700000, .f32⟩
  | 107 => ⟨S100000x64, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000x64, .f32⟩
  | 117 => ⟨S1700000x1, .f32⟩
  | 118 => ⟨S1700000x64, .f32⟩
  | 119 => ⟨S1700000x64, .f32⟩
  | 120 => ⟨S_, .f32⟩
  | 121 => ⟨S100000x64, .f32⟩
  | 122 => ⟨S1700000x1, .i32⟩
  | 123 => ⟨S100000x64, .f32⟩
  | 124 => ⟨S1x64, .f32⟩
  | 125 => ⟨S100000x64, .f32⟩
  | 126 => ⟨S100000x64, .f32⟩
  | 127 => ⟨S_, .f32⟩
  | _ => ⟨S100000x64, .f32⟩

abbrev hbmTy0_1 (i : Nat) : BufTy := match i % 128 with
  | 0 => ⟨S100000x64, .f32⟩
  | 1 => ⟨S100000x64, .f32⟩
  | 2 => ⟨S100000, .i32⟩
  | 3 => ⟨S1700000, .i32⟩
  | 4 => ⟨S1700000, .i32⟩
  | 5 => ⟨S_, .f32⟩
  | 6 => ⟨S1700000, .f32⟩
  | 7 => ⟨S_, .f32⟩
  | 8 => ⟨S100000, .f32⟩
  | 9 => ⟨S1700000x1, .i32⟩
  | 10 => ⟨S100000, .f32⟩
  | 11 => ⟨S_, .f32⟩
  | 12 => ⟨S100000, .f32⟩
  | 13 => ⟨S100000, .i1⟩
  | 14 => ⟨S_, .f32⟩
  | 15 => ⟨S_, .f32⟩
  | 16 => ⟨S100000, .f32⟩
  | 17 => ⟨S100000, .f32⟩
  | 18 => ⟨S100000, .f32⟩
  | 19 => ⟨S_, .i32⟩
  | 20 => ⟨S1700000, .i32⟩
  | 21 => ⟨S1700000, .i1⟩
  | 22 => ⟨S_, .i32⟩
  | 23 => ⟨S1700000, .i32⟩
  | 24 => ⟨S1700000, .i32⟩
  | 25 => ⟨S1700000, .i32⟩
  | 26 => ⟨S1700000x1, .i32⟩
  | 27 => ⟨S1700000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S1700000, .f32⟩
  | 38 => ⟨S100000x32, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000x32, .f32⟩
  | 48 => ⟨S1700000x1, .f32⟩
  | 49 => ⟨S1700000x32, .f32⟩
  | 50 => ⟨S1700000x32, .f32⟩
  | 51 => ⟨S_, .f32⟩
  | 52 => ⟨S100000x32, .f32⟩
  | 53 => ⟨S1700000x1, .i32⟩
  | 54 => ⟨S100000x32, .f32⟩
  | 55 => ⟨S1x32, .f32⟩
  | 56 => ⟨S100000x32, .f32⟩
  | 57 => ⟨S100000x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v57 : Ref sig .tc := ⟨.hbm, 86, rfl⟩
abbrev main_v58 : Ref sig .tc := ⟨.hbm, 87, rfl⟩
abbrev main_c_13 : Ref sig .tc := ⟨.hbm, 88, rfl⟩
abbrev main_v59 : Ref sig .tc := ⟨.hbm, 89, rfl⟩
abbrev main_v60 : Ref sig .tc := ⟨.hbm, 90, rfl⟩
abbrev main_c_14 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_15 : Ref sig .tc := ⟨.hbm, 97, rfl⟩
abbrev main_v66 : Ref sig .tc := ⟨.hbm, 98, rfl⟩
abbrev main_v67 : Ref sig .tc := ⟨.hbm, 99, rfl⟩
abbrev main_c_16 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call3_cst : Ref sig .tc := ⟨.hbm, 127, rfl⟩
abbrev main_call3_v0 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_20 : Ref sig .tc := ⟨.hbm, 133, rfl⟩
abbrev main_v95 : Ref sig .tc := ⟨.hbm, 134, rfl⟩
abbrev main_cst_21 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_22 : Ref sig .tc := ⟨.hbm, 139, rfl⟩
abbrev main_v99 : Ref sig .tc := ⟨.hbm, 140, rfl⟩
abbrev main_v100 : Ref sig .tc := ⟨.hbm, 141, rfl⟩
abbrev main_cst_23 : Ref sig .tc := ⟨.hbm, 142, rfl⟩
abbrev main_call4_v0 : Ref sig .tc := ⟨.hbm, 143, rfl⟩
abbrev main_call4_v1 : Ref sig .tc := ⟨.hbm, 144, rfl⟩
abbrev main_v101 : Ref sig .tc := ⟨.hbm, 145, rfl⟩
abbrev main_v102 : Ref sig .tc := ⟨.hbm, 146, rfl⟩
abbrev main_c_24 : Ref sig .tc := ⟨.hbm, 147, rfl⟩
abbrev main_v103 : Ref sig .tc := ⟨.hbm, 148, rfl⟩
abbrev main_v104 : Ref sig .tc := ⟨.hbm, 149, rfl⟩
abbrev main_c_25 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_c_26 : Ref sig .tc := ⟨.hbm, 156, rfl⟩
abbrev main_v110 : Ref sig .tc := ⟨.hbm, 157, rfl⟩
abbrev main_v111 : Ref sig .tc := ⟨.hbm, 158, rfl⟩
abbrev main_c_27 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_c_28 : Ref sig .tc := ⟨.hbm, 167, rfl⟩
abbrev main_v119 : Ref sig .tc := ⟨.hbm, 168, rfl⟩
abbrev main_v120 : Ref sig .tc := ⟨.hbm, 169, rfl⟩
abbrev main_c_29 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_cst_30 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.RefFrame.lean ====
/-
  The reference program is a line of host operations with no kernel launch: three graph-convolution layers, each
  a degree count by scatter-add, its inverse square root, two gathers for the edge weights, a dense product, a row
  gather, a scaling, a scatter-add over target nodes and a bias.  Its run to the end — every weakly fair execution
  terminates, nothing faults, each result buffer holds the composed term of the argument arrays and the arguments
  are unchanged — is the generated run (in its repaired copy); dropping the result gives the frame.
-/
import proofs.«155233_j36086315221040_1_alg».proof.Defs
import proofs.«155233_j36086315221040_1_alg».proof.Proof.Gen.ReferenceIdeal
import proofs.«155233_j36086315221040_1_alg».proof.Proof.Gen.Pre_finite_inputs
import proofs.«155233_j36086315221040_1_alg».proof.Proof.RefRunPatched

noncomputable section

open Idealize.ShloMosaic Idealize.ShloMosaic.TcCoe Idealize.SL.Sem

namespace Cert.Proof.RefSide

/-- The reference runs to the end without a fault and leaves its eight argument arrays as it found them. -/
theorem frame_ri : Cert.frame_ReferenceIdeal := fun m ρ _ =>
  (θ_run Cert.ReferenceIdeal.defs _ _).mono (fun _ h c => (h c).2) (Cert.ReferenceIdeal.ValueP.run (F := Ideal) m ρ)

end Cert.Proof.RefSide

end
-- ==== Proof.Region0.lean ====
/-
  The dense transform's region (kernel call 0), on every core, at any float values, from any contents `V` of the
  TensorCore's buffers at its entry.

  Its grid has 13 points, one per tile of 8192 node rows.  At point t the pipeline hands the body the t-th tile of the
  padded node table (window 0, fetched at every point), the whole weight matrix (window 1, fetched once: its block does
  not move) and a staging buffer for the t-th tile of the result (window 2, written back at every point).  The body
  loads the two inputs, looks at the result's buffer, and stores the product over the whole buffer: after it the
  result's buffer holds the one stored piece, the product of the two input blocks, and the inputs' buffers are as
  found.  It keeps nothing between points, so the region's invariant is the untouched rest (the scoped buffers no
  window stages, the generator register).
-/
import proofs.«155233_j36086315221040_1_alg».proof.Proof.Gen.KernelIdeal.Launch
import proofs.«155233_j36086315221040_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The node tile's staging buffer holds its block at every point. -/
theorem found_0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The weight matrix's staging buffer holds the matrix at every point, fetched there or not: its block never moves. -/
theorem found_1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The whole-buffer rectangles the body loads and stores through. -/
abbrev rX : Rect S8192x64 := Rect.unit (s := S8192x64) ![0, 0] S8192x64.size inb_S8192x64_S8192x64_0_0
abbrev rW : Rect S64x64 := Rect.unit (s := S64x64) ![0, 0] S64x64.size inb_S64x64_S64x64_0_0
abbrev rO : Rect S8192x64 := Rect.unit (s := S8192x64) ![0, 0] S8192x64.size inb_S8192x64_S8192x64_0_0

/-- What the body leaves in the result's staging buffer: its one store, the product of the two loaded blocks. -/
def product (x0 : Vec F S8192x64 .f32) (x1 : Vec F S64x64 .f32) : Vec F S8192x64 .f32 :=
  View.canon [⟨rO, k0_pay1 (View.ld x0 rX) (View.ld x1 rW)⟩]

/-- The one store is over the whole buffer. -/
theorem product_cover (p0 : Vec F S8192x64 .f32) (y : S8192x64.Idx) :
    ∃ pc ∈ ([⟨rO, p0⟩] : List (View.Piece (Elt F) S8192x64 .f32)), y ∈ pc.1.set :=
  View.cover_of_tiled [⟨rO, p0⟩] S8192x64.size (by rfl) y

set_option maxHeartbeats 1000000 in
/-- The body on whole staging memrefs: from the inputs at their contents and the result's buffer at anything, it runs to
    the inputs as they were and the result's buffer at the product. -/
theorem body_run (c : Dev nD) (E : Set ℕ) (i : grid0.Coords)
    (arg1 : Memref sig .tc .vmem S8192x64 .f32) (harg1 : arg1.IsWhole) (arg2 : Memref sig .tc .vmem S64x64 .f32) (harg2 : arg2.IsWhole)
    (arg3 : Memref sig .tc .vmem S8192x64 .f32) (harg3 : arg3.IsWhole)
    (x0 : Vec F S8192x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (product x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (product_cover _)

/-- The region's proof data on core c: the arrays as the region finds them; after the body at point t each input's
    buffer at its block and the result's at the product of the two; the invariant the untouched rest; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => product (blk V c 0 t) (blk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = product (blk V c 0 t) (blk V c 1 t) := by dsimp only [dat]

theorem before_0 (c : Dev nD) (t : Fin cfg0.N) (d) : (dat V c).before 0 t d = blk V c 0 t :=
  found_0 V (dat V c) (A_eq V c 0) (after_0 V c) t d
theorem before_1 (c : Dev nD) (t : Fin cfg0.N) (d) : (dat V c).before 1 t d = blk V c 1 t :=
  found_1 V (dat V c) (A_eq V c 1) (after_1 V c) t d

/-- The current staging memref of each window at point t, and the body as the pipeline calls it there. -/
abbrev st_0 (t : Fin cfg0.N) := (cfg0.win 0).stage (cfg0.slots t 0)
abbrev st_1 (t : Fin cfg0.N) := (cfg0.win 1).stage (cfg0.slots t 1)
abbrev st_2 (t : Fin cfg0.N) := (cfg0.win 2).stage (cfg0.slots t 2)
abbrev bodyAt (t : Fin cfg0.N) : Prog (TpuEff nD τ sig (Elt F) Λ₀ .tc) PUnit :=
  cc0__linear_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2))

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (st_0 t) fullShare ((dat V c).before 0 t d))
    ∗ (∃ d, owns (c : Thread nD τ) (st_1 t) fullShare ((dat V c).before 1 t d))
    ∗ (∃ d, owns (c : Thread nD τ) (st_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st_0 t) fullShare ((dat V c).after 0 t)
    ∗ owns (c : Thread nD τ) (st_1 t) fullShare ((dat V c).after 1 t)
    ∗ owns (c : Thread nD τ) (st_2 t) fullShare ((dat V c).after 2 t))

/-- The body at any point: the inputs' buffers hold their blocks, so the run applies; the invariant and the core's
    dues pass through unread. -/
theorem body_at (c : Dev nD) (t : Fin cfg0.N) :
    bodyPre V c t ⊢ wp frame (wpE (defs₀ (F := F)) Variants.none c none) Set.univ (bodyAt t) (fun _ => bodyPost V c t) := by
  unfold bodyPre bodyPost bodyAt
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (body_run c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact body_at V c t

/-- The region keeps nothing between points: its invariant is the untouched rest at both ends. -/
theorem hin (c : Dev nD) : Pipeline.ΦA spec0 c ⊢ (dat V c).Φ 0 := BI.Entails.refl _
theorem hout (c : Dev nD) : (dat V c).Φ (Fin.last cfg0.N) ⊢ Pipeline.ΦA spec0 c := BI.Entails.refl _

end Cert.KernelIdeal.R0

end
-- ==== Proof.GridFacts.lean ====
/-
  The gather's and the scatter's grids, decided once.

  The gather's grid is 1661 × 13 (edge tile, table tile innermost): point t is table tile t mod 13 of edge tile t / 13; the
  body's first-tile test holds exactly at t mod 13 = 0, its last-tile test at t mod 13 = 12, and the result's block is
  written back exactly there.  The scatter's grid is 13 × 1661 (node tile, edge tile innermost): the tests hold at
  t mod 1661 = 0 and 1660.  Each is a statement about 21593 points, checked by evaluation; the three layers' grids and
  conditions are the same terms, so each layer cites these.
-/
import proofs.«155233_j36086315221040_1_alg».proof.Proof.Gen.KernelIdeal

namespace Cert.Proof.GridFacts

open Cert.KernelIdeal Idealize.ShloMosaic

theorem gather_first : ∀ t : Fin grid1.N,
    (Scalar.cmpi .ne (Scalar.extui (Scalar.cmpi .eq (BitVec.ofNat 32 ((grid1.coords t) 1).val) 0#32)) 0#32) = 1#1 ↔ t.val % 13 = 0 := by decide +kernel
theorem gather_last : ∀ t : Fin grid1.N, k1_cond2 (grid1.coords t) = 1#1 ↔ t.val % 13 = 12 := by decide +kernel
theorem gather_flush : ∀ t : Fin grid1.N, win1_3.flush t = true ↔ t.val % 13 = 12 := by decide +kernel

theorem scatter_first : ∀ t : Fin grid2.N,
    (Scalar.cmpi .ne (Scalar.extui (Scalar.cmpi .eq (BitVec.ofNat 32 ((grid2.coords t) 1).val) 0#32)) 0#32) = 1#1 ↔ t.val % 1661 = 0 := by decide +kernel
theorem scatter_last : ∀ t : Fin grid2.N, k2_cond2 (grid2.coords t) = 1#1 ↔ t.val % 1661 = 1660 := by decide +kernel
theorem scatter_flush : ∀ t : Fin grid2.N, win2_3.flush t = true ↔ t.val % 1661 = 1660 := by decide +kernel

end Cert.Proof.GridFacts
-- ==== Proof.Region1.lean ====
/-
  The gather's region (kernel call 1), on every core, at any float values, from any contents `V` of the TensorCore's
  buffers at its entry.

  Its grid has 1661 × 13 points: an edge tile of 1024 edges, and for it the 13 tiles of 8192 rows of the padded node
  table, innermost.  At a point the body is handed the tile's source words (window 0) and edge weights (window 1), both
  fetched when the edge tile changes, the table tile (window 2, fetched at every point), a staging buffer for the tile
  of the result (window 3, written back at the edge tile's last point only) and a scratch block that it carries from
  point to point.  Three cases, by the table tile's number k = t mod 13:
    first  (k = 0):   the scratch is stored zero, then the tile's one-hot product is added into it;
    middle (0<k<12):  the product is added into the scratch as the point before left it;
    last   (k = 12):  the same, and then the scratch times the weights is stored over the whole result buffer.
  At the first two the result's buffer is idle: handed back as found and not written back.  After every point the
  scratch holds what the case's stores leave, read back; the region's invariant carries it.
-/
import proofs.«155233_j36086315221040_1_alg».proof.Proof.Gen.KernelIdeal.Launch
import proofs.«155233_j36086315221040_1_alg».proof.Proof.Gen.KernelIdeal.Skeleton
import proofs.«155233_j36086315221040_1_alg».proof.Proof.GridFacts
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's staging buffer holds its block at every point, fetched there or not (a block not fetched has not moved). -/
theorem found_0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found_1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found_2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's two conditions, decided over the grid -/

/-- "This is the edge tile's first table tile", as the body computes it from the grid coordinates. -/
abbrev isFirst (i : grid1.Coords) : Prop := (Scalar.cmpi .ne (Scalar.extui (Scalar.cmpi .eq (BitVec.ofNat 32 (i 1).val) 0#32)) 0#32) = 1#1
theorem isFirst_iff : ∀ t : Fin cfg1.N, isFirst (grid1.coords t) ↔ t.val % 13 = 0 :=
  Cert.Proof.GridFacts.gather_first
/-- "This is its last table tile". -/
abbrev isLast (i : grid1.Coords) : Prop := k1_cond2 i = 1#1
theorem isLast_iff : ∀ t : Fin cfg1.N, isLast (grid1.coords t) ↔ t.val % 13 = 12 :=
  Cert.Proof.GridFacts.gather_last

/-- The result's block is written back exactly at the last inner point. -/
theorem flush_3 : ∀ t : Fin cfg1.N, (cfg1.win 3).flush t = true ↔ t.val % 13 = 12 :=
  Cert.Proof.GridFacts.gather_flush
/-- The body as the pipeline calls it at point t. -/
abbrev bodyAt (t : Fin cfg1.N) : Prog (TpuEff nD τ sig (Elt F) Λ₀ .tc) PUnit :=
  cc1__gather_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _)

/-- Where the result's window is idle: exactly off the last table tile (the configuration's table is the negated test). -/
theorem idle_3 (i : grid1.Coords) (h : ¬isLast i) : cfg1.idle 3 i = true := by
  show (!(k1_cond2 i == 1#1)) = true
  simp only [Bool.not_eq_true', beq_eq_false_iff_ne, ne_eq]; exact h
theorem live_3 (i : grid1.Coords) (h : isLast i) : cfg1.idle 3 i = false := by
  show (!(k1_cond2 i == 1#1)) = false
  simp only [Bool.not_eq_false', beq_iff_eq]; exact h
/-- Off the last table tile the result's block is not written back. -/
theorem noFlush_3 (t : Fin cfg1.N) (h : ¬isLast (grid1.coords t)) : (cfg1.win 3).flush t = false := by
  have := flush_3 t
  cases hf : (cfg1.win 3).flush t
  · rfl
  · exact absurd ((isLast_iff t).mpr (this.mp hf)) h

/-! ## The staging and scratch memrefs -/

abbrev VO : View sig .tc .vmem S1024x64 .f32 := (Memref.whole cc1_stg3_0 : Memref sig .tc .vmem S1024x64 .f32).view
abbrev ms_0 (t : Fin cfg1.N) : Memref sig .tc .vmem S1024 .i32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1024 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S8192x64 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1024x64 .f32 := win1_3.stage (cfg1.slots t 3)
abbrev hs_3 (t : Fin cfg1.N) : (ms_3 t).IsWhole := hstage1_3 ((cfg1.slots t 3).cast nbuf1_3)
/-- The scratch block the body carries between points. -/
abbrev scM : Memref sig .tc .vmem S1024x64 .f32 := Memref.whole cc1_scratch0
abbrev VS : View sig .tc .vmem S1024x64 .f32 := (scM).view

/-- The untouched rest with the scratch block taken out of it, owned at some contents. -/
theorem rest_eq (c : Dev nD) :
    (Pipeline.ΦA spec1 c : sProp 𝕄)
      = iprop(iprop((∃ d, owns (c : Thread nD τ) scM fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM, owns_whole]
  try rfl

/-! ## The body, case by case: the pieces each buffer ends with are what the run finds -/

set_option maxHeartbeats 2000000 in
/-- FIRST table tile of an edge tile: the scratch at anything, the result's buffer handed back untouched. -/
noncomputable def run_first (c : Dev nD) (i : grid1.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole)
    (hc0 : isFirst i) (hc1 : ¬isLast i) (x0 : Vec F S1024 .i32) (x1 : Vec F S1024 .f32) (x2 : Vec F S8192x64 .f32) :
    Σ' (L3 : List (View.Piece (Elt F) S1024x64 .f32)), { LS : List (View.Piece (Elt F) S1024x64 .f32) //
      ∀ (xi3 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E (cc1__gather_kernel i arg2 harg2 arg3 harg3 arg4 harg4 arg5 harg5 arg6 harg6) K } := by
  refine ⟨[], ?_, fun xi3 E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 2000000 in
/-- A MIDDLE table tile: the scratch at what the point before left, the result's buffer handed back untouched. -/
noncomputable def run_mid (c : Dev nD) (i : grid1.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole)
    (hc0 : ¬isFirst i) (hc1 : ¬isLast i) (x0 : Vec F S1024 .i32) (x1 : Vec F S1024 .f32) (x2 : Vec F S8192x64 .f32) (xs0 : Vec F S1024x64 .f32) :
    Σ' (L3 : List (View.Piece (Elt F) S1024x64 .f32)), { LS : List (View.Piece (Elt F) S1024x64 .f32) //
      ∀ (xi3 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E (cc1__gather_kernel i arg2 harg2 arg3 harg3 arg4 harg4 arg5 harg5 arg6 harg6) K } := by
  refine ⟨[], ?_, fun xi3 E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 2000000 in
/-- The LAST table tile: the scratch at what the point before left, the result's buffer at anything and stored whole. -/
noncomputable def run_last (c : Dev nD) (i : grid1.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole)
    (hc0 : ¬isFirst i) (hc1 : isLast i) (x0 : Vec F S1024 .i32) (x1 : Vec F S1024 .f32) (x2 : Vec F S8192x64 .f32) (xs0 : Vec F S1024x64 .f32) :
    Σ' (L3 : List (View.Piece (Elt F) S1024x64 .f32)), { LS : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc1__gather_kernel i arg2 harg2 arg3 harg3 arg4 harg4 arg5 harg5 arg6 harg6) K } := by
  refine ⟨?_, ?_, fun E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! ## What each case leaves in the scratch block and in the result's buffer -/

theorem scover_first (c : Dev nD) (i : grid1.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole) (hc0 : isFirst i) (hc1 : ¬isLast i) (x0 : Vec F S1024 .i32) (x1 : Vec F S1024 .f32) (x2 : Vec F S8192x64 .f32) (y : S1024x64.Idx) :
    ∃ pc ∈ (run_first c i arg2 harg2 arg3 harg3 arg4 harg4 arg5 harg5 arg6 harg6 hc0 hc1 x0 x1 x2).2.1, y ∈ pc.1.set :=
  View.cover_of_tiledL (run_first c i arg2 harg2 arg3 harg3 arg4 harg4 arg5 harg5 arg6 harg6 hc0 hc1 x0 x1 x2).2.1 S1024x64.size (by sl_kernel_rfl) y
/-- After a first table tile the scratch block holds the case's pieces, read back. -/
def scr_first (c : Dev nD) (i : grid1.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole) (hc0 : isFirst i) (hc1 : ¬isLast i) (x0 : Vec F S1024 .i32) (x1 : Vec F S1024 .f32) (x2 : Vec F S8192x64 .f32) : Vec F S1024x64 .f32 :=
  VS.read (Elt F) (VS.writes (Elt F) VS.junk (run_first c i arg2 harg2 arg3 harg3 arg4 harg4 arg5 harg5 arg6 harg6 hc0 hc1 x0 x1 x2).2.1)

theorem scover_mid (c : Dev nD) (i : grid1.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole) (hc0 : ¬isFirst i) (hc1 : ¬isLast i) (x0 : Vec F S1024 .i32) (x1 : Vec F S1024 .f32) (x2 : Vec F S8192x64 .f32) (xs0 : Vec F S1024x64 .f32) (y : S1024x64.Idx) :
    ∃ pc ∈ (run_mid c i arg2 harg2 arg3 harg3 arg4 harg4 arg5 harg5 arg6 harg6 hc0 hc1 x0 x1 x2 xs0).2.1, y ∈ pc.1.set :=
  View.cover_of_tiledL (run_mid c i arg2 harg2 arg3 harg3 arg4 harg4 arg5 harg5 arg6 harg6 hc0 hc1 x0 x1 x2 xs0).2.1 S1024x64.size (by sl_kernel_rfl) y
def scr_mid (c : Dev nD) (i : grid1.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole) (hc0 : ¬isFirst i) (hc1 : ¬isLast i) (x0 : Vec F S1024 .i32) (x1 : Vec F S1024 .f32) (x2 : Vec F S8192x64 .f32) (xs0 : Vec F S1024x64 .f32) : Vec F S1024x64 .f32 :=
  VS.read (Elt F) (VS.writes (Elt F) VS.junk (run_mid c i arg2 harg2 arg3 harg3 arg4 harg4 arg5 harg5 arg6 harg6 hc0 hc1 x0 x1 x2 xs0).2.1)

theorem scover_last (c : Dev nD) (i : grid1.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole) (hc0 : ¬isFirst i) (hc1 : isLast i) (x0 : Vec F S1024 .i32) (x1 : Vec F S1024 .f32) (x2 : Vec F S8192x64 .f32) (xs0 : Vec F S1024x64 .f32) (y : S1024x64.Idx) :
    ∃ pc ∈ (run_last c i arg2 harg2 arg3 harg3 arg4 harg4 arg5 harg5 arg6 harg6 hc0 hc1 x0 x1 x2 xs0).2.1, y ∈ pc.1.set :=
  View.cover_of_tiledL (run_last c i arg2 harg2 arg3 harg3 arg4 harg4 arg5 harg5 arg6 harg6 hc0 hc1 x0 x1 x2 xs0).2.1 S1024x64.size (by sl_kernel_rfl) y
def scr_last (c : Dev nD) (i : grid1.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole) (hc0 : ¬isFirst i) (hc1 : isLast i) (x0 : Vec F S1024 .i32) (x1 : Vec F S1024 .f32) (x2 : Vec F S8192x64 .f32) (xs0 : Vec F S1024x64 .f32) : Vec F S1024x64 .f32 :=
  VS.read (Elt F) (VS.writes (Elt F) VS.junk (run_last c i arg2 harg2 arg3 harg3 arg4 harg4 arg5 harg5 arg6 harg6 hc0 hc1 x0 x1 x2 xs0).2.1)
theorem ocover_last (c : Dev nD) (i : grid1.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole) (hc0 : ¬isFirst i) (hc1 : isLast i) (x0 : Vec F S1024 .i32) (x1 : Vec F S1024 .f32) (x2 : Vec F S8192x64 .f32) (xs0 : Vec F S1024x64 .f32) (y : S1024x64.Idx) :
    ∃ pc ∈ (run_last c i arg2 harg2 arg3 harg3 arg4 harg4 arg5 harg5 arg6 harg6 hc0 hc1 x0 x1 x2 xs0).1, y ∈ pc.1.set :=
  View.cover_of_tiledL (run_last c i arg2 harg2 arg3 harg3 arg4 harg4 arg5 harg5 arg6 harg6 hc0 hc1 x0 x1 x2 xs0).1 S1024x64.size (by sl_kernel_rfl) y
/-- After a last table tile the result's buffer holds the case's pieces, read back. -/
def out_last (c : Dev nD) (i : grid1.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole) (hc0 : ¬isFirst i) (hc1 : isLast i) (x0 : Vec F S1024 .i32) (x1 : Vec F S1024 .f32) (x2 : Vec F S8192x64 .f32) (xs0 : Vec F S1024x64 .f32) : Vec F S1024x64 .f32 :=
  VO.read (Elt F) (VO.writes (Elt F) VO.junk (run_last c i arg2 harg2 arg3 harg3 arg4 harg4 arg5 harg5 arg6 harg6 hc0 hc1 x0 x1 x2 xs0).1)
/-- Where the result's buffer is idle nothing reads what is recorded for it: a placeholder. -/
def out_idle : Vec F S1024x64 .f32 := VO.read (Elt F) VO.junk

/-! ## Point by point -/

/-- After the body at position n: the result's staging buffer, then the scratch block — the case the point is in, run at the
    point's memrefs and input blocks, over the scratch the point before left. -/
def outsAt (c : Dev nD) : (n : ℕ) → n < cfg1.N → Vec F S1024x64 .f32 × Vec F S1024x64 .f32
  | 0, hn => (out_idle, scr_first c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((isFirst_iff ⟨0, hn⟩).mpr (Nat.zero_mod _)) (fun h => (fun h' => by (try dsimp only at h'); omega) ((isLast_iff ⟨0, hn⟩).mp h)) (blk V c 0 ⟨0, hn⟩) (blk V c 1 ⟨0, hn⟩) (blk V c 2 ⟨0, hn⟩))
  | n + 1, hn =>
    if h0 : (n + 1) % 13 = 0 then
      if h1 : (n + 1) % 13 = 12 then False.elim (by omega)
      else (out_idle, scr_first c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) ((isFirst_iff ⟨n + 1, hn⟩).mpr h0) (fun h => h1 ((isLast_iff ⟨n + 1, hn⟩).mp h)) (blk V c 0 ⟨n + 1, hn⟩) (blk V c 1 ⟨n + 1, hn⟩) (blk V c 2 ⟨n + 1, hn⟩))
    else
      if h1 : (n + 1) % 13 = 12 then
        (out_last c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (outsAt c n (Nat.lt_of_succ_lt hn)).2,
          scr_last c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (outsAt c n (Nat.lt_of_succ_lt hn)).2)
      else
        (out_idle, scr_mid c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((isFirst_iff ⟨n + 1, hn⟩).mp h)) (fun h => h1 ((isLast_iff ⟨n + 1, hn⟩).mp h)) (blk V c 0 ⟨n + 1, hn⟩) (blk V c 1 ⟨n + 1, hn⟩) (blk V c 2 ⟨n + 1, hn⟩) (outsAt c n (Nat.lt_of_succ_lt hn)).2)

theorem outsAt_first (c : Dev nD) (t : Fin cfg1.N) (h0 : t.val % 13 = 0) (h1 : ¬t.val % 13 = 12) :
    outsAt V c t.val t.isLt = (out_idle, scr_first c (grid1.coords t) (ms_0 t) (hs_0 t) (ms_1 t) (hs_1 t) (ms_2 t) (hs_2 t) (ms_3 t) (hs_3 t) scM (Memref.isWhole_whole _) ((isFirst_iff t).mpr h0) (fun h => h1 ((isLast_iff t).mp h)) (blk V c 0 t) (blk V c 1 t) (blk V c 2 t)) := by
  obtain ⟨n, hn⟩ := t
  cases n with
  | zero => exact rfl
  | succ n => exact (dif_pos h0).trans ((dif_neg h1).trans rfl)

theorem outsAt_mid (c : Dev nD) (t : Fin cfg1.N) (h0 : ¬t.val % 13 = 0) (h1 : ¬t.val % 13 = 12) :
    outsAt V c t.val t.isLt = (out_idle, scr_mid c (grid1.coords t) (ms_0 t) (hs_0 t) (ms_1 t) (hs_1 t) (ms_2 t) (hs_2 t) (ms_3 t) (hs_3 t) scM (Memref.isWhole_whole _) (fun h => h0 ((isFirst_iff t).mp h)) (fun h => h1 ((isLast_iff t).mp h)) (blk V c 0 t) (blk V c 1 t) (blk V c 2 t)
      (outsAt V c (t.val - 1) (Nat.lt_of_le_of_lt (Nat.sub_le _ _) t.isLt)).2) := by
  obtain ⟨n, hn⟩ := t
  cases n with
  | zero => exact (by exfalso; exact absurd (Nat.zero_mod _) h0)
  | succ n => exact (dif_neg h0).trans ((dif_neg h1).trans rfl)

theorem outsAt_last (c : Dev nD) (t : Fin cfg1.N) (h0 : ¬t.val % 13 = 0) (h1 : t.val % 13 = 12) :
    outsAt V c t.val t.isLt = (out_last c (grid1.coords t) (ms_0 t) (hs_0 t) (ms_1 t) (hs_1 t) (ms_2 t) (hs_2 t) (ms_3 t) (hs_3 t) scM (Memref.isWhole_whole _) (fun h => h0 ((isFirst_iff t).mp h)) ((isLast_iff t).mpr h1) (blk V c 0 t) (blk V c 1 t) (blk V c 2 t)
        (outsAt V c (t.val - 1) (Nat.lt_of_le_of_lt (Nat.sub_le _ _) t.isLt)).2,
      scr_last c (grid1.coords t) (ms_0 t) (hs_0 t) (ms_1 t) (hs_1 t) (ms_2 t) (hs_2 t) (ms_3 t) (hs_3 t) scM (Memref.isWhole_whole _) (fun h => h0 ((isFirst_iff t).mp h)) ((isLast_iff t).mpr h1) (blk V c 0 t) (blk V c 1 t) (blk V c 2 t)
        (outsAt V c (t.val - 1) (Nat.lt_of_le_of_lt (Nat.sub_le _ _) t.isLt)).2) := by
  obtain ⟨n, hn⟩ := t
  cases n with
  | zero => exact (by exfalso; exact absurd (Nat.zero_mod _) h0)
  | succ n => exact (dif_neg h0).trans ((dif_pos h1).trans rfl)

/-- The region's invariant before position n: before the first point the untouched rest; afterwards the scratch block at what
    the point before left, beside the remainder of the rest and the generator register. -/
def inv (c : Dev nD) : (n : ℕ) → n ≤ cfg1.N → sProp 𝕄
  | 0, _ => Pipeline.ΦA spec1 c
  | n + 1, hn => iprop(iprop(owns (c : Thread nD τ) scM fullShare ((outsAt V c n hn).2) ∗ Pipeline.scopedRestBut (Ix := Unit) (Name := ℕ) (U := UR sig nD τ) (Lvl := ℕ) (Val := Elt F) spec1 c [cc1_scratch0]) ∗ (∃ r, prngReg c r))

theorem inv_zero (c : Dev nD) (n : ℕ) (h : n ≤ cfg1.N) (hz : n = 0) : inv V c n h = Pipeline.ΦA spec1 c := by
  subst hz; rfl
theorem inv_succ (c : Dev nD) (n : ℕ) (hn : n < cfg1.N) :
    inv V c (n + 1) hn = iprop(iprop(owns (c : Thread nD τ) scM fullShare ((outsAt V c n hn).2) ∗ Pipeline.scopedRestBut (Ix := Unit) (Name := ℕ) (U := UR sig nD τ) (Lvl := ℕ) (Val := Elt F) spec1 c [cc1_scratch0]) ∗ (∃ r, prngReg c r)) := rfl
theorem inv_pos (c : Dev nD) (n : ℕ) (h : n ≤ cfg1.N) (hz : n ≠ 0) :
    inv V c n h = iprop(iprop(owns (c : Thread nD τ) scM fullShare ((outsAt V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The region's proof data on core c. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => (outsAt V c t.val t.isLt).1
  Φ t := inv V c t.val (Nat.le_of_lt_succ t.isLt)
  q _ := fullShare
  owed _ := 0

theorem A_eq (c : Dev nD) (w : Fin cfg1.W) : (dat V c).A w = V c (Pipeline.arrRef spec1 w) := by
  dsimp only [dat]
theorem inv_castSucc (c : Dev nD) (t : Fin cfg1.N) : (dat V c).Φ t.castSucc = inv V c t.val (Nat.le_of_lt t.isLt) := by
  dsimp only [dat]; simp only [Fin.coe_castSucc]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = (outsAt V c t.val t.isLt).1 := by dsimp only [dat]
theorem before_0 (c : Dev nD) (t : Fin cfg1.N) (d) : (dat V c).before 0 t d = blk V c 0 t := found_0 V (dat V c) (A_eq V c 0) (after_0 V c) t d
theorem before_1 (c : Dev nD) (t : Fin cfg1.N) (d) : (dat V c).before 1 t d = blk V c 1 t := found_1 V (dat V c) (A_eq V c 1) (after_1 V c) t d
theorem before_2 (c : Dev nD) (t : Fin cfg1.N) (d) : (dat V c).before 2 t d = blk V c 2 t := found_2 V (dat V c) (A_eq V c 2) (after_2 V c) t d

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4800000 in
/-- The body at any point: the inputs' buffers hold their blocks; the closed forms say which case the point is in; the invariant
    hands over the scratch block at what the point before left (at anything at the very first point) and takes it back at this
    point's contents; where the result's window is idle its buffer goes back as found. -/
theorem body_at (c : Dev nD) (t : Fin cfg1.N) :
    bodyPre V c t ⊢ wp frame (wpE (defs₀ (F := F)) Variants.none c none) Set.univ (bodyAt t) (fun _ => bodyPost V c t) := by
  unfold bodyPre bodyPost bodyAt
  simp only [before_0, before_1, before_2]
  rw [show (dat V c).owesAt () t.succ = (dat V c).owesAt () t.castSucc from rfl]
  rw [show (dat V c).Φ t.succ = inv V c (t.val + 1) t.isLt from rfl, inv_succ]
  rw [show (dat V c).leavesExact 0 t = owns (c : Thread nD τ) (ms_0 t) fullShare ((dat V c).after 0 t) from by
    unfold Dat.leavesExact; rfl, after_0]
  rw [show (dat V c).leavesExact 1 t = owns (c : Thread nD τ) (ms_1 t) fullShare ((dat V c).after 1 t) from by
    unfold Dat.leavesExact; rfl, after_1]
  rw [show (dat V c).leavesExact 2 t = owns (c : Thread nD τ) (ms_2 t) fullShare ((dat V c).after 2 t) from by
    unfold Dat.leavesExact; rfl, after_2]
  by_cases h0 : t.val % 13 = 0
  · have h1 : ¬t.val % 13 = 12 := by omega
    rw [Dat.leavesExact_idle (dat V c) 3 t (idle_3 _ (fun h => h1 ((isLast_iff t).mp h))) (noFlush_3 t (fun h => h1 ((isLast_iff t).mp h)))]
    rw [outsAt_first V c t h0 h1]
    unfold scr_first; (try dsimp only)
    by_cases hz : t.val = 0
    · rw [inv_castSucc V c t, inv_zero V c _ _ hz, rest_eq]
      iintro ⟨⟨⟨HS, Hr⟩, Hg⟩, Ho, ⟨%d0, H0⟩, ⟨%d1, H1⟩, ⟨%d2, H2⟩, ⟨%d3, H3⟩⟩
      iapply ((run_first c (grid1.coords t) _ _ _ _ _ _ _ _ _ _ ((isFirst_iff t).mpr h0) (fun h => h1 ((isLast_iff t).mp h)) (blk V c 0 t) (blk V c 1 t) (blk V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover_first c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [inv_castSucc V c t, inv_pos V c _ _ hz]
      iintro ⟨⟨⟨HS, Hr⟩, Hg⟩, Ho, ⟨%d0, H0⟩, ⟨%d1, H1⟩, ⟨%d2, H2⟩, ⟨%d3, H3⟩⟩
      iapply ((run_first c (grid1.coords t) _ _ _ _ _ _ _ _ _ _ ((isFirst_iff t).mpr h0) (fun h => h1 ((isLast_iff t).mp h)) (blk V c 0 t) (blk V c 1 t) (blk V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover_first c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 13 = 12
    · rw [show (dat V c).leavesExact 3 t = owns (c : Thread nD τ) (ms_3 t) fullShare ((dat V c).after 3 t) from by
        unfold Dat.leavesExact; rw [live_3 _ ((isLast_iff t).mpr h1)], after_3]
      rw [outsAt_last V c t h0 h1]
      unfold out_last scr_last; (try dsimp only)
      rw [inv_castSucc V c t, inv_pos V c _ _ hz]
      iintro ⟨⟨⟨HS, Hr⟩, Hg⟩, Ho, ⟨%d0, H0⟩, ⟨%d1, H1⟩, ⟨%d2, H2⟩, ⟨%d3, H3⟩⟩
      iapply ((run_last c (grid1.coords t) _ _ _ _ _ _ _ _ _ _ (fun h => h0 ((isFirst_iff t).mp h)) ((isLast_iff t).mpr h1) (blk V c 0 t) (blk V c 1 t) (blk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hr Hg]
      · isplitl [HS Hr]
        · isplitl [HS]
          · unfold owns; iexists _; isplitr
            swap; · iexact HS
            ipureintro; exact View.read_writes_of_cover _ _ _ _ _ (scover_last c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (ocover_last c _ _ _ _ _ _ _ _ _ _ _ _ _ _ _ _ _)
    · rw [Dat.leavesExact_idle (dat V c) 3 t (idle_3 _ (fun h => h1 ((isLast_iff t).mp h))) (noFlush_3 t (fun h => h1 ((isLast_iff t).mp h)))]
      rw [outsAt_mid V c t h0 h1]
      unfold scr_mid; (try dsimp only)
      rw [inv_castSucc V c t, inv_pos V c _ _ hz]
      iintro ⟨⟨⟨HS, Hr⟩, Hg⟩, Ho, ⟨%d0, H0⟩, ⟨%d1, H1⟩, ⟨%d2, H2⟩, ⟨%d3, H3⟩⟩
      iapply ((run_mid c (grid1.coords t) _ _ _ _ _ _ _ _ _ _ (fun h => h0 ((isFirst_iff t).mp h)) (fun h => h1 ((isLast_iff t).mp h)) (blk V c 0 t) (blk V c 1 t) (blk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover_mid c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact body_at V c t

/-- The untouched rest is the invariant before the first point, -/
theorem hin (c : Dev nD) : Pipeline.ΦA spec1 c ⊢ (dat V c).Φ 0 := by
  rw [show (dat V c).Φ 0 = inv V c 0 (Nat.zero_le _) from rfl, inv_zero V c 0 _ rfl]
  try exact Idealize.SL.BI.Entails.refl _

/-- and the invariant after the last point gives it back, the scratch block's contents forgotten. -/
theorem hout (c : Dev nD) : (dat V c).Φ (Fin.last cfg1.N) ⊢ Pipeline.ΦA spec1 c := by
  rw [show (dat V c).Φ (Fin.last cfg1.N) = inv V c (Fin.last cfg1.N).val (Nat.le_of_lt_succ (Fin.last cfg1.N).isLt) from rfl,
    inv_pos V c _ _ (by rw [Fin.val_last]; have : cfg1.N = 21593 := N_1; omega), rest_eq]
  iintro ⟨⟨HS, Hr⟩, Hg⟩
  isplitl [HS Hr]
  · isplitl [HS]
    · iexists _; iexact HS
    iexact Hr
  iexact Hg

end Cert.KernelIdeal.R1

end
-- ==== Proof.Region2.lean ====
/-
  The scatter's region (kernel call 2), on every core, at any float values, from any contents `V` of the TensorCore's
  buffers at its entry.

  Its grid has 13 × 1661 points: a node tile of 8192 rows, and for it the 1661 tiles of 1024 padded edges, innermost.  At a
  point the body is handed the edge tile's target words (window 0) and messages (window 1), the bias row (window 2, fetched
  once), a staging buffer for the node tile of the result (window 3, written back at the node tile's last point only) and
  a scratch block that it carries from point to point.  Three cases, by the edge tile's number e = t mod 1661:
    first  (e = 0):      the scratch is stored zero, then the tile's one-hot product is added into it;
    middle (0<e<1660):   the product is added into the scratch as the point before left it;
    last   (e = 1660):   the same, and then the scratch plus the bias row is stored over the whole result buffer.
  At the first two the result's buffer is idle: handed back as found and not written back.  After every point the
  scratch holds what the case's stores leave, read back; the region's invariant carries it.
-/
import proofs.«155233_j36086315221040_1_alg».proof.Proof.Gen.KernelIdeal.Launch
import proofs.«155233_j36086315221040_1_alg».proof.Proof.Gen.KernelIdeal.Skeleton
import proofs.«155233_j36086315221040_1_alg».proof.Proof.GridFacts
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input's staging buffer holds its block at every point, fetched there or not (a block not fetched has not moved). -/
theorem found_0 {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found_1 {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found_2 {c : Dev nD} (dat : Dat τ (Elt F) Unit ℕ (UR sig nD τ) ℕ cfg2 c) (hA : dat.A 2 = V c (Pipeline.arrRef spec2 2))
    (hafter : ∀ t, dat.after 2 t = blk V c 2 t) (t : Fin cfg2.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's two conditions, decided over the grid -/

/-- "This is the node tile's first edge tile", as the body computes it from the grid coordinates. -/
abbrev isFirst (i : grid2.Coords) : Prop := (Scalar.cmpi .ne (Scalar.extui (Scalar.cmpi .eq (BitVec.ofNat 32 (i 1).val) 0#32)) 0#32) = 1#1
theorem isFirst_iff : ∀ t : Fin cfg2.N, isFirst (grid2.coords t) ↔ t.val % 1661 = 0 :=
  Cert.Proof.GridFacts.scatter_first
/-- "This is its last edge tile". -/
abbrev isLast (i : grid2.Coords) : Prop := k2_cond2 i = 1#1
theorem isLast_iff : ∀ t : Fin cfg2.N, isLast (grid2.coords t) ↔ t.val % 1661 = 1660 :=
  Cert.Proof.GridFacts.scatter_last

/-- The result's block is written back exactly at the last inner point. -/
theorem flush_3 : ∀ t : Fin cfg2.N, (cfg2.win 3).flush t = true ↔ t.val % 1661 = 1660 :=
  Cert.Proof.GridFacts.scatter_flush
/-- The body as the pipeline calls it at point t. -/
abbrev bodyAt (t : Fin cfg2.N) : Prog (TpuEff nD τ sig (Elt F) Λ₀ .tc) PUnit :=
  cc2__scatter_kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (Memref.whole cc2_scratch0) (Memref.isWhole_whole _)

/-- Where the result's window is idle: exactly off the last edge tile (the configuration's table is the negated test). -/
theorem idle_3 (i : grid2.Coords) (h : ¬isLast i) : cfg2.idle 3 i = true := by
  show (!(k2_cond2 i == 1#1)) = true
  simp only [Bool.not_eq_true', beq_eq_false_iff_ne, ne_eq]; exact h
theorem live_3 (i : grid2.Coords) (h : isLast i) : cfg2.idle 3 i = false := by
  show (!(k2_cond2 i == 1#1)) = false
  simp only [Bool.not_eq_false', beq_iff_eq]; exact h
/-- Off the last edge tile the result's block is not written back. -/
theorem noFlush_3 (t : Fin cfg2.N) (h : ¬isLast (grid2.coords t)) : (cfg2.win 3).flush t = false := by
  have := flush_3 t
  cases hf : (cfg2.win 3).flush t
  · rfl
  · exact absurd ((isLast_iff t).mpr (this.mp hf)) h

/-! ## The staging and scratch memrefs -/

abbrev VO : View sig .tc .vmem S8192x64 .f32 := (Memref.whole cc2_stg3_0 : Memref sig .tc .vmem S8192x64 .f32).view
abbrev ms_0 (t : Fin cfg2.N) : Memref sig .tc .vmem S1024 .i32 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S1024x64 .f32 := win2_1.stage (cfg2.slots t 1)
abbrev hs_1 (t : Fin cfg2.N) : (ms_1 t).IsWhole := hstage2_1 ((cfg2.slots t 1).cast nbuf2_1)
abbrev ms_2 (t : Fin cfg2.N) : Memref sig .tc .vmem S64 .f32 := win2_2.stage (cfg2.slots t 2)
abbrev hs_2 (t : Fin cfg2.N) : (ms_2 t).IsWhole := hstage2_2 ((cfg2.slots t 2).cast nbuf2_2)
abbrev ms_3 (t : Fin cfg2.N) : Memref sig .tc .vmem S8192x64 .f32 := win2_3.stage (cfg2.slots t 3)
abbrev hs_3 (t : Fin cfg2.N) : (ms_3 t).IsWhole := hstage2_3 ((cfg2.slots t 3).cast nbuf2_3)
/-- The scratch block the body carries between points. -/
abbrev scM : Memref sig .tc .vmem S8192x64 .f32 := Memref.whole cc2_scratch0
abbrev VS : View sig .tc .vmem S8192x64 .f32 := (scM).view

/-- The untouched rest with the scratch block taken out of it, owned at some contents. -/
theorem rest_eq (c : Dev nD) :
    (Pipeline.ΦA spec2 c : sProp 𝕄)
      = iprop(iprop((∃ d, owns (c : Thread nD τ) scM fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM, owns_whole]
  try rfl

/-! ## The body, case by case: the pieces each buffer ends with are what the run finds -/

set_option maxHeartbeats 2000000 in
/-- FIRST edge tile of a node tile: the scratch at anything, the result's buffer handed back untouched. -/
noncomputable def run_first (c : Dev nD) (i : grid2.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole)
    (hc0 : isFirst i) (hc1 : ¬isLast i) (x0 : Vec F S1024 .i32) (x1 : Vec F S1024x64 .f32) (x2 : Vec F S64 .f32) :
    Σ' (L3 : List (View.Piece (Elt F) S8192x64 .f32)), { LS : List (View.Piece (Elt F) S8192x64 .f32) //
      ∀ (xi3 : Vec F S8192x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E (cc2__scatter_kernel i arg2 harg2 arg3 harg3 arg4 harg4 arg5 harg5 arg6 harg6) K } := by
  refine ⟨[], ?_, fun xi3 E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 2000000 in
/-- A MIDDLE edge tile: the scratch at what the point before left, the result's buffer handed back untouched. -/
noncomputable def run_mid (c : Dev nD) (i : grid2.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole)
    (hc0 : ¬isFirst i) (hc1 : ¬isLast i) (x0 : Vec F S1024 .i32) (x1 : Vec F S1024x64 .f32) (x2 : Vec F S64 .f32) (xs0 : Vec F S8192x64 .f32) :
    Σ' (L3 : List (View.Piece (Elt F) S8192x64 .f32)), { LS : List (View.Piece (Elt F) S8192x64 .f32) //
      ∀ (xi3 : Vec F S8192x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E (cc2__scatter_kernel i arg2 harg2 arg3 harg3 arg4 harg4 arg5 harg5 arg6 harg6) K } := by
  refine ⟨[], ?_, fun xi3 E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 2000000 in
/-- The LAST edge tile: the scratch at what the point before left, the result's buffer at anything and stored whole. -/
noncomputable def run_last (c : Dev nD) (i : grid2.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole)
    (hc0 : ¬isFirst i) (hc1 : isLast i) (x0 : Vec F S1024 .i32) (x1 : Vec F S1024x64 .f32) (x2 : Vec F S64 .f32) (xs0 : Vec F S8192x64 .f32) :
    Σ' (L3 : List (View.Piece (Elt F) S8192x64 .f32)), { LS : List (View.Piece (Elt F) S8192x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc2__scatter_kernel i arg2 harg2 arg3 harg3 arg4 harg4 arg5 harg5 arg6 harg6) K } := by
  refine ⟨?_, ?_, fun E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! ## What each case leaves in the scratch block and in the result's buffer -/

theorem scover_first (c : Dev nD) (i : grid2.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole) (hc0 : isFirst i) (hc1 : ¬isLast i) (x0 : Vec F S1024 .i32) (x1 : Vec F S1024x64 .f32) (x2 : Vec F S64 .f32) (y : S8192x64.Idx) :
    ∃ pc ∈ (run_first c i arg2 harg2 arg3 harg3 arg4 harg4 arg5 harg5 arg6 harg6 hc0 hc1 x0 x1 x2).2.1, y ∈ pc.1.set :=
  View.cover_of_tiledL (run_first c i arg2 harg2 arg3 harg3 arg4 harg4 arg5 harg5 arg6 harg6 hc0 hc1 x0 x1 x2).2.1 S8192x64.size (by sl_kernel_rfl) y
/-- After a first edge tile the scratch block holds the case's pieces, read back. -/
def scr_first (c : Dev nD) (i : grid2.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole) (hc0 : isFirst i) (hc1 : ¬isLast i) (x0 : Vec F S1024 .i32) (x1 : Vec F S1024x64 .f32) (x2 : Vec F S64 .f32) : Vec F S8192x64 .f32 :=
  VS.read (Elt F) (VS.writes (Elt F) VS.junk (run_first c i arg2 harg2 arg3 harg3 arg4 harg4 arg5 harg5 arg6 harg6 hc0 hc1 x0 x1 x2).2.1)

theorem scover_mid (c : Dev nD) (i : grid2.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole) (hc0 : ¬isFirst i) (hc1 : ¬isLast i) (x0 : Vec F S1024 .i32) (x1 : Vec F S1024x64 .f32) (x2 : Vec F S64 .f32) (xs0 : Vec F S8192x64 .f32) (y : S8192x64.Idx) :
    ∃ pc ∈ (run_mid c i arg2 harg2 arg3 harg3 arg4 harg4 arg5 harg5 arg6 harg6 hc0 hc1 x0 x1 x2 xs0).2.1, y ∈ pc.1.set :=
  View.cover_of_tiledL (run_mid c i arg2 harg2 arg3 harg3 arg4 harg4 arg5 harg5 arg6 harg6 hc0 hc1 x0 x1 x2 xs0).2.1 S8192x64.size (by sl_kernel_rfl) y
def scr_mid (c : Dev nD) (i : grid2.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole) (hc0 : ¬isFirst i) (hc1 : ¬isLast i) (x0 : Vec F S1024 .i32) (x1 : Vec F S1024x64 .f32) (x2 : Vec F S64 .f32) (xs0 : Vec F S8192x64 .f32) : Vec F S8192x64 .f32 :=
  VS.read (Elt F) (VS.writes (Elt F) VS.junk (run_mid c i arg2 harg2 arg3 harg3 arg4 harg4 arg5 harg5 arg6 harg6 hc0 hc1 x0 x1 x2 xs0).2.1)

theorem scover_last (c : Dev nD) (i : grid2.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole) (hc0 : ¬isFirst i) (hc1 : isLast i) (x0 : Vec F S1024 .i32) (x1 : Vec F S1024x64 .f32) (x2 : Vec F S64 .f32) (xs0 : Vec F S8192x64 .f32) (y : S8192x64.Idx) :
    ∃ pc ∈ (run_last c i arg2 harg2 arg3 harg3 arg4 harg4 arg5 harg5 arg6 harg6 hc0 hc1 x0 x1 x2 xs0).2.1, y ∈ pc.1.set :=
  View.cover_of_tiledL (run_last c i arg2 harg2 arg3 harg3 arg4 harg4 arg5 harg5 arg6 harg6 hc0 hc1 x0 x1 x2 xs0).2.1 S8192x64.size (by sl_kernel_rfl) y
def scr_last (c : Dev nD) (i : grid2.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole) (hc0 : ¬isFirst i) (hc1 : isLast i) (x0 : Vec F S1024 .i32) (x1 : Vec F S1024x64 .f32) (x2 : Vec F S64 .f32) (xs0 : Vec F S8192x64 .f32) : Vec F S8192x64 .f32 :=
  VS.read (Elt F) (VS.writes (Elt F) VS.junk (run_last c i arg2 harg2 arg3 harg3 arg4 harg4 arg5 harg5 arg6 harg6 hc0 hc1 x0 x1 x2 xs0).2.1)
theorem ocover_last (c : Dev nD) (i : grid2.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole) (hc0 : ¬isFirst i) (hc1 : isLast i) (x0 : Vec F S1024 .i32) (x1 : Vec F S1024x64 .f32) (x2 : Vec F S64 .f32) (xs0 : Vec F S8192x64 .f32) (y : S8192x64.Idx) :
    ∃ pc ∈ (run_last c i arg2 harg2 arg3 harg3 arg4 harg4 arg5 harg5 arg6 harg6 hc0 hc1 x0 x1 x2 xs0).1, y ∈ pc.1.set :=
  View.cover_of_tiledL (run_last c i arg2 harg2 arg3 harg3 arg4 harg4 arg5 harg5 arg6 harg6 hc0 hc1 x0 x1 x2 xs0).1 S8192x64.size (by sl_kernel_rfl) y
/-- After a last edge tile the result's buffer holds the case's pieces, read back. -/
def out_last (c : Dev nD) (i : grid2.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole) (hc0 : ¬isFirst i) (hc1 : isLast i) (x0 : Vec F S1024 .i32) (x1 : Vec F S1024x64 .f32) (x2 : Vec F S64 .f32) (xs0 : Vec F S8192x64 .f32) : Vec F S8192x64 .f32 :=
  VO.read (Elt F) (VO.writes (Elt F) VO.junk (run_last c i arg2 harg2 arg3 harg3 arg4 harg4 arg5 harg5 arg6 harg6 hc0 hc1 x0 x1 x2 xs0).1)
/-- Where the result's buffer is idle nothing reads what is recorded for it: a placeholder. -/
def out_idle : Vec F S8192x64 .f32 := VO.read (Elt F) VO.junk

/-! ## Point by point -/

/-- After the body at position n: the result's staging buffer, then the scratch block — the case the point is in, run at the
    point's memrefs and input blocks, over the scratch the point before left. -/
def outsAt (c : Dev nD) : (n : ℕ) → n < cfg2.N → Vec F S8192x64 .f32 × Vec F S8192x64 .f32
  | 0, hn => (out_idle, scr_first c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((isFirst_iff ⟨0, hn⟩).mpr (Nat.zero_mod _)) (fun h => (fun h' => by (try dsimp only at h'); omega) ((isLast_iff ⟨0, hn⟩).mp h)) (blk V c 0 ⟨0, hn⟩) (blk V c 1 ⟨0, hn⟩) (blk V c 2 ⟨0, hn⟩))
  | n + 1, hn =>
    if h0 : (n + 1) % 1661 = 0 then
      if h1 : (n + 1) % 1661 = 1660 then False.elim (by omega)
      else (out_idle, scr_first c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) ((isFirst_iff ⟨n + 1, hn⟩).mpr h0) (fun h => h1 ((isLast_iff ⟨n + 1, hn⟩).mp h)) (blk V c 0 ⟨n + 1, hn⟩) (blk V c 1 ⟨n + 1, hn⟩) (blk V c 2 ⟨n + 1, hn⟩))
    else
      if h1 : (n + 1) % 1661 = 1660 then
        (out_last c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (outsAt c n (Nat.lt_of_succ_lt hn)).2,
          scr_last c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (outsAt c n (Nat.lt_of_succ_lt hn)).2)
      else
        (out_idle, scr_mid c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((isFirst_iff ⟨n + 1, hn⟩).mp h)) (fun h => h1 ((isLast_iff ⟨n + 1, hn⟩).mp h)) (blk V c 0 ⟨n + 1, hn⟩) (blk V c 1 ⟨n + 1, hn⟩) (blk V c 2 ⟨n + 1, hn⟩) (outsAt c n (Nat.lt_of_succ_lt hn)).2)

theorem outsAt_first (c : Dev nD) (t : Fin cfg2.N) (h0 : t.val % 1661 = 0) (h1 : ¬t.val % 1661 = 1660) :
    outsAt V c t.val t.isLt = (out_idle, scr_first c (grid2.coords t) (ms_0 t) (hs_0 t) (ms_1 t) (hs_1 t) (ms_2 t) (hs_2 t) (ms_3 t) (hs_3 t) scM (Memref.isWhole_whole _) ((isFirst_iff t).mpr h0) (fun h => h1 ((isLast_iff t).mp h)) (blk V c 0 t) (blk V c 1 t) (blk V c 2 t)) := by
  obtain ⟨n, hn⟩ := t
  cases n with
  | zero => exact rfl
  | succ n => exact (dif_pos h0).trans ((dif_neg h1).trans rfl)

theorem outsAt_mid (c : Dev nD) (t : Fin cfg2.N) (h0 : ¬t.val % 1661 = 0) (h1 : ¬t.val % 1661 = 1660) :
    outsAt V c t.val t.isLt = (out_idle, scr_mid c (grid2.coords t) (ms_0 t) (hs_0 t) (ms_1 t) (hs_1 t) (ms_2 t) (hs_2 t) (ms_3 t) (hs_3 t) scM (Memref.isWhole_whole _) (fun h => h0 ((isFirst_iff t).mp h)) (fun h => h1 ((isLast_iff t).mp h)) (blk V c 0 t) (blk V c 1 t) (blk V c 2 t)
      (outsAt V c (t.val - 1) (Nat.lt_of_le_of_lt (Nat.sub_le _ _) t.isLt)).2) := by
  obtain ⟨n, hn⟩ := t
  cases n with
  | zero => exact (by exfalso; exact absurd (Nat.zero_mod _) h0)
  | succ n => exact (dif_neg h0).trans ((dif_neg h1).trans rfl)

theorem outsAt_last (c : Dev nD) (t : Fin cfg2.N) (h0 : ¬t.val % 1661 = 0) (h1 : t.val % 1661 = 1660) :
    outsAt V c t.val t.isLt = (out_last c (grid2.coords t) (ms_0 t) (hs_0 t) (ms_1 t) (hs_1 t) (ms_2 t) (hs_2 t) (ms_3 t) (hs_3 t) scM (Memref.isWhole_whole _) (fun h => h0 ((isFirst_iff t).mp h)) ((isLast_iff t).mpr h1) (blk V c 0 t) (blk V c 1 t) (blk V c 2 t)
        (outsAt V c (t.val - 1) (Nat.lt_of_le_of_lt (Nat.sub_le _ _) t.isLt)).2,
      scr_last c (grid2.coords t) (ms_0 t) (hs_0 t) (ms_1 t) (hs_1 t) (ms_2 t) (hs_2 t) (ms_3 t) (hs_3 t) scM (Memref.isWhole_whole _) (fun h => h0 ((isFirst_iff t).mp h)) ((isLast_iff t).mpr h1) (blk V c 0 t) (blk V c 1 t) (blk V c 2 t)
        (outsAt V c (t.val - 1) (Nat.lt_of_le_of_lt (Nat.sub_le _ _) t.isLt)).2) := by
  obtain ⟨n, hn⟩ := t
  cases n with
  | zero => exact (by exfalso; exact absurd (Nat.zero_mod _) h0)
  | succ n => exact (dif_neg h0).trans ((dif_pos h1).trans rfl)

/-- The region's invariant before position n: before the first point the untouched rest; afterwards the scratch block at what
    the point before left, beside the remainder of the rest and the generator register. -/
def inv (c : Dev nD) : (n : ℕ) → n ≤ cfg2.N → sProp 𝕄
  | 0, _ => Pipeline.ΦA spec2 c
  | n + 1, hn => iprop(iprop(owns (c : Thread nD τ) scM fullShare ((outsAt V c n hn).2) ∗ Pipeline.scopedRestBut (Ix := Unit) (Name := ℕ) (U := UR sig nD τ) (Lvl := ℕ) (Val := Elt F) spec2 c [cc2_scratch0]) ∗ (∃ r, prngReg c r))

theorem inv_zero (c : Dev nD) (n : ℕ) (h : n ≤ cfg2.N) (hz : n = 0) : inv V c n h = Pipeline.ΦA spec2 c := by
  subst hz; rfl
theorem inv_succ (c : Dev nD) (n : ℕ) (hn : n < cfg2.N) :
    inv V c (n + 1) hn = iprop(iprop(owns (c : Thread nD τ) scM fullShare ((outsAt V c n hn).2) ∗ Pipeline.scopedRestBut (Ix := Unit) (Name := ℕ) (U := UR sig nD τ) (Lvl := ℕ) (Val := Elt F) spec2 c [cc2_scratch0]) ∗ (∃ r, prngReg c r)) := rfl
theorem inv_pos (c : Dev nD) (n : ℕ) (h : n ≤ cfg2.N) (hz : n ≠ 0) :
    inv V c n h = iprop(iprop(owns (c : Thread nD τ) scM fullShare ((outsAt V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The region's proof data on core c. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => (outsAt V c t.val t.isLt).1
  Φ t := inv V c t.val (Nat.le_of_lt_succ t.isLt)
  q _ := fullShare
  owed _ := 0

theorem A_eq (c : Dev nD) (w : Fin cfg2.W) : (dat V c).A w = V c (Pipeline.arrRef spec2 w) := by
  dsimp only [dat]
theorem inv_castSucc (c : Dev nD) (t : Fin cfg2.N) : (dat V c).Φ t.castSucc = inv V c t.val (Nat.le_of_lt t.isLt) := by
  dsimp only [dat]; simp only [Fin.coe_castSucc]
theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = blk V c 2 t := by dsimp only [dat]
theorem after_3 (c : Dev nD) (t : Fin cfg2.N) : (dat V c).after 3 t = (outsAt V c t.val t.isLt).1 := by dsimp only [dat]
theorem before_0 (c : Dev nD) (t : Fin cfg2.N) (d) : (dat V c).before 0 t d = blk V c 0 t := found_0 V (dat V c) (A_eq V c 0) (after_0 V c) t d
theorem before_1 (c : Dev nD) (t : Fin cfg2.N) (d) : (dat V c).before 1 t d = blk V c 1 t := found_1 V (dat V c) (A_eq V c 1) (after_1 V c) t d
theorem before_2 (c : Dev nD) (t : Fin cfg2.N) (d) : (dat V c).before 2 t d = blk V c 2 t := found_2 V (dat V c) (A_eq V c 2) (after_2 V c) t d

/-! ## The body obligation, at a generic point -/

def bodyPre (c : Dev nD) (t : Fin cfg2.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4800000 in
/-- The body at any point: the inputs' buffers hold their blocks; the closed forms say which case the point is in; the invariant
    hands over the scratch block at what the point before left (at anything at the very first point) and takes it back at this
    point's contents; where the result's window is idle its buffer goes back as found. -/
theorem body_at (c : Dev nD) (t : Fin cfg2.N) :
    bodyPre V c t ⊢ wp frame (wpE (defs₀ (F := F)) Variants.none c none) Set.univ (bodyAt t) (fun _ => bodyPost V c t) := by
  unfold bodyPre bodyPost bodyAt
  simp only [before_0, before_1, before_2]
  rw [show (dat V c).owesAt () t.succ = (dat V c).owesAt () t.castSucc from rfl]
  rw [show (dat V c).Φ t.succ = inv V c (t.val + 1) t.isLt from rfl, inv_succ]
  rw [show (dat V c).leavesExact 0 t = owns (c : Thread nD τ) (ms_0 t) fullShare ((dat V c).after 0 t) from by
    unfold Dat.leavesExact; rfl, after_0]
  rw [show (dat V c).leavesExact 1 t = owns (c : Thread nD τ) (ms_1 t) fullShare ((dat V c).after 1 t) from by
    unfold Dat.leavesExact; rfl, after_1]
  rw [show (dat V c).leavesExact 2 t = owns (c : Thread nD τ) (ms_2 t) fullShare ((dat V c).after 2 t) from by
    unfold Dat.leavesExact; rfl, after_2]
  by_cases h0 : t.val % 1661 = 0
  · have h1 : ¬t.val % 1661 = 1660 := by omega
    rw [Dat.leavesExact_idle (dat V c) 3 t (idle_3 _ (fun h => h1 ((isLast_iff t).mp h))) (noFlush_3 t (fun h => h1 ((isLast_iff t).mp h)))]
    rw [outsAt_first V c t h0 h1]
    unfold scr_first; (try dsimp only)
    by_cases hz : t.val = 0
    · rw [inv_castSucc V c t, inv_zero V c _ _ hz, rest_eq]
      iintro ⟨⟨⟨HS, Hr⟩, Hg⟩, Ho, ⟨%d0, H0⟩, ⟨%d1, H1⟩, ⟨%d2, H2⟩, ⟨%d3, H3⟩⟩
      iapply ((run_first c (grid2.coords t) _ _ _ _ _ _ _ _ _ _ ((isFirst_iff t).mpr h0) (fun h => h1 ((isLast_iff t).mp h)) (blk V c 0 t) (blk V c 1 t) (blk V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover_first c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [inv_castSucc V c t, inv_pos V c _ _ hz]
      iintro ⟨⟨⟨HS, Hr⟩, Hg⟩, Ho, ⟨%d0, H0⟩, ⟨%d1, H1⟩, ⟨%d2, H2⟩, ⟨%d3, H3⟩⟩
      iapply ((run_first c (grid2.coords t) _ _ _ _ _ _ _ _ _ _ ((isFirst_iff t).mpr h0) (fun h => h1 ((isLast_iff t).mp h)) (blk V c 0 t) (blk V c 1 t) (blk V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover_first c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 1661 = 1660
    · rw [show (dat V c).leavesExact 3 t = owns (c : Thread nD τ) (ms_3 t) fullShare ((dat V c).after 3 t) from by
        unfold Dat.leavesExact; rw [live_3 _ ((isLast_iff t).mpr h1)], after_3]
      rw [outsAt_last V c t h0 h1]
      unfold out_last scr_last; (try dsimp only)
      rw [inv_castSucc V c t, inv_pos V c _ _ hz]
      iintro ⟨⟨⟨HS, Hr⟩, Hg⟩, Ho, ⟨%d0, H0⟩, ⟨%d1, H1⟩, ⟨%d2, H2⟩, ⟨%d3, H3⟩⟩
      iapply ((run_last c (grid2.coords t) _ _ _ _ _ _ _ _ _ _ (fun h => h0 ((isFirst_iff t).mp h)) ((isLast_iff t).mpr h1) (blk V c 0 t) (blk V c 1 t) (blk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hr Hg]
      · isplitl [HS Hr]
        · isplitl [HS]
          · unfold owns; iexists _; isplitr
            swap; · iexact HS
            ipureintro; exact View.read_writes_of_cover _ _ _ _ _ (scover_last c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (ocover_last c _ _ _ _ _ _ _ _ _ _ _ _ _ _ _ _ _)
    · rw [Dat.leavesExact_idle (dat V c) 3 t (idle_3 _ (fun h => h1 ((isLast_iff t).mp h))) (noFlush_3 t (fun h => h1 ((isLast_iff t).mp h)))]
      rw [outsAt_mid V c t h0 h1]
      unfold scr_mid; (try dsimp only)
      rw [inv_castSucc V c t, inv_pos V c _ _ hz]
      iintro ⟨⟨⟨HS, Hr⟩, Hg⟩, Ho, ⟨%d0, H0⟩, ⟨%d1, H1⟩, ⟨%d2, H2⟩, ⟨%d3, H3⟩⟩
      iapply ((run_mid c (grid2.coords t) _ _ _ _ _ _ _ _ _ _ (fun h => h0 ((isFirst_iff t).mp h)) (fun h => h1 ((isLast_iff t).mp h)) (blk V c 0 t) (blk V c 1 t) (blk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover_mid c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W2, bigSep_W2]
  exact body_at V c t

/-- The untouched rest is the invariant before the first point, -/
theorem hin (c : Dev nD) : Pipeline.ΦA spec2 c ⊢ (dat V c).Φ 0 := by
  rw [show (dat V c).Φ 0 = inv V c 0 (Nat.zero_le _) from rfl, inv_zero V c 0 _ rfl]
  try exact Idealize.SL.BI.Entails.refl _

/-- and the invariant after the last point gives it back, the scratch block's contents forgotten. -/
theorem hout (c : Dev nD) : (dat V c).Φ (Fin.last cfg2.N) ⊢ Pipeline.ΦA spec2 c := by
  rw [show (dat V c).Φ (Fin.last cfg2.N) = inv V c (Fin.last cfg2.N).val (Nat.le_of_lt_succ (Fin.last cfg2.N).isLt) from rfl,
    inv_pos V c _ _ (by rw [Fin.val_last]; have : cfg2.N = 21593 := N_2; omega), rest_eq]
  iintro ⟨⟨HS, Hr⟩, Hg⟩
  isplitl [HS Hr]
  · isplitl [HS]
    · iexists _; iexact HS
    iexact Hr
  iexact Hg

end Cert.KernelIdeal.R2

end
-- ==== Proof.Region3.lean ====
/-
  The dense transform's region (kernel call 3), on every core, at any float values, from any contents `V` of the
  TensorCore's buffers at its entry.

  Its grid has 13 points, one per tile of 8192 node rows.  At point t the pipeline hands the body the t-th tile of the
  padded node table (window 0, fetched at every point), the whole weight matrix (window 1, fetched once: its block does
  not move) and a staging buffer for the t-th tile of the result (window 2, written back at every point).  The body
  loads the two inputs, looks at the result's buffer, and stores the product over the whole buffer: after it the
  result's buffer holds the one stored piece, the product of the two input blocks, and the inputs' buffers are as
  found.  It keeps nothing between points, so the region's invariant is the untouched rest (the scoped buffers no
  window stages, the generator register).
-/
import proofs.«155233_j36086315221040_1_alg».proof.Proof.Gen.KernelIdeal.Launch
import proofs.«155233_j36086315221040_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The node tile's staging buffer holds its block at every point. -/
theorem found_0 {c : Dev nD} (dat : Dat τ (Elt F) Unit ℕ (UR sig nD τ) ℕ cfg3 c) (hA : dat.A 0 = V c (Pipeline.arrRef spec3 0))
    (hafter : ∀ t, dat.after 0 t = blk V c 0 t) (t : Fin cfg3.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The weight matrix's staging buffer holds the matrix at every point, fetched there or not: its block never moves. -/
theorem found_1 {c : Dev nD} (dat : Dat τ (Elt F) Unit ℕ (UR sig nD τ) ℕ cfg3 c) (hA : dat.A 1 = V c (Pipeline.arrRef spec3 1))
    (hafter : ∀ t, dat.after 1 t = blk V c 1 t) (t : Fin cfg3.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The whole-buffer rectangles the body loads and stores through. -/
abbrev rX : Rect S8192x64 := Rect.unit (s := S8192x64) ![0, 0] S8192x64.size inb_S8192x64_S8192x64_0_0
abbrev rW : Rect S64x64 := Rect.unit (s := S64x64) ![0, 0] S64x64.size inb_S64x64_S64x64_0_0
abbrev rO : Rect S8192x64 := Rect.unit (s := S8192x64) ![0, 0] S8192x64.size inb_S8192x64_S8192x64_0_0

/-- What the body leaves in the result's staging buffer: its one store, the product of the two loaded blocks. -/
def product (x0 : Vec F S8192x64 .f32) (x1 : Vec F S64x64 .f32) : Vec F S8192x64 .f32 :=
  View.canon [⟨rO, k3_pay1 (View.ld x0 rX) (View.ld x1 rW)⟩]

/-- The one store is over the whole buffer. -/
theorem product_cover (p0 : Vec F S8192x64 .f32) (y : S8192x64.Idx) :
    ∃ pc ∈ ([⟨rO, p0⟩] : List (View.Piece (Elt F) S8192x64 .f32)), y ∈ pc.1.set :=
  View.cover_of_tiled [⟨rO, p0⟩] S8192x64.size (by rfl) y

set_option maxHeartbeats 1000000 in
/-- The body on whole staging memrefs: from the inputs at their contents and the result's buffer at anything, it runs to
    the inputs as they were and the result's buffer at the product. -/
theorem body_run (c : Dev nD) (E : Set ℕ) (i : grid3.Coords)
    (arg1 : Memref sig .tc .vmem S8192x64 .f32) (harg1 : arg1.IsWhole) (arg2 : Memref sig .tc .vmem S64x64 .f32) (harg2 : arg2.IsWhole)
    (arg3 : Memref sig .tc .vmem S8192x64 .f32) (harg3 : arg3.IsWhole)
    (x0 : Vec F S8192x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (product x0 x1)) -∗ K ⟨⟩))
      ⊢ wp frame (wpE (defs₀ (F := F)) Variants.none c none) E (cc3__linear_kernel i arg1 harg1 arg2 harg2 arg3 harg3) K := by
  simp only [cc3__linear_kernel_eq_skeleton]; unfold cc3__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (product_cover _)

/-- The region's proof data on core c: the arrays as the region finds them; after the body at point t each input's
    buffer at its block and the result's at the product of the two; the invariant the untouched rest; nothing owed. -/
def dat (c : Dev nD) : Dat τ (Elt F) Unit ℕ (UR sig nD τ) ℕ cfg3 c where
  A w := V c (Pipeline.arrRef spec3 w)
  after w t := match w with
    | ⟨0, _⟩ => blk V c 0 t
    | ⟨1, _⟩ => blk V c 1 t
    | ⟨2, _⟩ => product (blk V c 0 t) (blk V c 1 t)
  Φ _ := Pipeline.ΦA spec3 c
  q _ := fullShare
  owed _ := 0

theorem A_eq (c : Dev nD) (w : Fin cfg3.W) : (dat V c).A w = V c (Pipeline.arrRef spec3 w) := by
  dsimp only [dat]

theorem after_0 (c : Dev nD) (t : Fin cfg3.N) : (dat V c).after 0 t = blk V c 0 t := by dsimp only [dat]
theorem after_1 (c : Dev nD) (t : Fin cfg3.N) : (dat V c).after 1 t = blk V c 1 t := by dsimp only [dat]
theorem after_2 (c : Dev nD) (t : Fin cfg3.N) : (dat V c).after 2 t = product (blk V c 0 t) (blk V c 1 t) := by dsimp only [dat]

theorem before_0 (c : Dev nD) (t : Fin cfg3.N) (d) : (dat V c).before 0 t d = blk V c 0 t :=
  found_0 V (dat V c) (A_eq V c 0) (after_0 V c) t d
theorem before_1 (c : Dev nD) (t : Fin cfg3.N) (d) : (dat V c).before 1 t d = blk V c 1 t :=
  found_1 V (dat V c) (A_eq V c 1) (after_1 V c) t d

/-- The current staging memref of each window at point t, and the body as the pipeline calls it there. -/
abbrev st_0 (t : Fin cfg3.N) := (cfg3.win 0).stage (cfg3.slots t 0)
abbrev st_1 (t : Fin cfg3.N) := (cfg3.win 1).stage (cfg3.slots t 1)
abbrev st_2 (t : Fin cfg3.N) := (cfg3.win 2).stage (cfg3.slots t 2)
abbrev bodyAt (t : Fin cfg3.N) : Prog (TpuEff nD τ sig (Elt F) Λ₀ .tc) PUnit :=
  cc3__linear_kernel (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2))

/-- What the body is called with at point t, the windows one by one, -/
def bodyPre (c : Dev nD) (t : Fin cfg3.N) : sProp 𝕄 :=
  iprop((dat V c).Φ t.castSucc ∗ (dat V c).owesAt () t.castSucc
    ∗ (∃ d, owns (c : Thread nD τ) (st_0 t) fullShare ((dat V c).before 0 t d))
    ∗ (∃ d, owns (c : Thread nD τ) (st_1 t) fullShare ((dat V c).before 1 t d))
    ∗ (∃ d, owns (c : Thread nD τ) (st_2 t) fullShare ((dat V c).before 2 t d)))

/-- and what it returns. -/
def bodyPost (c : Dev nD) (t : Fin cfg3.N) : sProp 𝕄 :=
  iprop((dat V c).Φ t.succ ∗ (dat V c).owesAt () t.succ
    ∗ owns (c : Thread nD τ) (st_0 t) fullShare ((dat V c).after 0 t)
    ∗ owns (c : Thread nD τ) (st_1 t) fullShare ((dat V c).after 1 t)
    ∗ owns (c : Thread nD τ) (st_2 t) fullShare ((dat V c).after 2 t))

/-- The body at any point: the inputs' buffers hold their blocks, so the run applies; the invariant and the core's
    dues pass through unread. -/
theorem body_at (c : Dev nD) (t : Fin cfg3.N) :
    bodyPre V c t ⊢ wp frame (wpE (defs₀ (F := F)) Variants.none c none) Set.univ (bodyAt t) (fun _ => bodyPost V c t) := by
  unfold bodyPre bodyPost bodyAt
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (body_run c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W3, bigSep_W3]
  exact body_at V c t

/-- The region keeps nothing between points: its invariant is the untouched rest at both ends. -/
theorem hin (c : Dev nD) : Pipeline.ΦA spec3 c ⊢ (dat V c).Φ 0 := BI.Entails.refl _
theorem hout (c : Dev nD) : (dat V c).Φ (Fin.last cfg3.N) ⊢ Pipeline.ΦA spec3 c := BI.Entails.refl _

end Cert.KernelIdeal.R3

end
-- ==== Proof.Region4.lean ====
/-
  The gather's region (kernel call 4), on every core, at any float values, from any contents `V` of the TensorCore's
  buffers at its entry.

  Its grid has 1661 × 13 points: an edge tile of 1024 edges, and for it the 13 tiles of 8192 rows of the padded node
  table, innermost.  At a point the body is handed the tile's source words (window 0) and edge weights (window 1), both
  fetched when the edge tile changes, the table tile (window 2, fetched at every point), a staging buffer for the tile
  of the result (window 3, written back at the edge tile's last point only) and a scratch block that it carries from
  point to point.  Three cases, by the table tile's number k = t mod 13:
    first  (k = 0):   the scratch is stored zero, then the tile's one-hot product is added into it;
    middle (0<k<12):  the product is added into the scratch as the point before left it;
    last   (k = 12):  the same, and then the scratch times the weights is stored over the whole result buffer.
  At the first two the result's buffer is idle: handed back as found and not written back.  After every point the
  scratch holds what the case's stores leave, read back; the region's invariant carries it.
-/
import proofs.«155233_j36086315221040_1_alg».proof.Proof.Gen.KernelIdeal.Launch
import proofs.«155233_j36086315221040_1_alg».proof.Proof.Gen.KernelIdeal.Skeleton
import proofs.«155233_j36086315221040_1_alg».proof.Proof.GridFacts
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each input's staging buffer holds its block at every point, fetched there or not (a block not fetched has not moved). -/
theorem found_0 {c : Dev nD} (dat : Dat τ (Elt F) Unit ℕ (UR sig nD τ) ℕ cfg4 c) (hA : dat.A 0 = V c (Pipeline.arrRef spec4 0))
    (hafter : ∀ t, dat.after 0 t = blk V c 0 t) (t : Fin cfg4.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found_1 {c : Dev nD} (dat : Dat τ (Elt F) Unit ℕ (UR sig nD τ) ℕ cfg4 c) (hA : dat.A 1 = V c (Pipeline.arrRef spec4 1))
    (hafter : ∀ t, dat.after 1 t = blk V c 1 t) (t : Fin cfg4.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found_2 {c : Dev nD} (dat : Dat τ (Elt F) Unit ℕ (UR sig nD τ) ℕ cfg4 c) (hA : dat.A 2 = V c (Pipeline.arrRef spec4 2))
    (hafter : ∀ t, dat.after 2 t = blk V c 2 t) (t : Fin cfg4.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's two conditions, decided over the grid -/

/-- "This is the edge tile's first table tile", as the body computes it from the grid coordinates. -/
abbrev isFirst (i : grid4.Coords) : Prop := (Scalar.cmpi .ne (Scalar.extui (Scalar.cmpi .eq (BitVec.ofNat 32 (i 1).val) 0#32)) 0#32) = 1#1
theorem isFirst_iff : ∀ t : Fin cfg4.N, isFirst (grid4.coords t) ↔ t.val % 13 = 0 :=
  Cert.Proof.GridFacts.gather_first
/-- "This is its last table tile". -/
abbrev isLast (i : grid4.Coords) : Prop := k4_cond2 i = 1#1
theorem isLast_iff : ∀ t : Fin cfg4.N, isLast (grid4.coords t) ↔ t.val % 13 = 12 :=
  Cert.Proof.GridFacts.gather_last

/-- The result's block is written back exactly at the last inner point. -/
theorem flush_3 : ∀ t : Fin cfg4.N, (cfg4.win 3).flush t = true ↔ t.val % 13 = 12 :=
  Cert.Proof.GridFacts.gather_flush
/-- The body as the pipeline calls it at point t. -/
abbrev bodyAt (t : Fin cfg4.N) : Prog (TpuEff nD τ sig (Elt F) Λ₀ .tc) PUnit :=
  cc4__gather_kernel (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (Memref.whole cc4_scratch0) (Memref.isWhole_whole _)

/-- Where the result's window is idle: exactly off the last table tile (the configuration's table is the negated test). -/
theorem idle_3 (i : grid4.Coords) (h : ¬isLast i) : cfg4.idle 3 i = true := by
  show (!(k4_cond2 i == 1#1)) = true
  simp only [Bool.not_eq_true', beq_eq_false_iff_ne, ne_eq]; exact h
theorem live_3 (i : grid4.Coords) (h : isLast i) : cfg4.idle 3 i = false := by
  show (!(k4_cond2 i == 1#1)) = false
  simp only [Bool.not_eq_false', beq_iff_eq]; exact h
/-- Off the last table tile the result's block is not written back. -/
theorem noFlush_3 (t : Fin cfg4.N) (h : ¬isLast (grid4.coords t)) : (cfg4.win 3).flush t = false := by
  have := flush_3 t
  cases hf : (cfg4.win 3).flush t
  · rfl
  · exact absurd ((isLast_iff t).mpr (this.mp hf)) h

/-! ## The staging and scratch memrefs -/

abbrev VO : View sig .tc .vmem S1024x64 .f32 := (Memref.whole cc4_stg3_0 : Memref sig .tc .vmem S1024x64 .f32).view
abbrev ms_0 (t : Fin cfg4.N) : Memref sig .tc .vmem S1024 .i32 := win4_0.stage (cfg4.slots t 0)
abbrev hs_0 (t : Fin cfg4.N) : (ms_0 t).IsWhole := hstage4_0 ((cfg4.slots t 0).cast nbuf4_0)
abbrev ms_1 (t : Fin cfg4.N) : Memref sig .tc .vmem S1024 .f32 := win4_1.stage (cfg4.slots t 1)
abbrev hs_1 (t : Fin cfg4.N) : (ms_1 t).IsWhole := hstage4_1 ((cfg4.slots t 1).cast nbuf4_1)
abbrev ms_2 (t : Fin cfg4.N) : Memref sig .tc .vmem S8192x64 .f32 := win4_2.stage (cfg4.slots t 2)
abbrev hs_2 (t : Fin cfg4.N) : (ms_2 t).IsWhole := hstage4_2 ((cfg4.slots t 2).cast nbuf4_2)
abbrev ms_3 (t : Fin cfg4.N) : Memref sig .tc .vmem S1024x64 .f32 := win4_3.stage (cfg4.slots t 3)
abbrev hs_3 (t : Fin cfg4.N) : (ms_3 t).IsWhole := hstage4_3 ((cfg4.slots t 3).cast nbuf4_3)
/-- The scratch block the body carries between points. -/
abbrev scM : Memref sig .tc .vmem S1024x64 .f32 := Memref.whole cc4_scratch0
abbrev VS : View sig .tc .vmem S1024x64 .f32 := (scM).view

/-- The untouched rest with the scratch block taken out of it, owned at some contents. -/
theorem rest_eq (c : Dev nD) :
    (Pipeline.ΦA spec4 c : sProp 𝕄)
      = iprop(iprop((∃ d, owns (c : Thread nD τ) scM fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM, owns_whole]
  try rfl

/-! ## The body, case by case: the pieces each buffer ends with are what the run finds -/

set_option maxHeartbeats 2000000 in
/-- FIRST table tile of an edge tile: the scratch at anything, the result's buffer handed back untouched. -/
noncomputable def run_first (c : Dev nD) (i : grid4.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole)
    (hc0 : isFirst i) (hc1 : ¬isLast i) (x0 : Vec F S1024 .i32) (x1 : Vec F S1024 .f32) (x2 : Vec F S8192x64 .f32) :
    Σ' (L3 : List (View.Piece (Elt F) S1024x64 .f32)), { LS : List (View.Piece (Elt F) S1024x64 .f32) //
      ∀ (xi3 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E (cc4__gather_kernel i arg2 harg2 arg3 harg3 arg4 harg4 arg5 harg5 arg6 harg6) K } := by
  refine ⟨[], ?_, fun xi3 E K => ?run⟩
  case run =>
    simp only [cc4__gather_kernel_eq_skeleton]; unfold cc4__gather_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 2000000 in
/-- A MIDDLE table tile: the scratch at what the point before left, the result's buffer handed back untouched. -/
noncomputable def run_mid (c : Dev nD) (i : grid4.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole)
    (hc0 : ¬isFirst i) (hc1 : ¬isLast i) (x0 : Vec F S1024 .i32) (x1 : Vec F S1024 .f32) (x2 : Vec F S8192x64 .f32) (xs0 : Vec F S1024x64 .f32) :
    Σ' (L3 : List (View.Piece (Elt F) S1024x64 .f32)), { LS : List (View.Piece (Elt F) S1024x64 .f32) //
      ∀ (xi3 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E (cc4__gather_kernel i arg2 harg2 arg3 harg3 arg4 harg4 arg5 harg5 arg6 harg6) K } := by
  refine ⟨[], ?_, fun xi3 E K => ?run⟩
  case run =>
    simp only [cc4__gather_kernel_eq_skeleton]; unfold cc4__gather_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 2000000 in
/-- The LAST table tile: the scratch at what the point before left, the result's buffer at anything and stored whole. -/
noncomputable def run_last (c : Dev nD) (i : grid4.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole)
    (hc0 : ¬isFirst i) (hc1 : isLast i) (x0 : Vec F S1024 .i32) (x1 : Vec F S1024 .f32) (x2 : Vec F S8192x64 .f32) (xs0 : Vec F S1024x64 .f32) :
    Σ' (L3 : List (View.Piece (Elt F) S1024x64 .f32)), { LS : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc4__gather_kernel i arg2 harg2 arg3 harg3 arg4 harg4 arg5 harg5 arg6 harg6) K } := by
  refine ⟨?_, ?_, fun E K => ?run⟩
  case run =>
    simp only [cc4__gather_kernel_eq_skeleton]; unfold cc4__gather_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! ## What each case leaves in the scratch block and in the result's buffer -/

theorem scover_first (c : Dev nD) (i : grid4.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole) (hc0 : isFirst i) (hc1 : ¬isLast i) (x0 : Vec F S1024 .i32) (x1 : Vec F S1024 .f32) (x2 : Vec F S8192x64 .f32) (y : S1024x64.Idx) :
    ∃ pc ∈ (run_first c i arg2 harg2 arg3 harg3 arg4 harg4 arg5 harg5 arg6 harg6 hc0 hc1 x0 x1 x2).2.1, y ∈ pc.1.set :=
  View.cover_of_tiledL (run_first c i arg2 harg2 arg3 harg3 arg4 harg4 arg5 harg5 arg6 harg6 hc0 hc1 x0 x1 x2).2.1 S1024x64.size (by sl_kernel_rfl) y
/-- After a first table tile the scratch block holds the case's pieces, read back. -/
def scr_first (c : Dev nD) (i : grid4.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole) (hc0 : isFirst i) (hc1 : ¬isLast i) (x0 : Vec F S1024 .i32) (x1 : Vec F S1024 .f32) (x2 : Vec F S8192x64 .f32) : Vec F S1024x64 .f32 :=
  VS.read (Elt F) (VS.writes (Elt F) VS.junk (run_first c i arg2 harg2 arg3 harg3 arg4 harg4 arg5 harg5 arg6 harg6 hc0 hc1 x0 x1 x2).2.1)

theorem scover_mid (c : Dev nD) (i : grid4.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole) (hc0 : ¬isFirst i) (hc1 : ¬isLast i) (x0 : Vec F S1024 .i32) (x1 : Vec F S1024 .f32) (x2 : Vec F S8192x64 .f32) (xs0 : Vec F S1024x64 .f32) (y : S1024x64.Idx) :
    ∃ pc ∈ (run_mid c i arg2 harg2 arg3 harg3 arg4 harg4 arg5 harg5 arg6 harg6 hc0 hc1 x0 x1 x2 xs0).2.1, y ∈ pc.1.set :=
  View.cover_of_tiledL (run_mid c i arg2 harg2 arg3 harg3 arg4 harg4 arg5 harg5 arg6 harg6 hc0 hc1 x0 x1 x2 xs0).2.1 S1024x64.size (by sl_kernel_rfl) y
def scr_mid (c : Dev nD) (i : grid4.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole) (hc0 : ¬isFirst i) (hc1 : ¬isLast i) (x0 : Vec F S1024 .i32) (x1 : Vec F S1024 .f32) (x2 : Vec F S8192x64 .f32) (xs0 : Vec F S1024x64 .f32) : Vec F S1024x64 .f32 :=
  VS.read (Elt F) (VS.writes (Elt F) VS.junk (run_mid c i arg2 harg2 arg3 harg3 arg4 harg4 arg5 harg5 arg6 harg6 hc0 hc1 x0 x1 x2 xs0).2.1)

theorem scover_last (c : Dev nD) (i : grid4.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole) (hc0 : ¬isFirst i) (hc1 : isLast i) (x0 : Vec F S1024 .i32) (x1 : Vec F S1024 .f32) (x2 : Vec F S8192x64 .f32) (xs0 : Vec F S1024x64 .f32) (y : S1024x64.Idx) :
    ∃ pc ∈ (run_last c i arg2 harg2 arg3 harg3 arg4 harg4 arg5 harg5 arg6 harg6 hc0 hc1 x0 x1 x2 xs0).2.1, y ∈ pc.1.set :=
  View.cover_of_tiledL (run_last c i arg2 harg2 arg3 harg3 arg4 harg4 arg5 harg5 arg6 harg6 hc0 hc1 x0 x1 x2 xs0).2.1 S1024x64.size (by sl_kernel_rfl) y
def scr_last (c : Dev nD) (i : grid4.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole) (hc0 : ¬isFirst i) (hc1 : isLast i) (x0 : Vec F S1024 .i32) (x1 : Vec F S1024 .f32) (x2 : Vec F S8192x64 .f32) (xs0 : Vec F S1024x64 .f32) : Vec F S1024x64 .f32 :=
  VS.read (Elt F) (VS.writes (Elt F) VS.junk (run_last c i arg2 harg2 arg3 harg3 arg4 harg4 arg5 harg5 arg6 harg6 hc0 hc1 x0 x1 x2 xs0).2.1)
theorem ocover_last (c : Dev nD) (i : grid4.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole) (hc0 : ¬isFirst i) (hc1 : isLast i) (x0 : Vec F S1024 .i32) (x1 : Vec F S1024 .f32) (x2 : Vec F S8192x64 .f32) (xs0 : Vec F S1024x64 .f32) (y : S1024x64.Idx) :
    ∃ pc ∈ (run_last c i arg2 harg2 arg3 harg3 arg4 harg4 arg5 harg5 arg6 harg6 hc0 hc1 x0 x1 x2 xs0).1, y ∈ pc.1.set :=
  View.cover_of_tiledL (run_last c i arg2 harg2 arg3 harg3 arg4 harg4 arg5 harg5 arg6 harg6 hc0 hc1 x0 x1 x2 xs0).1 S1024x64.size (by sl_kernel_rfl) y
/-- After a last table tile the result's buffer holds the case's pieces, read back. -/
def out_last (c : Dev nD) (i : grid4.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole) (hc0 : ¬isFirst i) (hc1 : isLast i) (x0 : Vec F S1024 .i32) (x1 : Vec F S1024 .f32) (x2 : Vec F S8192x64 .f32) (xs0 : Vec F S1024x64 .f32) : Vec F S1024x64 .f32 :=
  VO.read (Elt F) (VO.writes (Elt F) VO.junk (run_last c i arg2 harg2 arg3 harg3 arg4 harg4 arg5 harg5 arg6 harg6 hc0 hc1 x0 x1 x2 xs0).1)
/-- Where the result's buffer is idle nothing reads what is recorded for it: a placeholder. -/
def out_idle : Vec F S1024x64 .f32 := VO.read (Elt F) VO.junk

/-! ## Point by point -/

/-- After the body at position n: the result's staging buffer, then the scratch block — the case the point is in, run at the
    point's memrefs and input blocks, over the scratch the point before left. -/
def outsAt (c : Dev nD) : (n : ℕ) → n < cfg4.N → Vec F S1024x64 .f32 × Vec F S1024x64 .f32
  | 0, hn => (out_idle, scr_first c (grid4.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((isFirst_iff ⟨0, hn⟩).mpr (Nat.zero_mod _)) (fun h => (fun h' => by (try dsimp only at h'); omega) ((isLast_iff ⟨0, hn⟩).mp h)) (blk V c 0 ⟨0, hn⟩) (blk V c 1 ⟨0, hn⟩) (blk V c 2 ⟨0, hn⟩))
  | n + 1, hn =>
    if h0 : (n + 1) % 13 = 0 then
      if h1 : (n + 1) % 13 = 12 then False.elim (by omega)
      else (out_idle, scr_first c (grid4.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) ((isFirst_iff ⟨n + 1, hn⟩).mpr h0) (fun h => h1 ((isLast_iff ⟨n + 1, hn⟩).mp h)) (blk V c 0 ⟨n + 1, hn⟩) (blk V c 1 ⟨n + 1, hn⟩) (blk V c 2 ⟨n + 1, hn⟩))
    else
      if h1 : (n + 1) % 13 = 12 then
        (out_last c (grid4.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (outsAt c n (Nat.lt_of_succ_lt hn)).2,
          scr_last c (grid4.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (outsAt c n (Nat.lt_of_succ_lt hn)).2)
      else
        (out_idle, scr_mid c (grid4.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((isFirst_iff ⟨n + 1, hn⟩).mp h)) (fun h => h1 ((isLast_iff ⟨n + 1, hn⟩).mp h)) (blk V c 0 ⟨n + 1, hn⟩) (blk V c 1 ⟨n + 1, hn⟩) (blk V c 2 ⟨n + 1, hn⟩) (outsAt c n (Nat.lt_of_succ_lt hn)).2)

theorem outsAt_first (c : Dev nD) (t : Fin cfg4.N) (h0 : t.val % 13 = 0) (h1 : ¬t.val % 13 = 12) :
    outsAt V c t.val t.isLt = (out_idle, scr_first c (grid4.coords t) (ms_0 t) (hs_0 t) (ms_1 t) (hs_1 t) (ms_2 t) (hs_2 t) (ms_3 t) (hs_3 t) scM (Memref.isWhole_whole _) ((isFirst_iff t).mpr h0) (fun h => h1 ((isLast_iff t).mp h)) (blk V c 0 t) (blk V c 1 t) (blk V c 2 t)) := by
  obtain ⟨n, hn⟩ := t
  cases n with
  | zero => exact rfl
  | succ n => exact (dif_pos h0).trans ((dif_neg h1).trans rfl)

theorem outsAt_mid (c : Dev nD) (t : Fin cfg4.N) (h0 : ¬t.val % 13 = 0) (h1 : ¬t.val % 13 = 12) :
    outsAt V c t.val t.isLt = (out_idle, scr_mid c (grid4.coords t) (ms_0 t) (hs_0 t) (ms_1 t) (hs_1 t) (ms_2 t) (hs_2 t) (ms_3 t) (hs_3 t) scM (Memref.isWhole_whole _) (fun h => h0 ((isFirst_iff t).mp h)) (fun h => h1 ((isLast_iff t).mp h)) (blk V c 0 t) (blk V c 1 t) (blk V c 2 t)
      (outsAt V c (t.val - 1) (Nat.lt_of_le_of_lt (Nat.sub_le _ _) t.isLt)).2) := by
  obtain ⟨n, hn⟩ := t
  cases n with
  | zero => exact (by exfalso; exact absurd (Nat.zero_mod _) h0)
  | succ n => exact (dif_neg h0).trans ((dif_neg h1).trans rfl)

theorem outsAt_last (c : Dev nD) (t : Fin cfg4.N) (h0 : ¬t.val % 13 = 0) (h1 : t.val % 13 = 12) :
    outsAt V c t.val t.isLt = (out_last c (grid4.coords t) (ms_0 t) (hs_0 t) (ms_1 t) (hs_1 t) (ms_2 t) (hs_2 t) (ms_3 t) (hs_3 t) scM (Memref.isWhole_whole _) (fun h => h0 ((isFirst_iff t).mp h)) ((isLast_iff t).mpr h1) (blk V c 0 t) (blk V c 1 t) (blk V c 2 t)
        (outsAt V c (t.val - 1) (Nat.lt_of_le_of_lt (Nat.sub_le _ _) t.isLt)).2,
      scr_last c (grid4.coords t) (ms_0 t) (hs_0 t) (ms_1 t) (hs_1 t) (ms_2 t) (hs_2 t) (ms_3 t) (hs_3 t) scM (Memref.isWhole_whole _) (fun h => h0 ((isFirst_iff t).mp h)) ((isLast_iff t).mpr h1) (blk V c 0 t) (blk V c 1 t) (blk V c 2 t)
        (outsAt V c (t.val - 1) (Nat.lt_of_le_of_lt (Nat.sub_le _ _) t.isLt)).2) := by
  obtain ⟨n, hn⟩ := t
  cases n with
  | zero => exact (by exfalso; exact absurd (Nat.zero_mod _) h0)
  | succ n => exact (dif_neg h0).trans ((dif_pos h1).trans rfl)

/-- The region's invariant before position n: before the first point the untouched rest; afterwards the scratch block at what
    the point before left, beside the remainder of the rest and the generator register. -/
def inv (c : Dev nD) : (n : ℕ) → n ≤ cfg4.N → sProp 𝕄
  | 0, _ => Pipeline.ΦA spec4 c
  | n + 1, hn => iprop(iprop(owns (c : Thread nD τ) scM fullShare ((outsAt V c n hn).2) ∗ Pipeline.scopedRestBut (Ix := Unit) (Name := ℕ) (U := UR sig nD τ) (Lvl := ℕ) (Val := Elt F) spec4 c [cc4_scratch0]) ∗ (∃ r, prngReg c r))

theorem inv_zero (c : Dev nD) (n : ℕ) (h : n ≤ cfg4.N) (hz : n = 0) : inv V c n h = Pipeline.ΦA spec4 c := by
  subst hz; rfl
theorem inv_succ (c : Dev nD) (n : ℕ) (hn : n < cfg4.N) :
    inv V c (n + 1) hn = iprop(iprop(owns (c : Thread nD τ) scM fullShare ((outsAt V c n hn).2) ∗ Pipeline.scopedRestBut (Ix := Unit) (Name := ℕ) (U := UR sig nD τ) (Lvl := ℕ) (Val := Elt F) spec4 c [cc4_scratch0]) ∗ (∃ r, prngReg c r)) := rfl
theorem inv_pos (c : Dev nD) (n : ℕ) (h : n ≤ cfg4.N) (hz : n ≠ 0) :
    inv V c n h = iprop(iprop(owns (c : Thread nD τ) scM fullShare ((outsAt V c (n - 1) (by omega)).2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-- The region's proof data on core c. -/
def dat (c : Dev nD) : Dat τ (Elt F) Unit ℕ (UR sig nD τ) ℕ cfg4 c where
  A w := V c (Pipeline.arrRef spec4 w)
  after w t := match w with
    | ⟨0, _⟩ => blk V c 0 t
    | ⟨1, _⟩ => blk V c 1 t
    | ⟨2, _⟩ => blk V c 2 t
    | ⟨3, _⟩ => (outsAt V c t.val t.isLt).1
  Φ t := inv V c t.val (Nat.le_of_lt_succ t.isLt)
  q _ := fullShare
  owed _ := 0

theorem A_eq (c : Dev nD) (w : Fin cfg4.W) : (dat V c).A w = V c (Pipeline.arrRef spec4 w) := by
  dsimp only [dat]
theorem inv_castSucc (c : Dev nD) (t : Fin cfg4.N) : (dat V c).Φ t.castSucc = inv V c t.val (Nat.le_of_lt t.isLt) := by
  dsimp only [dat]; simp only [Fin.coe_castSucc]
theorem after_0 (c : Dev nD) (t : Fin cfg4.N) : (dat V c).after 0 t = blk V c 0 t := by dsimp only [dat]
theorem after_1 (c : Dev nD) (t : Fin cfg4.N) : (dat V c).after 1 t = blk V c 1 t := by dsimp only [dat]
theorem after_2 (c : Dev nD) (t : Fin cfg4.N) : (dat V c).after 2 t = blk V c 2 t := by dsimp only [dat]
theorem after_3 (c : Dev nD) (t : Fin cfg4.N) : (dat V c).after 3 t = (outsAt V c t.val t.isLt).1 := by dsimp only [dat]
theorem before_0 (c : Dev nD) (t : Fin cfg4.N) (d) : (dat V c).before 0 t d = blk V c 0 t := found_0 V (dat V c) (A_eq V c 0) (after_0 V c) t d
theorem before_1 (c : Dev nD) (t : Fin cfg4.N) (d) : (dat V c).before 1 t d = blk V c 1 t := found_1 V (dat V c) (A_eq V c 1) (after_1 V c) t d
theorem before_2 (c : Dev nD) (t : Fin cfg4.N) (d) : (dat V c).before 2 t d = blk V c 2 t := found_2 V (dat V c) (A_eq V c 2) (after_2 V c) t d

/-! ## The body obligation, at a generic point -/

def bodyPre (c : Dev nD) (t : Fin cfg4.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

def bodyPost (c : Dev nD) (t : Fin cfg4.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4800000 in
/-- The body at any point: the inputs' buffers hold their blocks; the closed forms say which case the point is in; the invariant
    hands over the scratch block at what the point before left (at anything at the very first point) and takes it back at this
    point's contents; where the result's window is idle its buffer goes back as found. -/
theorem body_at (c : Dev nD) (t : Fin cfg4.N) :
    bodyPre V c t ⊢ wp frame (wpE (defs₀ (F := F)) Variants.none c none) Set.univ (bodyAt t) (fun _ => bodyPost V c t) := by
  unfold bodyPre bodyPost bodyAt
  simp only [before_0, before_1, before_2]
  rw [show (dat V c).owesAt () t.succ = (dat V c).owesAt () t.castSucc from rfl]
  rw [show (dat V c).Φ t.succ = inv V c (t.val + 1) t.isLt from rfl, inv_succ]
  rw [show (dat V c).leavesExact 0 t = owns (c : Thread nD τ) (ms_0 t) fullShare ((dat V c).after 0 t) from by
    unfold Dat.leavesExact; rfl, after_0]
  rw [show (dat V c).leavesExact 1 t = owns (c : Thread nD τ) (ms_1 t) fullShare ((dat V c).after 1 t) from by
    unfold Dat.leavesExact; rfl, after_1]
  rw [show (dat V c).leavesExact 2 t = owns (c : Thread nD τ) (ms_2 t) fullShare ((dat V c).after 2 t) from by
    unfold Dat.leavesExact; rfl, after_2]
  by_cases h0 : t.val % 13 = 0
  · have h1 : ¬t.val % 13 = 12 := by omega
    rw [Dat.leavesExact_idle (dat V c) 3 t (idle_3 _ (fun h => h1 ((isLast_iff t).mp h))) (noFlush_3 t (fun h => h1 ((isLast_iff t).mp h)))]
    rw [outsAt_first V c t h0 h1]
    unfold scr_first; (try dsimp only)
    by_cases hz : t.val = 0
    · rw [inv_castSucc V c t, inv_zero V c _ _ hz, rest_eq]
      iintro ⟨⟨⟨HS, Hr⟩, Hg⟩, Ho, ⟨%d0, H0⟩, ⟨%d1, H1⟩, ⟨%d2, H2⟩, ⟨%d3, H3⟩⟩
      iapply ((run_first c (grid4.coords t) _ _ _ _ _ _ _ _ _ _ ((isFirst_iff t).mpr h0) (fun h => h1 ((isLast_iff t).mp h)) (blk V c 0 t) (blk V c 1 t) (blk V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover_first c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [inv_castSucc V c t, inv_pos V c _ _ hz]
      iintro ⟨⟨⟨HS, Hr⟩, Hg⟩, Ho, ⟨%d0, H0⟩, ⟨%d1, H1⟩, ⟨%d2, H2⟩, ⟨%d3, H3⟩⟩
      iapply ((run_first c (grid4.coords t) _ _ _ _ _ _ _ _ _ _ ((isFirst_iff t).mpr h0) (fun h => h1 ((isLast_iff t).mp h)) (blk V c 0 t) (blk V c 1 t) (blk V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover_first c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 13 = 12
    · rw [show (dat V c).leavesExact 3 t = owns (c : Thread nD τ) (ms_3 t) fullShare ((dat V c).after 3 t) from by
        unfold Dat.leavesExact; rw [live_3 _ ((isLast_iff t).mpr h1)], after_3]
      rw [outsAt_last V c t h0 h1]
      unfold out_last scr_last; (try dsimp only)
      rw [inv_castSucc V c t, inv_pos V c _ _ hz]
      iintro ⟨⟨⟨HS, Hr⟩, Hg⟩, Ho, ⟨%d0, H0⟩, ⟨%d1, H1⟩, ⟨%d2, H2⟩, ⟨%d3, H3⟩⟩
      iapply ((run_last c (grid4.coords t) _ _ _ _ _ _ _ _ _ _ (fun h => h0 ((isFirst_iff t).mp h)) ((isLast_iff t).mpr h1) (blk V c 0 t) (blk V c 1 t) (blk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hr Hg]
      · isplitl [HS Hr]
        · isplitl [HS]
          · unfold owns; iexists _; isplitr
            swap; · iexact HS
            ipureintro; exact View.read_writes_of_cover _ _ _ _ _ (scover_last c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (ocover_last c _ _ _ _ _ _ _ _ _ _ _ _ _ _ _ _ _)
    · rw [Dat.leavesExact_idle (dat V c) 3 t (idle_3 _ (fun h => h1 ((isLast_iff t).mp h))) (noFlush_3 t (fun h => h1 ((isLast_iff t).mp h)))]
      rw [outsAt_mid V c t h0 h1]
      unfold scr_mid; (try dsimp only)
      rw [inv_castSucc V c t, inv_pos V c _ _ hz]
      iintro ⟨⟨⟨HS, Hr⟩, Hg⟩, Ho, ⟨%d0, H0⟩, ⟨%d1, H1⟩, ⟨%d2, H2⟩, ⟨%d3, H3⟩⟩
      iapply ((run_mid c (grid4.coords t) _ _ _ _ _ _ _ _ _ _ (fun h => h0 ((isFirst_iff t).mp h)) (fun h => h1 ((isLast_iff t).mp h)) (blk V c 0 t) (blk V c 1 t) (blk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover_mid c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W4, bigSep_W4]
  exact body_at V c t

/-- The untouched rest is the invariant before the first point, -/
theorem hin (c : Dev nD) : Pipeline.ΦA spec4 c ⊢ (dat V c).Φ 0 := by
  rw [show (dat V c).Φ 0 = inv V c 0 (Nat.zero_le _) from rfl, inv_zero V c 0 _ rfl]
  try exact Idealize.SL.BI.Entails.refl _

/-- and the invariant after the last point gives it back, the scratch block's contents forgotten. -/
theorem hout (c : Dev nD) : (dat V c).Φ (Fin.last cfg4.N) ⊢ Pipeline.ΦA spec4 c := by
  rw [show (dat V c).Φ (Fin.last cfg4.N) = inv V c (Fin.last cfg4.N).val (Nat.le_of_lt_succ (Fin.last cfg4.N).isLt) from rfl,
    inv_pos V c _ _ (by rw [Fin.val_last]; have : cfg4.N = 21593 := N_4; omega), rest_eq]
  iintro ⟨⟨HS, Hr⟩, Hg⟩
  isplitl [HS Hr]
  · isplitl [HS]
    · iexists _; iexact HS
    iexact Hr
  iexact Hg

end Cert.KernelIdeal.R4

end
-- ==== Proof.Region5.lean ====
/-
  The scatter's region (kernel call 5), on every core, at any float values, from any contents `V` of the TensorCore's
  buffers at its entry.

  Its grid has 13 × 1661 points: a node tile of 8192 rows, and for it the 1661 tiles of 1024 padded edges, innermost.  At a
  point the body is handed the edge tile's target words (window 0) and messages (window 1), the bias row (window 2, fetched
  once), a staging buffer for the node tile of the result (window 3, written back at the node tile's last point only) and
  a scratch block that it carries from point to point.  Three cases, by the edge tile's number e = t mod 1661:
    first  (e = 0):      the scratch is stored zero, then the tile's one-hot product is added into it;
    middle (0<e<1660):   the product is added into the scratch as the point before left it;
    last   (e = 1660):   the same, and then the scratch plus the bias row is stored over the whole result buffer.
  At the first two the result's buffer is idle: handed back as found and not written back.  After every point the
  scratch holds what the case's stores leave, read back; the region's invariant carries it.
-/
import proofs.«155233_j36086315221040_1_alg».proof.Proof.Gen.KernelIdeal.Launch
import proofs.«155233_j36086315221040_1_alg».proof.Proof.Gen.KernelIdeal.Skeleton
import proofs.«155233_j36086315221040_1_alg».proof.Proof.GridFacts
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blk (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Each input's staging buffer holds its block at every point, fetched there or not (a block not fetched has not moved). -/
theorem found_0 {c : Dev nD} (dat : Dat τ (Elt F) Unit ℕ (UR sig nD τ) ℕ cfg5 c) (hA : dat.A 0 = V c (Pipeline.arrRef spec5 0))
    (hafter : ∀ t, dat.after 0 t = blk V c 0 t) (t : Fin cfg5.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found_1 {c : Dev nD} (dat : Dat τ (Elt F) Unit ℕ (UR sig nD τ) ℕ cfg5 c) (hA : dat.A 1 = V c (Pipeline.arrRef spec5 1))
    (hafter : ∀ t, dat.after 1 t = blk V c 1 t) (t : Fin cfg5.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found_2 {c : Dev nD} (dat : Dat τ (Elt F) Unit ℕ (UR sig nD τ) ℕ cfg5 c) (hA : dat.A 2 = V c (Pipeline.arrRef spec5 2))
    (hafter : ∀ t, dat.after 2 t = blk V c 2 t) (t : Fin cfg5.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's two conditions, decided over the grid -/

/-- "This is the node tile's first edge tile", as the body computes it from the grid coordinates. -/
abbrev isFirst (i : grid5.Coords) : Prop := (Scalar.cmpi .ne (Scalar.extui (Scalar.cmpi .eq (BitVec.ofNat 32 (i 1).val) 0#32)) 0#32) = 1#1
theorem isFirst_iff : ∀ t : Fin cfg5.N, isFirst (grid5.coords t) ↔ t.val % 1661 = 0 :=
  Cert.Proof.GridFacts.scatter_first
/-- "This is its last edge tile". -/
abbrev isLast (i : grid5.Coords) : Prop := k5_cond2 i = 1#1
theorem isLast_iff : ∀ t : Fin cfg5.N, isLast (grid5.coords t) ↔ t.val % 1661 = 1660 :=
  Cert.Proof.GridFacts.scatter_last

/-- The result's block is written back exactly at the last inner point. -/
theorem flush_3 : ∀ t : Fin cfg5.N, (cfg5.win 3).flush t = true ↔ t.val % 1661 = 1660 :=
  Cert.Proof.GridFacts.scatter_flush
/-- The body as the pipeline calls it at point t. -/
abbrev bodyAt (t : Fin cfg5.N) : Prog (TpuEff nD τ sig (Elt F) Λ₀ .tc) PUnit :=
  cc5__scatter_kernel (grid5.coords t) (win5_0.stage (cfg5.slots t 0)) (hstage5_0 ((cfg5.slots t 0).cast nbuf5_0)) (win5_1.stage (cfg5.slots t 1)) (hstage5_1 ((cfg5.slots t 1).cast nbuf5_1)) (win5_2.stage (cfg5.slots t 2)) (hstage5_2 ((cfg5.slots t 2).cast nbuf5_2)) (win5_3.stage (cfg5.slots t 3)) (hstage5_3 ((cfg5.slots t 3).cast nbuf5_3)) (Memref.whole cc5_scratch0) (Memref.isWhole_whole _)

/-- Where the result's window is idle: exactly off the last edge tile (the configuration's table is the negated test). -/
theorem idle_3 (i : grid5.Coords) (h : ¬isLast i) : cfg5.idle 3 i = true := by
  show (!(k5_cond2 i == 1#1)) = true
  simp only [Bool.not_eq_true', beq_eq_false_iff_ne, ne_eq]; exact h
theorem live_3 (i : grid5.Coords) (h : isLast i) : cfg5.idle 3 i = false := by
  show (!(k5_cond2 i == 1#1)) = false
  simp only [Bool.not_eq_false', beq_iff_eq]; exact h
/-- Off the last edge tile the result's block is not written back. -/
theorem noFlush_3 (t : Fin cfg5.N) (h : ¬isLast (grid5.coords t)) : (cfg5.win 3).flush t = false := by
  have := flush_3 t
  cases hf : (cfg5.win 3).flush t
  · rfl
  · exact absurd ((isLast_iff t).mpr (this.mp hf)) h

/-! ## The staging and scratch memrefs -/

abbrev VO : View sig .tc .vmem S8192x64 .f32 := (Memref.whole cc5_stg3_0 : Memref sig .tc .vmem S8192x64 .f32).view
abbrev ms_0 (t : Fin cfg5.N) : Memref sig .tc .vmem S1024 .i32 := win5_0.stage (cfg5.slots t 0)
abbrev hs_0 (t : Fin cfg5.N) : (ms_0 t).IsWhole := hstage5_0 ((cfg5.slots t 0).cast nbuf5_0)
abbrev ms_1 (t : Fin cfg5.N) : Memref sig .tc .vmem S1024x64 .f32 := win5_1.stage (cfg5.slots t 1)
abbrev hs_1 (t : Fin cfg5.N) : (ms_1 t).IsWhole := hstage5_1 ((cfg5.slots t 1).cast nbuf5_1)
abbrev ms_2 (t : Fin cfg5.N) : Memref sig .tc .vmem S64 .f32 := win5_2.stage (cfg5.slots t 2)
abbrev hs_2 (t : Fin cfg5.N) : (ms_2 t).IsWhole := hstage5_2 ((cfg5.slots t 2).cast nbuf5_2)
abbrev ms_3 (t : Fin cfg5.N) : Memref sig .tc .vmem S8192x64 .f32 := win5_3.stage (cfg5.slots t 3)
abbrev hs_3 (t : Fin cfg5.N) : (ms_3 t).IsWhole := hstage5_3 ((cfg5.slots t 3).cast nbuf5_3)
/-- The scratch block the body carries between points. -/
abbrev scM : Memref sig .tc .vmem S8192x64 .f32 := Memref.whole cc5_scratch0
abbrev VS : View sig .tc .vmem S8192x64 .f32 := (scM).view

/-- The untouched rest with the scratch block taken out of it, owned at some contents. -/
theorem rest_eq (c : Dev nD) :
    (Pipeline.ΦA spec5 c : sProp 𝕄)
      = iprop(iprop((∃ d, owns (c : Thread nD τ) scM fullShare d)
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM, owns_whole]
  try rfl

/-! ## The body, case by case: the pieces each buffer ends with are what the run finds -/

set_option maxHeartbeats 2000000 in
/-- FIRST edge tile of a node tile: the scratch at anything, the result's buffer handed back untouched. -/
noncomputable def run_first (c : Dev nD) (i : grid5.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole)
    (hc0 : isFirst i) (hc1 : ¬isLast i) (x0 : Vec F S1024 .i32) (x1 : Vec F S1024x64 .f32) (x2 : Vec F S64 .f32) :
    Σ' (L3 : List (View.Piece (Elt F) S8192x64 .f32)), { LS : List (View.Piece (Elt F) S8192x64 .f32) //
      ∀ (xi3 : Vec F S8192x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E (cc5__scatter_kernel i arg2 harg2 arg3 harg3 arg4 harg4 arg5 harg5 arg6 harg6) K } := by
  refine ⟨[], ?_, fun xi3 E K => ?run⟩
  case run =>
    simp only [cc5__scatter_kernel_eq_skeleton]; unfold cc5__scatter_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 2000000 in
/-- A MIDDLE edge tile: the scratch at what the point before left, the result's buffer handed back untouched. -/
noncomputable def run_mid (c : Dev nD) (i : grid5.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole)
    (hc0 : ¬isFirst i) (hc1 : ¬isLast i) (x0 : Vec F S1024 .i32) (x1 : Vec F S1024x64 .f32) (x2 : Vec F S64 .f32) (xs0 : Vec F S8192x64 .f32) :
    Σ' (L3 : List (View.Piece (Elt F) S8192x64 .f32)), { LS : List (View.Piece (Elt F) S8192x64 .f32) //
      ∀ (xi3 : Vec F S8192x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E (cc5__scatter_kernel i arg2 harg2 arg3 harg3 arg4 harg4 arg5 harg5 arg6 harg6) K } := by
  refine ⟨[], ?_, fun xi3 E K => ?run⟩
  case run =>
    simp only [cc5__scatter_kernel_eq_skeleton]; unfold cc5__scatter_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 2000000 in
/-- The LAST edge tile: the scratch at what the point before left, the result's buffer at anything and stored whole. -/
noncomputable def run_last (c : Dev nD) (i : grid5.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole)
    (hc0 : ¬isFirst i) (hc1 : isLast i) (x0 : Vec F S1024 .i32) (x1 : Vec F S1024x64 .f32) (x2 : Vec F S64 .f32) (xs0 : Vec F S8192x64 .f32) :
    Σ' (L3 : List (View.Piece (Elt F) S8192x64 .f32)), { LS : List (View.Piece (Elt F) S8192x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc5__scatter_kernel i arg2 harg2 arg3 harg3 arg4 harg4 arg5 harg5 arg6 harg6) K } := by
  refine ⟨?_, ?_, fun E K => ?run⟩
  case run =>
    simp only [cc5__scatter_kernel_eq_skeleton]; unfold cc5__scatter_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! ## What each case leaves in the scratch block and in the result's buffer -/

theorem scover_first (c : Dev nD) (i : grid5.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole) (hc0 : isFirst i) (hc1 : ¬isLast i) (x0 : Vec F S1024 .i32) (x1 : Vec F S1024x64 .f32) (x2 : Vec F S64 .f32) (y : S8192x64.Idx) :
    ∃ pc ∈ (run_first c i arg2 harg2 arg3 harg3 arg4 harg4 arg5 harg5 arg6 harg6 hc0 hc1 x0 x1 x2).2.1, y ∈ pc.1.set :=
  View.cover_of_tiledL (run_first c i arg2 harg2 arg3 harg3 arg4 harg4 arg5 harg5 arg6 harg6 hc0 hc1 x0 x1 x2).2.1 S8192x64.size (by sl_kernel_rfl) y
/-- After a first edge tile the scratch block holds the case's pieces, read back. -/
def scr_first (c : Dev nD) (i : grid5.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole) (hc0 : isFirst i) (hc1 : ¬isLast i) (x0 : Vec F S1024 .i32) (x1 : Vec F S1024x64 .f32) (x2 : Vec F S64 .f32) : Vec F S8192x64 .f32 :=
  VS.read (Elt F) (VS.writes (Elt F) VS.junk (run_first c i arg2 harg2 arg3 harg3 arg4 harg4 arg5 harg5 arg6 harg6 hc0 hc1 x0 x1 x2).2.1)

theorem scover_mid (c : Dev nD) (i : grid5.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole) (hc0 : ¬isFirst i) (hc1 : ¬isLast i) (x0 : Vec F S1024 .i32) (x1 : Vec F S1024x64 .f32) (x2 : Vec F S64 .f32) (xs0 : Vec F S8192x64 .f32) (y : S8192x64.Idx) :
    ∃ pc ∈ (run_mid c i arg2 harg2 arg3 harg3 arg4 harg4 arg5 harg5 arg6 harg6 hc0 hc1 x0 x1 x2 xs0).2.1, y ∈ pc.1.set :=
  View.cover_of_tiledL (run_mid c i arg2 harg2 arg3 harg3 arg4 harg4 arg5 harg5 arg6 harg6 hc0 hc1 x0 x1 x2 xs0).2.1 S8192x64.size (by sl_kernel_rfl) y
def scr_mid (c : Dev nD) (i : grid5.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole) (hc0 : ¬isFirst i) (hc1 : ¬isLast i) (x0 : Vec F S1024 .i32) (x1 : Vec F S1024x64 .f32) (x2 : Vec F S64 .f32) (xs0 : Vec F S8192x64 .f32) : Vec F S8192x64 .f32 :=
  VS.read (Elt F) (VS.writes (Elt F) VS.junk (run_mid c i arg2 harg2 arg3 harg3 arg4 harg4 arg5 harg5 arg6 harg6 hc0 hc1 x0 x1 x2 xs0).2.1)

theorem scover_last (c : Dev nD) (i : grid5.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole) (hc0 : ¬isFirst i) (hc1 : isLast i) (x0 : Vec F S1024 .i32) (x1 : Vec F S1024x64 .f32) (x2 : Vec F S64 .f32) (xs0 : Vec F S8192x64 .f32) (y : S8192x64.Idx) :
    ∃ pc ∈ (run_last c i arg2 harg2 arg3 harg3 arg4 harg4 arg5 harg5 arg6 harg6 hc0 hc1 x0 x1 x2 xs0).2.1, y ∈ pc.1.set :=
  View.cover_of_tiledL (run_last c i arg2 harg2 arg3 harg3 arg4 harg4 arg5 harg5 arg6 harg6 hc0 hc1 x0 x1 x2 xs0).2.1 S8192x64.size (by sl_kernel_rfl) y
def scr_last (c : Dev nD) (i : grid5.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole) (hc0 : ¬isFirst i) (hc1 : isLast i) (x0 : Vec F S1024 .i32) (x1 : Vec F S1024x64 .f32) (x2 : Vec F S64 .f32) (xs0 : Vec F S8192x64 .f32) : Vec F S8192x64 .f32 :=
  VS.read (Elt F) (VS.writes (Elt F) VS.junk (run_last c i arg2 harg2 arg3 harg3 arg4 harg4 arg5 harg5 arg6 harg6 hc0 hc1 x0 x1 x2 xs0).2.1)
theorem ocover_last (c : Dev nD) (i : grid5.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole) (hc0 : ¬isFirst i) (hc1 : isLast i) (x0 : Vec F S1024 .i32) (x1 : Vec F S1024x64 .f32) (x2 : Vec F S64 .f32) (xs0 : Vec F S8192x64 .f32) (y : S8192x64.Idx) :
    ∃ pc ∈ (run_last c i arg2 harg2 arg3 harg3 arg4 harg4 arg5 harg5 arg6 harg6 hc0 hc1 x0 x1 x2 xs0).1, y ∈ pc.1.set :=
  View.cover_of_tiledL (run_last c i arg2 harg2 arg3 harg3 arg4 harg4 arg5 harg5 arg6 harg6 hc0 hc1 x0 x1 x2 xs0).1 S8192x64.size (by sl_kernel_rfl) y
/-- After a last edge tile the result's buffer holds the case's pieces, read back. -/
def out_last (c : Dev nD) (i : grid5.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole) (hc0 : ¬isFirst i) (hc1 : isLast i) (x0 : Vec F S1024 .i32) (x1 : Vec F S1024x64 .f32) (x2 : Vec F S64 .f32) (xs0 : Vec F S8192x64 .f32) : Vec F S8192x64 .f32 :=
  VO.read (Elt F) (VO.writes (Elt F) VO.junk (run_last c i arg2 harg2 arg3 harg3 arg4 harg4 arg5 harg5 arg6 harg6 hc0 hc1 x0 x1 x2 xs0).1)
/-- Where the result's buffer is idle nothing reads what is recorded for it: a placeholder. -/
def out_idle : Vec F S8192x64 .f32 := VO.read (Elt F) VO.junk

/-! ## Point by point -/

/-- After the body at position n: the result's staging buffer, then the scratch block — the case the point is in, run at the
    point's memrefs and input blocks, over the scratch the point before left. -/
def outsAt (c : Dev nD) : (n : ℕ) → n < cfg5.N → Vec F S8192x64 .f32 × Vec F S8192x64 .f32
  | 0, hn => (out_idle, scr_first c (grid5.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((isFirst_iff ⟨0, hn⟩).mpr (Nat.zero_mod _)) (fun h => (fun h' => by (try dsimp only at h'); omega) ((isLast_iff ⟨0, hn⟩).mp h)) (blk V c 0 ⟨0, hn⟩) (blk V c 1 ⟨0, hn⟩) (blk V c 2 ⟨0, hn⟩))
  | n + 1, hn =>
    if h0 : (n + 1) % 1661 = 0 then
      if h1 : (n + 1) % 1661 = 1660 then False.elim (by omega)
      else (out_idle, scr_first c (grid5.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) ((isFirst_iff ⟨n + 1, hn⟩).mpr h0) (fun h => h1 ((isLast_iff ⟨n + 1, hn⟩).mp h)) (blk V c 0 ⟨n + 1, hn⟩) (blk V c 1 ⟨n + 1, hn⟩) (blk V c 2 ⟨n + 1, hn⟩))
    else
      if h1 : (n + 1) % 1661 = 1660 then
        (out_last c (grid5.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (outsAt c n (Nat.lt_of_succ_lt hn)).2,
          scr_last c (grid5.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (outsAt c n (Nat.lt_of_succ_lt hn)).2)
      else
        (out_idle, scr_mid c (grid5.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((isFirst_iff ⟨n + 1, hn⟩).mp h)) (fun h => h1 ((isLast_iff ⟨n + 1, hn⟩).mp h)) (blk V c 0 ⟨n + 1, hn⟩) (blk V c 1 ⟨n + 1, hn⟩) (blk V c 2 ⟨n + 1, hn⟩) (outsAt c n (Nat.lt_of_succ_lt hn)).2)

theorem outsAt_first (c : Dev nD) (t : Fin cfg5.N) (h0 : t.val % 1661 = 0) (h1 : ¬t.val % 1661 = 1660) :
    outsAt V c t.val t.isLt = (out_idle, scr_first c (grid5.coords t) (ms_0 t) (hs_0 t) (ms_1 t) (hs_1 t) (ms_2 t) (hs_2 t) (ms_3 t) (hs_3 t) scM (Memref.isWhole_whole _) ((isFirst_iff t).mpr h0) (fun h => h1 ((isLast_iff t).mp h)) (blk V c 0 t) (blk V c 1 t) (blk V c 2 t)) := by
  obtain ⟨n, hn⟩ := t
  cases n with
  | zero => exact rfl
  | succ n => exact (dif_pos h0).trans ((dif_neg h1).trans rfl)

theorem outsAt_mid (c : Dev nD) (t : Fin cfg5.N) (h0 : ¬t.val % 1661 = 0) (h1 : ¬t.val % 1661 = 1660) :
    outsAt V c t.val t.isLt = (out_idle, scr_mid c (grid5.coords t) (ms_0 t) (hs_0 t) (ms_1 t) (hs_1 t) (ms_2 t) (hs_2 t) (ms_3 t) (hs_3 t) scM (Memref.isWhole_whole _) (fun h => h0 ((isFirst_iff t).mp h)) (fun h => h1 ((isLast_iff t).mp h)) (blk V c 0 t) (blk V c 1 t) (blk V c 2 t)
      (outsAt V c (t.val - 1) (Nat.lt_of_le_of_lt (Nat.sub_le _ _) t.isLt)).2) := by
  obtain ⟨n, hn⟩ := t
  cases n with
  | zero => exact (by exfalso; exact absurd (Nat.zero_mod _) h0)
  | succ n => exact (dif_neg h0).trans ((dif_neg h1).trans rfl)

theorem outsAt_last (c : Dev nD) (t : Fin cfg5.N) (h0 : ¬t.val % 1661 = 0) (h1 : t.val % 1661 = 1660) :
    outsAt V c t.val t.isLt = (out_last c (grid5.coords t) (ms_0 t) (hs_0 t) (ms_1 t) (hs_1 t) (ms_2 t) (hs_2 t) (ms_3 t) (hs_3 t) scM (Memref.isWhole_whole _) (fun h => h0 ((isFirst_iff t).mp h)) ((isLast_iff t).mpr h1) (blk V c 0 t) (blk V c 1 t) (blk V c 2 t)
        (outsAt V c (t.val - 1) (Nat.lt_of_le_of_lt (Nat.sub_le _ _) t.isLt)).2,
      scr_last c (grid5.coords t) (ms_0 t) (hs_0 t) (ms_1 t) (hs_1 t) (ms_2 t) (hs_2 t) (ms_3 t) (hs_3 t) scM (Memref.isWhole_whole _) (fun h => h0 ((isFirst_iff t).mp h)) ((isLast_iff t).mpr h1) (blk V c 0 t) (blk V c 1 t) (blk V c 2 t)
        (outsAt V c (t.val - 1) (Nat.lt_of_le_of_lt (Nat.sub_le _ _) t.isLt)).2) := by
  obtain ⟨n, hn⟩ := t
  cases n with
  | zero => exact (by exfalso; exact absurd (Nat.zero_mod _) h0)
  | succ n => exact (dif_neg h0).trans ((dif_pos h1).trans rfl)

/-- The region's invariant before position n: before the first point the untouched rest; afterwards the scratch block at what
    the point before left, beside the remainder of the rest and the generator register. -/
def inv (c : Dev nD) : (n : ℕ) → n ≤ cfg5.N → sProp 𝕄
  | 0, _ => Pipeline.ΦA spec5 c
  | n + 1, hn => iprop(iprop(owns (c : Thread nD τ) scM fullShare ((outsAt V c n hn).2) ∗ Pipeline.scopedRestBut (Ix := Unit) (Name := ℕ) (U := UR sig nD τ) (Lvl := ℕ) (Val := Elt F) spec5 c [cc5_scratch0]) ∗ (∃ r, prngReg c r))

theorem inv_zero (c : Dev nD) (n : ℕ) (h : n ≤ cfg5.N) (hz : n = 0) : inv V c n h = Pipeline.ΦA spec5 c := by
  subst hz; rfl
theorem inv_succ (c : Dev nD) (n : ℕ) (hn : n < cfg5.N) :
    inv V c (n + 1) hn = iprop(iprop(owns (c : Thread nD τ) scM fullShare ((outsAt V c n hn).2) ∗ Pipeline.scopedRestBut (Ix := Unit) (Name := ℕ) (U := UR sig nD τ) (Lvl := ℕ) (Val := Elt F) spec5 c [cc5_scratch0]) ∗ (∃ r, prngReg c r)) := rfl
theorem inv_pos (c : Dev nD) (n : ℕ) (h : n ≤ cfg5.N) (hz : n ≠ 0) :
    inv V c n h = iprop(iprop(owns (c : Thread nD τ) scM fullShare ((outsAt V c (n - 1) (by omega)).2) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-- The region's proof data on core c. -/
def dat (c : Dev nD) : Dat τ (Elt F) Unit ℕ (UR sig nD τ) ℕ cfg5 c where
  A w := V c (Pipeline.arrRef spec5 w)
  after w t := match w with
    | ⟨0, _⟩ => blk V c 0 t
    | ⟨1, _⟩ => blk V c 1 t
    | ⟨2, _⟩ => blk V c 2 t
    | ⟨3, _⟩ => (outsAt V c t.val t.isLt).1
  Φ t := inv V c t.val (Nat.le_of_lt_succ t.isLt)
  q _ := fullShare
  owed _ := 0

theorem A_eq (c : Dev nD) (w : Fin cfg5.W) : (dat V c).A w = V c (Pipeline.arrRef spec5 w) := by
  dsimp only [dat]
theorem inv_castSucc (c : Dev nD) (t : Fin cfg5.N) : (dat V c).Φ t.castSucc = inv V c t.val (Nat.le_of_lt t.isLt) := by
  dsimp only [dat]; simp only [Fin.coe_castSucc]
theorem after_0 (c : Dev nD) (t : Fin cfg5.N) : (dat V c).after 0 t = blk V c 0 t := by dsimp only [dat]
theorem after_1 (c : Dev nD) (t : Fin cfg5.N) : (dat V c).after 1 t = blk V c 1 t := by dsimp only [dat]
theorem after_2 (c : Dev nD) (t : Fin cfg5.N) : (dat V c).after 2 t = blk V c 2 t := by dsimp only [dat]
theorem after_3 (c : Dev nD) (t : Fin cfg5.N) : (dat V c).after 3 t = (outsAt V c t.val t.isLt).1 := by dsimp only [dat]
theorem before_0 (c : Dev nD) (t : Fin cfg5.N) (d) : (dat V c).before 0 t d = blk V c 0 t := found_0 V (dat V c) (A_eq V c 0) (after_0 V c) t d
theorem before_1 (c : Dev nD) (t : Fin cfg5.N) (d) : (dat V c).before 1 t d = blk V c 1 t := found_1 V (dat V c) (A_eq V c 1) (after_1 V c) t d
theorem before_2 (c : Dev nD) (t : Fin cfg5.N) (d) : (dat V c).before 2 t d = blk V c 2 t := found_2 V (dat V c) (A_eq V c 2) (after_2 V c) t d

/-! ## The body obligation, at a generic point -/

def bodyPre (c : Dev nD) (t : Fin cfg5.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

def bodyPost (c : Dev nD) (t : Fin cfg5.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4800000 in
/-- The body at any point: the inputs' buffers hold their blocks; the closed forms say which case the point is in; the invariant
    hands over the scratch block at what the point before left (at anything at the very first point) and takes it back at this
    point's contents; where the result's window is idle its buffer goes back as found. -/
theorem body_at (c : Dev nD) (t : Fin cfg5.N) :
    bodyPre V c t ⊢ wp frame (wpE (defs₀ (F := F)) Variants.none c none) Set.univ (bodyAt t) (fun _ => bodyPost V c t) := by
  unfold bodyPre bodyPost bodyAt
  simp only [before_0, before_1, before_2]
  rw [show (dat V c).owesAt () t.succ = (dat V c).owesAt () t.castSucc from rfl]
  rw [show (dat V c).Φ t.succ = inv V c (t.val + 1) t.isLt from rfl, inv_succ]
  rw [show (dat V c).leavesExact 0 t = owns (c : Thread nD τ) (ms_0 t) fullShare ((dat V c).after 0 t) from by
    unfold Dat.leavesExact; rfl, after_0]
  rw [show (dat V c).leavesExact 1 t = owns (c : Thread nD τ) (ms_1 t) fullShare ((dat V c).after 1 t) from by
    unfold Dat.leavesExact; rfl, after_1]
  rw [show (dat V c).leavesExact 2 t = owns (c : Thread nD τ) (ms_2 t) fullShare ((dat V c).after 2 t) from by
    unfold Dat.leavesExact; rfl, after_2]
  by_cases h0 : t.val % 1661 = 0
  · have h1 : ¬t.val % 1661 = 1660 := by omega
    rw [Dat.leavesExact_idle (dat V c) 3 t (idle_3 _ (fun h => h1 ((isLast_iff t).mp h))) (noFlush_3 t (fun h => h1 ((isLast_iff t).mp h)))]
    rw [outsAt_first V c t h0 h1]
    unfold scr_first; (try dsimp only)
    by_cases hz : t.val = 0
    · rw [inv_castSucc V c t, inv_zero V c _ _ hz, rest_eq]
      iintro ⟨⟨⟨HS, Hr⟩, Hg⟩, Ho, ⟨%d0, H0⟩, ⟨%d1, H1⟩, ⟨%d2, H2⟩, ⟨%d3, H3⟩⟩
      iapply ((run_first c (grid5.coords t) _ _ _ _ _ _ _ _ _ _ ((isFirst_iff t).mpr h0) (fun h => h1 ((isLast_iff t).mp h)) (blk V c 0 t) (blk V c 1 t) (blk V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover_first c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [inv_castSucc V c t, inv_pos V c _ _ hz]
      iintro ⟨⟨⟨HS, Hr⟩, Hg⟩, Ho, ⟨%d0, H0⟩, ⟨%d1, H1⟩, ⟨%d2, H2⟩, ⟨%d3, H3⟩⟩
      iapply ((run_first c (grid5.coords t) _ _ _ _ _ _ _ _ _ _ ((isFirst_iff t).mpr h0) (fun h => h1 ((isLast_iff t).mp h)) (blk V c 0 t) (blk V c 1 t) (blk V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover_first c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 1661 = 1660
    · rw [show (dat V c).leavesExact 3 t = owns (c : Thread nD τ) (ms_3 t) fullShare ((dat V c).after 3 t) from by
        unfold Dat.leavesExact; rw [live_3 _ ((isLast_iff t).mpr h1)], after_3]
      rw [outsAt_last V c t h0 h1]
      unfold out_last scr_last; (try dsimp only)
      rw [inv_castSucc V c t, inv_pos V c _ _ hz]
      iintro ⟨⟨⟨HS, Hr⟩, Hg⟩, Ho, ⟨%d0, H0⟩, ⟨%d1, H1⟩, ⟨%d2, H2⟩, ⟨%d3, H3⟩⟩
      iapply ((run_last c (grid5.coords t) _ _ _ _ _ _ _ _ _ _ (fun h => h0 ((isFirst_iff t).mp h)) ((isLast_iff t).mpr h1) (blk V c 0 t) (blk V c 1 t) (blk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hr Hg]
      · isplitl [HS Hr]
        · isplitl [HS]
          · unfold owns; iexists _; isplitr
            swap; · iexact HS
            ipureintro; exact View.read_writes_of_cover _ _ _ _ _ (scover_last c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (ocover_last c _ _ _ _ _ _ _ _ _ _ _ _ _ _ _ _ _)
    · rw [Dat.leavesExact_idle (dat V c) 3 t (idle_3 _ (fun h => h1 ((isLast_iff t).mp h))) (noFlush_3 t (fun h => h1 ((isLast_iff t).mp h)))]
      rw [outsAt_mid V c t h0 h1]
      unfold scr_mid; (try dsimp only)
      rw [inv_castSucc V c t, inv_pos V c _ _ hz]
      iintro ⟨⟨⟨HS, Hr⟩, Hg⟩, Ho, ⟨%d0, H0⟩, ⟨%d1, H1⟩, ⟨%d2, H2⟩, ⟨%d3, H3⟩⟩
      iapply ((run_mid c (grid5.coords t) _ _ _ _ _ _ _ _ _ _ (fun h => h0 ((isFirst_iff t).mp h)) (fun h => h1 ((isLast_iff t).mp h)) (blk V c 0 t) (blk V c 1 t) (blk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover_mid c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W5, bigSep_W5]
  exact body_at V c t

/-- The untouched rest is the invariant before the first point, -/
theorem hin (c : Dev nD) : Pipeline.ΦA spec5 c ⊢ (dat V c).Φ 0 := by
  rw [show (dat V c).Φ 0 = inv V c 0 (Nat.zero_le _) from rfl, inv_zero V c 0 _ rfl]
  try exact Idealize.SL.BI.Entails.refl _

/-- and the invariant after the last point gives it back, the scratch block's contents forgotten. -/
theorem hout (c : Dev nD) : (dat V c).Φ (Fin.last cfg5.N) ⊢ Pipeline.ΦA spec5 c := by
  rw [show (dat V c).Φ (Fin.last cfg5.N) = inv V c (Fin.last cfg5.N).val (Nat.le_of_lt_succ (Fin.last cfg5.N).isLt) from rfl,
    inv_pos V c _ _ (by rw [Fin.val_last]; have : cfg5.N = 21593 := N_5; omega), rest_eq]
  iintro ⟨⟨HS, Hr⟩, Hg⟩
  isplitl [HS Hr]
  · isplitl [HS]
    · iexists _; iexact HS
    iexact Hr
  iexact Hg

end Cert.KernelIdeal.R5

end
-- ==== Proof.Region6.lean ====
/-
  The dense transform's region (kernel call 6), on every core, at any float values, from any contents `V` of the
  TensorCore's buffers at its entry.

  Its grid has 13 points, one per tile of 8192 node rows.  At point t the pipeline hands the body the t-th tile of the
  padded node table (window 0, fetched at every point), the whole weight matrix (window 1, fetched once: its block does
  not move) and a staging buffer for the t-th tile of the result (window 2, written back at every point).  The body
  loads the two inputs, looks at the result's buffer, and stores the product over the whole buffer: after it the
  result's buffer holds the one stored piece, the product of the two input blocks, and the inputs' buffers are as
  found.  It keeps nothing between points, so the region's invariant is the untouched rest (the scoped buffers no
  window stages, the generator register).
-/
import proofs.«155233_j36086315221040_1_alg».proof.Proof.Gen.KernelIdeal.Launch
import proofs.«155233_j36086315221040_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blk (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The node tile's staging buffer holds its block at every point. -/
theorem found_0 {c : Dev nD} (dat : Dat τ (Elt F) Unit ℕ (UR sig nD τ) ℕ cfg6 c) (hA : dat.A 0 = V c (Pipeline.arrRef spec6 0))
    (hafter : ∀ t, dat.after 0 t = blk V c 0 t) (t : Fin cfg6.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The weight matrix's staging buffer holds the matrix at every point, fetched there or not: its block never moves. -/
theorem found_1 {c : Dev nD} (dat : Dat τ (Elt F) Unit ℕ (UR sig nD τ) ℕ cfg6 c) (hA : dat.A 1 = V c (Pipeline.arrRef spec6 1))
    (hafter : ∀ t, dat.after 1 t = blk V c 1 t) (t : Fin cfg6.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The whole-buffer rectangles the body loads and stores through. -/
abbrev rX : Rect S8192x64 := Rect.unit (s := S8192x64) ![0, 0] S8192x64.size inb_S8192x64_S8192x64_0_0
abbrev rW : Rect S64x32 := Rect.unit (s := S64x32) ![0, 0] S64x32.size inb_S64x32_S64x32_0_0
abbrev rO : Rect S8192x32 := Rect.unit (s := S8192x32) ![0, 0] S8192x32.size inb_S8192x32_S8192x32_0_0

/-- What the body leaves in the result's staging buffer: its one store, the product of the two loaded blocks. -/
def product (x0 : Vec F S8192x64 .f32) (x1 : Vec F S64x32 .f32) : Vec F S8192x32 .f32 :=
  View.canon [⟨rO, k6_pay1 (View.ld x0 rX) (View.ld x1 rW)⟩]

/-- The one store is over the whole buffer. -/
theorem product_cover (p0 : Vec F S8192x32 .f32) (y : S8192x32.Idx) :
    ∃ pc ∈ ([⟨rO, p0⟩] : List (View.Piece (Elt F) S8192x32 .f32)), y ∈ pc.1.set :=
  View.cover_of_tiled [⟨rO, p0⟩] S8192x32.size (by rfl) y

set_option maxHeartbeats 1000000 in
/-- The body on whole staging memrefs: from the inputs at their contents and the result's buffer at anything, it runs to
    the inputs as they were and the result's buffer at the product. -/
theorem body_run (c : Dev nD) (E : Set ℕ) (i : grid6.Coords)
    (arg1 : Memref sig .tc .vmem S8192x64 .f32) (harg1 : arg1.IsWhole) (arg2 : Memref sig .tc .vmem S64x32 .f32) (harg2 : arg2.IsWhole)
    (arg3 : Memref sig .tc .vmem S8192x32 .f32) (harg3 : arg3.IsWhole)
    (x0 : Vec F S8192x64 .f32) (x1 : Vec F S64x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (product x0 x1)) -∗ K ⟨⟩))
      ⊢ wp frame (wpE (defs₀ (F := F)) Variants.none c none) E (cc6__linear_kernel i arg1 harg1 arg2 harg2 arg3 harg3) K := by
  simp only [cc6__linear_kernel_eq_skeleton]; unfold cc6__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (product_cover _)

/-- The region's proof data on core c: the arrays as the region finds them; after the body at point t each input's
    buffer at its block and the result's at the product of the two; the invariant the untouched rest; nothing owed. -/
def dat (c : Dev nD) : Dat τ (Elt F) Unit ℕ (UR sig nD τ) ℕ cfg6 c where
  A w := V c (Pipeline.arrRef spec6 w)
  after w t := match w with
    | ⟨0, _⟩ => blk V c 0 t
    | ⟨1, _⟩ => blk V c 1 t
    | ⟨2, _⟩ => product (blk V c 0 t) (blk V c 1 t)
  Φ _ := Pipeline.ΦA spec6 c
  q _ := fullShare
  owed _ := 0

theorem A_eq (c : Dev nD) (w : Fin cfg6.W) : (dat V c).A w = V c (Pipeline.arrRef spec6 w) := by
  dsimp only [dat]

theorem after_0 (c : Dev nD) (t : Fin cfg6.N) : (dat V c).after 0 t = blk V c 0 t := by dsimp only [dat]
theorem after_1 (c : Dev nD) (t : Fin cfg6.N) : (dat V c).after 1 t = blk V c 1 t := by dsimp only [dat]
theorem after_2 (c : Dev nD) (t : Fin cfg6.N) : (dat V c).after 2 t = product (blk V c 0 t) (blk V c 1 t) := by dsimp only [dat]

theorem before_0 (c : Dev nD) (t : Fin cfg6.N) (d) : (dat V c).before 0 t d = blk V c 0 t :=
  found_0 V (dat V c) (A_eq V c 0) (after_0 V c) t d
theorem before_1 (c : Dev nD) (t : Fin cfg6.N) (d) : (dat V c).before 1 t d = blk V c 1 t :=
  found_1 V (dat V c) (A_eq V c 1) (after_1 V c) t d

/-- The current staging memref of each window at point t, and the body as the pipeline calls it there. -/
abbrev st_0 (t : Fin cfg6.N) := (cfg6.win 0).stage (cfg6.slots t 0)
abbrev st_1 (t : Fin cfg6.N) := (cfg6.win 1).stage (cfg6.slots t 1)
abbrev st_2 (t : Fin cfg6.N) := (cfg6.win 2).stage (cfg6.slots t 2)
abbrev bodyAt (t : Fin cfg6.N) : Prog (TpuEff nD τ sig (Elt F) Λ₀ .tc) PUnit :=
  cc6__linear_kernel (grid6.coords t) (win6_0.stage (cfg6.slots t 0)) (hstage6_0 ((cfg6.slots t 0).cast nbuf6_0)) (win6_1.stage (cfg6.slots t 1)) (hstage6_1 ((cfg6.slots t 1).cast nbuf6_1)) (win6_2.stage (cfg6.slots t 2)) (hstage6_2 ((cfg6.slots t 2).cast nbuf6_2))

/-- What the body is called with at point t, the windows one by one, -/
def bodyPre (c : Dev nD) (t : Fin cfg6.N) : sProp 𝕄 :=
  iprop((dat V c).Φ t.castSucc ∗ (dat V c).owesAt () t.castSucc
    ∗ (∃ d, owns (c : Thread nD τ) (st_0 t) fullShare ((dat V c).before 0 t d))
    ∗ (∃ d, owns (c : Thread nD τ) (st_1 t) fullShare ((dat V c).before 1 t d))
    ∗ (∃ d, owns (c : Thread nD τ) (st_2 t) fullShare ((dat V c).before 2 t d)))

/-- and what it returns. -/
def bodyPost (c : Dev nD) (t : Fin cfg6.N) : sProp 𝕄 :=
  iprop((dat V c).Φ t.succ ∗ (dat V c).owesAt () t.succ
    ∗ owns (c : Thread nD τ) (st_0 t) fullShare ((dat V c).after 0 t)
    ∗ owns (c : Thread nD τ) (st_1 t) fullShare ((dat V c).after 1 t)
    ∗ owns (c : Thread nD τ) (st_2 t) fullShare ((dat V c).after 2 t))

/-- The body at any point: the inputs' buffers hold their blocks, so the run applies; the invariant and the core's
    dues pass through unread. -/
theorem body_at (c : Dev nD) (t : Fin cfg6.N) :
    bodyPre V c t ⊢ wp frame (wpE (defs₀ (F := F)) Variants.none c none) Set.univ (bodyAt t) (fun _ => bodyPost V c t) := by
  unfold bodyPre bodyPost bodyAt
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (body_run c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W6, bigSep_W6]
  exact body_at V c t

/-- The region keeps nothing between points: its invariant is the untouched rest at both ends. -/
theorem hin (c : Dev nD) : Pipeline.ΦA spec6 c ⊢ (dat V c).Φ 0 := BI.Entails.refl _
theorem hout (c : Dev nD) : (dat V c).Φ (Fin.last cfg6.N) ⊢ Pipeline.ΦA spec6 c := BI.Entails.refl _

end Cert.KernelIdeal.R6

end
-- ==== Proof.Region7.lean ====
/-
  The gather's region (kernel call 7), on every core, at any float values, from any contents `V` of the TensorCore's
  buffers at its entry.

  Its grid has 1661 × 13 points: an edge tile of 1024 edges, and for it the 13 tiles of 8192 rows of the padded node
  table, innermost.  At a point the body is handed the tile's source words (window 0) and edge weights (window 1), both
  fetched when the edge tile changes, the table tile (window 2, fetched at every point), a staging buffer for the tile
  of the result (window 3, written back at the edge tile's last point only) and a scratch block that it carries from
  point to point.  Three cases, by the table tile's number k = t mod 13:
    first  (k = 0):   the scratch is stored zero, then the tile's one-hot product is added into it;
    middle (0<k<12):  the product is added into the scratch as the point before left it;
    last   (k = 12):  the same, and then the scratch times the weights is stored over the whole result buffer.
  At the first two the result's buffer is idle: handed back as found and not written back.  After every point the
  scratch holds what the case's stores leave, read back; the region's invariant carries it.
-/
import proofs.«155233_j36086315221040_1_alg».proof.Proof.Gen.KernelIdeal.Launch
import proofs.«155233_j36086315221040_1_alg».proof.Proof.Gen.KernelIdeal.Skeleton
import proofs.«155233_j36086315221040_1_alg».proof.Proof.GridFacts
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R7

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blk (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Each input's staging buffer holds its block at every point, fetched there or not (a block not fetched has not moved). -/
theorem found_0 {c : Dev nD} (dat : Dat τ (Elt F) Unit ℕ (UR sig nD τ) ℕ cfg7 c) (hA : dat.A 0 = V c (Pipeline.arrRef spec7 0))
    (hafter : ∀ t, dat.after 0 t = blk V c 0 t) (t : Fin cfg7.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found_1 {c : Dev nD} (dat : Dat τ (Elt F) Unit ℕ (UR sig nD τ) ℕ cfg7 c) (hA : dat.A 1 = V c (Pipeline.arrRef spec7 1))
    (hafter : ∀ t, dat.after 1 t = blk V c 1 t) (t : Fin cfg7.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found_2 {c : Dev nD} (dat : Dat τ (Elt F) Unit ℕ (UR sig nD τ) ℕ cfg7 c) (hA : dat.A 2 = V c (Pipeline.arrRef spec7 2))
    (hafter : ∀ t, dat.after 2 t = blk V c 2 t) (t : Fin cfg7.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's two conditions, decided over the grid -/

/-- "This is the edge tile's first table tile", as the body computes it from the grid coordinates. -/
abbrev isFirst (i : grid7.Coords) : Prop := (Scalar.cmpi .ne (Scalar.extui (Scalar.cmpi .eq (BitVec.ofNat 32 (i 1).val) 0#32)) 0#32) = 1#1
theorem isFirst_iff : ∀ t : Fin cfg7.N, isFirst (grid7.coords t) ↔ t.val % 13 = 0 :=
  Cert.Proof.GridFacts.gather_first
/-- "This is its last table tile". -/
abbrev isLast (i : grid7.Coords) : Prop := k7_cond2 i = 1#1
theorem isLast_iff : ∀ t : Fin cfg7.N, isLast (grid7.coords t) ↔ t.val % 13 = 12 :=
  Cert.Proof.GridFacts.gather_last

/-- The result's block is written back exactly at the last inner point. -/
theorem flush_3 : ∀ t : Fin cfg7.N, (cfg7.win 3).flush t = true ↔ t.val % 13 = 12 :=
  Cert.Proof.GridFacts.gather_flush
/-- The body as the pipeline calls it at point t. -/
abbrev bodyAt (t : Fin cfg7.N) : Prog (TpuEff nD τ sig (Elt F) Λ₀ .tc) PUnit :=
  cc7__gather_kernel (grid7.coords t) (win7_0.stage (cfg7.slots t 0)) (hstage7_0 ((cfg7.slots t 0).cast nbuf7_0)) (win7_1.stage (cfg7.slots t 1)) (hstage7_1 ((cfg7.slots t 1).cast nbuf7_1)) (win7_2.stage (cfg7.slots t 2)) (hstage7_2 ((cfg7.slots t 2).cast nbuf7_2)) (win7_3.stage (cfg7.slots t 3)) (hstage7_3 ((cfg7.slots t 3).cast nbuf7_3)) (Memref.whole cc7_scratch0) (Memref.isWhole_whole _)

/-- Where the result's window is idle: exactly off the last table tile (the configuration's table is the negated test). -/
theorem idle_3 (i : grid7.Coords) (h : ¬isLast i) : cfg7.idle 3 i = true := by
  show (!(k7_cond2 i == 1#1)) = true
  simp only [Bool.not_eq_true', beq_eq_false_iff_ne, ne_eq]; exact h
theorem live_3 (i : grid7.Coords) (h : isLast i) : cfg7.idle 3 i = false := by
  show (!(k7_cond2 i == 1#1)) = false
  simp only [Bool.not_eq_false', beq_iff_eq]; exact h
/-- Off the last table tile the result's block is not written back. -/
theorem noFlush_3 (t : Fin cfg7.N) (h : ¬isLast (grid7.coords t)) : (cfg7.win 3).flush t = false := by
  have := flush_3 t
  cases hf : (cfg7.win 3).flush t
  · rfl
  · exact absurd ((isLast_iff t).mpr (this.mp hf)) h

/-! ## The staging and scratch memrefs -/

abbrev VO : View sig .tc .vmem S1024x32 .f32 := (Memref.whole cc7_stg3_0 : Memref sig .tc .vmem S1024x32 .f32).view
abbrev ms_0 (t : Fin cfg7.N) : Memref sig .tc .vmem S1024 .i32 := win7_0.stage (cfg7.slots t 0)
abbrev hs_0 (t : Fin cfg7.N) : (ms_0 t).IsWhole := hstage7_0 ((cfg7.slots t 0).cast nbuf7_0)
abbrev ms_1 (t : Fin cfg7.N) : Memref sig .tc .vmem S1024 .f32 := win7_1.stage (cfg7.slots t 1)
abbrev hs_1 (t : Fin cfg7.N) : (ms_1 t).IsWhole := hstage7_1 ((cfg7.slots t 1).cast nbuf7_1)
abbrev ms_2 (t : Fin cfg7.N) : Memref sig .tc .vmem S8192x32 .f32 := win7_2.stage (cfg7.slots t 2)
abbrev hs_2 (t : Fin cfg7.N) : (ms_2 t).IsWhole := hstage7_2 ((cfg7.slots t 2).cast nbuf7_2)
abbrev ms_3 (t : Fin cfg7.N) : Memref sig .tc .vmem S1024x32 .f32 := win7_3.stage (cfg7.slots t 3)
abbrev hs_3 (t : Fin cfg7.N) : (ms_3 t).IsWhole := hstage7_3 ((cfg7.slots t 3).cast nbuf7_3)
/-- The scratch block the body carries between points. -/
abbrev scM : Memref sig .tc .vmem S1024x32 .f32 := Memref.whole cc7_scratch0
abbrev VS : View sig .tc .vmem S1024x32 .f32 := (scM).view

/-- The untouched rest with the scratch block taken out of it, owned at some contents. -/
theorem rest_eq (c : Dev nD) :
    (Pipeline.ΦA spec7 c : sProp 𝕄)
      = iprop(iprop((∃ d, owns (c : Thread nD τ) scM fullShare d)
          ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM, owns_whole]
  try rfl

/-! ## The body, case by case: the pieces each buffer ends with are what the run finds -/

set_option maxHeartbeats 2000000 in
/-- FIRST table tile of an edge tile: the scratch at anything, the result's buffer handed back untouched. -/
noncomputable def run_first (c : Dev nD) (i : grid7.Coords) (arg2 : Memref sig .tc .vmem S1024 .i32) (harg2 : arg2.IsWhole) (arg3 : Memref sig .tc .vmem S1024 .f32) (harg3 : arg3.IsWhole) (arg4 : Memref sig .tc .vmem S8192x32 .f32) (harg4 : arg4.IsWhole) (arg5 : Memref sig .tc .vmem S1024x32 .f32) (harg5 : arg5.IsWhole) (arg6 : Memref sig .tc .vmem S1024x32 .f32) (harg6 : arg6.IsWhole)
    (hc0 : isFirst i) (hc1 : ¬isLast i) (x0 : Vec F S1024 .i32) (x1 : Vec F S1024 .f32) (x2 : Vec F S8192x32 .f32) :
    Σ' (L3 : List (View.Piece (Elt F) S1024x32 .f32)), { LS : List (View.Piece (Elt F) S1024x32 .f32) //
      ∀ (xi3 : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E (cc7__gather_kernel i arg2 harg2 arg3 harg3 arg4 harg4 arg5 harg5 arg6 harg6) K } := by
  refine ⟨[], ?_, fun xi3 E K => ?run⟩
  case run =>
    simp only [cc7__gather_kernel_eq_skeleton]; unfold cc7__gather_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 2000000 in
/-- A MIDDLE table tile: the scratch at what the point before left, the result's buffer handed back untouched. -/
noncomputable def run_mid (c : Dev nD) (i : grid7.Coords) (arg2 : Memref sig .tc .vmem S1024 .i32) (harg2 : arg2.IsWhole) (arg3 : Memref sig .tc .vmem S1024 .f32) (harg3 : arg3.IsWhole) (arg4 : Memref sig .tc .vmem S8192x32 .f32) (harg4 : arg4.IsWhole) (arg5 : Memref sig .tc .vmem S1024x32 .f32) (harg5 : arg5.IsWhole) (arg6 : Memref sig .tc .vmem S1024x32 .f32) (harg6 : arg6.IsWhole)
    (hc0 : ¬isFirst i) (hc1 : ¬isLast i) (x0 : Vec F S1024 .i32) (x1 : Vec F S1024 .f32) (x2 : Vec F S8192x32 .f32) (xs0 : Vec F S1024x32 .f32) :
    Σ' (L3 : List (View.Piece (Elt F) S1024x32 .f32)), { LS : List (View.Piece (Elt F) S1024x32 .f32) //
      ∀ (xi3 : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E (cc7__gather_kernel i arg2 harg2 arg3 harg3 arg4 harg4 arg5 harg5 arg6 harg6) K } := by
  refine ⟨[], ?_, fun xi3 E K => ?run⟩
  case run =>
    simp only [cc7__gather_kernel_eq_skeleton]; unfold cc7__gather_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 2000000 in
/-- The LAST table tile: the scratch at what the point before left, the result's buffer at anything and stored whole. -/
noncomputable def run_last (c : Dev nD) (i : grid7.Coords) (arg2 : Memref sig .tc .vmem S1024 .i32) (harg2 : arg2.IsWhole) (arg3 : Memref sig .tc .vmem S1024 .f32) (harg3 : arg3.IsWhole) (arg4 : Memref sig .tc .vmem S8192x32 .f32) (harg4 : arg4.IsWhole) (arg5 : Memref sig .tc .vmem S1024x32 .f32) (harg5 : arg5.IsWhole) (arg6 : Memref sig .tc .vmem S1024x32 .f32) (harg6 : arg6.IsWhole)
    (hc0 : ¬isFirst i) (hc1 : isLast i) (x0 : Vec F S1024 .i32) (x1 : Vec F S1024 .f32) (x2 : Vec F S8192x32 .f32) (xs0 : Vec F S1024x32 .f32) :
    Σ' (L3 : List (View.Piece (Elt F) S1024x32 .f32)), { LS : List (View.Piece (Elt F) S1024x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc7__gather_kernel i arg2 harg2 arg3 harg3 arg4 harg4 arg5 harg5 arg6 harg6) K } := by
  refine ⟨?_, ?_, fun E K => ?run⟩
  case run =>
    simp only [cc7__gather_kernel_eq_skeleton]; unfold cc7__gather_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! ## What each case leaves in the scratch block and in the result's buffer -/

theorem scover_first (c : Dev nD) (i : grid7.Coords) (arg2 : Memref sig .tc .vmem S1024 .i32) (harg2 : arg2.IsWhole) (arg3 : Memref sig .tc .vmem S1024 .f32) (harg3 : arg3.IsWhole) (arg4 : Memref sig .tc .vmem S8192x32 .f32) (harg4 : arg4.IsWhole) (arg5 : Memref sig .tc .vmem S1024x32 .f32) (harg5 : arg5.IsWhole) (arg6 : Memref sig .tc .vmem S1024x32 .f32) (harg6 : arg6.IsWhole) (hc0 : isFirst i) (hc1 : ¬isLast i) (x0 : Vec F S1024 .i32) (x1 : Vec F S1024 .f32) (x2 : Vec F S8192x32 .f32) (y : S1024x32.Idx) :
    ∃ pc ∈ (run_first c i arg2 harg2 arg3 harg3 arg4 harg4 arg5 harg5 arg6 harg6 hc0 hc1 x0 x1 x2).2.1, y ∈ pc.1.set :=
  View.cover_of_tiledL (run_first c i arg2 harg2 arg3 harg3 arg4 harg4 arg5 harg5 arg6 harg6 hc0 hc1 x0 x1 x2).2.1 S1024x32.size (by sl_kernel_rfl) y
/-- After a first table tile the scratch block holds the case's pieces, read back. -/
def scr_first (c : Dev nD) (i : grid7.Coords) (arg2 : Memref sig .tc .vmem S1024 .i32) (harg2 : arg2.IsWhole) (arg3 : Memref sig .tc .vmem S1024 .f32) (harg3 : arg3.IsWhole) (arg4 : Memref sig .tc .vmem S8192x32 .f32) (harg4 : arg4.IsWhole) (arg5 : Memref sig .tc .vmem S1024x32 .f32) (harg5 : arg5.IsWhole) (arg6 : Memref sig .tc .vmem S1024x32 .f32) (harg6 : arg6.IsWhole) (hc0 : isFirst i) (hc1 : ¬isLast i) (x0 : Vec F S1024 .i32) (x1 : Vec F S1024 .f32) (x2 : Vec F S8192x32 .f32) : Vec F S1024x32 .f32 :=
  VS.read (Elt F) (VS.writes (Elt F) VS.junk (run_first c i arg2 harg2 arg3 harg3 arg4 harg4 arg5 harg5 arg6 harg6 hc0 hc1 x0 x1 x2).2.1)

theorem scover_mid (c : Dev nD) (i : grid7.Coords) (arg2 : Memref sig .tc .vmem S1024 .i32) (harg2 : arg2.IsWhole) (arg3 : Memref sig .tc .vmem S1024 .f32) (harg3 : arg3.IsWhole) (arg4 : Memref sig .tc .vmem S8192x32 .f32) (harg4 : arg4.IsWhole) (arg5 : Memref sig .tc .vmem S1024x32 .f32) (harg5 : arg5.IsWhole) (arg6 : Memref sig .tc .vmem S1024x32 .f32) (harg6 : arg6.IsWhole) (hc0 : ¬isFirst i) (hc1 : ¬isLast i) (x0 : Vec F S1024 .i32) (x1 : Vec F S1024 .f32) (x2 : Vec F S8192x32 .f32) (xs0 : Vec F S1024x32 .f32) (y : S1024x32.Idx) :
    ∃ pc ∈ (run_mid c i arg2 harg2 arg3 harg3 arg4 harg4 arg5 harg5 arg6 harg6 hc0 hc1 x0 x1 x2 xs0).2.1, y ∈ pc.1.set :=
  View.cover_of_tiledL (run_mid c i arg2 harg2 arg3 harg3 arg4 harg4 arg5 harg5 arg6 harg6 hc0 hc1 x0 x1 x2 xs0).2.1 S1024x32.size (by sl_kernel_rfl) y
def scr_mid (c : Dev nD) (i : grid7.Coords) (arg2 : Memref sig .tc .vmem S1024 .i32) (harg2 : arg2.IsWhole) (arg3 : Memref sig .tc .vmem S1024 .f32) (harg3 : arg3.IsWhole) (arg4 : Memref sig .tc .vmem S8192x32 .f32) (harg4 : arg4.IsWhole) (arg5 : Memref sig .tc .vmem S1024x32 .f32) (harg5 : arg5.IsWhole) (arg6 : Memref sig .tc .vmem S1024x32 .f32) (harg6 : arg6.IsWhole) (hc0 : ¬isFirst i) (hc1 : ¬isLast i) (x0 : Vec F S1024 .i32) (x1 : Vec F S1024 .f32) (x2 : Vec F S8192x32 .f32) (xs0 : Vec F S1024x32 .f32) : Vec F S1024x32 .f32 :=
  VS.read (Elt F) (VS.writes (Elt F) VS.junk (run_mid c i arg2 harg2 arg3 harg3 arg4 harg4 arg5 harg5 arg6 harg6 hc0 hc1 x0 x1 x2 xs0).2.1)

theorem scover_last (c : Dev nD) (i : grid7.Coords) (arg2 : Memref sig .tc .vmem S1024 .i32) (harg2 : arg2.IsWhole) (arg3 : Memref sig .tc .vmem S1024 .f32) (harg3 : arg3.IsWhole) (arg4 : Memref sig .tc .vmem S8192x32 .f32) (harg4 : arg4.IsWhole) (arg5 : Memref sig .tc .vmem S1024x32 .f32) (harg5 : arg5.IsWhole) (arg6 : Memref sig .tc .vmem S1024x32 .f32) (harg6 : arg6.IsWhole) (hc0 : ¬isFirst i) (hc1 : isLast i) (x0 : Vec F S1024 .i32) (x1 : Vec F S1024 .f32) (x2 : Vec F S8192x32 .f32) (xs0 : Vec F S1024x32 .f32) (y : S1024x32.Idx) :
    ∃ pc ∈ (run_last c i arg2 harg2 arg3 harg3 arg4 harg4 arg5 harg5 arg6 harg6 hc0 hc1 x0 x1 x2 xs0).2.1, y ∈ pc.1.set :=
  View.cover_of_tiledL (run_last c i arg2 harg2 arg3 harg3 arg4 harg4 arg5 harg5 arg6 harg6 hc0 hc1 x0 x1 x2 xs0).2.1 S1024x32.size (by sl_kernel_rfl) y
def scr_last (c : Dev nD) (i : grid7.Coords) (arg2 : Memref sig .tc .vmem S1024 .i32) (harg2 : arg2.IsWhole) (arg3 : Memref sig .tc .vmem S1024 .f32) (harg3 : arg3.IsWhole) (arg4 : Memref sig .tc .vmem S8192x32 .f32) (harg4 : arg4.IsWhole) (arg5 : Memref sig .tc .vmem S1024x32 .f32) (harg5 : arg5.IsWhole) (arg6 : Memref sig .tc .vmem S1024x32 .f32) (harg6 : arg6.IsWhole) (hc0 : ¬isFirst i) (hc1 : isLast i) (x0 : Vec F S1024 .i32) (x1 : Vec F S1024 .f32) (x2 : Vec F S8192x32 .f32) (xs0 : Vec F S1024x32 .f32) : Vec F S1024x32 .f32 :=
  VS.read (Elt F) (VS.writes (Elt F) VS.junk (run_last c i arg2 harg2 arg3 harg3 arg4 harg4 arg5 harg5 arg6 harg6 hc0 hc1 x0 x1 x2 xs0).2.1)
theorem ocover_last (c : Dev nD) (i : grid7.Coords) (arg2 : Memref sig .tc .vmem S1024 .i32) (harg2 : arg2.IsWhole) (arg3 : Memref sig .tc .vmem S1024 .f32) (harg3 : arg3.IsWhole) (arg4 : Memref sig .tc .vmem S8192x32 .f32) (harg4 : arg4.IsWhole) (arg5 : Memref sig .tc .vmem S1024x32 .f32) (harg5 : arg5.IsWhole) (arg6 : Memref sig .tc .vmem S1024x32 .f32) (harg6 : arg6.IsWhole) (hc0 : ¬isFirst i) (hc1 : isLast i) (x0 : Vec F S1024 .i32) (x1 : Vec F S1024 .f32) (x2 : Vec F S8192x32 .f32) (xs0 : Vec F S1024x32 .f32) (y : S1024x32.Idx) :
    ∃ pc ∈ (run_last c i arg2 harg2 arg3 harg3 arg4 harg4 arg5 harg5 arg6 harg6 hc0 hc1 x0 x1 x2 xs0).1, y ∈ pc.1.set :=
  View.cover_of_tiledL (run_last c i arg2 harg2 arg3 harg3 arg4 harg4 arg5 harg5 arg6 harg6 hc0 hc1 x0 x1 x2 xs0).1 S1024x32.size (by sl_kernel_rfl) y
/-- After a last table tile the result's buffer holds the case's pieces, read back. -/
def out_last (c : Dev nD) (i : grid7.Coords) (arg2 : Memref sig .tc .vmem S1024 .i32) (harg2 : arg2.IsWhole) (arg3 : Memref sig .tc .vmem S1024 .f32) (harg3 : arg3.IsWhole) (arg4 : Memref sig .tc .vmem S8192x32 .f32) (harg4 : arg4.IsWhole) (arg5 : Memref sig .tc .vmem S1024x32 .f32) (harg5 : arg5.IsWhole) (arg6 : Memref sig .tc .vmem S1024x32 .f32) (harg6 : arg6.IsWhole) (hc0 : ¬isFirst i) (hc1 : isLast i) (x0 : Vec F S1024 .i32) (x1 : Vec F S1024 .f32) (x2 : Vec F S8192x32 .f32) (xs0 : Vec F S1024x32 .f32) : Vec F S1024x32 .f32 :=
  VO.read (Elt F) (VO.writes (Elt F) VO.junk (run_last c i arg2 harg2 arg3 harg3 arg4 harg4 arg5 harg5 arg6 harg6 hc0 hc1 x0 x1 x2 xs0).1)
/-- Where the result's buffer is idle nothing reads what is recorded for it: a placeholder. -/
def out_idle : Vec F S1024x32 .f32 := VO.read (Elt F) VO.junk

/-! ## Point by point -/

/-- After the body at position n: the result's staging buffer, then the scratch block — the case the point is in, run at the
    point's memrefs and input blocks, over the scratch the point before left. -/
def outsAt (c : Dev nD) : (n : ℕ) → n < cfg7.N → Vec F S1024x32 .f32 × Vec F S1024x32 .f32
  | 0, hn => (out_idle, scr_first c (grid7.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((isFirst_iff ⟨0, hn⟩).mpr (Nat.zero_mod _)) (fun h => (fun h' => by (try dsimp only at h'); omega) ((isLast_iff ⟨0, hn⟩).mp h)) (blk V c 0 ⟨0, hn⟩) (blk V c 1 ⟨0, hn⟩) (blk V c 2 ⟨0, hn⟩))
  | n + 1, hn =>
    if h0 : (n + 1) % 13 = 0 then
      if h1 : (n + 1) % 13 = 12 then False.elim (by omega)
      else (out_idle, scr_first c (grid7.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) ((isFirst_iff ⟨n + 1, hn⟩).mpr h0) (fun h => h1 ((isLast_iff ⟨n + 1, hn⟩).mp h)) (blk V c 0 ⟨n + 1, hn⟩) (blk V c 1 ⟨n + 1, hn⟩) (blk V c 2 ⟨n + 1, hn⟩))
    else
      if h1 : (n + 1) % 13 = 12 then
        (out_last c (grid7.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (outsAt c n (Nat.lt_of_succ_lt hn)).2,
          scr_last c (grid7.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (outsAt c n (Nat.lt_of_succ_lt hn)).2)
      else
        (out_idle, scr_mid c (grid7.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((isFirst_iff ⟨n + 1, hn⟩).mp h)) (fun h => h1 ((isLast_iff ⟨n + 1, hn⟩).mp h)) (blk V c 0 ⟨n + 1, hn⟩) (blk V c 1 ⟨n + 1, hn⟩) (blk V c 2 ⟨n + 1, hn⟩) (outsAt c n (Nat.lt_of_succ_lt hn)).2)

theorem outsAt_first (c : Dev nD) (t : Fin cfg7.N) (h0 : t.val % 13 = 0) (h1 : ¬t.val % 13 = 12) :
    outsAt V c t.val t.isLt = (out_idle, scr_first c (grid7.coords t) (ms_0 t) (hs_0 t) (ms_1 t) (hs_1 t) (ms_2 t) (hs_2 t) (ms_3 t) (hs_3 t) scM (Memref.isWhole_whole _) ((isFirst_iff t).mpr h0) (fun h => h1 ((isLast_iff t).mp h)) (blk V c 0 t) (blk V c 1 t) (blk V c 2 t)) := by
  obtain ⟨n, hn⟩ := t
  cases n with
  | zero => exact rfl
  | succ n => exact (dif_pos h0).trans ((dif_neg h1).trans rfl)

theorem outsAt_mid (c : Dev nD) (t : Fin cfg7.N) (h0 : ¬t.val % 13 = 0) (h1 : ¬t.val % 13 = 12) :
    outsAt V c t.val t.isLt = (out_idle, scr_mid c (grid7.coords t) (ms_0 t) (hs_0 t) (ms_1 t) (hs_1 t) (ms_2 t) (hs_2 t) (ms_3 t) (hs_3 t) scM (Memref.isWhole_whole _) (fun h => h0 ((isFirst_iff t).mp h)) (fun h => h1 ((isLast_iff t).mp h)) (blk V c 0 t) (blk V c 1 t) (blk V c 2 t)
      (outsAt V c (t.val - 1) (Nat.lt_of_le_of_lt (Nat.sub_le _ _) t.isLt)).2) := by
  obtain ⟨n, hn⟩ := t
  cases n with
  | zero => exact (by exfalso; exact absurd (Nat.zero_mod _) h0)
  | succ n => exact (dif_neg h0).trans ((dif_neg h1).trans rfl)

theorem outsAt_last (c : Dev nD) (t : Fin cfg7.N) (h0 : ¬t.val % 13 = 0) (h1 : t.val % 13 = 12) :
    outsAt V c t.val t.isLt = (out_last c (grid7.coords t) (ms_0 t) (hs_0 t) (ms_1 t) (hs_1 t) (ms_2 t) (hs_2 t) (ms_3 t) (hs_3 t) scM (Memref.isWhole_whole _) (fun h => h0 ((isFirst_iff t).mp h)) ((isLast_iff t).mpr h1) (blk V c 0 t) (blk V c 1 t) (blk V c 2 t)
        (outsAt V c (t.val - 1) (Nat.lt_of_le_of_lt (Nat.sub_le _ _) t.isLt)).2,
      scr_last c (grid7.coords t) (ms_0 t) (hs_0 t) (ms_1 t) (hs_1 t) (ms_2 t) (hs_2 t) (ms_3 t) (hs_3 t) scM (Memref.isWhole_whole _) (fun h => h0 ((isFirst_iff t).mp h)) ((isLast_iff t).mpr h1) (blk V c 0 t) (blk V c 1 t) (blk V c 2 t)
        (outsAt V c (t.val - 1) (Nat.lt_of_le_of_lt (Nat.sub_le _ _) t.isLt)).2) := by
  obtain ⟨n, hn⟩ := t
  cases n with
  | zero => exact (by exfalso; exact absurd (Nat.zero_mod _) h0)
  | succ n => exact (dif_neg h0).trans ((dif_pos h1).trans rfl)

/-- The region's invariant before position n: before the first point the untouched rest; afterwards the scratch block at what
    the point before left, beside the remainder of the rest and the generator register. -/
def inv (c : Dev nD) : (n : ℕ) → n ≤ cfg7.N → sProp 𝕄
  | 0, _ => Pipeline.ΦA spec7 c
  | n + 1, hn => iprop(iprop(owns (c : Thread nD τ) scM fullShare ((outsAt V c n hn).2) ∗ Pipeline.scopedRestBut (Ix := Unit) (Name := ℕ) (U := UR sig nD τ) (Lvl := ℕ) (Val := Elt F) spec7 c [cc7_scratch0]) ∗ (∃ r, prngReg c r))

theorem inv_zero (c : Dev nD) (n : ℕ) (h : n ≤ cfg7.N) (hz : n = 0) : inv V c n h = Pipeline.ΦA spec7 c := by
  subst hz; rfl
theorem inv_succ (c : Dev nD) (n : ℕ) (hn : n < cfg7.N) :
    inv V c (n + 1) hn = iprop(iprop(owns (c : Thread nD τ) scM fullShare ((outsAt V c n hn).2) ∗ Pipeline.scopedRestBut (Ix := Unit) (Name := ℕ) (U := UR sig nD τ) (Lvl := ℕ) (Val := Elt F) spec7 c [cc7_scratch0]) ∗ (∃ r, prngReg c r)) := rfl
theorem inv_pos (c : Dev nD) (n : ℕ) (h : n ≤ cfg7.N) (hz : n ≠ 0) :
    inv V c n h = iprop(iprop(owns (c : Thread nD τ) scM fullShare ((outsAt V c (n - 1) (by omega)).2) ∗ Pipeline.scopedRestBut (Ix := Unit) (Name := ℕ) (U := UR sig nD τ) (Lvl := ℕ) (Val := Elt F) spec7 c [cc7_scratch0]) ∗ (∃ r, prngReg c r)) := by
  cases n with
  | zero => exact absurd rfl hz
  | succ n => rfl

/-- The region's proof data on core c. -/
def dat (c : Dev nD) : Dat τ (Elt F) Unit ℕ (UR sig nD τ) ℕ cfg7 c where
  A w := V c (Pipeline.arrRef spec7 w)
  after w t := match w with
    | ⟨0, _⟩ => blk V c 0 t
    | ⟨1, _⟩ => blk V c 1 t
    | ⟨2, _⟩ => blk V c 2 t
    | ⟨3, _⟩ => (outsAt V c t.val t.isLt).1
  Φ t := inv V c t.val (Nat.le_of_lt_succ t.isLt)
  q _ := fullShare
  owed _ := 0

theorem A_eq (c : Dev nD) (w : Fin cfg7.W) : (dat V c).A w = V c (Pipeline.arrRef spec7 w) := by
  dsimp only [dat]
theorem inv_castSucc (c : Dev nD) (t : Fin cfg7.N) : (dat V c).Φ t.castSucc = inv V c t.val (Nat.le_of_lt t.isLt) := by
  dsimp only [dat]; simp only [Fin.coe_castSucc]
theorem after_0 (c : Dev nD) (t : Fin cfg7.N) : (dat V c).after 0 t = blk V c 0 t := by dsimp only [dat]
theorem after_1 (c : Dev nD) (t : Fin cfg7.N) : (dat V c).after 1 t = blk V c 1 t := by dsimp only [dat]
theorem after_2 (c : Dev nD) (t : Fin cfg7.N) : (dat V c).after 2 t = blk V c 2 t := by dsimp only [dat]
theorem after_3 (c : Dev nD) (t : Fin cfg7.N) : (dat V c).after 3 t = (outsAt V c t.val t.isLt).1 := by dsimp only [dat]
theorem before_0 (c : Dev nD) (t : Fin cfg7.N) (d) : (dat V c).before 0 t d = blk V c 0 t := found_0 V (dat V c) (A_eq V c 0) (after_0 V c) t d
theorem before_1 (c : Dev nD) (t : Fin cfg7.N) (d) : (dat V c).before 1 t d = blk V c 1 t := found_1 V (dat V c) (A_eq V c 1) (after_1 V c) t d
theorem before_2 (c : Dev nD) (t : Fin cfg7.N) (d) : (dat V c).before 2 t d = blk V c 2 t := found_2 V (dat V c) (A_eq V c 2) (after_2 V c) t d

/-! ## The body obligation, at a generic point -/

def bodyPre (c : Dev nD) (t : Fin cfg7.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

def bodyPost (c : Dev nD) (t : Fin cfg7.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4800000 in
/-- The body at any point: the inputs' buffers hold their blocks; the closed forms say which case the point is in; the invariant
    hands over the scratch block at what the point before left (at anything at the very first point) and takes it back at this
    point's contents; where the result's window is idle its buffer goes back as found. -/
theorem body_at (c : Dev nD) (t : Fin cfg7.N) :
    bodyPre V c t ⊢ wp frame (wpE (defs₀ (F := F)) Variants.none c none) Set.univ (bodyAt t) (fun _ => bodyPost V c t) := by
  unfold bodyPre bodyPost bodyAt
  simp only [before_0, before_1, before_2]
  rw [show (dat V c).owesAt () t.succ = (dat V c).owesAt () t.castSucc from rfl]
  rw [show (dat V c).Φ t.succ = inv V c (t.val + 1) t.isLt from rfl, inv_succ]
  rw [show (dat V c).leavesExact 0 t = owns (c : Thread nD τ) (ms_0 t) fullShare ((dat V c).after 0 t) from by
    unfold Dat.leavesExact; rfl, after_0]
  rw [show (dat V c).leavesExact 1 t = owns (c : Thread nD τ) (ms_1 t) fullShare ((dat V c).after 1 t) from by
    unfold Dat.leavesExact; rfl, after_1]
  rw [show (dat V c).leavesExact 2 t = owns (c : Thread nD τ) (ms_2 t) fullShare ((dat V c).after 2 t) from by
    unfold Dat.leavesExact; rfl, after_2]
  by_cases h0 : t.val % 13 = 0
  · have h1 : ¬t.val % 13 = 12 := by omega
    rw [Dat.leavesExact_idle (dat V c) 3 t (idle_3 _ (fun h => h1 ((isLast_iff t).mp h))) (noFlush_3 t (fun h => h1 ((isLast_iff t).mp h)))]
    rw [outsAt_first V c t h0 h1]
    unfold scr_first; (try dsimp only)
    by_cases hz : t.val = 0
    · rw [inv_castSucc V c t, inv_zero V c _ _ hz, rest_eq]
      iintro ⟨⟨⟨HS, Hr⟩, Hg⟩, Ho, ⟨%d0, H0⟩, ⟨%d1, H1⟩, ⟨%d2, H2⟩, ⟨%d3, H3⟩⟩
      iapply ((run_first c (grid7.coords t) _ _ _ _ _ _ _ _ _ _ ((isFirst_iff t).mpr h0) (fun h => h1 ((isLast_iff t).mp h)) (blk V c 0 t) (blk V c 1 t) (blk V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover_first c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [inv_castSucc V c t, inv_pos V c _ _ hz]
      iintro ⟨⟨⟨HS, Hr⟩, Hg⟩, Ho, ⟨%d0, H0⟩, ⟨%d1, H1⟩, ⟨%d2, H2⟩, ⟨%d3, H3⟩⟩
      iapply ((run_first c (grid7.coords t) _ _ _ _ _ _ _ _ _ _ ((isFirst_iff t).mpr h0) (fun h => h1 ((isLast_iff t).mp h)) (blk V c 0 t) (blk V c 1 t) (blk V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover_first c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 13 = 12
    · rw [show (dat V c).leavesExact 3 t = owns (c : Thread nD τ) (ms_3 t) fullShare ((dat V c).after 3 t) from by
        unfold Dat.leavesExact; rw [live_3 _ ((isLast_iff t).mpr h1)], after_3]
      rw [outsAt_last V c t h0 h1]
      unfold out_last scr_last; (try dsimp only)
      rw [inv_castSucc V c t, inv_pos V c _ _ hz]
      iintro ⟨⟨⟨HS, Hr⟩, Hg⟩, Ho, ⟨%d0, H0⟩, ⟨%d1, H1⟩, ⟨%d2, H2⟩, ⟨%d3, H3⟩⟩
      iapply ((run_last c (grid7.coords t) _ _ _ _ _ _ _ _ _ _ (fun h => h0 ((isFirst_iff t).mp h)) ((isLast_iff t).mpr h1) (blk V c 0 t) (blk V c 1 t) (blk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hr Hg]
      · isplitl [HS Hr]
        · isplitl [HS]
          · unfold owns; iexists _; isplitr
            swap; · iexact HS
            ipureintro; exact View.read_writes_of_cover _ _ _ _ _ (scover_last c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (ocover_last c _ _ _ _ _ _ _ _ _ _ _ _ _ _ _ _ _)
    · rw [Dat.leavesExact_idle (dat V c) 3 t (idle_3 _ (fun h => h1 ((isLast_iff t).mp h))) (noFlush_3 t (fun h => h1 ((isLast_iff t).mp h)))]
      rw [outsAt_mid V c t h0 h1]
      unfold scr_mid; (try dsimp only)
      rw [inv_castSucc V c t, inv_pos V c _ _ hz]
      iintro ⟨⟨⟨HS, Hr⟩, Hg⟩, Ho, ⟨%d0, H0⟩, ⟨%d1, H1⟩, ⟨%d2, H2⟩, ⟨%d3, H3⟩⟩
      iapply ((run_mid c (grid7.coords t) _ _ _ _ _ _ _ _ _ _ (fun h => h0 ((isFirst_iff t).mp h)) (fun h => h1 ((isLast_iff t).mp h)) (blk V c 0 t) (blk V c 1 t) (blk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover_mid c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W7, bigSep_W7]
  exact body_at V c t

/-- The untouched rest is the invariant before the first point, -/
theorem hin (c : Dev nD) : Pipeline.ΦA spec7 c ⊢ (dat V c).Φ 0 := by
  rw [show (dat V c).Φ 0 = inv V c 0 (Nat.zero_le _) from rfl, inv_zero V c 0 _ rfl]
  try exact Idealize.SL.BI.Entails.refl _

/-- and the invariant after the last point gives it back, the scratch block's contents forgotten. -/
theorem hout (c : Dev nD) : (dat V c).Φ (Fin.last cfg7.N) ⊢ Pipeline.ΦA spec7 c := by
  rw [show (dat V c).Φ (Fin.last cfg7.N) = inv V c (Fin.last cfg7.N).val (Nat.le_of_lt_succ (Fin.last cfg7.N).isLt) from rfl,
    inv_pos V c _ _ (by rw [Fin.val_last]; have : cfg7.N = 21593 := N_7; omega), rest_eq]
  iintro ⟨⟨HS, Hr⟩, Hg⟩
  isplitl [HS Hr]
  · isplitl [HS]
    · iexists _; iexact HS
    iexact Hr
  iexact Hg

end Cert.KernelIdeal.R7

end
-- ==== Proof.Region8.lean ====
/-
  The scatter's region (kernel call 8), on every core, at any float values, from any contents `V` of the TensorCore's
  buffers at its entry.

  Its grid has 13 × 1661 points: a node tile of 8192 rows, and for it the 1661 tiles of 1024 padded edges, innermost.  At a
  point the body is handed the edge tile's target words (window 0) and messages (window 1), the bias row (window 2, fetched
  once), a staging buffer for the node tile of the result (window 3, written back at the node tile's last point only) and
  a scratch block that it carries from point to point.  Three cases, by the edge tile's number e = t mod 1661:
    first  (e = 0):      the scratch is stored zero, then the tile's one-hot product is added into it;
    middle (0<e<1660):   the product is added into the scratch as the point before left it;
    last   (e = 1660):   the same, and then the scratch plus the bias row is stored over the whole result buffer.
  At the first two the result's buffer is idle: handed back as found and not written back.  After every point the
  scratch holds what the case's stores leave, read back; the region's invariant carries it.
-/
import proofs.«155233_j36086315221040_1_alg».proof.Proof.Gen.KernelIdeal.Launch
import proofs.«155233_j36086315221040_1_alg».proof.Proof.Gen.KernelIdeal.Skeleton
import proofs.«155233_j36086315221040_1_alg».proof.Proof.GridFacts
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R8

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blk (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Each input's staging buffer holds its block at every point, fetched there or not (a block not fetched has not moved). -/
theorem found_0 {c : Dev nD} (dat : Dat τ (Elt F) Unit ℕ (UR sig nD τ) ℕ cfg8 c) (hA : dat.A 0 = V c (Pipeline.arrRef spec8 0))
    (hafter : ∀ t, dat.after 0 t = blk V c 0 t) (t : Fin cfg8.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found_1 {c : Dev nD} (dat : Dat τ (Elt F) Unit ℕ (UR sig nD τ) ℕ cfg8 c) (hA : dat.A 1 = V c (Pipeline.arrRef spec8 1))
    (hafter : ∀ t, dat.after 1 t = blk V c 1 t) (t : Fin cfg8.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found_2 {c : Dev nD} (dat : Dat τ (Elt F) Unit ℕ (UR sig nD τ) ℕ cfg8 c) (hA : dat.A 2 = V c (Pipeline.arrRef spec8 2))
    (hafter : ∀ t, dat.after 2 t = blk V c 2 t) (t : Fin cfg8.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's two conditions, decided over the grid -/

/-- "This is the node tile's first edge tile", as the body computes it from the grid coordinates. -/
abbrev isFirst (i : grid8.Coords) : Prop := (Scalar.cmpi .ne (Scalar.extui (Scalar.cmpi .eq (BitVec.ofNat 32 (i 1).val) 0#32)) 0#32) = 1#1
theorem isFirst_iff : ∀ t : Fin cfg8.N, isFirst (grid8.coords t) ↔ t.val % 1661 = 0 :=
  Cert.Proof.GridFacts.scatter_first
/-- "This is its last edge tile". -/
abbrev isLast (i : grid8.Coords) : Prop := k8_cond2 i = 1#1
theorem isLast_iff : ∀ t : Fin cfg8.N, isLast (grid8.coords t) ↔ t.val % 1661 = 1660 :=
  Cert.Proof.GridFacts.scatter_last

/-- The result's block is written back exactly at the last inner point. -/
theorem flush_3 : ∀ t : Fin cfg8.N, (cfg8.win 3).flush t = true ↔ t.val % 1661 = 1660 :=
  Cert.Proof.GridFacts.scatter_flush
/-- The body as the pipeline calls it at point t. -/
abbrev bodyAt (t : Fin cfg8.N) : Prog (TpuEff nD τ sig (Elt F) Λ₀ .tc) PUnit :=
  cc8__scatter_kernel (grid8.coords t) (win8_0.stage (cfg8.slots t 0)) (hstage8_0 ((cfg8.slots t 0).cast nbuf8_0)) (win8_1.stage (cfg8.slots t 1)) (hstage8_1 ((cfg8.slots t 1).cast nbuf8_1)) (win8_2.stage (cfg8.slots t 2)) (hstage8_2 ((cfg8.slots t 2).cast nbuf8_2)) (win8_3.stage (cfg8.slots t 3)) (hstage8_3 ((cfg8.slots t 3).cast nbuf8_3)) (Memref.whole cc8_scratch0) (Memref.isWhole_whole _)

/-- Where the result's window is idle: exactly off the last edge tile (the configuration's table is the negated test). -/
theorem idle_3 (i : grid8.Coords) (h : ¬isLast i) : cfg8.idle 3 i = true := by
  show (!(k8_cond2 i == 1#1)) = true
  simp only [Bool.not_eq_true', beq_eq_false_iff_ne, ne_eq]; exact h
theorem live_3 (i : grid8.Coords) (h : isLast i) : cfg8.idle 3 i = false := by
  show (!(k8_cond2 i == 1#1)) = false
  simp only [Bool.not_eq_false', beq_iff_eq]; exact h
/-- Off the last edge tile the result's block is not written back. -/
theorem noFlush_3 (t : Fin cfg8.N) (h : ¬isLast (grid8.coords t)) : (cfg8.win 3).flush t = false := by
  have := flush_3 t
  cases hf : (cfg8.win 3).flush t
  · rfl
  · exact absurd ((isLast_iff t).mpr (this.mp hf)) h

/-! ## The staging and scratch memrefs -/

abbrev VO : View sig .tc .vmem S8192x32 .f32 := (Memref.whole cc8_stg3_0 : Memref sig .tc .vmem S8192x32 .f32).view
abbrev ms_0 (t : Fin cfg8.N) : Memref sig .tc .vmem S1024 .i32 := win8_0.stage (cfg8.slots t 0)
abbrev hs_0 (t : Fin cfg8.N) : (ms_0 t).IsWhole := hstage8_0 ((cfg8.slots t 0).cast nbuf8_0)
abbrev ms_1 (t : Fin cfg8.N) : Memref sig .tc .vmem S1024x32 .f32 := win8_1.stage (cfg8.slots t 1)
abbrev hs_1 (t : Fin cfg8.N) : (ms_1 t).IsWhole := hstage8_1 ((cfg8.slots t 1).cast nbuf8_1)
abbrev ms_2 (t : Fin cfg8.N) : Memref sig .tc .vmem S32 .f32 := win8_2.stage (cfg8.slots t 2)
abbrev hs_2 (t : Fin cfg8.N) : (ms_2 t).IsWhole := hstage8_2 ((cfg8.slots t 2).cast nbuf8_2)
abbrev ms_3 (t : Fin cfg8.N) : Memref sig .tc .vmem S8192x32 .f32 := win8_3.stage (cfg8.slots t 3)
abbrev hs_3 (t : Fin cfg8.N) : (ms_3 t).IsWhole := hstage8_3 ((cfg8.slots t 3).cast nbuf8_3)
/-- The scratch block the body carries between points. -/
abbrev scM : Memref sig .tc .vmem S8192x32 .f32 := Memref.whole cc8_scratch0
abbrev VS : View sig .tc .vmem S8192x32 .f32 := (scM).view

/-- The untouched rest with the scratch block taken out of it, owned at some contents. -/
theorem rest_eq (c : Dev nD) :
    (Pipeline.ΦA spec8 c : sProp 𝕄)
      = iprop(iprop((∃ d, owns (c : Thread nD τ) scM fullShare d)
          ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [scM, owns_whole]
  try rfl

/-! ## The body, case by case: the pieces each buffer ends with are what the run finds -/

set_option maxHeartbeats 2000000 in
/-- FIRST edge tile of a node tile: the scratch at anything, the result's buffer handed back untouched. -/
noncomputable def run_first (c : Dev nD) (i : grid8.Coords) (arg2 : Memref sig .tc .vmem S1024 .i32) (harg2 : arg2.IsWhole) (arg3 : Memref sig .tc .vmem S1024x32 .f32) (harg3 : arg3.IsWhole) (arg4 : Memref sig .tc .vmem S32 .f32) (harg4 : arg4.IsWhole) (arg5 : Memref sig .tc .vmem S8192x32 .f32) (harg5 : arg5.IsWhole) (arg6 : Memref sig .tc .vmem S8192x32 .f32) (harg6 : arg6.IsWhole)
    (hc0 : isFirst i) (hc1 : ¬isLast i) (x0 : Vec F S1024 .i32) (x1 : Vec F S1024x32 .f32) (x2 : Vec F S32 .f32) :
    Σ' (L3 : List (View.Piece (Elt F) S8192x32 .f32)), { LS : List (View.Piece (Elt F) S8192x32 .f32) //
      ∀ (xi3 : Vec F S8192x32 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E (cc8__scatter_kernel i arg2 harg2 arg3 harg3 arg4 harg4 arg5 harg5 arg6 harg6) K } := by
  refine ⟨[], ?_, fun xi3 E K => ?run⟩
  case run =>
    simp only [cc8__scatter_kernel_eq_skeleton]; unfold cc8__scatter_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 2000000 in
/-- A MIDDLE edge tile: the scratch at what the point before left, the result's buffer handed back untouched. -/
noncomputable def run_mid (c : Dev nD) (i : grid8.Coords) (arg2 : Memref sig .tc .vmem S1024 .i32) (harg2 : arg2.IsWhole) (arg3 : Memref sig .tc .vmem S1024x32 .f32) (harg3 : arg3.IsWhole) (arg4 : Memref sig .tc .vmem S32 .f32) (harg4 : arg4.IsWhole) (arg5 : Memref sig .tc .vmem S8192x32 .f32) (harg5 : arg5.IsWhole) (arg6 : Memref sig .tc .vmem S8192x32 .f32) (harg6 : arg6.IsWhole)
    (hc0 : ¬isFirst i) (hc1 : ¬isLast i) (x0 : Vec F S1024 .i32) (x1 : Vec F S1024x32 .f32) (x2 : Vec F S32 .f32) (xs0 : Vec F S8192x32 .f32) :
    Σ' (L3 : List (View.Piece (Elt F) S8192x32 .f32)), { LS : List (View.Piece (Elt F) S8192x32 .f32) //
      ∀ (xi3 : Vec F S8192x32 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E (cc8__scatter_kernel i arg2 harg2 arg3 harg3 arg4 harg4 arg5 harg5 arg6 harg6) K } := by
  refine ⟨[], ?_, fun xi3 E K => ?run⟩
  case run =>
    simp only [cc8__scatter_kernel_eq_skeleton]; unfold cc8__scatter_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 2000000 in
/-- The LAST edge tile: the scratch at what the point before left, the result's buffer at anything and stored whole. -/
noncomputable def run_last (c : Dev nD) (i : grid8.Coords) (arg2 : Memref sig .tc .vmem S1024 .i32) (harg2 : arg2.IsWhole) (arg3 : Memref sig .tc .vmem S1024x32 .f32) (harg3 : arg3.IsWhole) (arg4 : Memref sig .tc .vmem S32 .f32) (harg4 : arg4.IsWhole) (arg5 : Memref sig .tc .vmem S8192x32 .f32) (harg5 : arg5.IsWhole) (arg6 : Memref sig .tc .vmem S8192x32 .f32) (harg6 : arg6.IsWhole)
    (hc0 : ¬isFirst i) (hc1 : isLast i) (x0 : Vec F S1024 .i32) (x1 : Vec F S1024x32 .f32) (x2 : Vec F S32 .f32) (xs0 : Vec F S8192x32 .f32) :
    Σ' (L3 : List (View.Piece (Elt F) S8192x32 .f32)), { LS : List (View.Piece (Elt F) S8192x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc8__scatter_kernel i arg2 harg2 arg3 harg3 arg4 harg4 arg5 harg5 arg6 harg6) K } := by
  refine ⟨?_, ?_, fun E K => ?run⟩
  case run =>
    simp only [cc8__scatter_kernel_eq_skeleton]; unfold cc8__scatter_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! ## What each case leaves in the scratch block and in the result's buffer -/

theorem scover_first (c : Dev nD) (i : grid8.Coords) (arg2 : Memref sig .tc .vmem S1024 .i32) (harg2 : arg2.IsWhole) (arg3 : Memref sig .tc .vmem S1024x32 .f32) (harg3 : arg3.IsWhole) (arg4 : Memref sig .tc .vmem S32 .f32) (harg4 : arg4.IsWhole) (arg5 : Memref sig .tc .vmem S8192x32 .f32) (harg5 : arg5.IsWhole) (arg6 : Memref sig .tc .vmem S8192x32 .f32) (harg6 : arg6.IsWhole) (hc0 : isFirst i) (hc1 : ¬isLast i) (x0 : Vec F S1024 .i32) (x1 : Vec F S1024x32 .f32) (x2 : Vec F S32 .f32) (y : S8192x32.Idx) :
    ∃ pc ∈ (run_first c i arg2 harg2 arg3 harg3 arg4 harg4 arg5 harg5 arg6 harg6 hc0 hc1 x0 x1 x2).2.1, y ∈ pc.1.set :=
  View.cover_of_tiledL (run_first c i arg2 harg2 arg3 harg3 arg4 harg4 arg5 harg5 arg6 harg6 hc0 hc1 x0 x1 x2).2.1 S8192x32.size (by sl_kernel_rfl) y
/-- After a first edge tile the scratch block holds the case's pieces, read back. -/
def scr_first (c : Dev nD) (i : grid8.Coords) (arg2 : Memref sig .tc .vmem S1024 .i32) (harg2 : arg2.IsWhole) (arg3 : Memref sig .tc .vmem S1024x32 .f32) (harg3 : arg3.IsWhole) (arg4 : Memref sig .tc .vmem S32 .f32) (harg4 : arg4.IsWhole) (arg5 : Memref sig .tc .vmem S8192x32 .f32) (harg5 : arg5.IsWhole) (arg6 : Memref sig .tc .vmem S8192x32 .f32) (harg6 : arg6.IsWhole) (hc0 : isFirst i) (hc1 : ¬isLast i) (x0 : Vec F S1024 .i32) (x1 : Vec F S1024x32 .f32) (x2 : Vec F S32 .f32) : Vec F S8192x32 .f32 :=
  VS.read (Elt F) (VS.writes (Elt F) VS.junk (run_first c i arg2 harg2 arg3 harg3 arg4 harg4 arg5 harg5 arg6 harg6 hc0 hc1 x0 x1 x2).2.1)

theorem scover_mid (c : Dev nD) (i : grid8.Coords) (arg2 : Memref sig .tc .vmem S1024 .i32) (harg2 : arg2.IsWhole) (arg3 : Memref sig .tc .vmem S1024x32 .f32) (harg3 : arg3.IsWhole) (arg4 : Memref sig .tc .vmem S32 .f32) (harg4 : arg4.IsWhole) (arg5 : Memref sig .tc .vmem S8192x32 .f32) (harg5 : arg5.IsWhole) (arg6 : Memref sig .tc .vmem S8192x32 .f32) (harg6 : arg6.IsWhole) (hc0 : ¬isFirst i) (hc1 : ¬isLast i) (x0 : Vec F S1024 .i32) (x1 : Vec F S1024x32 .f32) (x2 : Vec F S32 .f32) (xs0 : Vec F S8192x32 .f32) (y : S8192x32.Idx) :
    ∃ pc ∈ (run_mid c i arg2 harg2 arg3 harg3 arg4 harg4 arg5 harg5 arg6 harg6 hc0 hc1 x0 x1 x2 xs0).2.1, y ∈ pc.1.set :=
  View.cover_of_tiledL (run_mid c i arg2 harg2 arg3 harg3 arg4 harg4 arg5 harg5 arg6 harg6 hc0 hc1 x0 x1 x2 xs0).2.1 S8192x32.size (by sl_kernel_rfl) y
def scr_mid (c : Dev nD) (i : grid8.Coords) (arg2 : Memref sig .tc .vmem S1024 .i32) (harg2 : arg2.IsWhole) (arg3 : Memref sig .tc .vmem S1024x32 .f32) (harg3 : arg3.IsWhole) (arg4 : Memref sig .tc .vmem S32 .f32) (harg4 : arg4.IsWhole) (arg5 : Memref sig .tc .vmem S8192x32 .f32) (harg5 : arg5.IsWhole) (arg6 : Memref sig .tc .vmem S8192x32 .f32) (harg6 : arg6.IsWhole) (hc0 : ¬isFirst i) (hc1 : ¬isLast i) (x0 : Vec F S1024 .i32) (x1 : Vec F S1024x32 .f32) (x2 : Vec F S32 .f32) (xs0 : Vec F S8192x32 .f32) : Vec F S8192x32 .f32 :=
  VS.read (Elt F) (VS.writes (Elt F) VS.junk (run_mid c i arg2 harg2 arg3 harg3 arg4 harg4 arg5 harg5 arg6 harg6 hc0 hc1 x0 x1 x2 xs0).2.1)

theorem scover_last (c : Dev nD) (i : grid8.Coords) (arg2 : Memref sig .tc .vmem S1024 .i32) (harg2 : arg2.IsWhole) (arg3 : Memref sig .tc .vmem S1024x32 .f32) (harg3 : arg3.IsWhole) (arg4 : Memref sig .tc .vmem S32 .f32) (harg4 : arg4.IsWhole) (arg5 : Memref sig .tc .vmem S8192x32 .f32) (harg5 : arg5.IsWhole) (arg6 : Memref sig .tc .vmem S8192x32 .f32) (harg6 : arg6.IsWhole) (hc0 : ¬isFirst i) (hc1 : isLast i) (x0 : Vec F S1024 .i32) (x1 : Vec F S1024x32 .f32) (x2 : Vec F S32 .f32) (xs0 : Vec F S8192x32 .f32) (y : S8192x32.Idx) :
    ∃ pc ∈ (run_last c i arg2 harg2 arg3 harg3 arg4 harg4 arg5 harg5 arg6 harg6 hc0 hc1 x0 x1 x2 xs0).2.1, y ∈ pc.1.set :=
  View.cover_of_tiledL (run_last c i arg2 harg2 arg3 harg3 arg4 harg4 arg5 harg5 arg6 harg6 hc0 hc1 x0 x1 x2 xs0).2.1 S8192x32.size (by sl_kernel_rfl) y
def scr_last (c : Dev nD) (i : grid8.Coords) (arg2 : Memref sig .tc .vmem S1024 .i32) (harg2 : arg2.IsWhole) (arg3 : Memref sig .tc .vmem S1024x32 .f32) (harg3 : arg3.IsWhole) (arg4 : Memref sig .tc .vmem S32 .f32) (harg4 : arg4.IsWhole) (arg5 : Memref sig .tc .vmem S8192x32 .f32) (harg5 : arg5.IsWhole) (arg6 : Memref sig .tc .vmem S8192x32 .f32) (harg6 : arg6.IsWhole) (hc0 : ¬isFirst i) (hc1 : isLast i) (x0 : Vec F S1024 .i32) (x1 : Vec F S1024x32 .f32) (x2 : Vec F S32 .f32) (xs0 : Vec F S8192x32 .f32) : Vec F S8192x32 .f32 :=
  VS.read (Elt F) (VS.writes (Elt F) VS.junk (run_last c i arg2 harg2 arg3 harg3 arg4 harg4 arg5 harg5 arg6 harg6 hc0 hc1 x0 x1 x2 xs0).2.1)
theorem ocover_last (c : Dev nD) (i : grid8.Coords) (arg2 : Memref sig .tc .vmem S1024 .i32) (harg2 : arg2.IsWhole) (arg3 : Memref sig .tc .vmem S1024x32 .f32) (harg3 : arg3.IsWhole) (arg4 : Memref sig .tc .vmem S32 .f32) (harg4 : arg4.IsWhole) (arg5 : Memref sig .tc .vmem S8192x32 .f32) (harg5 : arg5.IsWhole) (arg6 : Memref sig .tc .vmem S8192x32 .f32) (harg6 : arg6.IsWhole) (hc0 : ¬isFirst i) (hc1 : isLast i) (x0 : Vec F S1024 .i32) (x1 : Vec F S1024x32 .f32) (x2 : Vec F S32 .f32) (xs0 : Vec F S8192x32 .f32) (y : S8192x32.Idx) :
    ∃ pc ∈ (run_last c i arg2 harg2 arg3 harg3 arg4 harg4 arg5 harg5 arg6 harg6 hc0 hc1 x0 x1 x2 xs0).1, y ∈ pc.1.set :=
  View.cover_of_tiledL (run_last c i arg2 harg2 arg3 harg3 arg4 harg4 arg5 harg5 arg6 harg6 hc0 hc1 x0 x1 x2 xs0).1 S8192x32.size (by sl_kernel_rfl) y
/-- After a last edge tile the result's buffer holds the case's pieces, read back. -/
def out_last (c : Dev nD) (i : grid8.Coords) (arg2 : Memref sig .tc .vmem S1024 .i32) (harg2 : arg2.IsWhole) (arg3 : Memref sig .tc .vmem S1024x32 .f32) (harg3 : arg3.IsWhole) (arg4 : Memref sig .tc .vmem S32 .f32) (harg4 : arg4.IsWhole) (arg5 : Memref sig .tc .vmem S8192x32 .f32) (harg5 : arg5.IsWhole) (arg6 : Memref sig .tc .vmem S8192x32 .f32) (harg6 : arg6.IsWhole) (hc0 : ¬isFirst i) (hc1 : isLast i) (x0 : Vec F S1024 .i32) (x1 : Vec F S1024x32 .f32) (x2 : Vec F S32 .f32) (xs0 : Vec F S8192x32 .f32) : Vec F S8192x32 .f32 :=
  VO.read (Elt F) (VO.writes (Elt F) VO.junk (run_last c i arg2 harg2 arg3 harg3 arg4 harg4 arg5 harg5 arg6 harg6 hc0 hc1 x0 x1 x2 xs0).1)
/-- Where the result's buffer is idle nothing reads what is recorded for it: a placeholder. -/
def out_idle : Vec F S8192x32 .f32 := VO.read (Elt F) VO.junk

/-! ## Point by point -/

/-- After the body at position n: the result's staging buffer, then the scratch block — the case the point is in, run at the
    point's memrefs and input blocks, over the scratch the point before left. -/
def outsAt (c : Dev nD) : (n : ℕ) → n < cfg8.N → Vec F S8192x32 .f32 × Vec F S8192x32 .f32
  | 0, hn => (out_idle, scr_first c (grid8.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((isFirst_iff ⟨0, hn⟩).mpr (Nat.zero_mod _)) (fun h => (fun h' => by (try dsimp only at h'); omega) ((isLast_iff ⟨0, hn⟩).mp h)) (blk V c 0 ⟨0, hn⟩) (blk V c 1 ⟨0, hn⟩) (blk V c 2 ⟨0, hn⟩))
  | n + 1, hn =>
    if h0 : (n + 1) % 1661 = 0 then
      if h1 : (n + 1) % 1661 = 1660 then False.elim (by omega)
      else (out_idle, scr_first c (grid8.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) ((isFirst_iff ⟨n + 1, hn⟩).mpr h0) (fun h => h1 ((isLast_iff ⟨n + 1, hn⟩).mp h)) (blk V c 0 ⟨n + 1, hn⟩) (blk V c 1 ⟨n + 1, hn⟩) (blk V c 2 ⟨n + 1, hn⟩))
    else
      if h1 : (n + 1) % 1661 = 1660 then
        (out_last c (grid8.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (outsAt c n (Nat.lt_of_succ_lt hn)).2,
          scr_last c (grid8.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (outsAt c n (Nat.lt_of_succ_lt hn)).2)
      else
        (out_idle, scr_mid c (grid8.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((isFirst_iff ⟨n + 1, hn⟩).mp h)) (fun h => h1 ((isLast_iff ⟨n + 1, hn⟩).mp h)) (blk V c 0 ⟨n + 1, hn⟩) (blk V c 1 ⟨n + 1, hn⟩) (blk V c 2 ⟨n + 1, hn⟩) (outsAt c n (Nat.lt_of_succ_lt hn)).2)

theorem outsAt_first (c : Dev nD) (t : Fin cfg8.N) (h0 : t.val % 1661 = 0) (h1 : ¬t.val % 1661 = 1660) :
    outsAt V c t.val t.isLt = (out_idle, scr_first c (grid8.coords t) (ms_0 t) (hs_0 t) (ms_1 t) (hs_1 t) (ms_2 t) (hs_2 t) (ms_3 t) (hs_3 t) scM (Memref.isWhole_whole _) ((isFirst_iff t).mpr h0) (fun h => h1 ((isLast_iff t).mp h)) (blk V c 0 t) (blk V c 1 t) (blk V c 2 t)) := by
  obtain ⟨n, hn⟩ := t
  cases n with
  | zero => exact rfl
  | succ n => exact (dif_pos h0).trans ((dif_neg h1).trans rfl)

theorem outsAt_mid (c : Dev nD) (t : Fin cfg8.N) (h0 : ¬t.val % 1661 = 0) (h1 : ¬t.val % 1661 = 1660) :
    outsAt V c t.val t.isLt = (out_idle, scr_mid c (grid8.coords t) (ms_0 t) (hs_0 t) (ms_1 t) (hs_1 t) (ms_2 t) (hs_2 t) (ms_3 t) (hs_3 t) scM (Memref.isWhole_whole _) (fun h => h0 ((isFirst_iff t).mp h)) (fun h => h1 ((isLast_iff t).mp h)) (blk V c 0 t) (blk V c 1 t) (blk V c 2 t)
      (outsAt V c (t.val - 1) (Nat.lt_of_le_of_lt (Nat.sub_le _ _) t.isLt)).2) := by
  obtain ⟨n, hn⟩ := t
  cases n with
  | zero => exact (by exfalso; exact absurd (Nat.zero_mod _) h0)
  | succ n => exact (dif_neg h0).trans ((dif_neg h1).trans rfl)

theorem outsAt_last (c : Dev nD) (t : Fin cfg8.N) (h0 : ¬t.val % 1661 = 0) (h1 : t.val % 1661 = 1660) :
    outsAt V c t.val t.isLt = (out_last c (grid8.coords t) (ms_0 t) (hs_0 t) (ms_1 t) (hs_1 t) (ms_2 t) (hs_2 t) (ms_3 t) (hs_3 t) scM (Memref.isWhole_whole _) (fun h => h0 ((isFirst_iff t).mp h)) ((isLast_iff t).mpr h1) (blk V c 0 t) (blk V c 1 t) (blk V c 2 t)
        (outsAt V c (t.val - 1) (Nat.lt_of_le_of_lt (Nat.sub_le _ _) t.isLt)).2,
      scr_last c (grid8.coords t) (ms_0 t) (hs_0 t) (ms_1 t) (hs_1 t) (ms_2 t) (hs_2 t) (ms_3 t) (hs_3 t) scM (Memref.isWhole_whole _) (fun h => h0 ((isFirst_iff t).mp h)) ((isLast_iff t).mpr h1) (blk V c 0 t) (blk V c 1 t) (blk V c 2 t)
        (outsAt V c (t.val - 1) (Nat.lt_of_le_of_lt (Nat.sub_le _ _) t.isLt)).2) := by
  obtain ⟨n, hn⟩ := t
  cases n with
  | zero => exact (by exfalso; exact absurd (Nat.zero_mod _) h0)
  | succ n => exact (dif_neg h0).trans ((dif_pos h1).trans rfl)

/-- The region's invariant before position n: before the first point the untouched rest; afterwards the scratch block at what
    the point before left, beside the remainder of the rest and the generator register. -/
def inv (c : Dev nD) : (n : ℕ) → n ≤ cfg8.N → sProp 𝕄
  | 0, _ => Pipeline.ΦA spec8 c
  | n + 1, hn => iprop(iprop(owns (c : Thread nD τ) scM fullShare ((outsAt V c n hn).2) ∗ Pipeline.scopedRestBut (Ix := Unit) (Name := ℕ) (U := UR sig nD τ) (Lvl := ℕ) (Val := Elt F) spec8 c [cc8_scratch0]) ∗ (∃ r, prngReg c r))

theorem inv_zero (c : Dev nD) (n : ℕ) (h : n ≤ cfg8.N) (hz : n = 0) : inv V c n h = Pipeline.ΦA spec8 c := by
  subst hz; rfl
theorem inv_succ (c : Dev nD) (n : ℕ) (hn : n < cfg8.N) :
    inv V c (n + 1) hn = iprop(iprop(owns (c : Thread nD τ) scM fullShare ((outsAt V c n hn).2) ∗ Pipeline.scopedRestBut (Ix := Unit) (Name := ℕ) (U := UR sig nD τ) (Lvl := ℕ) (Val := Elt F) spec8 c [cc8_scratch0]) ∗ (∃ r, prngReg c r)) := rfl
theorem inv_pos (c : Dev nD) (n : ℕ) (h : n ≤ cfg8.N) (hz : n ≠ 0) :
    inv V c n h = iprop(iprop(owns (c : Thread nD τ) scM fullShare ((outsAt V c (n - 1) (by omega)).2) ∗ Pipeline.scopedRestBut (Ix := Unit) (Name := ℕ) (U := UR sig nD τ) (Lvl := ℕ) (Val := Elt F) spec8 c [cc8_scratch0]) ∗ (∃ r, prngReg c r)) := by
  cases n with
  | zero => exact absurd rfl hz
  | succ n => rfl

/-- The region's proof data on core c. -/
def dat (c : Dev nD) : Dat τ (Elt F) Unit ℕ (UR sig nD τ) ℕ cfg8 c where
  A w := V c (Pipeline.arrRef spec8 w)
  after w t := match w with
    | ⟨0, _⟩ => blk V c 0 t
    | ⟨1, _⟩ => blk V c 1 t
    | ⟨2, _⟩ => blk V c 2 t
    | ⟨3, _⟩ => (outsAt V c t.val t.isLt).1
  Φ t := inv V c t.val (Nat.le_of_lt_succ t.isLt)
  q _ := fullShare
  owed _ := 0

theorem A_eq (c : Dev nD) (w : Fin cfg8.W) : (dat V c).A w = V c (Pipeline.arrRef spec8 w) := by
  dsimp only [dat]
theorem inv_castSucc (c : Dev nD) (t : Fin cfg8.N) : (dat V c).Φ t.castSucc = inv V c t.val (Nat.le_of_lt t.isLt) := by
  dsimp only [dat]; simp only [Fin.coe_castSucc]
theorem after_0 (c : Dev nD) (t : Fin cfg8.N) : (dat V c).after 0 t = blk V c 0 t := by dsimp only [dat]
theorem after_1 (c : Dev nD) (t : Fin cfg8.N) : (dat V c).after 1 t = blk V c 1 t := by dsimp only [dat]
theorem after_2 (c : Dev nD) (t : Fin cfg8.N) : (dat V c).after 2 t = blk V c 2 t := by dsimp only [dat]
theorem after_3 (c : Dev nD) (t : Fin cfg8.N) : (dat V c).after 3 t = (outsAt V c t.val t.isLt).1 := by dsimp only [dat]
theorem before_0 (c : Dev nD) (t : Fin cfg8.N) (d) : (dat V c).before 0 t d = blk V c 0 t := found_0 V (dat V c) (A_eq V c 0) (after_0 V c) t d
theorem before_1 (c : Dev nD) (t : Fin cfg8.N) (d) : (dat V c).before 1 t d = blk V c 1 t := found_1 V (dat V c) (A_eq V c 1) (after_1 V c) t d
theorem before_2 (c : Dev nD) (t : Fin cfg8.N) (d) : (dat V c).before 2 t d = blk V c 2 t := found_2 V (dat V c) (A_eq V c 2) (after_2 V c) t d

/-! ## The body obligation, at a generic point -/

def bodyPre (c : Dev nD) (t : Fin cfg8.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

def bodyPost (c : Dev nD) (t : Fin cfg8.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4800000 in
/-- The body at any point: the inputs' buffers hold their blocks; the closed forms say which case the point is in; the invariant
    hands over the scratch block at what the point before left (at anything at the very first point) and takes it back at this
    point's contents; where the result's window is idle its buffer goes back as found. -/
theorem body_at (c : Dev nD) (t : Fin cfg8.N) :
    bodyPre V c t ⊢ wp frame (wpE (defs₀ (F := F)) Variants.none c none) Set.univ (bodyAt t) (fun _ => bodyPost V c t) := by
  unfold bodyPre bodyPost bodyAt
  simp only [before_0, before_1, before_2]
  rw [show (dat V c).owesAt () t.succ = (dat V c).owesAt () t.castSucc from rfl]
  rw [show (dat V c).Φ t.succ = inv V c (t.val + 1) t.isLt from rfl, inv_succ]
  rw [show (dat V c).leavesExact 0 t = owns (c : Thread nD τ) (ms_0 t) fullShare ((dat V c).after 0 t) from by
    unfold Dat.leavesExact; rfl, after_0]
  rw [show (dat V c).leavesExact 1 t = owns (c : Thread nD τ) (ms_1 t) fullShare ((dat V c).after 1 t) from by
    unfold Dat.leavesExact; rfl, after_1]
  rw [show (dat V c).leavesExact 2 t = owns (c : Thread nD τ) (ms_2 t) fullShare ((dat V c).after 2 t) from by
    unfold Dat.leavesExact; rfl, after_2]
  by_cases h0 : t.val % 1661 = 0
  · have h1 : ¬t.val % 1661 = 1660 := by omega
    rw [Dat.leavesExact_idle (dat V c) 3 t (idle_3 _ (fun h => h1 ((isLast_iff t).mp h))) (noFlush_3 t (fun h => h1 ((isLast_iff t).mp h)))]
    rw [outsAt_first V c t h0 h1]
    unfold scr_first; (try dsimp only)
    by_cases hz : t.val = 0
    · rw [inv_castSucc V c t, inv_zero V c _ _ hz, rest_eq]
      iintro ⟨⟨⟨HS, Hr⟩, Hg⟩, Ho, ⟨%d0, H0⟩, ⟨%d1, H1⟩, ⟨%d2, H2⟩, ⟨%d3, H3⟩⟩
      iapply ((run_first c (grid8.coords t) _ _ _ _ _ _ _ _ _ _ ((isFirst_iff t).mpr h0) (fun h => h1 ((isLast_iff t).mp h)) (blk V c 0 t) (blk V c 1 t) (blk V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover_first c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [inv_castSucc V c t, inv_pos V c _ _ hz]
      iintro ⟨⟨⟨HS, Hr⟩, Hg⟩, Ho, ⟨%d0, H0⟩, ⟨%d1, H1⟩, ⟨%d2, H2⟩, ⟨%d3, H3⟩⟩
      iapply ((run_first c (grid8.coords t) _ _ _ _ _ _ _ _ _ _ ((isFirst_iff t).mpr h0) (fun h => h1 ((isLast_iff t).mp h)) (blk V c 0 t) (blk V c 1 t) (blk V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover_first c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 1661 = 1660
    · rw [show (dat V c).leavesExact 3 t = owns (c : Thread nD τ) (ms_3 t) fullShare ((dat V c).after 3 t) from by
        unfold Dat.leavesExact; rw [live_3 _ ((isLast_iff t).mpr h1)], after_3]
      rw [outsAt_last V c t h0 h1]
      unfold out_last scr_last; (try dsimp only)
      rw [inv_castSucc V c t, inv_pos V c _ _ hz]
      iintro ⟨⟨⟨HS, Hr⟩, Hg⟩, Ho, ⟨%d0, H0⟩, ⟨%d1, H1⟩, ⟨%d2, H2⟩, ⟨%d3, H3⟩⟩
      iapply ((run_last c (grid8.coords t) _ _ _ _ _ _ _ _ _ _ (fun h => h0 ((isFirst_iff t).mp h)) ((isLast_iff t).mpr h1) (blk V c 0 t) (blk V c 1 t) (blk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hr Hg]
      · isplitl [HS Hr]
        · isplitl [HS]
          · unfold owns; iexists _; isplitr
            swap; · iexact HS
            ipureintro; exact View.read_writes_of_cover _ _ _ _ _ (scover_last c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (ocover_last c _ _ _ _ _ _ _ _ _ _ _ _ _ _ _ _ _)
    · rw [Dat.leavesExact_idle (dat V c) 3 t (idle_3 _ (fun h => h1 ((isLast_iff t).mp h))) (noFlush_3 t (fun h => h1 ((isLast_iff t).mp h)))]
      rw [outsAt_mid V c t h0 h1]
      unfold scr_mid; (try dsimp only)
      rw [inv_castSucc V c t, inv_pos V c _ _ hz]
      iintro ⟨⟨⟨HS, Hr⟩, Hg⟩, Ho, ⟨%d0, H0⟩, ⟨%d1, H1⟩, ⟨%d2, H2⟩, ⟨%d3, H3⟩⟩
      iapply ((run_mid c (grid8.coords t) _ _ _ _ _ _ _ _ _ _ (fun h => h0 ((isFirst_iff t).mp h)) (fun h => h1 ((isLast_iff t).mp h)) (blk V c 0 t) (blk V c 1 t) (blk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover_mid c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W8, bigSep_W8]
  exact body_at V c t

/-- The untouched rest is the invariant before the first point, -/
theorem hin (c : Dev nD) : Pipeline.ΦA spec8 c ⊢ (dat V c).Φ 0 := by
  rw [show (dat V c).Φ 0 = inv V c 0 (Nat.zero_le _) from rfl, inv_zero V c 0 _ rfl]
  try exact Idealize.SL.BI.Entails.refl _

/-- and the invariant after the last point gives it back, the scratch block's contents forgotten. -/
theorem hout (c : Dev nD) : (dat V c).Φ (Fin.last cfg8.N) ⊢ Pipeline.ΦA spec8 c := by
  rw [show (dat V c).Φ (Fin.last cfg8.N) = inv V c (Fin.last cfg8.N).val (Nat.le_of_lt_succ (Fin.last cfg8.N).isLt) from rfl,
    inv_pos V c _ _ (by rw [Fin.val_last]; have : cfg8.N = 21593 := N_8; omega), rest_eq]
  iintro ⟨⟨HS, Hr⟩, Hg⟩
  isplitl [HS Hr]
  · isplitl [HS]
    · iexists _; iexact HS
    iexact Hr
  iexact Hg

end Cert.KernelIdeal.R8

end
-- ==== Proof.KRun.lean ====
/-
  The run of the kernel program's @main: four stretches of host operations, the first layer's three kernel regions (dense
  transform, gather, scatter), four stretches, the second layer's three regions, four stretches, the third layer's three
  regions, and the final slice.  Between two items every unscoped buffer of a core is held at a named valuation: the launch
  contents, then each stretch's operations applied, then after a region its windows' arrays at what its write-backs leave
  and every other buffer as entered.  Each region is entered from the valuation before it with its proof data stated at
  those contents, and left at the next.  Every weakly fair execution terminates, and at the end each unscoped buffer
  holds the last valuation: the result and the eight argument arrays are read off it.
-/
import proofs.«155233_j36086315221040_1_alg».proof.Proof.Region0
import proofs.«155233_j36086315221040_1_alg».proof.Proof.Region1
import proofs.«155233_j36086315221040_1_alg».proof.Proof.Region2
import proofs.«155233_j36086315221040_1_alg».proof.Proof.Region3
import proofs.«155233_j36086315221040_1_alg».proof.Proof.Region4
import proofs.«155233_j36086315221040_1_alg».proof.Proof.Region5
import proofs.«155233_j36086315221040_1_alg».proof.Proof.Region6
import proofs.«155233_j36086315221040_1_alg».proof.Proof.Region7
import proofs.«155233_j36086315221040_1_alg».proof.Proof.Region8
import proofs.«155233_j36086315221040_1_alg».proof.Proof.Gen.KernelIdeal.Regions
import Idealize.ShloMosaic.Lib.Pipeline.RegionsLoop

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core c's buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After item 0, the stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h
/-- After item 1, the stretch `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
theorem W2_keep (c : Dev nD) (r : Ref sig .tc) (h : r ∉ hostOps0_1_W) : W2 m ρ c (Proc.devRef .tc r) = W1 m ρ c (Proc.devRef .tc r) :=
  StableHlo.after_of_writes_sub hostOps0_1 _ hostOps0_1_writes h
/-- After item 2, the stretch `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
theorem W3_keep (c : Dev nD) (r : Ref sig .tc) (h : r ∉ hostOps0_2_W) : W3 m ρ c (Proc.devRef .tc r) = W2 m ρ c (Proc.devRef .tc r) :=
  StableHlo.after_of_writes_sub hostOps0_2 _ hostOps0_2_writes h
/-- After item 3, the stretch `hostOps0_3`. -/
abbrev W4 : Dev nD → Valuation τ sig (Elt F) := fun c => StableHlo.after hostOps0_3 (W3 m ρ c)
abbrev V4 : (c : Dev nD) → (b : Ref sig .tc) → Buf (Elt F) ((c : Thread nD τ).loc b) := fun c b => W4 m ρ c b
theorem W4_keep (c : Dev nD) (r : Ref sig .tc) (h : r ∉ hostOps0_3_W) : W4 m ρ c (Proc.devRef .tc r) = W3 m ρ c (Proc.devRef .tc r) :=
  StableHlo.after_of_writes_sub hostOps0_3 _ hostOps0_3_writes h
/-- After item 4, region 0: its windows' arrays at what the pipeline leaves, every other buffer as entered. -/
def W5 (c : Dev nD) : Valuation τ sig (Elt F) :=
  Pipeline.withArrays spec0 c (W4 m ρ c) fun w => (R0.dat (V4 m ρ) c).arrAt w cfg0.N
theorem W5_arr (c : Dev nD) (w : Fin cfg0.W) :
    W5 m ρ c (Proc.devRef .tc (Pipeline.arrRef spec0 w)) = (R0.dat (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
abbrev V5 : (c : Dev nD) → (b : Ref sig .tc) → Buf (Elt F) ((c : Thread nD τ).loc b) := fun c b => W5 m ρ c b
theorem hF0 (c : Dev nD) (w : Fin cfg0.W) : (R0.dat (V4 m ρ) c).arrAt w cfg0.N = V5 m ρ c (Pipeline.arrRef spec0 w) :=
  (W5_arr m ρ c w).symm
theorem hrest0 (c : Dev nD) : ∀ b, b ∉ Finset.univ.image (Pipeline.arrRef spec0) → V5 m ρ c b = V4 m ρ c b :=
  fun b hb => W5_of_ne m ρ c b fun w e => hb (Finset.mem_image.mpr ⟨w, Finset.mem_univ _, e⟩)
/-- An input window's array leaves region 0 as it entered. -/
theorem W5_in (c : Dev nD) (w : Fin cfg0.W) (hw : (cfg0.win w).isOut = false) :
    W5 m ρ c (Proc.devRef .tc (Pipeline.arrRef spec0 w)) = W4 m ρ c (Proc.devRef .tc (Pipeline.arrRef spec0 w)) :=
  (W5_arr m ρ c w).trans (((R0.dat (V4 m ρ) c).arrAt_in w hw _).trans (R0.A_eq (V4 m ρ) c w))
/-- After item 5, region 1: its windows' arrays at what the pipeline leaves, every other buffer as entered. -/
def W6 (c : Dev nD) : Valuation τ sig (Elt F) :=
  Pipeline.withArrays spec1 c (W5 m ρ c) fun w => (R1.dat (V5 m ρ) c).arrAt w cfg1.N
theorem W6_arr (c : Dev nD) (w : Fin cfg1.W) :
    W6 m ρ c (Proc.devRef .tc (Pipeline.arrRef spec1 w)) = (R1.dat (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (R1.dat (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- An input window's array leaves region 1 as it entered. -/
theorem W6_in (c : Dev nD) (w : Fin cfg1.W) (hw : (cfg1.win w).isOut = false) :
    W6 m ρ c (Proc.devRef .tc (Pipeline.arrRef spec1 w)) = W5 m ρ c (Proc.devRef .tc (Pipeline.arrRef spec1 w)) :=
  (W6_arr m ρ c w).trans (((R1.dat (V5 m ρ) c).arrAt_in w hw _).trans (R1.A_eq (V5 m ρ) c w))
/-- After item 6, region 2: its windows' arrays at what the pipeline leaves, every other buffer as entered. -/
def W7 (c : Dev nD) : Valuation τ sig (Elt F) :=
  Pipeline.withArrays spec2 c (W6 m ρ c) fun w => (R2.dat (V6 m ρ) c).arrAt w cfg2.N
theorem W7_arr (c : Dev nD) (w : Fin cfg2.W) :
    W7 m ρ c (Proc.devRef .tc (Pipeline.arrRef spec2 w)) = (R2.dat (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev V7 : (c : Dev nD) → (b : Ref sig .tc) → Buf (Elt F) ((c : Thread nD τ).loc b) := fun c b => W7 m ρ c b
theorem hF2 (c : Dev nD) (w : Fin cfg2.W) : (R2.dat (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)
/-- An input window's array leaves region 2 as it entered. -/
theorem W7_in (c : Dev nD) (w : Fin cfg2.W) (hw : (cfg2.win w).isOut = false) :
    W7 m ρ c (Proc.devRef .tc (Pipeline.arrRef spec2 w)) = W6 m ρ c (Proc.devRef .tc (Pipeline.arrRef spec2 w)) :=
  (W7_arr m ρ c w).trans (((R2.dat (V6 m ρ) c).arrAt_in w hw _).trans (R2.A_eq (V6 m ρ) c w))
/-- After item 7, the stretch `hostOps3`. -/
abbrev W8 : Dev nD → Valuation τ sig (Elt F) := fun c => StableHlo.after hostOps3 (W7 m ρ c)
abbrev V8 : (c : Dev nD) → (b : Ref sig .tc) → Buf (Elt F) ((c : Thread nD τ).loc b) := fun c b => W8 m ρ c b
theorem W8_keep (c : Dev nD) (r : Ref sig .tc) (h : r ∉ hostOps3_W) : W8 m ρ c (Proc.devRef .tc r) = W7 m ρ c (Proc.devRef .tc r) :=
  StableHlo.after_of_writes_sub hostOps3 _ hostOps3_writes h
/-- After item 8, the stretch `hostOps3_1`. -/
abbrev W9 : Dev nD → Valuation τ sig (Elt F) := fun c => StableHlo.after hostOps3_1 (W8 m ρ c)
abbrev V9 : (c : Dev nD) → (b : Ref sig .tc) → Buf (Elt F) ((c : Thread nD τ).loc b) := fun c b => W9 m ρ c b
theorem W9_keep (c : Dev nD) (r : Ref sig .tc) (h : r ∉ hostOps3_1_W) : W9 m ρ c (Proc.devRef .tc r) = W8 m ρ c (Proc.devRef .tc r) :=
  StableHlo.after_of_writes_sub hostOps3_1 _ hostOps3_1_writes h
/-- After item 9, the stretch `hostOps3_2`. -/
abbrev W10 : Dev nD → Valuation τ sig (Elt F) := fun c => StableHlo.after hostOps3_2 (W9 m ρ c)
abbrev V10 : (c : Dev nD) → (b : Ref sig .tc) → Buf (Elt F) ((c : Thread nD τ).loc b) := fun c b => W10 m ρ c b
theorem W10_keep (c : Dev nD) (r : Ref sig .tc) (h : r ∉ hostOps3_2_W) : W10 m ρ c (Proc.devRef .tc r) = W9 m ρ c (Proc.devRef .tc r) :=
  StableHlo.after_of_writes_sub hostOps3_2 _ hostOps3_2_writes h
/-- After item 10, the stretch `hostOps3_3`. -/
abbrev W11 : Dev nD → Valuation τ sig (Elt F) := fun c => StableHlo.after hostOps3_3 (W10 m ρ c)
abbrev V11 : (c : Dev nD) → (b : Ref sig .tc) → Buf (Elt F) ((c : Thread nD τ).loc b) := fun c b => W11 m ρ c b
theorem W11_keep (c : Dev nD) (r : Ref sig .tc) (h : r ∉ hostOps3_3_W) : W11 m ρ c (Proc.devRef .tc r) = W10 m ρ c (Proc.devRef .tc r) :=
  StableHlo.after_of_writes_sub hostOps3_3 _ hostOps3_3_writes h
/-- After item 11, region 3: its windows' arrays at what the pipeline leaves, every other buffer as entered. -/
def W12 (c : Dev nD) : Valuation τ sig (Elt F) :=
  Pipeline.withArrays spec3 c (W11 m ρ c) fun w => (R3.dat (V11 m ρ) c).arrAt w cfg3.N
theorem W12_arr (c : Dev nD) (w : Fin cfg3.W) :
    W12 m ρ c (Proc.devRef .tc (Pipeline.arrRef spec3 w)) = (R3.dat (V11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
abbrev V12 : (c : Dev nD) → (b : Ref sig .tc) → Buf (Elt F) ((c : Thread nD τ).loc b) := fun c b => W12 m ρ c b
theorem hF3 (c : Dev nD) (w : Fin cfg3.W) : (R3.dat (V11 m ρ) c).arrAt w cfg3.N = V12 m ρ c (Pipeline.arrRef spec3 w) :=
  (W12_arr m ρ c w).symm
theorem hrest3 (c : Dev nD) : ∀ b, b ∉ Finset.univ.image (Pipeline.arrRef spec3) → V12 m ρ c b = V11 m ρ c b :=
  fun b hb => W12_of_ne m ρ c b fun w e => hb (Finset.mem_image.mpr ⟨w, Finset.mem_univ _, e⟩)
/-- An input window's array leaves region 3 as it entered. -/
theorem W12_in (c : Dev nD) (w : Fin cfg3.W) (hw : (cfg3.win w).isOut = false) :
    W12 m ρ c (Proc.devRef .tc (Pipeline.arrRef spec3 w)) = W11 m ρ c (Proc.devRef .tc (Pipeline.arrRef spec3 w)) :=
  (W12_arr m ρ c w).trans (((R3.dat (V11 m ρ) c).arrAt_in w hw _).trans (R3.A_eq (V11 m ρ) c w))
/-- After item 12, region 4: its windows' arrays at what the pipeline leaves, every other buffer as entered. -/
def W13 (c : Dev nD) : Valuation τ sig (Elt F) :=
  Pipeline.withArrays spec4 c (W12 m ρ c) fun w => (R4.dat (V12 m ρ) c).arrAt w cfg4.N
theorem W13_arr (c : Dev nD) (w : Fin cfg4.W) :
    W13 m ρ c (Proc.devRef .tc (Pipeline.arrRef spec4 w)) = (R4.dat (V12 m ρ) c).arrAt w cfg4.N := by
  unfold W13; exact Pipeline.withArrays_arr spec4 launch4.win.arr_inj c _ _ w
theorem W13_of_ne (c : Dev nD) (b : Ref sig .tc) (hb : ∀ w, Pipeline.arrRef spec4 w ≠ b) :
    W13 m ρ c (Proc.devRef .tc b) = W12 m ρ c (Proc.devRef .tc b) := by
  unfold W13; exact Pipeline.withArrays_of_ne spec4 c _ _ b hb
abbrev V13 : (c : Dev nD) → (b : Ref sig .tc) → Buf (Elt F) ((c : Thread nD τ).loc b) := fun c b => W13 m ρ c b
theorem hF4 (c : Dev nD) (w : Fin cfg4.W) : (R4.dat (V12 m ρ) c).arrAt w cfg4.N = V13 m ρ c (Pipeline.arrRef spec4 w) :=
  (W13_arr m ρ c w).symm
theorem hrest4 (c : Dev nD) : ∀ b, b ∉ Finset.univ.image (Pipeline.arrRef spec4) → V13 m ρ c b = V12 m ρ c b :=
  fun b hb => W13_of_ne m ρ c b fun w e => hb (Finset.mem_image.mpr ⟨w, Finset.mem_univ _, e⟩)
/-- An input window's array leaves region 4 as it entered. -/
theorem W13_in (c : Dev nD) (w : Fin cfg4.W) (hw : (cfg4.win w).isOut = false) :
    W13 m ρ c (Proc.devRef .tc (Pipeline.arrRef spec4 w)) = W12 m ρ c (Proc.devRef .tc (Pipeline.arrRef spec4 w)) :=
  (W13_arr m ρ c w).trans (((R4.dat (V12 m ρ) c).arrAt_in w hw _).trans (R4.A_eq (V12 m ρ) c w))
/-- After item 13, region 5: its windows' arrays at what the pipeline leaves, every other buffer as entered. -/
def W14 (c : Dev nD) : Valuation τ sig (Elt F) :=
  Pipeline.withArrays spec5 c (W13 m ρ c) fun w => (R5.dat (V13 m ρ) c).arrAt w cfg5.N
theorem W14_arr (c : Dev nD) (w : Fin cfg5.W) :
    W14 m ρ c (Proc.devRef .tc (Pipeline.arrRef spec5 w)) = (R5.dat (V13 m ρ) c).arrAt w cfg5.N := by
  unfold W14; exact Pipeline.withArrays_arr spec5 launch5.win.arr_inj c _ _ w
theorem W14_of_ne (c : Dev nD) (b : Ref sig .tc) (hb : ∀ w, Pipeline.arrRef spec5 w ≠ b) :
    W14 m ρ c (Proc.devRef .tc b) = W13 m ρ c (Proc.devRef .tc b) := by
  unfold W14; exact Pipeline.withArrays_of_ne spec5 c _ _ b hb
abbrev V14 : (c : Dev nD) → (b : Ref sig .tc) → Buf (Elt F) ((c : Thread nD τ).loc b) := fun c b => W14 m ρ c b
theorem hF5 (c : Dev nD) (w : Fin cfg5.W) : (R5.dat (V13 m ρ) c).arrAt w cfg5.N = V14 m ρ c (Pipeline.arrRef spec5 w) :=
  (W14_arr m ρ c w).symm
theorem hrest5 (c : Dev nD) : ∀ b, b ∉ Finset.univ.image (Pipeline.arrRef spec5) → V14 m ρ c b = V13 m ρ c b :=
  fun b hb => W14_of_ne m ρ c b fun w e => hb (Finset.mem_image.mpr ⟨w, Finset.mem_univ _, e⟩)
/-- An input window's array leaves region 5 as it entered. -/
theorem W14_in (c : Dev nD) (w : Fin cfg5.W) (hw : (cfg5.win w).isOut = false) :
    W14 m ρ c (Proc.devRef .tc (Pipeline.arrRef spec5 w)) = W13 m ρ c (Proc.devRef .tc (Pipeline.arrRef spec5 w)) :=
  (W14_arr m ρ c w).trans (((R5.dat (V13 m ρ) c).arrAt_in w hw _).trans (R5.A_eq (V13 m ρ) c w))
/-- After item 14, the stretch `hostOps6`. -/
abbrev W15 : Dev nD → Valuation τ sig (Elt F) := fun c => StableHlo.after hostOps6 (W14 m ρ c)
abbrev V15 : (c : Dev nD) → (b : Ref sig .tc) → Buf (Elt F) ((c : Thread nD τ).loc b) := fun c b => W15 m ρ c b
theorem W15_keep (c : Dev nD) (r : Ref sig .tc) (h : r ∉ hostOps6_W) : W15 m ρ c (Proc.devRef .tc r) = W14 m ρ c (Proc.devRef .tc r) :=
  StableHlo.after_of_writes_sub hostOps6 _ hostOps6_writes h
/-- After item 15, the stretch `hostOps6_1`. -/
abbrev W16 : Dev nD → Valuation τ sig (Elt F) := fun c => StableHlo.after hostOps6_1 (W15 m ρ c)
abbrev V16 : (c : Dev nD) → (b : Ref sig .tc) → Buf (Elt F) ((c : Thread nD τ).loc b) := fun c b => W16 m ρ c b
theorem W16_keep (c : Dev nD) (r : Ref sig .tc) (h : r ∉ hostOps6_1_W) : W16 m ρ c (Proc.devRef .tc r) = W15 m ρ c (Proc.devRef .tc r) :=
  StableHlo.after_of_writes_sub hostOps6_1 _ hostOps6_1_writes h
/-- After item 16, the stretch `hostOps6_2`. -/
abbrev W17 : Dev nD → Valuation τ sig (Elt F) := fun c => StableHlo.after hostOps6_2 (W16 m ρ c)
abbrev V17 : (c : Dev nD) → (b : Ref sig .tc) → Buf (Elt F) ((c : Thread nD τ).loc b) := fun c b => W17 m ρ c b
theorem W17_keep (c : Dev nD) (r : Ref sig .tc) (h : r ∉ hostOps6_2_W) : W17 m ρ c (Proc.devRef .tc r) = W16 m ρ c (Proc.devRef .tc r) :=
  StableHlo.after_of_writes_sub hostOps6_2 _ hostOps6_2_writes h
/-- After item 17, the stretch `hostOps6_3`. -/
abbrev W18 : Dev nD → Valuation τ sig (Elt F) := fun c => StableHlo.after hostOps6_3 (W17 m ρ c)
abbrev V18 : (c : Dev nD) → (b : Ref sig .tc) → Buf (Elt F) ((c : Thread nD τ).loc b) := fun c b => W18 m ρ c b
theorem W18_keep (c : Dev nD) (r : Ref sig .tc) (h : r ∉ hostOps6_3_W) : W18 m ρ c (Proc.devRef .tc r) = W17 m ρ c (Proc.devRef .tc r) :=
  StableHlo.after_of_writes_sub hostOps6_3 _ hostOps6_3_writes h
/-- After item 18, region 6: its windows' arrays at what the pipeline leaves, every other buffer as entered. -/
def W19 (c : Dev nD) : Valuation τ sig (Elt F) :=
  Pipeline.withArrays spec6 c (W18 m ρ c) fun w => (R6.dat (V18 m ρ) c).arrAt w cfg6.N
theorem W19_arr (c : Dev nD) (w : Fin cfg6.W) :
    W19 m ρ c (Proc.devRef .tc (Pipeline.arrRef spec6 w)) = (R6.dat (V18 m ρ) c).arrAt w cfg6.N := by
  unfold W19; exact Pipeline.withArrays_arr spec6 launch6.win.arr_inj c _ _ w
theorem W19_of_ne (c : Dev nD) (b : Ref sig .tc) (hb : ∀ w, Pipeline.arrRef spec6 w ≠ b) :
    W19 m ρ c (Proc.devRef .tc b) = W18 m ρ c (Proc.devRef .tc b) := by
  unfold W19; exact Pipeline.withArrays_of_ne spec6 c _ _ b hb
abbrev V19 : (c : Dev nD) → (b : Ref sig .tc) → Buf (Elt F) ((c : Thread nD τ).loc b) := fun c b => W19 m ρ c b
theorem hF6 (c : Dev nD) (w : Fin cfg6.W) : (R6.dat (V18 m ρ) c).arrAt w cfg6.N = V19 m ρ c (Pipeline.arrRef spec6 w) :=
  (W19_arr m ρ c w).symm
theorem hrest6 (c : Dev nD) : ∀ b, b ∉ Finset.univ.image (Pipeline.arrRef spec6) → V19 m ρ c b = V18 m ρ c b :=
  fun b hb => W19_of_ne m ρ c b fun w e => hb (Finset.mem_image.mpr ⟨w, Finset.mem_univ _, e⟩)
/-- An input window's array leaves region 6 as it entered. -/
theorem W19_in (c : Dev nD) (w : Fin cfg6.W) (hw : (cfg6.win w).isOut = false) :
    W19 m ρ c (Proc.devRef .tc (Pipeline.arrRef spec6 w)) = W18 m ρ c (Proc.devRef .tc (Pipeline.arrRef spec6 w)) :=
  (W19_arr m ρ c w).trans (((R6.dat (V18 m ρ) c).arrAt_in w hw _).trans (R6.A_eq (V18 m ρ) c w))
/-- After item 19, region 7: its windows' arrays at what the pipeline leaves, every other buffer as entered. -/
def W20 (c : Dev nD) : Valuation τ sig (Elt F) :=
  Pipeline.withArrays spec7 c (W19 m ρ c) fun w => (R7.dat (V19 m ρ) c).arrAt w cfg7.N
theorem W20_arr (c : Dev nD) (w : Fin cfg7.W) :
    W20 m ρ c (Proc.devRef .tc (Pipeline.arrRef spec7 w)) = (R7.dat (V19 m ρ) c).arrAt w cfg7.N := by
  unfold W20; exact Pipeline.withArrays_arr spec7 launch7.win.arr_inj c _ _ w
theorem W20_of_ne (c : Dev nD) (b : Ref sig .tc) (hb : ∀ w, Pipeline.arrRef spec7 w ≠ b) :
    W20 m ρ c (Proc.devRef .tc b) = W19 m ρ c (Proc.devRef .tc b) := by
  unfold W20; exact Pipeline.withArrays_of_ne spec7 c _ _ b hb
abbrev V20 : (c : Dev nD) → (b : Ref sig .tc) → Buf (Elt F) ((c : Thread nD τ).loc b) := fun c b => W20 m ρ c b
theorem hF7 (c : Dev nD) (w : Fin cfg7.W) : (R7.dat (V19 m ρ) c).arrAt w cfg7.N = V20 m ρ c (Pipeline.arrRef spec7 w) :=
  (W20_arr m ρ c w).symm
theorem hrest7 (c : Dev nD) : ∀ b, b ∉ Finset.univ.image (Pipeline.arrRef spec7) → V20 m ρ c b = V19 m ρ c b :=
  fun b hb => W20_of_ne m ρ c b fun w e => hb (Finset.mem_image.mpr ⟨w, Finset.mem_univ _, e⟩)
/-- An input window's array leaves region 7 as it entered. -/
theorem W20_in (c : Dev nD) (w : Fin cfg7.W) (hw : (cfg7.win w).isOut = false) :
    W20 m ρ c (Proc.devRef .tc (Pipeline.arrRef spec7 w)) = W19 m ρ c (Proc.devRef .tc (Pipeline.arrRef spec7 w)) :=
  (W20_arr m ρ c w).trans (((R7.dat (V19 m ρ) c).arrAt_in w hw _).trans (R7.A_eq (V19 m ρ) c w))
/-- After item 20, region 8: its windows' arrays at what the pipeline leaves, every other buffer as entered. -/
def W21 (c : Dev nD) : Valuation τ sig (Elt F) :=
  Pipeline.withArrays spec8 c (W20 m ρ c) fun w => (R8.dat (V20 m ρ) c).arrAt w cfg8.N
theorem W21_arr (c : Dev nD) (w : Fin cfg8.W) :
    W21 m ρ c (Proc.devRef .tc (Pipeline.arrRef spec8 w)) = (R8.dat (V20 m ρ) c).arrAt w cfg8.N := by
  unfold W21; exact Pipeline.withArrays_arr spec8 launch8.win.arr_inj c _ _ w
theorem W21_of_ne (c : Dev nD) (b : Ref sig .tc) (hb : ∀ w, Pipeline.arrRef spec8 w ≠ b) :
    W21 m ρ c (Proc.devRef .tc b) = W20 m ρ c (Proc.devRef .tc b) := by
  unfold W21; exact Pipeline.withArrays_of_ne spec8 c _ _ b hb
abbrev V21 : (c : Dev nD) → (b : Ref sig .tc) → Buf (Elt F) ((c : Thread nD τ).loc b) := fun c b => W21 m ρ c b
theorem hF8 (c : Dev nD) (w : Fin cfg8.W) : (R8.dat (V20 m ρ) c).arrAt w cfg8.N = V21 m ρ c (Pipeline.arrRef spec8 w) :=
  (W21_arr m ρ c w).symm
theorem hrest8 (c : Dev nD) : ∀ b, b ∉ Finset.univ.image (Pipeline.arrRef spec8) → V21 m ρ c b = V20 m ρ c b :=
  fun b hb => W21_of_ne m ρ c b fun w e => hb (Finset.mem_image.mpr ⟨w, Finset.mem_univ _, e⟩)
/-- An input window's array leaves region 8 as it entered. -/
theorem W21_in (c : Dev nD) (w : Fin cfg8.W) (hw : (cfg8.win w).isOut = false) :
    W21 m ρ c (Proc.devRef .tc (Pipeline.arrRef spec8 w)) = W20 m ρ c (Proc.devRef .tc (Pipeline.arrRef spec8 w)) :=
  (W21_arr m ρ c w).trans (((R8.dat (V20 m ρ) c).arrAt_in w hw _).trans (R8.A_eq (V20 m ρ) c w))
/-- After item 21, the stretch `hostOps9`. -/
abbrev W22 : Dev nD → Valuation τ sig (Elt F) := fun c => StableHlo.after hostOps9 (W21 m ρ c)
abbrev V22 : (c : Dev nD) → (b : Ref sig .tc) → Buf (Elt F) ((c : Thread nD τ).loc b) := fun c b => W22 m ρ c b
theorem W22_keep (c : Dev nD) (r : Ref sig .tc) (h : r ∉ hostOps9_W) : W22 m ρ c (Proc.devRef .tc r) = W21 m ρ c (Proc.devRef .tc r) :=
  StableHlo.after_of_writes_sub hostOps9 _ hostOps9_writes h

/-! ## The proof data family and the thread state -/

abbrev adm : (p : Fin 9) → (pcfgs (F := F) p).Adm := fun p => (cfgs p).toPCfg_adm
/-- Every region's proof data, each at its entry contents (a literal match on the region's number). -/
def pdats : (p : Fin 9) → (c : Dev nD) → Dat τ (Elt F) Unit ℕ (UR sig nD τ) ℕ (Pipeline.pin (pcfgs (F := F)) adm p) c
  | ⟨0, _⟩ => fun c => R0.dat (V4 m ρ) c
  | ⟨1, _⟩ => fun c => R1.dat (V5 m ρ) c
  | ⟨2, _⟩ => fun c => R2.dat (V6 m ρ) c
  | ⟨3, _⟩ => fun c => R3.dat (V11 m ρ) c
  | ⟨4, _⟩ => fun c => R4.dat (V12 m ρ) c
  | ⟨5, _⟩ => fun c => R5.dat (V13 m ρ) c
  | ⟨6, _⟩ => fun c => R6.dat (V18 m ρ) c
  | ⟨7, _⟩ => fun c => R7.dat (V19 m ρ) c
  | ⟨8, _⟩ => fun c => R8.dat (V20 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A stretch of host operations as a segment from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W22 m ρ c) ∗ ∃ r, prngReg c r)

/-! ## The regions as segments -/

set_option backward.isDefEq.respectTransparency.types false in
/-- Region 0: entered from every unscoped buffer at W4, left at W5; its arrays split out of the unscoped buffers and put
    back at the exit contents; the generator register and the untouched rest into its invariant and out; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    have hback : (pdats m ρ 0 c).Φ (Fin.last _) ⊢ (iprop(Pipeline.scopedRest (Ix := Unit) (Name := ℕ) (U := UR sig nD τ) (Lvl := ℕ) (Val := Elt F) spec0 c ∗ ∃ r, prngReg c r) : sProp 𝕄) := by
      have h := R0.hout (V4 m ρ) c
      unfold Pipeline.ΦA at h
      exact h
    rw [Pipeline.ownSems0_none]
    iintro H
    ihave H' := hback $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V4 m ρ c) (V5 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at W5, left at W6; its arrays split out of the unscoped buffers and put
    back at the exit contents; the generator register and the untouched rest into its invariant and out; nothing owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    have hback : (pdats m ρ 1 c).Φ (Fin.last _) ⊢ (iprop(Pipeline.scopedRest (Ix := Unit) (Name := ℕ) (U := UR sig nD τ) (Lvl := ℕ) (Val := Elt F) spec1 c ∗ ∃ r, prngReg c r) : sProp 𝕄) := by
      have h := R1.hout (V5 m ρ) c
      unfold Pipeline.ΦA at h
      exact h
    rw [Pipeline.ownSems0_none]
    iintro H
    ihave H' := hback $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at W6, left at W7; its arrays split out of the unscoped buffers and put
    back at the exit contents; the generator register and the untouched rest into its invariant and out; nothing owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (R2.body_obligation (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    have hback : (pdats m ρ 2 c).Φ (Fin.last _) ⊢ (iprop(Pipeline.scopedRest (Ix := Unit) (Name := ℕ) (U := UR sig nD τ) (Lvl := ℕ) (Val := Elt F) spec2 c ∗ ∃ r, prngReg c r) : sProp 𝕄) := by
      have h := R2.hout (V6 m ρ) c
      unfold Pipeline.ΦA at h
      exact h
    rw [Pipeline.ownSems0_none]
    iintro H
    ihave H' := hback $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at W11, left at W12; its arrays split out of the unscoped buffers and put
    back at the exit contents; the generator register and the untouched rest into its invariant and out; nothing owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (R3.body_obligation (V11 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec3 c (V11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    have hback : (pdats m ρ 3 c).Φ (Fin.last _) ⊢ (iprop(Pipeline.scopedRest (Ix := Unit) (Name := ℕ) (U := UR sig nD τ) (Lvl := ℕ) (Val := Elt F) spec3 c ∗ ∃ r, prngReg c r) : sProp 𝕄) := by
      have h := R3.hout (V11 m ρ) c
      unfold Pipeline.ΦA at h
      exact h
    rw [Pipeline.ownSems0_none]
    iintro H
    ihave H' := hback $$ H
    icases H' with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V11 m ρ c) (V12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at W12, left at W13; its arrays split out of the unscoped buffers and put
    back at the exit contents; the generator register and the untouched rest into its invariant and out; nothing owed. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (R4.body_obligation (V12 m ρ) c).loose
  hwaits := Pipeline.hwaits_of_owed_zero _ _ _ _ L lv 4 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec4 c (V12 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    have hback : (pdats m ρ 4 c).Φ (Fin.last _) ⊢ (iprop(Pipeline.scopedRest (Ix := Unit) (Name := ℕ) (U := UR sig nD τ) (Lvl := ℕ) (Val := Elt F) spec4 c ∗ ∃ r, prngReg c r) : sProp 𝕄) := by
      have h := R4.hout (V12 m ρ) c
      unfold Pipeline.ΦA at h
      exact h
    rw [Pipeline.ownSems0_none]
    iintro H
    ihave H' := hback $$ H
    icases H' with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V12 m ρ c) (V13 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at W13, left at W14; its arrays split out of the unscoped buffers and put
    back at the exit contents; the generator register and the untouched rest into its invariant and out; nothing owed. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (R5.body_obligation (V13 m ρ) c).loose
  hwaits := Pipeline.hwaits_of_owed_zero _ _ _ _ L lv 5 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec5 c (V13 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    have hback : (pdats m ρ 5 c).Φ (Fin.last _) ⊢ (iprop(Pipeline.scopedRest (Ix := Unit) (Name := ℕ) (U := UR sig nD τ) (Lvl := ℕ) (Val := Elt F) spec5 c ∗ ∃ r, prngReg c r) : sProp 𝕄) := by
      have h := R5.hout (V13 m ρ) c
      unfold Pipeline.ΦA at h
      exact h
    rw [Pipeline.ownSems0_none]
    iintro H
    ihave H' := hback $$ H
    icases H' with ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V13 m ρ c) (V14 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from every unscoped buffer at W18, left at W19; its arrays split out of the unscoped buffers and put
    back at the exit contents; the generator register and the untouched rest into its invariant and out; nothing owed. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (R6.body_obligation (V18 m ρ) c).loose
  hwaits := Pipeline.hwaits_of_owed_zero _ _ _ _ L lv 6 fun _ _ => rfl
  pre c := iprop(StableHlo.held (c : Thread nD τ) (Pipeline.ucRefs τ sig) (W18 m ρ c) ∗ R c)
  post c := iprop(StableHlo.held (c : Thread nD τ) (Pipeline.ucRefs τ sig) (W19 m ρ c) ∗ R c)
  X c := iprop(∃ r, prngReg c r)
  Y c := iprop(∃ r, prngReg c r)
  Z c := Pipeline.unscopedRest (Ix := Unit) (Name := ℕ) (U := UR sig nD τ) (Lvl := ℕ) spec6 c (V18 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    have hback : (pdats m ρ 6 c).Φ (Fin.last _) ⊢ (iprop(Pipeline.scopedRest (Ix := Unit) (Name := ℕ) (U := UR sig nD τ) (Lvl := ℕ) (Val := Elt F) spec6 c ∗ ∃ r, prngReg c r) : sProp 𝕄) := by
      have h := R6.hout (V18 m ρ) c
      unfold Pipeline.ΦA at h
      exact h
    rw [Pipeline.ownSems0_none]
    iintro H
    ihave H' := hback $$ H
    icases H' with ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V18 m ρ c) (V19 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7: entered from every unscoped buffer at W19, left at W20; its arrays split out of the unscoped buffers and put
    back at the exit contents; the generator register and the untouched rest into its invariant and out; nothing owed. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (R7.body_obligation (V19 m ρ) c).loose
  hwaits := Pipeline.hwaits_of_owed_zero _ _ _ _ L lv 7 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec7 c (V19 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    have hback : (pdats m ρ 7 c).Φ (Fin.last _) ⊢ (iprop(Pipeline.scopedRest (Ix := Unit) (Name := ℕ) (U := UR sig nD τ) (Lvl := ℕ) (Val := Elt F) spec7 c ∗ ∃ r, prngReg c r) : sProp 𝕄) := by
      have h := R7.hout (V19 m ρ) c
      unfold Pipeline.ΦA at h
      exact h
    rw [Pipeline.ownSems0_none]
    iintro H
    ihave H' := hback $$ H
    icases H' with ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V19 m ρ c) (V20 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8: entered from every unscoped buffer at W20, left at W21; its arrays split out of the unscoped buffers and put
    back at the exit contents; the generator register and the untouched rest into its invariant and out; nothing owed. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (R8.body_obligation (V20 m ρ) c).loose
  hwaits := Pipeline.hwaits_of_owed_zero _ _ _ _ L lv 8 fun _ _ => rfl
  pre c := iprop(StableHlo.held (c : Thread nD τ) (Pipeline.ucRefs τ sig) (W20 m ρ c) ∗ R c)
  post c := iprop(StableHlo.held (c : Thread nD τ) (Pipeline.ucRefs τ sig) (W21 m ρ c) ∗ R c)
  X c := iprop(∃ r, prngReg c r)
  Y c := iprop(∃ r, prngReg c r)
  Z c := Pipeline.unscopedRest (Ix := Unit) (Name := ℕ) (U := UR sig nD τ) (Lvl := ℕ) spec8 c (V20 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V20 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    have hback : (pdats m ρ 8 c).Φ (Fin.last _) ⊢ (iprop(Pipeline.scopedRest (Ix := Unit) (Name := ℕ) (U := UR sig nD τ) (Lvl := ℕ) (Val := Elt F) spec8 c ∗ ∃ r, prngReg c r) : sProp 𝕄) := by
      have h := R8.hout (V20 m ρ) c
      unfold Pipeline.ΦA at h
      exact h
    rw [Pipeline.ownSems0_none]
    iintro H
    ihave H' := hback $$ H
    icases H' with ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V20 m ρ c) (V21 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .region (reg1 m ρ),
    .region (reg2 m ρ),
    .host (hseg hostOps3 hostOps3_sub hostOps3_fresh (W7 m ρ)),
    .host (hseg hostOps3_1 hostOps3_1_sub hostOps3_1_fresh (W8 m ρ)),
    .host (hseg hostOps3_2 hostOps3_2_sub hostOps3_2_fresh (W9 m ρ)),
    .host (hseg hostOps3_3 hostOps3_3_sub hostOps3_3_fresh (W10 m ρ)),
    .region (reg3 m ρ),
    .region (reg4 m ρ),
    .region (reg5 m ρ),
    .host (hseg hostOps6 hostOps6_sub hostOps6_fresh (W14 m ρ)),
    .host (hseg hostOps6_1 hostOps6_1_sub hostOps6_1_fresh (W15 m ρ)),
    .host (hseg hostOps6_2 hostOps6_2_sub hostOps6_2_fresh (W16 m ρ)),
    .host (hseg hostOps6_3 hostOps6_3_sub hostOps6_3_fresh (W17 m ρ)),
    .region (reg6 m ρ),
    .region (reg7 m ρ),
    .region (reg8 m ρ),
    .host (hseg hostOps9 hostOps9_sub hostOps9_fresh (W21 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates, nothing
    faulting, and every final state holds every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W22 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (StableHlo.after hostOps9 (W21 m ρ c)) ∗ R c) : sProp 𝕄) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c => h c)

/-! ## The arguments end as launched: no stretch writes one, and a region reads one through an input window or not at all -/

theorem W22_arg0 (c : Dev nD) : W22 m ρ c (Proc.devRef .tc main_arg0) = m ((c : Thread nD τ).loc main_arg0) :=
  calc W22 m ρ c (Proc.devRef .tc main_arg0)
    _ = W21 m ρ c (Proc.devRef .tc main_arg0) := W22_keep m ρ c main_arg0 (by decide)
    _ = W20 m ρ c (Proc.devRef .tc main_arg0) := W21_of_ne m ρ c main_arg0 (by decide)
    _ = W19 m ρ c (Proc.devRef .tc main_arg0) := W20_of_ne m ρ c main_arg0 (by decide)
    _ = W18 m ρ c (Proc.devRef .tc main_arg0) := W19_of_ne m ρ c main_arg0 (by decide)
    _ = W17 m ρ c (Proc.devRef .tc main_arg0) := W18_keep m ρ c main_arg0 (by decide)
    _ = W16 m ρ c (Proc.devRef .tc main_arg0) := W17_keep m ρ c main_arg0 (by decide)
    _ = W15 m ρ c (Proc.devRef .tc main_arg0) := W16_keep m ρ c main_arg0 (by decide)
    _ = W14 m ρ c (Proc.devRef .tc main_arg0) := W15_keep m ρ c main_arg0 (by decide)
    _ = W13 m ρ c (Proc.devRef .tc main_arg0) := W14_of_ne m ρ c main_arg0 (by decide)
    _ = W12 m ρ c (Proc.devRef .tc main_arg0) := W13_of_ne m ρ c main_arg0 (by decide)
    _ = W11 m ρ c (Proc.devRef .tc main_arg0) := W12_of_ne m ρ c main_arg0 (by decide)
    _ = W10 m ρ c (Proc.devRef .tc main_arg0) := W11_keep m ρ c main_arg0 (by decide)
    _ = W9 m ρ c (Proc.devRef .tc main_arg0) := W10_keep m ρ c main_arg0 (by decide)
    _ = W8 m ρ c (Proc.devRef .tc main_arg0) := W9_keep m ρ c main_arg0 (by decide)
    _ = W7 m ρ c (Proc.devRef .tc main_arg0) := W8_keep m ρ c main_arg0 (by decide)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := W5_of_ne m ρ c main_arg0 (by decide)
    _ = W3 m ρ c (Proc.devRef .tc main_arg0) := W4_keep m ρ c main_arg0 (by decide)
    _ = W2 m ρ c (Proc.devRef .tc main_arg0) := W3_keep m ρ c main_arg0 (by decide)
    _ = W1 m ρ c (Proc.devRef .tc main_arg0) := W2_keep m ρ c main_arg0 (by decide)
    _ = W0 m ρ c (Proc.devRef .tc main_arg0) := W1_keep m ρ c main_arg0 (by decide)
    _ = m ((c : Thread nD τ).loc main_arg0) := rfl

theorem W22_arg1 (c : Dev nD) : W22 m ρ c (Proc.devRef .tc main_arg1) = m ((c : Thread nD τ).loc main_arg1) :=
  calc W22 m ρ c (Proc.devRef .tc main_arg1)
    _ = W21 m ρ c (Proc.devRef .tc main_arg1) := W22_keep m ρ c main_arg1 (by decide)
    _ = W20 m ρ c (Proc.devRef .tc main_arg1) := W21_of_ne m ρ c main_arg1 (by decide)
    _ = W19 m ρ c (Proc.devRef .tc main_arg1) := W20_of_ne m ρ c main_arg1 (by decide)
    _ = W18 m ρ c (Proc.devRef .tc main_arg1) := W19_of_ne m ρ c main_arg1 (by decide)
    _ = W17 m ρ c (Proc.devRef .tc main_arg1) := W18_keep m ρ c main_arg1 (by decide)
    _ = W16 m ρ c (Proc.devRef .tc main_arg1) := W17_keep m ρ c main_arg1 (by decide)
    _ = W15 m ρ c (Proc.devRef .tc main_arg1) := W16_keep m ρ c main_arg1 (by decide)
    _ = W14 m ρ c (Proc.devRef .tc main_arg1) := W15_keep m ρ c main_arg1 (by decide)
    _ = W13 m ρ c (Proc.devRef .tc main_arg1) := W14_of_ne m ρ c main_arg1 (by decide)
    _ = W12 m ρ c (Proc.devRef .tc main_arg1) := W13_of_ne m ρ c main_arg1 (by decide)
    _ = W11 m ρ c (Proc.devRef .tc main_arg1) := W12_of_ne m ρ c main_arg1 (by decide)
    _ = W10 m ρ c (Proc.devRef .tc main_arg1) := W11_keep m ρ c main_arg1 (by decide)
    _ = W9 m ρ c (Proc.devRef .tc main_arg1) := W10_keep m ρ c main_arg1 (by decide)
    _ = W8 m ρ c (Proc.devRef .tc main_arg1) := W9_keep m ρ c main_arg1 (by decide)
    _ = W7 m ρ c (Proc.devRef .tc main_arg1) := W8_keep m ρ c main_arg1 (by decide)
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := W5_of_ne m ρ c main_arg1 (by decide)
    _ = W3 m ρ c (Proc.devRef .tc main_arg1) := W4_keep m ρ c main_arg1 (by decide)
    _ = W2 m ρ c (Proc.devRef .tc main_arg1) := W3_keep m ρ c main_arg1 (by decide)
    _ = W1 m ρ c (Proc.devRef .tc main_arg1) := W2_keep m ρ c main_arg1 (by decide)
    _ = W0 m ρ c (Proc.devRef .tc main_arg1) := W1_keep m ρ c main_arg1 (by decide)
    _ = m ((c : Thread nD τ).loc main_arg1) := rfl

theorem W22_arg2 (c : Dev nD) : W22 m ρ c (Proc.devRef .tc main_arg2) = m ((c : Thread nD τ).loc main_arg2) :=
  calc W22 m ρ c (Proc.devRef .tc main_arg2)
    _ = W21 m ρ c (Proc.devRef .tc main_arg2) := W22_keep m ρ c main_arg2 (by decide)
    _ = W20 m ρ c (Proc.devRef .tc main_arg2) := W21_of_ne m ρ c main_arg2 (by decide)
    _ = W19 m ρ c (Proc.devRef .tc main_arg2) := W20_of_ne m ρ c main_arg2 (by decide)
    _ = W18 m ρ c (Proc.devRef .tc main_arg2) := W19_of_ne m ρ c main_arg2 (by decide)
    _ = W17 m ρ c (Proc.devRef .tc main_arg2) := W18_keep m ρ c main_arg2 (by decide)
    _ = W16 m ρ c (Proc.devRef .tc main_arg2) := W17_keep m ρ c main_arg2 (by decide)
    _ = W15 m ρ c (Proc.devRef .tc main_arg2) := W16_keep m ρ c main_arg2 (by decide)
    _ = W14 m ρ c (Proc.devRef .tc main_arg2) := W15_keep m ρ c main_arg2 (by decide)
    _ = W13 m ρ c (Proc.devRef .tc main_arg2) := W14_of_ne m ρ c main_arg2 (by decide)
    _ = W12 m ρ c (Proc.devRef .tc main_arg2) := W13_of_ne m ρ c main_arg2 (by decide)
    _ = W11 m ρ c (Proc.devRef .tc main_arg2) := W12_of_ne m ρ c main_arg2 (by decide)
    _ = W10 m ρ c (Proc.devRef .tc main_arg2) := W11_keep m ρ c main_arg2 (by decide)
    _ = W9 m ρ c (Proc.devRef .tc main_arg2) := W10_keep m ρ c main_arg2 (by decide)
    _ = W8 m ρ c (Proc.devRef .tc main_arg2) := W9_keep m ρ c main_arg2 (by decide)
    _ = W7 m ρ c (Proc.devRef .tc main_arg2) := W8_keep m ρ c main_arg2 (by decide)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := W5_in m ρ c 1 rfl
    _ = W3 m ρ c (Proc.devRef .tc main_arg2) := W4_keep m ρ c main_arg2 (by decide)
    _ = W2 m ρ c (Proc.devRef .tc main_arg2) := W3_keep m ρ c main_arg2 (by decide)
    _ = W1 m ρ c (Proc.devRef .tc main_arg2) := W2_keep m ρ c main_arg2 (by decide)
    _ = W0 m ρ c (Proc.devRef .tc main_arg2) := W1_keep m ρ c main_arg2 (by decide)
    _ = m ((c : Thread nD τ).loc main_arg2) := rfl

theorem W22_arg3 (c : Dev nD) : W22 m ρ c (Proc.devRef .tc main_arg3) = m ((c : Thread nD τ).loc main_arg3) :=
  calc W22 m ρ c (Proc.devRef .tc main_arg3)
    _ = W21 m ρ c (Proc.devRef .tc main_arg3) := W22_keep m ρ c main_arg3 (by decide)
    _ = W20 m ρ c (Proc.devRef .tc main_arg3) := W21_of_ne m ρ c main_arg3 (by decide)
    _ = W19 m ρ c (Proc.devRef .tc main_arg3) := W20_of_ne m ρ c main_arg3 (by decide)
    _ = W18 m ρ c (Proc.devRef .tc main_arg3) := W19_of_ne m ρ c main_arg3 (by decide)
    _ = W17 m ρ c (Proc.devRef .tc main_arg3) := W18_keep m ρ c main_arg3 (by decide)
    _ = W16 m ρ c (Proc.devRef .tc main_arg3) := W17_keep m ρ c main_arg3 (by decide)
    _ = W15 m ρ c (Proc.devRef .tc main_arg3) := W16_keep m ρ c main_arg3 (by decide)
    _ = W14 m ρ c (Proc.devRef .tc main_arg3) := W15_keep m ρ c main_arg3 (by decide)
    _ = W13 m ρ c (Proc.devRef .tc main_arg3) := W14_of_ne m ρ c main_arg3 (by decide)
    _ = W12 m ρ c (Proc.devRef .tc main_arg3) := W13_of_ne m ρ c main_arg3 (by decide)
    _ = W11 m ρ c (Proc.devRef .tc main_arg3) := W12_of_ne m ρ c main_arg3 (by decide)
    _ = W10 m ρ c (Proc.devRef .tc main_arg3) := W11_keep m ρ c main_arg3 (by decide)
    _ = W9 m ρ c (Proc.devRef .tc main_arg3) := W10_keep m ρ c main_arg3 (by decide)
    _ = W8 m ρ c (Proc.devRef .tc main_arg3) := W9_keep m ρ c main_arg3 (by decide)
    _ = W7 m ρ c (Proc.devRef .tc main_arg3) := W8_keep m ρ c main_arg3 (by decide)
    _ = W6 m ρ c (Proc.devRef .tc main_arg3) := W7_in m ρ c 2 rfl
    _ = W5 m ρ c (Proc.devRef .tc main_arg3) := W6_of_ne m ρ c main_arg3 (by decide)
    _ = W4 m ρ c (Proc.devRef .tc main_arg3) := W5_of_ne m ρ c main_arg3 (by decide)
    _ = W3 m ρ c (Proc.devRef .tc main_arg3) := W4_keep m ρ c main_arg3 (by decide)
    _ = W2 m ρ c (Proc.devRef .tc main_arg3) := W3_keep m ρ c main_arg3 (by decide)
    _ = W1 m ρ c (Proc.devRef .tc main_arg3) := W2_keep m ρ c main_arg3 (by decide)
    _ = W0 m ρ c (Proc.devRef .tc main_arg3) := W1_keep m ρ c main_arg3 (by decide)
    _ = m ((c : Thread nD τ).loc main_arg3) := rfl

theorem W22_arg4 (c : Dev nD) : W22 m ρ c (Proc.devRef .tc main_arg4) = m ((c : Thread nD τ).loc main_arg4) :=
  calc W22 m ρ c (Proc.devRef .tc main_arg4)
    _ = W21 m ρ c (Proc.devRef .tc main_arg4) := W22_keep m ρ c main_arg4 (by decide)
    _ = W20 m ρ c (Proc.devRef .tc main_arg4) := W21_of_ne m ρ c main_arg4 (by decide)
    _ = W19 m ρ c (Proc.devRef .tc main_arg4) := W20_of_ne m ρ c main_arg4 (by decide)
    _ = W18 m ρ c (Proc.devRef .tc main_arg4) := W19_of_ne m ρ c main_arg4 (by decide)
    _ = W17 m ρ c (Proc.devRef .tc main_arg4) := W18_keep m ρ c main_arg4 (by decide)
    _ = W16 m ρ c (Proc.devRef .tc main_arg4) := W17_keep m ρ c main_arg4 (by decide)
    _ = W15 m ρ c (Proc.devRef .tc main_arg4) := W16_keep m ρ c main_arg4 (by decide)
    _ = W14 m ρ c (Proc.devRef .tc main_arg4) := W15_keep m ρ c main_arg4 (by decide)
    _ = W13 m ρ c (Proc.devRef .tc main_arg4) := W14_of_ne m ρ c main_arg4 (by decide)
    _ = W12 m ρ c (Proc.devRef .tc main_arg4) := W13_of_ne m ρ c main_arg4 (by decide)
    _ = W11 m ρ c (Proc.devRef .tc main_arg4) := W12_in m ρ c 1 rfl
    _ = W10 m ρ c (Proc.devRef .tc main_arg4) := W11_keep m ρ c main_arg4 (by decide)
    _ = W9 m ρ c (Proc.devRef .tc main_arg4) := W10_keep m ρ c main_arg4 (by decide)
    _ = W8 m ρ c (Proc.devRef .tc main_arg4) := W9_keep m ρ c main_arg4 (by decide)
    _ = W7 m ρ c (Proc.devRef .tc main_arg4) := W8_keep m ρ c main_arg4 (by decide)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := W5_of_ne m ρ c main_arg4 (by decide)
    _ = W3 m ρ c (Proc.devRef .tc main_arg4) := W4_keep m ρ c main_arg4 (by decide)
    _ = W2 m ρ c (Proc.devRef .tc main_arg4) := W3_keep m ρ c main_arg4 (by decide)
    _ = W1 m ρ c (Proc.devRef .tc main_arg4) := W2_keep m ρ c main_arg4 (by decide)
    _ = W0 m ρ c (Proc.devRef .tc main_arg4) := W1_keep m ρ c main_arg4 (by decide)
    _ = m ((c : Thread nD τ).loc main_arg4) := rfl

theorem W22_arg5 (c : Dev nD) : W22 m ρ c (Proc.devRef .tc main_arg5) = m ((c : Thread nD τ).loc main_arg5) :=
  calc W22 m ρ c (Proc.devRef .tc main_arg5)
    _ = W21 m ρ c (Proc.devRef .tc main_arg5) := W22_keep m ρ c main_arg5 (by decide)
    _ = W20 m ρ c (Proc.devRef .tc main_arg5) := W21_of_ne m ρ c main_arg5 (by decide)
    _ = W19 m ρ c (Proc.devRef .tc main_arg5) := W20_of_ne m ρ c main_arg5 (by decide)
    _ = W18 m ρ c (Proc.devRef .tc main_arg5) := W19_of_ne m ρ c main_arg5 (by decide)
    _ = W17 m ρ c (Proc.devRef .tc main_arg5) := W18_keep m ρ c main_arg5 (by decide)
    _ = W16 m ρ c (Proc.devRef .tc main_arg5) := W17_keep m ρ c main_arg5 (by decide)
    _ = W15 m ρ c (Proc.devRef .tc main_arg5) := W16_keep m ρ c main_arg5 (by decide)
    _ = W14 m ρ c (Proc.devRef .tc main_arg5) := W15_keep m ρ c main_arg5 (by decide)
    _ = W13 m ρ c (Proc.devRef .tc main_arg5) := W14_in m ρ c 2 rfl
    _ = W12 m ρ c (Proc.devRef .tc main_arg5) := W13_of_ne m ρ c main_arg5 (by decide)
    _ = W11 m ρ c (Proc.devRef .tc main_arg5) := W12_of_ne m ρ c main_arg5 (by decide)
    _ = W10 m ρ c (Proc.devRef .tc main_arg5) := W11_keep m ρ c main_arg5 (by decide)
    _ = W9 m ρ c (Proc.devRef .tc main_arg5) := W10_keep m ρ c main_arg5 (by decide)
    _ = W8 m ρ c (Proc.devRef .tc main_arg5) := W9_keep m ρ c main_arg5 (by decide)
    _ = W7 m ρ c (Proc.devRef .tc main_arg5) := W8_keep m ρ c main_arg5 (by decide)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := W5_of_ne m ρ c main_arg5 (by decide)
    _ = W3 m ρ c (Proc.devRef .tc main_arg5) := W4_keep m ρ c main_arg5 (by decide)
    _ = W2 m ρ c (Proc.devRef .tc main_arg5) := W3_keep m ρ c main_arg5 (by decide)
    _ = W1 m ρ c (Proc.devRef .tc main_arg5) := W2_keep m ρ c main_arg5 (by decide)
    _ = W0 m ρ c (Proc.devRef .tc main_arg5) := W1_keep m ρ c main_arg5 (by decide)
    _ = m ((c : Thread nD τ).loc main_arg5) := rfl

theorem W22_arg6 (c : Dev nD) : W22 m ρ c (Proc.devRef .tc main_arg6) = m ((c : Thread nD τ).loc main_arg6) :=
  calc W22 m ρ c (Proc.devRef .tc main_arg6)
    _ = W21 m ρ c (Proc.devRef .tc main_arg6) := W22_keep m ρ c main_arg6 (by decide)
    _ = W20 m ρ c (Proc.devRef .tc main_arg6) := W21_of_ne m ρ c main_arg6 (by decide)
    _ = W19 m ρ c (Proc.devRef .tc main_arg6) := W20_of_ne m ρ c main_arg6 (by decide)
    _ = W18 m ρ c (Proc.devRef .tc main_arg6) := W19_in m ρ c 1 rfl
    _ = W17 m ρ c (Proc.devRef .tc main_arg6) := W18_keep m ρ c main_arg6 (by decide)
    _ = W16 m ρ c (Proc.devRef .tc main_arg6) := W17_keep m ρ c main_arg6 (by decide)
    _ = W15 m ρ c (Proc.devRef .tc main_arg6) := W16_keep m ρ c main_arg6 (by decide)
    _ = W14 m ρ c (Proc.devRef .tc main_arg6) := W15_keep m ρ c main_arg6 (by decide)
    _ = W13 m ρ c (Proc.devRef .tc main_arg6) := W14_of_ne m ρ c main_arg6 (by decide)
    _ = W12 m ρ c (Proc.devRef .tc main_arg6) := W13_of_ne m ρ c main_arg6 (by decide)
    _ = W11 m ρ c (Proc.devRef .tc main_arg6) := W12_of_ne m ρ c main_arg6 (by decide)
    _ = W10 m ρ c (Proc.devRef .tc main_arg6) := W11_keep m ρ c main_arg6 (by decide)
    _ = W9 m ρ c (Proc.devRef .tc main_arg6) := W10_keep m ρ c main_arg6 (by decide)
    _ = W8 m ρ c (Proc.devRef .tc main_arg6) := W9_keep m ρ c main_arg6 (by decide)
    _ = W7 m ρ c (Proc.devRef .tc main_arg6) := W8_keep m ρ c main_arg6 (by decide)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := W5_of_ne m ρ c main_arg6 (by decide)
    _ = W3 m ρ c (Proc.devRef .tc main_arg6) := W4_keep m ρ c main_arg6 (by decide)
    _ = W2 m ρ c (Proc.devRef .tc main_arg6) := W3_keep m ρ c main_arg6 (by decide)
    _ = W1 m ρ c (Proc.devRef .tc main_arg6) := W2_keep m ρ c main_arg6 (by decide)
    _ = W0 m ρ c (Proc.devRef .tc main_arg6) := W1_keep m ρ c main_arg6 (by decide)
    _ = m ((c : Thread nD τ).loc main_arg6) := rfl

theorem W22_arg7 (c : Dev nD) : W22 m ρ c (Proc.devRef .tc main_arg7) = m ((c : Thread nD τ).loc main_arg7) :=
  calc W22 m ρ c (Proc.devRef .tc main_arg7)
    _ = W21 m ρ c (Proc.devRef .tc main_arg7) := W22_keep m ρ c main_arg7 (by decide)
    _ = W20 m ρ c (Proc.devRef .tc main_arg7) := W21_in m ρ c 2 rfl
    _ = W19 m ρ c (Proc.devRef .tc main_arg7) := W20_of_ne m ρ c main_arg7 (by decide)
    _ = W18 m ρ c (Proc.devRef .tc main_arg7) := W19_of_ne m ρ c main_arg7 (by decide)
    _ = W17 m ρ c (Proc.devRef .tc main_arg7) := W18_keep m ρ c main_arg7 (by decide)
    _ = W16 m ρ c (Proc.devRef .tc main_arg7) := W17_keep m ρ c main_arg7 (by decide)
    _ = W15 m ρ c (Proc.devRef .tc main_arg7) := W16_keep m ρ c main_arg7 (by decide)
    _ = W14 m ρ c (Proc.devRef .tc main_arg7) := W15_keep m ρ c main_arg7 (by decide)
    _ = W13 m ρ c (Proc.devRef .tc main_arg7) := W14_of_ne m ρ c main_arg7 (by decide)
    _ = W12 m ρ c (Proc.devRef .tc main_arg7) := W13_of_ne m ρ c main_arg7 (by decide)
    _ = W11 m ρ c (Proc.devRef .tc main_arg7) := W12_of_ne m ρ c main_arg7 (by decide)
    _ = W10 m ρ c (Proc.devRef .tc main_arg7) := W11_keep m ρ c main_arg7 (by decide)
    _ = W9 m ρ c (Proc.devRef .tc main_arg7) := W10_keep m ρ c main_arg7 (by decide)
    _ = W8 m ρ c (Proc.devRef .tc main_arg7) := W9_keep m ρ c main_arg7 (by decide)
    _ = W7 m ρ c (Proc.devRef .tc main_arg7) := W8_keep m ρ c main_arg7 (by decide)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := W5_of_ne m ρ c main_arg7 (by decide)
    _ = W3 m ρ c (Proc.devRef .tc main_arg7) := W4_keep m ρ c main_arg7 (by decide)
    _ = W2 m ρ c (Proc.devRef .tc main_arg7) := W3_keep m ρ c main_arg7 (by decide)
    _ = W1 m ρ c (Proc.devRef .tc main_arg7) := W2_keep m ρ c main_arg7 (by decide)
    _ = W0 m ρ c (Proc.devRef .tc main_arg7) := W1_keep m ρ c main_arg7 (by decide)
    _ = m ((c : Thread nD τ).loc main_arg7) := rfl

/-- THE FRAME: every weakly fair execution terminates, nothing faulting, with the eight argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)) :=
  (θ_run defs _ _).mono (fun r h c => ⟨(h c _ (mem_uc main_arg0 (by decide))).trans (W22_arg0 m ρ c),
    (h c _ (mem_uc main_arg1 (by decide))).trans (W22_arg1 m ρ c),
    (h c _ (mem_uc main_arg2 (by decide))).trans (W22_arg2 m ρ c),
    (h c _ (mem_uc main_arg3 (by decide))).trans (W22_arg3 m ρ c),
    (h c _ (mem_uc main_arg4 (by decide))).trans (W22_arg4 m ρ c),
    (h c _ (mem_uc main_arg5 (by decide))).trans (W22_arg5 m ρ c),
    (h c _ (mem_uc main_arg6 (by decide))).trans (W22_arg6 m ρ c),
    (h c _ (mem_uc main_arg7 (by decide))).trans (W22_arg7 m ρ c)⟩) (run_all m ρ)

/-- THE RUN WITH THE RESULT NAMED: the result buffer ends at the last valuation's contents, the arguments as launched. -/
theorem run_result : θ_run defs (onTc (τ := τ) (main (F := F))) ⟨m, fun _ => 0, ρ⟩ (fun r => ∀ c : Dev nD,
      r.2.mem ((c.tc : Thread nD τ).loc main_v52) = W22 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨h c _ (mem_uc main_v52 (by decide)), (h c _ (mem_uc main_arg0 (by decide))).trans (W22_arg0 m ρ c),
    (h c _ (mem_uc main_arg1 (by decide))).trans (W22_arg1 m ρ c),
    (h c _ (mem_uc main_arg2 (by decide))).trans (W22_arg2 m ρ c),
    (h c _ (mem_uc main_arg3 (by decide))).trans (W22_arg3 m ρ c),
    (h c _ (mem_uc main_arg4 (by decide))).trans (W22_arg4 m ρ c),
    (h c _ (mem_uc main_arg5 (by decide))).trans (W22_arg5 m ρ c),
    (h c _ (mem_uc main_arg6 (by decide))).trans (W22_arg6 m ρ c),
    (h c _ (mem_uc main_arg7 (by decide))).trans (W22_arg7 m ρ c)⟩) (run_all m ρ)

end Cert.KernelIdeal.Run

end
-- ==== Proof.BRegion0.lean ====
/-
  The dense transform's region (kernel call 0), on every core, at any float values, from any contents `V` of the
  TensorCore's buffers at its entry.

  Its grid has 13 points, one per tile of 8192 node rows.  At point t the pipeline hands the body the t-th tile of the
  padded node table (window 0, fetched at every point), the whole weight matrix (window 1, fetched once: its block does
  not move) and a staging buffer for the t-th tile of the result (window 2, written back at every point).  The body
  loads the two inputs, looks at the result's buffer, and stores the product over the whole buffer: after it the
  result's buffer holds the one stored piece, the product of the two input blocks, and the inputs' buffers are as
  found.  It keeps nothing between points, so the region's invariant is the untouched rest (the scoped buffers no
  window stages, the generator register).
-/
import proofs.«155233_j36086315221040_1_alg».proof.Proof.Gen.Kernel.Launch
import proofs.«155233_j36086315221040_1_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The node tile's staging buffer holds its block at every point. -/
theorem found_0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The weight matrix's staging buffer holds the matrix at every point, fetched there or not: its block never moves. -/
theorem found_1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The whole-buffer rectangles the body loads and stores through. -/
abbrev rX : Rect S8192x64 := Rect.unit (s := S8192x64) ![0, 0] S8192x64.size inb_S8192x64_S8192x64_0_0
abbrev rW : Rect S64x64 := Rect.unit (s := S64x64) ![0, 0] S64x64.size inb_S64x64_S64x64_0_0
abbrev rO : Rect S8192x64 := Rect.unit (s := S8192x64) ![0, 0] S8192x64.size inb_S8192x64_S8192x64_0_0

/-- What the body leaves in the result's staging buffer: its one store, the product of the two loaded blocks. -/
def product (x0 : Vec F S8192x64 .f32) (x1 : Vec F S64x64 .f32) : Vec F S8192x64 .f32 :=
  View.canon [⟨rO, k0_pay1 (View.ld x0 rX) (View.ld x1 rW)⟩]

/-- The one store is over the whole buffer. -/
theorem product_cover (p0 : Vec F S8192x64 .f32) (y : S8192x64.Idx) :
    ∃ pc ∈ ([⟨rO, p0⟩] : List (View.Piece (Elt F) S8192x64 .f32)), y ∈ pc.1.set :=
  View.cover_of_tiled [⟨rO, p0⟩] S8192x64.size (by rfl) y

set_option maxHeartbeats 1000000 in
/-- The body on whole staging memrefs: from the inputs at their contents and the result's buffer at anything, it runs to
    the inputs as they were and the result's buffer at the product. -/
theorem body_run (c : Dev nD) (E : Set ℕ) (i : grid0.Coords)
    (arg1 : Memref sig .tc .vmem S8192x64 .f32) (harg1 : arg1.IsWhole) (arg2 : Memref sig .tc .vmem S64x64 .f32) (harg2 : arg2.IsWhole)
    (arg3 : Memref sig .tc .vmem S8192x64 .f32) (harg3 : arg3.IsWhole)
    (x0 : Vec F S8192x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (product x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (product_cover _)

/-- The region's proof data on core c: the arrays as the region finds them; after the body at point t each input's
    buffer at its block and the result's at the product of the two; the invariant the untouched rest; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => product (blk V c 0 t) (blk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = product (blk V c 0 t) (blk V c 1 t) := by dsimp only [dat]

theorem before_0 (c : Dev nD) (t : Fin cfg0.N) (d) : (dat V c).before 0 t d = blk V c 0 t :=
  found_0 V (dat V c) (A_eq V c 0) (after_0 V c) t d
theorem before_1 (c : Dev nD) (t : Fin cfg0.N) (d) : (dat V c).before 1 t d = blk V c 1 t :=
  found_1 V (dat V c) (A_eq V c 1) (after_1 V c) t d

/-- The current staging memref of each window at point t, and the body as the pipeline calls it there. -/
abbrev st_0 (t : Fin cfg0.N) := (cfg0.win 0).stage (cfg0.slots t 0)
abbrev st_1 (t : Fin cfg0.N) := (cfg0.win 1).stage (cfg0.slots t 1)
abbrev st_2 (t : Fin cfg0.N) := (cfg0.win 2).stage (cfg0.slots t 2)
abbrev bodyAt (t : Fin cfg0.N) : Prog (TpuEff nD τ sig (Elt F) Λ₀ .tc) PUnit :=
  cc0__linear_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2))

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (st_0 t) fullShare ((dat V c).before 0 t d))
    ∗ (∃ d, owns (c : Thread nD τ) (st_1 t) fullShare ((dat V c).before 1 t d))
    ∗ (∃ d, owns (c : Thread nD τ) (st_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st_0 t) fullShare ((dat V c).after 0 t)
    ∗ owns (c : Thread nD τ) (st_1 t) fullShare ((dat V c).after 1 t)
    ∗ owns (c : Thread nD τ) (st_2 t) fullShare ((dat V c).after 2 t))

/-- The body at any point: the inputs' buffers hold their blocks, so the run applies; the invariant and the core's
    dues pass through unread. -/
theorem body_at (c : Dev nD) (t : Fin cfg0.N) :
    bodyPre V c t ⊢ wp frame (wpE (defs₀ (F := F)) Variants.none c none) Set.univ (bodyAt t) (fun _ => bodyPost V c t) := by
  unfold bodyPre bodyPost bodyAt
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (body_run c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact body_at V c t

/-- The region keeps nothing between points: its invariant is the untouched rest at both ends. -/
theorem hin (c : Dev nD) : Pipeline.ΦA spec0 c ⊢ (dat V c).Φ 0 := BI.Entails.refl _
theorem hout (c : Dev nD) : (dat V c).Φ (Fin.last cfg0.N) ⊢ Pipeline.ΦA spec0 c := BI.Entails.refl _

end Cert.Kernel.R0

end
-- ==== Proof.BRegion1.lean ====
/-
  The gather's region (kernel call 1), on every core, at any float values, from any contents `V` of the TensorCore's
  buffers at its entry.

  Its grid has 1661 × 13 points: an edge tile of 1024 edges, and for it the 13 tiles of 8192 rows of the padded node
  table, innermost.  At a point the body is handed the tile's source words (window 0) and edge weights (window 1), both
  fetched when the edge tile changes, the table tile (window 2, fetched at every point), a staging buffer for the tile
  of the result (window 3, written back at the edge tile's last point only) and a scratch block that it carries from
  point to point.  Three cases, by the table tile's number k = t mod 13:
    first  (k = 0):   the scratch is stored zero, then the tile's one-hot product is added into it;
    middle (0<k<12):  the product is added into the scratch as the point before left it;
    last   (k = 12):  the same, and then the scratch times the weights is stored over the whole result buffer.
  At the first two the result's buffer is idle: handed back as found and not written back.  After every point the
  scratch holds what the case's stores leave, read back; the region's invariant carries it.
-/
import proofs.«155233_j36086315221040_1_alg».proof.Proof.Gen.Kernel.Launch
import proofs.«155233_j36086315221040_1_alg».proof.Proof.Gen.Kernel.Skeleton
import proofs.«155233_j36086315221040_1_alg».proof.Proof.GridFacts
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's staging buffer holds its block at every point, fetched there or not (a block not fetched has not moved). -/
theorem found_0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found_1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found_2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's two conditions, decided over the grid -/

/-- "This is the edge tile's first table tile", as the body computes it from the grid coordinates. -/
abbrev isFirst (i : grid1.Coords) : Prop := (Scalar.cmpi .ne (Scalar.extui (Scalar.cmpi .eq (BitVec.ofNat 32 (i 1).val) 0#32)) 0#32) = 1#1
theorem isFirst_iff : ∀ t : Fin cfg1.N, isFirst (grid1.coords t) ↔ t.val % 13 = 0 :=
  Cert.Proof.GridFacts.gather_first
/-- "This is its last table tile". -/
abbrev isLast (i : grid1.Coords) : Prop := k1_cond2 i = 1#1
theorem isLast_iff : ∀ t : Fin cfg1.N, isLast (grid1.coords t) ↔ t.val % 13 = 12 :=
  Cert.Proof.GridFacts.gather_last

/-- The result's block is written back exactly at the last inner point. -/
theorem flush_3 : ∀ t : Fin cfg1.N, (cfg1.win 3).flush t = true ↔ t.val % 13 = 12 :=
  Cert.Proof.GridFacts.gather_flush
/-- The body as the pipeline calls it at point t. -/
abbrev bodyAt (t : Fin cfg1.N) : Prog (TpuEff nD τ sig (Elt F) Λ₀ .tc) PUnit :=
  cc1__gather_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _)

/-- Where the result's window is idle: exactly off the last table tile (the configuration's table is the negated test). -/
theorem idle_3 (i : grid1.Coords) (h : ¬isLast i) : cfg1.idle 3 i = true := by
  show (!(k1_cond2 i == 1#1)) = true
  simp only [Bool.not_eq_true', beq_eq_false_iff_ne, ne_eq]; exact h
theorem live_3 (i : grid1.Coords) (h : isLast i) : cfg1.idle 3 i = false := by
  show (!(k1_cond2 i == 1#1)) = false
  simp only [Bool.not_eq_false', beq_iff_eq]; exact h
/-- Off the last table tile the result's block is not written back. -/
theorem noFlush_3 (t : Fin cfg1.N) (h : ¬isLast (grid1.coords t)) : (cfg1.win 3).flush t = false := by
  have := flush_3 t
  cases hf : (cfg1.win 3).flush t
  · rfl
  · exact absurd ((isLast_iff t).mpr (this.mp hf)) h

/-! ## The staging and scratch memrefs -/

abbrev VO : View sig .tc .vmem S1024x64 .f32 := (Memref.whole cc1_stg3_0 : Memref sig .tc .vmem S1024x64 .f32).view
abbrev ms_0 (t : Fin cfg1.N) : Memref sig .tc .vmem S1024 .i32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1024 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S8192x64 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1024x64 .f32 := win1_3.stage (cfg1.slots t 3)
abbrev hs_3 (t : Fin cfg1.N) : (ms_3 t).IsWhole := hstage1_3 ((cfg1.slots t 3).cast nbuf1_3)
/-- The scratch block the body carries between points. -/
abbrev scM : Memref sig .tc .vmem S1024x64 .f32 := Memref.whole cc1_scratch0
abbrev VS : View sig .tc .vmem S1024x64 .f32 := (scM).view

/-- The untouched rest with the scratch block taken out of it, owned at some contents. -/
theorem rest_eq (c : Dev nD) :
    (Pipeline.ΦA spec1 c : sProp 𝕄)
      = iprop(iprop((∃ d, owns (c : Thread nD τ) scM fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM, owns_whole]
  try rfl

/-! ## The body, case by case: the pieces each buffer ends with are what the run finds -/

set_option maxHeartbeats 2000000 in
/-- FIRST table tile of an edge tile: the scratch at anything, the result's buffer handed back untouched. -/
noncomputable def run_first (c : Dev nD) (i : grid1.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole)
    (hc0 : isFirst i) (hc1 : ¬isLast i) (x0 : Vec F S1024 .i32) (x1 : Vec F S1024 .f32) (x2 : Vec F S8192x64 .f32) :
    Σ' (L3 : List (View.Piece (Elt F) S1024x64 .f32)), { LS : List (View.Piece (Elt F) S1024x64 .f32) //
      ∀ (xi3 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E (cc1__gather_kernel i arg2 harg2 arg3 harg3 arg4 harg4 arg5 harg5 arg6 harg6) K } := by
  refine ⟨[], ?_, fun xi3 E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 2000000 in
/-- A MIDDLE table tile: the scratch at what the point before left, the result's buffer handed back untouched. -/
noncomputable def run_mid (c : Dev nD) (i : grid1.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole)
    (hc0 : ¬isFirst i) (hc1 : ¬isLast i) (x0 : Vec F S1024 .i32) (x1 : Vec F S1024 .f32) (x2 : Vec F S8192x64 .f32) (xs0 : Vec F S1024x64 .f32) :
    Σ' (L3 : List (View.Piece (Elt F) S1024x64 .f32)), { LS : List (View.Piece (Elt F) S1024x64 .f32) //
      ∀ (xi3 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E (cc1__gather_kernel i arg2 harg2 arg3 harg3 arg4 harg4 arg5 harg5 arg6 harg6) K } := by
  refine ⟨[], ?_, fun xi3 E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 2000000 in
/-- The LAST table tile: the scratch at what the point before left, the result's buffer at anything and stored whole. -/
noncomputable def run_last (c : Dev nD) (i : grid1.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole)
    (hc0 : ¬isFirst i) (hc1 : isLast i) (x0 : Vec F S1024 .i32) (x1 : Vec F S1024 .f32) (x2 : Vec F S8192x64 .f32) (xs0 : Vec F S1024x64 .f32) :
    Σ' (L3 : List (View.Piece (Elt F) S1024x64 .f32)), { LS : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc1__gather_kernel i arg2 harg2 arg3 harg3 arg4 harg4 arg5 harg5 arg6 harg6) K } := by
  refine ⟨?_, ?_, fun E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! ## What each case leaves in the scratch block and in the result's buffer -/

theorem scover_first (c : Dev nD) (i : grid1.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole) (hc0 : isFirst i) (hc1 : ¬isLast i) (x0 : Vec F S1024 .i32) (x1 : Vec F S1024 .f32) (x2 : Vec F S8192x64 .f32) (y : S1024x64.Idx) :
    ∃ pc ∈ (run_first c i arg2 harg2 arg3 harg3 arg4 harg4 arg5 harg5 arg6 harg6 hc0 hc1 x0 x1 x2).2.1, y ∈ pc.1.set :=
  View.cover_of_tiledL (run_first c i arg2 harg2 arg3 harg3 arg4 harg4 arg5 harg5 arg6 harg6 hc0 hc1 x0 x1 x2).2.1 S1024x64.size (by sl_kernel_rfl) y
/-- After a first table tile the scratch block holds the case's pieces, read back. -/
def scr_first (c : Dev nD) (i : grid1.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole) (hc0 : isFirst i) (hc1 : ¬isLast i) (x0 : Vec F S1024 .i32) (x1 : Vec F S1024 .f32) (x2 : Vec F S8192x64 .f32) : Vec F S1024x64 .f32 :=
  VS.read (Elt F) (VS.writes (Elt F) VS.junk (run_first c i arg2 harg2 arg3 harg3 arg4 harg4 arg5 harg5 arg6 harg6 hc0 hc1 x0 x1 x2).2.1)

theorem scover_mid (c : Dev nD) (i : grid1.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole) (hc0 : ¬isFirst i) (hc1 : ¬isLast i) (x0 : Vec F S1024 .i32) (x1 : Vec F S1024 .f32) (x2 : Vec F S8192x64 .f32) (xs0 : Vec F S1024x64 .f32) (y : S1024x64.Idx) :
    ∃ pc ∈ (run_mid c i arg2 harg2 arg3 harg3 arg4 harg4 arg5 harg5 arg6 harg6 hc0 hc1 x0 x1 x2 xs0).2.1, y ∈ pc.1.set :=
  View.cover_of_tiledL (run_mid c i arg2 harg2 arg3 harg3 arg4 harg4 arg5 harg5 arg6 harg6 hc0 hc1 x0 x1 x2 xs0).2.1 S1024x64.size (by sl_kernel_rfl) y
def scr_mid (c : Dev nD) (i : grid1.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole) (hc0 : ¬isFirst i) (hc1 : ¬isLast i) (x0 : Vec F S1024 .i32) (x1 : Vec F S1024 .f32) (x2 : Vec F S8192x64 .f32) (xs0 : Vec F S1024x64 .f32) : Vec F S1024x64 .f32 :=
  VS.read (Elt F) (VS.writes (Elt F) VS.junk (run_mid c i arg2 harg2 arg3 harg3 arg4 harg4 arg5 harg5 arg6 harg6 hc0 hc1 x0 x1 x2 xs0).2.1)

theorem scover_last (c : Dev nD) (i : grid1.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole) (hc0 : ¬isFirst i) (hc1 : isLast i) (x0 : Vec F S1024 .i32) (x1 : Vec F S1024 .f32) (x2 : Vec F S8192x64 .f32) (xs0 : Vec F S1024x64 .f32) (y : S1024x64.Idx) :
    ∃ pc ∈ (run_last c i arg2 harg2 arg3 harg3 arg4 harg4 arg5 harg5 arg6 harg6 hc0 hc1 x0 x1 x2 xs0).2.1, y ∈ pc.1.set :=
  View.cover_of_tiledL (run_last c i arg2 harg2 arg3 harg3 arg4 harg4 arg5 harg5 arg6 harg6 hc0 hc1 x0 x1 x2 xs0).2.1 S1024x64.size (by sl_kernel_rfl) y
def scr_last (c : Dev nD) (i : grid1.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole) (hc0 : ¬isFirst i) (hc1 : isLast i) (x0 : Vec F S1024 .i32) (x1 : Vec F S1024 .f32) (x2 : Vec F S8192x64 .f32) (xs0 : Vec F S1024x64 .f32) : Vec F S1024x64 .f32 :=
  VS.read (Elt F) (VS.writes (Elt F) VS.junk (run_last c i arg2 harg2 arg3 harg3 arg4 harg4 arg5 harg5 arg6 harg6 hc0 hc1 x0 x1 x2 xs0).2.1)
theorem ocover_last (c : Dev nD) (i : grid1.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole) (hc0 : ¬isFirst i) (hc1 : isLast i) (x0 : Vec F S1024 .i32) (x1 : Vec F S1024 .f32) (x2 : Vec F S8192x64 .f32) (xs0 : Vec F S1024x64 .f32) (y : S1024x64.Idx) :
    ∃ pc ∈ (run_last c i arg2 harg2 arg3 harg3 arg4 harg4 arg5 harg5 arg6 harg6 hc0 hc1 x0 x1 x2 xs0).1, y ∈ pc.1.set :=
  View.cover_of_tiledL (run_last c i arg2 harg2 arg3 harg3 arg4 harg4 arg5 harg5 arg6 harg6 hc0 hc1 x0 x1 x2 xs0).1 S1024x64.size (by sl_kernel_rfl) y
/-- After a last table tile the result's buffer holds the case's pieces, read back. -/
def out_last (c : Dev nD) (i : grid1.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole) (hc0 : ¬isFirst i) (hc1 : isLast i) (x0 : Vec F S1024 .i32) (x1 : Vec F S1024 .f32) (x2 : Vec F S8192x64 .f32) (xs0 : Vec F S1024x64 .f32) : Vec F S1024x64 .f32 :=
  VO.read (Elt F) (VO.writes (Elt F) VO.junk (run_last c i arg2 harg2 arg3 harg3 arg4 harg4 arg5 harg5 arg6 harg6 hc0 hc1 x0 x1 x2 xs0).1)
/-- Where the result's buffer is idle nothing reads what is recorded for it: a placeholder. -/
def out_idle : Vec F S1024x64 .f32 := VO.read (Elt F) VO.junk

/-! ## Point by point -/

/-- After the body at position n: the result's staging buffer, then the scratch block — the case the point is in, run at the
    point's memrefs and input blocks, over the scratch the point before left. -/
def outsAt (c : Dev nD) : (n : ℕ) → n < cfg1.N → Vec F S1024x64 .f32 × Vec F S1024x64 .f32
  | 0, hn => (out_idle, scr_first c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((isFirst_iff ⟨0, hn⟩).mpr (Nat.zero_mod _)) (fun h => (fun h' => by (try dsimp only at h'); omega) ((isLast_iff ⟨0, hn⟩).mp h)) (blk V c 0 ⟨0, hn⟩) (blk V c 1 ⟨0, hn⟩) (blk V c 2 ⟨0, hn⟩))
  | n + 1, hn =>
    if h0 : (n + 1) % 13 = 0 then
      if h1 : (n + 1) % 13 = 12 then False.elim (by omega)
      else (out_idle, scr_first c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) ((isFirst_iff ⟨n + 1, hn⟩).mpr h0) (fun h => h1 ((isLast_iff ⟨n + 1, hn⟩).mp h)) (blk V c 0 ⟨n + 1, hn⟩) (blk V c 1 ⟨n + 1, hn⟩) (blk V c 2 ⟨n + 1, hn⟩))
    else
      if h1 : (n + 1) % 13 = 12 then
        (out_last c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (outsAt c n (Nat.lt_of_succ_lt hn)).2,
          scr_last c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (outsAt c n (Nat.lt_of_succ_lt hn)).2)
      else
        (out_idle, scr_mid c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((isFirst_iff ⟨n + 1, hn⟩).mp h)) (fun h => h1 ((isLast_iff ⟨n + 1, hn⟩).mp h)) (blk V c 0 ⟨n + 1, hn⟩) (blk V c 1 ⟨n + 1, hn⟩) (blk V c 2 ⟨n + 1, hn⟩) (outsAt c n (Nat.lt_of_succ_lt hn)).2)

theorem outsAt_first (c : Dev nD) (t : Fin cfg1.N) (h0 : t.val % 13 = 0) (h1 : ¬t.val % 13 = 12) :
    outsAt V c t.val t.isLt = (out_idle, scr_first c (grid1.coords t) (ms_0 t) (hs_0 t) (ms_1 t) (hs_1 t) (ms_2 t) (hs_2 t) (ms_3 t) (hs_3 t) scM (Memref.isWhole_whole _) ((isFirst_iff t).mpr h0) (fun h => h1 ((isLast_iff t).mp h)) (blk V c 0 t) (blk V c 1 t) (blk V c 2 t)) := by
  obtain ⟨n, hn⟩ := t
  cases n with
  | zero => exact rfl
  | succ n => exact (dif_pos h0).trans ((dif_neg h1).trans rfl)

theorem outsAt_mid (c : Dev nD) (t : Fin cfg1.N) (h0 : ¬t.val % 13 = 0) (h1 : ¬t.val % 13 = 12) :
    outsAt V c t.val t.isLt = (out_idle, scr_mid c (grid1.coords t) (ms_0 t) (hs_0 t) (ms_1 t) (hs_1 t) (ms_2 t) (hs_2 t) (ms_3 t) (hs_3 t) scM (Memref.isWhole_whole _) (fun h => h0 ((isFirst_iff t).mp h)) (fun h => h1 ((isLast_iff t).mp h)) (blk V c 0 t) (blk V c 1 t) (blk V c 2 t)
      (outsAt V c (t.val - 1) (Nat.lt_of_le_of_lt (Nat.sub_le _ _) t.isLt)).2) := by
  obtain ⟨n, hn⟩ := t
  cases n with
  | zero => exact (by exfalso; exact absurd (Nat.zero_mod _) h0)
  | succ n => exact (dif_neg h0).trans ((dif_neg h1).trans rfl)

theorem outsAt_last (c : Dev nD) (t : Fin cfg1.N) (h0 : ¬t.val % 13 = 0) (h1 : t.val % 13 = 12) :
    outsAt V c t.val t.isLt = (out_last c (grid1.coords t) (ms_0 t) (hs_0 t) (ms_1 t) (hs_1 t) (ms_2 t) (hs_2 t) (ms_3 t) (hs_3 t) scM (Memref.isWhole_whole _) (fun h => h0 ((isFirst_iff t).mp h)) ((isLast_iff t).mpr h1) (blk V c 0 t) (blk V c 1 t) (blk V c 2 t)
        (outsAt V c (t.val - 1) (Nat.lt_of_le_of_lt (Nat.sub_le _ _) t.isLt)).2,
      scr_last c (grid1.coords t) (ms_0 t) (hs_0 t) (ms_1 t) (hs_1 t) (ms_2 t) (hs_2 t) (ms_3 t) (hs_3 t) scM (Memref.isWhole_whole _) (fun h => h0 ((isFirst_iff t).mp h)) ((isLast_iff t).mpr h1) (blk V c 0 t) (blk V c 1 t) (blk V c 2 t)
        (outsAt V c (t.val - 1) (Nat.lt_of_le_of_lt (Nat.sub_le _ _) t.isLt)).2) := by
  obtain ⟨n, hn⟩ := t
  cases n with
  | zero => exact (by exfalso; exact absurd (Nat.zero_mod _) h0)
  | succ n => exact (dif_neg h0).trans ((dif_pos h1).trans rfl)

/-- The region's invariant before position n: before the first point the untouched rest; afterwards the scratch block at what
    the point before left, beside the remainder of the rest and the generator register. -/
def inv (c : Dev nD) : (n : ℕ) → n ≤ cfg1.N → sProp 𝕄
  | 0, _ => Pipeline.ΦA spec1 c
  | n + 1, hn => iprop(iprop(owns (c : Thread nD τ) scM fullShare ((outsAt V c n hn).2) ∗ Pipeline.scopedRestBut (Ix := Unit) (Name := ℕ) (U := UR sig nD τ) (Lvl := ℕ) (Val := Elt F) spec1 c [cc1_scratch0]) ∗ (∃ r, prngReg c r))

theorem inv_zero (c : Dev nD) (n : ℕ) (h : n ≤ cfg1.N) (hz : n = 0) : inv V c n h = Pipeline.ΦA spec1 c := by
  subst hz; rfl
theorem inv_succ (c : Dev nD) (n : ℕ) (hn : n < cfg1.N) :
    inv V c (n + 1) hn = iprop(iprop(owns (c : Thread nD τ) scM fullShare ((outsAt V c n hn).2) ∗ Pipeline.scopedRestBut (Ix := Unit) (Name := ℕ) (U := UR sig nD τ) (Lvl := ℕ) (Val := Elt F) spec1 c [cc1_scratch0]) ∗ (∃ r, prngReg c r)) := rfl
theorem inv_pos (c : Dev nD) (n : ℕ) (h : n ≤ cfg1.N) (hz : n ≠ 0) :
    inv V c n h = iprop(iprop(owns (c : Thread nD τ) scM fullShare ((outsAt V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The region's proof data on core c. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => (outsAt V c t.val t.isLt).1
  Φ t := inv V c t.val (Nat.le_of_lt_succ t.isLt)
  q _ := fullShare
  owed _ := 0

theorem A_eq (c : Dev nD) (w : Fin cfg1.W) : (dat V c).A w = V c (Pipeline.arrRef spec1 w) := by
  dsimp only [dat]
theorem inv_castSucc (c : Dev nD) (t : Fin cfg1.N) : (dat V c).Φ t.castSucc = inv V c t.val (Nat.le_of_lt t.isLt) := by
  dsimp only [dat]; simp only [Fin.coe_castSucc]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = (outsAt V c t.val t.isLt).1 := by dsimp only [dat]
theorem before_0 (c : Dev nD) (t : Fin cfg1.N) (d) : (dat V c).before 0 t d = blk V c 0 t := found_0 V (dat V c) (A_eq V c 0) (after_0 V c) t d
theorem before_1 (c : Dev nD) (t : Fin cfg1.N) (d) : (dat V c).before 1 t d = blk V c 1 t := found_1 V (dat V c) (A_eq V c 1) (after_1 V c) t d
theorem before_2 (c : Dev nD) (t : Fin cfg1.N) (d) : (dat V c).before 2 t d = blk V c 2 t := found_2 V (dat V c) (A_eq V c 2) (after_2 V c) t d

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4800000 in
/-- The body at any point: the inputs' buffers hold their blocks; the closed forms say which case the point is in; the invariant
    hands over the scratch block at what the point before left (at anything at the very first point) and takes it back at this
    point's contents; where the result's window is idle its buffer goes back as found. -/
theorem body_at (c : Dev nD) (t : Fin cfg1.N) :
    bodyPre V c t ⊢ wp frame (wpE (defs₀ (F := F)) Variants.none c none) Set.univ (bodyAt t) (fun _ => bodyPost V c t) := by
  unfold bodyPre bodyPost bodyAt
  simp only [before_0, before_1, before_2]
  rw [show (dat V c).owesAt () t.succ = (dat V c).owesAt () t.castSucc from rfl]
  rw [show (dat V c).Φ t.succ = inv V c (t.val + 1) t.isLt from rfl, inv_succ]
  rw [show (dat V c).leavesExact 0 t = owns (c : Thread nD τ) (ms_0 t) fullShare ((dat V c).after 0 t) from by
    unfold Dat.leavesExact; rfl, after_0]
  rw [show (dat V c).leavesExact 1 t = owns (c : Thread nD τ) (ms_1 t) fullShare ((dat V c).after 1 t) from by
    unfold Dat.leavesExact; rfl, after_1]
  rw [show (dat V c).leavesExact 2 t = owns (c : Thread nD τ) (ms_2 t) fullShare ((dat V c).after 2 t) from by
    unfold Dat.leavesExact; rfl, after_2]
  by_cases h0 : t.val % 13 = 0
  · have h1 : ¬t.val % 13 = 12 := by omega
    rw [Dat.leavesExact_idle (dat V c) 3 t (idle_3 _ (fun h => h1 ((isLast_iff t).mp h))) (noFlush_3 t (fun h => h1 ((isLast_iff t).mp h)))]
    rw [outsAt_first V c t h0 h1]
    unfold scr_first; (try dsimp only)
    by_cases hz : t.val = 0
    · rw [inv_castSucc V c t, inv_zero V c _ _ hz, rest_eq]
      iintro ⟨⟨⟨HS, Hr⟩, Hg⟩, Ho, ⟨%d0, H0⟩, ⟨%d1, H1⟩, ⟨%d2, H2⟩, ⟨%d3, H3⟩⟩
      iapply ((run_first c (grid1.coords t) _ _ _ _ _ _ _ _ _ _ ((isFirst_iff t).mpr h0) (fun h => h1 ((isLast_iff t).mp h)) (blk V c 0 t) (blk V c 1 t) (blk V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover_first c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [inv_castSucc V c t, inv_pos V c _ _ hz]
      iintro ⟨⟨⟨HS, Hr⟩, Hg⟩, Ho, ⟨%d0, H0⟩, ⟨%d1, H1⟩, ⟨%d2, H2⟩, ⟨%d3, H3⟩⟩
      iapply ((run_first c (grid1.coords t) _ _ _ _ _ _ _ _ _ _ ((isFirst_iff t).mpr h0) (fun h => h1 ((isLast_iff t).mp h)) (blk V c 0 t) (blk V c 1 t) (blk V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover_first c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 13 = 12
    · rw [show (dat V c).leavesExact 3 t = owns (c : Thread nD τ) (ms_3 t) fullShare ((dat V c).after 3 t) from by
        unfold Dat.leavesExact; rw [live_3 _ ((isLast_iff t).mpr h1)], after_3]
      rw [outsAt_last V c t h0 h1]
      unfold out_last scr_last; (try dsimp only)
      rw [inv_castSucc V c t, inv_pos V c _ _ hz]
      iintro ⟨⟨⟨HS, Hr⟩, Hg⟩, Ho, ⟨%d0, H0⟩, ⟨%d1, H1⟩, ⟨%d2, H2⟩, ⟨%d3, H3⟩⟩
      iapply ((run_last c (grid1.coords t) _ _ _ _ _ _ _ _ _ _ (fun h => h0 ((isFirst_iff t).mp h)) ((isLast_iff t).mpr h1) (blk V c 0 t) (blk V c 1 t) (blk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hr Hg]
      · isplitl [HS Hr]
        · isplitl [HS]
          · unfold owns; iexists _; isplitr
            swap; · iexact HS
            ipureintro; exact View.read_writes_of_cover _ _ _ _ _ (scover_last c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (ocover_last c _ _ _ _ _ _ _ _ _ _ _ _ _ _ _ _ _)
    · rw [Dat.leavesExact_idle (dat V c) 3 t (idle_3 _ (fun h => h1 ((isLast_iff t).mp h))) (noFlush_3 t (fun h => h1 ((isLast_iff t).mp h)))]
      rw [outsAt_mid V c t h0 h1]
      unfold scr_mid; (try dsimp only)
      rw [inv_castSucc V c t, inv_pos V c _ _ hz]
      iintro ⟨⟨⟨HS, Hr⟩, Hg⟩, Ho, ⟨%d0, H0⟩, ⟨%d1, H1⟩, ⟨%d2, H2⟩, ⟨%d3, H3⟩⟩
      iapply ((run_mid c (grid1.coords t) _ _ _ _ _ _ _ _ _ _ (fun h => h0 ((isFirst_iff t).mp h)) (fun h => h1 ((isLast_iff t).mp h)) (blk V c 0 t) (blk V c 1 t) (blk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover_mid c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact body_at V c t

/-- The untouched rest is the invariant before the first point, -/
theorem hin (c : Dev nD) : Pipeline.ΦA spec1 c ⊢ (dat V c).Φ 0 := by
  rw [show (dat V c).Φ 0 = inv V c 0 (Nat.zero_le _) from rfl, inv_zero V c 0 _ rfl]
  try exact Idealize.SL.BI.Entails.refl _

/-- and the invariant after the last point gives it back, the scratch block's contents forgotten. -/
theorem hout (c : Dev nD) : (dat V c).Φ (Fin.last cfg1.N) ⊢ Pipeline.ΦA spec1 c := by
  rw [show (dat V c).Φ (Fin.last cfg1.N) = inv V c (Fin.last cfg1.N).val (Nat.le_of_lt_succ (Fin.last cfg1.N).isLt) from rfl,
    inv_pos V c _ _ (by rw [Fin.val_last]; have : cfg1.N = 21593 := N_1; omega), rest_eq]
  iintro ⟨⟨HS, Hr⟩, Hg⟩
  isplitl [HS Hr]
  · isplitl [HS]
    · iexists _; iexact HS
    iexact Hr
  iexact Hg

end Cert.Kernel.R1

end
-- ==== Proof.BRegion2.lean ====
/-
  The scatter's region (kernel call 2), on every core, at any float values, from any contents `V` of the TensorCore's
  buffers at its entry.

  Its grid has 13 × 1661 points: a node tile of 8192 rows, and for it the 1661 tiles of 1024 padded edges, innermost.  At a
  point the body is handed the edge tile's target words (window 0) and messages (window 1), the bias row (window 2, fetched
  once), a staging buffer for the node tile of the result (window 3, written back at the node tile's last point only) and
  a scratch block that it carries from point to point.  Three cases, by the edge tile's number e = t mod 1661:
    first  (e = 0):      the scratch is stored zero, then the tile's one-hot product is added into it;
    middle (0<e<1660):   the product is added into the scratch as the point before left it;
    last   (e = 1660):   the same, and then the scratch plus the bias row is stored over the whole result buffer.
  At the first two the result's buffer is idle: handed back as found and not written back.  After every point the
  scratch holds what the case's stores leave, read back; the region's invariant carries it.
-/
import proofs.«155233_j36086315221040_1_alg».proof.Proof.Gen.Kernel.Launch
import proofs.«155233_j36086315221040_1_alg».proof.Proof.Gen.Kernel.Skeleton
import proofs.«155233_j36086315221040_1_alg».proof.Proof.GridFacts
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input's staging buffer holds its block at every point, fetched there or not (a block not fetched has not moved). -/
theorem found_0 {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found_1 {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found_2 {c : Dev nD} (dat : Dat τ (Elt F) Unit ℕ (UR sig nD τ) ℕ cfg2 c) (hA : dat.A 2 = V c (Pipeline.arrRef spec2 2))
    (hafter : ∀ t, dat.after 2 t = blk V c 2 t) (t : Fin cfg2.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's two conditions, decided over the grid -/

/-- "This is the node tile's first edge tile", as the body computes it from the grid coordinates. -/
abbrev isFirst (i : grid2.Coords) : Prop := (Scalar.cmpi .ne (Scalar.extui (Scalar.cmpi .eq (BitVec.ofNat 32 (i 1).val) 0#32)) 0#32) = 1#1
theorem isFirst_iff : ∀ t : Fin cfg2.N, isFirst (grid2.coords t) ↔ t.val % 1661 = 0 :=
  Cert.Proof.GridFacts.scatter_first
/-- "This is its last edge tile". -/
abbrev isLast (i : grid2.Coords) : Prop := k2_cond2 i = 1#1
theorem isLast_iff : ∀ t : Fin cfg2.N, isLast (grid2.coords t) ↔ t.val % 1661 = 1660 :=
  Cert.Proof.GridFacts.scatter_last

/-- The result's block is written back exactly at the last inner point. -/
theorem flush_3 : ∀ t : Fin cfg2.N, (cfg2.win 3).flush t = true ↔ t.val % 1661 = 1660 :=
  Cert.Proof.GridFacts.scatter_flush
/-- The body as the pipeline calls it at point t. -/
abbrev bodyAt (t : Fin cfg2.N) : Prog (TpuEff nD τ sig (Elt F) Λ₀ .tc) PUnit :=
  cc2__scatter_kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (Memref.whole cc2_scratch0) (Memref.isWhole_whole _)

/-- Where the result's window is idle: exactly off the last edge tile (the configuration's table is the negated test). -/
theorem idle_3 (i : grid2.Coords) (h : ¬isLast i) : cfg2.idle 3 i = true := by
  show (!(k2_cond2 i == 1#1)) = true
  simp only [Bool.not_eq_true', beq_eq_false_iff_ne, ne_eq]; exact h
theorem live_3 (i : grid2.Coords) (h : isLast i) : cfg2.idle 3 i = false := by
  show (!(k2_cond2 i == 1#1)) = false
  simp only [Bool.not_eq_false', beq_iff_eq]; exact h
/-- Off the last edge tile the result's block is not written back. -/
theorem noFlush_3 (t : Fin cfg2.N) (h : ¬isLast (grid2.coords t)) : (cfg2.win 3).flush t = false := by
  have := flush_3 t
  cases hf : (cfg2.win 3).flush t
  · rfl
  · exact absurd ((isLast_iff t).mpr (this.mp hf)) h

/-! ## The staging and scratch memrefs -/

abbrev VO : View sig .tc .vmem S8192x64 .f32 := (Memref.whole cc2_stg3_0 : Memref sig .tc .vmem S8192x64 .f32).view
abbrev ms_0 (t : Fin cfg2.N) : Memref sig .tc .vmem S1024 .i32 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S1024x64 .f32 := win2_1.stage (cfg2.slots t 1)
abbrev hs_1 (t : Fin cfg2.N) : (ms_1 t).IsWhole := hstage2_1 ((cfg2.slots t 1).cast nbuf2_1)
abbrev ms_2 (t : Fin cfg2.N) : Memref sig .tc .vmem S64 .f32 := win2_2.stage (cfg2.slots t 2)
abbrev hs_2 (t : Fin cfg2.N) : (ms_2 t).IsWhole := hstage2_2 ((cfg2.slots t 2).cast nbuf2_2)
abbrev ms_3 (t : Fin cfg2.N) : Memref sig .tc .vmem S8192x64 .f32 := win2_3.stage (cfg2.slots t 3)
abbrev hs_3 (t : Fin cfg2.N) : (ms_3 t).IsWhole := hstage2_3 ((cfg2.slots t 3).cast nbuf2_3)
/-- The scratch block the body carries between points. -/
abbrev scM : Memref sig .tc .vmem S8192x64 .f32 := Memref.whole cc2_scratch0
abbrev VS : View sig .tc .vmem S8192x64 .f32 := (scM).view

/-- The untouched rest with the scratch block taken out of it, owned at some contents. -/
theorem rest_eq (c : Dev nD) :
    (Pipeline.ΦA spec2 c : sProp 𝕄)
      = iprop(iprop((∃ d, owns (c : Thread nD τ) scM fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM, owns_whole]
  try rfl

/-! ## The body, case by case: the pieces each buffer ends with are what the run finds -/

set_option maxHeartbeats 2000000 in
/-- FIRST edge tile of a node tile: the scratch at anything, the result's buffer handed back untouched. -/
noncomputable def run_first (c : Dev nD) (i : grid2.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole)
    (hc0 : isFirst i) (hc1 : ¬isLast i) (x0 : Vec F S1024 .i32) (x1 : Vec F S1024x64 .f32) (x2 : Vec F S64 .f32) :
    Σ' (L3 : List (View.Piece (Elt F) S8192x64 .f32)), { LS : List (View.Piece (Elt F) S8192x64 .f32) //
      ∀ (xi3 : Vec F S8192x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E (cc2__scatter_kernel i arg2 harg2 arg3 harg3 arg4 harg4 arg5 harg5 arg6 harg6) K } := by
  refine ⟨[], ?_, fun xi3 E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 2000000 in
/-- A MIDDLE edge tile: the scratch at what the point before left, the result's buffer handed back untouched. -/
noncomputable def run_mid (c : Dev nD) (i : grid2.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole)
    (hc0 : ¬isFirst i) (hc1 : ¬isLast i) (x0 : Vec F S1024 .i32) (x1 : Vec F S1024x64 .f32) (x2 : Vec F S64 .f32) (xs0 : Vec F S8192x64 .f32) :
    Σ' (L3 : List (View.Piece (Elt F) S8192x64 .f32)), { LS : List (View.Piece (Elt F) S8192x64 .f32) //
      ∀ (xi3 : Vec F S8192x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E (cc2__scatter_kernel i arg2 harg2 arg3 harg3 arg4 harg4 arg5 harg5 arg6 harg6) K } := by
  refine ⟨[], ?_, fun xi3 E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 2000000 in
/-- The LAST edge tile: the scratch at what the point before left, the result's buffer at anything and stored whole. -/
noncomputable def run_last (c : Dev nD) (i : grid2.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole)
    (hc0 : ¬isFirst i) (hc1 : isLast i) (x0 : Vec F S1024 .i32) (x1 : Vec F S1024x64 .f32) (x2 : Vec F S64 .f32) (xs0 : Vec F S8192x64 .f32) :
    Σ' (L3 : List (View.Piece (Elt F) S8192x64 .f32)), { LS : List (View.Piece (Elt F) S8192x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc2__scatter_kernel i arg2 harg2 arg3 harg3 arg4 harg4 arg5 harg5 arg6 harg6) K } := by
  refine ⟨?_, ?_, fun E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! ## What each case leaves in the scratch block and in the result's buffer -/

theorem scover_first (c : Dev nD) (i : grid2.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole) (hc0 : isFirst i) (hc1 : ¬isLast i) (x0 : Vec F S1024 .i32) (x1 : Vec F S1024x64 .f32) (x2 : Vec F S64 .f32) (y : S8192x64.Idx) :
    ∃ pc ∈ (run_first c i arg2 harg2 arg3 harg3 arg4 harg4 arg5 harg5 arg6 harg6 hc0 hc1 x0 x1 x2).2.1, y ∈ pc.1.set :=
  View.cover_of_tiledL (run_first c i arg2 harg2 arg3 harg3 arg4 harg4 arg5 harg5 arg6 harg6 hc0 hc1 x0 x1 x2).2.1 S8192x64.size (by sl_kernel_rfl) y
/-- After a first edge tile the scratch block holds the case's pieces, read back. -/
def scr_first (c : Dev nD) (i : grid2.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole) (hc0 : isFirst i) (hc1 : ¬isLast i) (x0 : Vec F S1024 .i32) (x1 : Vec F S1024x64 .f32) (x2 : Vec F S64 .f32) : Vec F S8192x64 .f32 :=
  VS.read (Elt F) (VS.writes (Elt F) VS.junk (run_first c i arg2 harg2 arg3 harg3 arg4 harg4 arg5 harg5 arg6 harg6 hc0 hc1 x0 x1 x2).2.1)

theorem scover_mid (c : Dev nD) (i : grid2.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole) (hc0 : ¬isFirst i) (hc1 : ¬isLast i) (x0 : Vec F S1024 .i32) (x1 : Vec F S1024x64 .f32) (x2 : Vec F S64 .f32) (xs0 : Vec F S8192x64 .f32) (y : S8192x64.Idx) :
    ∃ pc ∈ (run_mid c i arg2 harg2 arg3 harg3 arg4 harg4 arg5 harg5 arg6 harg6 hc0 hc1 x0 x1 x2 xs0).2.1, y ∈ pc.1.set :=
  View.cover_of_tiledL (run_mid c i arg2 harg2 arg3 harg3 arg4 harg4 arg5 harg5 arg6 harg6 hc0 hc1 x0 x1 x2 xs0).2.1 S8192x64.size (by sl_kernel_rfl) y
def scr_mid (c : Dev nD) (i : grid2.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole) (hc0 : ¬isFirst i) (hc1 : ¬isLast i) (x0 : Vec F S1024 .i32) (x1 : Vec F S1024x64 .f32) (x2 : Vec F S64 .f32) (xs0 : Vec F S8192x64 .f32) : Vec F S8192x64 .f32 :=
  VS.read (Elt F) (VS.writes (Elt F) VS.junk (run_mid c i arg2 harg2 arg3 harg3 arg4 harg4 arg5 harg5 arg6 harg6 hc0 hc1 x0 x1 x2 xs0).2.1)

theorem scover_last (c : Dev nD) (i : grid2.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole) (hc0 : ¬isFirst i) (hc1 : isLast i) (x0 : Vec F S1024 .i32) (x1 : Vec F S1024x64 .f32) (x2 : Vec F S64 .f32) (xs0 : Vec F S8192x64 .f32) (y : S8192x64.Idx) :
    ∃ pc ∈ (run_last c i arg2 harg2 arg3 harg3 arg4 harg4 arg5 harg5 arg6 harg6 hc0 hc1 x0 x1 x2 xs0).2.1, y ∈ pc.1.set :=
  View.cover_of_tiledL (run_last c i arg2 harg2 arg3 harg3 arg4 harg4 arg5 harg5 arg6 harg6 hc0 hc1 x0 x1 x2 xs0).2.1 S8192x64.size (by sl_kernel_rfl) y
def scr_last (c : Dev nD) (i : grid2.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole) (hc0 : ¬isFirst i) (hc1 : isLast i) (x0 : Vec F S1024 .i32) (x1 : Vec F S1024x64 .f32) (x2 : Vec F S64 .f32) (xs0 : Vec F S8192x64 .f32) : Vec F S8192x64 .f32 :=
  VS.read (Elt F) (VS.writes (Elt F) VS.junk (run_last c i arg2 harg2 arg3 harg3 arg4 harg4 arg5 harg5 arg6 harg6 hc0 hc1 x0 x1 x2 xs0).2.1)
theorem ocover_last (c : Dev nD) (i : grid2.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole) (hc0 : ¬isFirst i) (hc1 : isLast i) (x0 : Vec F S1024 .i32) (x1 : Vec F S1024x64 .f32) (x2 : Vec F S64 .f32) (xs0 : Vec F S8192x64 .f32) (y : S8192x64.Idx) :
    ∃ pc ∈ (run_last c i arg2 harg2 arg3 harg3 arg4 harg4 arg5 harg5 arg6 harg6 hc0 hc1 x0 x1 x2 xs0).1, y ∈ pc.1.set :=
  View.cover_of_tiledL (run_last c i arg2 harg2 arg3 harg3 arg4 harg4 arg5 harg5 arg6 harg6 hc0 hc1 x0 x1 x2 xs0).1 S8192x64.size (by sl_kernel_rfl) y
/-- After a last edge tile the result's buffer holds the case's pieces, read back. -/
def out_last (c : Dev nD) (i : grid2.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole) (hc0 : ¬isFirst i) (hc1 : isLast i) (x0 : Vec F S1024 .i32) (x1 : Vec F S1024x64 .f32) (x2 : Vec F S64 .f32) (xs0 : Vec F S8192x64 .f32) : Vec F S8192x64 .f32 :=
  VO.read (Elt F) (VO.writes (Elt F) VO.junk (run_last c i arg2 harg2 arg3 harg3 arg4 harg4 arg5 harg5 arg6 harg6 hc0 hc1 x0 x1 x2 xs0).1)
/-- Where the result's buffer is idle nothing reads what is recorded for it: a placeholder. -/
def out_idle : Vec F S8192x64 .f32 := VO.read (Elt F) VO.junk

/-! ## Point by point -/

/-- After the body at position n: the result's staging buffer, then the scratch block — the case the point is in, run at the
    point's memrefs and input blocks, over the scratch the point before left. -/
def outsAt (c : Dev nD) : (n : ℕ) → n < cfg2.N → Vec F S8192x64 .f32 × Vec F S8192x64 .f32
  | 0, hn => (out_idle, scr_first c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((isFirst_iff ⟨0, hn⟩).mpr (Nat.zero_mod _)) (fun h => (fun h' => by (try dsimp only at h'); omega) ((isLast_iff ⟨0, hn⟩).mp h)) (blk V c 0 ⟨0, hn⟩) (blk V c 1 ⟨0, hn⟩) (blk V c 2 ⟨0, hn⟩))
  | n + 1, hn =>
    if h0 : (n + 1) % 1661 = 0 then
      if h1 : (n + 1) % 1661 = 1660 then False.elim (by omega)
      else (out_idle, scr_first c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) ((isFirst_iff ⟨n + 1, hn⟩).mpr h0) (fun h => h1 ((isLast_iff ⟨n + 1, hn⟩).mp h)) (blk V c 0 ⟨n + 1, hn⟩) (blk V c 1 ⟨n + 1, hn⟩) (blk V c 2 ⟨n + 1, hn⟩))
    else
      if h1 : (n + 1) % 1661 = 1660 then
        (out_last c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (outsAt c n (Nat.lt_of_succ_lt hn)).2,
          scr_last c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (outsAt c n (Nat.lt_of_succ_lt hn)).2)
      else
        (out_idle, scr_mid c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((isFirst_iff ⟨n + 1, hn⟩).mp h)) (fun h => h1 ((isLast_iff ⟨n + 1, hn⟩).mp h)) (blk V c 0 ⟨n + 1, hn⟩) (blk V c 1 ⟨n + 1, hn⟩) (blk V c 2 ⟨n + 1, hn⟩) (outsAt c n (Nat.lt_of_succ_lt hn)).2)

theorem outsAt_first (c : Dev nD) (t : Fin cfg2.N) (h0 : t.val % 1661 = 0) (h1 : ¬t.val % 1661 = 1660) :
    outsAt V c t.val t.isLt = (out_idle, scr_first c (grid2.coords t) (ms_0 t) (hs_0 t) (ms_1 t) (hs_1 t) (ms_2 t) (hs_2 t) (ms_3 t) (hs_3 t) scM (Memref.isWhole_whole _) ((isFirst_iff t).mpr h0) (fun h => h1 ((isLast_iff t).mp h)) (blk V c 0 t) (blk V c 1 t) (blk V c 2 t)) := by
  obtain ⟨n, hn⟩ := t
  cases n with
  | zero => exact rfl
  | succ n => exact (dif_pos h0).trans ((dif_neg h1).trans rfl)

theorem outsAt_mid (c : Dev nD) (t : Fin cfg2.N) (h0 : ¬t.val % 1661 = 0) (h1 : ¬t.val % 1661 = 1660) :
    outsAt V c t.val t.isLt = (out_idle, scr_mid c (grid2.coords t) (ms_0 t) (hs_0 t) (ms_1 t) (hs_1 t) (ms_2 t) (hs_2 t) (ms_3 t) (hs_3 t) scM (Memref.isWhole_whole _) (fun h => h0 ((isFirst_iff t).mp h)) (fun h => h1 ((isLast_iff t).mp h)) (blk V c 0 t) (blk V c 1 t) (blk V c 2 t)
      (outsAt V c (t.val - 1) (Nat.lt_of_le_of_lt (Nat.sub_le _ _) t.isLt)).2) := by
  obtain ⟨n, hn⟩ := t
  cases n with
  | zero => exact (by exfalso; exact absurd (Nat.zero_mod _) h0)
  | succ n => exact (dif_neg h0).trans ((dif_neg h1).trans rfl)

theorem outsAt_last (c : Dev nD) (t : Fin cfg2.N) (h0 : ¬t.val % 1661 = 0) (h1 : t.val % 1661 = 1660) :
    outsAt V c t.val t.isLt = (out_last c (grid2.coords t) (ms_0 t) (hs_0 t) (ms_1 t) (hs_1 t) (ms_2 t) (hs_2 t) (ms_3 t) (hs_3 t) scM (Memref.isWhole_whole _) (fun h => h0 ((isFirst_iff t).mp h)) ((isLast_iff t).mpr h1) (blk V c 0 t) (blk V c 1 t) (blk V c 2 t)
        (outsAt V c (t.val - 1) (Nat.lt_of_le_of_lt (Nat.sub_le _ _) t.isLt)).2,
      scr_last c (grid2.coords t) (ms_0 t) (hs_0 t) (ms_1 t) (hs_1 t) (ms_2 t) (hs_2 t) (ms_3 t) (hs_3 t) scM (Memref.isWhole_whole _) (fun h => h0 ((isFirst_iff t).mp h)) ((isLast_iff t).mpr h1) (blk V c 0 t) (blk V c 1 t) (blk V c 2 t)
        (outsAt V c (t.val - 1) (Nat.lt_of_le_of_lt (Nat.sub_le _ _) t.isLt)).2) := by
  obtain ⟨n, hn⟩ := t
  cases n with
  | zero => exact (by exfalso; exact absurd (Nat.zero_mod _) h0)
  | succ n => exact (dif_neg h0).trans ((dif_pos h1).trans rfl)

/-- The region's invariant before position n: before the first point the untouched rest; afterwards the scratch block at what
    the point before left, beside the remainder of the rest and the generator register. -/
def inv (c : Dev nD) : (n : ℕ) → n ≤ cfg2.N → sProp 𝕄
  | 0, _ => Pipeline.ΦA spec2 c
  | n + 1, hn => iprop(iprop(owns (c : Thread nD τ) scM fullShare ((outsAt V c n hn).2) ∗ Pipeline.scopedRestBut (Ix := Unit) (Name := ℕ) (U := UR sig nD τ) (Lvl := ℕ) (Val := Elt F) spec2 c [cc2_scratch0]) ∗ (∃ r, prngReg c r))

theorem inv_zero (c : Dev nD) (n : ℕ) (h : n ≤ cfg2.N) (hz : n = 0) : inv V c n h = Pipeline.ΦA spec2 c := by
  subst hz; rfl
theorem inv_succ (c : Dev nD) (n : ℕ) (hn : n < cfg2.N) :
    inv V c (n + 1) hn = iprop(iprop(owns (c : Thread nD τ) scM fullShare ((outsAt V c n hn).2) ∗ Pipeline.scopedRestBut (Ix := Unit) (Name := ℕ) (U := UR sig nD τ) (Lvl := ℕ) (Val := Elt F) spec2 c [cc2_scratch0]) ∗ (∃ r, prngReg c r)) := rfl
theorem inv_pos (c : Dev nD) (n : ℕ) (h : n ≤ cfg2.N) (hz : n ≠ 0) :
    inv V c n h = iprop(iprop(owns (c : Thread nD τ) scM fullShare ((outsAt V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The region's proof data on core c. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => (outsAt V c t.val t.isLt).1
  Φ t := inv V c t.val (Nat.le_of_lt_succ t.isLt)
  q _ := fullShare
  owed _ := 0

theorem A_eq (c : Dev nD) (w : Fin cfg2.W) : (dat V c).A w = V c (Pipeline.arrRef spec2 w) := by
  dsimp only [dat]
theorem inv_castSucc (c : Dev nD) (t : Fin cfg2.N) : (dat V c).Φ t.castSucc = inv V c t.val (Nat.le_of_lt t.isLt) := by
  dsimp only [dat]; simp only [Fin.coe_castSucc]
theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = blk V c 2 t := by dsimp only [dat]
theorem after_3 (c : Dev nD) (t : Fin cfg2.N) : (dat V c).after 3 t = (outsAt V c t.val t.isLt).1 := by dsimp only [dat]
theorem before_0 (c : Dev nD) (t : Fin cfg2.N) (d) : (dat V c).before 0 t d = blk V c 0 t := found_0 V (dat V c) (A_eq V c 0) (after_0 V c) t d
theorem before_1 (c : Dev nD) (t : Fin cfg2.N) (d) : (dat V c).before 1 t d = blk V c 1 t := found_1 V (dat V c) (A_eq V c 1) (after_1 V c) t d
theorem before_2 (c : Dev nD) (t : Fin cfg2.N) (d) : (dat V c).before 2 t d = blk V c 2 t := found_2 V (dat V c) (A_eq V c 2) (after_2 V c) t d

/-! ## The body obligation, at a generic point -/

def bodyPre (c : Dev nD) (t : Fin cfg2.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4800000 in
/-- The body at any point: the inputs' buffers hold their blocks; the closed forms say which case the point is in; the invariant
    hands over the scratch block at what the point before left (at anything at the very first point) and takes it back at this
    point's contents; where the result's window is idle its buffer goes back as found. -/
theorem body_at (c : Dev nD) (t : Fin cfg2.N) :
    bodyPre V c t ⊢ wp frame (wpE (defs₀ (F := F)) Variants.none c none) Set.univ (bodyAt t) (fun _ => bodyPost V c t) := by
  unfold bodyPre bodyPost bodyAt
  simp only [before_0, before_1, before_2]
  rw [show (dat V c).owesAt () t.succ = (dat V c).owesAt () t.castSucc from rfl]
  rw [show (dat V c).Φ t.succ = inv V c (t.val + 1) t.isLt from rfl, inv_succ]
  rw [show (dat V c).leavesExact 0 t = owns (c : Thread nD τ) (ms_0 t) fullShare ((dat V c).after 0 t) from by
    unfold Dat.leavesExact; rfl, after_0]
  rw [show (dat V c).leavesExact 1 t = owns (c : Thread nD τ) (ms_1 t) fullShare ((dat V c).after 1 t) from by
    unfold Dat.leavesExact; rfl, after_1]
  rw [show (dat V c).leavesExact 2 t = owns (c : Thread nD τ) (ms_2 t) fullShare ((dat V c).after 2 t) from by
    unfold Dat.leavesExact; rfl, after_2]
  by_cases h0 : t.val % 1661 = 0
  · have h1 : ¬t.val % 1661 = 1660 := by omega
    rw [Dat.leavesExact_idle (dat V c) 3 t (idle_3 _ (fun h => h1 ((isLast_iff t).mp h))) (noFlush_3 t (fun h => h1 ((isLast_iff t).mp h)))]
    rw [outsAt_first V c t h0 h1]
    unfold scr_first; (try dsimp only)
    by_cases hz : t.val = 0
    · rw [inv_castSucc V c t, inv_zero V c _ _ hz, rest_eq]
      iintro ⟨⟨⟨HS, Hr⟩, Hg⟩, Ho, ⟨%d0, H0⟩, ⟨%d1, H1⟩, ⟨%d2, H2⟩, ⟨%d3, H3⟩⟩
      iapply ((run_first c (grid2.coords t) _ _ _ _ _ _ _ _ _ _ ((isFirst_iff t).mpr h0) (fun h => h1 ((isLast_iff t).mp h)) (blk V c 0 t) (blk V c 1 t) (blk V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover_first c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [inv_castSucc V c t, inv_pos V c _ _ hz]
      iintro ⟨⟨⟨HS, Hr⟩, Hg⟩, Ho, ⟨%d0, H0⟩, ⟨%d1, H1⟩, ⟨%d2, H2⟩, ⟨%d3, H3⟩⟩
      iapply ((run_first c (grid2.coords t) _ _ _ _ _ _ _ _ _ _ ((isFirst_iff t).mpr h0) (fun h => h1 ((isLast_iff t).mp h)) (blk V c 0 t) (blk V c 1 t) (blk V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover_first c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 1661 = 1660
    · rw [show (dat V c).leavesExact 3 t = owns (c : Thread nD τ) (ms_3 t) fullShare ((dat V c).after 3 t) from by
        unfold Dat.leavesExact; rw [live_3 _ ((isLast_iff t).mpr h1)], after_3]
      rw [outsAt_last V c t h0 h1]
      unfold out_last scr_last; (try dsimp only)
      rw [inv_castSucc V c t, inv_pos V c _ _ hz]
      iintro ⟨⟨⟨HS, Hr⟩, Hg⟩, Ho, ⟨%d0, H0⟩, ⟨%d1, H1⟩, ⟨%d2, H2⟩, ⟨%d3, H3⟩⟩
      iapply ((run_last c (grid2.coords t) _ _ _ _ _ _ _ _ _ _ (fun h => h0 ((isFirst_iff t).mp h)) ((isLast_iff t).mpr h1) (blk V c 0 t) (blk V c 1 t) (blk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hr Hg]
      · isplitl [HS Hr]
        · isplitl [HS]
          · unfold owns; iexists _; isplitr
            swap; · iexact HS
            ipureintro; exact View.read_writes_of_cover _ _ _ _ _ (scover_last c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (ocover_last c _ _ _ _ _ _ _ _ _ _ _ _ _ _ _ _ _)
    · rw [Dat.leavesExact_idle (dat V c) 3 t (idle_3 _ (fun h => h1 ((isLast_iff t).mp h))) (noFlush_3 t (fun h => h1 ((isLast_iff t).mp h)))]
      rw [outsAt_mid V c t h0 h1]
      unfold scr_mid; (try dsimp only)
      rw [inv_castSucc V c t, inv_pos V c _ _ hz]
      iintro ⟨⟨⟨HS, Hr⟩, Hg⟩, Ho, ⟨%d0, H0⟩, ⟨%d1, H1⟩, ⟨%d2, H2⟩, ⟨%d3, H3⟩⟩
      iapply ((run_mid c (grid2.coords t) _ _ _ _ _ _ _ _ _ _ (fun h => h0 ((isFirst_iff t).mp h)) (fun h => h1 ((isLast_iff t).mp h)) (blk V c 0 t) (blk V c 1 t) (blk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover_mid c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W2, bigSep_W2]
  exact body_at V c t

/-- The untouched rest is the invariant before the first point, -/
theorem hin (c : Dev nD) : Pipeline.ΦA spec2 c ⊢ (dat V c).Φ 0 := by
  rw [show (dat V c).Φ 0 = inv V c 0 (Nat.zero_le _) from rfl, inv_zero V c 0 _ rfl]
  try exact Idealize.SL.BI.Entails.refl _

/-- and the invariant after the last point gives it back, the scratch block's contents forgotten. -/
theorem hout (c : Dev nD) : (dat V c).Φ (Fin.last cfg2.N) ⊢ Pipeline.ΦA spec2 c := by
  rw [show (dat V c).Φ (Fin.last cfg2.N) = inv V c (Fin.last cfg2.N).val (Nat.le_of_lt_succ (Fin.last cfg2.N).isLt) from rfl,
    inv_pos V c _ _ (by rw [Fin.val_last]; have : cfg2.N = 21593 := N_2; omega), rest_eq]
  iintro ⟨⟨HS, Hr⟩, Hg⟩
  isplitl [HS Hr]
  · isplitl [HS]
    · iexists _; iexact HS
    iexact Hr
  iexact Hg

end Cert.Kernel.R2

end
-- ==== Proof.BRegion3.lean ====
/-
  The dense transform's region (kernel call 3), on every core, at any float values, from any contents `V` of the
  TensorCore's buffers at its entry.

  Its grid has 13 points, one per tile of 8192 node rows.  At point t the pipeline hands the body the t-th tile of the
  padded node table (window 0, fetched at every point), the whole weight matrix (window 1, fetched once: its block does
  not move) and a staging buffer for the t-th tile of the result (window 2, written back at every point).  The body
  loads the two inputs, looks at the result's buffer, and stores the product over the whole buffer: after it the
  result's buffer holds the one stored piece, the product of the two input blocks, and the inputs' buffers are as
  found.  It keeps nothing between points, so the region's invariant is the untouched rest (the scoped buffers no
  window stages, the generator register).
-/
import proofs.«155233_j36086315221040_1_alg».proof.Proof.Gen.Kernel.Launch
import proofs.«155233_j36086315221040_1_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The node tile's staging buffer holds its block at every point. -/
theorem found_0 {c : Dev nD} (dat : Dat τ (Elt F) Unit ℕ (UR sig nD τ) ℕ cfg3 c) (hA : dat.A 0 = V c (Pipeline.arrRef spec3 0))
    (hafter : ∀ t, dat.after 0 t = blk V c 0 t) (t : Fin cfg3.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The weight matrix's staging buffer holds the matrix at every point, fetched there or not: its block never moves. -/
theorem found_1 {c : Dev nD} (dat : Dat τ (Elt F) Unit ℕ (UR sig nD τ) ℕ cfg3 c) (hA : dat.A 1 = V c (Pipeline.arrRef spec3 1))
    (hafter : ∀ t, dat.after 1 t = blk V c 1 t) (t : Fin cfg3.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The whole-buffer rectangles the body loads and stores through. -/
abbrev rX : Rect S8192x64 := Rect.unit (s := S8192x64) ![0, 0] S8192x64.size inb_S8192x64_S8192x64_0_0
abbrev rW : Rect S64x64 := Rect.unit (s := S64x64) ![0, 0] S64x64.size inb_S64x64_S64x64_0_0
abbrev rO : Rect S8192x64 := Rect.unit (s := S8192x64) ![0, 0] S8192x64.size inb_S8192x64_S8192x64_0_0

/-- What the body leaves in the result's staging buffer: its one store, the product of the two loaded blocks. -/
def product (x0 : Vec F S8192x64 .f32) (x1 : Vec F S64x64 .f32) : Vec F S8192x64 .f32 :=
  View.canon [⟨rO, k3_pay1 (View.ld x0 rX) (View.ld x1 rW)⟩]

/-- The one store is over the whole buffer. -/
theorem product_cover (p0 : Vec F S8192x64 .f32) (y : S8192x64.Idx) :
    ∃ pc ∈ ([⟨rO, p0⟩] : List (View.Piece (Elt F) S8192x64 .f32)), y ∈ pc.1.set :=
  View.cover_of_tiled [⟨rO, p0⟩] S8192x64.size (by rfl) y

set_option maxHeartbeats 1000000 in
/-- The body on whole staging memrefs: from the inputs at their contents and the result's buffer at anything, it runs to
    the inputs as they were and the result's buffer at the product. -/
theorem body_run (c : Dev nD) (E : Set ℕ) (i : grid3.Coords)
    (arg1 : Memref sig .tc .vmem S8192x64 .f32) (harg1 : arg1.IsWhole) (arg2 : Memref sig .tc .vmem S64x64 .f32) (harg2 : arg2.IsWhole)
    (arg3 : Memref sig .tc .vmem S8192x64 .f32) (harg3 : arg3.IsWhole)
    (x0 : Vec F S8192x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (product x0 x1)) -∗ K ⟨⟩))
      ⊢ wp frame (wpE (defs₀ (F := F)) Variants.none c none) E (cc3__linear_kernel i arg1 harg1 arg2 harg2 arg3 harg3) K := by
  simp only [cc3__linear_kernel_eq_skeleton]; unfold cc3__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (product_cover _)

/-- The region's proof data on core c: the arrays as the region finds them; after the body at point t each input's
    buffer at its block and the result's at the product of the two; the invariant the untouched rest; nothing owed. -/
def dat (c : Dev nD) : Dat τ (Elt F) Unit ℕ (UR sig nD τ) ℕ cfg3 c where
  A w := V c (Pipeline.arrRef spec3 w)
  after w t := match w with
    | ⟨0, _⟩ => blk V c 0 t
    | ⟨1, _⟩ => blk V c 1 t
    | ⟨2, _⟩ => product (blk V c 0 t) (blk V c 1 t)
  Φ _ := Pipeline.ΦA spec3 c
  q _ := fullShare
  owed _ := 0

theorem A_eq (c : Dev nD) (w : Fin cfg3.W) : (dat V c).A w = V c (Pipeline.arrRef spec3 w) := by
  dsimp only [dat]

theorem after_0 (c : Dev nD) (t : Fin cfg3.N) : (dat V c).after 0 t = blk V c 0 t := by dsimp only [dat]
theorem after_1 (c : Dev nD) (t : Fin cfg3.N) : (dat V c).after 1 t = blk V c 1 t := by dsimp only [dat]
theorem after_2 (c : Dev nD) (t : Fin cfg3.N) : (dat V c).after 2 t = product (blk V c 0 t) (blk V c 1 t) := by dsimp only [dat]

theorem before_0 (c : Dev nD) (t : Fin cfg3.N) (d) : (dat V c).before 0 t d = blk V c 0 t :=
  found_0 V (dat V c) (A_eq V c 0) (after_0 V c) t d
theorem before_1 (c : Dev nD) (t : Fin cfg3.N) (d) : (dat V c).before 1 t d = blk V c 1 t :=
  found_1 V (dat V c) (A_eq V c 1) (after_1 V c) t d

/-- The current staging memref of each window at point t, and the body as the pipeline calls it there. -/
abbrev st_0 (t : Fin cfg3.N) := (cfg3.win 0).stage (cfg3.slots t 0)
abbrev st_1 (t : Fin cfg3.N) := (cfg3.win 1).stage (cfg3.slots t 1)
abbrev st_2 (t : Fin cfg3.N) := (cfg3.win 2).stage (cfg3.slots t 2)
abbrev bodyAt (t : Fin cfg3.N) : Prog (TpuEff nD τ sig (Elt F) Λ₀ .tc) PUnit :=
  cc3__linear_kernel (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2))

/-- What the body is called with at point t, the windows one by one, -/
def bodyPre (c : Dev nD) (t : Fin cfg3.N) : sProp 𝕄 :=
  iprop((dat V c).Φ t.castSucc ∗ (dat V c).owesAt () t.castSucc
    ∗ (∃ d, owns (c : Thread nD τ) (st_0 t) fullShare ((dat V c).before 0 t d))
    ∗ (∃ d, owns (c : Thread nD τ) (st_1 t) fullShare ((dat V c).before 1 t d))
    ∗ (∃ d, owns (c : Thread nD τ) (st_2 t) fullShare ((dat V c).before 2 t d)))

/-- and what it returns. -/
def bodyPost (c : Dev nD) (t : Fin cfg3.N) : sProp 𝕄 :=
  iprop((dat V c).Φ t.succ ∗ (dat V c).owesAt () t.succ
    ∗ owns (c : Thread nD τ) (st_0 t) fullShare ((dat V c).after 0 t)
    ∗ owns (c : Thread nD τ) (st_1 t) fullShare ((dat V c).after 1 t)
    ∗ owns (c : Thread nD τ) (st_2 t) fullShare ((dat V c).after 2 t))

/-- The body at any point: the inputs' buffers hold their blocks, so the run applies; the invariant and the core's
    dues pass through unread. -/
theorem body_at (c : Dev nD) (t : Fin cfg3.N) :
    bodyPre V c t ⊢ wp frame (wpE (defs₀ (F := F)) Variants.none c none) Set.univ (bodyAt t) (fun _ => bodyPost V c t) := by
  unfold bodyPre bodyPost bodyAt
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (body_run c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W3, bigSep_W3]
  exact body_at V c t

/-- The region keeps nothing between points: its invariant is the untouched rest at both ends. -/
theorem hin (c : Dev nD) : Pipeline.ΦA spec3 c ⊢ (dat V c).Φ 0 := BI.Entails.refl _
theorem hout (c : Dev nD) : (dat V c).Φ (Fin.last cfg3.N) ⊢ Pipeline.ΦA spec3 c := BI.Entails.refl _

end Cert.Kernel.R3

end
-- ==== Proof.BRegion4.lean ====
/-
  The gather's region (kernel call 4), on every core, at any float values, from any contents `V` of the TensorCore's
  buffers at its entry.

  Its grid has 1661 × 13 points: an edge tile of 1024 edges, and for it the 13 tiles of 8192 rows of the padded node
  table, innermost.  At a point the body is handed the tile's source words (window 0) and edge weights (window 1), both
  fetched when the edge tile changes, the table tile (window 2, fetched at every point), a staging buffer for the tile
  of the result (window 3, written back at the edge tile's last point only) and a scratch block that it carries from
  point to point.  Three cases, by the table tile's number k = t mod 13:
    first  (k = 0):   the scratch is stored zero, then the tile's one-hot product is added into it;
    middle (0<k<12):  the product is added into the scratch as the point before left it;
    last   (k = 12):  the same, and then the scratch times the weights is stored over the whole result buffer.
  At the first two the result's buffer is idle: handed back as found and not written back.  After every point the
  scratch holds what the case's stores leave, read back; the region's invariant carries it.
-/
import proofs.«155233_j36086315221040_1_alg».proof.Proof.Gen.Kernel.Launch
import proofs.«155233_j36086315221040_1_alg».proof.Proof.Gen.Kernel.Skeleton
import proofs.«155233_j36086315221040_1_alg».proof.Proof.GridFacts
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each input's staging buffer holds its block at every point, fetched there or not (a block not fetched has not moved). -/
theorem found_0 {c : Dev nD} (dat : Dat τ (Elt F) Unit ℕ (UR sig nD τ) ℕ cfg4 c) (hA : dat.A 0 = V c (Pipeline.arrRef spec4 0))
    (hafter : ∀ t, dat.after 0 t = blk V c 0 t) (t : Fin cfg4.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found_1 {c : Dev nD} (dat : Dat τ (Elt F) Unit ℕ (UR sig nD τ) ℕ cfg4 c) (hA : dat.A 1 = V c (Pipeline.arrRef spec4 1))
    (hafter : ∀ t, dat.after 1 t = blk V c 1 t) (t : Fin cfg4.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found_2 {c : Dev nD} (dat : Dat τ (Elt F) Unit ℕ (UR sig nD τ) ℕ cfg4 c) (hA : dat.A 2 = V c (Pipeline.arrRef spec4 2))
    (hafter : ∀ t, dat.after 2 t = blk V c 2 t) (t : Fin cfg4.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's two conditions, decided over the grid -/

/-- "This is the edge tile's first table tile", as the body computes it from the grid coordinates. -/
abbrev isFirst (i : grid4.Coords) : Prop := (Scalar.cmpi .ne (Scalar.extui (Scalar.cmpi .eq (BitVec.ofNat 32 (i 1).val) 0#32)) 0#32) = 1#1
theorem isFirst_iff : ∀ t : Fin cfg4.N, isFirst (grid4.coords t) ↔ t.val % 13 = 0 :=
  Cert.Proof.GridFacts.gather_first
/-- "This is its last table tile". -/
abbrev isLast (i : grid4.Coords) : Prop := k4_cond2 i = 1#1
theorem isLast_iff : ∀ t : Fin cfg4.N, isLast (grid4.coords t) ↔ t.val % 13 = 12 :=
  Cert.Proof.GridFacts.gather_last

/-- The result's block is written back exactly at the last inner point. -/
theorem flush_3 : ∀ t : Fin cfg4.N, (cfg4.win 3).flush t = true ↔ t.val % 13 = 12 :=
  Cert.Proof.GridFacts.gather_flush
/-- The body as the pipeline calls it at point t. -/
abbrev bodyAt (t : Fin cfg4.N) : Prog (TpuEff nD τ sig (Elt F) Λ₀ .tc) PUnit :=
  cc4__gather_kernel (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (Memref.whole cc4_scratch0) (Memref.isWhole_whole _)

/-- Where the result's window is idle: exactly off the last table tile (the configuration's table is the negated test). -/
theorem idle_3 (i : grid4.Coords) (h : ¬isLast i) : cfg4.idle 3 i = true := by
  show (!(k4_cond2 i == 1#1)) = true
  simp only [Bool.not_eq_true', beq_eq_false_iff_ne, ne_eq]; exact h
theorem live_3 (i : grid4.Coords) (h : isLast i) : cfg4.idle 3 i = false := by
  show (!(k4_cond2 i == 1#1)) = false
  simp only [Bool.not_eq_false', beq_iff_eq]; exact h
/-- Off the last table tile the result's block is not written back. -/
theorem noFlush_3 (t : Fin cfg4.N) (h : ¬isLast (grid4.coords t)) : (cfg4.win 3).flush t = false := by
  have := flush_3 t
  cases hf : (cfg4.win 3).flush t
  · rfl
  · exact absurd ((isLast_iff t).mpr (this.mp hf)) h

/-! ## The staging and scratch memrefs -/

abbrev VO : View sig .tc .vmem S1024x64 .f32 := (Memref.whole cc4_stg3_0 : Memref sig .tc .vmem S1024x64 .f32).view
abbrev ms_0 (t : Fin cfg4.N) : Memref sig .tc .vmem S1024 .i32 := win4_0.stage (cfg4.slots t 0)
abbrev hs_0 (t : Fin cfg4.N) : (ms_0 t).IsWhole := hstage4_0 ((cfg4.slots t 0).cast nbuf4_0)
abbrev ms_1 (t : Fin cfg4.N) : Memref sig .tc .vmem S1024 .f32 := win4_1.stage (cfg4.slots t 1)
abbrev hs_1 (t : Fin cfg4.N) : (ms_1 t).IsWhole := hstage4_1 ((cfg4.slots t 1).cast nbuf4_1)
abbrev ms_2 (t : Fin cfg4.N) : Memref sig .tc .vmem S8192x64 .f32 := win4_2.stage (cfg4.slots t 2)
abbrev hs_2 (t : Fin cfg4.N) : (ms_2 t).IsWhole := hstage4_2 ((cfg4.slots t 2).cast nbuf4_2)
abbrev ms_3 (t : Fin cfg4.N) : Memref sig .tc .vmem S1024x64 .f32 := win4_3.stage (cfg4.slots t 3)
abbrev hs_3 (t : Fin cfg4.N) : (ms_3 t).IsWhole := hstage4_3 ((cfg4.slots t 3).cast nbuf4_3)
/-- The scratch block the body carries between points. -/
abbrev scM : Memref sig .tc .vmem S1024x64 .f32 := Memref.whole cc4_scratch0
abbrev VS : View sig .tc .vmem S1024x64 .f32 := (scM).view

/-- The untouched rest with the scratch block taken out of it, owned at some contents. -/
theorem rest_eq (c : Dev nD) :
    (Pipeline.ΦA spec4 c : sProp 𝕄)
      = iprop(iprop((∃ d, owns (c : Thread nD τ) scM fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM, owns_whole]
  try rfl

/-! ## The body, case by case: the pieces each buffer ends with are what the run finds -/

set_option maxHeartbeats 2000000 in
/-- FIRST table tile of an edge tile: the scratch at anything, the result's buffer handed back untouched. -/
noncomputable def run_first (c : Dev nD) (i : grid4.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole)
    (hc0 : isFirst i) (hc1 : ¬isLast i) (x0 : Vec F S1024 .i32) (x1 : Vec F S1024 .f32) (x2 : Vec F S8192x64 .f32) :
    Σ' (L3 : List (View.Piece (Elt F) S1024x64 .f32)), { LS : List (View.Piece (Elt F) S1024x64 .f32) //
      ∀ (xi3 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E (cc4__gather_kernel i arg2 harg2 arg3 harg3 arg4 harg4 arg5 harg5 arg6 harg6) K } := by
  refine ⟨[], ?_, fun xi3 E K => ?run⟩
  case run =>
    simp only [cc4__gather_kernel_eq_skeleton]; unfold cc4__gather_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 2000000 in
/-- A MIDDLE table tile: the scratch at what the point before left, the result's buffer handed back untouched. -/
noncomputable def run_mid (c : Dev nD) (i : grid4.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole)
    (hc0 : ¬isFirst i) (hc1 : ¬isLast i) (x0 : Vec F S1024 .i32) (x1 : Vec F S1024 .f32) (x2 : Vec F S8192x64 .f32) (xs0 : Vec F S1024x64 .f32) :
    Σ' (L3 : List (View.Piece (Elt F) S1024x64 .f32)), { LS : List (View.Piece (Elt F) S1024x64 .f32) //
      ∀ (xi3 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E (cc4__gather_kernel i arg2 harg2 arg3 harg3 arg4 harg4 arg5 harg5 arg6 harg6) K } := by
  refine ⟨[], ?_, fun xi3 E K => ?run⟩
  case run =>
    simp only [cc4__gather_kernel_eq_skeleton]; unfold cc4__gather_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 2000000 in
/-- The LAST table tile: the scratch at what the point before left, the result's buffer at anything and stored whole. -/
noncomputable def run_last (c : Dev nD) (i : grid4.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole)
    (hc0 : ¬isFirst i) (hc1 : isLast i) (x0 : Vec F S1024 .i32) (x1 : Vec F S1024 .f32) (x2 : Vec F S8192x64 .f32) (xs0 : Vec F S1024x64 .f32) :
    Σ' (L3 : List (View.Piece (Elt F) S1024x64 .f32)), { LS : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc4__gather_kernel i arg2 harg2 arg3 harg3 arg4 harg4 arg5 harg5 arg6 harg6) K } := by
  refine ⟨?_, ?_, fun E K => ?run⟩
  case run =>
    simp only [cc4__gather_kernel_eq_skeleton]; unfold cc4__gather_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! ## What each case leaves in the scratch block and in the result's buffer -/

theorem scover_first (c : Dev nD) (i : grid4.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole) (hc0 : isFirst i) (hc1 : ¬isLast i) (x0 : Vec F S1024 .i32) (x1 : Vec F S1024 .f32) (x2 : Vec F S8192x64 .f32) (y : S1024x64.Idx) :
    ∃ pc ∈ (run_first c i arg2 harg2 arg3 harg3 arg4 harg4 arg5 harg5 arg6 harg6 hc0 hc1 x0 x1 x2).2.1, y ∈ pc.1.set :=
  View.cover_of_tiledL (run_first c i arg2 harg2 arg3 harg3 arg4 harg4 arg5 harg5 arg6 harg6 hc0 hc1 x0 x1 x2).2.1 S1024x64.size (by sl_kernel_rfl) y
/-- After a first table tile the scratch block holds the case's pieces, read back. -/
def scr_first (c : Dev nD) (i : grid4.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole) (hc0 : isFirst i) (hc1 : ¬isLast i) (x0 : Vec F S1024 .i32) (x1 : Vec F S1024 .f32) (x2 : Vec F S8192x64 .f32) : Vec F S1024x64 .f32 :=
  VS.read (Elt F) (VS.writes (Elt F) VS.junk (run_first c i arg2 harg2 arg3 harg3 arg4 harg4 arg5 harg5 arg6 harg6 hc0 hc1 x0 x1 x2).2.1)

theorem scover_mid (c : Dev nD) (i : grid4.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole) (hc0 : ¬isFirst i) (hc1 : ¬isLast i) (x0 : Vec F S1024 .i32) (x1 : Vec F S1024 .f32) (x2 : Vec F S8192x64 .f32) (xs0 : Vec F S1024x64 .f32) (y : S1024x64.Idx) :
    ∃ pc ∈ (run_mid c i arg2 harg2 arg3 harg3 arg4 harg4 arg5 harg5 arg6 harg6 hc0 hc1 x0 x1 x2 xs0).2.1, y ∈ pc.1.set :=
  View.cover_of_tiledL (run_mid c i arg2 harg2 arg3 harg3 arg4 harg4 arg5 harg5 arg6 harg6 hc0 hc1 x0 x1 x2 xs0).2.1 S1024x64.size (by sl_kernel_rfl) y
def scr_mid (c : Dev nD) (i : grid4.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole) (hc0 : ¬isFirst i) (hc1 : ¬isLast i) (x0 : Vec F S1024 .i32) (x1 : Vec F S1024 .f32) (x2 : Vec F S8192x64 .f32) (xs0 : Vec F S1024x64 .f32) : Vec F S1024x64 .f32 :=
  VS.read (Elt F) (VS.writes (Elt F) VS.junk (run_mid c i arg2 harg2 arg3 harg3 arg4 harg4 arg5 harg5 arg6 harg6 hc0 hc1 x0 x1 x2 xs0).2.1)

theorem scover_last (c : Dev nD) (i : grid4.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole) (hc0 : ¬isFirst i) (hc1 : isLast i) (x0 : Vec F S1024 .i32) (x1 : Vec F S1024 .f32) (x2 : Vec F S8192x64 .f32) (xs0 : Vec F S1024x64 .f32) (y : S1024x64.Idx) :
    ∃ pc ∈ (run_last c i arg2 harg2 arg3 harg3 arg4 harg4 arg5 harg5 arg6 harg6 hc0 hc1 x0 x1 x2 xs0).2.1, y ∈ pc.1.set :=
  View.cover_of_tiledL (run_last c i arg2 harg2 arg3 harg3 arg4 harg4 arg5 harg5 arg6 harg6 hc0 hc1 x0 x1 x2 xs0).2.1 S1024x64.size (by sl_kernel_rfl) y
def scr_last (c : Dev nD) (i : grid4.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole) (hc0 : ¬isFirst i) (hc1 : isLast i) (x0 : Vec F S1024 .i32) (x1 : Vec F S1024 .f32) (x2 : Vec F S8192x64 .f32) (xs0 : Vec F S1024x64 .f32) : Vec F S1024x64 .f32 :=
  VS.read (Elt F) (VS.writes (Elt F) VS.junk (run_last c i arg2 harg2 arg3 harg3 arg4 harg4 arg5 harg5 arg6 harg6 hc0 hc1 x0 x1 x2 xs0).2.1)
theorem ocover_last (c : Dev nD) (i : grid4.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole) (hc0 : ¬isFirst i) (hc1 : isLast i) (x0 : Vec F S1024 .i32) (x1 : Vec F S1024 .f32) (x2 : Vec F S8192x64 .f32) (xs0 : Vec F S1024x64 .f32) (y : S1024x64.Idx) :
    ∃ pc ∈ (run_last c i arg2 harg2 arg3 harg3 arg4 harg4 arg5 harg5 arg6 harg6 hc0 hc1 x0 x1 x2 xs0).1, y ∈ pc.1.set :=
  View.cover_of_tiledL (run_last c i arg2 harg2 arg3 harg3 arg4 harg4 arg5 harg5 arg6 harg6 hc0 hc1 x0 x1 x2 xs0).1 S1024x64.size (by sl_kernel_rfl) y
/-- After a last table tile the result's buffer holds the case's pieces, read back. -/
def out_last (c : Dev nD) (i : grid4.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole) (hc0 : ¬isFirst i) (hc1 : isLast i) (x0 : Vec F S1024 .i32) (x1 : Vec F S1024 .f32) (x2 : Vec F S8192x64 .f32) (xs0 : Vec F S1024x64 .f32) : Vec F S1024x64 .f32 :=
  VO.read (Elt F) (VO.writes (Elt F) VO.junk (run_last c i arg2 harg2 arg3 harg3 arg4 harg4 arg5 harg5 arg6 harg6 hc0 hc1 x0 x1 x2 xs0).1)
/-- Where the result's buffer is idle nothing reads what is recorded for it: a placeholder. -/
def out_idle : Vec F S1024x64 .f32 := VO.read (Elt F) VO.junk

/-! ## Point by point -/

/-- After the body at position n: the result's staging buffer, then the scratch block — the case the point is in, run at the
    point's memrefs and input blocks, over the scratch the point before left. -/
def outsAt (c : Dev nD) : (n : ℕ) → n < cfg4.N → Vec F S1024x64 .f32 × Vec F S1024x64 .f32
  | 0, hn => (out_idle, scr_first c (grid4.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((isFirst_iff ⟨0, hn⟩).mpr (Nat.zero_mod _)) (fun h => (fun h' => by (try dsimp only at h'); omega) ((isLast_iff ⟨0, hn⟩).mp h)) (blk V c 0 ⟨0, hn⟩) (blk V c 1 ⟨0, hn⟩) (blk V c 2 ⟨0, hn⟩))
  | n + 1, hn =>
    if h0 : (n + 1) % 13 = 0 then
      if h1 : (n + 1) % 13 = 12 then False.elim (by omega)
      else (out_idle, scr_first c (grid4.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) ((isFirst_iff ⟨n + 1, hn⟩).mpr h0) (fun h => h1 ((isLast_iff ⟨n + 1, hn⟩).mp h)) (blk V c 0 ⟨n + 1, hn⟩) (blk V c 1 ⟨n + 1, hn⟩) (blk V c 2 ⟨n + 1, hn⟩))
    else
      if h1 : (n + 1) % 13 = 12 then
        (out_last c (grid4.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (outsAt c n (Nat.lt_of_succ_lt hn)).2,
          scr_last c (grid4.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (outsAt c n (Nat.lt_of_succ_lt hn)).2)
      else
        (out_idle, scr_mid c (grid4.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((isFirst_iff ⟨n + 1, hn⟩).mp h)) (fun h => h1 ((isLast_iff ⟨n + 1, hn⟩).mp h)) (blk V c 0 ⟨n + 1, hn⟩) (blk V c 1 ⟨n + 1, hn⟩) (blk V c 2 ⟨n + 1, hn⟩) (outsAt c n (Nat.lt_of_succ_lt hn)).2)

theorem outsAt_first (c : Dev nD) (t : Fin cfg4.N) (h0 : t.val % 13 = 0) (h1 : ¬t.val % 13 = 12) :
    outsAt V c t.val t.isLt = (out_idle, scr_first c (grid4.coords t) (ms_0 t) (hs_0 t) (ms_1 t) (hs_1 t) (ms_2 t) (hs_2 t) (ms_3 t) (hs_3 t) scM (Memref.isWhole_whole _) ((isFirst_iff t).mpr h0) (fun h => h1 ((isLast_iff t).mp h)) (blk V c 0 t) (blk V c 1 t) (blk V c 2 t)) := by
  obtain ⟨n, hn⟩ := t
  cases n with
  | zero => exact rfl
  | succ n => exact (dif_pos h0).trans ((dif_neg h1).trans rfl)

theorem outsAt_mid (c : Dev nD) (t : Fin cfg4.N) (h0 : ¬t.val % 13 = 0) (h1 : ¬t.val % 13 = 12) :
    outsAt V c t.val t.isLt = (out_idle, scr_mid c (grid4.coords t) (ms_0 t) (hs_0 t) (ms_1 t) (hs_1 t) (ms_2 t) (hs_2 t) (ms_3 t) (hs_3 t) scM (Memref.isWhole_whole _) (fun h => h0 ((isFirst_iff t).mp h)) (fun h => h1 ((isLast_iff t).mp h)) (blk V c 0 t) (blk V c 1 t) (blk V c 2 t)
      (outsAt V c (t.val - 1) (Nat.lt_of_le_of_lt (Nat.sub_le _ _) t.isLt)).2) := by
  obtain ⟨n, hn⟩ := t
  cases n with
  | zero => exact (by exfalso; exact absurd (Nat.zero_mod _) h0)
  | succ n => exact (dif_neg h0).trans ((dif_neg h1).trans rfl)

theorem outsAt_last (c : Dev nD) (t : Fin cfg4.N) (h0 : ¬t.val % 13 = 0) (h1 : t.val % 13 = 12) :
    outsAt V c t.val t.isLt = (out_last c (grid4.coords t) (ms_0 t) (hs_0 t) (ms_1 t) (hs_1 t) (ms_2 t) (hs_2 t) (ms_3 t) (hs_3 t) scM (Memref.isWhole_whole _) (fun h => h0 ((isFirst_iff t).mp h)) ((isLast_iff t).mpr h1) (blk V c 0 t) (blk V c 1 t) (blk V c 2 t)
        (outsAt V c (t.val - 1) (Nat.lt_of_le_of_lt (Nat.sub_le _ _) t.isLt)).2,
      scr_last c (grid4.coords t) (ms_0 t) (hs_0 t) (ms_1 t) (hs_1 t) (ms_2 t) (hs_2 t) (ms_3 t) (hs_3 t) scM (Memref.isWhole_whole _) (fun h => h0 ((isFirst_iff t).mp h)) ((isLast_iff t).mpr h1) (blk V c 0 t) (blk V c 1 t) (blk V c 2 t)
        (outsAt V c (t.val - 1) (Nat.lt_of_le_of_lt (Nat.sub_le _ _) t.isLt)).2) := by
  obtain ⟨n, hn⟩ := t
  cases n with
  | zero => exact (by exfalso; exact absurd (Nat.zero_mod _) h0)
  | succ n => exact (dif_neg h0).trans ((dif_pos h1).trans rfl)

/-- The region's invariant before position n: before the first point the untouched rest; afterwards the scratch block at what
    the point before left, beside the remainder of the rest and the generator register. -/
def inv (c : Dev nD) : (n : ℕ) → n ≤ cfg4.N → sProp 𝕄
  | 0, _ => Pipeline.ΦA spec4 c
  | n + 1, hn => iprop(iprop(owns (c : Thread nD τ) scM fullShare ((outsAt V c n hn).2) ∗ Pipeline.scopedRestBut (Ix := Unit) (Name := ℕ) (U := UR sig nD τ) (Lvl := ℕ) (Val := Elt F) spec4 c [cc4_scratch0]) ∗ (∃ r, prngReg c r))

theorem inv_zero (c : Dev nD) (n : ℕ) (h : n ≤ cfg4.N) (hz : n = 0) : inv V c n h = Pipeline.ΦA spec4 c := by
  subst hz; rfl
theorem inv_succ (c : Dev nD) (n : ℕ) (hn : n < cfg4.N) :
    inv V c (n + 1) hn = iprop(iprop(owns (c : Thread nD τ) scM fullShare ((outsAt V c n hn).2) ∗ Pipeline.scopedRestBut (Ix := Unit) (Name := ℕ) (U := UR sig nD τ) (Lvl := ℕ) (Val := Elt F) spec4 c [cc4_scratch0]) ∗ (∃ r, prngReg c r)) := rfl
theorem inv_pos (c : Dev nD) (n : ℕ) (h : n ≤ cfg4.N) (hz : n ≠ 0) :
    inv V c n h = iprop(iprop(owns (c : Thread nD τ) scM fullShare ((outsAt V c (n - 1) (by omega)).2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-- The region's proof data on core c. -/
def dat (c : Dev nD) : Dat τ (Elt F) Unit ℕ (UR sig nD τ) ℕ cfg4 c where
  A w := V c (Pipeline.arrRef spec4 w)
  after w t := match w with
    | ⟨0, _⟩ => blk V c 0 t
    | ⟨1, _⟩ => blk V c 1 t
    | ⟨2, _⟩ => blk V c 2 t
    | ⟨3, _⟩ => (outsAt V c t.val t.isLt).1
  Φ t := inv V c t.val (Nat.le_of_lt_succ t.isLt)
  q _ := fullShare
  owed _ := 0

theorem A_eq (c : Dev nD) (w : Fin cfg4.W) : (dat V c).A w = V c (Pipeline.arrRef spec4 w) := by
  dsimp only [dat]
theorem inv_castSucc (c : Dev nD) (t : Fin cfg4.N) : (dat V c).Φ t.castSucc = inv V c t.val (Nat.le_of_lt t.isLt) := by
  dsimp only [dat]; simp only [Fin.coe_castSucc]
theorem after_0 (c : Dev nD) (t : Fin cfg4.N) : (dat V c).after 0 t = blk V c 0 t := by dsimp only [dat]
theorem after_1 (c : Dev nD) (t : Fin cfg4.N) : (dat V c).after 1 t = blk V c 1 t := by dsimp only [dat]
theorem after_2 (c : Dev nD) (t : Fin cfg4.N) : (dat V c).after 2 t = blk V c 2 t := by dsimp only [dat]
theorem after_3 (c : Dev nD) (t : Fin cfg4.N) : (dat V c).after 3 t = (outsAt V c t.val t.isLt).1 := by dsimp only [dat]
theorem before_0 (c : Dev nD) (t : Fin cfg4.N) (d) : (dat V c).before 0 t d = blk V c 0 t := found_0 V (dat V c) (A_eq V c 0) (after_0 V c) t d
theorem before_1 (c : Dev nD) (t : Fin cfg4.N) (d) : (dat V c).before 1 t d = blk V c 1 t := found_1 V (dat V c) (A_eq V c 1) (after_1 V c) t d
theorem before_2 (c : Dev nD) (t : Fin cfg4.N) (d) : (dat V c).before 2 t d = blk V c 2 t := found_2 V (dat V c) (A_eq V c 2) (after_2 V c) t d

/-! ## The body obligation, at a generic point -/

def bodyPre (c : Dev nD) (t : Fin cfg4.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

def bodyPost (c : Dev nD) (t : Fin cfg4.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4800000 in
/-- The body at any point: the inputs' buffers hold their blocks; the closed forms say which case the point is in; the invariant
    hands over the scratch block at what the point before left (at anything at the very first point) and takes it back at this
    point's contents; where the result's window is idle its buffer goes back as found. -/
theorem body_at (c : Dev nD) (t : Fin cfg4.N) :
    bodyPre V c t ⊢ wp frame (wpE (defs₀ (F := F)) Variants.none c none) Set.univ (bodyAt t) (fun _ => bodyPost V c t) := by
  unfold bodyPre bodyPost bodyAt
  simp only [before_0, before_1, before_2]
  rw [show (dat V c).owesAt () t.succ = (dat V c).owesAt () t.castSucc from rfl]
  rw [show (dat V c).Φ t.succ = inv V c (t.val + 1) t.isLt from rfl, inv_succ]
  rw [show (dat V c).leavesExact 0 t = owns (c : Thread nD τ) (ms_0 t) fullShare ((dat V c).after 0 t) from by
    unfold Dat.leavesExact; rfl, after_0]
  rw [show (dat V c).leavesExact 1 t = owns (c : Thread nD τ) (ms_1 t) fullShare ((dat V c).after 1 t) from by
    unfold Dat.leavesExact; rfl, after_1]
  rw [show (dat V c).leavesExact 2 t = owns (c : Thread nD τ) (ms_2 t) fullShare ((dat V c).after 2 t) from by
    unfold Dat.leavesExact; rfl, after_2]
  by_cases h0 : t.val % 13 = 0
  · have h1 : ¬t.val % 13 = 12 := by omega
    rw [Dat.leavesExact_idle (dat V c) 3 t (idle_3 _ (fun h => h1 ((isLast_iff t).mp h))) (noFlush_3 t (fun h => h1 ((isLast_iff t).mp h)))]
    rw [outsAt_first V c t h0 h1]
    unfold scr_first; (try dsimp only)
    by_cases hz : t.val = 0
    · rw [inv_castSucc V c t, inv_zero V c _ _ hz, rest_eq]
      iintro ⟨⟨⟨HS, Hr⟩, Hg⟩, Ho, ⟨%d0, H0⟩, ⟨%d1, H1⟩, ⟨%d2, H2⟩, ⟨%d3, H3⟩⟩
      iapply ((run_first c (grid4.coords t) _ _ _ _ _ _ _ _ _ _ ((isFirst_iff t).mpr h0) (fun h => h1 ((isLast_iff t).mp h)) (blk V c 0 t) (blk V c 1 t) (blk V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover_first c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [inv_castSucc V c t, inv_pos V c _ _ hz]
      iintro ⟨⟨⟨HS, Hr⟩, Hg⟩, Ho, ⟨%d0, H0⟩, ⟨%d1, H1⟩, ⟨%d2, H2⟩, ⟨%d3, H3⟩⟩
      iapply ((run_first c (grid4.coords t) _ _ _ _ _ _ _ _ _ _ ((isFirst_iff t).mpr h0) (fun h => h1 ((isLast_iff t).mp h)) (blk V c 0 t) (blk V c 1 t) (blk V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover_first c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 13 = 12
    · rw [show (dat V c).leavesExact 3 t = owns (c : Thread nD τ) (ms_3 t) fullShare ((dat V c).after 3 t) from by
        unfold Dat.leavesExact; rw [live_3 _ ((isLast_iff t).mpr h1)], after_3]
      rw [outsAt_last V c t h0 h1]
      unfold out_last scr_last; (try dsimp only)
      rw [inv_castSucc V c t, inv_pos V c _ _ hz]
      iintro ⟨⟨⟨HS, Hr⟩, Hg⟩, Ho, ⟨%d0, H0⟩, ⟨%d1, H1⟩, ⟨%d2, H2⟩, ⟨%d3, H3⟩⟩
      iapply ((run_last c (grid4.coords t) _ _ _ _ _ _ _ _ _ _ (fun h => h0 ((isFirst_iff t).mp h)) ((isLast_iff t).mpr h1) (blk V c 0 t) (blk V c 1 t) (blk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hr Hg]
      · isplitl [HS Hr]
        · isplitl [HS]
          · unfold owns; iexists _; isplitr
            swap; · iexact HS
            ipureintro; exact View.read_writes_of_cover _ _ _ _ _ (scover_last c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (ocover_last c _ _ _ _ _ _ _ _ _ _ _ _ _ _ _ _ _)
    · rw [Dat.leavesExact_idle (dat V c) 3 t (idle_3 _ (fun h => h1 ((isLast_iff t).mp h))) (noFlush_3 t (fun h => h1 ((isLast_iff t).mp h)))]
      rw [outsAt_mid V c t h0 h1]
      unfold scr_mid; (try dsimp only)
      rw [inv_castSucc V c t, inv_pos V c _ _ hz]
      iintro ⟨⟨⟨HS, Hr⟩, Hg⟩, Ho, ⟨%d0, H0⟩, ⟨%d1, H1⟩, ⟨%d2, H2⟩, ⟨%d3, H3⟩⟩
      iapply ((run_mid c (grid4.coords t) _ _ _ _ _ _ _ _ _ _ (fun h => h0 ((isFirst_iff t).mp h)) (fun h => h1 ((isLast_iff t).mp h)) (blk V c 0 t) (blk V c 1 t) (blk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover_mid c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W4, bigSep_W4]
  exact body_at V c t

/-- The untouched rest is the invariant before the first point, -/
theorem hin (c : Dev nD) : Pipeline.ΦA spec4 c ⊢ (dat V c).Φ 0 := by
  rw [show (dat V c).Φ 0 = inv V c 0 (Nat.zero_le _) from rfl, inv_zero V c 0 _ rfl]
  try exact Idealize.SL.BI.Entails.refl _

/-- and the invariant after the last point gives it back, the scratch block's contents forgotten. -/
theorem hout (c : Dev nD) : (dat V c).Φ (Fin.last cfg4.N) ⊢ Pipeline.ΦA spec4 c := by
  rw [show (dat V c).Φ (Fin.last cfg4.N) = inv V c (Fin.last cfg4.N).val (Nat.le_of_lt_succ (Fin.last cfg4.N).isLt) from rfl,
    inv_pos V c _ _ (by rw [Fin.val_last]; have : cfg4.N = 21593 := N_4; omega), rest_eq]
  iintro ⟨⟨HS, Hr⟩, Hg⟩
  isplitl [HS Hr]
  · isplitl [HS]
    · iexists _; iexact HS
    iexact Hr
  iexact Hg

end Cert.Kernel.R4

end
-- ==== Proof.BRegion5.lean ====
/-
  The scatter's region (kernel call 5), on every core, at any float values, from any contents `V` of the TensorCore's
  buffers at its entry.

  Its grid has 13 × 1661 points: a node tile of 8192 rows, and for it the 1661 tiles of 1024 padded edges, innermost.  At a
  point the body is handed the edge tile's target words (window 0) and messages (window 1), the bias row (window 2, fetched
  once), a staging buffer for the node tile of the result (window 3, written back at the node tile's last point only) and
  a scratch block that it carries from point to point.  Three cases, by the edge tile's number e = t mod 1661:
    first  (e = 0):      the scratch is stored zero, then the tile's one-hot product is added into it;
    middle (0<e<1660):   the product is added into the scratch as the point before left it;
    last   (e = 1660):   the same, and then the scratch plus the bias row is stored over the whole result buffer.
  At the first two the result's buffer is idle: handed back as found and not written back.  After every point the
  scratch holds what the case's stores leave, read back; the region's invariant carries it.
-/
import proofs.«155233_j36086315221040_1_alg».proof.Proof.Gen.Kernel.Launch
import proofs.«155233_j36086315221040_1_alg».proof.Proof.Gen.Kernel.Skeleton
import proofs.«155233_j36086315221040_1_alg».proof.Proof.GridFacts
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R5

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blk (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Each input's staging buffer holds its block at every point, fetched there or not (a block not fetched has not moved). -/
theorem found_0 {c : Dev nD} (dat : Dat τ (Elt F) Unit ℕ (UR sig nD τ) ℕ cfg5 c) (hA : dat.A 0 = V c (Pipeline.arrRef spec5 0))
    (hafter : ∀ t, dat.after 0 t = blk V c 0 t) (t : Fin cfg5.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found_1 {c : Dev nD} (dat : Dat τ (Elt F) Unit ℕ (UR sig nD τ) ℕ cfg5 c) (hA : dat.A 1 = V c (Pipeline.arrRef spec5 1))
    (hafter : ∀ t, dat.after 1 t = blk V c 1 t) (t : Fin cfg5.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found_2 {c : Dev nD} (dat : Dat τ (Elt F) Unit ℕ (UR sig nD τ) ℕ cfg5 c) (hA : dat.A 2 = V c (Pipeline.arrRef spec5 2))
    (hafter : ∀ t, dat.after 2 t = blk V c 2 t) (t : Fin cfg5.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's two conditions, decided over the grid -/

/-- "This is the node tile's first edge tile", as the body computes it from the grid coordinates. -/
abbrev isFirst (i : grid5.Coords) : Prop := (Scalar.cmpi .ne (Scalar.extui (Scalar.cmpi .eq (BitVec.ofNat 32 (i 1).val) 0#32)) 0#32) = 1#1
theorem isFirst_iff : ∀ t : Fin cfg5.N, isFirst (grid5.coords t) ↔ t.val % 1661 = 0 :=
  Cert.Proof.GridFacts.scatter_first
/-- "This is its last edge tile". -/
abbrev isLast (i : grid5.Coords) : Prop := k5_cond2 i = 1#1
theorem isLast_iff : ∀ t : Fin cfg5.N, isLast (grid5.coords t) ↔ t.val % 1661 = 1660 :=
  Cert.Proof.GridFacts.scatter_last

/-- The result's block is written back exactly at the last inner point. -/
theorem flush_3 : ∀ t : Fin cfg5.N, (cfg5.win 3).flush t = true ↔ t.val % 1661 = 1660 :=
  Cert.Proof.GridFacts.scatter_flush
/-- The body as the pipeline calls it at point t. -/
abbrev bodyAt (t : Fin cfg5.N) : Prog (TpuEff nD τ sig (Elt F) Λ₀ .tc) PUnit :=
  cc5__scatter_kernel (grid5.coords t) (win5_0.stage (cfg5.slots t 0)) (hstage5_0 ((cfg5.slots t 0).cast nbuf5_0)) (win5_1.stage (cfg5.slots t 1)) (hstage5_1 ((cfg5.slots t 1).cast nbuf5_1)) (win5_2.stage (cfg5.slots t 2)) (hstage5_2 ((cfg5.slots t 2).cast nbuf5_2)) (win5_3.stage (cfg5.slots t 3)) (hstage5_3 ((cfg5.slots t 3).cast nbuf5_3)) (Memref.whole cc5_scratch0) (Memref.isWhole_whole _)

/-- Where the result's window is idle: exactly off the last edge tile (the configuration's table is the negated test). -/
theorem idle_3 (i : grid5.Coords) (h : ¬isLast i) : cfg5.idle 3 i = true := by
  show (!(k5_cond2 i == 1#1)) = true
  simp only [Bool.not_eq_true', beq_eq_false_iff_ne, ne_eq]; exact h
theorem live_3 (i : grid5.Coords) (h : isLast i) : cfg5.idle 3 i = false := by
  show (!(k5_cond2 i == 1#1)) = false
  simp only [Bool.not_eq_false', beq_iff_eq]; exact h
/-- Off the last edge tile the result's block is not written back. -/
theorem noFlush_3 (t : Fin cfg5.N) (h : ¬isLast (grid5.coords t)) : (cfg5.win 3).flush t = false := by
  have := flush_3 t
  cases hf : (cfg5.win 3).flush t
  · rfl
  · exact absurd ((isLast_iff t).mpr (this.mp hf)) h

/-! ## The staging and scratch memrefs -/

abbrev VO : View sig .tc .vmem S8192x64 .f32 := (Memref.whole cc5_stg3_0 : Memref sig .tc .vmem S8192x64 .f32).view
abbrev ms_0 (t : Fin cfg5.N) : Memref sig .tc .vmem S1024 .i32 := win5_0.stage (cfg5.slots t 0)
abbrev hs_0 (t : Fin cfg5.N) : (ms_0 t).IsWhole := hstage5_0 ((cfg5.slots t 0).cast nbuf5_0)
abbrev ms_1 (t : Fin cfg5.N) : Memref sig .tc .vmem S1024x64 .f32 := win5_1.stage (cfg5.slots t 1)
abbrev hs_1 (t : Fin cfg5.N) : (ms_1 t).IsWhole := hstage5_1 ((cfg5.slots t 1).cast nbuf5_1)
abbrev ms_2 (t : Fin cfg5.N) : Memref sig .tc .vmem S64 .f32 := win5_2.stage (cfg5.slots t 2)
abbrev hs_2 (t : Fin cfg5.N) : (ms_2 t).IsWhole := hstage5_2 ((cfg5.slots t 2).cast nbuf5_2)
abbrev ms_3 (t : Fin cfg5.N) : Memref sig .tc .vmem S8192x64 .f32 := win5_3.stage (cfg5.slots t 3)
abbrev hs_3 (t : Fin cfg5.N) : (ms_3 t).IsWhole := hstage5_3 ((cfg5.slots t 3).cast nbuf5_3)
/-- The scratch block the body carries between points. -/
abbrev scM : Memref sig .tc .vmem S8192x64 .f32 := Memref.whole cc5_scratch0
abbrev VS : View sig .tc .vmem S8192x64 .f32 := (scM).view

/-- The untouched rest with the scratch block taken out of it, owned at some contents. -/
theorem rest_eq (c : Dev nD) :
    (Pipeline.ΦA spec5 c : sProp 𝕄)
      = iprop(iprop((∃ d, owns (c : Thread nD τ) scM fullShare d)
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM, owns_whole]
  try rfl

/-! ## The body, case by case: the pieces each buffer ends with are what the run finds -/

set_option maxHeartbeats 2000000 in
/-- FIRST edge tile of a node tile: the scratch at anything, the result's buffer handed back untouched. -/
noncomputable def run_first (c : Dev nD) (i : grid5.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole)
    (hc0 : isFirst i) (hc1 : ¬isLast i) (x0 : Vec F S1024 .i32) (x1 : Vec F S1024x64 .f32) (x2 : Vec F S64 .f32) :
    Σ' (L3 : List (View.Piece (Elt F) S8192x64 .f32)), { LS : List (View.Piece (Elt F) S8192x64 .f32) //
      ∀ (xi3 : Vec F S8192x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E (cc5__scatter_kernel i arg2 harg2 arg3 harg3 arg4 harg4 arg5 harg5 arg6 harg6) K } := by
  refine ⟨[], ?_, fun xi3 E K => ?run⟩
  case run =>
    simp only [cc5__scatter_kernel_eq_skeleton]; unfold cc5__scatter_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 2000000 in
/-- A MIDDLE edge tile: the scratch at what the point before left, the result's buffer handed back untouched. -/
noncomputable def run_mid (c : Dev nD) (i : grid5.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole)
    (hc0 : ¬isFirst i) (hc1 : ¬isLast i) (x0 : Vec F S1024 .i32) (x1 : Vec F S1024x64 .f32) (x2 : Vec F S64 .f32) (xs0 : Vec F S8192x64 .f32) :
    Σ' (L3 : List (View.Piece (Elt F) S8192x64 .f32)), { LS : List (View.Piece (Elt F) S8192x64 .f32) //
      ∀ (xi3 : Vec F S8192x64 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E (cc5__scatter_kernel i arg2 harg2 arg3 harg3 arg4 harg4 arg5 harg5 arg6 harg6) K } := by
  refine ⟨[], ?_, fun xi3 E K => ?run⟩
  case run =>
    simp only [cc5__scatter_kernel_eq_skeleton]; unfold cc5__scatter_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 2000000 in
/-- The LAST edge tile: the scratch at what the point before left, the result's buffer at anything and stored whole. -/
noncomputable def run_last (c : Dev nD) (i : grid5.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole)
    (hc0 : ¬isFirst i) (hc1 : isLast i) (x0 : Vec F S1024 .i32) (x1 : Vec F S1024x64 .f32) (x2 : Vec F S64 .f32) (xs0 : Vec F S8192x64 .f32) :
    Σ' (L3 : List (View.Piece (Elt F) S8192x64 .f32)), { LS : List (View.Piece (Elt F) S8192x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc5__scatter_kernel i arg2 harg2 arg3 harg3 arg4 harg4 arg5 harg5 arg6 harg6) K } := by
  refine ⟨?_, ?_, fun E K => ?run⟩
  case run =>
    simp only [cc5__scatter_kernel_eq_skeleton]; unfold cc5__scatter_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! ## What each case leaves in the scratch block and in the result's buffer -/

theorem scover_first (c : Dev nD) (i : grid5.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole) (hc0 : isFirst i) (hc1 : ¬isLast i) (x0 : Vec F S1024 .i32) (x1 : Vec F S1024x64 .f32) (x2 : Vec F S64 .f32) (y : S8192x64.Idx) :
    ∃ pc ∈ (run_first c i arg2 harg2 arg3 harg3 arg4 harg4 arg5 harg5 arg6 harg6 hc0 hc1 x0 x1 x2).2.1, y ∈ pc.1.set :=
  View.cover_of_tiledL (run_first c i arg2 harg2 arg3 harg3 arg4 harg4 arg5 harg5 arg6 harg6 hc0 hc1 x0 x1 x2).2.1 S8192x64.size (by sl_kernel_rfl) y
/-- After a first edge tile the scratch block holds the case's pieces, read back. -/
def scr_first (c : Dev nD) (i : grid5.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole) (hc0 : isFirst i) (hc1 : ¬isLast i) (x0 : Vec F S1024 .i32) (x1 : Vec F S1024x64 .f32) (x2 : Vec F S64 .f32) : Vec F S8192x64 .f32 :=
  VS.read (Elt F) (VS.writes (Elt F) VS.junk (run_first c i arg2 harg2 arg3 harg3 arg4 harg4 arg5 harg5 arg6 harg6 hc0 hc1 x0 x1 x2).2.1)

theorem scover_mid (c : Dev nD) (i : grid5.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole) (hc0 : ¬isFirst i) (hc1 : ¬isLast i) (x0 : Vec F S1024 .i32) (x1 : Vec F S1024x64 .f32) (x2 : Vec F S64 .f32) (xs0 : Vec F S8192x64 .f32) (y : S8192x64.Idx) :
    ∃ pc ∈ (run_mid c i arg2 harg2 arg3 harg3 arg4 harg4 arg5 harg5 arg6 harg6 hc0 hc1 x0 x1 x2 xs0).2.1, y ∈ pc.1.set :=
  View.cover_of_tiledL (run_mid c i arg2 harg2 arg3 harg3 arg4 harg4 arg5 harg5 arg6 harg6 hc0 hc1 x0 x1 x2 xs0).2.1 S8192x64.size (by sl_kernel_rfl) y
def scr_mid (c : Dev nD) (i : grid5.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole) (hc0 : ¬isFirst i) (hc1 : ¬isLast i) (x0 : Vec F S1024 .i32) (x1 : Vec F S1024x64 .f32) (x2 : Vec F S64 .f32) (xs0 : Vec F S8192x64 .f32) : Vec F S8192x64 .f32 :=
  VS.read (Elt F) (VS.writes (Elt F) VS.junk (run_mid c i arg2 harg2 arg3 harg3 arg4 harg4 arg5 harg5 arg6 harg6 hc0 hc1 x0 x1 x2 xs0).2.1)

theorem scover_last (c : Dev nD) (i : grid5.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole) (hc0 : ¬isFirst i) (hc1 : isLast i) (x0 : Vec F S1024 .i32) (x1 : Vec F S1024x64 .f32) (x2 : Vec F S64 .f32) (xs0 : Vec F S8192x64 .f32) (y : S8192x64.Idx) :
    ∃ pc ∈ (run_last c i arg2 harg2 arg3 harg3 arg4 harg4 arg5 harg5 arg6 harg6 hc0 hc1 x0 x1 x2 xs0).2.1, y ∈ pc.1.set :=
  View.cover_of_tiledL (run_last c i arg2 harg2 arg3 harg3 arg4 harg4 arg5 harg5 arg6 harg6 hc0 hc1 x0 x1 x2 xs0).2.1 S8192x64.size (by sl_kernel_rfl) y
def scr_last (c : Dev nD) (i : grid5.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole) (hc0 : ¬isFirst i) (hc1 : isLast i) (x0 : Vec F S1024 .i32) (x1 : Vec F S1024x64 .f32) (x2 : Vec F S64 .f32) (xs0 : Vec F S8192x64 .f32) : Vec F S8192x64 .f32 :=
  VS.read (Elt F) (VS.writes (Elt F) VS.junk (run_last c i arg2 harg2 arg3 harg3 arg4 harg4 arg5 harg5 arg6 harg6 hc0 hc1 x0 x1 x2 xs0).2.1)
theorem ocover_last (c : Dev nD) (i : grid5.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole) (hc0 : ¬isFirst i) (hc1 : isLast i) (x0 : Vec F S1024 .i32) (x1 : Vec F S1024x64 .f32) (x2 : Vec F S64 .f32) (xs0 : Vec F S8192x64 .f32) (y : S8192x64.Idx) :
    ∃ pc ∈ (run_last c i arg2 harg2 arg3 harg3 arg4 harg4 arg5 harg5 arg6 harg6 hc0 hc1 x0 x1 x2 xs0).1, y ∈ pc.1.set :=
  View.cover_of_tiledL (run_last c i arg2 harg2 arg3 harg3 arg4 harg4 arg5 harg5 arg6 harg6 hc0 hc1 x0 x1 x2 xs0).1 S8192x64.size (by sl_kernel_rfl) y
/-- After a last edge tile the result's buffer holds the case's pieces, read back. -/
def out_last (c : Dev nD) (i : grid5.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole) (hc0 : ¬isFirst i) (hc1 : isLast i) (x0 : Vec F S1024 .i32) (x1 : Vec F S1024x64 .f32) (x2 : Vec F S64 .f32) (xs0 : Vec F S8192x64 .f32) : Vec F S8192x64 .f32 :=
  VO.read (Elt F) (VO.writes (Elt F) VO.junk (run_last c i arg2 harg2 arg3 harg3 arg4 harg4 arg5 harg5 arg6 harg6 hc0 hc1 x0 x1 x2 xs0).1)
/-- Where the result's buffer is idle nothing reads what is recorded for it: a placeholder. -/
def out_idle : Vec F S8192x64 .f32 := VO.read (Elt F) VO.junk

/-! ## Point by point -/

/-- After the body at position n: the result's staging buffer, then the scratch block — the case the point is in, run at the
    point's memrefs and input blocks, over the scratch the point before left. -/
def outsAt (c : Dev nD) : (n : ℕ) → n < cfg5.N → Vec F S8192x64 .f32 × Vec F S8192x64 .f32
  | 0, hn => (out_idle, scr_first c (grid5.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((isFirst_iff ⟨0, hn⟩).mpr (Nat.zero_mod _)) (fun h => (fun h' => by (try dsimp only at h'); omega) ((isLast_iff ⟨0, hn⟩).mp h)) (blk V c 0 ⟨0, hn⟩) (blk V c 1 ⟨0, hn⟩) (blk V c 2 ⟨0, hn⟩))
  | n + 1, hn =>
    if h0 : (n + 1) % 1661 = 0 then
      if h1 : (n + 1) % 1661 = 1660 then False.elim (by omega)
      else (out_idle, scr_first c (grid5.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) ((isFirst_iff ⟨n + 1, hn⟩).mpr h0) (fun h => h1 ((isLast_iff ⟨n + 1, hn⟩).mp h)) (blk V c 0 ⟨n + 1, hn⟩) (blk V c 1 ⟨n + 1, hn⟩) (blk V c 2 ⟨n + 1, hn⟩))
    else
      if h1 : (n + 1) % 1661 = 1660 then
        (out_last c (grid5.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (outsAt c n (Nat.lt_of_succ_lt hn)).2,
          scr_last c (grid5.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (outsAt c n (Nat.lt_of_succ_lt hn)).2)
      else
        (out_idle, scr_mid c (grid5.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((isFirst_iff ⟨n + 1, hn⟩).mp h)) (fun h => h1 ((isLast_iff ⟨n + 1, hn⟩).mp h)) (blk V c 0 ⟨n + 1, hn⟩) (blk V c 1 ⟨n + 1, hn⟩) (blk V c 2 ⟨n + 1, hn⟩) (outsAt c n (Nat.lt_of_succ_lt hn)).2)

theorem outsAt_first (c : Dev nD) (t : Fin cfg5.N) (h0 : t.val % 1661 = 0) (h1 : ¬t.val % 1661 = 1660) :
    outsAt V c t.val t.isLt = (out_idle, scr_first c (grid5.coords t) (ms_0 t) (hs_0 t) (ms_1 t) (hs_1 t) (ms_2 t) (hs_2 t) (ms_3 t) (hs_3 t) scM (Memref.isWhole_whole _) ((isFirst_iff t).mpr h0) (fun h => h1 ((isLast_iff t).mp h)) (blk V c 0 t) (blk V c 1 t) (blk V c 2 t)) := by
  obtain ⟨n, hn⟩ := t
  cases n with
  | zero => exact rfl
  | succ n => exact (dif_pos h0).trans ((dif_neg h1).trans rfl)

theorem outsAt_mid (c : Dev nD) (t : Fin cfg5.N) (h0 : ¬t.val % 1661 = 0) (h1 : ¬t.val % 1661 = 1660) :
    outsAt V c t.val t.isLt = (out_idle, scr_mid c (grid5.coords t) (ms_0 t) (hs_0 t) (ms_1 t) (hs_1 t) (ms_2 t) (hs_2 t) (ms_3 t) (hs_3 t) scM (Memref.isWhole_whole _) (fun h => h0 ((isFirst_iff t).mp h)) (fun h => h1 ((isLast_iff t).mp h)) (blk V c 0 t) (blk V c 1 t) (blk V c 2 t)
      (outsAt V c (t.val - 1) (Nat.lt_of_le_of_lt (Nat.sub_le _ _) t.isLt)).2) := by
  obtain ⟨n, hn⟩ := t
  cases n with
  | zero => exact (by exfalso; exact absurd (Nat.zero_mod _) h0)
  | succ n => exact (dif_neg h0).trans ((dif_neg h1).trans rfl)

theorem outsAt_last (c : Dev nD) (t : Fin cfg5.N) (h0 : ¬t.val % 1661 = 0) (h1 : t.val % 1661 = 1660) :
    outsAt V c t.val t.isLt = (out_last c (grid5.coords t) (ms_0 t) (hs_0 t) (ms_1 t) (hs_1 t) (ms_2 t) (hs_2 t) (ms_3 t) (hs_3 t) scM (Memref.isWhole_whole _) (fun h => h0 ((isFirst_iff t).mp h)) ((isLast_iff t).mpr h1) (blk V c 0 t) (blk V c 1 t) (blk V c 2 t)
        (outsAt V c (t.val - 1) (Nat.lt_of_le_of_lt (Nat.sub_le _ _) t.isLt)).2,
      scr_last c (grid5.coords t) (ms_0 t) (hs_0 t) (ms_1 t) (hs_1 t) (ms_2 t) (hs_2 t) (ms_3 t) (hs_3 t) scM (Memref.isWhole_whole _) (fun h => h0 ((isFirst_iff t).mp h)) ((isLast_iff t).mpr h1) (blk V c 0 t) (blk V c 1 t) (blk V c 2 t)
        (outsAt V c (t.val - 1) (Nat.lt_of_le_of_lt (Nat.sub_le _ _) t.isLt)).2) := by
  obtain ⟨n, hn⟩ := t
  cases n with
  | zero => exact (by exfalso; exact absurd (Nat.zero_mod _) h0)
  | succ n => exact (dif_neg h0).trans ((dif_pos h1).trans rfl)

/-- The region's invariant before position n: before the first point the untouched rest; afterwards the scratch block at what
    the point before left, beside the remainder of the rest and the generator register. -/
def inv (c : Dev nD) : (n : ℕ) → n ≤ cfg5.N → sProp 𝕄
  | 0, _ => Pipeline.ΦA spec5 c
  | n + 1, hn => iprop(iprop(owns (c : Thread nD τ) scM fullShare ((outsAt V c n hn).2) ∗ Pipeline.scopedRestBut (Ix := Unit) (Name := ℕ) (U := UR sig nD τ) (Lvl := ℕ) (Val := Elt F) spec5 c [cc5_scratch0]) ∗ (∃ r, prngReg c r))

theorem inv_zero (c : Dev nD) (n : ℕ) (h : n ≤ cfg5.N) (hz : n = 0) : inv V c n h = Pipeline.ΦA spec5 c := by
  subst hz; rfl
theorem inv_succ (c : Dev nD) (n : ℕ) (hn : n < cfg5.N) :
    inv V c (n + 1) hn = iprop(iprop(owns (c : Thread nD τ) scM fullShare ((outsAt V c n hn).2) ∗ Pipeline.scopedRestBut (Ix := Unit) (Name := ℕ) (U := UR sig nD τ) (Lvl := ℕ) (Val := Elt F) spec5 c [cc5_scratch0]) ∗ (∃ r, prngReg c r)) := rfl
theorem inv_pos (c : Dev nD) (n : ℕ) (h : n ≤ cfg5.N) (hz : n ≠ 0) :
    inv V c n h = iprop(iprop(owns (c : Thread nD τ) scM fullShare ((outsAt V c (n - 1) (by omega)).2) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-- The region's proof data on core c. -/
def dat (c : Dev nD) : Dat τ (Elt F) Unit ℕ (UR sig nD τ) ℕ cfg5 c where
  A w := V c (Pipeline.arrRef spec5 w)
  after w t := match w with
    | ⟨0, _⟩ => blk V c 0 t
    | ⟨1, _⟩ => blk V c 1 t
    | ⟨2, _⟩ => blk V c 2 t
    | ⟨3, _⟩ => (outsAt V c t.val t.isLt).1
  Φ t := inv V c t.val (Nat.le_of_lt_succ t.isLt)
  q _ := fullShare
  owed _ := 0

theorem A_eq (c : Dev nD) (w : Fin cfg5.W) : (dat V c).A w = V c (Pipeline.arrRef spec5 w) := by
  dsimp only [dat]
theorem inv_castSucc (c : Dev nD) (t : Fin cfg5.N) : (dat V c).Φ t.castSucc = inv V c t.val (Nat.le_of_lt t.isLt) := by
  dsimp only [dat]; simp only [Fin.coe_castSucc]
theorem after_0 (c : Dev nD) (t : Fin cfg5.N) : (dat V c).after 0 t = blk V c 0 t := by dsimp only [dat]
theorem after_1 (c : Dev nD) (t : Fin cfg5.N) : (dat V c).after 1 t = blk V c 1 t := by dsimp only [dat]
theorem after_2 (c : Dev nD) (t : Fin cfg5.N) : (dat V c).after 2 t = blk V c 2 t := by dsimp only [dat]
theorem after_3 (c : Dev nD) (t : Fin cfg5.N) : (dat V c).after 3 t = (outsAt V c t.val t.isLt).1 := by dsimp only [dat]
theorem before_0 (c : Dev nD) (t : Fin cfg5.N) (d) : (dat V c).before 0 t d = blk V c 0 t := found_0 V (dat V c) (A_eq V c 0) (after_0 V c) t d
theorem before_1 (c : Dev nD) (t : Fin cfg5.N) (d) : (dat V c).before 1 t d = blk V c 1 t := found_1 V (dat V c) (A_eq V c 1) (after_1 V c) t d
theorem before_2 (c : Dev nD) (t : Fin cfg5.N) (d) : (dat V c).before 2 t d = blk V c 2 t := found_2 V (dat V c) (A_eq V c 2) (after_2 V c) t d

/-! ## The body obligation, at a generic point -/

def bodyPre (c : Dev nD) (t : Fin cfg5.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

def bodyPost (c : Dev nD) (t : Fin cfg5.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4800000 in
/-- The body at any point: the inputs' buffers hold their blocks; the closed forms say which case the point is in; the invariant
    hands over the scratch block at what the point before left (at anything at the very first point) and takes it back at this
    point's contents; where the result's window is idle its buffer goes back as found. -/
theorem body_at (c : Dev nD) (t : Fin cfg5.N) :
    bodyPre V c t ⊢ wp frame (wpE (defs₀ (F := F)) Variants.none c none) Set.univ (bodyAt t) (fun _ => bodyPost V c t) := by
  unfold bodyPre bodyPost bodyAt
  simp only [before_0, before_1, before_2]
  rw [show (dat V c).owesAt () t.succ = (dat V c).owesAt () t.castSucc from rfl]
  rw [show (dat V c).Φ t.succ = inv V c (t.val + 1) t.isLt from rfl, inv_succ]
  rw [show (dat V c).leavesExact 0 t = owns (c : Thread nD τ) (ms_0 t) fullShare ((dat V c).after 0 t) from by
    unfold Dat.leavesExact; rfl, after_0]
  rw [show (dat V c).leavesExact 1 t = owns (c : Thread nD τ) (ms_1 t) fullShare ((dat V c).after 1 t) from by
    unfold Dat.leavesExact; rfl, after_1]
  rw [show (dat V c).leavesExact 2 t = owns (c : Thread nD τ) (ms_2 t) fullShare ((dat V c).after 2 t) from by
    unfold Dat.leavesExact; rfl, after_2]
  by_cases h0 : t.val % 1661 = 0
  · have h1 : ¬t.val % 1661 = 1660 := by omega
    rw [Dat.leavesExact_idle (dat V c) 3 t (idle_3 _ (fun h => h1 ((isLast_iff t).mp h))) (noFlush_3 t (fun h => h1 ((isLast_iff t).mp h)))]
    rw [outsAt_first V c t h0 h1]
    unfold scr_first; (try dsimp only)
    by_cases hz : t.val = 0
    · rw [inv_castSucc V c t, inv_zero V c _ _ hz, rest_eq]
      iintro ⟨⟨⟨HS, Hr⟩, Hg⟩, Ho, ⟨%d0, H0⟩, ⟨%d1, H1⟩, ⟨%d2, H2⟩, ⟨%d3, H3⟩⟩
      iapply ((run_first c (grid5.coords t) _ _ _ _ _ _ _ _ _ _ ((isFirst_iff t).mpr h0) (fun h => h1 ((isLast_iff t).mp h)) (blk V c 0 t) (blk V c 1 t) (blk V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover_first c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [inv_castSucc V c t, inv_pos V c _ _ hz]
      iintro ⟨⟨⟨HS, Hr⟩, Hg⟩, Ho, ⟨%d0, H0⟩, ⟨%d1, H1⟩, ⟨%d2, H2⟩, ⟨%d3, H3⟩⟩
      iapply ((run_first c (grid5.coords t) _ _ _ _ _ _ _ _ _ _ ((isFirst_iff t).mpr h0) (fun h => h1 ((isLast_iff t).mp h)) (blk V c 0 t) (blk V c 1 t) (blk V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover_first c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 1661 = 1660
    · rw [show (dat V c).leavesExact 3 t = owns (c : Thread nD τ) (ms_3 t) fullShare ((dat V c).after 3 t) from by
        unfold Dat.leavesExact; rw [live_3 _ ((isLast_iff t).mpr h1)], after_3]
      rw [outsAt_last V c t h0 h1]
      unfold out_last scr_last; (try dsimp only)
      rw [inv_castSucc V c t, inv_pos V c _ _ hz]
      iintro ⟨⟨⟨HS, Hr⟩, Hg⟩, Ho, ⟨%d0, H0⟩, ⟨%d1, H1⟩, ⟨%d2, H2⟩, ⟨%d3, H3⟩⟩
      iapply ((run_last c (grid5.coords t) _ _ _ _ _ _ _ _ _ _ (fun h => h0 ((isFirst_iff t).mp h)) ((isLast_iff t).mpr h1) (blk V c 0 t) (blk V c 1 t) (blk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hr Hg]
      · isplitl [HS Hr]
        · isplitl [HS]
          · unfold owns; iexists _; isplitr
            swap; · iexact HS
            ipureintro; exact View.read_writes_of_cover _ _ _ _ _ (scover_last c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (ocover_last c _ _ _ _ _ _ _ _ _ _ _ _ _ _ _ _ _)
    · rw [Dat.leavesExact_idle (dat V c) 3 t (idle_3 _ (fun h => h1 ((isLast_iff t).mp h))) (noFlush_3 t (fun h => h1 ((isLast_iff t).mp h)))]
      rw [outsAt_mid V c t h0 h1]
      unfold scr_mid; (try dsimp only)
      rw [inv_castSucc V c t, inv_pos V c _ _ hz]
      iintro ⟨⟨⟨HS, Hr⟩, Hg⟩, Ho, ⟨%d0, H0⟩, ⟨%d1, H1⟩, ⟨%d2, H2⟩, ⟨%d3, H3⟩⟩
      iapply ((run_mid c (grid5.coords t) _ _ _ _ _ _ _ _ _ _ (fun h => h0 ((isFirst_iff t).mp h)) (fun h => h1 ((isLast_iff t).mp h)) (blk V c 0 t) (blk V c 1 t) (blk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover_mid c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W5, bigSep_W5]
  exact body_at V c t

/-- The untouched rest is the invariant before the first point, -/
theorem hin (c : Dev nD) : Pipeline.ΦA spec5 c ⊢ (dat V c).Φ 0 := by
  rw [show (dat V c).Φ 0 = inv V c 0 (Nat.zero_le _) from rfl, inv_zero V c 0 _ rfl]
  try exact Idealize.SL.BI.Entails.refl _

/-- and the invariant after the last point gives it back, the scratch block's contents forgotten. -/
theorem hout (c : Dev nD) : (dat V c).Φ (Fin.last cfg5.N) ⊢ Pipeline.ΦA spec5 c := by
  rw [show (dat V c).Φ (Fin.last cfg5.N) = inv V c (Fin.last cfg5.N).val (Nat.le_of_lt_succ (Fin.last cfg5.N).isLt) from rfl,
    inv_pos V c _ _ (by rw [Fin.val_last]; have : cfg5.N = 21593 := N_5; omega), rest_eq]
  iintro ⟨⟨HS, Hr⟩, Hg⟩
  isplitl [HS Hr]
  · isplitl [HS]
    · iexists _; iexact HS
    iexact Hr
  iexact Hg

end Cert.Kernel.R5

end
-- ==== Proof.BRegion6.lean ====
/-
  The dense transform's region (kernel call 6), on every core, at any float values, from any contents `V` of the
  TensorCore's buffers at its entry.

  Its grid has 13 points, one per tile of 8192 node rows.  At point t the pipeline hands the body the t-th tile of the
  padded node table (window 0, fetched at every point), the whole weight matrix (window 1, fetched once: its block does
  not move) and a staging buffer for the t-th tile of the result (window 2, written back at every point).  The body
  loads the two inputs, looks at the result's buffer, and stores the product over the whole buffer: after it the
  result's buffer holds the one stored piece, the product of the two input blocks, and the inputs' buffers are as
  found.  It keeps nothing between points, so the region's invariant is the untouched rest (the scoped buffers no
  window stages, the generator register).
-/
import proofs.«155233_j36086315221040_1_alg».proof.Proof.Gen.Kernel.Launch
import proofs.«155233_j36086315221040_1_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R6

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blk (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The node tile's staging buffer holds its block at every point. -/
theorem found_0 {c : Dev nD} (dat : Dat τ (Elt F) Unit ℕ (UR sig nD τ) ℕ cfg6 c) (hA : dat.A 0 = V c (Pipeline.arrRef spec6 0))
    (hafter : ∀ t, dat.after 0 t = blk V c 0 t) (t : Fin cfg6.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The weight matrix's staging buffer holds the matrix at every point, fetched there or not: its block never moves. -/
theorem found_1 {c : Dev nD} (dat : Dat τ (Elt F) Unit ℕ (UR sig nD τ) ℕ cfg6 c) (hA : dat.A 1 = V c (Pipeline.arrRef spec6 1))
    (hafter : ∀ t, dat.after 1 t = blk V c 1 t) (t : Fin cfg6.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The whole-buffer rectangles the body loads and stores through. -/
abbrev rX : Rect S8192x64 := Rect.unit (s := S8192x64) ![0, 0] S8192x64.size inb_S8192x64_S8192x64_0_0
abbrev rW : Rect S64x32 := Rect.unit (s := S64x32) ![0, 0] S64x32.size inb_S64x32_S64x32_0_0
abbrev rO : Rect S8192x32 := Rect.unit (s := S8192x32) ![0, 0] S8192x32.size inb_S8192x32_S8192x32_0_0

/-- What the body leaves in the result's staging buffer: its one store, the product of the two loaded blocks. -/
def product (x0 : Vec F S8192x64 .f32) (x1 : Vec F S64x32 .f32) : Vec F S8192x32 .f32 :=
  View.canon [⟨rO, k6_pay1 (View.ld x0 rX) (View.ld x1 rW)⟩]

/-- The one store is over the whole buffer. -/
theorem product_cover (p0 : Vec F S8192x32 .f32) (y : S8192x32.Idx) :
    ∃ pc ∈ ([⟨rO, p0⟩] : List (View.Piece (Elt F) S8192x32 .f32)), y ∈ pc.1.set :=
  View.cover_of_tiled [⟨rO, p0⟩] S8192x32.size (by rfl) y

set_option maxHeartbeats 1000000 in
/-- The body on whole staging memrefs: from the inputs at their contents and the result's buffer at anything, it runs to
    the inputs as they were and the result's buffer at the product. -/
theorem body_run (c : Dev nD) (E : Set ℕ) (i : grid6.Coords)
    (arg1 : Memref sig .tc .vmem S8192x64 .f32) (harg1 : arg1.IsWhole) (arg2 : Memref sig .tc .vmem S64x32 .f32) (harg2 : arg2.IsWhole)
    (arg3 : Memref sig .tc .vmem S8192x32 .f32) (harg3 : arg3.IsWhole)
    (x0 : Vec F S8192x64 .f32) (x1 : Vec F S64x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (product x0 x1)) -∗ K ⟨⟩))
      ⊢ wp frame (wpE (defs₀ (F := F)) Variants.none c none) E (cc6__linear_kernel i arg1 harg1 arg2 harg2 arg3 harg3) K := by
  simp only [cc6__linear_kernel_eq_skeleton]; unfold cc6__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (product_cover _)

/-- The region's proof data on core c: the arrays as the region finds them; after the body at point t each input's
    buffer at its block and the result's at the product of the two; the invariant the untouched rest; nothing owed. -/
def dat (c : Dev nD) : Dat τ (Elt F) Unit ℕ (UR sig nD τ) ℕ cfg6 c where
  A w := V c (Pipeline.arrRef spec6 w)
  after w t := match w with
    | ⟨0, _⟩ => blk V c 0 t
    | ⟨1, _⟩ => blk V c 1 t
    | ⟨2, _⟩ => product (blk V c 0 t) (blk V c 1 t)
  Φ _ := Pipeline.ΦA spec6 c
  q _ := fullShare
  owed _ := 0

theorem A_eq (c : Dev nD) (w : Fin cfg6.W) : (dat V c).A w = V c (Pipeline.arrRef spec6 w) := by
  dsimp only [dat]

theorem after_0 (c : Dev nD) (t : Fin cfg6.N) : (dat V c).after 0 t = blk V c 0 t := by dsimp only [dat]
theorem after_1 (c : Dev nD) (t : Fin cfg6.N) : (dat V c).after 1 t = blk V c 1 t := by dsimp only [dat]
theorem after_2 (c : Dev nD) (t : Fin cfg6.N) : (dat V c).after 2 t = product (blk V c 0 t) (blk V c 1 t) := by dsimp only [dat]

theorem before_0 (c : Dev nD) (t : Fin cfg6.N) (d) : (dat V c).before 0 t d = blk V c 0 t :=
  found_0 V (dat V c) (A_eq V c 0) (after_0 V c) t d
theorem before_1 (c : Dev nD) (t : Fin cfg6.N) (d) : (dat V c).before 1 t d = blk V c 1 t :=
  found_1 V (dat V c) (A_eq V c 1) (after_1 V c) t d

/-- The current staging memref of each window at point t, and the body as the pipeline calls it there. -/
abbrev st_0 (t : Fin cfg6.N) := (cfg6.win 0).stage (cfg6.slots t 0)
abbrev st_1 (t : Fin cfg6.N) := (cfg6.win 1).stage (cfg6.slots t 1)
abbrev st_2 (t : Fin cfg6.N) := (cfg6.win 2).stage (cfg6.slots t 2)
abbrev bodyAt (t : Fin cfg6.N) : Prog (TpuEff nD τ sig (Elt F) Λ₀ .tc) PUnit :=
  cc6__linear_kernel (grid6.coords t) (win6_0.stage (cfg6.slots t 0)) (hstage6_0 ((cfg6.slots t 0).cast nbuf6_0)) (win6_1.stage (cfg6.slots t 1)) (hstage6_1 ((cfg6.slots t 1).cast nbuf6_1)) (win6_2.stage (cfg6.slots t 2)) (hstage6_2 ((cfg6.slots t 2).cast nbuf6_2))

/-- What the body is called with at point t, the windows one by one, -/
def bodyPre (c : Dev nD) (t : Fin cfg6.N) : sProp 𝕄 :=
  iprop((dat V c).Φ t.castSucc ∗ (dat V c).owesAt () t.castSucc
    ∗ (∃ d, owns (c : Thread nD τ) (st_0 t) fullShare ((dat V c).before 0 t d))
    ∗ (∃ d, owns (c : Thread nD τ) (st_1 t) fullShare ((dat V c).before 1 t d))
    ∗ (∃ d, owns (c : Thread nD τ) (st_2 t) fullShare ((dat V c).before 2 t d)))

/-- and what it returns. -/
def bodyPost (c : Dev nD) (t : Fin cfg6.N) : sProp 𝕄 :=
  iprop((dat V c).Φ t.succ ∗ (dat V c).owesAt () t.succ
    ∗ owns (c : Thread nD τ) (st_0 t) fullShare ((dat V c).after 0 t)
    ∗ owns (c : Thread nD τ) (st_1 t) fullShare ((dat V c).after 1 t)
    ∗ owns (c : Thread nD τ) (st_2 t) fullShare ((dat V c).after 2 t))

/-- The body at any point: the inputs' buffers hold their blocks, so the run applies; the invariant and the core's
    dues pass through unread. -/
theorem body_at (c : Dev nD) (t : Fin cfg6.N) :
    bodyPre V c t ⊢ wp frame (wpE (defs₀ (F := F)) Variants.none c none) Set.univ (bodyAt t) (fun _ => bodyPost V c t) := by
  unfold bodyPre bodyPost bodyAt
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (body_run c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W6, bigSep_W6]
  exact body_at V c t

/-- The region keeps nothing between points: its invariant is the untouched rest at both ends. -/
theorem hin (c : Dev nD) : Pipeline.ΦA spec6 c ⊢ (dat V c).Φ 0 := BI.Entails.refl _
theorem hout (c : Dev nD) : (dat V c).Φ (Fin.last cfg6.N) ⊢ Pipeline.ΦA spec6 c := BI.Entails.refl _

end Cert.Kernel.R6

end
-- ==== Proof.BRegion7.lean ====
/-
  The gather's region (kernel call 7), on every core, at any float values, from any contents `V` of the TensorCore's
  buffers at its entry.

  Its grid has 1661 × 13 points: an edge tile of 1024 edges, and for it the 13 tiles of 8192 rows of the padded node
  table, innermost.  At a point the body is handed the tile's source words (window 0) and edge weights (window 1), both
  fetched when the edge tile changes, the table tile (window 2, fetched at every point), a staging buffer for the tile
  of the result (window 3, written back at the edge tile's last point only) and a scratch block that it carries from
  point to point.  Three cases, by the table tile's number k = t mod 13:
    first  (k = 0):   the scratch is stored zero, then the tile's one-hot product is added into it;
    middle (0<k<12):  the product is added into the scratch as the point before left it;
    last   (k = 12):  the same, and then the scratch times the weights is stored over the whole result buffer.
  At the first two the result's buffer is idle: handed back as found and not written back.  After every point the
  scratch holds what the case's stores leave, read back; the region's invariant carries it.
-/
import proofs.«155233_j36086315221040_1_alg».proof.Proof.Gen.Kernel.Launch
import proofs.«155233_j36086315221040_1_alg».proof.Proof.Gen.Kernel.Skeleton
import proofs.«155233_j36086315221040_1_alg».proof.Proof.GridFacts
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R7

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blk (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Each input's staging buffer holds its block at every point, fetched there or not (a block not fetched has not moved). -/
theorem found_0 {c : Dev nD} (dat : Dat τ (Elt F) Unit ℕ (UR sig nD τ) ℕ cfg7 c) (hA : dat.A 0 = V c (Pipeline.arrRef spec7 0))
    (hafter : ∀ t, dat.after 0 t = blk V c 0 t) (t : Fin cfg7.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found_1 {c : Dev nD} (dat : Dat τ (Elt F) Unit ℕ (UR sig nD τ) ℕ cfg7 c) (hA : dat.A 1 = V c (Pipeline.arrRef spec7 1))
    (hafter : ∀ t, dat.after 1 t = blk V c 1 t) (t : Fin cfg7.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found_2 {c : Dev nD} (dat : Dat τ (Elt F) Unit ℕ (UR sig nD τ) ℕ cfg7 c) (hA : dat.A 2 = V c (Pipeline.arrRef spec7 2))
    (hafter : ∀ t, dat.after 2 t = blk V c 2 t) (t : Fin cfg7.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's two conditions, decided over the grid -/

/-- "This is the edge tile's first table tile", as the body computes it from the grid coordinates. -/
abbrev isFirst (i : grid7.Coords) : Prop := (Scalar.cmpi .ne (Scalar.extui (Scalar.cmpi .eq (BitVec.ofNat 32 (i 1).val) 0#32)) 0#32) = 1#1
theorem isFirst_iff : ∀ t : Fin cfg7.N, isFirst (grid7.coords t) ↔ t.val % 13 = 0 :=
  Cert.Proof.GridFacts.gather_first
/-- "This is its last table tile". -/
abbrev isLast (i : grid7.Coords) : Prop := k7_cond2 i = 1#1
theorem isLast_iff : ∀ t : Fin cfg7.N, isLast (grid7.coords t) ↔ t.val % 13 = 12 :=
  Cert.Proof.GridFacts.gather_last

/-- The result's block is written back exactly at the last inner point. -/
theorem flush_3 : ∀ t : Fin cfg7.N, (cfg7.win 3).flush t = true ↔ t.val % 13 = 12 :=
  Cert.Proof.GridFacts.gather_flush
/-- The body as the pipeline calls it at point t. -/
abbrev bodyAt (t : Fin cfg7.N) : Prog (TpuEff nD τ sig (Elt F) Λ₀ .tc) PUnit :=
  cc7__gather_kernel (grid7.coords t) (win7_0.stage (cfg7.slots t 0)) (hstage7_0 ((cfg7.slots t 0).cast nbuf7_0)) (win7_1.stage (cfg7.slots t 1)) (hstage7_1 ((cfg7.slots t 1).cast nbuf7_1)) (win7_2.stage (cfg7.slots t 2)) (hstage7_2 ((cfg7.slots t 2).cast nbuf7_2)) (win7_3.stage (cfg7.slots t 3)) (hstage7_3 ((cfg7.slots t 3).cast nbuf7_3)) (Memref.whole cc7_scratch0) (Memref.isWhole_whole _)

/-- Where the result's window is idle: exactly off the last table tile (the configuration's table is the negated test). -/
theorem idle_3 (i : grid7.Coords) (h : ¬isLast i) : cfg7.idle 3 i = true := by
  show (!(k7_cond2 i == 1#1)) = true
  simp only [Bool.not_eq_true', beq_eq_false_iff_ne, ne_eq]; exact h
theorem live_3 (i : grid7.Coords) (h : isLast i) : cfg7.idle 3 i = false := by
  show (!(k7_cond2 i == 1#1)) = false
  simp only [Bool.not_eq_false', beq_iff_eq]; exact h
/-- Off the last table tile the result's block is not written back. -/
theorem noFlush_3 (t : Fin cfg7.N) (h : ¬isLast (grid7.coords t)) : (cfg7.win 3).flush t = false := by
  have := flush_3 t
  cases hf : (cfg7.win 3).flush t
  · rfl
  · exact absurd ((isLast_iff t).mpr (this.mp hf)) h

/-! ## The staging and scratch memrefs -/

abbrev VO : View sig .tc .vmem S1024x32 .f32 := (Memref.whole cc7_stg3_0 : Memref sig .tc .vmem S1024x32 .f32).view
abbrev ms_0 (t : Fin cfg7.N) : Memref sig .tc .vmem S1024 .i32 := win7_0.stage (cfg7.slots t 0)
abbrev hs_0 (t : Fin cfg7.N) : (ms_0 t).IsWhole := hstage7_0 ((cfg7.slots t 0).cast nbuf7_0)
abbrev ms_1 (t : Fin cfg7.N) : Memref sig .tc .vmem S1024 .f32 := win7_1.stage (cfg7.slots t 1)
abbrev hs_1 (t : Fin cfg7.N) : (ms_1 t).IsWhole := hstage7_1 ((cfg7.slots t 1).cast nbuf7_1)
abbrev ms_2 (t : Fin cfg7.N) : Memref sig .tc .vmem S8192x32 .f32 := win7_2.stage (cfg7.slots t 2)
abbrev hs_2 (t : Fin cfg7.N) : (ms_2 t).IsWhole := hstage7_2 ((cfg7.slots t 2).cast nbuf7_2)
abbrev ms_3 (t : Fin cfg7.N) : Memref sig .tc .vmem S1024x32 .f32 := win7_3.stage (cfg7.slots t 3)
abbrev hs_3 (t : Fin cfg7.N) : (ms_3 t).IsWhole := hstage7_3 ((cfg7.slots t 3).cast nbuf7_3)
/-- The scratch block the body carries between points. -/
abbrev scM : Memref sig .tc .vmem S1024x32 .f32 := Memref.whole cc7_scratch0
abbrev VS : View sig .tc .vmem S1024x32 .f32 := (scM).view

/-- The untouched rest with the scratch block taken out of it, owned at some contents. -/
theorem rest_eq (c : Dev nD) :
    (Pipeline.ΦA spec7 c : sProp 𝕄)
      = iprop(iprop((∃ d, owns (c : Thread nD τ) scM fullShare d)
          ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM, owns_whole]
  try rfl

/-! ## The body, case by case: the pieces each buffer ends with are what the run finds -/

set_option maxHeartbeats 2000000 in
/-- FIRST table tile of an edge tile: the scratch at anything, the result's buffer handed back untouched. -/
noncomputable def run_first (c : Dev nD) (i : grid7.Coords) (arg2 : Memref sig .tc .vmem S1024 .i32) (harg2 : arg2.IsWhole) (arg3 : Memref sig .tc .vmem S1024 .f32) (harg3 : arg3.IsWhole) (arg4 : Memref sig .tc .vmem S8192x32 .f32) (harg4 : arg4.IsWhole) (arg5 : Memref sig .tc .vmem S1024x32 .f32) (harg5 : arg5.IsWhole) (arg6 : Memref sig .tc .vmem S1024x32 .f32) (harg6 : arg6.IsWhole)
    (hc0 : isFirst i) (hc1 : ¬isLast i) (x0 : Vec F S1024 .i32) (x1 : Vec F S1024 .f32) (x2 : Vec F S8192x32 .f32) :
    Σ' (L3 : List (View.Piece (Elt F) S1024x32 .f32)), { LS : List (View.Piece (Elt F) S1024x32 .f32) //
      ∀ (xi3 : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E (cc7__gather_kernel i arg2 harg2 arg3 harg3 arg4 harg4 arg5 harg5 arg6 harg6) K } := by
  refine ⟨[], ?_, fun xi3 E K => ?run⟩
  case run =>
    simp only [cc7__gather_kernel_eq_skeleton]; unfold cc7__gather_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 2000000 in
/-- A MIDDLE table tile: the scratch at what the point before left, the result's buffer handed back untouched. -/
noncomputable def run_mid (c : Dev nD) (i : grid7.Coords) (arg2 : Memref sig .tc .vmem S1024 .i32) (harg2 : arg2.IsWhole) (arg3 : Memref sig .tc .vmem S1024 .f32) (harg3 : arg3.IsWhole) (arg4 : Memref sig .tc .vmem S8192x32 .f32) (harg4 : arg4.IsWhole) (arg5 : Memref sig .tc .vmem S1024x32 .f32) (harg5 : arg5.IsWhole) (arg6 : Memref sig .tc .vmem S1024x32 .f32) (harg6 : arg6.IsWhole)
    (hc0 : ¬isFirst i) (hc1 : ¬isLast i) (x0 : Vec F S1024 .i32) (x1 : Vec F S1024 .f32) (x2 : Vec F S8192x32 .f32) (xs0 : Vec F S1024x32 .f32) :
    Σ' (L3 : List (View.Piece (Elt F) S1024x32 .f32)), { LS : List (View.Piece (Elt F) S1024x32 .f32) //
      ∀ (xi3 : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E (cc7__gather_kernel i arg2 harg2 arg3 harg3 arg4 harg4 arg5 harg5 arg6 harg6) K } := by
  refine ⟨[], ?_, fun xi3 E K => ?run⟩
  case run =>
    simp only [cc7__gather_kernel_eq_skeleton]; unfold cc7__gather_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 2000000 in
/-- The LAST table tile: the scratch at what the point before left, the result's buffer at anything and stored whole. -/
noncomputable def run_last (c : Dev nD) (i : grid7.Coords) (arg2 : Memref sig .tc .vmem S1024 .i32) (harg2 : arg2.IsWhole) (arg3 : Memref sig .tc .vmem S1024 .f32) (harg3 : arg3.IsWhole) (arg4 : Memref sig .tc .vmem S8192x32 .f32) (harg4 : arg4.IsWhole) (arg5 : Memref sig .tc .vmem S1024x32 .f32) (harg5 : arg5.IsWhole) (arg6 : Memref sig .tc .vmem S1024x32 .f32) (harg6 : arg6.IsWhole)
    (hc0 : ¬isFirst i) (hc1 : isLast i) (x0 : Vec F S1024 .i32) (x1 : Vec F S1024 .f32) (x2 : Vec F S8192x32 .f32) (xs0 : Vec F S1024x32 .f32) :
    Σ' (L3 : List (View.Piece (Elt F) S1024x32 .f32)), { LS : List (View.Piece (Elt F) S1024x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc7__gather_kernel i arg2 harg2 arg3 harg3 arg4 harg4 arg5 harg5 arg6 harg6) K } := by
  refine ⟨?_, ?_, fun E K => ?run⟩
  case run =>
    simp only [cc7__gather_kernel_eq_skeleton]; unfold cc7__gather_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! ## What each case leaves in the scratch block and in the result's buffer -/

theorem scover_first (c : Dev nD) (i : grid7.Coords) (arg2 : Memref sig .tc .vmem S1024 .i32) (harg2 : arg2.IsWhole) (arg3 : Memref sig .tc .vmem S1024 .f32) (harg3 : arg3.IsWhole) (arg4 : Memref sig .tc .vmem S8192x32 .f32) (harg4 : arg4.IsWhole) (arg5 : Memref sig .tc .vmem S1024x32 .f32) (harg5 : arg5.IsWhole) (arg6 : Memref sig .tc .vmem S1024x32 .f32) (harg6 : arg6.IsWhole) (hc0 : isFirst i) (hc1 : ¬isLast i) (x0 : Vec F S1024 .i32) (x1 : Vec F S1024 .f32) (x2 : Vec F S8192x32 .f32) (y : S1024x32.Idx) :
    ∃ pc ∈ (run_first c i arg2 harg2 arg3 harg3 arg4 harg4 arg5 harg5 arg6 harg6 hc0 hc1 x0 x1 x2).2.1, y ∈ pc.1.set :=
  View.cover_of_tiledL (run_first c i arg2 harg2 arg3 harg3 arg4 harg4 arg5 harg5 arg6 harg6 hc0 hc1 x0 x1 x2).2.1 S1024x32.size (by sl_kernel_rfl) y
/-- After a first table tile the scratch block holds the case's pieces, read back. -/
def scr_first (c : Dev nD) (i : grid7.Coords) (arg2 : Memref sig .tc .vmem S1024 .i32) (harg2 : arg2.IsWhole) (arg3 : Memref sig .tc .vmem S1024 .f32) (harg3 : arg3.IsWhole) (arg4 : Memref sig .tc .vmem S8192x32 .f32) (harg4 : arg4.IsWhole) (arg5 : Memref sig .tc .vmem S1024x32 .f32) (harg5 : arg5.IsWhole) (arg6 : Memref sig .tc .vmem S1024x32 .f32) (harg6 : arg6.IsWhole) (hc0 : isFirst i) (hc1 : ¬isLast i) (x0 : Vec F S1024 .i32) (x1 : Vec F S1024 .f32) (x2 : Vec F S8192x32 .f32) : Vec F S1024x32 .f32 :=
  VS.read (Elt F) (VS.writes (Elt F) VS.junk (run_first c i arg2 harg2 arg3 harg3 arg4 harg4 arg5 harg5 arg6 harg6 hc0 hc1 x0 x1 x2).2.1)

theorem scover_mid (c : Dev nD) (i : grid7.Coords) (arg2 : Memref sig .tc .vmem S1024 .i32) (harg2 : arg2.IsWhole) (arg3 : Memref sig .tc .vmem S1024 .f32) (harg3 : arg3.IsWhole) (arg4 : Memref sig .tc .vmem S8192x32 .f32) (harg4 : arg4.IsWhole) (arg5 : Memref sig .tc .vmem S1024x32 .f32) (harg5 : arg5.IsWhole) (arg6 : Memref sig .tc .vmem S1024x32 .f32) (harg6 : arg6.IsWhole) (hc0 : ¬isFirst i) (hc1 : ¬isLast i) (x0 : Vec F S1024 .i32) (x1 : Vec F S1024 .f32) (x2 : Vec F S8192x32 .f32) (xs0 : Vec F S1024x32 .f32) (y : S1024x32.Idx) :
    ∃ pc ∈ (run_mid c i arg2 harg2 arg3 harg3 arg4 harg4 arg5 harg5 arg6 harg6 hc0 hc1 x0 x1 x2 xs0).2.1, y ∈ pc.1.set :=
  View.cover_of_tiledL (run_mid c i arg2 harg2 arg3 harg3 arg4 harg4 arg5 harg5 arg6 harg6 hc0 hc1 x0 x1 x2 xs0).2.1 S1024x32.size (by sl_kernel_rfl) y
def scr_mid (c : Dev nD) (i : grid7.Coords) (arg2 : Memref sig .tc .vmem S1024 .i32) (harg2 : arg2.IsWhole) (arg3 : Memref sig .tc .vmem S1024 .f32) (harg3 : arg3.IsWhole) (arg4 : Memref sig .tc .vmem S8192x32 .f32) (harg4 : arg4.IsWhole) (arg5 : Memref sig .tc .vmem S1024x32 .f32) (harg5 : arg5.IsWhole) (arg6 : Memref sig .tc .vmem S1024x32 .f32) (harg6 : arg6.IsWhole) (hc0 : ¬isFirst i) (hc1 : ¬isLast i) (x0 : Vec F S1024 .i32) (x1 : Vec F S1024 .f32) (x2 : Vec F S8192x32 .f32) (xs0 : Vec F S1024x32 .f32) : Vec F S1024x32 .f32 :=
  VS.read (Elt F) (VS.writes (Elt F) VS.junk (run_mid c i arg2 harg2 arg3 harg3 arg4 harg4 arg5 harg5 arg6 harg6 hc0 hc1 x0 x1 x2 xs0).2.1)

theorem scover_last (c : Dev nD) (i : grid7.Coords) (arg2 : Memref sig .tc .vmem S1024 .i32) (harg2 : arg2.IsWhole) (arg3 : Memref sig .tc .vmem S1024 .f32) (harg3 : arg3.IsWhole) (arg4 : Memref sig .tc .vmem S8192x32 .f32) (harg4 : arg4.IsWhole) (arg5 : Memref sig .tc .vmem S1024x32 .f32) (harg5 : arg5.IsWhole) (arg6 : Memref sig .tc .vmem S1024x32 .f32) (harg6 : arg6.IsWhole) (hc0 : ¬isFirst i) (hc1 : isLast i) (x0 : Vec F S1024 .i32) (x1 : Vec F S1024 .f32) (x2 : Vec F S8192x32 .f32) (xs0 : Vec F S1024x32 .f32) (y : S1024x32.Idx) :
    ∃ pc ∈ (run_last c i arg2 harg2 arg3 harg3 arg4 harg4 arg5 harg5 arg6 harg6 hc0 hc1 x0 x1 x2 xs0).2.1, y ∈ pc.1.set :=
  View.cover_of_tiledL (run_last c i arg2 harg2 arg3 harg3 arg4 harg4 arg5 harg5 arg6 harg6 hc0 hc1 x0 x1 x2 xs0).2.1 S1024x32.size (by sl_kernel_rfl) y
def scr_last (c : Dev nD) (i : grid7.Coords) (arg2 : Memref sig .tc .vmem S1024 .i32) (harg2 : arg2.IsWhole) (arg3 : Memref sig .tc .vmem S1024 .f32) (harg3 : arg3.IsWhole) (arg4 : Memref sig .tc .vmem S8192x32 .f32) (harg4 : arg4.IsWhole) (arg5 : Memref sig .tc .vmem S1024x32 .f32) (harg5 : arg5.IsWhole) (arg6 : Memref sig .tc .vmem S1024x32 .f32) (harg6 : arg6.IsWhole) (hc0 : ¬isFirst i) (hc1 : isLast i) (x0 : Vec F S1024 .i32) (x1 : Vec F S1024 .f32) (x2 : Vec F S8192x32 .f32) (xs0 : Vec F S1024x32 .f32) : Vec F S1024x32 .f32 :=
  VS.read (Elt F) (VS.writes (Elt F) VS.junk (run_last c i arg2 harg2 arg3 harg3 arg4 harg4 arg5 harg5 arg6 harg6 hc0 hc1 x0 x1 x2 xs0).2.1)
theorem ocover_last (c : Dev nD) (i : grid7.Coords) (arg2 : Memref sig .tc .vmem S1024 .i32) (harg2 : arg2.IsWhole) (arg3 : Memref sig .tc .vmem S1024 .f32) (harg3 : arg3.IsWhole) (arg4 : Memref sig .tc .vmem S8192x32 .f32) (harg4 : arg4.IsWhole) (arg5 : Memref sig .tc .vmem S1024x32 .f32) (harg5 : arg5.IsWhole) (arg6 : Memref sig .tc .vmem S1024x32 .f32) (harg6 : arg6.IsWhole) (hc0 : ¬isFirst i) (hc1 : isLast i) (x0 : Vec F S1024 .i32) (x1 : Vec F S1024 .f32) (x2 : Vec F S8192x32 .f32) (xs0 : Vec F S1024x32 .f32) (y : S1024x32.Idx) :
    ∃ pc ∈ (run_last c i arg2 harg2 arg3 harg3 arg4 harg4 arg5 harg5 arg6 harg6 hc0 hc1 x0 x1 x2 xs0).1, y ∈ pc.1.set :=
  View.cover_of_tiledL (run_last c i arg2 harg2 arg3 harg3 arg4 harg4 arg5 harg5 arg6 harg6 hc0 hc1 x0 x1 x2 xs0).1 S1024x32.size (by sl_kernel_rfl) y
/-- After a last table tile the result's buffer holds the case's pieces, read back. -/
def out_last (c : Dev nD) (i : grid7.Coords) (arg2 : Memref sig .tc .vmem S1024 .i32) (harg2 : arg2.IsWhole) (arg3 : Memref sig .tc .vmem S1024 .f32) (harg3 : arg3.IsWhole) (arg4 : Memref sig .tc .vmem S8192x32 .f32) (harg4 : arg4.IsWhole) (arg5 : Memref sig .tc .vmem S1024x32 .f32) (harg5 : arg5.IsWhole) (arg6 : Memref sig .tc .vmem S1024x32 .f32) (harg6 : arg6.IsWhole) (hc0 : ¬isFirst i) (hc1 : isLast i) (x0 : Vec F S1024 .i32) (x1 : Vec F S1024 .f32) (x2 : Vec F S8192x32 .f32) (xs0 : Vec F S1024x32 .f32) : Vec F S1024x32 .f32 :=
  VO.read (Elt F) (VO.writes (Elt F) VO.junk (run_last c i arg2 harg2 arg3 harg3 arg4 harg4 arg5 harg5 arg6 harg6 hc0 hc1 x0 x1 x2 xs0).1)
/-- Where the result's buffer is idle nothing reads what is recorded for it: a placeholder. -/
def out_idle : Vec F S1024x32 .f32 := VO.read (Elt F) VO.junk

/-! ## Point by point -/

/-- After the body at position n: the result's staging buffer, then the scratch block — the case the point is in, run at the
    point's memrefs and input blocks, over the scratch the point before left. -/
def outsAt (c : Dev nD) : (n : ℕ) → n < cfg7.N → Vec F S1024x32 .f32 × Vec F S1024x32 .f32
  | 0, hn => (out_idle, scr_first c (grid7.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((isFirst_iff ⟨0, hn⟩).mpr (Nat.zero_mod _)) (fun h => (fun h' => by (try dsimp only at h'); omega) ((isLast_iff ⟨0, hn⟩).mp h)) (blk V c 0 ⟨0, hn⟩) (blk V c 1 ⟨0, hn⟩) (blk V c 2 ⟨0, hn⟩))
  | n + 1, hn =>
    if h0 : (n + 1) % 13 = 0 then
      if h1 : (n + 1) % 13 = 12 then False.elim (by omega)
      else (out_idle, scr_first c (grid7.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) ((isFirst_iff ⟨n + 1, hn⟩).mpr h0) (fun h => h1 ((isLast_iff ⟨n + 1, hn⟩).mp h)) (blk V c 0 ⟨n + 1, hn⟩) (blk V c 1 ⟨n + 1, hn⟩) (blk V c 2 ⟨n + 1, hn⟩))
    else
      if h1 : (n + 1) % 13 = 12 then
        (out_last c (grid7.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (outsAt c n (Nat.lt_of_succ_lt hn)).2,
          scr_last c (grid7.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (outsAt c n (Nat.lt_of_succ_lt hn)).2)
      else
        (out_idle, scr_mid c (grid7.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((isFirst_iff ⟨n + 1, hn⟩).mp h)) (fun h => h1 ((isLast_iff ⟨n + 1, hn⟩).mp h)) (blk V c 0 ⟨n + 1, hn⟩) (blk V c 1 ⟨n + 1, hn⟩) (blk V c 2 ⟨n + 1, hn⟩) (outsAt c n (Nat.lt_of_succ_lt hn)).2)

theorem outsAt_first (c : Dev nD) (t : Fin cfg7.N) (h0 : t.val % 13 = 0) (h1 : ¬t.val % 13 = 12) :
    outsAt V c t.val t.isLt = (out_idle, scr_first c (grid7.coords t) (ms_0 t) (hs_0 t) (ms_1 t) (hs_1 t) (ms_2 t) (hs_2 t) (ms_3 t) (hs_3 t) scM (Memref.isWhole_whole _) ((isFirst_iff t).mpr h0) (fun h => h1 ((isLast_iff t).mp h)) (blk V c 0 t) (blk V c 1 t) (blk V c 2 t)) := by
  obtain ⟨n, hn⟩ := t
  cases n with
  | zero => exact rfl
  | succ n => exact (dif_pos h0).trans ((dif_neg h1).trans rfl)

theorem outsAt_mid (c : Dev nD) (t : Fin cfg7.N) (h0 : ¬t.val % 13 = 0) (h1 : ¬t.val % 13 = 12) :
    outsAt V c t.val t.isLt = (out_idle, scr_mid c (grid7.coords t) (ms_0 t) (hs_0 t) (ms_1 t) (hs_1 t) (ms_2 t) (hs_2 t) (ms_3 t) (hs_3 t) scM (Memref.isWhole_whole _) (fun h => h0 ((isFirst_iff t).mp h)) (fun h => h1 ((isLast_iff t).mp h)) (blk V c 0 t) (blk V c 1 t) (blk V c 2 t)
      (outsAt V c (t.val - 1) (Nat.lt_of_le_of_lt (Nat.sub_le _ _) t.isLt)).2) := by
  obtain ⟨n, hn⟩ := t
  cases n with
  | zero => exact (by exfalso; exact absurd (Nat.zero_mod _) h0)
  | succ n => exact (dif_neg h0).trans ((dif_neg h1).trans rfl)

theorem outsAt_last (c : Dev nD) (t : Fin cfg7.N) (h0 : ¬t.val % 13 = 0) (h1 : t.val % 13 = 12) :
    outsAt V c t.val t.isLt = (out_last c (grid7.coords t) (ms_0 t) (hs_0 t) (ms_1 t) (hs_1 t) (ms_2 t) (hs_2 t) (ms_3 t) (hs_3 t) scM (Memref.isWhole_whole _) (fun h => h0 ((isFirst_iff t).mp h)) ((isLast_iff t).mpr h1) (blk V c 0 t) (blk V c 1 t) (blk V c 2 t)
        (outsAt V c (t.val - 1) (Nat.lt_of_le_of_lt (Nat.sub_le _ _) t.isLt)).2,
      scr_last c (grid7.coords t) (ms_0 t) (hs_0 t) (ms_1 t) (hs_1 t) (ms_2 t) (hs_2 t) (ms_3 t) (hs_3 t) scM (Memref.isWhole_whole _) (fun h => h0 ((isFirst_iff t).mp h)) ((isLast_iff t).mpr h1) (blk V c 0 t) (blk V c 1 t) (blk V c 2 t)
        (outsAt V c (t.val - 1) (Nat.lt_of_le_of_lt (Nat.sub_le _ _) t.isLt)).2) := by
  obtain ⟨n, hn⟩ := t
  cases n with
  | zero => exact (by exfalso; exact absurd (Nat.zero_mod _) h0)
  | succ n => exact (dif_neg h0).trans ((dif_pos h1).trans rfl)

/-- The region's invariant before position n: before the first point the untouched rest; afterwards the scratch block at what
    the point before left, beside the remainder of the rest and the generator register. -/
def inv (c : Dev nD) : (n : ℕ) → n ≤ cfg7.N → sProp 𝕄
  | 0, _ => Pipeline.ΦA spec7 c
  | n + 1, hn => iprop(iprop(owns (c : Thread nD τ) scM fullShare ((outsAt V c n hn).2) ∗ Pipeline.scopedRestBut (Ix := Unit) (Name := ℕ) (U := UR sig nD τ) (Lvl := ℕ) (Val := Elt F) spec7 c [cc7_scratch0]) ∗ (∃ r, prngReg c r))

theorem inv_zero (c : Dev nD) (n : ℕ) (h : n ≤ cfg7.N) (hz : n = 0) : inv V c n h = Pipeline.ΦA spec7 c := by
  subst hz; rfl
theorem inv_succ (c : Dev nD) (n : ℕ) (hn : n < cfg7.N) :
    inv V c (n + 1) hn = iprop(iprop(owns (c : Thread nD τ) scM fullShare ((outsAt V c n hn).2) ∗ Pipeline.scopedRestBut (Ix := Unit) (Name := ℕ) (U := UR sig nD τ) (Lvl := ℕ) (Val := Elt F) spec7 c [cc7_scratch0]) ∗ (∃ r, prngReg c r)) := rfl
theorem inv_pos (c : Dev nD) (n : ℕ) (h : n ≤ cfg7.N) (hz : n ≠ 0) :
    inv V c n h = iprop(iprop(owns (c : Thread nD τ) scM fullShare ((outsAt V c (n - 1) (by omega)).2) ∗ Pipeline.scopedRestBut (Ix := Unit) (Name := ℕ) (U := UR sig nD τ) (Lvl := ℕ) (Val := Elt F) spec7 c [cc7_scratch0]) ∗ (∃ r, prngReg c r)) := by
  cases n with
  | zero => exact absurd rfl hz
  | succ n => rfl

/-- The region's proof data on core c. -/
def dat (c : Dev nD) : Dat τ (Elt F) Unit ℕ (UR sig nD τ) ℕ cfg7 c where
  A w := V c (Pipeline.arrRef spec7 w)
  after w t := match w with
    | ⟨0, _⟩ => blk V c 0 t
    | ⟨1, _⟩ => blk V c 1 t
    | ⟨2, _⟩ => blk V c 2 t
    | ⟨3, _⟩ => (outsAt V c t.val t.isLt).1
  Φ t := inv V c t.val (Nat.le_of_lt_succ t.isLt)
  q _ := fullShare
  owed _ := 0

theorem A_eq (c : Dev nD) (w : Fin cfg7.W) : (dat V c).A w = V c (Pipeline.arrRef spec7 w) := by
  dsimp only [dat]
theorem inv_castSucc (c : Dev nD) (t : Fin cfg7.N) : (dat V c).Φ t.castSucc = inv V c t.val (Nat.le_of_lt t.isLt) := by
  dsimp only [dat]; simp only [Fin.coe_castSucc]
theorem after_0 (c : Dev nD) (t : Fin cfg7.N) : (dat V c).after 0 t = blk V c 0 t := by dsimp only [dat]
theorem after_1 (c : Dev nD) (t : Fin cfg7.N) : (dat V c).after 1 t = blk V c 1 t := by dsimp only [dat]
theorem after_2 (c : Dev nD) (t : Fin cfg7.N) : (dat V c).after 2 t = blk V c 2 t := by dsimp only [dat]
theorem after_3 (c : Dev nD) (t : Fin cfg7.N) : (dat V c).after 3 t = (outsAt V c t.val t.isLt).1 := by dsimp only [dat]
theorem before_0 (c : Dev nD) (t : Fin cfg7.N) (d) : (dat V c).before 0 t d = blk V c 0 t := found_0 V (dat V c) (A_eq V c 0) (after_0 V c) t d
theorem before_1 (c : Dev nD) (t : Fin cfg7.N) (d) : (dat V c).before 1 t d = blk V c 1 t := found_1 V (dat V c) (A_eq V c 1) (after_1 V c) t d
theorem before_2 (c : Dev nD) (t : Fin cfg7.N) (d) : (dat V c).before 2 t d = blk V c 2 t := found_2 V (dat V c) (A_eq V c 2) (after_2 V c) t d

/-! ## The body obligation, at a generic point -/

def bodyPre (c : Dev nD) (t : Fin cfg7.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

def bodyPost (c : Dev nD) (t : Fin cfg7.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4800000 in
/-- The body at any point: the inputs' buffers hold their blocks; the closed forms say which case the point is in; the invariant
    hands over the scratch block at what the point before left (at anything at the very first point) and takes it back at this
    point's contents; where the result's window is idle its buffer goes back as found. -/
theorem body_at (c : Dev nD) (t : Fin cfg7.N) :
    bodyPre V c t ⊢ wp frame (wpE (defs₀ (F := F)) Variants.none c none) Set.univ (bodyAt t) (fun _ => bodyPost V c t) := by
  unfold bodyPre bodyPost bodyAt
  simp only [before_0, before_1, before_2]
  rw [show (dat V c).owesAt () t.succ = (dat V c).owesAt () t.castSucc from rfl]
  rw [show (dat V c).Φ t.succ = inv V c (t.val + 1) t.isLt from rfl, inv_succ]
  rw [show (dat V c).leavesExact 0 t = owns (c : Thread nD τ) (ms_0 t) fullShare ((dat V c).after 0 t) from by
    unfold Dat.leavesExact; rfl, after_0]
  rw [show (dat V c).leavesExact 1 t = owns (c : Thread nD τ) (ms_1 t) fullShare ((dat V c).after 1 t) from by
    unfold Dat.leavesExact; rfl, after_1]
  rw [show (dat V c).leavesExact 2 t = owns (c : Thread nD τ) (ms_2 t) fullShare ((dat V c).after 2 t) from by
    unfold Dat.leavesExact; rfl, after_2]
  by_cases h0 : t.val % 13 = 0
  · have h1 : ¬t.val % 13 = 12 := by omega
    rw [Dat.leavesExact_idle (dat V c) 3 t (idle_3 _ (fun h => h1 ((isLast_iff t).mp h))) (noFlush_3 t (fun h => h1 ((isLast_iff t).mp h)))]
    rw [outsAt_first V c t h0 h1]
    unfold scr_first; (try dsimp only)
    by_cases hz : t.val = 0
    · rw [inv_castSucc V c t, inv_zero V c _ _ hz, rest_eq]
      iintro ⟨⟨⟨HS, Hr⟩, Hg⟩, Ho, ⟨%d0, H0⟩, ⟨%d1, H1⟩, ⟨%d2, H2⟩, ⟨%d3, H3⟩⟩
      iapply ((run_first c (grid7.coords t) _ _ _ _ _ _ _ _ _ _ ((isFirst_iff t).mpr h0) (fun h => h1 ((isLast_iff t).mp h)) (blk V c 0 t) (blk V c 1 t) (blk V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover_first c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [inv_castSucc V c t, inv_pos V c _ _ hz]
      iintro ⟨⟨⟨HS, Hr⟩, Hg⟩, Ho, ⟨%d0, H0⟩, ⟨%d1, H1⟩, ⟨%d2, H2⟩, ⟨%d3, H3⟩⟩
      iapply ((run_first c (grid7.coords t) _ _ _ _ _ _ _ _ _ _ ((isFirst_iff t).mpr h0) (fun h => h1 ((isLast_iff t).mp h)) (blk V c 0 t) (blk V c 1 t) (blk V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover_first c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 13 = 12
    · rw [show (dat V c).leavesExact 3 t = owns (c : Thread nD τ) (ms_3 t) fullShare ((dat V c).after 3 t) from by
        unfold Dat.leavesExact; rw [live_3 _ ((isLast_iff t).mpr h1)], after_3]
      rw [outsAt_last V c t h0 h1]
      unfold out_last scr_last; (try dsimp only)
      rw [inv_castSucc V c t, inv_pos V c _ _ hz]
      iintro ⟨⟨⟨HS, Hr⟩, Hg⟩, Ho, ⟨%d0, H0⟩, ⟨%d1, H1⟩, ⟨%d2, H2⟩, ⟨%d3, H3⟩⟩
      iapply ((run_last c (grid7.coords t) _ _ _ _ _ _ _ _ _ _ (fun h => h0 ((isFirst_iff t).mp h)) ((isLast_iff t).mpr h1) (blk V c 0 t) (blk V c 1 t) (blk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hr Hg]
      · isplitl [HS Hr]
        · isplitl [HS]
          · unfold owns; iexists _; isplitr
            swap; · iexact HS
            ipureintro; exact View.read_writes_of_cover _ _ _ _ _ (scover_last c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (ocover_last c _ _ _ _ _ _ _ _ _ _ _ _ _ _ _ _ _)
    · rw [Dat.leavesExact_idle (dat V c) 3 t (idle_3 _ (fun h => h1 ((isLast_iff t).mp h))) (noFlush_3 t (fun h => h1 ((isLast_iff t).mp h)))]
      rw [outsAt_mid V c t h0 h1]
      unfold scr_mid; (try dsimp only)
      rw [inv_castSucc V c t, inv_pos V c _ _ hz]
      iintro ⟨⟨⟨HS, Hr⟩, Hg⟩, Ho, ⟨%d0, H0⟩, ⟨%d1, H1⟩, ⟨%d2, H2⟩, ⟨%d3, H3⟩⟩
      iapply ((run_mid c (grid7.coords t) _ _ _ _ _ _ _ _ _ _ (fun h => h0 ((isFirst_iff t).mp h)) (fun h => h1 ((isLast_iff t).mp h)) (blk V c 0 t) (blk V c 1 t) (blk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover_mid c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W7, bigSep_W7]
  exact body_at V c t

/-- The untouched rest is the invariant before the first point, -/
theorem hin (c : Dev nD) : Pipeline.ΦA spec7 c ⊢ (dat V c).Φ 0 := by
  rw [show (dat V c).Φ 0 = inv V c 0 (Nat.zero_le _) from rfl, inv_zero V c 0 _ rfl]
  try exact Idealize.SL.BI.Entails.refl _

/-- and the invariant after the last point gives it back, the scratch block's contents forgotten. -/
theorem hout (c : Dev nD) : (dat V c).Φ (Fin.last cfg7.N) ⊢ Pipeline.ΦA spec7 c := by
  rw [show (dat V c).Φ (Fin.last cfg7.N) = inv V c (Fin.last cfg7.N).val (Nat.le_of_lt_succ (Fin.last cfg7.N).isLt) from rfl,
    inv_pos V c _ _ (by rw [Fin.val_last]; have : cfg7.N = 21593 := N_7; omega), rest_eq]
  iintro ⟨⟨HS, Hr⟩, Hg⟩
  isplitl [HS Hr]
  · isplitl [HS]
    · iexists _; iexact HS
    iexact Hr
  iexact Hg

end Cert.Kernel.R7

end
-- ==== Proof.BRegion8.lean ====
/-
  The scatter's region (kernel call 8), on every core, at any float values, from any contents `V` of the TensorCore's
  buffers at its entry.

  Its grid has 13 × 1661 points: a node tile of 8192 rows, and for it the 1661 tiles of 1024 padded edges, innermost.  At a
  point the body is handed the edge tile's target words (window 0) and messages (window 1), the bias row (window 2, fetched
  once), a staging buffer for the node tile of the result (window 3, written back at the node tile's last point only) and
  a scratch block that it carries from point to point.  Three cases, by the edge tile's number e = t mod 1661:
    first  (e = 0):      the scratch is stored zero, then the tile's one-hot product is added into it;
    middle (0<e<1660):   the product is added into the scratch as the point before left it;
    last   (e = 1660):   the same, and then the scratch plus the bias row is stored over the whole result buffer.
  At the first two the result's buffer is idle: handed back as found and not written back.  After every point the
  scratch holds what the case's stores leave, read back; the region's invariant carries it.
-/
import proofs.«155233_j36086315221040_1_alg».proof.Proof.Gen.Kernel.Launch
import proofs.«155233_j36086315221040_1_alg».proof.Proof.Gen.Kernel.Skeleton
import proofs.«155233_j36086315221040_1_alg».proof.Proof.GridFacts
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R8

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def blk (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Each input's staging buffer holds its block at every point, fetched there or not (a block not fetched has not moved). -/
theorem found_0 {c : Dev nD} (dat : Dat τ (Elt F) Unit ℕ (UR sig nD τ) ℕ cfg8 c) (hA : dat.A 0 = V c (Pipeline.arrRef spec8 0))
    (hafter : ∀ t, dat.after 0 t = blk V c 0 t) (t : Fin cfg8.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found_1 {c : Dev nD} (dat : Dat τ (Elt F) Unit ℕ (UR sig nD τ) ℕ cfg8 c) (hA : dat.A 1 = V c (Pipeline.arrRef spec8 1))
    (hafter : ∀ t, dat.after 1 t = blk V c 1 t) (t : Fin cfg8.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found_2 {c : Dev nD} (dat : Dat τ (Elt F) Unit ℕ (UR sig nD τ) ℕ cfg8 c) (hA : dat.A 2 = V c (Pipeline.arrRef spec8 2))
    (hafter : ∀ t, dat.after 2 t = blk V c 2 t) (t : Fin cfg8.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's two conditions, decided over the grid -/

/-- "This is the node tile's first edge tile", as the body computes it from the grid coordinates. -/
abbrev isFirst (i : grid8.Coords) : Prop := (Scalar.cmpi .ne (Scalar.extui (Scalar.cmpi .eq (BitVec.ofNat 32 (i 1).val) 0#32)) 0#32) = 1#1
theorem isFirst_iff : ∀ t : Fin cfg8.N, isFirst (grid8.coords t) ↔ t.val % 1661 = 0 :=
  Cert.Proof.GridFacts.scatter_first
/-- "This is its last edge tile". -/
abbrev isLast (i : grid8.Coords) : Prop := k8_cond2 i = 1#1
theorem isLast_iff : ∀ t : Fin cfg8.N, isLast (grid8.coords t) ↔ t.val % 1661 = 1660 :=
  Cert.Proof.GridFacts.scatter_last

/-- The result's block is written back exactly at the last inner point. -/
theorem flush_3 : ∀ t : Fin cfg8.N, (cfg8.win 3).flush t = true ↔ t.val % 1661 = 1660 :=
  Cert.Proof.GridFacts.scatter_flush
/-- The body as the pipeline calls it at point t. -/
abbrev bodyAt (t : Fin cfg8.N) : Prog (TpuEff nD τ sig (Elt F) Λ₀ .tc) PUnit :=
  cc8__scatter_kernel (grid8.coords t) (win8_0.stage (cfg8.slots t 0)) (hstage8_0 ((cfg8.slots t 0).cast nbuf8_0)) (win8_1.stage (cfg8.slots t 1)) (hstage8_1 ((cfg8.slots t 1).cast nbuf8_1)) (win8_2.stage (cfg8.slots t 2)) (hstage8_2 ((cfg8.slots t 2).cast nbuf8_2)) (win8_3.stage (cfg8.slots t 3)) (hstage8_3 ((cfg8.slots t 3).cast nbuf8_3)) (Memref.whole cc8_scratch0) (Memref.isWhole_whole _)

/-- Where the result's window is idle: exactly off the last edge tile (the configuration's table is the negated test). -/
theorem idle_3 (i : grid8.Coords) (h : ¬isLast i) : cfg8.idle 3 i = true := by
  show (!(k8_cond2 i == 1#1)) = true
  simp only [Bool.not_eq_true', beq_eq_false_iff_ne, ne_eq]; exact h
theorem live_3 (i : grid8.Coords) (h : isLast i) : cfg8.idle 3 i = false := by
  show (!(k8_cond2 i == 1#1)) = false
  simp only [Bool.not_eq_false', beq_iff_eq]; exact h
/-- Off the last edge tile the result's block is not written back. -/
theorem noFlush_3 (t : Fin cfg8.N) (h : ¬isLast (grid8.coords t)) : (cfg8.win 3).flush t = false := by
  have := flush_3 t
  cases hf : (cfg8.win 3).flush t
  · rfl
  · exact absurd ((isLast_iff t).mpr (this.mp hf)) h

/-! ## The staging and scratch memrefs -/

abbrev VO : View sig .tc .vmem S8192x32 .f32 := (Memref.whole cc8_stg3_0 : Memref sig .tc .vmem S8192x32 .f32).view
abbrev ms_0 (t : Fin cfg8.N) : Memref sig .tc .vmem S1024 .i32 := win8_0.stage (cfg8.slots t 0)
abbrev hs_0 (t : Fin cfg8.N) : (ms_0 t).IsWhole := hstage8_0 ((cfg8.slots t 0).cast nbuf8_0)
abbrev ms_1 (t : Fin cfg8.N) : Memref sig .tc .vmem S1024x32 .f32 := win8_1.stage (cfg8.slots t 1)
abbrev hs_1 (t : Fin cfg8.N) : (ms_1 t).IsWhole := hstage8_1 ((cfg8.slots t 1).cast nbuf8_1)
abbrev ms_2 (t : Fin cfg8.N) : Memref sig .tc .vmem S32 .f32 := win8_2.stage (cfg8.slots t 2)
abbrev hs_2 (t : Fin cfg8.N) : (ms_2 t).IsWhole := hstage8_2 ((cfg8.slots t 2).cast nbuf8_2)
abbrev ms_3 (t : Fin cfg8.N) : Memref sig .tc .vmem S8192x32 .f32 := win8_3.stage (cfg8.slots t 3)
abbrev hs_3 (t : Fin cfg8.N) : (ms_3 t).IsWhole := hstage8_3 ((cfg8.slots t 3).cast nbuf8_3)
/-- The scratch block the body carries between points. -/
abbrev scM : Memref sig .tc .vmem S8192x32 .f32 := Memref.whole cc8_scratch0
abbrev VS : View sig .tc .vmem S8192x32 .f32 := (scM).view

/-- The untouched rest with the scratch block taken out of it, owned at some contents. -/
theorem rest_eq (c : Dev nD) :
    (Pipeline.ΦA spec8 c : sProp 𝕄)
      = iprop(iprop((∃ d, owns (c : Thread nD τ) scM fullShare d)
          ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [scM, owns_whole]
  try rfl

/-! ## The body, case by case: the pieces each buffer ends with are what the run finds -/

set_option maxHeartbeats 2000000 in
/-- FIRST edge tile of a node tile: the scratch at anything, the result's buffer handed back untouched. -/
noncomputable def run_first (c : Dev nD) (i : grid8.Coords) (arg2 : Memref sig .tc .vmem S1024 .i32) (harg2 : arg2.IsWhole) (arg3 : Memref sig .tc .vmem S1024x32 .f32) (harg3 : arg3.IsWhole) (arg4 : Memref sig .tc .vmem S32 .f32) (harg4 : arg4.IsWhole) (arg5 : Memref sig .tc .vmem S8192x32 .f32) (harg5 : arg5.IsWhole) (arg6 : Memref sig .tc .vmem S8192x32 .f32) (harg6 : arg6.IsWhole)
    (hc0 : isFirst i) (hc1 : ¬isLast i) (x0 : Vec F S1024 .i32) (x1 : Vec F S1024x32 .f32) (x2 : Vec F S32 .f32) :
    Σ' (L3 : List (View.Piece (Elt F) S8192x32 .f32)), { LS : List (View.Piece (Elt F) S8192x32 .f32) //
      ∀ (xi3 : Vec F S8192x32 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E (cc8__scatter_kernel i arg2 harg2 arg3 harg3 arg4 harg4 arg5 harg5 arg6 harg6) K } := by
  refine ⟨[], ?_, fun xi3 E K => ?run⟩
  case run =>
    simp only [cc8__scatter_kernel_eq_skeleton]; unfold cc8__scatter_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 2000000 in
/-- A MIDDLE edge tile: the scratch at what the point before left, the result's buffer handed back untouched. -/
noncomputable def run_mid (c : Dev nD) (i : grid8.Coords) (arg2 : Memref sig .tc .vmem S1024 .i32) (harg2 : arg2.IsWhole) (arg3 : Memref sig .tc .vmem S1024x32 .f32) (harg3 : arg3.IsWhole) (arg4 : Memref sig .tc .vmem S32 .f32) (harg4 : arg4.IsWhole) (arg5 : Memref sig .tc .vmem S8192x32 .f32) (harg5 : arg5.IsWhole) (arg6 : Memref sig .tc .vmem S8192x32 .f32) (harg6 : arg6.IsWhole)
    (hc0 : ¬isFirst i) (hc1 : ¬isLast i) (x0 : Vec F S1024 .i32) (x1 : Vec F S1024x32 .f32) (x2 : Vec F S32 .f32) (xs0 : Vec F S8192x32 .f32) :
    Σ' (L3 : List (View.Piece (Elt F) S8192x32 .f32)), { LS : List (View.Piece (Elt F) S8192x32 .f32) //
      ∀ (xi3 : Vec F S8192x32 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E (cc8__scatter_kernel i arg2 harg2 arg3 harg3 arg4 harg4 arg5 harg5 arg6 harg6) K } := by
  refine ⟨[], ?_, fun xi3 E K => ?run⟩
  case run =>
    simp only [cc8__scatter_kernel_eq_skeleton]; unfold cc8__scatter_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 2000000 in
/-- The LAST edge tile: the scratch at what the point before left, the result's buffer at anything and stored whole. -/
noncomputable def run_last (c : Dev nD) (i : grid8.Coords) (arg2 : Memref sig .tc .vmem S1024 .i32) (harg2 : arg2.IsWhole) (arg3 : Memref sig .tc .vmem S1024x32 .f32) (harg3 : arg3.IsWhole) (arg4 : Memref sig .tc .vmem S32 .f32) (harg4 : arg4.IsWhole) (arg5 : Memref sig .tc .vmem S8192x32 .f32) (harg5 : arg5.IsWhole) (arg6 : Memref sig .tc .vmem S8192x32 .f32) (harg6 : arg6.IsWhole)
    (hc0 : ¬isFirst i) (hc1 : isLast i) (x0 : Vec F S1024 .i32) (x1 : Vec F S1024x32 .f32) (x2 : Vec F S32 .f32) (xs0 : Vec F S8192x32 .f32) :
    Σ' (L3 : List (View.Piece (Elt F) S8192x32 .f32)), { LS : List (View.Piece (Elt F) S8192x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc8__scatter_kernel i arg2 harg2 arg3 harg3 arg4 harg4 arg5 harg5 arg6 harg6) K } := by
  refine ⟨?_, ?_, fun E K => ?run⟩
  case run =>
    simp only [cc8__scatter_kernel_eq_skeleton]; unfold cc8__scatter_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! ## What each case leaves in the scratch block and in the result's buffer -/

theorem scover_first (c : Dev nD) (i : grid8.Coords) (arg2 : Memref sig .tc .vmem S1024 .i32) (harg2 : arg2.IsWhole) (arg3 : Memref sig .tc .vmem S1024x32 .f32) (harg3 : arg3.IsWhole) (arg4 : Memref sig .tc .vmem S32 .f32) (harg4 : arg4.IsWhole) (arg5 : Memref sig .tc .vmem S8192x32 .f32) (harg5 : arg5.IsWhole) (arg6 : Memref sig .tc .vmem S8192x32 .f32) (harg6 : arg6.IsWhole) (hc0 : isFirst i) (hc1 : ¬isLast i) (x0 : Vec F S1024 .i32) (x1 : Vec F S1024x32 .f32) (x2 : Vec F S32 .f32) (y : S8192x32.Idx) :
    ∃ pc ∈ (run_first c i arg2 harg2 arg3 harg3 arg4 harg4 arg5 harg5 arg6 harg6 hc0 hc1 x0 x1 x2).2.1, y ∈ pc.1.set :=
  View.cover_of_tiledL (run_first c i arg2 harg2 arg3 harg3 arg4 harg4 arg5 harg5 arg6 harg6 hc0 hc1 x0 x1 x2).2.1 S8192x32.size (by sl_kernel_rfl) y
/-- After a first edge tile the scratch block holds the case's pieces, read back. -/
def scr_first (c : Dev nD) (i : grid8.Coords) (arg2 : Memref sig .tc .vmem S1024 .i32) (harg2 : arg2.IsWhole) (arg3 : Memref sig .tc .vmem S1024x32 .f32) (harg3 : arg3.IsWhole) (arg4 : Memref sig .tc .vmem S32 .f32) (harg4 : arg4.IsWhole) (arg5 : Memref sig .tc .vmem S8192x32 .f32) (harg5 : arg5.IsWhole) (arg6 : Memref sig .tc .vmem S8192x32 .f32) (harg6 : arg6.IsWhole) (hc0 : isFirst i) (hc1 : ¬isLast i) (x0 : Vec F S1024 .i32) (x1 : Vec F S1024x32 .f32) (x2 : Vec F S32 .f32) : Vec F S8192x32 .f32 :=
  VS.read (Elt F) (VS.writes (Elt F) VS.junk (run_first c i arg2 harg2 arg3 harg3 arg4 harg4 arg5 harg5 arg6 harg6 hc0 hc1 x0 x1 x2).2.1)

theorem scover_mid (c : Dev nD) (i : grid8.Coords) (arg2 : Memref sig .tc .vmem S1024 .i32) (harg2 : arg2.IsWhole) (arg3 : Memref sig .tc .vmem S1024x32 .f32) (harg3 : arg3.IsWhole) (arg4 : Memref sig .tc .vmem S32 .f32) (harg4 : arg4.IsWhole) (arg5 : Memref sig .tc .vmem S8192x32 .f32) (harg5 : arg5.IsWhole) (arg6 : Memref sig .tc .vmem S8192x32 .f32) (harg6 : arg6.IsWhole) (hc0 : ¬isFirst i) (hc1 : ¬isLast i) (x0 : Vec F S1024 .i32) (x1 : Vec F S1024x32 .f32) (x2 : Vec F S32 .f32) (xs0 : Vec F S8192x32 .f32) (y : S8192x32.Idx) :
    ∃ pc ∈ (run_mid c i arg2 harg2 arg3 harg3 arg4 harg4 arg5 harg5 arg6 harg6 hc0 hc1 x0 x1 x2 xs0).2.1, y ∈ pc.1.set :=
  View.cover_of_tiledL (run_mid c i arg2 harg2 arg3 harg3 arg4 harg4 arg5 harg5 arg6 harg6 hc0 hc1 x0 x1 x2 xs0).2.1 S8192x32.size (by sl_kernel_rfl) y
def scr_mid (c : Dev nD) (i : grid8.Coords) (arg2 : Memref sig .tc .vmem S1024 .i32) (harg2 : arg2.IsWhole) (arg3 : Memref sig .tc .vmem S1024x32 .f32) (harg3 : arg3.IsWhole) (arg4 : Memref sig .tc .vmem S32 .f32) (harg4 : arg4.IsWhole) (arg5 : Memref sig .tc .vmem S8192x32 .f32) (harg5 : arg5.IsWhole) (arg6 : Memref sig .tc .vmem S8192x32 .f32) (harg6 : arg6.IsWhole) (hc0 : ¬isFirst i) (hc1 : ¬isLast i) (x0 : Vec F S1024 .i32) (x1 : Vec F S1024x32 .f32) (x2 : Vec F S32 .f32) (xs0 : Vec F S8192x32 .f32) : Vec F S8192x32 .f32 :=
  VS.read (Elt F) (VS.writes (Elt F) VS.junk (run_mid c i arg2 harg2 arg3 harg3 arg4 harg4 arg5 harg5 arg6 harg6 hc0 hc1 x0 x1 x2 xs0).2.1)

theorem scover_last (c : Dev nD) (i : grid8.Coords) (arg2 : Memref sig .tc .vmem S1024 .i32) (harg2 : arg2.IsWhole) (arg3 : Memref sig .tc .vmem S1024x32 .f32) (harg3 : arg3.IsWhole) (arg4 : Memref sig .tc .vmem S32 .f32) (harg4 : arg4.IsWhole) (arg5 : Memref sig .tc .vmem S8192x32 .f32) (harg5 : arg5.IsWhole) (arg6 : Memref sig .tc .vmem S8192x32 .f32) (harg6 : arg6.IsWhole) (hc0 : ¬isFirst i) (hc1 : isLast i) (x0 : Vec F S1024 .i32) (x1 : Vec F S1024x32 .f32) (x2 : Vec F S32 .f32) (xs0 : Vec F S8192x32 .f32) (y : S8192x32.Idx) :
    ∃ pc ∈ (run_last c i arg2 harg2 arg3 harg3 arg4 harg4 arg5 harg5 arg6 harg6 hc0 hc1 x0 x1 x2 xs0).2.1, y ∈ pc.1.set :=
  View.cover_of_tiledL (run_last c i arg2 harg2 arg3 harg3 arg4 harg4 arg5 harg5 arg6 harg6 hc0 hc1 x0 x1 x2 xs0).2.1 S8192x32.size (by sl_kernel_rfl) y
def scr_last (c : Dev nD) (i : grid8.Coords) (arg2 : Memref sig .tc .vmem S1024 .i32) (harg2 : arg2.IsWhole) (arg3 : Memref sig .tc .vmem S1024x32 .f32) (harg3 : arg3.IsWhole) (arg4 : Memref sig .tc .vmem S32 .f32) (harg4 : arg4.IsWhole) (arg5 : Memref sig .tc .vmem S8192x32 .f32) (harg5 : arg5.IsWhole) (arg6 : Memref sig .tc .vmem S8192x32 .f32) (harg6 : arg6.IsWhole) (hc0 : ¬isFirst i) (hc1 : isLast i) (x0 : Vec F S1024 .i32) (x1 : Vec F S1024x32 .f32) (x2 : Vec F S32 .f32) (xs0 : Vec F S8192x32 .f32) : Vec F S8192x32 .f32 :=
  VS.read (Elt F) (VS.writes (Elt F) VS.junk (run_last c i arg2 harg2 arg3 harg3 arg4 harg4 arg5 harg5 arg6 harg6 hc0 hc1 x0 x1 x2 xs0).2.1)
theorem ocover_last (c : Dev nD) (i : grid8.Coords) (arg2 : Memref sig .tc .vmem S1024 .i32) (harg2 : arg2.IsWhole) (arg3 : Memref sig .tc .vmem S1024x32 .f32) (harg3 : arg3.IsWhole) (arg4 : Memref sig .tc .vmem S32 .f32) (harg4 : arg4.IsWhole) (arg5 : Memref sig .tc .vmem S8192x32 .f32) (harg5 : arg5.IsWhole) (arg6 : Memref sig .tc .vmem S8192x32 .f32) (harg6 : arg6.IsWhole) (hc0 : ¬isFirst i) (hc1 : isLast i) (x0 : Vec F S1024 .i32) (x1 : Vec F S1024x32 .f32) (x2 : Vec F S32 .f32) (xs0 : Vec F S8192x32 .f32) (y : S8192x32.Idx) :
    ∃ pc ∈ (run_last c i arg2 harg2 arg3 harg3 arg4 harg4 arg5 harg5 arg6 harg6 hc0 hc1 x0 x1 x2 xs0).1, y ∈ pc.1.set :=
  View.cover_of_tiledL (run_last c i arg2 harg2 arg3 harg3 arg4 harg4 arg5 harg5 arg6 harg6 hc0 hc1 x0 x1 x2 xs0).1 S8192x32.size (by sl_kernel_rfl) y
/-- After a last edge tile the result's buffer holds the case's pieces, read back. -/
def out_last (c : Dev nD) (i : grid8.Coords) (arg2 : Memref sig .tc .vmem S1024 .i32) (harg2 : arg2.IsWhole) (arg3 : Memref sig .tc .vmem S1024x32 .f32) (harg3 : arg3.IsWhole) (arg4 : Memref sig .tc .vmem S32 .f32) (harg4 : arg4.IsWhole) (arg5 : Memref sig .tc .vmem S8192x32 .f32) (harg5 : arg5.IsWhole) (arg6 : Memref sig .tc .vmem S8192x32 .f32) (harg6 : arg6.IsWhole) (hc0 : ¬isFirst i) (hc1 : isLast i) (x0 : Vec F S1024 .i32) (x1 : Vec F S1024x32 .f32) (x2 : Vec F S32 .f32) (xs0 : Vec F S8192x32 .f32) : Vec F S8192x32 .f32 :=
  VO.read (Elt F) (VO.writes (Elt F) VO.junk (run_last c i arg2 harg2 arg3 harg3 arg4 harg4 arg5 harg5 arg6 harg6 hc0 hc1 x0 x1 x2 xs0).1)
/-- Where the result's buffer is idle nothing reads what is recorded for it: a placeholder. -/
def out_idle : Vec F S8192x32 .f32 := VO.read (Elt F) VO.junk

/-! ## Point by point -/

/-- After the body at position n: the result's staging buffer, then the scratch block — the case the point is in, run at the
    point's memrefs and input blocks, over the scratch the point before left. -/
def outsAt (c : Dev nD) : (n : ℕ) → n < cfg8.N → Vec F S8192x32 .f32 × Vec F S8192x32 .f32
  | 0, hn => (out_idle, scr_first c (grid8.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((isFirst_iff ⟨0, hn⟩).mpr (Nat.zero_mod _)) (fun h => (fun h' => by (try dsimp only at h'); omega) ((isLast_iff ⟨0, hn⟩).mp h)) (blk V c 0 ⟨0, hn⟩) (blk V c 1 ⟨0, hn⟩) (blk V c 2 ⟨0, hn⟩))
  | n + 1, hn =>
    if h0 : (n + 1) % 1661 = 0 then
      if h1 : (n + 1) % 1661 = 1660 then False.elim (by omega)
      else (out_idle, scr_first c (grid8.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) ((isFirst_iff ⟨n + 1, hn⟩).mpr h0) (fun h => h1 ((isLast_iff ⟨n + 1, hn⟩).mp h)) (blk V c 0 ⟨n + 1, hn⟩) (blk V c 1 ⟨n + 1, hn⟩) (blk V c 2 ⟨n + 1, hn⟩))
    else
      if h1 : (n + 1) % 1661 = 1660 then
        (out_last c (grid8.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (outsAt c n (Nat.lt_of_succ_lt hn)).2,
          scr_last c (grid8.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (outsAt c n (Nat.lt_of_succ_lt hn)).2)
      else
        (out_idle, scr_mid c (grid8.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((isFirst_iff ⟨n + 1, hn⟩).mp h)) (fun h => h1 ((isLast_iff ⟨n + 1, hn⟩).mp h)) (blk V c 0 ⟨n + 1, hn⟩) (blk V c 1 ⟨n + 1, hn⟩) (blk V c 2 ⟨n + 1, hn⟩) (outsAt c n (Nat.lt_of_succ_lt hn)).2)

theorem outsAt_first (c : Dev nD) (t : Fin cfg8.N) (h0 : t.val % 1661 = 0) (h1 : ¬t.val % 1661 = 1660) :
    outsAt V c t.val t.isLt = (out_idle, scr_first c (grid8.coords t) (ms_0 t) (hs_0 t) (ms_1 t) (hs_1 t) (ms_2 t) (hs_2 t) (ms_3 t) (hs_3 t) scM (Memref.isWhole_whole _) ((isFirst_iff t).mpr h0) (fun h => h1 ((isLast_iff t).mp h)) (blk V c 0 t) (blk V c 1 t) (blk V c 2 t)) := by
  obtain ⟨n, hn⟩ := t
  cases n with
  | zero => exact rfl
  | succ n => exact (dif_pos h0).trans ((dif_neg h1).trans rfl)

theorem outsAt_mid (c : Dev nD) (t : Fin cfg8.N) (h0 : ¬t.val % 1661 = 0) (h1 : ¬t.val % 1661 = 1660) :
    outsAt V c t.val t.isLt = (out_idle, scr_mid c (grid8.coords t) (ms_0 t) (hs_0 t) (ms_1 t) (hs_1 t) (ms_2 t) (hs_2 t) (ms_3 t) (hs_3 t) scM (Memref.isWhole_whole _) (fun h => h0 ((isFirst_iff t).mp h)) (fun h => h1 ((isLast_iff t).mp h)) (blk V c 0 t) (blk V c 1 t) (blk V c 2 t)
      (outsAt V c (t.val - 1) (Nat.lt_of_le_of_lt (Nat.sub_le _ _) t.isLt)).2) := by
  obtain ⟨n, hn⟩ := t
  cases n with
  | zero => exact (by exfalso; exact absurd (Nat.zero_mod _) h0)
  | succ n => exact (dif_neg h0).trans ((dif_neg h1).trans rfl)

theorem outsAt_last (c : Dev nD) (t : Fin cfg8.N) (h0 : ¬t.val % 1661 = 0) (h1 : t.val % 1661 = 1660) :
    outsAt V c t.val t.isLt = (out_last c (grid8.coords t) (ms_0 t) (hs_0 t) (ms_1 t) (hs_1 t) (ms_2 t) (hs_2 t) (ms_3 t) (hs_3 t) scM (Memref.isWhole_whole _) (fun h => h0 ((isFirst_iff t).mp h)) ((isLast_iff t).mpr h1) (blk V c 0 t) (blk V c 1 t) (blk V c 2 t)
        (outsAt V c (t.val - 1) (Nat.lt_of_le_of_lt (Nat.sub_le _ _) t.isLt)).2,
      scr_last c (grid8.coords t) (ms_0 t) (hs_0 t) (ms_1 t) (hs_1 t) (ms_2 t) (hs_2 t) (ms_3 t) (hs_3 t) scM (Memref.isWhole_whole _) (fun h => h0 ((isFirst_iff t).mp h)) ((isLast_iff t).mpr h1) (blk V c 0 t) (blk V c 1 t) (blk V c 2 t)
        (outsAt V c (t.val - 1) (Nat.lt_of_le_of_lt (Nat.sub_le _ _) t.isLt)).2) := by
  obtain ⟨n, hn⟩ := t
  cases n with
  | zero => exact (by exfalso; exact absurd (Nat.zero_mod _) h0)
  | succ n => exact (dif_neg h0).trans ((dif_pos h1).trans rfl)

/-- The region's invariant before position n: before the first point the untouched rest; afterwards the scratch block at what
    the point before left, beside the remainder of the rest and the generator register. -/
def inv (c : Dev nD) : (n : ℕ) → n ≤ cfg8.N → sProp 𝕄
  | 0, _ => Pipeline.ΦA spec8 c
  | n + 1, hn => iprop(iprop(owns (c : Thread nD τ) scM fullShare ((outsAt V c n hn).2) ∗ Pipeline.scopedRestBut (Ix := Unit) (Name := ℕ) (U := UR sig nD τ) (Lvl := ℕ) (Val := Elt F) spec8 c [cc8_scratch0]) ∗ (∃ r, prngReg c r))

theorem inv_zero (c : Dev nD) (n : ℕ) (h : n ≤ cfg8.N) (hz : n = 0) : inv V c n h = Pipeline.ΦA spec8 c := by
  subst hz; rfl
theorem inv_succ (c : Dev nD) (n : ℕ) (hn : n < cfg8.N) :
    inv V c (n + 1) hn = iprop(iprop(owns (c : Thread nD τ) scM fullShare ((outsAt V c n hn).2) ∗ Pipeline.scopedRestBut (Ix := Unit) (Name := ℕ) (U := UR sig nD τ) (Lvl := ℕ) (Val := Elt F) spec8 c [cc8_scratch0]) ∗ (∃ r, prngReg c r)) := rfl
theorem inv_pos (c : Dev nD) (n : ℕ) (h : n ≤ cfg8.N) (hz : n ≠ 0) :
    inv V c n h = iprop(iprop(owns (c : Thread nD τ) scM fullShare ((outsAt V c (n - 1) (by omega)).2) ∗ Pipeline.scopedRestBut (Ix := Unit) (Name := ℕ) (U := UR sig nD τ) (Lvl := ℕ) (Val := Elt F) spec8 c [cc8_scratch0]) ∗ (∃ r, prngReg c r)) := by
  cases n with
  | zero => exact absurd rfl hz
  | succ n => rfl

/-- The region's proof data on core c. -/
def dat (c : Dev nD) : Dat τ (Elt F) Unit ℕ (UR sig nD τ) ℕ cfg8 c where
  A w := V c (Pipeline.arrRef spec8 w)
  after w t := match w with
    | ⟨0, _⟩ => blk V c 0 t
    | ⟨1, _⟩ => blk V c 1 t
    | ⟨2, _⟩ => blk V c 2 t
    | ⟨3, _⟩ => (outsAt V c t.val t.isLt).1
  Φ t := inv V c t.val (Nat.le_of_lt_succ t.isLt)
  q _ := fullShare
  owed _ := 0

theorem A_eq (c : Dev nD) (w : Fin cfg8.W) : (dat V c).A w = V c (Pipeline.arrRef spec8 w) := by
  dsimp only [dat]
theorem inv_castSucc (c : Dev nD) (t : Fin cfg8.N) : (dat V c).Φ t.castSucc = inv V c t.val (Nat.le_of_lt t.isLt) := by
  dsimp only [dat]; simp only [Fin.coe_castSucc]
theorem after_0 (c : Dev nD) (t : Fin cfg8.N) : (dat V c).after 0 t = blk V c 0 t := by dsimp only [dat]
theorem after_1 (c : Dev nD) (t : Fin cfg8.N) : (dat V c).after 1 t = blk V c 1 t := by dsimp only [dat]
theorem after_2 (c : Dev nD) (t : Fin cfg8.N) : (dat V c).after 2 t = blk V c 2 t := by dsimp only [dat]
theorem after_3 (c : Dev nD) (t : Fin cfg8.N) : (dat V c).after 3 t = (outsAt V c t.val t.isLt).1 := by dsimp only [dat]
theorem before_0 (c : Dev nD) (t : Fin cfg8.N) (d) : (dat V c).before 0 t d = blk V c 0 t := found_0 V (dat V c) (A_eq V c 0) (after_0 V c) t d
theorem before_1 (c : Dev nD) (t : Fin cfg8.N) (d) : (dat V c).before 1 t d = blk V c 1 t := found_1 V (dat V c) (A_eq V c 1) (after_1 V c) t d
theorem before_2 (c : Dev nD) (t : Fin cfg8.N) (d) : (dat V c).before 2 t d = blk V c 2 t := found_2 V (dat V c) (A_eq V c 2) (after_2 V c) t d

/-! ## The body obligation, at a generic point -/

def bodyPre (c : Dev nD) (t : Fin cfg8.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

def bodyPost (c : Dev nD) (t : Fin cfg8.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4800000 in
/-- The body at any point: the inputs' buffers hold their blocks; the closed forms say which case the point is in; the invariant
    hands over the scratch block at what the point before left (at anything at the very first point) and takes it back at this
    point's contents; where the result's window is idle its buffer goes back as found. -/
theorem body_at (c : Dev nD) (t : Fin cfg8.N) :
    bodyPre V c t ⊢ wp frame (wpE (defs₀ (F := F)) Variants.none c none) Set.univ (bodyAt t) (fun _ => bodyPost V c t) := by
  unfold bodyPre bodyPost bodyAt
  simp only [before_0, before_1, before_2]
  rw [show (dat V c).owesAt () t.succ = (dat V c).owesAt () t.castSucc from rfl]
  rw [show (dat V c).Φ t.succ = inv V c (t.val + 1) t.isLt from rfl, inv_succ]
  rw [show (dat V c).leavesExact 0 t = owns (c : Thread nD τ) (ms_0 t) fullShare ((dat V c).after 0 t) from by
    unfold Dat.leavesExact; rfl, after_0]
  rw [show (dat V c).leavesExact 1 t = owns (c : Thread nD τ) (ms_1 t) fullShare ((dat V c).after 1 t) from by
    unfold Dat.leavesExact; rfl, after_1]
  rw [show (dat V c).leavesExact 2 t = owns (c : Thread nD τ) (ms_2 t) fullShare ((dat V c).after 2 t) from by
    unfold Dat.leavesExact; rfl, after_2]
  by_cases h0 : t.val % 1661 = 0
  · have h1 : ¬t.val % 1661 = 1660 := by omega
    rw [Dat.leavesExact_idle (dat V c) 3 t (idle_3 _ (fun h => h1 ((isLast_iff t).mp h))) (noFlush_3 t (fun h => h1 ((isLast_iff t).mp h)))]
    rw [outsAt_first V c t h0 h1]
    unfold scr_first; (try dsimp only)
    by_cases hz : t.val = 0
    · rw [inv_castSucc V c t, inv_zero V c _ _ hz, rest_eq]
      iintro ⟨⟨⟨HS, Hr⟩, Hg⟩, Ho, ⟨%d0, H0⟩, ⟨%d1, H1⟩, ⟨%d2, H2⟩, ⟨%d3, H3⟩⟩
      iapply ((run_first c (grid8.coords t) _ _ _ _ _ _ _ _ _ _ ((isFirst_iff t).mpr h0) (fun h => h1 ((isLast_iff t).mp h)) (blk V c 0 t) (blk V c 1 t) (blk V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover_first c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [inv_castSucc V c t, inv_pos V c _ _ hz]
      iintro ⟨⟨⟨HS, Hr⟩, Hg⟩, Ho, ⟨%d0, H0⟩, ⟨%d1, H1⟩, ⟨%d2, H2⟩, ⟨%d3, H3⟩⟩
      iapply ((run_first c (grid8.coords t) _ _ _ _ _ _ _ _ _ _ ((isFirst_iff t).mpr h0) (fun h => h1 ((isLast_iff t).mp h)) (blk V c 0 t) (blk V c 1 t) (blk V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover_first c _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 1661 = 1660
    · rw [show (dat V c).leavesExact 3 t = owns (c : Thread nD τ) (ms_3 t) fullShare ((dat V c).after 3 t) from by
        unfold Dat.leavesExact; rw [live_3 _ ((isLast_iff t).mpr h1)], after_3]
      rw [outsAt_last V c t h0 h1]
      unfold out_last scr_last; (try dsimp only)
      rw [inv_castSucc V c t, inv_pos V c _ _ hz]
      iintro ⟨⟨⟨HS, Hr⟩, Hg⟩, Ho, ⟨%d0, H0⟩, ⟨%d1, H1⟩, ⟨%d2, H2⟩, ⟨%d3, H3⟩⟩
      iapply ((run_last c (grid8.coords t) _ _ _ _ _ _ _ _ _ _ (fun h => h0 ((isFirst_iff t).mp h)) ((isLast_iff t).mpr h1) (blk V c 0 t) (blk V c 1 t) (blk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hr Hg]
      · isplitl [HS Hr]
        · isplitl [HS]
          · unfold owns; iexists _; isplitr
            swap; · iexact HS
            ipureintro; exact View.read_writes_of_cover _ _ _ _ _ (scover_last c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (ocover_last c _ _ _ _ _ _ _ _ _ _ _ _ _ _ _ _ _)
    · rw [Dat.leavesExact_idle (dat V c) 3 t (idle_3 _ (fun h => h1 ((isLast_iff t).mp h))) (noFlush_3 t (fun h => h1 ((isLast_iff t).mp h)))]
      rw [outsAt_mid V c t h0 h1]
      unfold scr_mid; (try dsimp only)
      rw [inv_castSucc V c t, inv_pos V c _ _ hz]
      iintro ⟨⟨⟨HS, Hr⟩, Hg⟩, Ho, ⟨%d0, H0⟩, ⟨%d1, H1⟩, ⟨%d2, H2⟩, ⟨%d3, H3⟩⟩
      iapply ((run_mid c (grid8.coords t) _ _ _ _ _ _ _ _ _ _ (fun h => h0 ((isFirst_iff t).mp h)) (fun h => h1 ((isLast_iff t).mp h)) (blk V c 0 t) (blk V c 1 t) (blk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro; exact View.read_writes_of_cover _ _ _ _ _ (scover_mid c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W8, bigSep_W8]
  exact body_at V c t

/-- The untouched rest is the invariant before the first point, -/
theorem hin (c : Dev nD) : Pipeline.ΦA spec8 c ⊢ (dat V c).Φ 0 := by
  rw [show (dat V c).Φ 0 = inv V c 0 (Nat.zero_le _) from rfl, inv_zero V c 0 _ rfl]
  try exact Idealize.SL.BI.Entails.refl _

/-- and the invariant after the last point gives it back, the scratch block's contents forgotten. -/
theorem hout (c : Dev nD) : (dat V c).Φ (Fin.last cfg8.N) ⊢ Pipeline.ΦA spec8 c := by
  rw [show (dat V c).Φ (Fin.last cfg8.N) = inv V c (Fin.last cfg8.N).val (Nat.le_of_lt_succ (Fin.last cfg8.N).isLt) from rfl,
    inv_pos V c _ _ (by rw [Fin.val_last]; have : cfg8.N = 21593 := N_8; omega), rest_eq]
  iintro ⟨⟨HS, Hr⟩, Hg⟩
  isplitl [HS Hr]
  · isplitl [HS]
    · iexists _; iexact HS
    iexact Hr
  iexact Hg

end Cert.Kernel.R8

end
-- ==== Proof.BRun.lean ====
/-
  The run of the kernel program's @main: four stretches of host operations, the first layer's three kernel regions (dense
  transform, gather, scatter), four stretches, the second layer's three regions, four stretches, the third layer's three
  regions, and the final slice.  Between two items every unscoped buffer of a core is held at a named valuation: the launch
  contents, then each stretch's operations applied, then after a region its windows' arrays at what its write-backs leave
  and every other buffer as entered.  Each region is entered from the valuation before it with its proof data stated at
  those contents, and left at the next.  Every weakly fair execution terminates, and at the end each unscoped buffer
  holds the last valuation: the result and the eight argument arrays are read off it.
-/
import proofs.«155233_j36086315221040_1_alg».proof.Proof.BRegion0
import proofs.«155233_j36086315221040_1_alg».proof.Proof.BRegion1
import proofs.«155233_j36086315221040_1_alg».proof.Proof.BRegion2
import proofs.«155233_j36086315221040_1_alg».proof.Proof.BRegion3
import proofs.«155233_j36086315221040_1_alg».proof.Proof.BRegion4
import proofs.«155233_j36086315221040_1_alg».proof.Proof.BRegion5
import proofs.«155233_j36086315221040_1_alg».proof.Proof.BRegion6
import proofs.«155233_j36086315221040_1_alg».proof.Proof.BRegion7
import proofs.«155233_j36086315221040_1_alg».proof.Proof.BRegion8
import proofs.«155233_j36086315221040_1_alg».proof.Proof.Gen.Kernel.Regions
import Idealize.ShloMosaic.Lib.Pipeline.RegionsLoop

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core c's buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After item 0, the stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h
/-- After item 1, the stretch `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
theorem W2_keep (c : Dev nD) (r : Ref sig .tc) (h : r ∉ hostOps0_1_W) : W2 m ρ c (Proc.devRef .tc r) = W1 m ρ c (Proc.devRef .tc r) :=
  StableHlo.after_of_writes_sub hostOps0_1 _ hostOps0_1_writes h
/-- After item 2, the stretch `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
theorem W3_keep (c : Dev nD) (r : Ref sig .tc) (h : r ∉ hostOps0_2_W) : W3 m ρ c (Proc.devRef .tc r) = W2 m ρ c (Proc.devRef .tc r) :=
  StableHlo.after_of_writes_sub hostOps0_2 _ hostOps0_2_writes h
/-- After item 3, the stretch `hostOps0_3`. -/
abbrev W4 : Dev nD → Valuation τ sig (Elt F) := fun c => StableHlo.after hostOps0_3 (W3 m ρ c)
abbrev V4 : (c : Dev nD) → (b : Ref sig .tc) → Buf (Elt F) ((c : Thread nD τ).loc b) := fun c b => W4 m ρ c b
theorem W4_keep (c : Dev nD) (r : Ref sig .tc) (h : r ∉ hostOps0_3_W) : W4 m ρ c (Proc.devRef .tc r) = W3 m ρ c (Proc.devRef .tc r) :=
  StableHlo.after_of_writes_sub hostOps0_3 _ hostOps0_3_writes h
/-- After item 4, region 0: its windows' arrays at what the pipeline leaves, every other buffer as entered. -/
def W5 (c : Dev nD) : Valuation τ sig (Elt F) :=
  Pipeline.withArrays spec0 c (W4 m ρ c) fun w => (R0.dat (V4 m ρ) c).arrAt w cfg0.N
theorem W5_arr (c : Dev nD) (w : Fin cfg0.W) :
    W5 m ρ c (Proc.devRef .tc (Pipeline.arrRef spec0 w)) = (R0.dat (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
abbrev V5 : (c : Dev nD) → (b : Ref sig .tc) → Buf (Elt F) ((c : Thread nD τ).loc b) := fun c b => W5 m ρ c b
theorem hF0 (c : Dev nD) (w : Fin cfg0.W) : (R0.dat (V4 m ρ) c).arrAt w cfg0.N = V5 m ρ c (Pipeline.arrRef spec0 w) :=
  (W5_arr m ρ c w).symm
theorem hrest0 (c : Dev nD) : ∀ b, b ∉ Finset.univ.image (Pipeline.arrRef spec0) → V5 m ρ c b = V4 m ρ c b :=
  fun b hb => W5_of_ne m ρ c b fun w e => hb (Finset.mem_image.mpr ⟨w, Finset.mem_univ _, e⟩)
/-- An input window's array leaves region 0 as it entered. -/
theorem W5_in (c : Dev nD) (w : Fin cfg0.W) (hw : (cfg0.win w).isOut = false) :
    W5 m ρ c (Proc.devRef .tc (Pipeline.arrRef spec0 w)) = W4 m ρ c (Proc.devRef .tc (Pipeline.arrRef spec0 w)) :=
  (W5_arr m ρ c w).trans (((R0.dat (V4 m ρ) c).arrAt_in w hw _).trans (R0.A_eq (V4 m ρ) c w))
/-- After item 5, region 1: its windows' arrays at what the pipeline leaves, every other buffer as entered. -/
def W6 (c : Dev nD) : Valuation τ sig (Elt F) :=
  Pipeline.withArrays spec1 c (W5 m ρ c) fun w => (R1.dat (V5 m ρ) c).arrAt w cfg1.N
theorem W6_arr (c : Dev nD) (w : Fin cfg1.W) :
    W6 m ρ c (Proc.devRef .tc (Pipeline.arrRef spec1 w)) = (R1.dat (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (R1.dat (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- An input window's array leaves region 1 as it entered. -/
theorem W6_in (c : Dev nD) (w : Fin cfg1.W) (hw : (cfg1.win w).isOut = false) :
    W6 m ρ c (Proc.devRef .tc (Pipeline.arrRef spec1 w)) = W5 m ρ c (Proc.devRef .tc (Pipeline.arrRef spec1 w)) :=
  (W6_arr m ρ c w).trans (((R1.dat (V5 m ρ) c).arrAt_in w hw _).trans (R1.A_eq (V5 m ρ) c w))
/-- After item 6, region 2: its windows' arrays at what the pipeline leaves, every other buffer as entered. -/
def W7 (c : Dev nD) : Valuation τ sig (Elt F) :=
  Pipeline.withArrays spec2 c (W6 m ρ c) fun w => (R2.dat (V6 m ρ) c).arrAt w cfg2.N
theorem W7_arr (c : Dev nD) (w : Fin cfg2.W) :
    W7 m ρ c (Proc.devRef .tc (Pipeline.arrRef spec2 w)) = (R2.dat (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev V7 : (c : Dev nD) → (b : Ref sig .tc) → Buf (Elt F) ((c : Thread nD τ).loc b) := fun c b => W7 m ρ c b
theorem hF2 (c : Dev nD) (w : Fin cfg2.W) : (R2.dat (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)
/-- An input window's array leaves region 2 as it entered. -/
theorem W7_in (c : Dev nD) (w : Fin cfg2.W) (hw : (cfg2.win w).isOut = false) :
    W7 m ρ c (Proc.devRef .tc (Pipeline.arrRef spec2 w)) = W6 m ρ c (Proc.devRef .tc (Pipeline.arrRef spec2 w)) :=
  (W7_arr m ρ c w).trans (((R2.dat (V6 m ρ) c).arrAt_in w hw _).trans (R2.A_eq (V6 m ρ) c w))
/-- After item 7, the stretch `hostOps3`. -/
abbrev W8 : Dev nD → Valuation τ sig (Elt F) := fun c => StableHlo.after hostOps3 (W7 m ρ c)
abbrev V8 : (c : Dev nD) → (b : Ref sig .tc) → Buf (Elt F) ((c : Thread nD τ).loc b) := fun c b => W8 m ρ c b
theorem W8_keep (c : Dev nD) (r : Ref sig .tc) (h : r ∉ hostOps3_W) : W8 m ρ c (Proc.devRef .tc r) = W7 m ρ c (Proc.devRef .tc r) :=
  StableHlo.after_of_writes_sub hostOps3 _ hostOps3_writes h
/-- After item 8, the stretch `hostOps3_1`. -/
abbrev W9 : Dev nD → Valuation τ sig (Elt F) := fun c => StableHlo.after hostOps3_1 (W8 m ρ c)
abbrev V9 : (c : Dev nD) → (b : Ref sig .tc) → Buf (Elt F) ((c : Thread nD τ).loc b) := fun c b => W9 m ρ c b
theorem W9_keep (c : Dev nD) (r : Ref sig .tc) (h : r ∉ hostOps3_1_W) : W9 m ρ c (Proc.devRef .tc r) = W8 m ρ c (Proc.devRef .tc r) :=
  StableHlo.after_of_writes_sub hostOps3_1 _ hostOps3_1_writes h
/-- After item 9, the stretch `hostOps3_2`. -/
abbrev W10 : Dev nD → Valuation τ sig (Elt F) := fun c => StableHlo.after hostOps3_2 (W9 m ρ c)
abbrev V10 : (c : Dev nD) → (b : Ref sig .tc) → Buf (Elt F) ((c : Thread nD τ).loc b) := fun c b => W10 m ρ c b
theorem W10_keep (c : Dev nD) (r : Ref sig .tc) (h : r ∉ hostOps3_2_W) : W10 m ρ c (Proc.devRef .tc r) = W9 m ρ c (Proc.devRef .tc r) :=
  StableHlo.after_of_writes_sub hostOps3_2 _ hostOps3_2_writes h
/-- After item 10, the stretch `hostOps3_3`. -/
abbrev W11 : Dev nD → Valuation τ sig (Elt F) := fun c => StableHlo.after hostOps3_3 (W10 m ρ c)
abbrev V11 : (c : Dev nD) → (b : Ref sig .tc) → Buf (Elt F) ((c : Thread nD τ).loc b) := fun c b => W11 m ρ c b
theorem W11_keep (c : Dev nD) (r : Ref sig .tc) (h : r ∉ hostOps3_3_W) : W11 m ρ c (Proc.devRef .tc r) = W10 m ρ c (Proc.devRef .tc r) :=
  StableHlo.after_of_writes_sub hostOps3_3 _ hostOps3_3_writes h
/-- After item 11, region 3: its windows' arrays at what the pipeline leaves, every other buffer as entered. -/
def W12 (c : Dev nD) : Valuation τ sig (Elt F) :=
  Pipeline.withArrays spec3 c (W11 m ρ c) fun w => (R3.dat (V11 m ρ) c).arrAt w cfg3.N
theorem W12_arr (c : Dev nD) (w : Fin cfg3.W) :
    W12 m ρ c (Proc.devRef .tc (Pipeline.arrRef spec3 w)) = (R3.dat (V11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
abbrev V12 : (c : Dev nD) → (b : Ref sig .tc) → Buf (Elt F) ((c : Thread nD τ).loc b) := fun c b => W12 m ρ c b
theorem hF3 (c : Dev nD) (w : Fin cfg3.W) : (R3.dat (V11 m ρ) c).arrAt w cfg3.N = V12 m ρ c (Pipeline.arrRef spec3 w) :=
  (W12_arr m ρ c w).symm
theorem hrest3 (c : Dev nD) : ∀ b, b ∉ Finset.univ.image (Pipeline.arrRef spec3) → V12 m ρ c b = V11 m ρ c b :=
  fun b hb => W12_of_ne m ρ c b fun w e => hb (Finset.mem_image.mpr ⟨w, Finset.mem_univ _, e⟩)
/-- An input window's array leaves region 3 as it entered. -/
theorem W12_in (c : Dev nD) (w : Fin cfg3.W) (hw : (cfg3.win w).isOut = false) :
    W12 m ρ c (Proc.devRef .tc (Pipeline.arrRef spec3 w)) = W11 m ρ c (Proc.devRef .tc (Pipeline.arrRef spec3 w)) :=
  (W12_arr m ρ c w).trans (((R3.dat (V11 m ρ) c).arrAt_in w hw _).trans (R3.A_eq (V11 m ρ) c w))
/-- After item 12, region 4: its windows' arrays at what the pipeline leaves, every other buffer as entered. -/
def W13 (c : Dev nD) : Valuation τ sig (Elt F) :=
  Pipeline.withArrays spec4 c (W12 m ρ c) fun w => (R4.dat (V12 m ρ) c).arrAt w cfg4.N
theorem W13_arr (c : Dev nD) (w : Fin cfg4.W) :
    W13 m ρ c (Proc.devRef .tc (Pipeline.arrRef spec4 w)) = (R4.dat (V12 m ρ) c).arrAt w cfg4.N := by
  unfold W13; exact Pipeline.withArrays_arr spec4 launch4.win.arr_inj c _ _ w
theorem W13_of_ne (c : Dev nD) (b : Ref sig .tc) (hb : ∀ w, Pipeline.arrRef spec4 w ≠ b) :
    W13 m ρ c (Proc.devRef .tc b) = W12 m ρ c (Proc.devRef .tc b) := by
  unfold W13; exact Pipeline.withArrays_of_ne spec4 c _ _ b hb
abbrev V13 : (c : Dev nD) → (b : Ref sig .tc) → Buf (Elt F) ((c : Thread nD τ).loc b) := fun c b => W13 m ρ c b
theorem hF4 (c : Dev nD) (w : Fin cfg4.W) : (R4.dat (V12 m ρ) c).arrAt w cfg4.N = V13 m ρ c (Pipeline.arrRef spec4 w) :=
  (W13_arr m ρ c w).symm
theorem hrest4 (c : Dev nD) : ∀ b, b ∉ Finset.univ.image (Pipeline.arrRef spec4) → V13 m ρ c b = V12 m ρ c b :=
  fun b hb => W13_of_ne m ρ c b fun w e => hb (Finset.mem_image.mpr ⟨w, Finset.mem_univ _, e⟩)
/-- An input window's array leaves region 4 as it entered. -/
theorem W13_in (c : Dev nD) (w : Fin cfg4.W) (hw : (cfg4.win w).isOut = false) :
    W13 m ρ c (Proc.devRef .tc (Pipeline.arrRef spec4 w)) = W12 m ρ c (Proc.devRef .tc (Pipeline.arrRef spec4 w)) :=
  (W13_arr m ρ c w).trans (((R4.dat (V12 m ρ) c).arrAt_in w hw _).trans (R4.A_eq (V12 m ρ) c w))
/-- After item 13, region 5: its windows' arrays at what the pipeline leaves, every other buffer as entered. -/
def W14 (c : Dev nD) : Valuation τ sig (Elt F) :=
  Pipeline.withArrays spec5 c (W13 m ρ c) fun w => (R5.dat (V13 m ρ) c).arrAt w cfg5.N
theorem W14_arr (c : Dev nD) (w : Fin cfg5.W) :
    W14 m ρ c (Proc.devRef .tc (Pipeline.arrRef spec5 w)) = (R5.dat (V13 m ρ) c).arrAt w cfg5.N := by
  unfold W14; exact Pipeline.withArrays_arr spec5 launch5.win.arr_inj c _ _ w
theorem W14_of_ne (c : Dev nD) (b : Ref sig .tc) (hb : ∀ w, Pipeline.arrRef spec5 w ≠ b) :
    W14 m ρ c (Proc.devRef .tc b) = W13 m ρ c (Proc.devRef .tc b) := by
  unfold W14; exact Pipeline.withArrays_of_ne spec5 c _ _ b hb
abbrev V14 : (c : Dev nD) → (b : Ref sig .tc) → Buf (Elt F) ((c : Thread nD τ).loc b) := fun c b => W14 m ρ c b
theorem hF5 (c : Dev nD) (w : Fin cfg5.W) : (R5.dat (V13 m ρ) c).arrAt w cfg5.N = V14 m ρ c (Pipeline.arrRef spec5 w) :=
  (W14_arr m ρ c w).symm
theorem hrest5 (c : Dev nD) : ∀ b, b ∉ Finset.univ.image (Pipeline.arrRef spec5) → V14 m ρ c b = V13 m ρ c b :=
  fun b hb => W14_of_ne m ρ c b fun w e => hb (Finset.mem_image.mpr ⟨w, Finset.mem_univ _, e⟩)
/-- An input window's array leaves region 5 as it entered. -/
theorem W14_in (c : Dev nD) (w : Fin cfg5.W) (hw : (cfg5.win w).isOut = false) :
    W14 m ρ c (Proc.devRef .tc (Pipeline.arrRef spec5 w)) = W13 m ρ c (Proc.devRef .tc (Pipeline.arrRef spec5 w)) :=
  (W14_arr m ρ c w).trans (((R5.dat (V13 m ρ) c).arrAt_in w hw _).trans (R5.A_eq (V13 m ρ) c w))
/-- After item 14, the stretch `hostOps6`. -/
abbrev W15 : Dev nD → Valuation τ sig (Elt F) := fun c => StableHlo.after hostOps6 (W14 m ρ c)
abbrev V15 : (c : Dev nD) → (b : Ref sig .tc) → Buf (Elt F) ((c : Thread nD τ).loc b) := fun c b => W15 m ρ c b
theorem W15_keep (c : Dev nD) (r : Ref sig .tc) (h : r ∉ hostOps6_W) : W15 m ρ c (Proc.devRef .tc r) = W14 m ρ c (Proc.devRef .tc r) :=
  StableHlo.after_of_writes_sub hostOps6 _ hostOps6_writes h
/-- After item 15, the stretch `hostOps6_1`. -/
abbrev W16 : Dev nD → Valuation τ sig (Elt F) := fun c => StableHlo.after hostOps6_1 (W15 m ρ c)
abbrev V16 : (c : Dev nD) → (b : Ref sig .tc) → Buf (Elt F) ((c : Thread nD τ).loc b) := fun c b => W16 m ρ c b
theorem W16_keep (c : Dev nD) (r : Ref sig .tc) (h : r ∉ hostOps6_1_W) : W16 m ρ c (Proc.devRef .tc r) = W15 m ρ c (Proc.devRef .tc r) :=
  StableHlo.after_of_writes_sub hostOps6_1 _ hostOps6_1_writes h
/-- After item 16, the stretch `hostOps6_2`. -/
abbrev W17 : Dev nD → Valuation τ sig (Elt F) := fun c => StableHlo.after hostOps6_2 (W16 m ρ c)
abbrev V17 : (c : Dev nD) → (b : Ref sig .tc) → Buf (Elt F) ((c : Thread nD τ).loc b) := fun c b => W17 m ρ c b
theorem W17_keep (c : Dev nD) (r : Ref sig .tc) (h : r ∉ hostOps6_2_W) : W17 m ρ c (Proc.devRef .tc r) = W16 m ρ c (Proc.devRef .tc r) :=
  StableHlo.after_of_writes_sub hostOps6_2 _ hostOps6_2_writes h
/-- After item 17, the stretch `hostOps6_3`. -/
abbrev W18 : Dev nD → Valuation τ sig (Elt F) := fun c => StableHlo.after hostOps6_3 (W17 m ρ c)
abbrev V18 : (c : Dev nD) → (b : Ref sig .tc) → Buf (Elt F) ((c : Thread nD τ).loc b) := fun c b => W18 m ρ c b
theorem W18_keep (c : Dev nD) (r : Ref sig .tc) (h : r ∉ hostOps6_3_W) : W18 m ρ c (Proc.devRef .tc r) = W17 m ρ c (Proc.devRef .tc r) :=
  StableHlo.after_of_writes_sub hostOps6_3 _ hostOps6_3_writes h
/-- After item 18, region 6: its windows' arrays at what the pipeline leaves, every other buffer as entered. -/
def W19 (c : Dev nD) : Valuation τ sig (Elt F) :=
  Pipeline.withArrays spec6 c (W18 m ρ c) fun w => (R6.dat (V18 m ρ) c).arrAt w cfg6.N
theorem W19_arr (c : Dev nD) (w : Fin cfg6.W) :
    W19 m ρ c (Proc.devRef .tc (Pipeline.arrRef spec6 w)) = (R6.dat (V18 m ρ) c).arrAt w cfg6.N := by
  unfold W19; exact Pipeline.withArrays_arr spec6 launch6.win.arr_inj c _ _ w
theorem W19_of_ne (c : Dev nD) (b : Ref sig .tc) (hb : ∀ w, Pipeline.arrRef spec6 w ≠ b) :
    W19 m ρ c (Proc.devRef .tc b) = W18 m ρ c (Proc.devRef .tc b) := by
  unfold W19; exact Pipeline.withArrays_of_ne spec6 c _ _ b hb
abbrev V19 : (c : Dev nD) → (b : Ref sig .tc) → Buf (Elt F) ((c : Thread nD τ).loc b) := fun c b => W19 m ρ c b
theorem hF6 (c : Dev nD) (w : Fin cfg6.W) : (R6.dat (V18 m ρ) c).arrAt w cfg6.N = V19 m ρ c (Pipeline.arrRef spec6 w) :=
  (W19_arr m ρ c w).symm
theorem hrest6 (c : Dev nD) : ∀ b, b ∉ Finset.univ.image (Pipeline.arrRef spec6) → V19 m ρ c b = V18 m ρ c b :=
  fun b hb => W19_of_ne m ρ c b fun w e => hb (Finset.mem_image.mpr ⟨w, Finset.mem_univ _, e⟩)
/-- An input window's array leaves region 6 as it entered. -/
theorem W19_in (c : Dev nD) (w : Fin cfg6.W) (hw : (cfg6.win w).isOut = false) :
    W19 m ρ c (Proc.devRef .tc (Pipeline.arrRef spec6 w)) = W18 m ρ c (Proc.devRef .tc (Pipeline.arrRef spec6 w)) :=
  (W19_arr m ρ c w).trans (((R6.dat (V18 m ρ) c).arrAt_in w hw _).trans (R6.A_eq (V18 m ρ) c w))
/-- After item 19, region 7: its windows' arrays at what the pipeline leaves, every other buffer as entered. -/
def W20 (c : Dev nD) : Valuation τ sig (Elt F) :=
  Pipeline.withArrays spec7 c (W19 m ρ c) fun w => (R7.dat (V19 m ρ) c).arrAt w cfg7.N
theorem W20_arr (c : Dev nD) (w : Fin cfg7.W) :
    W20 m ρ c (Proc.devRef .tc (Pipeline.arrRef spec7 w)) = (R7.dat (V19 m ρ) c).arrAt w cfg7.N := by
  unfold W20; exact Pipeline.withArrays_arr spec7 launch7.win.arr_inj c _ _ w
theorem W20_of_ne (c : Dev nD) (b : Ref sig .tc) (hb : ∀ w, Pipeline.arrRef spec7 w ≠ b) :
    W20 m ρ c (Proc.devRef .tc b) = W19 m ρ c (Proc.devRef .tc b) := by
  unfold W20; exact Pipeline.withArrays_of_ne spec7 c _ _ b hb
abbrev V20 : (c : Dev nD) → (b : Ref sig .tc) → Buf (Elt F) ((c : Thread nD τ).loc b) := fun c b => W20 m ρ c b
theorem hF7 (c : Dev nD) (w : Fin cfg7.W) : (R7.dat (V19 m ρ) c).arrAt w cfg7.N = V20 m ρ c (Pipeline.arrRef spec7 w) :=
  (W20_arr m ρ c w).symm
theorem hrest7 (c : Dev nD) : ∀ b, b ∉ Finset.univ.image (Pipeline.arrRef spec7) → V20 m ρ c b = V19 m ρ c b :=
  fun b hb => W20_of_ne m ρ c b fun w e => hb (Finset.mem_image.mpr ⟨w, Finset.mem_univ _, e⟩)
/-- An input window's array leaves region 7 as it entered. -/
theorem W20_in (c : Dev nD) (w : Fin cfg7.W) (hw : (cfg7.win w).isOut = false) :
    W20 m ρ c (Proc.devRef .tc (Pipeline.arrRef spec7 w)) = W19 m ρ c (Proc.devRef .tc (Pipeline.arrRef spec7 w)) :=
  (W20_arr m ρ c w).trans (((R7.dat (V19 m ρ) c).arrAt_in w hw _).trans (R7.A_eq (V19 m ρ) c w))
/-- After item 20, region 8: its windows' arrays at what the pipeline leaves, every other buffer as entered. -/
def W21 (c : Dev nD) : Valuation τ sig (Elt F) :=
  Pipeline.withArrays spec8 c (W20 m ρ c) fun w => (R8.dat (V20 m ρ) c).arrAt w cfg8.N
theorem W21_arr (c : Dev nD) (w : Fin cfg8.W) :
    W21 m ρ c (Proc.devRef .tc (Pipeline.arrRef spec8 w)) = (R8.dat (V20 m ρ) c).arrAt w cfg8.N := by
  unfold W21; exact Pipeline.withArrays_arr spec8 launch8.win.arr_inj c _ _ w
theorem W21_of_ne (c : Dev nD) (b : Ref sig .tc) (hb : ∀ w, Pipeline.arrRef spec8 w ≠ b) :
    W21 m ρ c (Proc.devRef .tc b) = W20 m ρ c (Proc.devRef .tc b) := by
  unfold W21; exact Pipeline.withArrays_of_ne spec8 c _ _ b hb
abbrev V21 : (c : Dev nD) → (b : Ref sig .tc) → Buf (Elt F) ((c : Thread nD τ).loc b) := fun c b => W21 m ρ c b
theorem hF8 (c : Dev nD) (w : Fin cfg8.W) : (R8.dat (V20 m ρ) c).arrAt w cfg8.N = V21 m ρ c (Pipeline.arrRef spec8 w) :=
  (W21_arr m ρ c w).symm
theorem hrest8 (c : Dev nD) : ∀ b, b ∉ Finset.univ.image (Pipeline.arrRef spec8) → V21 m ρ c b = V20 m ρ c b :=
  fun b hb => W21_of_ne m ρ c b fun w e => hb (Finset.mem_image.mpr ⟨w, Finset.mem_univ _, e⟩)
/-- An input window's array leaves region 8 as it entered. -/
theorem W21_in (c : Dev nD) (w : Fin cfg8.W) (hw : (cfg8.win w).isOut = false) :
    W21 m ρ c (Proc.devRef .tc (Pipeline.arrRef spec8 w)) = W20 m ρ c (Proc.devRef .tc (Pipeline.arrRef spec8 w)) :=
  (W21_arr m ρ c w).trans (((R8.dat (V20 m ρ) c).arrAt_in w hw _).trans (R8.A_eq (V20 m ρ) c w))
/-- After item 21, the stretch `hostOps9`. -/
abbrev W22 : Dev nD → Valuation τ sig (Elt F) := fun c => StableHlo.after hostOps9 (W21 m ρ c)
abbrev V22 : (c : Dev nD) → (b : Ref sig .tc) → Buf (Elt F) ((c : Thread nD τ).loc b) := fun c b => W22 m ρ c b
theorem W22_keep (c : Dev nD) (r : Ref sig .tc) (h : r ∉ hostOps9_W) : W22 m ρ c (Proc.devRef .tc r) = W21 m ρ c (Proc.devRef .tc r) :=
  StableHlo.after_of_writes_sub hostOps9 _ hostOps9_writes h

/-! ## The proof data family and the thread state -/

abbrev adm : (p : Fin 9) → (pcfgs (F := F) p).Adm := fun p => (cfgs p).toPCfg_adm
/-- Every region's proof data, each at its entry contents (a literal match on the region's number). -/
def pdats : (p : Fin 9) → (c : Dev nD) → Dat τ (Elt F) Unit ℕ (UR sig nD τ) ℕ (Pipeline.pin (pcfgs (F := F)) adm p) c
  | ⟨0, _⟩ => fun c => R0.dat (V4 m ρ) c
  | ⟨1, _⟩ => fun c => R1.dat (V5 m ρ) c
  | ⟨2, _⟩ => fun c => R2.dat (V6 m ρ) c
  | ⟨3, _⟩ => fun c => R3.dat (V11 m ρ) c
  | ⟨4, _⟩ => fun c => R4.dat (V12 m ρ) c
  | ⟨5, _⟩ => fun c => R5.dat (V13 m ρ) c
  | ⟨6, _⟩ => fun c => R6.dat (V18 m ρ) c
  | ⟨7, _⟩ => fun c => R7.dat (V19 m ρ) c
  | ⟨8, _⟩ => fun c => R8.dat (V20 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A stretch of host operations as a segment from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W22 m ρ c) ∗ ∃ r, prngReg c r)

/-! ## The regions as segments -/

set_option backward.isDefEq.respectTransparency.types false in
/-- Region 0: entered from every unscoped buffer at W4, left at W5; its arrays split out of the unscoped buffers and put
    back at the exit contents; the generator register and the untouched rest into its invariant and out; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    have hback : (pdats m ρ 0 c).Φ (Fin.last _) ⊢ (iprop(Pipeline.scopedRest (Ix := Unit) (Name := ℕ) (U := UR sig nD τ) (Lvl := ℕ) (Val := Elt F) spec0 c ∗ ∃ r, prngReg c r) : sProp 𝕄) := by
      have h := R0.hout (V4 m ρ) c
      unfold Pipeline.ΦA at h
      exact h
    rw [Pipeline.ownSems0_none]
    iintro H
    ihave H' := hback $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V4 m ρ c) (V5 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at W5, left at W6; its arrays split out of the unscoped buffers and put
    back at the exit contents; the generator register and the untouched rest into its invariant and out; nothing owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    have hback : (pdats m ρ 1 c).Φ (Fin.last _) ⊢ (iprop(Pipeline.scopedRest (Ix := Unit) (Name := ℕ) (U := UR sig nD τ) (Lvl := ℕ) (Val := Elt F) spec1 c ∗ ∃ r, prngReg c r) : sProp 𝕄) := by
      have h := R1.hout (V5 m ρ) c
      unfold Pipeline.ΦA at h
      exact h
    rw [Pipeline.ownSems0_none]
    iintro H
    ihave H' := hback $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at W6, left at W7; its arrays split out of the unscoped buffers and put
    back at the exit contents; the generator register and the untouched rest into its invariant and out; nothing owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (R2.body_obligation (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    have hback : (pdats m ρ 2 c).Φ (Fin.last _) ⊢ (iprop(Pipeline.scopedRest (Ix := Unit) (Name := ℕ) (U := UR sig nD τ) (Lvl := ℕ) (Val := Elt F) spec2 c ∗ ∃ r, prngReg c r) : sProp 𝕄) := by
      have h := R2.hout (V6 m ρ) c
      unfold Pipeline.ΦA at h
      exact h
    rw [Pipeline.ownSems0_none]
    iintro H
    ihave H' := hback $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at W11, left at W12; its arrays split out of the unscoped buffers and put
    back at the exit contents; the generator register and the untouched rest into its invariant and out; nothing owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (R3.body_obligation (V11 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec3 c (V11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    have hback : (pdats m ρ 3 c).Φ (Fin.last _) ⊢ (iprop(Pipeline.scopedRest (Ix := Unit) (Name := ℕ) (U := UR sig nD τ) (Lvl := ℕ) (Val := Elt F) spec3 c ∗ ∃ r, prngReg c r) : sProp 𝕄) := by
      have h := R3.hout (V11 m ρ) c
      unfold Pipeline.ΦA at h
      exact h
    rw [Pipeline.ownSems0_none]
    iintro H
    ihave H' := hback $$ H
    icases H' with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V11 m ρ c) (V12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at W12, left at W13; its arrays split out of the unscoped buffers and put
    back at the exit contents; the generator register and the untouched rest into its invariant and out; nothing owed. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (R4.body_obligation (V12 m ρ) c).loose
  hwaits := Pipeline.hwaits_of_owed_zero _ _ _ _ L lv 4 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec4 c (V12 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    have hback : (pdats m ρ 4 c).Φ (Fin.last _) ⊢ (iprop(Pipeline.scopedRest (Ix := Unit) (Name := ℕ) (U := UR sig nD τ) (Lvl := ℕ) (Val := Elt F) spec4 c ∗ ∃ r, prngReg c r) : sProp 𝕄) := by
      have h := R4.hout (V12 m ρ) c
      unfold Pipeline.ΦA at h
      exact h
    rw [Pipeline.ownSems0_none]
    iintro H
    ihave H' := hback $$ H
    icases H' with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V12 m ρ c) (V13 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at W13, left at W14; its arrays split out of the unscoped buffers and put
    back at the exit contents; the generator register and the untouched rest into its invariant and out; nothing owed. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (R5.body_obligation (V13 m ρ) c).loose
  hwaits := Pipeline.hwaits_of_owed_zero _ _ _ _ L lv 5 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec5 c (V13 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    have hback : (pdats m ρ 5 c).Φ (Fin.last _) ⊢ (iprop(Pipeline.scopedRest (Ix := Unit) (Name := ℕ) (U := UR sig nD τ) (Lvl := ℕ) (Val := Elt F) spec5 c ∗ ∃ r, prngReg c r) : sProp 𝕄) := by
      have h := R5.hout (V13 m ρ) c
      unfold Pipeline.ΦA at h
      exact h
    rw [Pipeline.ownSems0_none]
    iintro H
    ihave H' := hback $$ H
    icases H' with ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V13 m ρ c) (V14 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from every unscoped buffer at W18, left at W19; its arrays split out of the unscoped buffers and put
    back at the exit contents; the generator register and the untouched rest into its invariant and out; nothing owed. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (R6.body_obligation (V18 m ρ) c).loose
  hwaits := Pipeline.hwaits_of_owed_zero _ _ _ _ L lv 6 fun _ _ => rfl
  pre c := iprop(StableHlo.held (c : Thread nD τ) (Pipeline.ucRefs τ sig) (W18 m ρ c) ∗ R c)
  post c := iprop(StableHlo.held (c : Thread nD τ) (Pipeline.ucRefs τ sig) (W19 m ρ c) ∗ R c)
  X c := iprop(∃ r, prngReg c r)
  Y c := iprop(∃ r, prngReg c r)
  Z c := Pipeline.unscopedRest (Ix := Unit) (Name := ℕ) (U := UR sig nD τ) (Lvl := ℕ) spec6 c (V18 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    have hback : (pdats m ρ 6 c).Φ (Fin.last _) ⊢ (iprop(Pipeline.scopedRest (Ix := Unit) (Name := ℕ) (U := UR sig nD τ) (Lvl := ℕ) (Val := Elt F) spec6 c ∗ ∃ r, prngReg c r) : sProp 𝕄) := by
      have h := R6.hout (V18 m ρ) c
      unfold Pipeline.ΦA at h
      exact h
    rw [Pipeline.ownSems0_none]
    iintro H
    ihave H' := hback $$ H
    icases H' with ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V18 m ρ c) (V19 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7: entered from every unscoped buffer at W19, left at W20; its arrays split out of the unscoped buffers and put
    back at the exit contents; the generator register and the untouched rest into its invariant and out; nothing owed. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (R7.body_obligation (V19 m ρ) c).loose
  hwaits := Pipeline.hwaits_of_owed_zero _ _ _ _ L lv 7 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec7 c (V19 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    have hback : (pdats m ρ 7 c).Φ (Fin.last _) ⊢ (iprop(Pipeline.scopedRest (Ix := Unit) (Name := ℕ) (U := UR sig nD τ) (Lvl := ℕ) (Val := Elt F) spec7 c ∗ ∃ r, prngReg c r) : sProp 𝕄) := by
      have h := R7.hout (V19 m ρ) c
      unfold Pipeline.ΦA at h
      exact h
    rw [Pipeline.ownSems0_none]
    iintro H
    ihave H' := hback $$ H
    icases H' with ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V19 m ρ c) (V20 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8: entered from every unscoped buffer at W20, left at W21; its arrays split out of the unscoped buffers and put
    back at the exit contents; the generator register and the untouched rest into its invariant and out; nothing owed. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (R8.body_obligation (V20 m ρ) c).loose
  hwaits := Pipeline.hwaits_of_owed_zero _ _ _ _ L lv 8 fun _ _ => rfl
  pre c := iprop(StableHlo.held (c : Thread nD τ) (Pipeline.ucRefs τ sig) (W20 m ρ c) ∗ R c)
  post c := iprop(StableHlo.held (c : Thread nD τ) (Pipeline.ucRefs τ sig) (W21 m ρ c) ∗ R c)
  X c := iprop(∃ r, prngReg c r)
  Y c := iprop(∃ r, prngReg c r)
  Z c := Pipeline.unscopedRest (Ix := Unit) (Name := ℕ) (U := UR sig nD τ) (Lvl := ℕ) spec8 c (V20 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V20 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    have hback : (pdats m ρ 8 c).Φ (Fin.last _) ⊢ (iprop(Pipeline.scopedRest (Ix := Unit) (Name := ℕ) (U := UR sig nD τ) (Lvl := ℕ) (Val := Elt F) spec8 c ∗ ∃ r, prngReg c r) : sProp 𝕄) := by
      have h := R8.hout (V20 m ρ) c
      unfold Pipeline.ΦA at h
      exact h
    rw [Pipeline.ownSems0_none]
    iintro H
    ihave H' := hback $$ H
    icases H' with ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V20 m ρ c) (V21 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .region (reg1 m ρ),
    .region (reg2 m ρ),
    .host (hseg hostOps3 hostOps3_sub hostOps3_fresh (W7 m ρ)),
    .host (hseg hostOps3_1 hostOps3_1_sub hostOps3_1_fresh (W8 m ρ)),
    .host (hseg hostOps3_2 hostOps3_2_sub hostOps3_2_fresh (W9 m ρ)),
    .host (hseg hostOps3_3 hostOps3_3_sub hostOps3_3_fresh (W10 m ρ)),
    .region (reg3 m ρ),
    .region (reg4 m ρ),
    .region (reg5 m ρ),
    .host (hseg hostOps6 hostOps6_sub hostOps6_fresh (W14 m ρ)),
    .host (hseg hostOps6_1 hostOps6_1_sub hostOps6_1_fresh (W15 m ρ)),
    .host (hseg hostOps6_2 hostOps6_2_sub hostOps6_2_fresh (W16 m ρ)),
    .host (hseg hostOps6_3 hostOps6_3_sub hostOps6_3_fresh (W17 m ρ)),
    .region (reg6 m ρ),
    .region (reg7 m ρ),
    .region (reg8 m ρ),
    .host (hseg hostOps9 hostOps9_sub hostOps9_fresh (W21 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates, nothing
    faulting, and every final state holds every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W22 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (StableHlo.after hostOps9 (W21 m ρ c)) ∗ R c) : sProp 𝕄) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c => h c)

/-! ## The arguments end as launched: no stretch writes one, and a region reads one through an input window or not at all -/

theorem W22_arg0 (c : Dev nD) : W22 m ρ c (Proc.devRef .tc main_arg0) = m ((c : Thread nD τ).loc main_arg0) :=
  calc W22 m ρ c (Proc.devRef .tc main_arg0)
    _ = W21 m ρ c (Proc.devRef .tc main_arg0) := W22_keep m ρ c main_arg0 (by decide)
    _ = W20 m ρ c (Proc.devRef .tc main_arg0) := W21_of_ne m ρ c main_arg0 (by decide)
    _ = W19 m ρ c (Proc.devRef .tc main_arg0) := W20_of_ne m ρ c main_arg0 (by decide)
    _ = W18 m ρ c (Proc.devRef .tc main_arg0) := W19_of_ne m ρ c main_arg0 (by decide)
    _ = W17 m ρ c (Proc.devRef .tc main_arg0) := W18_keep m ρ c main_arg0 (by decide)
    _ = W16 m ρ c (Proc.devRef .tc main_arg0) := W17_keep m ρ c main_arg0 (by decide)
    _ = W15 m ρ c (Proc.devRef .tc main_arg0) := W16_keep m ρ c main_arg0 (by decide)
    _ = W14 m ρ c (Proc.devRef .tc main_arg0) := W15_keep m ρ c main_arg0 (by decide)
    _ = W13 m ρ c (Proc.devRef .tc main_arg0) := W14_of_ne m ρ c main_arg0 (by decide)
    _ = W12 m ρ c (Proc.devRef .tc main_arg0) := W13_of_ne m ρ c main_arg0 (by decide)
    _ = W11 m ρ c (Proc.devRef .tc main_arg0) := W12_of_ne m ρ c main_arg0 (by decide)
    _ = W10 m ρ c (Proc.devRef .tc main_arg0) := W11_keep m ρ c main_arg0 (by decide)
    _ = W9 m ρ c (Proc.devRef .tc main_arg0) := W10_keep m ρ c main_arg0 (by decide)
    _ = W8 m ρ c (Proc.devRef .tc main_arg0) := W9_keep m ρ c main_arg0 (by decide)
    _ = W7 m ρ c (Proc.devRef .tc main_arg0) := W8_keep m ρ c main_arg0 (by decide)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := W5_of_ne m ρ c main_arg0 (by decide)
    _ = W3 m ρ c (Proc.devRef .tc main_arg0) := W4_keep m ρ c main_arg0 (by decide)
    _ = W2 m ρ c (Proc.devRef .tc main_arg0) := W3_keep m ρ c main_arg0 (by decide)
    _ = W1 m ρ c (Proc.devRef .tc main_arg0) := W2_keep m ρ c main_arg0 (by decide)
    _ = W0 m ρ c (Proc.devRef .tc main_arg0) := W1_keep m ρ c main_arg0 (by decide)
    _ = m ((c : Thread nD τ).loc main_arg0) := rfl

theorem W22_arg1 (c : Dev nD) : W22 m ρ c (Proc.devRef .tc main_arg1) = m ((c : Thread nD τ).loc main_arg1) :=
  calc W22 m ρ c (Proc.devRef .tc main_arg1)
    _ = W21 m ρ c (Proc.devRef .tc main_arg1) := W22_keep m ρ c main_arg1 (by decide)
    _ = W20 m ρ c (Proc.devRef .tc main_arg1) := W21_of_ne m ρ c main_arg1 (by decide)
    _ = W19 m ρ c (Proc.devRef .tc main_arg1) := W20_of_ne m ρ c main_arg1 (by decide)
    _ = W18 m ρ c (Proc.devRef .tc main_arg1) := W19_of_ne m ρ c main_arg1 (by decide)
    _ = W17 m ρ c (Proc.devRef .tc main_arg1) := W18_keep m ρ c main_arg1 (by decide)
    _ = W16 m ρ c (Proc.devRef .tc main_arg1) := W17_keep m ρ c main_arg1 (by decide)
    _ = W15 m ρ c (Proc.devRef .tc main_arg1) := W16_keep m ρ c main_arg1 (by decide)
    _ = W14 m ρ c (Proc.devRef .tc main_arg1) := W15_keep m ρ c main_arg1 (by decide)
    _ = W13 m ρ c (Proc.devRef .tc main_arg1) := W14_of_ne m ρ c main_arg1 (by decide)
    _ = W12 m ρ c (Proc.devRef .tc main_arg1) := W13_of_ne m ρ c main_arg1 (by decide)
    _ = W11 m ρ c (Proc.devRef .tc main_arg1) := W12_of_ne m ρ c main_arg1 (by decide)
    _ = W10 m ρ c (Proc.devRef .tc main_arg1) := W11_keep m ρ c main_arg1 (by decide)
    _ = W9 m ρ c (Proc.devRef .tc main_arg1) := W10_keep m ρ c main_arg1 (by decide)
    _ = W8 m ρ c (Proc.devRef .tc main_arg1) := W9_keep m ρ c main_arg1 (by decide)
    _ = W7 m ρ c (Proc.devRef .tc main_arg1) := W8_keep m ρ c main_arg1 (by decide)
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := W5_of_ne m ρ c main_arg1 (by decide)
    _ = W3 m ρ c (Proc.devRef .tc main_arg1) := W4_keep m ρ c main_arg1 (by decide)
    _ = W2 m ρ c (Proc.devRef .tc main_arg1) := W3_keep m ρ c main_arg1 (by decide)
    _ = W1 m ρ c (Proc.devRef .tc main_arg1) := W2_keep m ρ c main_arg1 (by decide)
    _ = W0 m ρ c (Proc.devRef .tc main_arg1) := W1_keep m ρ c main_arg1 (by decide)
    _ = m ((c : Thread nD τ).loc main_arg1) := rfl

theorem W22_arg2 (c : Dev nD) : W22 m ρ c (Proc.devRef .tc main_arg2) = m ((c : Thread nD τ).loc main_arg2) :=
  calc W22 m ρ c (Proc.devRef .tc main_arg2)
    _ = W21 m ρ c (Proc.devRef .tc main_arg2) := W22_keep m ρ c main_arg2 (by decide)
    _ = W20 m ρ c (Proc.devRef .tc main_arg2) := W21_of_ne m ρ c main_arg2 (by decide)
    _ = W19 m ρ c (Proc.devRef .tc main_arg2) := W20_of_ne m ρ c main_arg2 (by decide)
    _ = W18 m ρ c (Proc.devRef .tc main_arg2) := W19_of_ne m ρ c main_arg2 (by decide)
    _ = W17 m ρ c (Proc.devRef .tc main_arg2) := W18_keep m ρ c main_arg2 (by decide)
    _ = W16 m ρ c (Proc.devRef .tc main_arg2) := W17_keep m ρ c main_arg2 (by decide)
    _ = W15 m ρ c (Proc.devRef .tc main_arg2) := W16_keep m ρ c main_arg2 (by decide)
    _ = W14 m ρ c (Proc.devRef .tc main_arg2) := W15_keep m ρ c main_arg2 (by decide)
    _ = W13 m ρ c (Proc.devRef .tc main_arg2) := W14_of_ne m ρ c main_arg2 (by decide)
    _ = W12 m ρ c (Proc.devRef .tc main_arg2) := W13_of_ne m ρ c main_arg2 (by decide)
    _ = W11 m ρ c (Proc.devRef .tc main_arg2) := W12_of_ne m ρ c main_arg2 (by decide)
    _ = W10 m ρ c (Proc.devRef .tc main_arg2) := W11_keep m ρ c main_arg2 (by decide)
    _ = W9 m ρ c (Proc.devRef .tc main_arg2) := W10_keep m ρ c main_arg2 (by decide)
    _ = W8 m ρ c (Proc.devRef .tc main_arg2) := W9_keep m ρ c main_arg2 (by decide)
    _ = W7 m ρ c (Proc.devRef .tc main_arg2) := W8_keep m ρ c main_arg2 (by decide)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := W5_in m ρ c 1 rfl
    _ = W3 m ρ c (Proc.devRef .tc main_arg2) := W4_keep m ρ c main_arg2 (by decide)
    _ = W2 m ρ c (Proc.devRef .tc main_arg2) := W3_keep m ρ c main_arg2 (by decide)
    _ = W1 m ρ c (Proc.devRef .tc main_arg2) := W2_keep m ρ c main_arg2 (by decide)
    _ = W0 m ρ c (Proc.devRef .tc main_arg2) := W1_keep m ρ c main_arg2 (by decide)
    _ = m ((c : Thread nD τ).loc main_arg2) := rfl

theorem W22_arg3 (c : Dev nD) : W22 m ρ c (Proc.devRef .tc main_arg3) = m ((c : Thread nD τ).loc main_arg3) :=
  calc W22 m ρ c (Proc.devRef .tc main_arg3)
    _ = W21 m ρ c (Proc.devRef .tc main_arg3) := W22_keep m ρ c main_arg3 (by decide)
    _ = W20 m ρ c (Proc.devRef .tc main_arg3) := W21_of_ne m ρ c main_arg3 (by decide)
    _ = W19 m ρ c (Proc.devRef .tc main_arg3) := W20_of_ne m ρ c main_arg3 (by decide)
    _ = W18 m ρ c (Proc.devRef .tc main_arg3) := W19_of_ne m ρ c main_arg3 (by decide)
    _ = W17 m ρ c (Proc.devRef .tc main_arg3) := W18_keep m ρ c main_arg3 (by decide)
    _ = W16 m ρ c (Proc.devRef .tc main_arg3) := W17_keep m ρ c main_arg3 (by decide)
    _ = W15 m ρ c (Proc.devRef .tc main_arg3) := W16_keep m ρ c main_arg3 (by decide)
    _ = W14 m ρ c (Proc.devRef .tc main_arg3) := W15_keep m ρ c main_arg3 (by decide)
    _ = W13 m ρ c (Proc.devRef .tc main_arg3) := W14_of_ne m ρ c main_arg3 (by decide)
    _ = W12 m ρ c (Proc.devRef .tc main_arg3) := W13_of_ne m ρ c main_arg3 (by decide)
    _ = W11 m ρ c (Proc.devRef .tc main_arg3) := W12_of_ne m ρ c main_arg3 (by decide)
    _ = W10 m ρ c (Proc.devRef .tc main_arg3) := W11_keep m ρ c main_arg3 (by decide)
    _ = W9 m ρ c (Proc.devRef .tc main_arg3) := W10_keep m ρ c main_arg3 (by decide)
    _ = W8 m ρ c (Proc.devRef .tc main_arg3) := W9_keep m ρ c main_arg3 (by decide)
    _ = W7 m ρ c (Proc.devRef .tc main_arg3) := W8_keep m ρ c main_arg3 (by decide)
    _ = W6 m ρ c (Proc.devRef .tc main_arg3) := W7_in m ρ c 2 rfl
    _ = W5 m ρ c (Proc.devRef .tc main_arg3) := W6_of_ne m ρ c main_arg3 (by decide)
    _ = W4 m ρ c (Proc.devRef .tc main_arg3) := W5_of_ne m ρ c main_arg3 (by decide)
    _ = W3 m ρ c (Proc.devRef .tc main_arg3) := W4_keep m ρ c main_arg3 (by decide)
    _ = W2 m ρ c (Proc.devRef .tc main_arg3) := W3_keep m ρ c main_arg3 (by decide)
    _ = W1 m ρ c (Proc.devRef .tc main_arg3) := W2_keep m ρ c main_arg3 (by decide)
    _ = W0 m ρ c (Proc.devRef .tc main_arg3) := W1_keep m ρ c main_arg3 (by decide)
    _ = m ((c : Thread nD τ).loc main_arg3) := rfl

theorem W22_arg4 (c : Dev nD) : W22 m ρ c (Proc.devRef .tc main_arg4) = m ((c : Thread nD τ).loc main_arg4) :=
  calc W22 m ρ c (Proc.devRef .tc main_arg4)
    _ = W21 m ρ c (Proc.devRef .tc main_arg4) := W22_keep m ρ c main_arg4 (by decide)
    _ = W20 m ρ c (Proc.devRef .tc main_arg4) := W21_of_ne m ρ c main_arg4 (by decide)
    _ = W19 m ρ c (Proc.devRef .tc main_arg4) := W20_of_ne m ρ c main_arg4 (by decide)
    _ = W18 m ρ c (Proc.devRef .tc main_arg4) := W19_of_ne m ρ c main_arg4 (by decide)
    _ = W17 m ρ c (Proc.devRef .tc main_arg4) := W18_keep m ρ c main_arg4 (by decide)
    _ = W16 m ρ c (Proc.devRef .tc main_arg4) := W17_keep m ρ c main_arg4 (by decide)
    _ = W15 m ρ c (Proc.devRef .tc main_arg4) := W16_keep m ρ c main_arg4 (by decide)
    _ = W14 m ρ c (Proc.devRef .tc main_arg4) := W15_keep m ρ c main_arg4 (by decide)
    _ = W13 m ρ c (Proc.devRef .tc main_arg4) := W14_of_ne m ρ c main_arg4 (by decide)
    _ = W12 m ρ c (Proc.devRef .tc main_arg4) := W13_of_ne m ρ c main_arg4 (by decide)
    _ = W11 m ρ c (Proc.devRef .tc main_arg4) := W12_in m ρ c 1 rfl
    _ = W10 m ρ c (Proc.devRef .tc main_arg4) := W11_keep m ρ c main_arg4 (by decide)
    _ = W9 m ρ c (Proc.devRef .tc main_arg4) := W10_keep m ρ c main_arg4 (by decide)
    _ = W8 m ρ c (Proc.devRef .tc main_arg4) := W9_keep m ρ c main_arg4 (by decide)
    _ = W7 m ρ c (Proc.devRef .tc main_arg4) := W8_keep m ρ c main_arg4 (by decide)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := W5_of_ne m ρ c main_arg4 (by decide)
    _ = W3 m ρ c (Proc.devRef .tc main_arg4) := W4_keep m ρ c main_arg4 (by decide)
    _ = W2 m ρ c (Proc.devRef .tc main_arg4) := W3_keep m ρ c main_arg4 (by decide)
    _ = W1 m ρ c (Proc.devRef .tc main_arg4) := W2_keep m ρ c main_arg4 (by decide)
    _ = W0 m ρ c (Proc.devRef .tc main_arg4) := W1_keep m ρ c main_arg4 (by decide)
    _ = m ((c : Thread nD τ).loc main_arg4) := rfl

theorem W22_arg5 (c : Dev nD) : W22 m ρ c (Proc.devRef .tc main_arg5) = m ((c : Thread nD τ).loc main_arg5) :=
  calc W22 m ρ c (Proc.devRef .tc main_arg5)
    _ = W21 m ρ c (Proc.devRef .tc main_arg5) := W22_keep m ρ c main_arg5 (by decide)
    _ = W20 m ρ c (Proc.devRef .tc main_arg5) := W21_of_ne m ρ c main_arg5 (by decide)
    _ = W19 m ρ c (Proc.devRef .tc main_arg5) := W20_of_ne m ρ c main_arg5 (by decide)
    _ = W18 m ρ c (Proc.devRef .tc main_arg5) := W19_of_ne m ρ c main_arg5 (by decide)
    _ = W17 m ρ c (Proc.devRef .tc main_arg5) := W18_keep m ρ c main_arg5 (by decide)
    _ = W16 m ρ c (Proc.devRef .tc main_arg5) := W17_keep m ρ c main_arg5 (by decide)
    _ = W15 m ρ c (Proc.devRef .tc main_arg5) := W16_keep m ρ c main_arg5 (by decide)
    _ = W14 m ρ c (Proc.devRef .tc main_arg5) := W15_keep m ρ c main_arg5 (by decide)
    _ = W13 m ρ c (Proc.devRef .tc main_arg5) := W14_in m ρ c 2 rfl
    _ = W12 m ρ c (Proc.devRef .tc main_arg5) := W13_of_ne m ρ c main_arg5 (by decide)
    _ = W11 m ρ c (Proc.devRef .tc main_arg5) := W12_of_ne m ρ c main_arg5 (by decide)
    _ = W10 m ρ c (Proc.devRef .tc main_arg5) := W11_keep m ρ c main_arg5 (by decide)
    _ = W9 m ρ c (Proc.devRef .tc main_arg5) := W10_keep m ρ c main_arg5 (by decide)
    _ = W8 m ρ c (Proc.devRef .tc main_arg5) := W9_keep m ρ c main_arg5 (by decide)
    _ = W7 m ρ c (Proc.devRef .tc main_arg5) := W8_keep m ρ c main_arg5 (by decide)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := W5_of_ne m ρ c main_arg5 (by decide)
    _ = W3 m ρ c (Proc.devRef .tc main_arg5) := W4_keep m ρ c main_arg5 (by decide)
    _ = W2 m ρ c (Proc.devRef .tc main_arg5) := W3_keep m ρ c main_arg5 (by decide)
    _ = W1 m ρ c (Proc.devRef .tc main_arg5) := W2_keep m ρ c main_arg5 (by decide)
    _ = W0 m ρ c (Proc.devRef .tc main_arg5) := W1_keep m ρ c main_arg5 (by decide)
    _ = m ((c : Thread nD τ).loc main_arg5) := rfl

theorem W22_arg6 (c : Dev nD) : W22 m ρ c (Proc.devRef .tc main_arg6) = m ((c : Thread nD τ).loc main_arg6) :=
  calc W22 m ρ c (Proc.devRef .tc main_arg6)
    _ = W21 m ρ c (Proc.devRef .tc main_arg6) := W22_keep m ρ c main_arg6 (by decide)
    _ = W20 m ρ c (Proc.devRef .tc main_arg6) := W21_of_ne m ρ c main_arg6 (by decide)
    _ = W19 m ρ c (Proc.devRef .tc main_arg6) := W20_of_ne m ρ c main_arg6 (by decide)
    _ = W18 m ρ c (Proc.devRef .tc main_arg6) := W19_in m ρ c 1 rfl
    _ = W17 m ρ c (Proc.devRef .tc main_arg6) := W18_keep m ρ c main_arg6 (by decide)
    _ = W16 m ρ c (Proc.devRef .tc main_arg6) := W17_keep m ρ c main_arg6 (by decide)
    _ = W15 m ρ c (Proc.devRef .tc main_arg6) := W16_keep m ρ c main_arg6 (by decide)
    _ = W14 m ρ c (Proc.devRef .tc main_arg6) := W15_keep m ρ c main_arg6 (by decide)
    _ = W13 m ρ c (Proc.devRef .tc main_arg6) := W14_of_ne m ρ c main_arg6 (by decide)
    _ = W12 m ρ c (Proc.devRef .tc main_arg6) := W13_of_ne m ρ c main_arg6 (by decide)
    _ = W11 m ρ c (Proc.devRef .tc main_arg6) := W12_of_ne m ρ c main_arg6 (by decide)
    _ = W10 m ρ c (Proc.devRef .tc main_arg6) := W11_keep m ρ c main_arg6 (by decide)
    _ = W9 m ρ c (Proc.devRef .tc main_arg6) := W10_keep m ρ c main_arg6 (by decide)
    _ = W8 m ρ c (Proc.devRef .tc main_arg6) := W9_keep m ρ c main_arg6 (by decide)
    _ = W7 m ρ c (Proc.devRef .tc main_arg6) := W8_keep m ρ c main_arg6 (by decide)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := W5_of_ne m ρ c main_arg6 (by decide)
    _ = W3 m ρ c (Proc.devRef .tc main_arg6) := W4_keep m ρ c main_arg6 (by decide)
    _ = W2 m ρ c (Proc.devRef .tc main_arg6) := W3_keep m ρ c main_arg6 (by decide)
    _ = W1 m ρ c (Proc.devRef .tc main_arg6) := W2_keep m ρ c main_arg6 (by decide)
    _ = W0 m ρ c (Proc.devRef .tc main_arg6) := W1_keep m ρ c main_arg6 (by decide)
    _ = m ((c : Thread nD τ).loc main_arg6) := rfl

theorem W22_arg7 (c : Dev nD) : W22 m ρ c (Proc.devRef .tc main_arg7) = m ((c : Thread nD τ).loc main_arg7) :=
  calc W22 m ρ c (Proc.devRef .tc main_arg7)
    _ = W21 m ρ c (Proc.devRef .tc main_arg7) := W22_keep m ρ c main_arg7 (by decide)
    _ = W20 m ρ c (Proc.devRef .tc main_arg7) := W21_in m ρ c 2 rfl
    _ = W19 m ρ c (Proc.devRef .tc main_arg7) := W20_of_ne m ρ c main_arg7 (by decide)
    _ = W18 m ρ c (Proc.devRef .tc main_arg7) := W19_of_ne m ρ c main_arg7 (by decide)
    _ = W17 m ρ c (Proc.devRef .tc main_arg7) := W18_keep m ρ c main_arg7 (by decide)
    _ = W16 m ρ c (Proc.devRef .tc main_arg7) := W17_keep m ρ c main_arg7 (by decide)
    _ = W15 m ρ c (Proc.devRef .tc main_arg7) := W16_keep m ρ c main_arg7 (by decide)
    _ = W14 m ρ c (Proc.devRef .tc main_arg7) := W15_keep m ρ c main_arg7 (by decide)
    _ = W13 m ρ c (Proc.devRef .tc main_arg7) := W14_of_ne m ρ c main_arg7 (by decide)
    _ = W12 m ρ c (Proc.devRef .tc main_arg7) := W13_of_ne m ρ c main_arg7 (by decide)
    _ = W11 m ρ c (Proc.devRef .tc main_arg7) := W12_of_ne m ρ c main_arg7 (by decide)
    _ = W10 m ρ c (Proc.devRef .tc main_arg7) := W11_keep m ρ c main_arg7 (by decide)
    _ = W9 m ρ c (Proc.devRef .tc main_arg7) := W10_keep m ρ c main_arg7 (by decide)
    _ = W8 m ρ c (Proc.devRef .tc main_arg7) := W9_keep m ρ c main_arg7 (by decide)
    _ = W7 m ρ c (Proc.devRef .tc main_arg7) := W8_keep m ρ c main_arg7 (by decide)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := W5_of_ne m ρ c main_arg7 (by decide)
    _ = W3 m ρ c (Proc.devRef .tc main_arg7) := W4_keep m ρ c main_arg7 (by decide)
    _ = W2 m ρ c (Proc.devRef .tc main_arg7) := W3_keep m ρ c main_arg7 (by decide)
    _ = W1 m ρ c (Proc.devRef .tc main_arg7) := W2_keep m ρ c main_arg7 (by decide)
    _ = W0 m ρ c (Proc.devRef .tc main_arg7) := W1_keep m ρ c main_arg7 (by decide)
    _ = m ((c : Thread nD τ).loc main_arg7) := rfl

/-- THE FRAME: every weakly fair execution terminates, nothing faulting, with the eight argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)) :=
  (θ_run defs _ _).mono (fun r h c => ⟨(h c _ (mem_uc main_arg0 (by decide))).trans (W22_arg0 m ρ c),
    (h c _ (mem_uc main_arg1 (by decide))).trans (W22_arg1 m ρ c),
    (h c _ (mem_uc main_arg2 (by decide))).trans (W22_arg2 m ρ c),
    (h c _ (mem_uc main_arg3 (by decide))).trans (W22_arg3 m ρ c),
    (h c _ (mem_uc main_arg4 (by decide))).trans (W22_arg4 m ρ c),
    (h c _ (mem_uc main_arg5 (by decide))).trans (W22_arg5 m ρ c),
    (h c _ (mem_uc main_arg6 (by decide))).trans (W22_arg6 m ρ c),
    (h c _ (mem_uc main_arg7 (by decide))).trans (W22_arg7 m ρ c)⟩) (run_all m ρ)

/-- THE RUN WITH THE RESULT NAMED: the result buffer ends at the last valuation's contents, the arguments as launched. -/
theorem run_result : θ_run defs (onTc (τ := τ) (main (F := F))) ⟨m, fun _ => 0, ρ⟩ (fun r => ∀ c : Dev nD,
      r.2.mem ((c.tc : Thread nD τ).loc main_v52) = W22 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨h c _ (mem_uc main_v52 (by decide)), (h c _ (mem_uc main_arg0 (by decide))).trans (W22_arg0 m ρ c),
    (h c _ (mem_uc main_arg1 (by decide))).trans (W22_arg1 m ρ c),
    (h c _ (mem_uc main_arg2 (by decide))).trans (W22_arg2 m ρ c),
    (h c _ (mem_uc main_arg3 (by decide))).trans (W22_arg3 m ρ c),
    (h c _ (mem_uc main_arg4 (by decide))).trans (W22_arg4 m ρ c),
    (h c _ (mem_uc main_arg5 (by decide))).trans (W22_arg5 m ρ c),
    (h c _ (mem_uc main_arg6 (by decide))).trans (W22_arg6 m ρ c),
    (h c _ (mem_uc main_arg7 (by decide))).trans (W22_arg7 m ρ c)⟩) (run_all m ρ)

end Cert.Kernel.Run

end
-- ==== Proof.KKeeps.lean ====
/-
  Buffers that reach a later item of the kernel program's @main as an earlier item left them: the padded edge words and
  weights, computed before the first region, at each gather's and scatter's entry; the weight and bias arguments at their
  regions' entries.  A stretch keeps a buffer it does not write; a region keeps an input window's array and every buffer
  that is not one of its windows' arrays.
-/
import proofs.«155233_j36086315221040_1_alg».proof.Proof.KRun

set_option maxRecDepth 16384

noncomputable section

namespace Cert.KernelIdeal.Run

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-! ## Buffers that reach a later item as an earlier one left them -/

theorem keep_main_v31_4_5 (c : Dev nD) : W5 m ρ c (Proc.devRef .tc main_v31) = W4 m ρ c (Proc.devRef .tc main_v31) :=
  calc W5 m ρ c (Proc.devRef .tc main_v31)
    _ = W4 m ρ c (Proc.devRef .tc main_v31) := W5_of_ne m ρ c main_v31 (by decide)

theorem keep_main_v31_4_12 (c : Dev nD) : W12 m ρ c (Proc.devRef .tc main_v31) = W4 m ρ c (Proc.devRef .tc main_v31) :=
  calc W12 m ρ c (Proc.devRef .tc main_v31)
    _ = W11 m ρ c (Proc.devRef .tc main_v31) := W12_of_ne m ρ c main_v31 (by decide)
    _ = W10 m ρ c (Proc.devRef .tc main_v31) := W11_keep m ρ c main_v31 (by decide)
    _ = W9 m ρ c (Proc.devRef .tc main_v31) := W10_keep m ρ c main_v31 (by decide)
    _ = W8 m ρ c (Proc.devRef .tc main_v31) := W9_keep m ρ c main_v31 (by decide)
    _ = W7 m ρ c (Proc.devRef .tc main_v31) := W8_keep m ρ c main_v31 (by decide)
    _ = W6 m ρ c (Proc.devRef .tc main_v31) := W7_of_ne m ρ c main_v31 (by decide)
    _ = W5 m ρ c (Proc.devRef .tc main_v31) := W6_in m ρ c 0 rfl
    _ = W4 m ρ c (Proc.devRef .tc main_v31) := W5_of_ne m ρ c main_v31 (by decide)

theorem keep_main_v31_4_19 (c : Dev nD) : W19 m ρ c (Proc.devRef .tc main_v31) = W4 m ρ c (Proc.devRef .tc main_v31) :=
  calc W19 m ρ c (Proc.devRef .tc main_v31)
    _ = W18 m ρ c (Proc.devRef .tc main_v31) := W19_of_ne m ρ c main_v31 (by decide)
    _ = W17 m ρ c (Proc.devRef .tc main_v31) := W18_keep m ρ c main_v31 (by decide)
    _ = W16 m ρ c (Proc.devRef .tc main_v31) := W17_keep m ρ c main_v31 (by decide)
    _ = W15 m ρ c (Proc.devRef .tc main_v31) := W16_keep m ρ c main_v31 (by decide)
    _ = W14 m ρ c (Proc.devRef .tc main_v31) := W15_keep m ρ c main_v31 (by decide)
    _ = W13 m ρ c (Proc.devRef .tc main_v31) := W14_of_ne m ρ c main_v31 (by decide)
    _ = W12 m ρ c (Proc.devRef .tc main_v31) := W13_in m ρ c 0 rfl
    _ = W11 m ρ c (Proc.devRef .tc main_v31) := W12_of_ne m ρ c main_v31 (by decide)
    _ = W10 m ρ c (Proc.devRef .tc main_v31) := W11_keep m ρ c main_v31 (by decide)
    _ = W9 m ρ c (Proc.devRef .tc main_v31) := W10_keep m ρ c main_v31 (by decide)
    _ = W8 m ρ c (Proc.devRef .tc main_v31) := W9_keep m ρ c main_v31 (by decide)
    _ = W7 m ρ c (Proc.devRef .tc main_v31) := W8_keep m ρ c main_v31 (by decide)
    _ = W6 m ρ c (Proc.devRef .tc main_v31) := W7_of_ne m ρ c main_v31 (by decide)
    _ = W5 m ρ c (Proc.devRef .tc main_v31) := W6_in m ρ c 0 rfl
    _ = W4 m ρ c (Proc.devRef .tc main_v31) := W5_of_ne m ρ c main_v31 (by decide)

theorem keep_main_v35_4_5 (c : Dev nD) : W5 m ρ c (Proc.devRef .tc main_v35) = W4 m ρ c (Proc.devRef .tc main_v35) :=
  calc W5 m ρ c (Proc.devRef .tc main_v35)
    _ = W4 m ρ c (Proc.devRef .tc main_v35) := W5_of_ne m ρ c main_v35 (by decide)

theorem keep_main_v35_4_12 (c : Dev nD) : W12 m ρ c (Proc.devRef .tc main_v35) = W4 m ρ c (Proc.devRef .tc main_v35) :=
  calc W12 m ρ c (Proc.devRef .tc main_v35)
    _ = W11 m ρ c (Proc.devRef .tc main_v35) := W12_of_ne m ρ c main_v35 (by decide)
    _ = W10 m ρ c (Proc.devRef .tc main_v35) := W11_keep m ρ c main_v35 (by decide)
    _ = W9 m ρ c (Proc.devRef .tc main_v35) := W10_keep m ρ c main_v35 (by decide)
    _ = W8 m ρ c (Proc.devRef .tc main_v35) := W9_keep m ρ c main_v35 (by decide)
    _ = W7 m ρ c (Proc.devRef .tc main_v35) := W8_keep m ρ c main_v35 (by decide)
    _ = W6 m ρ c (Proc.devRef .tc main_v35) := W7_of_ne m ρ c main_v35 (by decide)
    _ = W5 m ρ c (Proc.devRef .tc main_v35) := W6_in m ρ c 1 rfl
    _ = W4 m ρ c (Proc.devRef .tc main_v35) := W5_of_ne m ρ c main_v35 (by decide)

theorem keep_main_v35_4_19 (c : Dev nD) : W19 m ρ c (Proc.devRef .tc main_v35) = W4 m ρ c (Proc.devRef .tc main_v35) :=
  calc W19 m ρ c (Proc.devRef .tc main_v35)
    _ = W18 m ρ c (Proc.devRef .tc main_v35) := W19_of_ne m ρ c main_v35 (by decide)
    _ = W17 m ρ c (Proc.devRef .tc main_v35) := W18_keep m ρ c main_v35 (by decide)
    _ = W16 m ρ c (Proc.devRef .tc main_v35) := W17_keep m ρ c main_v35 (by decide)
    _ = W15 m ρ c (Proc.devRef .tc main_v35) := W16_keep m ρ c main_v35 (by decide)
    _ = W14 m ρ c (Proc.devRef .tc main_v35) := W15_keep m ρ c main_v35 (by decide)
    _ = W13 m ρ c (Proc.devRef .tc main_v35) := W14_of_ne m ρ c main_v35 (by decide)
    _ = W12 m ρ c (Proc.devRef .tc main_v35) := W13_in m ρ c 1 rfl
    _ = W11 m ρ c (Proc.devRef .tc main_v35) := W12_of_ne m ρ c main_v35 (by decide)
    _ = W10 m ρ c (Proc.devRef .tc main_v35) := W11_keep m ρ c main_v35 (by decide)
    _ = W9 m ρ c (Proc.devRef .tc main_v35) := W10_keep m ρ c main_v35 (by decide)
    _ = W8 m ρ c (Proc.devRef .tc main_v35) := W9_keep m ρ c main_v35 (by decide)
    _ = W7 m ρ c (Proc.devRef .tc main_v35) := W8_keep m ρ c main_v35 (by decide)
    _ = W6 m ρ c (Proc.devRef .tc main_v35) := W7_of_ne m ρ c main_v35 (by decide)
    _ = W5 m ρ c (Proc.devRef .tc main_v35) := W6_in m ρ c 1 rfl
    _ = W4 m ρ c (Proc.devRef .tc main_v35) := W5_of_ne m ρ c main_v35 (by decide)

theorem keep_main_v33_4_6 (c : Dev nD) : W6 m ρ c (Proc.devRef .tc main_v33) = W4 m ρ c (Proc.devRef .tc main_v33) :=
  calc W6 m ρ c (Proc.devRef .tc main_v33)
    _ = W5 m ρ c (Proc.devRef .tc main_v33) := W6_of_ne m ρ c main_v33 (by decide)
    _ = W4 m ρ c (Proc.devRef .tc main_v33) := W5_of_ne m ρ c main_v33 (by decide)

theorem keep_main_v33_4_13 (c : Dev nD) : W13 m ρ c (Proc.devRef .tc main_v33) = W4 m ρ c (Proc.devRef .tc main_v33) :=
  calc W13 m ρ c (Proc.devRef .tc main_v33)
    _ = W12 m ρ c (Proc.devRef .tc main_v33) := W13_of_ne m ρ c main_v33 (by decide)
    _ = W11 m ρ c (Proc.devRef .tc main_v33) := W12_of_ne m ρ c main_v33 (by decide)
    _ = W10 m ρ c (Proc.devRef .tc main_v33) := W11_keep m ρ c main_v33 (by decide)
    _ = W9 m ρ c (Proc.devRef .tc main_v33) := W10_keep m ρ c main_v33 (by decide)
    _ = W8 m ρ c (Proc.devRef .tc main_v33) := W9_keep m ρ c main_v33 (by decide)
    _ = W7 m ρ c (Proc.devRef .tc main_v33) := W8_keep m ρ c main_v33 (by decide)
    _ = W6 m ρ c (Proc.devRef .tc main_v33) := W7_in m ρ c 0 rfl
    _ = W5 m ρ c (Proc.devRef .tc main_v33) := W6_of_ne m ρ c main_v33 (by decide)
    _ = W4 m ρ c (Proc.devRef .tc main_v33) := W5_of_ne m ρ c main_v33 (by decide)

theorem keep_main_v33_4_20 (c : Dev nD) : W20 m ρ c (Proc.devRef .tc main_v33) = W4 m ρ c (Proc.devRef .tc main_v33) :=
  calc W20 m ρ c (Proc.devRef .tc main_v33)
    _ = W19 m ρ c (Proc.devRef .tc main_v33) := W20_of_ne m ρ c main_v33 (by decide)
    _ = W18 m ρ c (Proc.devRef .tc main_v33) := W19_of_ne m ρ c main_v33 (by decide)
    _ = W17 m ρ c (Proc.devRef .tc main_v33) := W18_keep m ρ c main_v33 (by decide)
    _ = W16 m ρ c (Proc.devRef .tc main_v33) := W17_keep m ρ c main_v33 (by decide)
    _ = W15 m ρ c (Proc.devRef .tc main_v33) := W16_keep m ρ c main_v33 (by decide)
    _ = W14 m ρ c (Proc.devRef .tc main_v33) := W15_keep m ρ c main_v33 (by decide)
    _ = W13 m ρ c (Proc.devRef .tc main_v33) := W14_in m ρ c 0 rfl
    _ = W12 m ρ c (Proc.devRef .tc main_v33) := W13_of_ne m ρ c main_v33 (by decide)
    _ = W11 m ρ c (Proc.devRef .tc main_v33) := W12_of_ne m ρ c main_v33 (by decide)
    _ = W10 m ρ c (Proc.devRef .tc main_v33) := W11_keep m ρ c main_v33 (by decide)
    _ = W9 m ρ c (Proc.devRef .tc main_v33) := W10_keep m ρ c main_v33 (by decide)
    _ = W8 m ρ c (Proc.devRef .tc main_v33) := W9_keep m ρ c main_v33 (by decide)
    _ = W7 m ρ c (Proc.devRef .tc main_v33) := W8_keep m ρ c main_v33 (by decide)
    _ = W6 m ρ c (Proc.devRef .tc main_v33) := W7_in m ρ c 0 rfl
    _ = W5 m ρ c (Proc.devRef .tc main_v33) := W6_of_ne m ρ c main_v33 (by decide)
    _ = W4 m ρ c (Proc.devRef .tc main_v33) := W5_of_ne m ρ c main_v33 (by decide)

theorem keep_main_arg2_0_4 (c : Dev nD) : W4 m ρ c (Proc.devRef .tc main_arg2) = W0 m ρ c (Proc.devRef .tc main_arg2) :=
  calc W4 m ρ c (Proc.devRef .tc main_arg2)
    _ = W3 m ρ c (Proc.devRef .tc main_arg2) := W4_keep m ρ c main_arg2 (by decide)
    _ = W2 m ρ c (Proc.devRef .tc main_arg2) := W3_keep m ρ c main_arg2 (by decide)
    _ = W1 m ρ c (Proc.devRef .tc main_arg2) := W2_keep m ρ c main_arg2 (by decide)
    _ = W0 m ρ c (Proc.devRef .tc main_arg2) := W1_keep m ρ c main_arg2 (by decide)

theorem keep_main_arg3_0_6 (c : Dev nD) : W6 m ρ c (Proc.devRef .tc main_arg3) = W0 m ρ c (Proc.devRef .tc main_arg3) :=
  calc W6 m ρ c (Proc.devRef .tc main_arg3)
    _ = W5 m ρ c (Proc.devRef .tc main_arg3) := W6_of_ne m ρ c main_arg3 (by decide)
    _ = W4 m ρ c (Proc.devRef .tc main_arg3) := W5_of_ne m ρ c main_arg3 (by decide)
    _ = W3 m ρ c (Proc.devRef .tc main_arg3) := W4_keep m ρ c main_arg3 (by decide)
    _ = W2 m ρ c (Proc.devRef .tc main_arg3) := W3_keep m ρ c main_arg3 (by decide)
    _ = W1 m ρ c (Proc.devRef .tc main_arg3) := W2_keep m ρ c main_arg3 (by decide)
    _ = W0 m ρ c (Proc.devRef .tc main_arg3) := W1_keep m ρ c main_arg3 (by decide)

theorem keep_main_arg4_0_11 (c : Dev nD) : W11 m ρ c (Proc.devRef .tc main_arg4) = W0 m ρ c (Proc.devRef .tc main_arg4) :=
  calc W11 m ρ c (Proc.devRef .tc main_arg4)
    _ = W10 m ρ c (Proc.devRef .tc main_arg4) := W11_keep m ρ c main_arg4 (by decide)
    _ = W9 m ρ c (Proc.devRef .tc main_arg4) := W10_keep m ρ c main_arg4 (by decide)
    _ = W8 m ρ c (Proc.devRef .tc main_arg4) := W9_keep m ρ c main_arg4 (by decide)
    _ = W7 m ρ c (Proc.devRef .tc main_arg4) := W8_keep m ρ c main_arg4 (by decide)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := W5_of_ne m ρ c main_arg4 (by decide)
    _ = W3 m ρ c (Proc.devRef .tc main_arg4) := W4_keep m ρ c main_arg4 (by decide)
    _ = W2 m ρ c (Proc.devRef .tc main_arg4) := W3_keep m ρ c main_arg4 (by decide)
    _ = W1 m ρ c (Proc.devRef .tc main_arg4) := W2_keep m ρ c main_arg4 (by decide)
    _ = W0 m ρ c (Proc.devRef .tc main_arg4) := W1_keep m ρ c main_arg4 (by decide)

theorem keep_main_arg5_0_13 (c : Dev nD) : W13 m ρ c (Proc.devRef .tc main_arg5) = W0 m ρ c (Proc.devRef .tc main_arg5) :=
  calc W13 m ρ c (Proc.devRef .tc main_arg5)
    _ = W12 m ρ c (Proc.devRef .tc main_arg5) := W13_of_ne m ρ c main_arg5 (by decide)
    _ = W11 m ρ c (Proc.devRef .tc main_arg5) := W12_of_ne m ρ c main_arg5 (by decide)
    _ = W10 m ρ c (Proc.devRef .tc main_arg5) := W11_keep m ρ c main_arg5 (by decide)
    _ = W9 m ρ c (Proc.devRef .tc main_arg5) := W10_keep m ρ c main_arg5 (by decide)
    _ = W8 m ρ c (Proc.devRef .tc main_arg5) := W9_keep m ρ c main_arg5 (by decide)
    _ = W7 m ρ c (Proc.devRef .tc main_arg5) := W8_keep m ρ c main_arg5 (by decide)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := W5_of_ne m ρ c main_arg5 (by decide)
    _ = W3 m ρ c (Proc.devRef .tc main_arg5) := W4_keep m ρ c main_arg5 (by decide)
    _ = W2 m ρ c (Proc.devRef .tc main_arg5) := W3_keep m ρ c main_arg5 (by decide)
    _ = W1 m ρ c (Proc.devRef .tc main_arg5) := W2_keep m ρ c main_arg5 (by decide)
    _ = W0 m ρ c (Proc.devRef .tc main_arg5) := W1_keep m ρ c main_arg5 (by decide)

theorem keep_main_arg6_0_18 (c : Dev nD) : W18 m ρ c (Proc.devRef .tc main_arg6) = W0 m ρ c (Proc.devRef .tc main_arg6) :=
  calc W18 m ρ c (Proc.devRef .tc main_arg6)
    _ = W17 m ρ c (Proc.devRef .tc main_arg6) := W18_keep m ρ c main_arg6 (by decide)
    _ = W16 m ρ c (Proc.devRef .tc main_arg6) := W17_keep m ρ c main_arg6 (by decide)
    _ = W15 m ρ c (Proc.devRef .tc main_arg6) := W16_keep m ρ c main_arg6 (by decide)
    _ = W14 m ρ c (Proc.devRef .tc main_arg6) := W15_keep m ρ c main_arg6 (by decide)
    _ = W13 m ρ c (Proc.devRef .tc main_arg6) := W14_of_ne m ρ c main_arg6 (by decide)
    _ = W12 m ρ c (Proc.devRef .tc main_arg6) := W13_of_ne m ρ c main_arg6 (by decide)
    _ = W11 m ρ c (Proc.devRef .tc main_arg6) := W12_of_ne m ρ c main_arg6 (by decide)
    _ = W10 m ρ c (Proc.devRef .tc main_arg6) := W11_keep m ρ c main_arg6 (by decide)
    _ = W9 m ρ c (Proc.devRef .tc main_arg6) := W10_keep m ρ c main_arg6 (by decide)
    _ = W8 m ρ c (Proc.devRef .tc main_arg6) := W9_keep m ρ c main_arg6 (by decide)
    _ = W7 m ρ c (Proc.devRef .tc main_arg6) := W8_keep m ρ c main_arg6 (by decide)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := W5_of_ne m ρ c main_arg6 (by decide)
    _ = W3 m ρ c (Proc.devRef .tc main_arg6) := W4_keep m ρ c main_arg6 (by decide)
    _ = W2 m ρ c (Proc.devRef .tc main_arg6) := W3_keep m ρ c main_arg6 (by decide)
    _ = W1 m ρ c (Proc.devRef .tc main_arg6) := W2_keep m ρ c main_arg6 (by decide)
    _ = W0 m ρ c (Proc.devRef .tc main_arg6) := W1_keep m ρ c main_arg6 (by decide)

theorem keep_main_arg7_0_20 (c : Dev nD) : W20 m ρ c (Proc.devRef .tc main_arg7) = W0 m ρ c (Proc.devRef .tc main_arg7) :=
  calc W20 m ρ c (Proc.devRef .tc main_arg7)
    _ = W19 m ρ c (Proc.devRef .tc main_arg7) := W20_of_ne m ρ c main_arg7 (by decide)
    _ = W18 m ρ c (Proc.devRef .tc main_arg7) := W19_of_ne m ρ c main_arg7 (by decide)
    _ = W17 m ρ c (Proc.devRef .tc main_arg7) := W18_keep m ρ c main_arg7 (by decide)
    _ = W16 m ρ c (Proc.devRef .tc main_arg7) := W17_keep m ρ c main_arg7 (by decide)
    _ = W15 m ρ c (Proc.devRef .tc main_arg7) := W16_keep m ρ c main_arg7 (by decide)
    _ = W14 m ρ c (Proc.devRef .tc main_arg7) := W15_keep m ρ c main_arg7 (by decide)
    _ = W13 m ρ c (Proc.devRef .tc main_arg7) := W14_of_ne m ρ c main_arg7 (by decide)
    _ = W12 m ρ c (Proc.devRef .tc main_arg7) := W13_of_ne m ρ c main_arg7 (by decide)
    _ = W11 m ρ c (Proc.devRef .tc main_arg7) := W12_of_ne m ρ c main_arg7 (by decide)
    _ = W10 m ρ c (Proc.devRef .tc main_arg7) := W11_keep m ρ c main_arg7 (by decide)
    _ = W9 m ρ c (Proc.devRef .tc main_arg7) := W10_keep m ρ c main_arg7 (by decide)
    _ = W8 m ρ c (Proc.devRef .tc main_arg7) := W9_keep m ρ c main_arg7 (by decide)
    _ = W7 m ρ c (Proc.devRef .tc main_arg7) := W8_keep m ρ c main_arg7 (by decide)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := W5_of_ne m ρ c main_arg7 (by decide)
    _ = W3 m ρ c (Proc.devRef .tc main_arg7) := W4_keep m ρ c main_arg7 (by decide)
    _ = W2 m ρ c (Proc.devRef .tc main_arg7) := W3_keep m ρ c main_arg7 (by decide)
    _ = W1 m ρ c (Proc.devRef .tc main_arg7) := W2_keep m ρ c main_arg7 (by decide)
    _ = W0 m ρ c (Proc.devRef .tc main_arg7) := W1_keep m ρ c main_arg7 (by decide)

end Cert.KernelIdeal.Run

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.LibOneHot.lean ====
/-
  One-hot selection on the extended reals.

  A graph-convolution layer gathers a row of a table by a source index and adds the scaled row into the row of its
  target index.  Written with dense products against indicator matrices, the gather is
      msg e = (∑ k, [s e = k] · h k) · w e
  and the scatter is
      out n = ∑ e, [d e = n] · msg e .
  On the extended reals `0 · x = 0` and `1 · x = x` for EVERY x (the infinities included), and a finite sum
  whose terms vanish away from one index is the term at that index; so both dense forms collapse to the indexed
  forms with no finiteness hypothesis.  Edges appended with weight 0 contribute `x · 0 = 0`.
-/
import Mathlib.Data.EReal.Operations
import Mathlib.Algebra.BigOperators.Fin

open Finset

namespace Cert.LibOneHot

/-- The indicator of a proposition as an extended real. -/
noncomputable def ind (p : Prop) [Decidable p] : EReal := if p then 1 else 0

theorem ind_mul (p : Prop) [Decidable p] (x : EReal) : ind p * x = if p then x else 0 := by
  unfold ind; split <;> simp

/-- A dense product of an indicator row with a column picks the column's entry at the indicated position:
    `∑ k, [k = s] · f k = f s`, whatever the entries (no finiteness). -/
theorem sum_ind_mul {K : Type} [Fintype K] [DecidableEq K] (s : K) (f : K → EReal) :
    ∑ k, ind (k = s) * f k = f s := by
  simp only [ind_mul]
  rw [Finset.sum_ite_eq' Finset.univ s f]
  simp

/-- The same with the test written the other way round. -/
theorem sum_ind_mul' {K : Type} [Fintype K] [DecidableEq K] (s : K) (f : K → EReal) :
    ∑ k, ind (s = k) * f k = f s := by
  simp only [ind_mul]
  rw [Finset.sum_ite_eq Finset.univ s f]
  simp

/-- When no position is indicated the dense product is zero. -/
theorem sum_ind_mul_none {K : Type} [Fintype K] (p : K → Prop) [DecidablePred p] (hp : ∀ k, ¬ p k) (f : K → EReal) :
    ∑ k, ind (p k) * f k = 0 := by
  refine Finset.sum_eq_zero fun k _ => ?_
  rw [ind_mul, if_neg (hp k)]

/-- A sum over `a + b` positions whose last `b` terms vanish is the sum over the first `a`. -/
theorem sum_castAdd_of_tail_zero {a b : ℕ} (f : Fin (a + b) → EReal) (h : ∀ j : Fin b, f (Fin.natAdd a j) = 0) :
    ∑ e, f e = ∑ e : Fin a, f (Fin.castAdd b e) := by
  rw [Fin.sum_univ_add]
  simp [h]

/-- The scatter side: a dense product of an indicator column against messages is the sum of the messages whose
    target is the row: `∑ e, [d e = n] · g e = ∑ e, if d e = n then g e else 0`. -/
theorem sum_ind_scatter {E : Type} [Fintype E] {T : Type} [DecidableEq T] (d : E → T) (n : T) (g : E → EReal) :
    ∑ e, ind (d e = n) * g e = ∑ e, if d e = n then g e else 0 := by
  simp only [ind_mul]

/-- One layer, padded and dense, against the indexed form.  `a` real edges are followed by `b` appended edges of
    weight zero; every real edge's source `s e` names a row `k` of the table `h` (rows of the padded table beyond the
    real ones are never named).  Then for every target row `n`
      ∑_{e < a+b} [d e = n] · ((∑_k [s e = k] · h k) · w e)  =  ∑_{e < a} if d e = n then h (s e) · w e else 0 . -/
theorem dense_layer_eq {a b : ℕ} {K T : Type} [Fintype K] [DecidableEq K] [DecidableEq T]
    (s : Fin (a + b) → K) (d : Fin (a + b) → T) (w : Fin (a + b) → EReal) (h : K → EReal) (n : T)
    (hw : ∀ j : Fin b, w (Fin.natAdd a j) = 0) :
    ∑ e, ind (d e = n) * ((∑ k, ind (s e = k) * h k) * w e)
      = ∑ e : Fin a, if d (Fin.castAdd b e) = n then h (s (Fin.castAdd b e)) * w (Fin.castAdd b e) else 0 := by
  simp only [sum_ind_mul']
  simp only [ind_mul]
  exact sum_castAdd_of_tail_zero _ (fun j => by rw [hw j, mul_zero]; split <;> rfl)

end Cert.LibOneHot
-- ==== Proof.Words.lean ====
/-
  Row numbers as the kernels compute them.  A tile of 8192 rows starts at row k · 8192; the kernels form the number of
  its r-th row in 32-bit words as  k · 8192 + r  (a multiplication and an addition of words).  Below 2^31 nothing wraps,
  so the word is the number, and a word equals it exactly when its signed reading does.
-/
import Idealize.ShloMosaic.Lib.Affine

namespace Cert.Proof.Words

open Idealize.ShloMosaic

/-- The number of row r of tile k, in 32-bit words: k · 8192 + r. -/
def rowWord (k : ℕ) (r : Fin 8192) : BitVec 32 :=
  IntOp.addi (Scalar.muli (BitVec.ofNat 32 k) 8192#32) (BitVec.ofNat 32 r.val)

/-- It is the word of the natural number k · 8192 + r. -/
theorem rowWord_eq (k : ℕ) (r : Fin 8192) : rowWord k r = BitVec.ofNat 32 (k * 8192 + r.val) := by
  unfold rowWord
  show BitVec.ofNat 32 k * BitVec.ofNat 32 8192 + BitVec.ofNat 32 r.val = _
  rw [← BitVec.ofNat_mul, ← BitVec.ofNat_add]

/-- Below 2^31 its signed reading is that number. -/
theorem rowWord_toInt (k : ℕ) (r : Fin 8192) (h : k * 8192 + r.val < 2 ^ 31) :
    (rowWord k r).toInt = ((k * 8192 + r.val : ℕ) : ℤ) := by
  rw [rowWord_eq, BitVec.toInt_ofNat']
  have h1 : ((k * 8192 + r.val : ℕ) : ℤ) < 2 ^ 31 := by exact_mod_cast h
  have h0 : (0 : ℤ) ≤ ((k * 8192 + r.val : ℕ) : ℤ) := Int.natCast_nonneg _
  unfold Int.bmod
  have e : ((k * 8192 + r.val : ℕ) : ℤ) % ((2 ^ 32 : ℕ) : ℤ) = ((k * 8192 + r.val : ℕ) : ℤ) :=
    Int.emod_eq_of_lt h0 (by push_cast; omega)
  rw [e]
  show (if ((k * 8192 + r.val : ℕ) : ℤ) < (((2 ^ 32 : ℕ) : ℤ) + 1) / 2 then ((k * 8192 + r.val : ℕ) : ℤ)
      else ((k * 8192 + r.val : ℕ) : ℤ) - ((2 ^ 32 : ℕ) : ℤ)) = _
  rw [if_pos (by push_cast; omega)]

/-- A word is the row's number exactly when its signed reading is. -/
theorem eq_rowWord_iff (s : BitVec 32) (k : ℕ) (r : Fin 8192) (h : k * 8192 + r.val < 2 ^ 31) :
    s = rowWord k r ↔ s.toInt = ((k * 8192 + r.val : ℕ) : ℤ) := by
  constructor
  · rintro rfl; exact rowWord_toInt k r h
  · intro hs; exact BitVec.eq_of_toInt_eq (hs.trans (rowWord_toInt k r h).symm)

end Cert.Proof.Words
-- ==== Proof.Payloads.lean ====
/-
  What the three kernels of the first layer compute, read at one entry at the ideal values.

  * The dense transform stores, for a block x : [8192, 64] of node rows and the weights w : [64, 64],
        (x · w)(p, q) = Σ_{j < 64} x(p, j) · w(j, q)
    (the change of float format in front of the product is the identity on extended reals, and the product starts
    from the all-zero accumulator).
  * The gather, at the k-th tile of 8192 table rows, adds to its running block acc : [1024, 64]
        Σ_{r < 8192} [ s(p) = 8192·k + r ] · h(r, q) ,
    the bracket being the word comparison of the edge's source word with the row's number, turned into 0 or 1;
    at the last tile it stores acc(p, q) · w(p), the edge weight broadcast along the row.
  * The scatter, for a tile of 8192 node rows numbered from 8192·n and a tile of 1024 edges, adds to its running
    block acc : [8192, 64]
        Σ_{e < 1024} [ 8192·n + p = d(e) ] · msg(e, q) ,
    and at the last edge tile stores acc(p, q) + b(q).
  Nothing here needs a finite value: these are the operations' definitions read at an index.
-/
import proofs.«155233_j36086315221040_1_alg».proof.Proof.Gen.KernelIdeal.Skeleton
import proofs.«155233_j36086315221040_1_alg».proof.Proof.LibMatmulZero
import proofs.«155233_j36086315221040_1_alg».proof.Proof.LibOneHot
import proofs.«155233_j36086315221040_1_alg».proof.Proof.Words
import Idealize.ShloMosaic.Lib.ValueIdx
import Idealize.ShloMosaic.Lib.ValueLayout
import Idealize.ShloMosaic.Lib.Pipeline.Value

set_option maxRecDepth 16384

noncomputable section

namespace Cert.Proof.Payloads

open Idealize.ShloMosaic Idealize.ShloMosaic.ValueIdx Cert.KernelIdeal Cert.KernelIdeal.Gen
open Cert.KernelIdeal.Facts₀ Cert.KernelIdeal.Facts
open Cert.LibOneHot (ind)
open Cert.Proof.Words (rowWord)

/-! ## Two layouts the library does not read: a vector as a column, a column repeated along the rows -/

/-- A vector [a] cast to a column [a, 1] reads, at (i, u), the vector at i. -/
theorem castColumn_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem repeatColumn_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The 0-or-1 value of a one-bit test, widened to a word and converted to a float, at the ideal values. -/
theorem bit_to_real (t : BitVec 1) :
    (FloatOps.sitofp (F := Ideal) .f32 (t.setWidth 32) : EReal) = if t = 1#1 then 1 else 0 := by
  obtain rfl | rfl : t = 0#1 ∨ t = 1#1 := by revert t; decide
  · show (((BitVec.setWidth 32 0#1).toInt : ℝ) : EReal) = _
    rw [if_neg (by decide)]
    have : (BitVec.setWidth 32 0#1).toInt = 0 := by decide
    rw [this]; simp
  · show (((BitVec.setWidth 32 1#1).toInt : ℝ) : EReal) = _
    rw [if_pos rfl]
    have : (BitVec.setWidth 32 1#1).toInt = 1 := by decide
    rw [this]; simp

/-! ## The dense transform -/

/-- The transform's stored block at (p, q): row p of the node block against column q of the weights. -/
theorem linear_entry (x : Vec Ideal S8192x64 .f32) (w : Vec Ideal S64x64 .f32) (p : Fin 8192) (q : Fin 64) :
    (k0_pay1 (F := Ideal) x w (ix2 p q) : EReal) = ∑ j : Fin 64, (x (ix2 p j) : EReal) * (w (ix2 j q) : EReal) := by
  unfold k0_pay1
  rw [shapeCast_self]
  exact LibMatmulZero.matmul_zero_ix2 dot_S8192x64_S64x64_S8192x64_1_0_0_1_n_n rfl rfl rfl rfl
    (fun i c => by
      unfold DotDims.lhsIdx
      rw [dif_neg (show ¬(0 : Fin _) ∈ dot_S8192x64_S64x64_S8192x64_1_0_0_1_n_n.lhsBatch by decide),
        dif_pos (show (0 : Fin _) ∈ dot_S8192x64_S64x64_S8192x64_1_0_0_1_n_n.lhsNonContracting by decide)]
      rfl)
    (fun i c => by
      unfold DotDims.rhsIdx
      rw [dif_neg (show ¬(1 : Fin _) ∈ dot_S8192x64_S64x64_S8192x64_1_0_0_1_n_n.rhsBatch by decide),
        dif_pos (show (1 : Fin _) ∈ dot_S8192x64_S64x64_S8192x64_1_0_0_1_n_n.rhsNonContracting by decide)]
      rfl)
    none _ _ p q

/-! ## The gather -/

/-- One tile's step of the gather at (p, q): the running block plus the rows of the table tile whose number the
    edge's source word is. -/
theorem gather_step_entry (i : grid1.Coords) (s : Vec Ideal S1024 .i32) (h : Vec Ideal S8192x64 .f32)
    (acc : Vec Ideal S1024x64 .f32) (p : Fin 1024) (q : Fin 64) :
    (k1_pay2 (F := Ideal) i s h acc (ix2 p q) : EReal)
      = (acc (ix2 p q) : EReal) + ∑ r : Fin 8192, ind (s (ix1 p) = rowWord (i 1).val r) * (h (ix2 r q) : EReal) := by
  unfold k1_pay2
  dsimp only
  simp only [shapeCast_self]
  rw [addf_apply]
  refine congrArg (fun z => (acc (ix2 p q) : EReal) + z) ?_
  refine (LibMatmulZero.matmul_zero_ix2 dot_S1024x8192_S8192x64_S1024x64_1_0_0_1_n_n rfl rfl rfl rfl
    (fun i c => by
      unfold DotDims.lhsIdx
      rw [dif_neg (show ¬(0 : Fin _) ∈ dot_S1024x8192_S8192x64_S1024x64_1_0_0_1_n_n.lhsBatch by decide),
        dif_pos (show (0 : Fin _) ∈ dot_S1024x8192_S8192x64_S1024x64_1_0_0_1_n_n.lhsNonContracting by decide)]
      rfl)
    (fun i c => by
      unfold DotDims.rhsIdx
      rw [dif_neg (show ¬(1 : Fin _) ∈ dot_S1024x8192_S8192x64_S1024x64_1_0_0_1_n_n.rhsBatch by decide),
        dif_pos (show (1 : Fin _) ∈ dot_S1024x8192_S8192x64_S1024x64_1_0_0_1_n_n.rhsNonContracting by decide)]
      rfl)
    none _ _ p q).trans ?_
  refine Finset.sum_congr rfl fun r _ => ?_
  rw [truncf_apply, truncf_apply, sitofp_apply, extui_apply, bit_to_real]
  refine congrArg (fun z => z * (h (ix2 r q) : EReal)) ?_
  unfold ind
  refine if_congr ?_ rfl rfl
  show IntOp.cmpi .eq _ _ = 1#1 ↔ _
  rw [IntOp.cmpi_eq, repeatColumn_apply, castColumn_apply, broadcastTo_1b_ab_apply]
  show s (ix1 p) = IntOp.addi (broadcast S1x8192 _ (ix2 (0 : Fin 1) r)) (iota .tc S1x8192 32 [1] Gen.iota_S1x8192_d1_w32 (ix2 (0 : Fin 1) r)) ↔ _
  rw [broadcast_apply, iota_single_apply]
  rfl

/-- The gather's stored block at (p, q): the finished running block times the edge's weight. -/
theorem gather_out_entry (acc : Vec Ideal S1024x64 .f32) (w : Vec Ideal S1024 .f32) (p : Fin 1024) (q : Fin 64) :
    (k1_pay3 (F := Ideal) acc w (ix2 p q) : EReal) = (acc (ix2 p q) : EReal) * (w (ix1 p) : EReal) := by
  unfold k1_pay3
  rw [mulf_apply, repeatColumn_apply, castColumn_apply, shapeCast_self]

/-! ## The scatter -/

/-- One edge tile's step of the scatter at (p, q), for the node tile n: the running block plus the messages of the
    tile's edges whose target word is the row's number. -/
theorem scatter_step_entry (i : grid2.Coords) (d : Vec Ideal S1024 .i32) (msg : Vec Ideal S1024x64 .f32)
    (acc : Vec Ideal S8192x64 .f32) (p : Fin 8192) (q : Fin 64) :
    (k2_pay2 (F := Ideal) i d msg acc (ix2 p q) : EReal)
      = (acc (ix2 p q) : EReal) + ∑ e : Fin 1024, ind (rowWord (i 0).val p = d (ix1 e)) * (msg (ix2 e q) : EReal) := by
  unfold k2_pay2
  dsimp only
  simp only [shapeCast_self]
  rw [addf_apply]
  refine congrArg (fun z => (acc (ix2 p q) : EReal) + z) ?_
  refine (LibMatmulZero.matmul_zero_ix2 dot_S8192x1024_S1024x64_S8192x64_1_0_0_1_n_n rfl rfl rfl rfl
    (fun i c => by
      unfold DotDims.lhsIdx
      rw [dif_neg (show ¬(0 : Fin _) ∈ dot_S8192x1024_S1024x64_S8192x64_1_0_0_1_n_n.lhsBatch by decide),
        dif_pos (show (0 : Fin _) ∈ dot_S8192x1024_S1024x64_S8192x64_1_0_0_1_n_n.lhsNonContracting by decide)]
      rfl)
    (fun i c => by
      unfold DotDims.rhsIdx
      rw [dif_neg (show ¬(1 : Fin _) ∈ dot_S8192x1024_S1024x64_S8192x64_1_0_0_1_n_n.rhsBatch by decide),
        dif_pos (show (1 : Fin _) ∈ dot_S8192x1024_S1024x64_S8192x64_1_0_0_1_n_n.rhsNonContracting by decide)]
      rfl)
    none _ _ p q).trans ?_
  refine Finset.sum_congr rfl fun e _ => ?_
  rw [truncf_apply, truncf_apply, sitofp_apply, extui_apply, bit_to_real]
  refine congrArg (fun z => z * (msg (ix2 e q) : EReal)) ?_
  unfold ind
  refine if_congr ?_ rfl rfl
  show IntOp.cmpi .eq _ _ = 1#1 ↔ _
  rw [IntOp.cmpi_eq, repeatColumn_apply, broadcastTo_1b_ab_apply, shapeCast_a_1a_apply]
  show IntOp.addi (broadcast S8192x1 _ (ix2 p (0 : Fin 1))) (iota .tc S8192x1 32 [0] Gen.iota_S8192x1_d0_w32 (ix2 p (0 : Fin 1))) = d (ix1 e) ↔ _
  rw [broadcast_apply, iota_single_apply]
  rfl

/-- The scatter's stored block at (p, q): the finished running block plus the bias of the column. -/
theorem scatter_out_entry (acc : Vec Ideal S8192x64 .f32) (b : Vec Ideal S64 .f32) (p : Fin 8192) (q : Fin 64) :
    (k2_pay3 (F := Ideal) acc b (ix2 p q) : EReal) = (acc (ix2 p q) : EReal) + (b (ix1 q) : EReal) := by
  unfold k2_pay3
  rw [addf_apply, broadcastTo_1b_ab_apply, shapeCast_a_1a_apply]

/-- The running blocks start at zero: what the first tile's step finds. -/
theorem gather_init_entry (j : S1024x64.Idx) : (k1_pay1 (F := Ideal) j : EReal) = 0 := by
  unfold k1_pay1
  rw [shapeCast_self, broadcast_apply]
  exact Ideal.ofBits_zero_f32

theorem scatter_init_entry (j : S8192x64.Idx) : (k2_pay1 (F := Ideal) j : EReal) = 0 := by
  unfold k2_pay1
  rw [shapeCast_self, broadcast_apply]
  exact Ideal.ofBits_zero_f32

end Cert.Proof.Payloads

end
-- ==== Proof.KSpec.lean ====
/-
  The three kernels' results as whole arrays, index by index, on the extended reals: the dense transform of the padded node
  table, the gather over the padded edge list (13 tiles of 8192 table rows against the edge's source word, times the edge's
  weight), and the scatter over the padded node rows (1661 tiles of 1024 edges against the row's number, plus the bias) —
  for 64 and for 32 output channels.
-/
import proofs.«155233_j36086315221040_1_alg».proof.KernelIdeal
import proofs.«155233_j36086315221040_1_alg».proof.Proof.LibOneHot
import proofs.«155233_j36086315221040_1_alg».proof.Proof.Words
import Idealize.ShloMosaic.Lib.ValueIdx

noncomputable section

namespace Cert.Proof.KSpec

open Cert.KernelIdeal Idealize.ShloMosaic Idealize.ShloMosaic.ValueIdx
open Cert.LibOneHot (ind)
open Cert.Proof.Words (rowWord)

/-- The dense transform of a padded node table: (X · W)(r, q). -/
def prod64 (X : S106496x64.Idx → EReal) (W : S64x64.Idx → EReal) : S106496x64.Idx → EReal := fun i =>
  ∑ j : Fin 64, X (ix2 (⟨(i 0).val, idx2_lt0 i⟩ : Fin 106496) j) * W (ix2 j (⟨(i 1).val, idx2_lt1 i⟩ : Fin 64))

/-- The gather's result: for padded edge e, the table's tiles against the edge's source word, times the edge's weight. -/
def msgArr64 (S : S1700864.Idx → BitVec 32) (Nrm : S1700864.Idx → EReal) (H : S106496x64.Idx → EReal) : S1700864x64.Idx → EReal := fun i =>
  (∑ k : Fin 13, ∑ r : Fin 8192, ind (S (ix1 (⟨(i 0).val, idx2_lt0 i⟩ : Fin 1700864)) = rowWord k.val r)
      * H (ix2 (⟨k.val * 8192 + r.val, by have := k.isLt; have := r.isLt; omega⟩ : Fin 106496) (⟨(i 1).val, idx2_lt1 i⟩ : Fin 64)))
    * Nrm (ix1 (⟨(i 0).val, idx2_lt0 i⟩ : Fin 1700864))

/-- The scatter's result: for padded node row n, the edge tiles' messages whose target word is the row's number, plus the bias. -/
def outArr64 (D : S1700864.Idx → BitVec 32) (M : S1700864x64.Idx → EReal) (B : S64.Idx → EReal) : S106496x64.Idx → EReal := fun i =>
  (∑ t : Fin 1661, ∑ e : Fin 1024,
      ind (rowWord ((i 0).val / 8192) (⟨(i 0).val % 8192, Nat.mod_lt _ (by norm_num)⟩ : Fin 8192) = D (ix1 (⟨t.val * 1024 + e.val, by have := t.isLt; have := e.isLt; omega⟩ : Fin 1700864)))
        * M (ix2 (⟨t.val * 1024 + e.val, by have := t.isLt; have := e.isLt; omega⟩ : Fin 1700864) (⟨(i 1).val, idx2_lt1 i⟩ : Fin 64)))
    + B (ix1 (⟨(i 1).val, idx2_lt1 i⟩ : Fin 64))

/-- The dense transform of a padded node table: (X · W)(r, q). -/
def prod32 (X : S106496x64.Idx → EReal) (W : S64x32.Idx → EReal) : S106496x32.Idx → EReal := fun i =>
  ∑ j : Fin 64, X (ix2 (⟨(i 0).val, idx2_lt0 i⟩ : Fin 106496) j) * W (ix2 j (⟨(i 1).val, idx2_lt1 i⟩ : Fin 32))

/-- The gather's result: for padded edge e, the table's tiles against the edge's source word, times the edge's weight. -/
def msgArr32 (S : S1700864.Idx → BitVec 32) (Nrm : S1700864.Idx → EReal) (H : S106496x32.Idx → EReal) : S1700864x32.Idx → EReal := fun i =>
  (∑ k : Fin 13, ∑ r : Fin 8192, ind (S (ix1 (⟨(i 0).val, idx2_lt0 i⟩ : Fin 1700864)) = rowWord k.val r)
      * H (ix2 (⟨k.val * 8192 + r.val, by have := k.isLt; have := r.isLt; omega⟩ : Fin 106496) (⟨(i 1).val, idx2_lt1 i⟩ : Fin 32)))
    * Nrm (ix1 (⟨(i 0).val, idx2_lt0 i⟩ : Fin 1700864))

/-- The scatter's result: for padded node row n, the edge tiles' messages whose target word is the row's number, plus the bias. -/
def outArr32 (D : S1700864.Idx → BitVec 32) (M : S1700864x32.Idx → EReal) (B : S32.Idx → EReal) : S106496x32.Idx → EReal := fun i =>
  (∑ t : Fin 1661, ∑ e : Fin 1024,
      ind (rowWord ((i 0).val / 8192) (⟨(i 0).val % 8192, Nat.mod_lt _ (by norm_num)⟩ : Fin 8192) = D (ix1 (⟨t.val * 1024 + e.val, by have := t.isLt; have := e.isLt; omega⟩ : Fin 1700864)))
        * M (ix2 (⟨t.val * 1024 + e.val, by have := t.isLt; have := e.isLt; omega⟩ : Fin 1700864) (⟨(i 1).val, idx2_lt1 i⟩ : Fin 32)))
    + B (ix1 (⟨(i 1).val, idx2_lt1 i⟩ : Fin 32))

end Cert.Proof.KSpec

end
-- ==== Proof.Value0.lean ====
/-
  What the dense transform's region (kernel call 0) leaves in its result array, at the ideal values: point t writes back
  rows 8192 t … 8192 t + 8191, each the product of the node table's row with the weight matrix, and the 13 points cover the
  106496 rows; so the array ends as
      (X · W)(r, q) = Σ_{j < 64} X(r, j) · W(j, q)      for every row r of the padded table.
-/
import proofs.«155233_j36086315221040_1_alg».proof.Proof.Region0
import proofs.«155233_j36086315221040_1_alg».proof.Proof.Payloads
import proofs.«155233_j36086315221040_1_alg».proof.Proof.KSpec
import Idealize.ShloMosaic.Lib.Pipeline.Value

set_option maxRecDepth 16384

noncomputable section

namespace Cert.Proof.KV0

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Proof.KSpec

variable (V : (c : Dev nD) → (b : Ref sig .tc) → Buf (Elt Ideal) ((c : Thread nD τ).loc b))

theorem hz : (![0, 0] : Fin 2 → Nat) = fun _ => 0 := funext fun a => by fin_cases a <;> rfl

/-- The stored block at an entry: a row of the node block against a column of the weights. -/
theorem product_entry (x0 : Vec Ideal S8192x64 .f32) (x1 : Vec Ideal S64x64 .f32) (p : Fin 8192) (q : Fin 64) :
    (R0.product x0 x1 (ix2 p q) : EReal) = ∑ j : Fin 64, (x0 (ix2 p j) : EReal) * (x1 (ix2 j q) : EReal) := by
  unfold R0.product
  rw [View.canon_unit_zero hz]
  simp only [View.ld_unit_zero (S := S8192x64) hz, View.ld_unit_zero (S := S64x64) hz]
  exact Cert.Proof.Payloads.linear_entry _ _ p q

/-- The index maps over the 13 points: the node tile and the result tile are tile t, the weights do not move. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The result's block is written back at every point. -/
theorem flush_2 : ∀ t : Fin cfg0.N, (cfg0.win 2).flush t = true :=
  (by decide +kernel : ∀ t : Fin grid0.N, win0_2.flush t = true)

/-- What point t writes back is block t of the product of the arrays as the region finds them. -/
theorem flushed_eq (c : Dev nD) (t : Fin cfg0.N) :
    (R0.dat V c).flushed 2 t = ((cfg0.win 2).blk t).view.read (Elt Ideal) (prod64 (V c main_v36) (V c main_arg2)) := by
  show (cfg0.win 2).cut (grid0.coords t) ((R0.dat V c).after 2 t) = _
  rw [R0.after_2]
  obtain ⟨e0, e1, e2, e3, e4, e5⟩ := idx_facts t
  funext j
  obtain ⟨p, q, rfl⟩ : ∃ (p : Fin 8192) (q : Fin 64), j = ix2 p q := ⟨j 0, j 1, eq_ix2 j⟩
  show (R0.product (R0.blk V c 0 t) (R0.blk V c 1 t) (ix2 p q) : EReal) = prod64 (V c main_v36) (V c main_arg2) (((cfg0.win 2).blk t).view.emb (ix2 p q))
  rw [product_entry]
  unfold prod64
  refine Finset.sum_congr rfl fun k _ => ?_
  have h0 : ((cfg0.win 0).blk t).view.emb (ix2 p k)
      = ix2 (⟨((((cfg0.win 2).blk t).view.emb (ix2 p q)) 0).val, idx2_lt0 _⟩ : Fin 106496) k := by
    funext a; apply Fin.ext
    match a with
    | ⟨0, _⟩ => show win0_0.index t (0 : Fin 2) * 8192 + 1 * p.val = win0_2.index t (0 : Fin 2) * 8192 + 1 * p.val; omega
    | ⟨1, _⟩ => show win0_0.index t (1 : Fin 2) * 64 + 1 * k.val = k.val; omega
  have h1 : ((cfg0.win 1).blk t).view.emb (ix2 k q)
      = ix2 k (⟨((((cfg0.win 2).blk t).view.emb (ix2 p q)) 1).val, idx2_lt1 _⟩ : Fin 64) := by
    funext a; apply Fin.ext
    match a with
    | ⟨0, _⟩ => show win0_1.index t (0 : Fin 2) * 64 + 1 * k.val = k.val; omega
    | ⟨1, _⟩ => show win0_1.index t (1 : Fin 2) * 64 + 1 * q.val = win0_2.index t (1 : Fin 2) * 64 + 1 * q.val; omega
  refine congrArg₂ (fun a b : EReal => a * b) ?_ ?_
  · show V c main_v36 (((cfg0.win 0).blk t).view.emb (ix2 p k)) = _
    rw [h0]
  · show V c main_arg2 (((cfg0.win 1).blk t).view.emb (ix2 k q)) = _
    rw [h1]

/-- An index of the result array is in point t's block iff its row is in tile t. -/
theorem mem_blk (t : Fin cfg0.N) (i : S106496x64.Idx) :
    i ∈ ((cfg0.win 2).blk t).view.set ↔ ∀ a : Fin 2, win0_2.index t a * S8192x64.size a ≤ (i a).val ∧ (i a).val < win0_2.index t a * S8192x64.size a + S8192x64.size a := by
  show i ∈ ((View.whole (Pipeline.arrRef spec0 2)).slice (win0_2.rect t)).set ↔ _
  rw [View.set_slice_whole, Rect.mem_set_unit]
  exact Iff.rfl

/-- Every index is in some point's block: the tile of its row. -/
theorem cover (i : S106496x64.Idx) : ∃ t : Fin cfg0.N, (cfg0.win 2).flush t = true ∧ i ∈ ((cfg0.win 2).blk t).view.set := by
  have hi0 : (i 0).val < 106496 := idx2_lt0 i
  have hi1 : (i 1).val < 64 := idx2_lt1 i
  refine ⟨⟨(i 0).val / 8192, by rw [show cfg0.N = 13 from N_0]; omega⟩, flush_2 _, ?_⟩
  rw [mem_blk]
  obtain ⟨e0, e1, e2, e3, e4, e5⟩ := idx_facts ⟨(i 0).val / 8192, by rw [show cfg0.N = 13 from N_0]; omega⟩
  intro a
  match a with
  | ⟨0, _⟩ => show win0_2.index _ (0 : Fin 2) * 8192 ≤ (i 0).val ∧ (i 0).val < win0_2.index _ (0 : Fin 2) * 8192 + 8192; rw [e4]; show (i 0).val / 8192 * 8192 ≤ (i 0).val ∧ (i 0).val < (i 0).val / 8192 * 8192 + 8192; omega
  | ⟨1, _⟩ => show win0_2.index _ (1 : Fin 2) * 64 ≤ (i 1).val ∧ (i 1).val < win0_2.index _ (1 : Fin 2) * 64 + 64; rw [e5]; omega

/-- THE RESULT ARRAY after the region: the product of the node table and the weights as the region finds them. -/
theorem final (c : Dev nD) : (R0.dat V c).arrAt 2 cfg0.N = prod64 (V c main_v36) (V c main_arg2) :=
  (R0.dat V c).arrAt_eq_of_cover 2 _ (fun t _ => flushed_eq V c t) cover

end Cert.Proof.KV0

end
-- ==== Proof.GridFacts2.lean ====
/-
  Where the gather's and the scatter's windows sit at a grid point, decided once over the 21593 points of each grid: at
  point t of the gather (edge tile t / 13, table tile t mod 13) the edge words and weights are tile t / 13 of their arrays,
  the table block is tile t mod 13, the result block is tile t / 13; at point t of the scatter (node tile t / 1661, edge
  tile t mod 1661) the edge words and messages are tile t mod 1661, the bias does not move, the result block is tile
  t / 1661.  The three layers' windows have the same index maps, so each layer cites these.
-/
import proofs.«155233_j36086315221040_1_alg».proof.Proof.Gen.KernelIdeal

namespace Cert.Proof.GridFacts2

open Cert.KernelIdeal Idealize.ShloMosaic

theorem gather_idx : ∀ t : Fin grid1.N, ((grid1.coords t) 1).val = t.val % 13
    ∧ win1_0.index t (0 : Fin 1) = t.val / 13 ∧ win1_1.index t (0 : Fin 1) = t.val / 13
    ∧ win1_2.index t (0 : Fin 2) = t.val % 13 ∧ win1_2.index t (1 : Fin 2) = 0
    ∧ win1_3.index t (0 : Fin 2) = t.val / 13 ∧ win1_3.index t (1 : Fin 2) = 0 := by decide +kernel

theorem scatter_idx : ∀ t : Fin grid2.N, ((grid2.coords t) 0).val = t.val / 1661
    ∧ win2_0.index t (0 : Fin 1) = t.val % 1661 ∧ win2_1.index t (0 : Fin 2) = t.val % 1661 ∧ win2_1.index t (1 : Fin 2) = 0
    ∧ win2_2.index t (0 : Fin 1) = 0
    ∧ win2_3.index t (0 : Fin 2) = t.val / 1661 ∧ win2_3.index t (1 : Fin 2) = 0 := by decide +kernel

end Cert.Proof.GridFacts2
-- ==== Proof.Value1.lean ====
/-
  What the gather's region (kernel call 1) leaves in its result array, at the ideal values.

  Each case's stores, read back, are the kernel's payloads of what it loaded: a first table tile leaves the tile's
  one-hot product added to zero in the scratch block, a later tile adds its product to what the tile before left, and the
  last tile also stores the scratch times the edge weights.  So after table tile k of edge tile e the scratch holds, at
  (p, q), the products of tiles 0 … k summed, and the row of the result for padded edge 1024 e + p is
      (Σ_{k < 13} Σ_{r < 8192} [ s(1024 e + p) = number of row (k, r) ] · H(8192 k + r, q)) · w(1024 e + p) .
  The 1661 edge tiles' last points write back blocks that cover the array.
-/
import proofs.«155233_j36086315221040_1_alg».proof.Proof.Region1
import proofs.«155233_j36086315221040_1_alg».proof.Proof.Payloads
import proofs.«155233_j36086315221040_1_alg».proof.Proof.KSpec
import proofs.«155233_j36086315221040_1_alg».proof.Proof.GridFacts2
import Idealize.ShloMosaic.Lib.Pipeline.Value

set_option maxRecDepth 16384

noncomputable section

namespace Cert.Proof.KV1

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.LibOneHot (ind)
open Cert.Proof.Words (rowWord)
open Idealize.ShloMosaic.Tactic
open Cert.Proof.KSpec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## The pieces the runs found, as the kernel's payloads of what it loaded -/

theorem scr_first_eq (c : Dev nD) (i : grid1.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole) (hc0 : R1.isFirst i) (hc1 : ¬R1.isLast i) (x0 : Vec Ideal S1024 .i32) (x1 : Vec Ideal S1024 .f32) (x2 : Vec Ideal S8192x64 .f32) :
    R1.scr_first c i arg2 harg2 arg3 harg3 arg4 harg4 arg5 harg5 arg6 harg6 hc0 hc1 x0 x1 x2 = k1_pay2 (F := Ideal) i x0 x2 (k1_pay1 (F := Ideal)) := by
  unfold R1.scr_first
  rw [View.read_writes_eq_canon _ _ _ (R1.scover_first c i arg2 harg2 arg3 harg3 arg4 harg4 arg5 harg5 arg6 harg6 hc0 hc1 x0 x1 x2)]
  unfold R1.run_first
  dsimp only
  sl_unfold_words
  rw [View.canon_cons_unit_zero hz2]
  simp only [View.readAt_eq_ld, harg2.read_unread, harg3.read_unread, harg4.read_unread, harg6.read_unread,
    View.ld_unit_zero (S := S1024) hz1, View.ld_unit_zero (S := S1024) hz1, View.ld_unit_zero (S := S8192x64) hz2, View.ld_unit_zero (S := S1024x64) hz2,
    View.readCov_unit_zero (S := S1024x64) _ hz2]

theorem scr_mid_eq (c : Dev nD) (i : grid1.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole) (hc0 : ¬R1.isFirst i) (hc1 : ¬R1.isLast i) (x0 : Vec Ideal S1024 .i32) (x1 : Vec Ideal S1024 .f32) (x2 : Vec Ideal S8192x64 .f32) (xs0 : Vec Ideal S1024x64 .f32) :
    R1.scr_mid c i arg2 harg2 arg3 harg3 arg4 harg4 arg5 harg5 arg6 harg6 hc0 hc1 x0 x1 x2 xs0 = k1_pay2 (F := Ideal) i x0 x2 xs0 := by
  unfold R1.scr_mid
  rw [View.read_writes_eq_canon _ _ _ (R1.scover_mid c i arg2 harg2 arg3 harg3 arg4 harg4 arg5 harg5 arg6 harg6 hc0 hc1 x0 x1 x2 xs0)]
  unfold R1.run_mid
  dsimp only
  sl_unfold_words
  rw [View.canon_unit_zero hz2]
  simp only [View.readAt_eq_ld, harg2.read_unread, harg3.read_unread, harg4.read_unread, harg6.read_unread,
    View.ld_unit_zero (S := S1024) hz1, View.ld_unit_zero (S := S1024) hz1, View.ld_unit_zero (S := S8192x64) hz2, View.ld_unit_zero (S := S1024x64) hz2,
    View.readCov_unit_zero (S := S1024x64) _ hz2]

theorem scr_last_eq (c : Dev nD) (i : grid1.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole) (hc0 : ¬R1.isFirst i) (hc1 : R1.isLast i) (x0 : Vec Ideal S1024 .i32) (x1 : Vec Ideal S1024 .f32) (x2 : Vec Ideal S8192x64 .f32) (xs0 : Vec Ideal S1024x64 .f32) :
    R1.scr_last c i arg2 harg2 arg3 harg3 arg4 harg4 arg5 harg5 arg6 harg6 hc0 hc1 x0 x1 x2 xs0 = k1_pay2 (F := Ideal) i x0 x2 xs0 := by
  unfold R1.scr_last
  rw [View.read_writes_eq_canon _ _ _ (R1.scover_last c i arg2 harg2 arg3 harg3 arg4 harg4 arg5 harg5 arg6 harg6 hc0 hc1 x0 x1 x2 xs0)]
  unfold R1.run_last
  dsimp only
  sl_unfold_words
  rw [View.canon_unit_zero hz2]
  simp only [View.readAt_eq_ld, harg2.read_unread, harg3.read_unread, harg4.read_unread, harg6.read_unread,
    View.ld_unit_zero (S := S1024) hz1, View.ld_unit_zero (S := S1024) hz1, View.ld_unit_zero (S := S8192x64) hz2, View.ld_unit_zero (S := S1024x64) hz2,
    View.readCov_unit_zero (S := S1024x64) _ hz2]

theorem out_last_eq (c : Dev nD) (i : grid1.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole) (hc0 : ¬R1.isFirst i) (hc1 : R1.isLast i) (x0 : Vec Ideal S1024 .i32) (x1 : Vec Ideal S1024 .f32) (x2 : Vec Ideal S8192x64 .f32) (xs0 : Vec Ideal S1024x64 .f32) :
    R1.out_last c i arg2 harg2 arg3 harg3 arg4 harg4 arg5 harg5 arg6 harg6 hc0 hc1 x0 x1 x2 xs0 = k1_pay3 (F := Ideal) (k1_pay2 (F := Ideal) i x0 x2 xs0) x1 := by
  unfold R1.out_last
  rw [View.read_writes_eq_canon _ _ _ (R1.ocover_last c i arg2 harg2 arg3 harg3 arg4 harg4 arg5 harg5 arg6 harg6 hc0 hc1 x0 x1 x2 xs0)]
  unfold R1.run_last
  dsimp only
  sl_unfold_words
  rw [View.canon_unit_zero hz2]
  simp only [View.readAt_eq_ld, harg2.read_unread, harg3.read_unread, harg4.read_unread, harg6.read_unread,
    View.ld_unit_zero (S := S1024) hz1, View.ld_unit_zero (S := S1024) hz1, View.ld_unit_zero (S := S8192x64) hz2, View.ld_unit_zero (S := S1024x64) hz2,
    View.readCov_unit_zero (S := S1024x64) _ hz2]

/-! ## The scratch block, point by point -/

/-- Where the windows sit at point t: edge tile t / 13, table tile t mod 13. -/
theorem idx (t : Fin cfg1.N) : ((grid1.coords t) 1).val = t.val % 13
    ∧ win1_0.index t (0 : Fin 1) = t.val / 13 ∧ win1_1.index t (0 : Fin 1) = t.val / 13
    ∧ win1_2.index t (0 : Fin 2) = t.val % 13 ∧ win1_2.index t (1 : Fin 2) = 0
    ∧ win1_3.index t (0 : Fin 2) = t.val / 13 ∧ win1_3.index t (1 : Fin 2) = 0 := Cert.Proof.GridFacts2.gather_idx t

/-- Table tile k against the source word of padded edge x, at channel q (zero outside the arrays). -/
def tileN (S : S1700864.Idx → BitVec 32) (H : S106496x64.Idx → EReal) (x q k : ℕ) : EReal :=
  if h : x < 1700864 ∧ q < 64 ∧ k < 13 then
    ∑ r : Fin 8192, ind (S (ix1 (⟨x, h.1⟩ : Fin 1700864)) = rowWord k r)
      * H (ix2 (⟨k * 8192 + r.val, by have := r.isLt; omega⟩ : Fin 106496) (⟨q, h.2.1⟩ : Fin 64))
  else 0

/-- One point's step, at an entry: the running block plus the point's table tile against the edge's source word. -/
theorem step_entry (c : Dev nD) (t : Fin cfg1.N) (acc : Vec Ideal S1024x64 .f32) (p : Fin 1024) (q : Fin 64) :
    (k1_pay2 (F := Ideal) (grid1.coords t) (R1.blk V c 0 t) (R1.blk V c 2 t) acc (ix2 p q) : EReal)
      = (acc (ix2 p q) : EReal) + tileN (V c main_v31) (V c main_v37) (1024 * (t.val / 13) + p.val) q.val (t.val % 13) := by
  obtain ⟨e0, e1, e2, e3, e4, e5, e6⟩ := idx t
  have hN : t.val < 21593 := lt_of_lt_of_eq t.isLt N_1
  rw [Cert.Proof.Payloads.gather_step_entry]
  refine congrArg (fun z : EReal => (acc (ix2 p q) : EReal) + z) ?_
  unfold tileN
  rw [dif_pos ⟨by omega, q.isLt, Nat.mod_lt _ (by norm_num)⟩]
  refine Finset.sum_congr rfl fun r _ => ?_
  refine congrArg₂ (fun a b : EReal => a * b) ?_ ?_
  · have hs : R1.blk V c 0 t (ix1 p) = V c main_v31 (ix1 (⟨1024 * (t.val / 13) + p.val, by omega⟩ : Fin 1700864)) := by
      show V c main_v31 (((cfg1.win 0).blk t).view.emb (ix1 p)) = _
      refine congrArg _ (funext fun a => Fin.ext ?_)
      match a with
      | ⟨0, _⟩ => show win1_0.index t (0 : Fin 1) * 1024 + 1 * p.val = 1024 * (t.val / 13) + p.val; omega
    rw [hs, e0]
  · show V c main_v37 (((cfg1.win 2).blk t).view.emb (ix2 r q)) = _
    refine congrArg _ (funext fun a => Fin.ext ?_)
    match a with
    | ⟨0, _⟩ => show win1_2.index t (0 : Fin 2) * 8192 + 1 * r.val = t.val % 13 * 8192 + r.val; omega
    | ⟨1, _⟩ => show win1_2.index t (1 : Fin 2) * 64 + 1 * q.val = q.val; omega

/-- After the body at position n the scratch block holds, at (p, q), the table tiles 0 … n mod 13 against the source word of
    padded edge 1024 (n / 13) + p, summed. -/
theorem scratch_at (c : Dev nD) : ∀ (n : ℕ) (hn : n < cfg1.N) (p : Fin 1024) (q : Fin 64),
    ((R1.outsAt V c n hn).2 (ix2 p q) : EReal)
      = ∑ k ∈ Finset.range (n % 13 + 1), tileN (V c main_v31) (V c main_v37) (1024 * (n / 13) + p.val) q.val k := by
  intro n
  induction n with
  | zero =>
    intro hn p q
    rw [R1.outsAt_first V c ⟨0, hn⟩ (Nat.zero_mod 13) (by show ¬ 0 % 13 = 12; decide)]
    dsimp only
    rw [scr_first_eq, step_entry V c ⟨0, hn⟩, Cert.Proof.Payloads.gather_init_entry, zero_add]
    dsimp only
    simp
  | succ n ih =>
    intro hn p q
    have hN : n + 1 < 21593 := lt_of_lt_of_eq hn N_1
    by_cases h0 : (n + 1) % 13 = 0
    · have h1 : ¬(n + 1) % 13 = 12 := by omega
      rw [R1.outsAt_first V c ⟨n + 1, hn⟩ h0 h1]
      dsimp only
      rw [scr_first_eq, step_entry V c ⟨n + 1, hn⟩, Cert.Proof.Payloads.gather_init_entry, zero_add]
      dsimp only
      rw [h0]; simp
    · have hprev := ih (Nat.lt_of_succ_lt hn) p q
      have hdiv : n / 13 = (n + 1) / 13 := by omega
      have hmod : n % 13 + 1 = (n + 1) % 13 := by omega
      by_cases h1 : (n + 1) % 13 = 12
      · rw [R1.outsAt_last V c ⟨n + 1, hn⟩ h0 h1]
        dsimp only
        rw [scr_last_eq, step_entry V c ⟨n + 1, hn⟩]
        dsimp only
        simp only [Nat.add_sub_cancel]
        rw [← hmod, ← hdiv, Finset.sum_range_succ]
        exact congrArg (fun z : EReal => z + tileN _ _ _ _ _) hprev
      · rw [R1.outsAt_mid V c ⟨n + 1, hn⟩ h0 h1]
        dsimp only
        rw [scr_mid_eq, step_entry V c ⟨n + 1, hn⟩]
        dsimp only
        simp only [Nat.add_sub_cancel]
        rw [← hmod, ← hdiv, Finset.sum_range_succ]
        exact congrArg (fun z : EReal => z + tileN _ _ _ _ _) hprev

/-! ## From the last points' blocks to the array -/

/-- All thirteen table tiles, as the array's entry spells them. -/
theorem tiles_all (S : S1700864.Idx → BitVec 32) (H : S106496x64.Idx → EReal) (x : Fin 1700864) (q : Fin 64) :
    ∑ k ∈ Finset.range 13, tileN S H x.val q.val k
      = ∑ k : Fin 13, ∑ r : Fin 8192, ind (S (ix1 x) = rowWord k.val r)
          * H (ix2 (⟨k.val * 8192 + r.val, by have := k.isLt; have := r.isLt; omega⟩ : Fin 106496) q) := by
  rw [Finset.sum_range]
  refine Finset.sum_congr rfl fun k _ => ?_
  unfold tileN
  rw [dif_pos ⟨x.isLt, q.isLt, k.isLt⟩]

/-- WHAT AN EDGE TILE'S LAST POINT WRITES BACK is its block of the gather's array. -/
theorem flushed_eq (c : Dev nD) (t : Fin cfg1.N) (hf : (cfg1.win 3).flush t = true) :
    (R1.dat V c).flushed 3 t = ((cfg1.win 3).blk t).view.read (Elt Ideal) (msgArr64 (V c main_v31) (V c main_v35) (V c main_v37)) := by
  have h1 : t.val % 13 = 12 := (R1.flush_3 t).mp hf
  have h0 : ¬ t.val % 13 = 0 := by omega
  obtain ⟨e0, e1, e2, e3, e4, e5, e6⟩ := idx t
  have hN : t.val < 21593 := lt_of_lt_of_eq t.isLt N_1
  have hscr : k1_pay2 (F := Ideal) (grid1.coords t) (R1.blk V c 0 t) (R1.blk V c 2 t) (R1.outsAt V c (t.val - 1) (Nat.lt_of_le_of_lt (Nat.sub_le _ _) t.isLt)).2
      = (R1.outsAt V c t.val t.isLt).2 := by
    rw [R1.outsAt_last V c t h0 h1]; dsimp only; rw [scr_last_eq]
  show (cfg1.win 3).cut (grid1.coords t) ((R1.dat V c).after 3 t) = _
  rw [R1.after_3, R1.outsAt_last V c t h0 h1]
  dsimp only
  rw [out_last_eq, hscr]
  funext j
  obtain ⟨p, q, rfl⟩ : ∃ (p : Fin 1024) (q : Fin 64), j = ix2 p q := ⟨j 0, j 1, eq_ix2 j⟩
  show (k1_pay3 (F := Ideal) (R1.outsAt V c t.val t.isLt).2 (R1.blk V c 1 t) (ix2 p q) : EReal)
    = msgArr64 (V c main_v31) (V c main_v35) (V c main_v37) (((cfg1.win 3).blk t).view.emb (ix2 p q))
  rw [Cert.Proof.Payloads.gather_out_entry, scratch_at V c t.val t.isLt p q, h1]
  have hx0 : ((((cfg1.win 3).blk t).view.emb (ix2 p q)) 0).val = 1024 * (t.val / 13) + p.val := by
    show win1_3.index t (0 : Fin 2) * 1024 + 1 * p.val = _; omega
  have hx1 : ((((cfg1.win 3).blk t).view.emb (ix2 p q)) 1).val = q.val := by
    show win1_3.index t (1 : Fin 2) * 64 + 1 * q.val = _; omega
  unfold msgArr64
  have hxlt : 1024 * (t.val / 13) + p.val < 1700864 := by omega
  have hrow : (⟨((((cfg1.win 3).blk t).view.emb (ix2 p q)) 0).val, idx2_lt0 _⟩ : Fin 1700864) = ⟨1024 * (t.val / 13) + p.val, hxlt⟩ := Fin.ext hx0
  have hcol : (⟨((((cfg1.win 3).blk t).view.emb (ix2 p q)) 1).val, idx2_lt1 _⟩ : Fin 64) = q := Fin.ext hx1
  rw [hrow, hcol]
  refine congrArg₂ (fun a b : EReal => a * b) ?_ ?_
  · exact tiles_all (V c main_v31) (V c main_v37) ⟨1024 * (t.val / 13) + p.val, hxlt⟩ q
  · show V c main_v35 (((cfg1.win 1).blk t).view.emb (ix1 p)) = _
    refine congrArg _ (funext fun a => Fin.ext ?_)
    match a with
    | ⟨0, _⟩ => show win1_1.index t (0 : Fin 1) * 1024 + 1 * p.val = 1024 * (t.val / 13) + p.val; omega

/-- An index of the gather's array is in point t's block iff its row is in edge tile t / 13. -/
theorem mem_blk (t : Fin cfg1.N) (i : S1700864x64.Idx) :
    i ∈ ((cfg1.win 3).blk t).view.set ↔ ∀ a : Fin 2, win1_3.index t a * S1024x64.size a ≤ (i a).val ∧ (i a).val < win1_3.index t a * S1024x64.size a + S1024x64.size a := by
  show i ∈ ((View.whole (Pipeline.arrRef spec1 3)).slice (win1_3.rect t)).set ↔ _
  rw [View.set_slice_whole, Rect.mem_set_unit]
  exact Iff.rfl

/-- Every index is in the block of its edge tile's last point. -/
theorem cover (i : S1700864x64.Idx) : ∃ t : Fin cfg1.N, (cfg1.win 3).flush t = true ∧ i ∈ ((cfg1.win 3).blk t).view.set := by
  have hi0 : (i 0).val < 1700864 := idx2_lt0 i
  have hi1 : (i 1).val < 64 := idx2_lt1 i
  have hlt : 13 * ((i 0).val / 1024) + 12 < cfg1.N := by rw [show cfg1.N = 21593 from N_1]; omega
  refine ⟨⟨13 * ((i 0).val / 1024) + 12, hlt⟩, (R1.flush_3 _).mpr (by show (13 * ((i 0).val / 1024) + 12) % 13 = 12; omega), ?_⟩
  rw [mem_blk]
  obtain ⟨e0, e1, e2, e3, e4, e5, e6⟩ := idx ⟨13 * ((i 0).val / 1024) + 12, hlt⟩
  intro a
  match a with
  | ⟨0, _⟩ =>
    show win1_3.index _ (0 : Fin 2) * 1024 ≤ (i 0).val ∧ (i 0).val < win1_3.index _ (0 : Fin 2) * 1024 + 1024
    rw [e5]; show (13 * ((i 0).val / 1024) + 12) / 13 * 1024 ≤ (i 0).val ∧ (i 0).val < (13 * ((i 0).val / 1024) + 12) / 13 * 1024 + 1024
    have : (13 * ((i 0).val / 1024) + 12) / 13 = (i 0).val / 1024 := by omega
    rw [this]; omega
  | ⟨1, _⟩ =>
    show win1_3.index _ (1 : Fin 2) * 64 ≤ (i 1).val ∧ (i 1).val < win1_3.index _ (1 : Fin 2) * 64 + 64
    rw [e6]; omega

/-- THE GATHER'S ARRAY after the region. -/
theorem final (c : Dev nD) : (R1.dat V c).arrAt 3 cfg1.N = msgArr64 (V c main_v31) (V c main_v35) (V c main_v37) :=
  (R1.dat V c).arrAt_eq_of_cover 3 _ (fun t hf => flushed_eq V c t hf) cover

end Cert.Proof.KV1

end
-- ==== Proof.Value2.lean ====
/-
  What the scatter's region (kernel call 2) leaves in its result array, at the ideal values.

  Each case's stores, read back, are the kernel's payloads of what it loaded: a first edge tile leaves the tile's one-hot
  product added to zero in the scratch block, a later tile adds its product to what the tile before left, and the last
  tile also stores the scratch plus the bias row.  So after edge tile e of node tile n the scratch holds, at (p, q), the
  products of tiles 0 … e summed, and the row of the result for padded node 8192 n + p is
      Σ_{e < 1661} Σ_{x < 1024} [ number of row (n, p) = d(1024 e + x) ] · msg(1024 e + x, q)  +  b(q) .
  The 13 node tiles' last points write back blocks that cover the array.
-/
import proofs.«155233_j36086315221040_1_alg».proof.Proof.Region2
import proofs.«155233_j36086315221040_1_alg».proof.Proof.Payloads
import proofs.«155233_j36086315221040_1_alg».proof.Proof.KSpec
import proofs.«155233_j36086315221040_1_alg».proof.Proof.GridFacts2
import Idealize.ShloMosaic.Lib.Pipeline.Value

set_option maxRecDepth 16384

noncomputable section

namespace Cert.Proof.KV2

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.LibOneHot (ind)
open Cert.Proof.Words (rowWord)
open Idealize.ShloMosaic.Tactic
open Cert.Proof.KSpec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## The pieces the runs found, as the kernel's payloads of what it loaded -/

theorem scr_first_eq (c : Dev nD) (i : grid2.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole) (hc0 : R2.isFirst i) (hc1 : ¬R2.isLast i) (x0 : Vec Ideal S1024 .i32) (x1 : Vec Ideal S1024x64 .f32) (x2 : Vec Ideal S64 .f32) :
    R2.scr_first c i arg2 harg2 arg3 harg3 arg4 harg4 arg5 harg5 arg6 harg6 hc0 hc1 x0 x1 x2 = k2_pay2 (F := Ideal) i x0 x1 (k2_pay1 (F := Ideal)) := by
  unfold R2.scr_first
  rw [View.read_writes_eq_canon _ _ _ (R2.scover_first c i arg2 harg2 arg3 harg3 arg4 harg4 arg5 harg5 arg6 harg6 hc0 hc1 x0 x1 x2)]
  unfold R2.run_first
  dsimp only
  sl_unfold_words
  rw [View.canon_cons_unit_zero hz2]
  simp only [View.readAt_eq_ld, harg2.read_unread, harg3.read_unread, harg4.read_unread, harg6.read_unread,
    View.ld_unit_zero (S := S1024) hz1, View.ld_unit_zero (S := S1024x64) hz2, View.ld_unit_zero (S := S64) hz1, View.ld_unit_zero (S := S8192x64) hz2,
    View.readCov_unit_zero (S := S8192x64) _ hz2]

theorem scr_mid_eq (c : Dev nD) (i : grid2.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole) (hc0 : ¬R2.isFirst i) (hc1 : ¬R2.isLast i) (x0 : Vec Ideal S1024 .i32) (x1 : Vec Ideal S1024x64 .f32) (x2 : Vec Ideal S64 .f32) (xs0 : Vec Ideal S8192x64 .f32) :
    R2.scr_mid c i arg2 harg2 arg3 harg3 arg4 harg4 arg5 harg5 arg6 harg6 hc0 hc1 x0 x1 x2 xs0 = k2_pay2 (F := Ideal) i x0 x1 xs0 := by
  unfold R2.scr_mid
  rw [View.read_writes_eq_canon _ _ _ (R2.scover_mid c i arg2 harg2 arg3 harg3 arg4 harg4 arg5 harg5 arg6 harg6 hc0 hc1 x0 x1 x2 xs0)]
  unfold R2.run_mid
  dsimp only
  sl_unfold_words
  rw [View.canon_unit_zero hz2]
  simp only [View.readAt_eq_ld, harg2.read_unread, harg3.read_unread, harg4.read_unread, harg6.read_unread,
    View.ld_unit_zero (S := S1024) hz1, View.ld_unit_zero (S := S1024x64) hz2, View.ld_unit_zero (S := S64) hz1, View.ld_unit_zero (S := S8192x64) hz2,
    View.readCov_unit_zero (S := S8192x64) _ hz2]

theorem scr_last_eq (c : Dev nD) (i : grid2.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole) (hc0 : ¬R2.isFirst i) (hc1 : R2.isLast i) (x0 : Vec Ideal S1024 .i32) (x1 : Vec Ideal S1024x64 .f32) (x2 : Vec Ideal S64 .f32) (xs0 : Vec Ideal S8192x64 .f32) :
    R2.scr_last c i arg2 harg2 arg3 harg3 arg4 harg4 arg5 harg5 arg6 harg6 hc0 hc1 x0 x1 x2 xs0 = k2_pay2 (F := Ideal) i x0 x1 xs0 := by
  unfold R2.scr_last
  rw [View.read_writes_eq_canon _ _ _ (R2.scover_last c i arg2 harg2 arg3 harg3 arg4 harg4 arg5 harg5 arg6 harg6 hc0 hc1 x0 x1 x2 xs0)]
  unfold R2.run_last
  dsimp only
  sl_unfold_words
  rw [View.canon_unit_zero hz2]
  simp only [View.readAt_eq_ld, harg2.read_unread, harg3.read_unread, harg4.read_unread, harg6.read_unread,
    View.ld_unit_zero (S := S1024) hz1, View.ld_unit_zero (S := S1024x64) hz2, View.ld_unit_zero (S := S64) hz1, View.ld_unit_zero (S := S8192x64) hz2,
    View.readCov_unit_zero (S := S8192x64) _ hz2]

theorem out_last_eq (c : Dev nD) (i : grid2.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole) (hc0 : ¬R2.isFirst i) (hc1 : R2.isLast i) (x0 : Vec Ideal S1024 .i32) (x1 : Vec Ideal S1024x64 .f32) (x2 : Vec Ideal S64 .f32) (xs0 : Vec Ideal S8192x64 .f32) :
    R2.out_last c i arg2 harg2 arg3 harg3 arg4 harg4 arg5 harg5 arg6 harg6 hc0 hc1 x0 x1 x2 xs0 = k2_pay3 (F := Ideal) (k2_pay2 (F := Ideal) i x0 x1 xs0) x2 := by
  unfold R2.out_last
  rw [View.read_writes_eq_canon _ _ _ (R2.ocover_last c i arg2 harg2 arg3 harg3 arg4 harg4 arg5 harg5 arg6 harg6 hc0 hc1 x0 x1 x2 xs0)]
  unfold R2.run_last
  dsimp only
  sl_unfold_words
  rw [View.canon_unit_zero hz2]
  simp only [View.readAt_eq_ld, harg2.read_unread, harg3.read_unread, harg4.read_unread, harg6.read_unread,
    View.ld_unit_zero (S := S1024) hz1, View.ld_unit_zero (S := S1024x64) hz2, View.ld_unit_zero (S := S64) hz1, View.ld_unit_zero (S := S8192x64) hz2,
    View.readCov_unit_zero (S := S8192x64) _ hz2]

/-! ## The scratch block, point by point -/

/-- Where the windows sit at point t: node tile t / 1661, edge tile t mod 1661. -/
theorem idx (t : Fin cfg2.N) : ((grid2.coords t) 0).val = t.val / 1661
    ∧ win2_0.index t (0 : Fin 1) = t.val % 1661 ∧ win2_1.index t (0 : Fin 2) = t.val % 1661 ∧ win2_1.index t (1 : Fin 2) = 0
    ∧ win2_2.index t (0 : Fin 1) = 0
    ∧ win2_3.index t (0 : Fin 2) = t.val / 1661 ∧ win2_3.index t (1 : Fin 2) = 0 := Cert.Proof.GridFacts2.scatter_idx t

/-- Edge tile e against the number of padded node row n, at channel q (zero outside the arrays). -/
def tileS (D : S1700864.Idx → BitVec 32) (M : S1700864x64.Idx → EReal) (n q e : ℕ) : EReal :=
  if h : n < 106496 ∧ q < 64 ∧ e < 1661 then
    ∑ x : Fin 1024, ind (rowWord (n / 8192) (⟨n % 8192, Nat.mod_lt _ (by norm_num)⟩ : Fin 8192) = D (ix1 (⟨e * 1024 + x.val, by have := x.isLt; omega⟩ : Fin 1700864)))
      * M (ix2 (⟨e * 1024 + x.val, by have := x.isLt; omega⟩ : Fin 1700864) (⟨q, h.2.1⟩ : Fin 64))
  else 0

/-- One point's step, at an entry: the running block plus the point's edge tile against the row's number. -/
theorem step_entry (c : Dev nD) (t : Fin cfg2.N) (acc : Vec Ideal S8192x64 .f32) (p : Fin 8192) (q : Fin 64) :
    (k2_pay2 (F := Ideal) (grid2.coords t) (R2.blk V c 0 t) (R2.blk V c 1 t) acc (ix2 p q) : EReal)
      = (acc (ix2 p q) : EReal) + tileS (V c main_v33) (V c main_v38) (8192 * (t.val / 1661) + p.val) q.val (t.val % 1661) := by
  obtain ⟨e0, e1, e2, e3, e4, e5, e6⟩ := idx t
  have hN : t.val < 21593 := lt_of_lt_of_eq t.isLt N_2
  rw [Cert.Proof.Payloads.scatter_step_entry]
  refine congrArg (fun z : EReal => (acc (ix2 p q) : EReal) + z) ?_
  unfold tileS
  rw [dif_pos ⟨by omega, q.isLt, Nat.mod_lt _ (by norm_num)⟩]
  have hq : (8192 * (t.val / 1661) + p.val) / 8192 = t.val / 1661 := by have := p.isLt; omega
  have hp : (⟨(8192 * (t.val / 1661) + p.val) % 8192, Nat.mod_lt _ (by norm_num)⟩ : Fin 8192) = p := Fin.ext (by show (8192 * (t.val / 1661) + p.val) % 8192 = p.val; have := p.isLt; omega)
  rw [hq, hp, e0]
  refine Finset.sum_congr rfl fun x _ => ?_
  refine congrArg₂ (fun a b : EReal => a * b) ?_ ?_
  · have hd : R2.blk V c 0 t (ix1 x) = V c main_v33 (ix1 (⟨t.val % 1661 * 1024 + x.val, by have := x.isLt; omega⟩ : Fin 1700864)) := by
      show V c main_v33 (((cfg2.win 0).blk t).view.emb (ix1 x)) = _
      refine congrArg _ (funext fun a => Fin.ext ?_)
      match a with
      | ⟨0, _⟩ => show win2_0.index t (0 : Fin 1) * 1024 + 1 * x.val = t.val % 1661 * 1024 + x.val; omega
    rw [hd]
  · show V c main_v38 (((cfg2.win 1).blk t).view.emb (ix2 x q)) = _
    refine congrArg _ (funext fun a => Fin.ext ?_)
    match a with
    | ⟨0, _⟩ => show win2_1.index t (0 : Fin 2) * 1024 + 1 * x.val = t.val % 1661 * 1024 + x.val; omega
    | ⟨1, _⟩ => show win2_1.index t (1 : Fin 2) * 64 + 1 * q.val = q.val; omega

/-- After the body at position n the scratch block holds, at (p, q), the edge tiles 0 … n mod 1661 against the number of
    padded node row 8192 (n / 1661) + p, summed. -/
theorem scratch_at (c : Dev nD) : ∀ (n : ℕ) (hn : n < cfg2.N) (p : Fin 8192) (q : Fin 64),
    ((R2.outsAt V c n hn).2 (ix2 p q) : EReal)
      = ∑ e ∈ Finset.range (n % 1661 + 1), tileS (V c main_v33) (V c main_v38) (8192 * (n / 1661) + p.val) q.val e := by
  intro n
  induction n with
  | zero =>
    intro hn p q
    rw [R2.outsAt_first V c ⟨0, hn⟩ (Nat.zero_mod 1661) (by show ¬ 0 % 1661 = 1660; decide)]
    dsimp only
    rw [scr_first_eq, step_entry V c ⟨0, hn⟩, Cert.Proof.Payloads.scatter_init_entry, zero_add]
    dsimp only
    simp
  | succ n ih =>
    intro hn p q
    have hN : n + 1 < 21593 := lt_of_lt_of_eq hn N_2
    by_cases h0 : (n + 1) % 1661 = 0
    · have h1 : ¬(n + 1) % 1661 = 1660 := by omega
      rw [R2.outsAt_first V c ⟨n + 1, hn⟩ h0 h1]
      dsimp only
      rw [scr_first_eq, step_entry V c ⟨n + 1, hn⟩, Cert.Proof.Payloads.scatter_init_entry, zero_add]
      dsimp only
      rw [h0]; simp
    · have hprev := ih (Nat.lt_of_succ_lt hn) p q
      have hdiv : n / 1661 = (n + 1) / 1661 := by omega
      have hmod : n % 1661 + 1 = (n + 1) % 1661 := by omega
      by_cases h1 : (n + 1) % 1661 = 1660
      · rw [R2.outsAt_last V c ⟨n + 1, hn⟩ h0 h1]
        dsimp only
        rw [scr_last_eq, step_entry V c ⟨n + 1, hn⟩]
        dsimp only
        simp only [Nat.add_sub_cancel]
        rw [← hmod, ← hdiv, Finset.sum_range_succ]
        exact congrArg (fun z : EReal => z + tileS _ _ _ _ _) hprev
      · rw [R2.outsAt_mid V c ⟨n + 1, hn⟩ h0 h1]
        dsimp only
        rw [scr_mid_eq, step_entry V c ⟨n + 1, hn⟩]
        dsimp only
        simp only [Nat.add_sub_cancel]
        rw [← hmod, ← hdiv, Finset.sum_range_succ]
        exact congrArg (fun z : EReal => z + tileS _ _ _ _ _) hprev

/-! ## From the last points' blocks to the array -/

/-- All 1661 edge tiles, as the array's entry spells them. -/
theorem tiles_all (D : S1700864.Idx → BitVec 32) (M : S1700864x64.Idx → EReal) (n : Fin 106496) (q : Fin 64) :
    ∑ e ∈ Finset.range 1661, tileS D M n.val q.val e
      = ∑ t : Fin 1661, ∑ x : Fin 1024,
          ind (rowWord (n.val / 8192) (⟨n.val % 8192, Nat.mod_lt _ (by norm_num)⟩ : Fin 8192) = D (ix1 (⟨t.val * 1024 + x.val, by have := t.isLt; have := x.isLt; omega⟩ : Fin 1700864)))
            * M (ix2 (⟨t.val * 1024 + x.val, by have := t.isLt; have := x.isLt; omega⟩ : Fin 1700864) q) := by
  rw [Finset.sum_range]
  refine Finset.sum_congr rfl fun t _ => ?_
  unfold tileS
  rw [dif_pos ⟨n.isLt, q.isLt, t.isLt⟩]

/-- WHAT A NODE TILE'S LAST POINT WRITES BACK is its block of the scatter's array. -/
theorem flushed_eq (c : Dev nD) (t : Fin cfg2.N) (hf : (cfg2.win 3).flush t = true) :
    (R2.dat V c).flushed 3 t = ((cfg2.win 3).blk t).view.read (Elt Ideal) (outArr64 (V c main_v33) (V c main_v38) (V c main_arg3)) := by
  have h1 : t.val % 1661 = 1660 := (R2.flush_3 t).mp hf
  have h0 : ¬ t.val % 1661 = 0 := by omega
  obtain ⟨e0, e1, e2, e3, e4, e5, e6⟩ := idx t
  have hN : t.val < 21593 := lt_of_lt_of_eq t.isLt N_2
  have hscr : k2_pay2 (F := Ideal) (grid2.coords t) (R2.blk V c 0 t) (R2.blk V c 1 t) (R2.outsAt V c (t.val - 1) (Nat.lt_of_le_of_lt (Nat.sub_le _ _) t.isLt)).2
      = (R2.outsAt V c t.val t.isLt).2 := by
    rw [R2.outsAt_last V c t h0 h1]; dsimp only; rw [scr_last_eq]
  show (cfg2.win 3).cut (grid2.coords t) ((R2.dat V c).after 3 t) = _
  rw [R2.after_3, R2.outsAt_last V c t h0 h1]
  dsimp only
  rw [out_last_eq, hscr]
  funext j
  obtain ⟨p, q, rfl⟩ : ∃ (p : Fin 8192) (q : Fin 64), j = ix2 p q := ⟨j 0, j 1, eq_ix2 j⟩
  show (k2_pay3 (F := Ideal) (R2.outsAt V c t.val t.isLt).2 (R2.blk V c 2 t) (ix2 p q) : EReal)
    = outArr64 (V c main_v33) (V c main_v38) (V c main_arg3) (((cfg2.win 3).blk t).view.emb (ix2 p q))
  rw [Cert.Proof.Payloads.scatter_out_entry, scratch_at V c t.val t.isLt p q, h1]
  have hx0 : ((((cfg2.win 3).blk t).view.emb (ix2 p q)) 0).val = 8192 * (t.val / 1661) + p.val := by
    show win2_3.index t (0 : Fin 2) * 8192 + 1 * p.val = _; omega
  have hx1 : ((((cfg2.win 3).blk t).view.emb (ix2 p q)) 1).val = q.val := by
    show win2_3.index t (1 : Fin 2) * 64 + 1 * q.val = _; omega
  unfold outArr64
  have hxlt : 8192 * (t.val / 1661) + p.val < 106496 := by have := p.isLt; omega
  have hcol : (⟨((((cfg2.win 3).blk t).view.emb (ix2 p q)) 1).val, idx2_lt1 _⟩ : Fin 64) = q := Fin.ext hx1
  rw [hcol]
  simp only [hx0]
  refine congrArg₂ (fun a b : EReal => a + b) ?_ ?_
  · exact tiles_all (V c main_v33) (V c main_v38) ⟨8192 * (t.val / 1661) + p.val, hxlt⟩ q
  · show V c main_arg3 (((cfg2.win 2).blk t).view.emb (ix1 q)) = _
    refine congrArg _ (funext fun a => Fin.ext ?_)
    match a with
    | ⟨0, _⟩ => show win2_2.index t (0 : Fin 1) * 64 + 1 * q.val = q.val; omega

/-- An index of the scatter's array is in point t's block iff its row is in node tile t / 1661. -/
theorem mem_blk (t : Fin cfg2.N) (i : S106496x64.Idx) :
    i ∈ ((cfg2.win 3).blk t).view.set ↔ ∀ a : Fin 2, win2_3.index t a * S8192x64.size a ≤ (i a).val ∧ (i a).val < win2_3.index t a * S8192x64.size a + S8192x64.size a := by
  show i ∈ ((View.whole (Pipeline.arrRef spec2 3)).slice (win2_3.rect t)).set ↔ _
  rw [View.set_slice_whole, Rect.mem_set_unit]
  exact Iff.rfl

/-- Every index is in the block of its node tile's last point. -/
theorem cover (i : S106496x64.Idx) : ∃ t : Fin cfg2.N, (cfg2.win 3).flush t = true ∧ i ∈ ((cfg2.win 3).blk t).view.set := by
  have hi0 : (i 0).val < 106496 := idx2_lt0 i
  have hi1 : (i 1).val < 64 := idx2_lt1 i
  have hlt : 1661 * ((i 0).val / 8192) + 1660 < cfg2.N := by rw [show cfg2.N = 21593 from N_2]; omega
  refine ⟨⟨1661 * ((i 0).val / 8192) + 1660, hlt⟩, (R2.flush_3 _).mpr (by show (1661 * ((i 0).val / 8192) + 1660) % 1661 = 1660; omega), ?_⟩
  rw [mem_blk]
  obtain ⟨e0, e1, e2, e3, e4, e5, e6⟩ := idx ⟨1661 * ((i 0).val / 8192) + 1660, hlt⟩
  intro a
  match a with
  | ⟨0, _⟩ =>
    show win2_3.index _ (0 : Fin 2) * 8192 ≤ (i 0).val ∧ (i 0).val < win2_3.index _ (0 : Fin 2) * 8192 + 8192
    rw [e5]; show (1661 * ((i 0).val / 8192) + 1660) / 1661 * 8192 ≤ (i 0).val ∧ (i 0).val < (1661 * ((i 0).val / 8192) + 1660) / 1661 * 8192 + 8192
    have : (1661 * ((i 0).val / 8192) + 1660) / 1661 = (i 0).val / 8192 := by omega
    rw [this]; omega
  | ⟨1, _⟩ =>
    show win2_3.index _ (1 : Fin 2) * 64 ≤ (i 1).val ∧ (i 1).val < win2_3.index _ (1 : Fin 2) * 64 + 64
    rw [e6]; omega

/-- THE SCATTER'S ARRAY after the region. -/
theorem final (c : Dev nD) : (R2.dat V c).arrAt 3 cfg2.N = outArr64 (V c main_v33) (V c main_v38) (V c main_arg3) :=
  (R2.dat V c).arrAt_eq_of_cover 3 _ (fun t hf => flushed_eq V c t hf) cover

end Cert.Proof.KV2

end
-- ==== Proof.Payloads3.lean ====
/-
  The three kernels of layer 2 read at one entry at the ideal values: the same statements as for the first layer, for this
  layer's kernels (64 output channels).
-/
import proofs.«155233_j36086315221040_1_alg».proof.Proof.Payloads

set_option maxRecDepth 16384

noncomputable section

namespace Cert.Proof.Payloads3

open Idealize.ShloMosaic Idealize.ShloMosaic.ValueIdx Cert.KernelIdeal Cert.KernelIdeal.Gen
open Cert.KernelIdeal.Facts₀ Cert.KernelIdeal.Facts
open Cert.LibOneHot (ind)
open Cert.Proof.Words (rowWord)
open Cert.Proof.Payloads (castColumn_apply repeatColumn_apply bit_to_real)

/-! ## The dense transform -/

/-- The transform's stored block at (p, q): row p of the node block against column q of the weights. -/
theorem linear_entry (x : Vec Ideal S8192x64 .f32) (w : Vec Ideal S64x64 .f32) (p : Fin 8192) (q : Fin 64) :
    (k3_pay1 (F := Ideal) x w (ix2 p q) : EReal) = ∑ j : Fin 64, (x (ix2 p j) : EReal) * (w (ix2 j q) : EReal) := by
  unfold k3_pay1
  rw [shapeCast_self]
  exact LibMatmulZero.matmul_zero_ix2 dot_S8192x64_S64x64_S8192x64_1_0_0_1_n_n rfl rfl rfl rfl
    (fun i c => by
      unfold DotDims.lhsIdx
      rw [dif_neg (show ¬(0 : Fin _) ∈ dot_S8192x64_S64x64_S8192x64_1_0_0_1_n_n.lhsBatch by decide),
        dif_pos (show (0 : Fin _) ∈ dot_S8192x64_S64x64_S8192x64_1_0_0_1_n_n.lhsNonContracting by decide)]
      rfl)
    (fun i c => by
      unfold DotDims.rhsIdx
      rw [dif_neg (show ¬(1 : Fin _) ∈ dot_S8192x64_S64x64_S8192x64_1_0_0_1_n_n.rhsBatch by decide),
        dif_pos (show (1 : Fin _) ∈ dot_S8192x64_S64x64_S8192x64_1_0_0_1_n_n.rhsNonContracting by decide)]
      rfl)
    none _ _ p q

/-! ## The gather -/

/-- One tile's step of the gather at (p, q): the running block plus the rows of the table tile whose number the
    edge's source word is. -/
theorem gather_step_entry (i : grid4.Coords) (s : Vec Ideal S1024 .i32) (h : Vec Ideal S8192x64 .f32)
    (acc : Vec Ideal S1024x64 .f32) (p : Fin 1024) (q : Fin 64) :
    (k4_pay2 (F := Ideal) i s h acc (ix2 p q) : EReal)
      = (acc (ix2 p q) : EReal) + ∑ r : Fin 8192, ind (s (ix1 p) = rowWord (i 1).val r) * (h (ix2 r q) : EReal) := by
  unfold k4_pay2
  dsimp only
  simp only [shapeCast_self]
  rw [addf_apply]
  refine congrArg (fun z => (acc (ix2 p q) : EReal) + z) ?_
  refine (LibMatmulZero.matmul_zero_ix2 dot_S1024x8192_S8192x64_S1024x64_1_0_0_1_n_n rfl rfl rfl rfl
    (fun i c => by
      unfold DotDims.lhsIdx
      rw [dif_neg (show ¬(0 : Fin _) ∈ dot_S1024x8192_S8192x64_S1024x64_1_0_0_1_n_n.lhsBatch by decide),
        dif_pos (show (0 : Fin _) ∈ dot_S1024x8192_S8192x64_S1024x64_1_0_0_1_n_n.lhsNonContracting by decide)]
      rfl)
    (fun i c => by
      unfold DotDims.rhsIdx
      rw [dif_neg (show ¬(1 : Fin _) ∈ dot_S1024x8192_S8192x64_S1024x64_1_0_0_1_n_n.rhsBatch by decide),
        dif_pos (show (1 : Fin _) ∈ dot_S1024x8192_S8192x64_S1024x64_1_0_0_1_n_n.rhsNonContracting by decide)]
      rfl)
    none _ _ p q).trans ?_
  refine Finset.sum_congr rfl fun r _ => ?_
  rw [truncf_apply, truncf_apply, sitofp_apply, extui_apply, bit_to_real]
  refine congrArg (fun z => z * (h (ix2 r q) : EReal)) ?_
  unfold ind
  refine if_congr ?_ rfl rfl
  show IntOp.cmpi .eq _ _ = 1#1 ↔ _
  rw [IntOp.cmpi_eq, repeatColumn_apply, castColumn_apply, broadcastTo_1b_ab_apply]
  show s (ix1 p) = IntOp.addi (broadcast S1x8192 _ (ix2 (0 : Fin 1) r)) (iota .tc S1x8192 32 [1] Gen.iota_S1x8192_d1_w32 (ix2 (0 : Fin 1) r)) ↔ _
  rw [broadcast_apply, iota_single_apply]
  rfl

/-- The gather's stored block at (p, q): the finished running block times the edge's weight. -/
theorem gather_out_entry (acc : Vec Ideal S1024x64 .f32) (w : Vec Ideal S1024 .f32) (p : Fin 1024) (q : Fin 64) :
    (k4_pay3 (F := Ideal) acc w (ix2 p q) : EReal) = (acc (ix2 p q) : EReal) * (w (ix1 p) : EReal) := by
  unfold k4_pay3
  rw [mulf_apply, repeatColumn_apply, castColumn_apply, shapeCast_self]

/-! ## The scatter -/

/-- One edge tile's step of the scatter at (p, q), for the node tile n: the running block plus the messages of the
    tile's edges whose target word is the row's number. -/
theorem scatter_step_entry (i : grid5.Coords) (d : Vec Ideal S1024 .i32) (msg : Vec Ideal S1024x64 .f32)
    (acc : Vec Ideal S8192x64 .f32) (p : Fin 8192) (q : Fin 64) :
    (k5_pay2 (F := Ideal) i d msg acc (ix2 p q) : EReal)
      = (acc (ix2 p q) : EReal) + ∑ e : Fin 1024, ind (rowWord (i 0).val p = d (ix1 e)) * (msg (ix2 e q) : EReal) := by
  unfold k5_pay2
  dsimp only
  simp only [shapeCast_self]
  rw [addf_apply]
  refine congrArg (fun z => (acc (ix2 p q) : EReal) + z) ?_
  refine (LibMatmulZero.matmul_zero_ix2 dot_S8192x1024_S1024x64_S8192x64_1_0_0_1_n_n rfl rfl rfl rfl
    (fun i c => by
      unfold DotDims.lhsIdx
      rw [dif_neg (show ¬(0 : Fin _) ∈ dot_S8192x1024_S1024x64_S8192x64_1_0_0_1_n_n.lhsBatch by decide),
        dif_pos (show (0 : Fin _) ∈ dot_S8192x1024_S1024x64_S8192x64_1_0_0_1_n_n.lhsNonContracting by decide)]
      rfl)
    (fun i c => by
      unfold DotDims.rhsIdx
      rw [dif_neg (show ¬(1 : Fin _) ∈ dot_S8192x1024_S1024x64_S8192x64_1_0_0_1_n_n.rhsBatch by decide),
        dif_pos (show (1 : Fin _) ∈ dot_S8192x1024_S1024x64_S8192x64_1_0_0_1_n_n.rhsNonContracting by decide)]
      rfl)
    none _ _ p q).trans ?_
  refine Finset.sum_congr rfl fun e _ => ?_
  rw [truncf_apply, truncf_apply, sitofp_apply, extui_apply, bit_to_real]
  refine congrArg (fun z => z * (msg (ix2 e q) : EReal)) ?_
  unfold ind
  refine if_congr ?_ rfl rfl
  show IntOp.cmpi .eq _ _ = 1#1 ↔ _
  rw [IntOp.cmpi_eq, repeatColumn_apply, broadcastTo_1b_ab_apply, shapeCast_a_1a_apply]
  show IntOp.addi (broadcast S8192x1 _ (ix2 p (0 : Fin 1))) (iota .tc S8192x1 32 [0] Gen.iota_S8192x1_d0_w32 (ix2 p (0 : Fin 1))) = d (ix1 e) ↔ _
  rw [broadcast_apply, iota_single_apply]
  rfl

/-- The scatter's stored block at (p, q): the finished running block plus the bias of the column. -/
theorem scatter_out_entry (acc : Vec Ideal S8192x64 .f32) (b : Vec Ideal S64 .f32) (p : Fin 8192) (q : Fin 64) :
    (k5_pay3 (F := Ideal) acc b (ix2 p q) : EReal) = (acc (ix2 p q) : EReal) + (b (ix1 q) : EReal) := by
  unfold k5_pay3
  rw [addf_apply, broadcastTo_1b_ab_apply, shapeCast_a_1a_apply]

/-- The running blocks start at zero: what the first tile's step finds. -/
theorem gather_init_entry (j : S1024x64.Idx) : (k4_pay1 (F := Ideal) j : EReal) = 0 := by
  unfold k4_pay1
  rw [shapeCast_self, broadcast_apply]
  exact Ideal.ofBits_zero_f32

theorem scatter_init_entry (j : S8192x64.Idx) : (k5_pay1 (F := Ideal) j : EReal) = 0 := by
  unfold k5_pay1
  rw [shapeCast_self, broadcast_apply]
  exact Ideal.ofBits_zero_f32

end Cert.Proof.Payloads3

end
-- ==== Proof.Value3.lean ====
/-
  What the dense transform's region (kernel call 3) leaves in its result array, at the ideal values: point t writes back
  rows 8192 t … 8192 t + 8191, each the product of the node table's row with the weight matrix, and the 13 points cover the
  106496 rows; so the array ends as
      (X · W)(r, q) = Σ_{j < 64} X(r, j) · W(j, q)      for every row r of the padded table.
-/
import proofs.«155233_j36086315221040_1_alg».proof.Proof.Region3
import proofs.«155233_j36086315221040_1_alg».proof.Proof.Payloads3
import proofs.«155233_j36086315221040_1_alg».proof.Proof.KSpec
import Idealize.ShloMosaic.Lib.Pipeline.Value

set_option maxRecDepth 16384

noncomputable section

namespace Cert.Proof.KV3

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Proof.KSpec

variable (V : (c : Dev nD) → (b : Ref sig .tc) → Buf (Elt Ideal) ((c : Thread nD τ).loc b))

theorem hz : (![0, 0] : Fin 2 → Nat) = fun _ => 0 := funext fun a => by fin_cases a <;> rfl

/-- The stored block at an entry: a row of the node block against a column of the weights. -/
theorem product_entry (x0 : Vec Ideal S8192x64 .f32) (x1 : Vec Ideal S64x64 .f32) (p : Fin 8192) (q : Fin 64) :
    (R3.product x0 x1 (ix2 p q) : EReal) = ∑ j : Fin 64, (x0 (ix2 p j) : EReal) * (x1 (ix2 j q) : EReal) := by
  unfold R3.product
  rw [View.canon_unit_zero hz]
  simp only [View.ld_unit_zero (S := S8192x64) hz, View.ld_unit_zero (S := S64x64) hz]
  exact Cert.Proof.Payloads3.linear_entry _ _ p q

/-- The index maps over the 13 points: the node tile and the result tile are tile t, the weights do not move. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The result's block is written back at every point. -/
theorem flush_2 : ∀ t : Fin cfg3.N, (cfg3.win 2).flush t = true :=
  (by decide +kernel : ∀ t : Fin grid3.N, win3_2.flush t = true)

/-- What point t writes back is block t of the product of the arrays as the region finds them. -/
theorem flushed_eq (c : Dev nD) (t : Fin cfg3.N) :
    (R3.dat V c).flushed 2 t = ((cfg3.win 2).blk t).view.read (Elt Ideal) (prod64 (V c main_v42) (V c main_arg4)) := by
  show (cfg3.win 2).cut (grid3.coords t) ((R3.dat V c).after 2 t) = _
  rw [R3.after_2]
  obtain ⟨e0, e1, e2, e3, e4, e5⟩ := idx_facts t
  funext j
  obtain ⟨p, q, rfl⟩ : ∃ (p : Fin 8192) (q : Fin 64), j = ix2 p q := ⟨j 0, j 1, eq_ix2 j⟩
  show (R3.product (R3.blk V c 0 t) (R3.blk V c 1 t) (ix2 p q) : EReal) = prod64 (V c main_v42) (V c main_arg4) (((cfg3.win 2).blk t).view.emb (ix2 p q))
  rw [product_entry]
  unfold prod64
  refine Finset.sum_congr rfl fun k _ => ?_
  have h0 : ((cfg3.win 0).blk t).view.emb (ix2 p k)
      = ix2 (⟨((((cfg3.win 2).blk t).view.emb (ix2 p q)) 0).val, idx2_lt0 _⟩ : Fin 106496) k := by
    funext a; apply Fin.ext
    match a with
    | ⟨0, _⟩ => show win3_0.index t (0 : Fin 2) * 8192 + 1 * p.val = win3_2.index t (0 : Fin 2) * 8192 + 1 * p.val; omega
    | ⟨1, _⟩ => show win3_0.index t (1 : Fin 2) * 64 + 1 * k.val = k.val; omega
  have h1 : ((cfg3.win 1).blk t).view.emb (ix2 k q)
      = ix2 k (⟨((((cfg3.win 2).blk t).view.emb (ix2 p q)) 1).val, idx2_lt1 _⟩ : Fin 64) := by
    funext a; apply Fin.ext
    match a with
    | ⟨0, _⟩ => show win3_1.index t (0 : Fin 2) * 64 + 1 * k.val = k.val; omega
    | ⟨1, _⟩ => show win3_1.index t (1 : Fin 2) * 64 + 1 * q.val = win3_2.index t (1 : Fin 2) * 64 + 1 * q.val; omega
  refine congrArg₂ (fun a b : EReal => a * b) ?_ ?_
  · show V c main_v42 (((cfg3.win 0).blk t).view.emb (ix2 p k)) = _
    rw [h0]
  · show V c main_arg4 (((cfg3.win 1).blk t).view.emb (ix2 k q)) = _
    rw [h1]

/-- An index of the result array is in point t's block iff its row is in tile t. -/
theorem mem_blk (t : Fin cfg3.N) (i : S106496x64.Idx) :
    i ∈ ((cfg3.win 2).blk t).view.set ↔ ∀ a : Fin 2, win3_2.index t a * S8192x64.size a ≤ (i a).val ∧ (i a).val < win3_2.index t a * S8192x64.size a + S8192x64.size a := by
  show i ∈ ((View.whole (Pipeline.arrRef spec3 2)).slice (win3_2.rect t)).set ↔ _
  rw [View.set_slice_whole, Rect.mem_set_unit]
  exact Iff.rfl

/-- Every index is in some point's block: the tile of its row. -/
theorem cover (i : S106496x64.Idx) : ∃ t : Fin cfg3.N, (cfg3.win 2).flush t = true ∧ i ∈ ((cfg3.win 2).blk t).view.set := by
  have hi0 : (i 0).val < 106496 := idx2_lt0 i
  have hi1 : (i 1).val < 64 := idx2_lt1 i
  refine ⟨⟨(i 0).val / 8192, by rw [show cfg3.N = 13 from N_3]; omega⟩, flush_2 _, ?_⟩
  rw [mem_blk]
  obtain ⟨e0, e1, e2, e3, e4, e5⟩ := idx_facts ⟨(i 0).val / 8192, by rw [show cfg3.N = 13 from N_3]; omega⟩
  intro a
  match a with
  | ⟨0, _⟩ => show win3_2.index _ (0 : Fin 2) * 8192 ≤ (i 0).val ∧ (i 0).val < win3_2.index _ (0 : Fin 2) * 8192 + 8192; rw [e4]; show (i 0).val / 8192 * 8192 ≤ (i 0).val ∧ (i 0).val < (i 0).val / 8192 * 8192 + 8192; omega
  | ⟨1, _⟩ => show win3_2.index _ (1 : Fin 2) * 64 ≤ (i 1).val ∧ (i 1).val < win3_2.index _ (1 : Fin 2) * 64 + 64; rw [e5]; omega

/-- THE RESULT ARRAY after the region: the product of the node table and the weights as the region finds them. -/
theorem final (c : Dev nD) : (R3.dat V c).arrAt 2 cfg3.N = prod64 (V c main_v42) (V c main_arg4) :=
  (R3.dat V c).arrAt_eq_of_cover 2 _ (fun t _ => flushed_eq V c t) cover

end Cert.Proof.KV3

end
-- ==== Proof.Value4.lean ====
/-
  What the gather's region (kernel call 4) leaves in its result array, at the ideal values.

  Each case's stores, read back, are the kernel's payloads of what it loaded: a first table tile leaves the tile's
  one-hot product added to zero in the scratch block, a later tile adds its product to what the tile before left, and the
  last tile also stores the scratch times the edge weights.  So after table tile k of edge tile e the scratch holds, at
  (p, q), the products of tiles 0 … k summed, and the row of the result for padded edge 1024 e + p is
      (Σ_{k < 13} Σ_{r < 8192} [ s(1024 e + p) = number of row (k, r) ] · H(8192 k + r, q)) · w(1024 e + p) .
  The 1661 edge tiles' last points write back blocks that cover the array.
-/
import proofs.«155233_j36086315221040_1_alg».proof.Proof.Region4
import proofs.«155233_j36086315221040_1_alg».proof.Proof.Payloads3
import proofs.«155233_j36086315221040_1_alg».proof.Proof.KSpec
import proofs.«155233_j36086315221040_1_alg».proof.Proof.GridFacts2
import Idealize.ShloMosaic.Lib.Pipeline.Value

set_option maxRecDepth 16384

noncomputable section

namespace Cert.Proof.KV4

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.LibOneHot (ind)
open Cert.Proof.Words (rowWord)
open Idealize.ShloMosaic.Tactic
open Cert.Proof.KSpec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## The pieces the runs found, as the kernel's payloads of what it loaded -/

theorem scr_first_eq (c : Dev nD) (i : grid4.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole) (hc0 : R4.isFirst i) (hc1 : ¬R4.isLast i) (x0 : Vec Ideal S1024 .i32) (x1 : Vec Ideal S1024 .f32) (x2 : Vec Ideal S8192x64 .f32) :
    R4.scr_first c i arg2 harg2 arg3 harg3 arg4 harg4 arg5 harg5 arg6 harg6 hc0 hc1 x0 x1 x2 = k4_pay2 (F := Ideal) i x0 x2 (k4_pay1 (F := Ideal)) := by
  unfold R4.scr_first
  rw [View.read_writes_eq_canon _ _ _ (R4.scover_first c i arg2 harg2 arg3 harg3 arg4 harg4 arg5 harg5 arg6 harg6 hc0 hc1 x0 x1 x2)]
  unfold R4.run_first
  dsimp only
  sl_unfold_words
  rw [View.canon_cons_unit_zero hz2]
  simp only [View.readAt_eq_ld, harg2.read_unread, harg3.read_unread, harg4.read_unread, harg6.read_unread,
    View.ld_unit_zero (S := S1024) hz1, View.ld_unit_zero (S := S1024) hz1, View.ld_unit_zero (S := S8192x64) hz2, View.ld_unit_zero (S := S1024x64) hz2,
    View.readCov_unit_zero (S := S1024x64) _ hz2]

theorem scr_mid_eq (c : Dev nD) (i : grid4.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole) (hc0 : ¬R4.isFirst i) (hc1 : ¬R4.isLast i) (x0 : Vec Ideal S1024 .i32) (x1 : Vec Ideal S1024 .f32) (x2 : Vec Ideal S8192x64 .f32) (xs0 : Vec Ideal S1024x64 .f32) :
    R4.scr_mid c i arg2 harg2 arg3 harg3 arg4 harg4 arg5 harg5 arg6 harg6 hc0 hc1 x0 x1 x2 xs0 = k4_pay2 (F := Ideal) i x0 x2 xs0 := by
  unfold R4.scr_mid
  rw [View.read_writes_eq_canon _ _ _ (R4.scover_mid c i arg2 harg2 arg3 harg3 arg4 harg4 arg5 harg5 arg6 harg6 hc0 hc1 x0 x1 x2 xs0)]
  unfold R4.run_mid
  dsimp only
  sl_unfold_words
  rw [View.canon_unit_zero hz2]
  simp only [View.readAt_eq_ld, harg2.read_unread, harg3.read_unread, harg4.read_unread, harg6.read_unread,
    View.ld_unit_zero (S := S1024) hz1, View.ld_unit_zero (S := S1024) hz1, View.ld_unit_zero (S := S8192x64) hz2, View.ld_unit_zero (S := S1024x64) hz2,
    View.readCov_unit_zero (S := S1024x64) _ hz2]

theorem scr_last_eq (c : Dev nD) (i : grid4.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole) (hc0 : ¬R4.isFirst i) (hc1 : R4.isLast i) (x0 : Vec Ideal S1024 .i32) (x1 : Vec Ideal S1024 .f32) (x2 : Vec Ideal S8192x64 .f32) (xs0 : Vec Ideal S1024x64 .f32) :
    R4.scr_last c i arg2 harg2 arg3 harg3 arg4 harg4 arg5 harg5 arg6 harg6 hc0 hc1 x0 x1 x2 xs0 = k4_pay2 (F := Ideal) i x0 x2 xs0 := by
  unfold R4.scr_last
  rw [View.read_writes_eq_canon _ _ _ (R4.scover_last c i arg2 harg2 arg3 harg3 arg4 harg4 arg5 harg5 arg6 harg6 hc0 hc1 x0 x1 x2 xs0)]
  unfold R4.run_last
  dsimp only
  sl_unfold_words
  rw [View.canon_unit_zero hz2]
  simp only [View.readAt_eq_ld, harg2.read_unread, harg3.read_unread, harg4.read_unread, harg6.read_unread,
    View.ld_unit_zero (S := S1024) hz1, View.ld_unit_zero (S := S1024) hz1, View.ld_unit_zero (S := S8192x64) hz2, View.ld_unit_zero (S := S1024x64) hz2,
    View.readCov_unit_zero (S := S1024x64) _ hz2]

theorem out_last_eq (c : Dev nD) (i : grid4.Coords) (arg2 : Memref sig .tc .vmem S1024 .i32) (harg2 : arg2.IsWhole) (arg3 : Memref sig .tc .vmem S1024 .f32) (harg3 : arg3.IsWhole) (arg4 : Memref sig .tc .vmem S8192x64 .f32) (harg4 : arg4.IsWhole) (arg5 : Memref sig .tc .vmem S1024x64 .f32) (harg5 : arg5.IsWhole) (arg6 : Memref sig .tc .vmem S1024x64 .f32) (harg6 : arg6.IsWhole) (hc0 : ¬R4.isFirst i) (hc1 : R4.isLast i) (x0 : Vec Ideal S1024 .i32) (x1 : Vec Ideal S1024 .f32) (x2 : Vec Ideal S8192x64 .f32) (xs0 : Vec Ideal S1024x64 .f32) :
    R4.out_last c i arg2 harg2 arg3 harg3 arg4 harg4 arg5 harg5 arg6 harg6 hc0 hc1 x0 x1 x2 xs0 = k4_pay3 (F := Ideal) (k4_pay2 (F := Ideal) i x0 x2 xs0) x1 := by
  unfold R4.out_last
  rw [View.read_writes_eq_canon _ _ _ (R4.ocover_last c i arg2 harg2 arg3 harg3 arg4 harg4 arg5 harg5 arg6 harg6 hc0 hc1 x0 x1 x2 xs0)]
  unfold R4.run_last
  dsimp only
  sl_unfold_words
  rw [View.canon_unit_zero hz2]
  simp only [View.readAt_eq_ld, harg2.read_unread, harg3.read_unread, harg4.read_unread, harg6.read_unread,
    View.ld_unit_zero (S := S1024) hz1, View.ld_unit_zero (S := S1024) hz1, View.ld_unit_zero (S := S8192x64) hz2, View.ld_unit_zero (S := S1024x64) hz2,
    View.readCov_unit_zero (S := S1024x64) _ hz2]

/-! ## The scratch block, point by point -/

/-- Where the windows sit at point t: edge tile t / 13, table tile t mod 13. -/
theorem idx (t : Fin cfg4.N) : ((grid4.coords t) 1).val = t.val % 13
    ∧ win4_0.index t (0 : Fin 1) = t.val / 13 ∧ win4_1.index t (0 : Fin 1) = t.val / 13
    ∧ win4_2.index t (0 : Fin 2) = t.val % 13 ∧ win4_2.index t (1 : Fin 2) = 0
    ∧ win4_3.index t (0 : Fin 2) = t.val / 13 ∧ win4_3.index t (1 : Fin 2) = 0 := Cert.Proof.GridFacts2.gather_idx t

/-- Table tile k against the source word of padded edge x, at channel q (zero outside the arrays). -/
def tileN (S : S1700864.Idx → BitVec 32) (H : S106496x64.Idx → EReal) (x q k : ℕ) : EReal :=
  if h : x < 1700864 ∧ q < 64 ∧ k < 13 then
    ∑ r : Fin 8192, ind (S (ix1 (⟨x, h.1⟩ : Fin 1700864)) = rowWord k r)
      * H (ix2 (⟨k * 8192 + r.val, by have := r.isLt; omega⟩ : Fin 106496) (⟨q, h.2.1⟩ : Fin 64))
  else 0

/-- One point's step, at an entry: the running block plus the point's table tile against the edge's source word. -/
theorem step_entry (c : Dev nD) (t : Fin cfg4.N) (acc : Vec Ideal S1024x64 .f32) (p : Fin 1024) (q : Fin 64) :
    (k4_pay2 (F := Ideal) (grid4.coords t) (R4.blk V c 0 t) (R4.blk V c 2 t) acc (ix2 p q) : EReal)
      = (acc (ix2 p q) : EReal) + tileN (V c main_v31) (V c main_v43) (1024 * (t.val / 13) + p.val) q.val (t.val % 13) := by
  obtain ⟨e0, e1, e2, e3, e4, e5, e6⟩ := idx t
  have hN : t.val < 21593 := lt_of_lt_of_eq t.isLt N_4
  rw [Cert.Proof.Payloads3.gather_step_entry]
  refine congrArg (fun z : EReal => (acc (ix2 p q) : EReal) + z) ?_
  unfold tileN
  rw [dif_pos ⟨by omega, q.isLt, Nat.mod_lt _ (by norm_num)⟩]
  refine Finset.sum_congr rfl fun r _ => ?_
  refine congrArg₂ (fun a b : EReal => a * b) ?_ ?_
  · have hs : R4.blk V c 0 t (ix1 p) = V c main_v31 (ix1 (⟨1024 * (t.val / 13) + p.val, by omega⟩ : Fin 1700864)) := by
      show V c main_v31 (((cfg4.win 0).blk t).view.emb (ix1 p)) = _
      refine congrArg _ (funext fun a => Fin.ext ?_)
      match a with
      | ⟨0, _⟩ => show win4_0.index t (0 : Fin 1) * 1024 + 1 * p.val = 1024 * (t.val / 13) + p.val; omega
    rw [hs, e0]
  · show V c main_v43 (((cfg4.win 2).blk t).view.emb (ix2 r q)) = _
    refine congrArg _ (funext fun a => Fin.ext ?_)
    match a with
    | ⟨0, _⟩ => show win4_2.index t (0 : Fin 2) * 8192 + 1 * r.val = t.val % 13 * 8192 + r.val; omega
    | ⟨1, _⟩ => show win4_2.index t (1 : Fin 2) * 64 + 1 * q.val = q.val; omega

/-- After the body at position n the scratch block holds, at (p, q), the table tiles 0 … n mod 13 against the source word of
    padded edge 1024 (n / 13) + p, summed. -/
theorem scratch_at (c : Dev nD) : ∀ (n : ℕ) (hn : n < cfg4.N) (p : Fin 1024) (q : Fin 64),
    ((R4.outsAt V c n hn).2 (ix2 p q) : EReal)
      = ∑ k ∈ Finset.range (n % 13 + 1), tileN (V c main_v31) (V c main_v43) (1024 * (n / 13) + p.val) q.val k := by
  intro n
  induction n with
  | zero =>
    intro hn p q
    rw [R4.outsAt_first V c ⟨0, hn⟩ (Nat.zero_mod 13) (by show ¬ 0 % 13 = 12; decide)]
    dsimp only
    rw [scr_first_eq, step_entry V c ⟨0, hn⟩, Cert.Proof.Payloads3.gather_init_entry, zero_add]
    dsimp only
    simp
  | succ n ih =>
    intro hn p q
    have hN : n + 1 < 21593 := lt_of_lt_of_eq hn N_4
    by_cases h0 : (n + 1) % 13 = 0
    · have h1 : ¬(n + 1) % 13 = 12 := by omega
      rw [R4.outsAt_first V c ⟨n + 1, hn⟩ h0 h1]
      dsimp only
      rw [scr_first_eq, step_entry V c ⟨n + 1, hn⟩, Cert.Proof.Payloads3.gather_init_entry, zero_add]
      dsimp only
      rw [h0]; simp
    · have hprev := ih (Nat.lt_of_succ_lt hn) p q
      have hdiv : n / 13 = (n + 1) / 13 := by omega
      have hmod : n % 13 + 1 = (n + 1) % 13 := by omega
      by_cases h1 : (n + 1) % 13 = 12
      · rw [R4.outsAt_last V c ⟨n + 1, hn⟩ h0 h1]
        dsimp only
        rw [scr_last_eq, step_entry V c ⟨n + 1, hn⟩]
        dsimp only
        simp only [Nat.add_sub_cancel]
        rw [← hmod, ← hdiv, Finset.sum_range_succ]
        exact congrArg (fun z : EReal => z + tileN _ _ _ _ _) hprev
      · rw [R4.outsAt_mid V c ⟨n + 1, hn⟩ h0 h1]
        dsimp only
        rw [scr_mid_eq, step_entry V c ⟨n + 1, hn⟩]
        dsimp only
        simp only [Nat.add_sub_cancel]
        rw [← hmod, ← hdiv, Finset.sum_range_succ]
        exact congrArg (fun z : EReal => z + tileN _ _ _ _ _) hprev

/-! ## From the last points' blocks to the array -/

/-- All thirteen table tiles, as the array's entry spells them. -/
theorem tiles_all (S : S1700864.Idx → BitVec 32) (H : S106496x64.Idx → EReal) (x : Fin 1700864) (q : Fin 64) :
    ∑ k ∈ Finset.range 13, tileN S H x.val q.val k
      = ∑ k : Fin 13, ∑ r : Fin 8192, ind (S (ix1 x) = rowWord k.val r)
          * H (ix2 (⟨k.val * 8192 + r.val, by have := k.isLt; have := r.isLt; omega⟩ : Fin 106496) q) := by
  rw [Finset.sum_range]
  refine Finset.sum_congr rfl fun k _ => ?_
  unfold tileN
  rw [dif_pos ⟨x.isLt, q.isLt, k.isLt⟩]

/-- WHAT AN EDGE TILE'S LAST POINT WRITES BACK is its block of the gather's array. -/
theorem flushed_eq (c : Dev nD) (t : Fin cfg4.N) (hf : (cfg4.win 3).flush t = true) :
    (R4.dat V c).flushed 3 t = ((cfg4.win 3).blk t).view.read (Elt Ideal) (msgArr64 (V c main_v31) (V c main_v35) (V c main_v43)) := by
  have h1 : t.val % 13 = 12 := (R4.flush_3 t).mp hf
  have h0 : ¬ t.val % 13 = 0 := by omega
  obtain ⟨e0, e1, e2, e3, e4, e5, e6⟩ := idx t
  have hN : t.val < 21593 := lt_of_lt_of_eq t.isLt N_4
  have hscr : k4_pay2 (F := Ideal) (grid4.coords t) (R4.blk V c 0 t) (R4.blk V c 2 t) (R4.outsAt V c (t.val - 1) (Nat.lt_of_le_of_lt (Nat.sub_le _ _) t.isLt)).2
      = (R4.outsAt V c t.val t.isLt).2 := by
    rw [R4.outsAt_last V c t h0 h1]; dsimp only; rw [scr_last_eq]
  show (cfg4.win 3).cut (grid4.coords t) ((R4.dat V c).after 3 t) = _
  rw [R4.after_3, R4.outsAt_last V c t h0 h1]
  dsimp only
  rw [out_last_eq, hscr]
  funext j
  obtain ⟨p, q, rfl⟩ : ∃ (p : Fin 1024) (q : Fin 64), j = ix2 p q := ⟨j 0, j 1, eq_ix2 j⟩
  show (k4_pay3 (F := Ideal) (R4.outsAt V c t.val t.isLt).2 (R4.blk V c 1 t) (ix2 p q) : EReal)
    = msgArr64 (V c main_v31) (V c main_v35) (V c main_v43) (((cfg4.win 3).blk t).view.emb (ix2 p q))
  rw [Cert.Proof.Payloads3.gather_out_entry, scratch_at V c t.val t.isLt p q, h1]
  have hx0 : ((((cfg4.win 3).blk t).view.emb (ix2 p q)) 0).val = 1024 * (t.val / 13) + p.val := by
    show win4_3.index t (0 : Fin 2) * 1024 + 1 * p.val = _; omega
  have hx1 : ((((cfg4.win 3).blk t).view.emb (ix2 p q)) 1).val = q.val := by
    show win4_3.index t (1 : Fin 2) * 64 + 1 * q.val = _; omega
  unfold msgArr64
  have hxlt : 1024 * (t.val / 13) + p.val < 1700864 := by omega
  have hrow : (⟨((((cfg4.win 3).blk t).view.emb (ix2 p q)) 0).val, idx2_lt0 _⟩ : Fin 1700864) = ⟨1024 * (t.val / 13) + p.val, hxlt⟩ := Fin.ext hx0
  have hcol : (⟨((((cfg4.win 3).blk t).view.emb (ix2 p q)) 1).val, idx2_lt1 _⟩ : Fin 64) = q := Fin.ext hx1
  rw [hrow, hcol]
  refine congrArg₂ (fun a b : EReal => a * b) ?_ ?_
  · exact tiles_all (V c main_v31) (V c main_v43) ⟨1024 * (t.val / 13) + p.val, hxlt⟩ q
  · show V c main_v35 (((cfg4.win 1).blk t).view.emb (ix1 p)) = _
    refine congrArg _ (funext fun a => Fin.ext ?_)
    match a with
    | ⟨0, _⟩ => show win4_1.index t (0 : Fin 1) * 1024 + 1 * p.val = 1024 * (t.val / 13) + p.val; omega

/-- An index of the gather's array is in point t's block iff its row is in edge tile t / 13. -/
theorem mem_blk (t : Fin cfg4.N) (i : S1700864x64.Idx) :
    i ∈ ((cfg4.win 3).blk t).view.set ↔ ∀ a : Fin 2, win4_3.index t a * S1024x64.size a ≤ (i a).val ∧ (i a).val < win4_3.index t a * S1024x64.size a + S1024x64.size a := by
  show i ∈ ((View.whole (Pipeline.arrRef spec4 3)).slice (win4_3.rect t)).set ↔ _
  rw [View.set_slice_whole, Rect.mem_set_unit]
  exact Iff.rfl

/-- Every index is in the block of its edge tile's last point. -/
theorem cover (i : S1700864x64.Idx) : ∃ t : Fin cfg4.N, (cfg4.win 3).flush t = true ∧ i ∈ ((cfg4.win 3).blk t).view.set := by
  have hi0 : (i 0).val < 1700864 := idx2_lt0 i
  have hi1 : (i 1).val < 64 := idx2_lt1 i
  have hlt : 13 * ((i 0).val / 1024) + 12 < cfg4.N := by rw [show cfg4.N = 21593 from N_4]; omega
  refine ⟨⟨13 * ((i 0).val / 1024) + 12, hlt⟩, (R4.flush_3 _).mpr (by show (13 * ((i 0).val / 1024) + 12) % 13 = 12; omega), ?_⟩
  rw [mem_blk]
  obtain ⟨e0, e1, e2, e3, e4, e5, e6⟩ := idx ⟨13 * ((i 0).val / 1024) + 12, hlt⟩
  intro a
  match a with
  | ⟨0, _⟩ =>
    show win4_3.index _ (0 : Fin 2) * 1024 ≤ (i 0).val ∧ (i 0).val < win4_3.index _ (0 : Fin 2) * 1024 + 1024
    rw [e5]; show (13 * ((i 0).val / 1024) + 12) / 13 * 1024 ≤ (i 0).val ∧ (i 0).val < (13 * ((i 0).val / 1024) + 12) / 13 * 1024 + 1024
    have : (13 * ((i 0).val / 1024) + 12) / 13 = (i 0).val / 1024 := by omega
    rw [this]; omega
  | ⟨1, _⟩ =>
    show win4_3.index _ (1 : Fin 2) * 64 ≤ (i 1).val ∧ (i 1).val < win4_3.index _ (1 : Fin 2) * 64 + 64
    rw [e6]; omega

/-- THE GATHER'S ARRAY after the region. -/
theorem final (c : Dev nD) : (R4.dat V c).arrAt 3 cfg4.N = msgArr64 (V c main_v31) (V c main_v35) (V c main_v43) :=
  (R4.dat V c).arrAt_eq_of_cover 3 _ (fun t hf => flushed_eq V c t hf) cover

end Cert.Proof.KV4

end
-- ==== Proof.Value5.lean ====
/-
  What the scatter's region (kernel call 5) leaves in its result array, at the ideal values.

  Each case's stores, read back, are the kernel's payloads of what it loaded: a first edge tile leaves the tile's one-hot
  product added to zero in the scratch block, a later tile adds its product to what the tile before left, and the last
  tile also stores the scratch plus the bias row.  So after edge tile e of node tile n the scratch holds, at (p, q), the
  products of tiles 0 … e summed, and the row of the result for padded node 8192 n + p is
      Σ_{e < 1661} Σ_{x < 1024} [ number of row (n, p) = d(1024 e + x) ] · msg(1024 e + x, q)  +  b(q) .
  The 13 node tiles' last points write back blocks that cover the array.
-/
import proofs.«155233_j36086315221040_1_alg».proof.Proof.Region5
import proofs.«155233_j36086315221040_1_alg».proof.Proof.Payloads3
import proofs.«155233_j36086315221040_1_alg».proof.Proof.KSpec
import proofs.«155233_j36086315221040_1_alg».proof.Proof.GridFacts2
import Idealize.ShloMosaic.Lib.Pipeline.Value

set_option maxRecDepth 16384

noncomputable section

namespace Cert.Proof.KV5

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.LibOneHot (ind)
open Cert.Proof.Words (rowWord)
open Idealize.ShloMosaic.Tactic
open Cert.Proof.KSpec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## The pieces the runs found, as the kernel's payloads of what it loaded -/

theorem scr_first_eq (c : Dev nD) (i : grid5.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole) (hc0 : R5.isFirst i) (hc1 : ¬R5.isLast i) (x0 : Vec Ideal S1024 .i32) (x1 : Vec Ideal S1024x64 .f32) (x2 : Vec Ideal S64 .f32) :
    R5.scr_first c i arg2 harg2 arg3 harg3 arg4 harg4 arg5 harg5 arg6 harg6 hc0 hc1 x0 x1 x2 = k5_pay2 (F := Ideal) i x0 x1 (k5_pay1 (F := Ideal)) := by
  unfold R5.scr_first
  rw [View.read_writes_eq_canon _ _ _ (R5.scover_first c i arg2 harg2 arg3 harg3 arg4 harg4 arg5 harg5 arg6 harg6 hc0 hc1 x0 x1 x2)]
  unfold R5.run_first
  dsimp only
  sl_unfold_words
  rw [View.canon_cons_unit_zero hz2]
  simp only [View.readAt_eq_ld, harg2.read_unread, harg3.read_unread, harg4.read_unread, harg6.read_unread,
    View.ld_unit_zero (S := S1024) hz1, View.ld_unit_zero (S := S1024x64) hz2, View.ld_unit_zero (S := S64) hz1, View.ld_unit_zero (S := S8192x64) hz2,
    View.readCov_unit_zero (S := S8192x64) _ hz2]

theorem scr_mid_eq (c : Dev nD) (i : grid5.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole) (hc0 : ¬R5.isFirst i) (hc1 : ¬R5.isLast i) (x0 : Vec Ideal S1024 .i32) (x1 : Vec Ideal S1024x64 .f32) (x2 : Vec Ideal S64 .f32) (xs0 : Vec Ideal S8192x64 .f32) :
    R5.scr_mid c i arg2 harg2 arg3 harg3 arg4 harg4 arg5 harg5 arg6 harg6 hc0 hc1 x0 x1 x2 xs0 = k5_pay2 (F := Ideal) i x0 x1 xs0 := by
  unfold R5.scr_mid
  rw [View.read_writes_eq_canon _ _ _ (R5.scover_mid c i arg2 harg2 arg3 harg3 arg4 harg4 arg5 harg5 arg6 harg6 hc0 hc1 x0 x1 x2 xs0)]
  unfold R5.run_mid
  dsimp only
  sl_unfold_words
  rw [View.canon_unit_zero hz2]
  simp only [View.readAt_eq_ld, harg2.read_unread, harg3.read_unread, harg4.read_unread, harg6.read_unread,
    View.ld_unit_zero (S := S1024) hz1, View.ld_unit_zero (S := S1024x64) hz2, View.ld_unit_zero (S := S64) hz1, View.ld_unit_zero (S := S8192x64) hz2,
    View.readCov_unit_zero (S := S8192x64) _ hz2]

theorem scr_last_eq (c : Dev nD) (i : grid5.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole) (hc0 : ¬R5.isFirst i) (hc1 : R5.isLast i) (x0 : Vec Ideal S1024 .i32) (x1 : Vec Ideal S1024x64 .f32) (x2 : Vec Ideal S64 .f32) (xs0 : Vec Ideal S8192x64 .f32) :
    R5.scr_last c i arg2 harg2 arg3 harg3 arg4 harg4 arg5 harg5 arg6 harg6 hc0 hc1 x0 x1 x2 xs0 = k5_pay2 (F := Ideal) i x0 x1 xs0 := by
  unfold R5.scr_last
  rw [View.read_writes_eq_canon _ _ _ (R5.scover_last c i arg2 harg2 arg3 harg3 arg4 harg4 arg5 harg5 arg6 harg6 hc0 hc1 x0 x1 x2 xs0)]
  unfold R5.run_last
  dsimp only
  sl_unfold_words
  rw [View.canon_unit_zero hz2]
  simp only [View.readAt_eq_ld, harg2.read_unread, harg3.read_unread, harg4.read_unread, harg6.read_unread,
    View.ld_unit_zero (S := S1024) hz1, View.ld_unit_zero (S := S1024x64) hz2, View.ld_unit_zero (S := S64) hz1, View.ld_unit_zero (S := S8192x64) hz2,
    View.readCov_unit_zero (S := S8192x64) _ hz2]

theorem out_last_eq (c : Dev nD) (i : grid5.Coords) (arg2 : Memref sig .tc .vmem S1024 .i32) (harg2 : arg2.IsWhole) (arg3 : Memref sig .tc .vmem S1024x64 .f32) (harg3 : arg3.IsWhole) (arg4 : Memref sig .tc .vmem S64 .f32) (harg4 : arg4.IsWhole) (arg5 : Memref sig .tc .vmem S8192x64 .f32) (harg5 : arg5.IsWhole) (arg6 : Memref sig .tc .vmem S8192x64 .f32) (harg6 : arg6.IsWhole) (hc0 : ¬R5.isFirst i) (hc1 : R5.isLast i) (x0 : Vec Ideal S1024 .i32) (x1 : Vec Ideal S1024x64 .f32) (x2 : Vec Ideal S64 .f32) (xs0 : Vec Ideal S8192x64 .f32) :
    R5.out_last c i arg2 harg2 arg3 harg3 arg4 harg4 arg5 harg5 arg6 harg6 hc0 hc1 x0 x1 x2 xs0 = k5_pay3 (F := Ideal) (k5_pay2 (F := Ideal) i x0 x1 xs0) x2 := by
  unfold R5.out_last
  rw [View.read_writes_eq_canon _ _ _ (R5.ocover_last c i arg2 harg2 arg3 harg3 arg4 harg4 arg5 harg5 arg6 harg6 hc0 hc1 x0 x1 x2 xs0)]
  unfold R5.run_last
  dsimp only
  sl_unfold_words
  rw [View.canon_unit_zero hz2]
  simp only [View.readAt_eq_ld, harg2.read_unread, harg3.read_unread, harg4.read_unread, harg6.read_unread,
    View.ld_unit_zero (S := S1024) hz1, View.ld_unit_zero (S := S1024x64) hz2, View.ld_unit_zero (S := S64) hz1, View.ld_unit_zero (S := S8192x64) hz2,
    View.readCov_unit_zero (S := S8192x64) _ hz2]

/-! ## The scratch block, point by point -/

/-- Where the windows sit at point t: node tile t / 1661, edge tile t mod 1661. -/
theorem idx (t : Fin cfg5.N) : ((grid5.coords t) 0).val = t.val / 1661
    ∧ win5_0.index t (0 : Fin 1) = t.val % 1661 ∧ win5_1.index t (0 : Fin 2) = t.val % 1661 ∧ win5_1.index t (1 : Fin 2) = 0
    ∧ win5_2.index t (0 : Fin 1) = 0
    ∧ win5_3.index t (0 : Fin 2) = t.val / 1661 ∧ win5_3.index t (1 : Fin 2) = 0 := Cert.Proof.GridFacts2.scatter_idx t

/-- Edge tile e against the number of padded node row n, at channel q (zero outside the arrays). -/
def tileS (D : S1700864.Idx → BitVec 32) (M : S1700864x64.Idx → EReal) (n q e : ℕ) : EReal :=
  if h : n < 106496 ∧ q < 64 ∧ e < 1661 then
    ∑ x : Fin 1024, ind (rowWord (n / 8192) (⟨n % 8192, Nat.mod_lt _ (by norm_num)⟩ : Fin 8192) = D (ix1 (⟨e * 1024 + x.val, by have := x.isLt; omega⟩ : Fin 1700864)))
      * M (ix2 (⟨e * 1024 + x.val, by have := x.isLt; omega⟩ : Fin 1700864) (⟨q, h.2.1⟩ : Fin 64))
  else 0

/-- One point's step, at an entry: the running block plus the point's edge tile against the row's number. -/
theorem step_entry (c : Dev nD) (t : Fin cfg5.N) (acc : Vec Ideal S8192x64 .f32) (p : Fin 8192) (q : Fin 64) :
    (k5_pay2 (F := Ideal) (grid5.coords t) (R5.blk V c 0 t) (R5.blk V c 1 t) acc (ix2 p q) : EReal)
      = (acc (ix2 p q) : EReal) + tileS (V c main_v33) (V c main_v44) (8192 * (t.val / 1661) + p.val) q.val (t.val % 1661) := by
  obtain ⟨e0, e1, e2, e3, e4, e5, e6⟩ := idx t
  have hN : t.val < 21593 := lt_of_lt_of_eq t.isLt N_5
  rw [Cert.Proof.Payloads3.scatter_step_entry]
  refine congrArg (fun z : EReal => (acc (ix2 p q) : EReal) + z) ?_
  unfold tileS
  rw [dif_pos ⟨by omega, q.isLt, Nat.mod_lt _ (by norm_num)⟩]
  have hq : (8192 * (t.val / 1661) + p.val) / 8192 = t.val / 1661 := by have := p.isLt; omega
  have hp : (⟨(8192 * (t.val / 1661) + p.val) % 8192, Nat.mod_lt _ (by norm_num)⟩ : Fin 8192) = p := Fin.ext (by show (8192 * (t.val / 1661) + p.val) % 8192 = p.val; have := p.isLt; omega)
  rw [hq, hp, e0]
  refine Finset.sum_congr rfl fun x _ => ?_
  refine congrArg₂ (fun a b : EReal => a * b) ?_ ?_
  · have hd : R5.blk V c 0 t (ix1 x) = V c main_v33 (ix1 (⟨t.val % 1661 * 1024 + x.val, by have := x.isLt; omega⟩ : Fin 1700864)) := by
      show V c main_v33 (((cfg5.win 0).blk t).view.emb (ix1 x)) = _
      refine congrArg _ (funext fun a => Fin.ext ?_)
      match a with
      | ⟨0, _⟩ => show win5_0.index t (0 : Fin 1) * 1024 + 1 * x.val = t.val % 1661 * 1024 + x.val; omega
    rw [hd]
  · show V c main_v44 (((cfg5.win 1).blk t).view.emb (ix2 x q)) = _
    refine congrArg _ (funext fun a => Fin.ext ?_)
    match a with
    | ⟨0, _⟩ => show win5_1.index t (0 : Fin 2) * 1024 + 1 * x.val = t.val % 1661 * 1024 + x.val; omega
    | ⟨1, _⟩ => show win5_1.index t (1 : Fin 2) * 64 + 1 * q.val = q.val; omega

/-- After the body at position n the scratch block holds, at (p, q), the edge tiles 0 … n mod 1661 against the number of
    padded node row 8192 (n / 1661) + p, summed. -/
theorem scratch_at (c : Dev nD) : ∀ (n : ℕ) (hn : n < cfg5.N) (p : Fin 8192) (q : Fin 64),
    ((R5.outsAt V c n hn).2 (ix2 p q) : EReal)
      = ∑ e ∈ Finset.range (n % 1661 + 1), tileS (V c main_v33) (V c main_v44) (8192 * (n / 1661) + p.val) q.val e := by
  intro n
  induction n with
  | zero =>
    intro hn p q
    rw [R5.outsAt_first V c ⟨0, hn⟩ (Nat.zero_mod 1661) (by show ¬ 0 % 1661 = 1660; decide)]
    dsimp only
    rw [scr_first_eq, step_entry V c ⟨0, hn⟩, Cert.Proof.Payloads3.scatter_init_entry, zero_add]
    dsimp only
    simp
  | succ n ih =>
    intro hn p q
    have hN : n + 1 < 21593 := lt_of_lt_of_eq hn N_5
    by_cases h0 : (n + 1) % 1661 = 0
    · have h1 : ¬(n + 1) % 1661 = 1660 := by omega
      rw [R5.outsAt_first V c ⟨n + 1, hn⟩ h0 h1]
      dsimp only
      rw [scr_first_eq, step_entry V c ⟨n + 1, hn⟩, Cert.Proof.Payloads3.scatter_init_entry, zero_add]
      dsimp only
      rw [h0]; simp
    · have hprev := ih (Nat.lt_of_succ_lt hn) p q
      have hdiv : n / 1661 = (n + 1) / 1661 := by omega
      have hmod : n % 1661 + 1 = (n + 1) % 1661 := by omega
      by_cases h1 : (n + 1) % 1661 = 1660
      · rw [R5.outsAt_last V c ⟨n + 1, hn⟩ h0 h1]
        dsimp only
        rw [scr_last_eq, step_entry V c ⟨n + 1, hn⟩]
        dsimp only
        simp only [Nat.add_sub_cancel]
        rw [← hmod, ← hdiv, Finset.sum_range_succ]
        exact congrArg (fun z : EReal => z + tileS _ _ _ _ _) hprev
      · rw [R5.outsAt_mid V c ⟨n + 1, hn⟩ h0 h1]
        dsimp only
        rw [scr_mid_eq, step_entry V c ⟨n + 1, hn⟩]
        dsimp only
        simp only [Nat.add_sub_cancel]
        rw [← hmod, ← hdiv, Finset.sum_range_succ]
        exact congrArg (fun z : EReal => z + tileS _ _ _ _ _) hprev

/-! ## From the last points' blocks to the array -/

/-- All 1661 edge tiles, as the array's entry spells them. -/
theorem tiles_all (D : S1700864.Idx → BitVec 32) (M : S1700864x64.Idx → EReal) (n : Fin 106496) (q : Fin 64) :
    ∑ e ∈ Finset.range 1661, tileS D M n.val q.val e
      = ∑ t : Fin 1661, ∑ x : Fin 1024,
          ind (rowWord (n.val / 8192) (⟨n.val % 8192, Nat.mod_lt _ (by norm_num)⟩ : Fin 8192) = D (ix1 (⟨t.val * 1024 + x.val, by have := t.isLt; have := x.isLt; omega⟩ : Fin 1700864)))
            * M (ix2 (⟨t.val * 1024 + x.val, by have := t.isLt; have := x.isLt; omega⟩ : Fin 1700864) q) := by
  rw [Finset.sum_range]
  refine Finset.sum_congr rfl fun t _ => ?_
  unfold tileS
  rw [dif_pos ⟨n.isLt, q.isLt, t.isLt⟩]

/-- WHAT A NODE TILE'S LAST POINT WRITES BACK is its block of the scatter's array. -/
theorem flushed_eq (c : Dev nD) (t : Fin cfg5.N) (hf : (cfg5.win 3).flush t = true) :
    (R5.dat V c).flushed 3 t = ((cfg5.win 3).blk t).view.read (Elt Ideal) (outArr64 (V c main_v33) (V c main_v44) (V c main_arg5)) := by
  have h1 : t.val % 1661 = 1660 := (R5.flush_3 t).mp hf
  have h0 : ¬ t.val % 1661 = 0 := by omega
  obtain ⟨e0, e1, e2, e3, e4, e5, e6⟩ := idx t
  have hN : t.val < 21593 := lt_of_lt_of_eq t.isLt N_5
  have hscr : k5_pay2 (F := Ideal) (grid5.coords t) (R5.blk V c 0 t) (R5.blk V c 1 t) (R5.outsAt V c (t.val - 1) (Nat.lt_of_le_of_lt (Nat.sub_le _ _) t.isLt)).2
      = (R5.outsAt V c t.val t.isLt).2 := by
    rw [R5.outsAt_last V c t h0 h1]; dsimp only; rw [scr_last_eq]
  show (cfg5.win 3).cut (grid5.coords t) ((R5.dat V c).after 3 t) = _
  rw [R5.after_3, R5.outsAt_last V c t h0 h1]
  dsimp only
  rw [out_last_eq, hscr]
  funext j
  obtain ⟨p, q, rfl⟩ : ∃ (p : Fin 8192) (q : Fin 64), j = ix2 p q := ⟨j 0, j 1, eq_ix2 j⟩
  show (k5_pay3 (F := Ideal) (R5.outsAt V c t.val t.isLt).2 (R5.blk V c 2 t) (ix2 p q) : EReal)
    = outArr64 (V c main_v33) (V c main_v44) (V c main_arg5) (((cfg5.win 3).blk t).view.emb (ix2 p q))
  rw [Cert.Proof.Payloads3.scatter_out_entry, scratch_at V c t.val t.isLt p q, h1]
  have hx0 : ((((cfg5.win 3).blk t).view.emb (ix2 p q)) 0).val = 8192 * (t.val / 1661) + p.val := by
    show win5_3.index t (0 : Fin 2) * 8192 + 1 * p.val = _; omega
  have hx1 : ((((cfg5.win 3).blk t).view.emb (ix2 p q)) 1).val = q.val := by
    show win5_3.index t (1 : Fin 2) * 64 + 1 * q.val = _; omega
  unfold outArr64
  have hxlt : 8192 * (t.val / 1661) + p.val < 106496 := by have := p.isLt; omega
  have hcol : (⟨((((cfg5.win 3).blk t).view.emb (ix2 p q)) 1).val, idx2_lt1 _⟩ : Fin 64) = q := Fin.ext hx1
  rw [hcol]
  simp only [hx0]
  refine congrArg₂ (fun a b : EReal => a + b) ?_ ?_
  · exact tiles_all (V c main_v33) (V c main_v44) ⟨8192 * (t.val / 1661) + p.val, hxlt⟩ q
  · show V c main_arg5 (((cfg5.win 2).blk t).view.emb (ix1 q)) = _
    refine congrArg _ (funext fun a => Fin.ext ?_)
    match a with
    | ⟨0, _⟩ => show win5_2.index t (0 : Fin 1) * 64 + 1 * q.val = q.val; omega

/-- An index of the scatter's array is in point t's block iff its row is in node tile t / 1661. -/
theorem mem_blk (t : Fin cfg5.N) (i : S106496x64.Idx) :
    i ∈ ((cfg5.win 3).blk t).view.set ↔ ∀ a : Fin 2, win5_3.index t a * S8192x64.size a ≤ (i a).val ∧ (i a).val < win5_3.index t a * S8192x64.size a + S8192x64.size a := by
  show i ∈ ((View.whole (Pipeline.arrRef spec5 3)).slice (win5_3.rect t)).set ↔ _
  rw [View.set_slice_whole, Rect.mem_set_unit]
  exact Iff.rfl

/-- Every index is in the block of its node tile's last point. -/
theorem cover (i : S106496x64.Idx) : ∃ t : Fin cfg5.N, (cfg5.win 3).flush t = true ∧ i ∈ ((cfg5.win 3).blk t).view.set := by
  have hi0 : (i 0).val < 106496 := idx2_lt0 i
  have hi1 : (i 1).val < 64 := idx2_lt1 i
  have hlt : 1661 * ((i 0).val / 8192) + 1660 < cfg5.N := by rw [show cfg5.N = 21593 from N_5]; omega
  refine ⟨⟨1661 * ((i 0).val / 8192) + 1660, hlt⟩, (R5.flush_3 _).mpr (by show (1661 * ((i 0).val / 8192) + 1660) % 1661 = 1660; omega), ?_⟩
  rw [mem_blk]
  obtain ⟨e0, e1, e2, e3, e4, e5, e6⟩ := idx ⟨1661 * ((i 0).val / 8192) + 1660, hlt⟩
  intro a
  match a with
  | ⟨0, _⟩ =>
    show win5_3.index _ (0 : Fin 2) * 8192 ≤ (i 0).val ∧ (i 0).val < win5_3.index _ (0 : Fin 2) * 8192 + 8192
    rw [e5]; show (1661 * ((i 0).val / 8192) + 1660) / 1661 * 8192 ≤ (i 0).val ∧ (i 0).val < (1661 * ((i 0).val / 8192) + 1660) / 1661 * 8192 + 8192
    have : (1661 * ((i 0).val / 8192) + 1660) / 1661 = (i 0).val / 8192 := by omega
    rw [this]; omega
  | ⟨1, _⟩ =>
    show win5_3.index _ (1 : Fin 2) * 64 ≤ (i 1).val ∧ (i 1).val < win5_3.index _ (1 : Fin 2) * 64 + 64
    rw [e6]; omega

/-- THE SCATTER'S ARRAY after the region. -/
theorem final (c : Dev nD) : (R5.dat V c).arrAt 3 cfg5.N = outArr64 (V c main_v33) (V c main_v44) (V c main_arg5) :=
  (R5.dat V c).arrAt_eq_of_cover 3 _ (fun t hf => flushed_eq V c t hf) cover

end Cert.Proof.KV5

end
-- ==== Proof.Payloads6.lean ====
/-
  The three kernels of layer 3 read at one entry at the ideal values: the same statements as for the first layer, for this
  layer's kernels (32 output channels).
-/
import proofs.«155233_j36086315221040_1_alg».proof.Proof.Payloads

set_option maxRecDepth 16384

noncomputable section

namespace Cert.Proof.Payloads6

open Idealize.ShloMosaic Idealize.ShloMosaic.ValueIdx Cert.KernelIdeal Cert.KernelIdeal.Gen
open Cert.KernelIdeal.Facts₀ Cert.KernelIdeal.Facts
open Cert.LibOneHot (ind)
open Cert.Proof.Words (rowWord)
open Cert.Proof.Payloads (castColumn_apply repeatColumn_apply bit_to_real)

/-! ## The dense transform -/

/-- The transform's stored block at (p, q): row p of the node block against column q of the weights. -/
theorem linear_entry (x : Vec Ideal S8192x64 .f32) (w : Vec Ideal S64x32 .f32) (p : Fin 8192) (q : Fin 32) :
    (k6_pay1 (F := Ideal) x w (ix2 p q) : EReal) = ∑ j : Fin 64, (x (ix2 p j) : EReal) * (w (ix2 j q) : EReal) := by
  unfold k6_pay1
  rw [shapeCast_self]
  exact LibMatmulZero.matmul_zero_ix2 dot_S8192x64_S64x32_S8192x32_1_0_0_1_n_n rfl rfl rfl rfl
    (fun i c => by
      unfold DotDims.lhsIdx
      rw [dif_neg (show ¬(0 : Fin _) ∈ dot_S8192x64_S64x32_S8192x32_1_0_0_1_n_n.lhsBatch by decide),
        dif_pos (show (0 : Fin _) ∈ dot_S8192x64_S64x32_S8192x32_1_0_0_1_n_n.lhsNonContracting by decide)]
      rfl)
    (fun i c => by
      unfold DotDims.rhsIdx
      rw [dif_neg (show ¬(1 : Fin _) ∈ dot_S8192x64_S64x32_S8192x32_1_0_0_1_n_n.rhsBatch by decide),
        dif_pos (show (1 : Fin _) ∈ dot_S8192x64_S64x32_S8192x32_1_0_0_1_n_n.rhsNonContracting by decide)]
      rfl)
    none _ _ p q

/-! ## The gather -/

/-- One tile's step of the gather at (p, q): the running block plus the rows of the table tile whose number the
    edge's source word is. -/
theorem gather_step_entry (i : grid7.Coords) (s : Vec Ideal S1024 .i32) (h : Vec Ideal S8192x32 .f32)
    (acc : Vec Ideal S1024x32 .f32) (p : Fin 1024) (q : Fin 32) :
    (k7_pay2 (F := Ideal) i s h acc (ix2 p q) : EReal)
      = (acc (ix2 p q) : EReal) + ∑ r : Fin 8192, ind (s (ix1 p) = rowWord (i 1).val r) * (h (ix2 r q) : EReal) := by
  unfold k7_pay2
  dsimp only
  simp only [shapeCast_self]
  rw [addf_apply]
  refine congrArg (fun z => (acc (ix2 p q) : EReal) + z) ?_
  refine (LibMatmulZero.matmul_zero_ix2 dot_S1024x8192_S8192x32_S1024x32_1_0_0_1_n_n rfl rfl rfl rfl
    (fun i c => by
      unfold DotDims.lhsIdx
      rw [dif_neg (show ¬(0 : Fin _) ∈ dot_S1024x8192_S8192x32_S1024x32_1_0_0_1_n_n.lhsBatch by decide),
        dif_pos (show (0 : Fin _) ∈ dot_S1024x8192_S8192x32_S1024x32_1_0_0_1_n_n.lhsNonContracting by decide)]
      rfl)
    (fun i c => by
      unfold DotDims.rhsIdx
      rw [dif_neg (show ¬(1 : Fin _) ∈ dot_S1024x8192_S8192x32_S1024x32_1_0_0_1_n_n.rhsBatch by decide),
        dif_pos (show (1 : Fin _) ∈ dot_S1024x8192_S8192x32_S1024x32_1_0_0_1_n_n.rhsNonContracting by decide)]
      rfl)
    none _ _ p q).trans ?_
  refine Finset.sum_congr rfl fun r _ => ?_
  rw [truncf_apply, truncf_apply, sitofp_apply, extui_apply, bit_to_real]
  refine congrArg (fun z => z * (h (ix2 r q) : EReal)) ?_
  unfold ind
  refine if_congr ?_ rfl rfl
  show IntOp.cmpi .eq _ _ = 1#1 ↔ _
  rw [IntOp.cmpi_eq, repeatColumn_apply, castColumn_apply, broadcastTo_1b_ab_apply]
  show s (ix1 p) = IntOp.addi (broadcast S1x8192 _ (ix2 (0 : Fin 1) r)) (iota .tc S1x8192 32 [1] Gen.iota_S1x8192_d1_w32 (ix2 (0 : Fin 1) r)) ↔ _
  rw [broadcast_apply, iota_single_apply]
  rfl

/-- The gather's stored block at (p, q): the finished running block times the edge's weight. -/
theorem gather_out_entry (acc : Vec Ideal S1024x32 .f32) (w : Vec Ideal S1024 .f32) (p : Fin 1024) (q : Fin 32) :
    (k7_pay3 (F := Ideal) acc w (ix2 p q) : EReal) = (acc (ix2 p q) : EReal) * (w (ix1 p) : EReal) := by
  unfold k7_pay3
  rw [mulf_apply, repeatColumn_apply, castColumn_apply, shapeCast_self]

/-! ## The scatter -/

/-- One edge tile's step of the scatter at (p, q), for the node tile n: the running block plus the messages of the
    tile's edges whose target word is the row's number. -/
theorem scatter_step_entry (i : grid8.Coords) (d : Vec Ideal S1024 .i32) (msg : Vec Ideal S1024x32 .f32)
    (acc : Vec Ideal S8192x32 .f32) (p : Fin 8192) (q : Fin 32) :
    (k8_pay2 (F := Ideal) i d msg acc (ix2 p q) : EReal)
      = (acc (ix2 p q) : EReal) + ∑ e : Fin 1024, ind (rowWord (i 0).val p = d (ix1 e)) * (msg (ix2 e q) : EReal) := by
  unfold k8_pay2
  dsimp only
  simp only [shapeCast_self]
  rw [addf_apply]
  refine congrArg (fun z => (acc (ix2 p q) : EReal) + z) ?_
  refine (LibMatmulZero.matmul_zero_ix2 dot_S8192x1024_S1024x32_S8192x32_1_0_0_1_n_n rfl rfl rfl rfl
    (fun i c => by
      unfold DotDims.lhsIdx
      rw [dif_neg (show ¬(0 : Fin _) ∈ dot_S8192x1024_S1024x32_S8192x32_1_0_0_1_n_n.lhsBatch by decide),
        dif_pos (show (0 : Fin _) ∈ dot_S8192x1024_S1024x32_S8192x32_1_0_0_1_n_n.lhsNonContracting by decide)]
      rfl)
    (fun i c => by
      unfold DotDims.rhsIdx
      rw [dif_neg (show ¬(1 : Fin _) ∈ dot_S8192x1024_S1024x32_S8192x32_1_0_0_1_n_n.rhsBatch by decide),
        dif_pos (show (1 : Fin _) ∈ dot_S8192x1024_S1024x32_S8192x32_1_0_0_1_n_n.rhsNonContracting by decide)]
      rfl)
    none _ _ p q).trans ?_
  refine Finset.sum_congr rfl fun e _ => ?_
  rw [truncf_apply, truncf_apply, sitofp_apply, extui_apply, bit_to_real]
  refine congrArg (fun z => z * (msg (ix2 e q) : EReal)) ?_
  unfold ind
  refine if_congr ?_ rfl rfl
  show IntOp.cmpi .eq _ _ = 1#1 ↔ _
  rw [IntOp.cmpi_eq, repeatColumn_apply, broadcastTo_1b_ab_apply, shapeCast_a_1a_apply]
  show IntOp.addi (broadcast S8192x1 _ (ix2 p (0 : Fin 1))) (iota .tc S8192x1 32 [0] Gen.iota_S8192x1_d0_w32 (ix2 p (0 : Fin 1))) = d (ix1 e) ↔ _
  rw [broadcast_apply, iota_single_apply]
  rfl

/-- The scatter's stored block at (p, q): the finished running block plus the bias of the column. -/
theorem scatter_out_entry (acc : Vec Ideal S8192x32 .f32) (b : Vec Ideal S32 .f32) (p : Fin 8192) (q : Fin 32) :
    (k8_pay3 (F := Ideal) acc b (ix2 p q) : EReal) = (acc (ix2 p q) : EReal) + (b (ix1 q) : EReal) := by
  unfold k8_pay3
  rw [addf_apply, broadcastTo_1b_ab_apply, shapeCast_a_1a_apply]

/-- The running blocks start at zero: what the first tile's step finds. -/
theorem gather_init_entry (j : S1024x32.Idx) : (k7_pay1 (F := Ideal) j : EReal) = 0 := by
  unfold k7_pay1
  rw [shapeCast_self, broadcast_apply]
  exact Ideal.ofBits_zero_f32

theorem scatter_init_entry (j : S8192x32.Idx) : (k8_pay1 (F := Ideal) j : EReal) = 0 := by
  unfold k8_pay1
  rw [shapeCast_self, broadcast_apply]
  exact Ideal.ofBits_zero_f32

end Cert.Proof.Payloads6

end
-- ==== Proof.Value6.lean ====
/-
  What the dense transform's region (kernel call 6) leaves in its result array, at the ideal values: point t writes back
  rows 8192 t … 8192 t + 8191, each the product of the node table's row with the weight matrix, and the 13 points cover the
  106496 rows; so the array ends as
      (X · W)(r, q) = Σ_{j < 64} X(r, j) · W(j, q)      for every row r of the padded table.
-/
import proofs.«155233_j36086315221040_1_alg».proof.Proof.Region6
import proofs.«155233_j36086315221040_1_alg».proof.Proof.Payloads6
import proofs.«155233_j36086315221040_1_alg».proof.Proof.KSpec
import Idealize.ShloMosaic.Lib.Pipeline.Value

set_option maxRecDepth 16384

noncomputable section

namespace Cert.Proof.KV6

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Proof.KSpec

variable (V : (c : Dev nD) → (b : Ref sig .tc) → Buf (Elt Ideal) ((c : Thread nD τ).loc b))

theorem hz : (![0, 0] : Fin 2 → Nat) = fun _ => 0 := funext fun a => by fin_cases a <;> rfl

/-- The stored block at an entry: a row of the node block against a column of the weights. -/
theorem product_entry (x0 : Vec Ideal S8192x64 .f32) (x1 : Vec Ideal S64x32 .f32) (p : Fin 8192) (q : Fin 32) :
    (R6.product x0 x1 (ix2 p q) : EReal) = ∑ j : Fin 64, (x0 (ix2 p j) : EReal) * (x1 (ix2 j q) : EReal) := by
  unfold R6.product
  rw [View.canon_unit_zero hz]
  simp only [View.ld_unit_zero (S := S8192x64) hz, View.ld_unit_zero (S := S64x32) hz]
  exact Cert.Proof.Payloads6.linear_entry _ _ p q

/-- The index maps over the 13 points: the node tile and the result tile are tile t, the weights do not move. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The result's block is written back at every point. -/
theorem flush_2 : ∀ t : Fin cfg6.N, (cfg6.win 2).flush t = true :=
  (by decide +kernel : ∀ t : Fin grid6.N, win6_2.flush t = true)

/-- What point t writes back is block t of the product of the arrays as the region finds them. -/
theorem flushed_eq (c : Dev nD) (t : Fin cfg6.N) :
    (R6.dat V c).flushed 2 t = ((cfg6.win 2).blk t).view.read (Elt Ideal) (prod32 (V c main_v48) (V c main_arg6)) := by
  show (cfg6.win 2).cut (grid6.coords t) ((R6.dat V c).after 2 t) = _
  rw [R6.after_2]
  obtain ⟨e0, e1, e2, e3, e4, e5⟩ := idx_facts t
  funext j
  obtain ⟨p, q, rfl⟩ : ∃ (p : Fin 8192) (q : Fin 32), j = ix2 p q := ⟨j 0, j 1, eq_ix2 j⟩
  show (R6.product (R6.blk V c 0 t) (R6.blk V c 1 t) (ix2 p q) : EReal) = prod32 (V c main_v48) (V c main_arg6) (((cfg6.win 2).blk t).view.emb (ix2 p q))
  rw [product_entry]
  unfold prod32
  refine Finset.sum_congr rfl fun k _ => ?_
  have h0 : ((cfg6.win 0).blk t).view.emb (ix2 p k)
      = ix2 (⟨((((cfg6.win 2).blk t).view.emb (ix2 p q)) 0).val, idx2_lt0 _⟩ : Fin 106496) k := by
    funext a; apply Fin.ext
    match a with
    | ⟨0, _⟩ => show win6_0.index t (0 : Fin 2) * 8192 + 1 * p.val = win6_2.index t (0 : Fin 2) * 8192 + 1 * p.val; omega
    | ⟨1, _⟩ => show win6_0.index t (1 : Fin 2) * 64 + 1 * k.val = k.val; omega
  have h1 : ((cfg6.win 1).blk t).view.emb (ix2 k q)
      = ix2 k (⟨((((cfg6.win 2).blk t).view.emb (ix2 p q)) 1).val, idx2_lt1 _⟩ : Fin 32) := by
    funext a; apply Fin.ext
    match a with
    | ⟨0, _⟩ => show win6_1.index t (0 : Fin 2) * 64 + 1 * k.val = k.val; omega
    | ⟨1, _⟩ => show win6_1.index t (1 : Fin 2) * 32 + 1 * q.val = win6_2.index t (1 : Fin 2) * 32 + 1 * q.val; omega
  refine congrArg₂ (fun a b : EReal => a * b) ?_ ?_
  · show V c main_v48 (((cfg6.win 0).blk t).view.emb (ix2 p k)) = _
    rw [h0]
  · show V c main_arg6 (((cfg6.win 1).blk t).view.emb (ix2 k q)) = _
    rw [h1]

/-- An index of the result array is in point t's block iff its row is in tile t. -/
theorem mem_blk (t : Fin cfg6.N) (i : S106496x32.Idx) :
    i ∈ ((cfg6.win 2).blk t).view.set ↔ ∀ a : Fin 2, win6_2.index t a * S8192x32.size a ≤ (i a).val ∧ (i a).val < win6_2.index t a * S8192x32.size a + S8192x32.size a := by
  show i ∈ ((View.whole (Pipeline.arrRef spec6 2)).slice (win6_2.rect t)).set ↔ _
  rw [View.set_slice_whole, Rect.mem_set_unit]
  exact Iff.rfl

/-- Every index is in some point's block: the tile of its row. -/
theorem cover (i : S106496x32.Idx) : ∃ t : Fin cfg6.N, (cfg6.win 2).flush t = true ∧ i ∈ ((cfg6.win 2).blk t).view.set := by
  have hi0 : (i 0).val < 106496 := idx2_lt0 i
  have hi1 : (i 1).val < 32 := idx2_lt1 i
  refine ⟨⟨(i 0).val / 8192, by rw [show cfg6.N = 13 from N_6]; omega⟩, flush_2 _, ?_⟩
  rw [mem_blk]
  obtain ⟨e0, e1, e2, e3, e4, e5⟩ := idx_facts ⟨(i 0).val / 8192, by rw [show cfg6.N = 13 from N_6]; omega⟩
  intro a
  match a with
  | ⟨0, _⟩ => show win6_2.index _ (0 : Fin 2) * 8192 ≤ (i 0).val ∧ (i 0).val < win6_2.index _ (0 : Fin 2) * 8192 + 8192; rw [e4]; show (i 0).val / 8192 * 8192 ≤ (i 0).val ∧ (i 0).val < (i 0).val / 8192 * 8192 + 8192; omega
  | ⟨1, _⟩ => show win6_2.index _ (1 : Fin 2) * 32 ≤ (i 1).val ∧ (i 1).val < win6_2.index _ (1 : Fin 2) * 32 + 32; rw [e5]; omega

/-- THE RESULT ARRAY after the region: the product of the node table and the weights as the region finds them. -/
theorem final (c : Dev nD) : (R6.dat V c).arrAt 2 cfg6.N = prod32 (V c main_v48) (V c main_arg6) :=
  (R6.dat V c).arrAt_eq_of_cover 2 _ (fun t _ => flushed_eq V c t) cover

end Cert.Proof.KV6

end
-- ==== Proof.Value7.lean ====
/-
  What the gather's region (kernel call 7) leaves in its result array, at the ideal values.

  Each case's stores, read back, are the kernel's payloads of what it loaded: a first table tile leaves the tile's
  one-hot product added to zero in the scratch block, a later tile adds its product to what the tile before left, and the
  last tile also stores the scratch times the edge weights.  So after table tile k of edge tile e the scratch holds, at
  (p, q), the products of tiles 0 … k summed, and the row of the result for padded edge 1024 e + p is
      (Σ_{k < 13} Σ_{r < 8192} [ s(1024 e + p) = number of row (k, r) ] · H(8192 k + r, q)) · w(1024 e + p) .
  The 1661 edge tiles' last points write back blocks that cover the array.
-/
import proofs.«155233_j36086315221040_1_alg».proof.Proof.Region7
import proofs.«155233_j36086315221040_1_alg».proof.Proof.Payloads6
import proofs.«155233_j36086315221040_1_alg».proof.Proof.KSpec
import proofs.«155233_j36086315221040_1_alg».proof.Proof.GridFacts2
import Idealize.ShloMosaic.Lib.Pipeline.Value

set_option maxRecDepth 16384

noncomputable section

namespace Cert.Proof.KV7

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.LibOneHot (ind)
open Cert.Proof.Words (rowWord)
open Idealize.ShloMosaic.Tactic
open Cert.Proof.KSpec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## The pieces the runs found, as the kernel's payloads of what it loaded -/

theorem scr_first_eq (c : Dev nD) (i : grid7.Coords) (arg2 : Memref sig .tc .vmem S1024 .i32) (harg2 : arg2.IsWhole) (arg3 : Memref sig .tc .vmem S1024 .f32) (harg3 : arg3.IsWhole) (arg4 : Memref sig .tc .vmem S8192x32 .f32) (harg4 : arg4.IsWhole) (arg5 : Memref sig .tc .vmem S1024x32 .f32) (harg5 : arg5.IsWhole) (arg6 : Memref sig .tc .vmem S1024x32 .f32) (harg6 : arg6.IsWhole) (hc0 : R7.isFirst i) (hc1 : ¬R7.isLast i) (x0 : Vec Ideal S1024 .i32) (x1 : Vec Ideal S1024 .f32) (x2 : Vec Ideal S8192x32 .f32) :
    R7.scr_first c i arg2 harg2 arg3 harg3 arg4 harg4 arg5 harg5 arg6 harg6 hc0 hc1 x0 x1 x2 = k7_pay2 (F := Ideal) i x0 x2 (k7_pay1 (F := Ideal)) := by
  unfold R7.scr_first
  rw [View.read_writes_eq_canon _ _ _ (R7.scover_first c i arg2 harg2 arg3 harg3 arg4 harg4 arg5 harg5 arg6 harg6 hc0 hc1 x0 x1 x2)]
  unfold R7.run_first
  dsimp only
  sl_unfold_words
  rw [View.canon_cons_unit_zero hz2]
  simp only [View.readAt_eq_ld, harg2.read_unread, harg3.read_unread, harg4.read_unread, harg6.read_unread,
    View.ld_unit_zero (S := S1024) hz1, View.ld_unit_zero (S := S1024) hz1, View.ld_unit_zero (S := S8192x32) hz2, View.ld_unit_zero (S := S1024x32) hz2,
    View.readCov_unit_zero (S := S1024x32) _ hz2]

theorem scr_mid_eq (c : Dev nD) (i : grid7.Coords) (arg2 : Memref sig .tc .vmem S1024 .i32) (harg2 : arg2.IsWhole) (arg3 : Memref sig .tc .vmem S1024 .f32) (harg3 : arg3.IsWhole) (arg4 : Memref sig .tc .vmem S8192x32 .f32) (harg4 : arg4.IsWhole) (arg5 : Memref sig .tc .vmem S1024x32 .f32) (harg5 : arg5.IsWhole) (arg6 : Memref sig .tc .vmem S1024x32 .f32) (harg6 : arg6.IsWhole) (hc0 : ¬R7.isFirst i) (hc1 : ¬R7.isLast i) (x0 : Vec Ideal S1024 .i32) (x1 : Vec Ideal S1024 .f32) (x2 : Vec Ideal S8192x32 .f32) (xs0 : Vec Ideal S1024x32 .f32) :
    R7.scr_mid c i arg2 harg2 arg3 harg3 arg4 harg4 arg5 harg5 arg6 harg6 hc0 hc1 x0 x1 x2 xs0 = k7_pay2 (F := Ideal) i x0 x2 xs0 := by
  unfold R7.scr_mid
  rw [View.read_writes_eq_canon _ _ _ (R7.scover_mid c i arg2 harg2 arg3 harg3 arg4 harg4 arg5 harg5 arg6 harg6 hc0 hc1 x0 x1 x2 xs0)]
  unfold R7.run_mid
  dsimp only
  sl_unfold_words
  rw [View.canon_unit_zero hz2]
  simp only [View.readAt_eq_ld, harg2.read_unread, harg3.read_unread, harg4.read_unread, harg6.read_unread,
    View.ld_unit_zero (S := S1024) hz1, View.ld_unit_zero (S := S1024) hz1, View.ld_unit_zero (S := S8192x32) hz2, View.ld_unit_zero (S := S1024x32) hz2,
    View.readCov_unit_zero (S := S1024x32) _ hz2]

theorem scr_last_eq (c : Dev nD) (i : grid7.Coords) (arg2 : Memref sig .tc .vmem S1024 .i32) (harg2 : arg2.IsWhole) (arg3 : Memref sig .tc .vmem S1024 .f32) (harg3 : arg3.IsWhole) (arg4 : Memref sig .tc .vmem S8192x32 .f32) (harg4 : arg4.IsWhole) (arg5 : Memref sig .tc .vmem S1024x32 .f32) (harg5 : arg5.IsWhole) (arg6 : Memref sig .tc .vmem S1024x32 .f32) (harg6 : arg6.IsWhole) (hc0 : ¬R7.isFirst i) (hc1 : R7.isLast i) (x0 : Vec Ideal S1024 .i32) (x1 : Vec Ideal S1024 .f32) (x2 : Vec Ideal S8192x32 .f32) (xs0 : Vec Ideal S1024x32 .f32) :
    R7.scr_last c i arg2 harg2 arg3 harg3 arg4 harg4 arg5 harg5 arg6 harg6 hc0 hc1 x0 x1 x2 xs0 = k7_pay2 (F := Ideal) i x0 x2 xs0 := by
  unfold R7.scr_last
  rw [View.read_writes_eq_canon _ _ _ (R7.scover_last c i arg2 harg2 arg3 harg3 arg4 harg4 arg5 harg5 arg6 harg6 hc0 hc1 x0 x1 x2 xs0)]
  unfold R7.run_last
  dsimp only
  sl_unfold_words
  rw [View.canon_unit_zero hz2]
  simp only [View.readAt_eq_ld, harg2.read_unread, harg3.read_unread, harg4.read_unread, harg6.read_unread,
    View.ld_unit_zero (S := S1024) hz1, View.ld_unit_zero (S := S1024) hz1, View.ld_unit_zero (S := S8192x32) hz2, View.ld_unit_zero (S := S1024x32) hz2,
    View.readCov_unit_zero (S := S1024x32) _ hz2]

theorem out_last_eq (c : Dev nD) (i : grid7.Coords) (arg2 : Memref sig .tc .vmem S1024 .i32) (harg2 : arg2.IsWhole) (arg3 : Memref sig .tc .vmem S1024 .f32) (harg3 : arg3.IsWhole) (arg4 : Memref sig .tc .vmem S8192x32 .f32) (harg4 : arg4.IsWhole) (arg5 : Memref sig .tc .vmem S1024x32 .f32) (harg5 : arg5.IsWhole) (arg6 : Memref sig .tc .vmem S1024x32 .f32) (harg6 : arg6.IsWhole) (hc0 : ¬R7.isFirst i) (hc1 : R7.isLast i) (x0 : Vec Ideal S1024 .i32) (x1 : Vec Ideal S1024 .f32) (x2 : Vec Ideal S8192x32 .f32) (xs0 : Vec Ideal S1024x32 .f32) :
    R7.out_last c i arg2 harg2 arg3 harg3 arg4 harg4 arg5 harg5 arg6 harg6 hc0 hc1 x0 x1 x2 xs0 = k7_pay3 (F := Ideal) (k7_pay2 (F := Ideal) i x0 x2 xs0) x1 := by
  unfold R7.out_last
  rw [View.read_writes_eq_canon _ _ _ (R7.ocover_last c i arg2 harg2 arg3 harg3 arg4 harg4 arg5 harg5 arg6 harg6 hc0 hc1 x0 x1 x2 xs0)]
  unfold R7.run_last
  dsimp only
  sl_unfold_words
  rw [View.canon_unit_zero hz2]
  simp only [View.readAt_eq_ld, harg2.read_unread, harg3.read_unread, harg4.read_unread, harg6.read_unread,
    View.ld_unit_zero (S := S1024) hz1, View.ld_unit_zero (S := S1024) hz1, View.ld_unit_zero (S := S8192x32) hz2, View.ld_unit_zero (S := S1024x32) hz2,
    View.readCov_unit_zero (S := S1024x32) _ hz2]

/-! ## The scratch block, point by point -/

/-- Where the windows sit at point t: edge tile t / 13, table tile t mod 13. -/
theorem idx (t : Fin cfg7.N) : ((grid7.coords t) 1).val = t.val % 13
    ∧ win7_0.index t (0 : Fin 1) = t.val / 13 ∧ win7_1.index t (0 : Fin 1) = t.val / 13
    ∧ win7_2.index t (0 : Fin 2) = t.val % 13 ∧ win7_2.index t (1 : Fin 2) = 0
    ∧ win7_3.index t (0 : Fin 2) = t.val / 13 ∧ win7_3.index t (1 : Fin 2) = 0 := Cert.Proof.GridFacts2.gather_idx t

/-- Table tile k against the source word of padded edge x, at channel q (zero outside the arrays). -/
def tileN (S : S1700864.Idx → BitVec 32) (H : S106496x32.Idx → EReal) (x q k : ℕ) : EReal :=
  if h : x < 1700864 ∧ q < 32 ∧ k < 13 then
    ∑ r : Fin 8192, ind (S (ix1 (⟨x, h.1⟩ : Fin 1700864)) = rowWord k r)
      * H (ix2 (⟨k * 8192 + r.val, by have := r.isLt; omega⟩ : Fin 106496) (⟨q, h.2.1⟩ : Fin 32))
  else 0

/-- One point's step, at an entry: the running block plus the point's table tile against the edge's source word. -/
theorem step_entry (c : Dev nD) (t : Fin cfg7.N) (acc : Vec Ideal S1024x32 .f32) (p : Fin 1024) (q : Fin 32) :
    (k7_pay2 (F := Ideal) (grid7.coords t) (R7.blk V c 0 t) (R7.blk V c 2 t) acc (ix2 p q) : EReal)
      = (acc (ix2 p q) : EReal) + tileN (V c main_v31) (V c main_v49) (1024 * (t.val / 13) + p.val) q.val (t.val % 13) := by
  obtain ⟨e0, e1, e2, e3, e4, e5, e6⟩ := idx t
  have hN : t.val < 21593 := lt_of_lt_of_eq t.isLt N_7
  rw [Cert.Proof.Payloads6.gather_step_entry]
  refine congrArg (fun z : EReal => (acc (ix2 p q) : EReal) + z) ?_
  unfold tileN
  rw [dif_pos ⟨by omega, q.isLt, Nat.mod_lt _ (by norm_num)⟩]
  refine Finset.sum_congr rfl fun r _ => ?_
  refine congrArg₂ (fun a b : EReal => a * b) ?_ ?_
  · have hs : R7.blk V c 0 t (ix1 p) = V c main_v31 (ix1 (⟨1024 * (t.val / 13) + p.val, by omega⟩ : Fin 1700864)) := by
      show V c main_v31 (((cfg7.win 0).blk t).view.emb (ix1 p)) = _
      refine congrArg _ (funext fun a => Fin.ext ?_)
      match a with
      | ⟨0, _⟩ => show win7_0.index t (0 : Fin 1) * 1024 + 1 * p.val = 1024 * (t.val / 13) + p.val; omega
    rw [hs, e0]
  · show V c main_v49 (((cfg7.win 2).blk t).view.emb (ix2 r q)) = _
    refine congrArg _ (funext fun a => Fin.ext ?_)
    match a with
    | ⟨0, _⟩ => show win7_2.index t (0 : Fin 2) * 8192 + 1 * r.val = t.val % 13 * 8192 + r.val; omega
    | ⟨1, _⟩ => show win7_2.index t (1 : Fin 2) * 32 + 1 * q.val = q.val; omega

/-- After the body at position n the scratch block holds, at (p, q), the table tiles 0 … n mod 13 against the source word of
    padded edge 1024 (n / 13) + p, summed. -/
theorem scratch_at (c : Dev nD) : ∀ (n : ℕ) (hn : n < cfg7.N) (p : Fin 1024) (q : Fin 32),
    ((R7.outsAt V c n hn).2 (ix2 p q) : EReal)
      = ∑ k ∈ Finset.range (n % 13 + 1), tileN (V c main_v31) (V c main_v49) (1024 * (n / 13) + p.val) q.val k := by
  intro n
  induction n with
  | zero =>
    intro hn p q
    rw [R7.outsAt_first V c ⟨0, hn⟩ (Nat.zero_mod 13) (by show ¬ 0 % 13 = 12; decide)]
    dsimp only
    rw [scr_first_eq, step_entry V c ⟨0, hn⟩, Cert.Proof.Payloads6.gather_init_entry, zero_add]
    dsimp only
    simp
  | succ n ih =>
    intro hn p q
    have hN : n + 1 < 21593 := lt_of_lt_of_eq hn N_7
    by_cases h0 : (n + 1) % 13 = 0
    · have h1 : ¬(n + 1) % 13 = 12 := by omega
      rw [R7.outsAt_first V c ⟨n + 1, hn⟩ h0 h1]
      dsimp only
      rw [scr_first_eq, step_entry V c ⟨n + 1, hn⟩, Cert.Proof.Payloads6.gather_init_entry, zero_add]
      dsimp only
      rw [h0]; simp
    · have hprev := ih (Nat.lt_of_succ_lt hn) p q
      have hdiv : n / 13 = (n + 1) / 13 := by omega
      have hmod : n % 13 + 1 = (n + 1) % 13 := by omega
      by_cases h1 : (n + 1) % 13 = 12
      · rw [R7.outsAt_last V c ⟨n + 1, hn⟩ h0 h1]
        dsimp only
        rw [scr_last_eq, step_entry V c ⟨n + 1, hn⟩]
        dsimp only
        simp only [Nat.add_sub_cancel]
        rw [← hmod, ← hdiv, Finset.sum_range_succ]
        exact congrArg (fun z : EReal => z + tileN _ _ _ _ _) hprev
      · rw [R7.outsAt_mid V c ⟨n + 1, hn⟩ h0 h1]
        dsimp only
        rw [scr_mid_eq, step_entry V c ⟨n + 1, hn⟩]
        dsimp only
        simp only [Nat.add_sub_cancel]
        rw [← hmod, ← hdiv, Finset.sum_range_succ]
        exact congrArg (fun z : EReal => z + tileN _ _ _ _ _) hprev

/-! ## From the last points' blocks to the array -/

/-- All thirteen table tiles, as the array's entry spells them. -/
theorem tiles_all (S : S1700864.Idx → BitVec 32) (H : S106496x32.Idx → EReal) (x : Fin 1700864) (q : Fin 32) :
    ∑ k ∈ Finset.range 13, tileN S H x.val q.val k
      = ∑ k : Fin 13, ∑ r : Fin 8192, ind (S (ix1 x) = rowWord k.val r)
          * H (ix2 (⟨k.val * 8192 + r.val, by have := k.isLt; have := r.isLt; omega⟩ : Fin 106496) q) := by
  rw [Finset.sum_range]
  refine Finset.sum_congr rfl fun k _ => ?_
  unfold tileN
  rw [dif_pos ⟨x.isLt, q.isLt, k.isLt⟩]

/-- WHAT AN EDGE TILE'S LAST POINT WRITES BACK is its block of the gather's array. -/
theorem flushed_eq (c : Dev nD) (t : Fin cfg7.N) (hf : (cfg7.win 3).flush t = true) :
    (R7.dat V c).flushed 3 t = ((cfg7.win 3).blk t).view.read (Elt Ideal) (msgArr32 (V c main_v31) (V c main_v35) (V c main_v49)) := by
  have h1 : t.val % 13 = 12 := (R7.flush_3 t).mp hf
  have h0 : ¬ t.val % 13 = 0 := by omega
  obtain ⟨e0, e1, e2, e3, e4, e5, e6⟩ := idx t
  have hN : t.val < 21593 := lt_of_lt_of_eq t.isLt N_7
  have hscr : k7_pay2 (F := Ideal) (grid7.coords t) (R7.blk V c 0 t) (R7.blk V c 2 t) (R7.outsAt V c (t.val - 1) (Nat.lt_of_le_of_lt (Nat.sub_le _ _) t.isLt)).2
      = (R7.outsAt V c t.val t.isLt).2 := by
    rw [R7.outsAt_last V c t h0 h1]; dsimp only; rw [scr_last_eq]
  show (cfg7.win 3).cut (grid7.coords t) ((R7.dat V c).after 3 t) = _
  rw [R7.after_3, R7.outsAt_last V c t h0 h1]
  dsimp only
  rw [out_last_eq, hscr]
  funext j
  obtain ⟨p, q, rfl⟩ : ∃ (p : Fin 1024) (q : Fin 32), j = ix2 p q := ⟨j 0, j 1, eq_ix2 j⟩
  show (k7_pay3 (F := Ideal) (R7.outsAt V c t.val t.isLt).2 (R7.blk V c 1 t) (ix2 p q) : EReal)
    = msgArr32 (V c main_v31) (V c main_v35) (V c main_v49) (((cfg7.win 3).blk t).view.emb (ix2 p q))
  rw [Cert.Proof.Payloads6.gather_out_entry, scratch_at V c t.val t.isLt p q, h1]
  have hx0 : ((((cfg7.win 3).blk t).view.emb (ix2 p q)) 0).val = 1024 * (t.val / 13) + p.val := by
    show win7_3.index t (0 : Fin 2) * 1024 + 1 * p.val = _; omega
  have hx1 : ((((cfg7.win 3).blk t).view.emb (ix2 p q)) 1).val = q.val := by
    show win7_3.index t (1 : Fin 2) * 32 + 1 * q.val = _; omega
  unfold msgArr32
  have hxlt : 1024 * (t.val / 13) + p.val < 1700864 := by omega
  have hrow : (⟨((((cfg7.win 3).blk t).view.emb (ix2 p q)) 0).val, idx2_lt0 _⟩ : Fin 1700864) = ⟨1024 * (t.val / 13) + p.val, hxlt⟩ := Fin.ext hx0
  have hcol : (⟨((((cfg7.win 3).blk t).view.emb (ix2 p q)) 1).val, idx2_lt1 _⟩ : Fin 32) = q := Fin.ext hx1
  rw [hrow, hcol]
  refine congrArg₂ (fun a b : EReal => a * b) ?_ ?_
  · exact tiles_all (V c main_v31) (V c main_v49) ⟨1024 * (t.val / 13) + p.val, hxlt⟩ q
  · show V c main_v35 (((cfg7.win 1).blk t).view.emb (ix1 p)) = _
    refine congrArg _ (funext fun a => Fin.ext ?_)
    match a with
    | ⟨0, _⟩ => show win7_1.index t (0 : Fin 1) * 1024 + 1 * p.val = 1024 * (t.val / 13) + p.val; omega

/-- An index of the gather's array is in point t's block iff its row is in edge tile t / 13. -/
theorem mem_blk (t : Fin cfg7.N) (i : S1700864x32.Idx) :
    i ∈ ((cfg7.win 3).blk t).view.set ↔ ∀ a : Fin 2, win7_3.index t a * S1024x32.size a ≤ (i a).val ∧ (i a).val < win7_3.index t a * S1024x32.size a + S1024x32.size a := by
  show i ∈ ((View.whole (Pipeline.arrRef spec7 3)).slice (win7_3.rect t)).set ↔ _
  rw [View.set_slice_whole, Rect.mem_set_unit]
  exact Iff.rfl

/-- Every index is in the block of its edge tile's last point. -/
theorem cover (i : S1700864x32.Idx) : ∃ t : Fin cfg7.N, (cfg7.win 3).flush t = true ∧ i ∈ ((cfg7.win 3).blk t).view.set := by
  have hi0 : (i 0).val < 1700864 := idx2_lt0 i
  have hi1 : (i 1).val < 32 := idx2_lt1 i
  have hlt : 13 * ((i 0).val / 1024) + 12 < cfg7.N := by rw [show cfg7.N = 21593 from N_7]; omega
  refine ⟨⟨13 * ((i 0).val / 1024) + 12, hlt⟩, (R7.flush_3 _).mpr (by show (13 * ((i 0).val / 1024) + 12) % 13 = 12; omega), ?_⟩
  rw [mem_blk]
  obtain ⟨e0, e1, e2, e3, e4, e5, e6⟩ := idx ⟨13 * ((i 0).val / 1024) + 12, hlt⟩
  intro a
  match a with
  | ⟨0, _⟩ =>
    show win7_3.index _ (0 : Fin 2) * 1024 ≤ (i 0).val ∧ (i 0).val < win7_3.index _ (0 : Fin 2) * 1024 + 1024
    rw [e5]; show (13 * ((i 0).val / 1024) + 12) / 13 * 1024 ≤ (i 0).val ∧ (i 0).val < (13 * ((i 0).val / 1024) + 12) / 13 * 1024 + 1024
    have : (13 * ((i 0).val / 1024) + 12) / 13 = (i 0).val / 1024 := by omega
    rw [this]; omega
  | ⟨1, _⟩ =>
    show win7_3.index _ (1 : Fin 2) * 32 ≤ (i 1).val ∧ (i 1).val < win7_3.index _ (1 : Fin 2) * 32 + 32
    rw [e6]; omega

/-- THE GATHER'S ARRAY after the region. -/
theorem final (c : Dev nD) : (R7.dat V c).arrAt 3 cfg7.N = msgArr32 (V c main_v31) (V c main_v35) (V c main_v49) :=
  (R7.dat V c).arrAt_eq_of_cover 3 _ (fun t hf => flushed_eq V c t hf) cover

end Cert.Proof.KV7

end
-- ==== Proof.Value8.lean ====
/-
  What the scatter's region (kernel call 8) leaves in its result array, at the ideal values.

  Each case's stores, read back, are the kernel's payloads of what it loaded: a first edge tile leaves the tile's one-hot
  product added to zero in the scratch block, a later tile adds its product to what the tile before left, and the last
  tile also stores the scratch plus the bias row.  So after edge tile e of node tile n the scratch holds, at (p, q), the
  products of tiles 0 … e summed, and the row of the result for padded node 8192 n + p is
      Σ_{e < 1661} Σ_{x < 1024} [ number of row (n, p) = d(1024 e + x) ] · msg(1024 e + x, q)  +  b(q) .
  The 13 node tiles' last points write back blocks that cover the array.
-/
import proofs.«155233_j36086315221040_1_alg».proof.Proof.Region8
import proofs.«155233_j36086315221040_1_alg».proof.Proof.Payloads6
import proofs.«155233_j36086315221040_1_alg».proof.Proof.KSpec
import proofs.«155233_j36086315221040_1_alg».proof.Proof.GridFacts2
import Idealize.ShloMosaic.Lib.Pipeline.Value

set_option maxRecDepth 16384

noncomputable section

namespace Cert.Proof.KV8

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.LibOneHot (ind)
open Cert.Proof.Words (rowWord)
open Idealize.ShloMosaic.Tactic
open Cert.Proof.KSpec

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## The pieces the runs found, as the kernel's payloads of what it loaded -/

theorem scr_first_eq (c : Dev nD) (i : grid8.Coords) (arg2 : Memref sig .tc .vmem S1024 .i32) (harg2 : arg2.IsWhole) (arg3 : Memref sig .tc .vmem S1024x32 .f32) (harg3 : arg3.IsWhole) (arg4 : Memref sig .tc .vmem S32 .f32) (harg4 : arg4.IsWhole) (arg5 : Memref sig .tc .vmem S8192x32 .f32) (harg5 : arg5.IsWhole) (arg6 : Memref sig .tc .vmem S8192x32 .f32) (harg6 : arg6.IsWhole) (hc0 : R8.isFirst i) (hc1 : ¬R8.isLast i) (x0 : Vec Ideal S1024 .i32) (x1 : Vec Ideal S1024x32 .f32) (x2 : Vec Ideal S32 .f32) :
    R8.scr_first c i arg2 harg2 arg3 harg3 arg4 harg4 arg5 harg5 arg6 harg6 hc0 hc1 x0 x1 x2 = k8_pay2 (F := Ideal) i x0 x1 (k8_pay1 (F := Ideal)) := by
  unfold R8.scr_first
  rw [View.read_writes_eq_canon _ _ _ (R8.scover_first c i arg2 harg2 arg3 harg3 arg4 harg4 arg5 harg5 arg6 harg6 hc0 hc1 x0 x1 x2)]
  unfold R8.run_first
  dsimp only
  sl_unfold_words
  rw [View.canon_cons_unit_zero hz2]
  simp only [View.readAt_eq_ld, harg2.read_unread, harg3.read_unread, harg4.read_unread, harg6.read_unread,
    View.ld_unit_zero (S := S1024) hz1, View.ld_unit_zero (S := S1024x32) hz2, View.ld_unit_zero (S := S32) hz1, View.ld_unit_zero (S := S8192x32) hz2,
    View.readCov_unit_zero (S := S8192x32) _ hz2]

theorem scr_mid_eq (c : Dev nD) (i : grid8.Coords) (arg2 : Memref sig .tc .vmem S1024 .i32) (harg2 : arg2.IsWhole) (arg3 : Memref sig .tc .vmem S1024x32 .f32) (harg3 : arg3.IsWhole) (arg4 : Memref sig .tc .vmem S32 .f32) (harg4 : arg4.IsWhole) (arg5 : Memref sig .tc .vmem S8192x32 .f32) (harg5 : arg5.IsWhole) (arg6 : Memref sig .tc .vmem S8192x32 .f32) (harg6 : arg6.IsWhole) (hc0 : ¬R8.isFirst i) (hc1 : ¬R8.isLast i) (x0 : Vec Ideal S1024 .i32) (x1 : Vec Ideal S1024x32 .f32) (x2 : Vec Ideal S32 .f32) (xs0 : Vec Ideal S8192x32 .f32) :
    R8.scr_mid c i arg2 harg2 arg3 harg3 arg4 harg4 arg5 harg5 arg6 harg6 hc0 hc1 x0 x1 x2 xs0 = k8_pay2 (F := Ideal) i x0 x1 xs0 := by
  unfold R8.scr_mid
  rw [View.read_writes_eq_canon _ _ _ (R8.scover_mid c i arg2 harg2 arg3 harg3 arg4 harg4 arg5 harg5 arg6 harg6 hc0 hc1 x0 x1 x2 xs0)]
  unfold R8.run_mid
  dsimp only
  sl_unfold_words
  rw [View.canon_unit_zero hz2]
  simp only [View.readAt_eq_ld, harg2.read_unread, harg3.read_unread, harg4.read_unread, harg6.read_unread,
    View.ld_unit_zero (S := S1024) hz1, View.ld_unit_zero (S := S1024x32) hz2, View.ld_unit_zero (S := S32) hz1, View.ld_unit_zero (S := S8192x32) hz2,
    View.readCov_unit_zero (S := S8192x32) _ hz2]

theorem scr_last_eq (c : Dev nD) (i : grid8.Coords) (arg2 : Memref sig .tc .vmem S1024 .i32) (harg2 : arg2.IsWhole) (arg3 : Memref sig .tc .vmem S1024x32 .f32) (harg3 : arg3.IsWhole) (arg4 : Memref sig .tc .vmem S32 .f32) (harg4 : arg4.IsWhole) (arg5 : Memref sig .tc .vmem S8192x32 .f32) (harg5 : arg5.IsWhole) (arg6 : Memref sig .tc .vmem S8192x32 .f32) (harg6 : arg6.IsWhole) (hc0 : ¬R8.isFirst i) (hc1 : R8.isLast i) (x0 : Vec Ideal S1024 .i32) (x1 : Vec Ideal S1024x32 .f32) (x2 : Vec Ideal S32 .f32) (xs0 : Vec Ideal S8192x32 .f32) :
    R8.scr_last c i arg2 harg2 arg3 harg3 arg4 harg4 arg5 harg5 arg6 harg6 hc0 hc1 x0 x1 x2 xs0 = k8_pay2 (F := Ideal) i x0 x1 xs0 := by
  unfold R8.scr_last
  rw [View.read_writes_eq_canon _ _ _ (R8.scover_last c i arg2 harg2 arg3 harg3 arg4 harg4 arg5 harg5 arg6 harg6 hc0 hc1 x0 x1 x2 xs0)]
  unfold R8.run_last
  dsimp only
  sl_unfold_words
  rw [View.canon_unit_zero hz2]
  simp only [View.readAt_eq_ld, harg2.read_unread, harg3.read_unread, harg4.read_unread, harg6.read_unread,
    View.ld_unit_zero (S := S1024) hz1, View.ld_unit_zero (S := S1024x32) hz2, View.ld_unit_zero (S := S32) hz1, View.ld_unit_zero (S := S8192x32) hz2,
    View.readCov_unit_zero (S := S8192x32) _ hz2]

theorem out_last_eq (c : Dev nD) (i : grid8.Coords) (arg2 : Memref sig .tc .vmem S1024 .i32) (harg2 : arg2.IsWhole) (arg3 : Memref sig .tc .vmem S1024x32 .f32) (harg3 : arg3.IsWhole) (arg4 : Memref sig .tc .vmem S32 .f32) (harg4 : arg4.IsWhole) (arg5 : Memref sig .tc .vmem S8192x32 .f32) (harg5 : arg5.IsWhole) (arg6 : Memref sig .tc .vmem S8192x32 .f32) (harg6 : arg6.IsWhole) (hc0 : ¬R8.isFirst i) (hc1 : R8.isLast i) (x0 : Vec Ideal S1024 .i32) (x1 : Vec Ideal S1024x32 .f32) (x2 : Vec Ideal S32 .f32) (xs0 : Vec Ideal S8192x32 .f32) :
    R8.out_last c i arg2 harg2 arg3 harg3 arg4 harg4 arg5 harg5 arg6 harg6 hc0 hc1 x0 x1 x2 xs0 = k8_pay3 (F := Ideal) (k8_pay2 (F := Ideal) i x0 x1 xs0) x2 := by
  unfold R8.out_last
  rw [View.read_writes_eq_canon _ _ _ (R8.ocover_last c i arg2 harg2 arg3 harg3 arg4 harg4 arg5 harg5 arg6 harg6 hc0 hc1 x0 x1 x2 xs0)]
  unfold R8.run_last
  dsimp only
  sl_unfold_words
  rw [View.canon_unit_zero hz2]
  simp only [View.readAt_eq_ld, harg2.read_unread, harg3.read_unread, harg4.read_unread, harg6.read_unread,
    View.ld_unit_zero (S := S1024) hz1, View.ld_unit_zero (S := S1024x32) hz2, View.ld_unit_zero (S := S32) hz1, View.ld_unit_zero (S := S8192x32) hz2,
    View.readCov_unit_zero (S := S8192x32) _ hz2]

/-! ## The scratch block, point by point -/

/-- Where the windows sit at point t: node tile t / 1661, edge tile t mod 1661. -/
theorem idx (t : Fin cfg8.N) : ((grid8.coords t) 0).val = t.val / 1661
    ∧ win8_0.index t (0 : Fin 1) = t.val % 1661 ∧ win8_1.index t (0 : Fin 2) = t.val % 1661 ∧ win8_1.index t (1 : Fin 2) = 0
    ∧ win8_2.index t (0 : Fin 1) = 0
    ∧ win8_3.index t (0 : Fin 2) = t.val / 1661 ∧ win8_3.index t (1 : Fin 2) = 0 := Cert.Proof.GridFacts2.scatter_idx t

/-- Edge tile e against the number of padded node row n, at channel q (zero outside the arrays). -/
def tileS (D : S1700864.Idx → BitVec 32) (M : S1700864x32.Idx → EReal) (n q e : ℕ) : EReal :=
  if h : n < 106496 ∧ q < 32 ∧ e < 1661 then
    ∑ x : Fin 1024, ind (rowWord (n / 8192) (⟨n % 8192, Nat.mod_lt _ (by norm_num)⟩ : Fin 8192) = D (ix1 (⟨e * 1024 + x.val, by have := x.isLt; omega⟩ : Fin 1700864)))
      * M (ix2 (⟨e * 1024 + x.val, by have := x.isLt; omega⟩ : Fin 1700864) (⟨q, h.2.1⟩ : Fin 32))
  else 0

/-- One point's step, at an entry: the running block plus the point's edge tile against the row's number. -/
theorem step_entry (c : Dev nD) (t : Fin cfg8.N) (acc : Vec Ideal S8192x32 .f32) (p : Fin 8192) (q : Fin 32) :
    (k8_pay2 (F := Ideal) (grid8.coords t) (R8.blk V c 0 t) (R8.blk V c 1 t) acc (ix2 p q) : EReal)
      = (acc (ix2 p q) : EReal) + tileS (V c main_v33) (V c main_v50) (8192 * (t.val / 1661) + p.val) q.val (t.val % 1661) := by
  obtain ⟨e0, e1, e2, e3, e4, e5, e6⟩ := idx t
  have hN : t.val < 21593 := lt_of_lt_of_eq t.isLt N_8
  rw [Cert.Proof.Payloads6.scatter_step_entry]
  refine congrArg (fun z : EReal => (acc (ix2 p q) : EReal) + z) ?_
  unfold tileS
  rw [dif_pos ⟨by omega, q.isLt, Nat.mod_lt _ (by norm_num)⟩]
  have hq : (8192 * (t.val / 1661) + p.val) / 8192 = t.val / 1661 := by have := p.isLt; omega
  have hp : (⟨(8192 * (t.val / 1661) + p.val) % 8192, Nat.mod_lt _ (by norm_num)⟩ : Fin 8192) = p := Fin.ext (by show (8192 * (t.val / 1661) + p.val) % 8192 = p.val; have := p.isLt; omega)
  rw [hq, hp, e0]
  refine Finset.sum_congr rfl fun x _ => ?_
  refine congrArg₂ (fun a b : EReal => a * b) ?_ ?_
  · have hd : R8.blk V c 0 t (ix1 x) = V c main_v33 (ix1 (⟨t.val % 1661 * 1024 + x.val, by have := x.isLt; omega⟩ : Fin 1700864)) := by
      show V c main_v33 (((cfg8.win 0).blk t).view.emb (ix1 x)) = _
      refine congrArg _ (funext fun a => Fin.ext ?_)
      match a with
      | ⟨0, _⟩ => show win8_0.index t (0 : Fin 1) * 1024 + 1 * x.val = t.val % 1661 * 1024 + x.val; omega
    rw [hd]
  · show V c main_v50 (((cfg8.win 1).blk t).view.emb (ix2 x q)) = _
    refine congrArg _ (funext fun a => Fin.ext ?_)
    match a with
    | ⟨0, _⟩ => show win8_1.index t (0 : Fin 2) * 1024 + 1 * x.val = t.val % 1661 * 1024 + x.val; omega
    | ⟨1, _⟩ => show win8_1.index t (1 : Fin 2) * 32 + 1 * q.val = q.val; omega

/-- After the body at position n the scratch block holds, at (p, q), the edge tiles 0 … n mod 1661 against the number of
    padded node row 8192 (n / 1661) + p, summed. -/
theorem scratch_at (c : Dev nD) : ∀ (n : ℕ) (hn : n < cfg8.N) (p : Fin 8192) (q : Fin 32),
    ((R8.outsAt V c n hn).2 (ix2 p q) : EReal)
      = ∑ e ∈ Finset.range (n % 1661 + 1), tileS (V c main_v33) (V c main_v50) (8192 * (n / 1661) + p.val) q.val e := by
  intro n
  induction n with
  | zero =>
    intro hn p q
    rw [R8.outsAt_first V c ⟨0, hn⟩ (Nat.zero_mod 1661) (by show ¬ 0 % 1661 = 1660; decide)]
    dsimp only
    rw [scr_first_eq, step_entry V c ⟨0, hn⟩, Cert.Proof.Payloads6.scatter_init_entry, zero_add]
    dsimp only
    simp
  | succ n ih =>
    intro hn p q
    have hN : n + 1 < 21593 := lt_of_lt_of_eq hn N_8
    by_cases h0 : (n + 1) % 1661 = 0
    · have h1 : ¬(n + 1) % 1661 = 1660 := by omega
      rw [R8.outsAt_first V c ⟨n + 1, hn⟩ h0 h1]
      dsimp only
      rw [scr_first_eq, step_entry V c ⟨n + 1, hn⟩, Cert.Proof.Payloads6.scatter_init_entry, zero_add]
      dsimp only
      rw [h0]; simp
    · have hprev := ih (Nat.lt_of_succ_lt hn) p q
      have hdiv : n / 1661 = (n + 1) / 1661 := by omega
      have hmod : n % 1661 + 1 = (n + 1) % 1661 := by omega
      by_cases h1 : (n + 1) % 1661 = 1660
      · rw [R8.outsAt_last V c ⟨n + 1, hn⟩ h0 h1]
        dsimp only
        rw [scr_last_eq, step_entry V c ⟨n + 1, hn⟩]
        dsimp only
        simp only [Nat.add_sub_cancel]
        rw [← hmod, ← hdiv, Finset.sum_range_succ]
        exact congrArg (fun z : EReal => z + tileS _ _ _ _ _) hprev
      · rw [R8.outsAt_mid V c ⟨n + 1, hn⟩ h0 h1]
        dsimp only
        rw [scr_mid_eq, step_entry V c ⟨n + 1, hn⟩]
        dsimp only
        simp only [Nat.add_sub_cancel]
        rw [← hmod, ← hdiv, Finset.sum_range_succ]
        exact congrArg (fun z : EReal => z + tileS _ _ _ _ _) hprev

/-! ## From the last points' blocks to the array -/

/-- All 1661 edge tiles, as the array's entry spells them. -/
theorem tiles_all (D : S1700864.Idx → BitVec 32) (M : S1700864x32.Idx → EReal) (n : Fin 106496) (q : Fin 32) :
    ∑ e ∈ Finset.range 1661, tileS D M n.val q.val e
      = ∑ t : Fin 1661, ∑ x : Fin 1024,
          ind (rowWord (n.val / 8192) (⟨n.val % 8192, Nat.mod_lt _ (by norm_num)⟩ : Fin 8192) = D (ix1 (⟨t.val * 1024 + x.val, by have := t.isLt; have := x.isLt; omega⟩ : Fin 1700864)))
            * M (ix2 (⟨t.val * 1024 + x.val, by have := t.isLt; have := x.isLt; omega⟩ : Fin 1700864) q) := by
  rw [Finset.sum_range]
  refine Finset.sum_congr rfl fun t _ => ?_
  unfold tileS
  rw [dif_pos ⟨n.isLt, q.isLt, t.isLt⟩]

/-- WHAT A NODE TILE'S LAST POINT WRITES BACK is its block of the scatter's array. -/
theorem flushed_eq (c : Dev nD) (t : Fin cfg8.N) (hf : (cfg8.win 3).flush t = true) :
    (R8.dat V c).flushed 3 t = ((cfg8.win 3).blk t).view.read (Elt Ideal) (outArr32 (V c main_v33) (V c main_v50) (V c main_arg7)) := by
  have h1 : t.val % 1661 = 1660 := (R8.flush_3 t).mp hf
  have h0 : ¬ t.val % 1661 = 0 := by omega
  obtain ⟨e0, e1, e2, e3, e4, e5, e6⟩ := idx t
  have hN : t.val < 21593 := lt_of_lt_of_eq t.isLt N_8
  have hscr : k8_pay2 (F := Ideal) (grid8.coords t) (R8.blk V c 0 t) (R8.blk V c 1 t) (R8.outsAt V c (t.val - 1) (Nat.lt_of_le_of_lt (Nat.sub_le _ _) t.isLt)).2
      = (R8.outsAt V c t.val t.isLt).2 := by
    rw [R8.outsAt_last V c t h0 h1]; dsimp only; rw [scr_last_eq]
  show (cfg8.win 3).cut (grid8.coords t) ((R8.dat V c).after 3 t) = _
  rw [R8.after_3, R8.outsAt_last V c t h0 h1]
  dsimp only
  rw [out_last_eq, hscr]
  funext j
  obtain ⟨p, q, rfl⟩ : ∃ (p : Fin 8192) (q : Fin 32), j = ix2 p q := ⟨j 0, j 1, eq_ix2 j⟩
  show (k8_pay3 (F := Ideal) (R8.outsAt V c t.val t.isLt).2 (R8.blk V c 2 t) (ix2 p q) : EReal)
    = outArr32 (V c main_v33) (V c main_v50) (V c main_arg7) (((cfg8.win 3).blk t).view.emb (ix2 p q))
  rw [Cert.Proof.Payloads6.scatter_out_entry, scratch_at V c t.val t.isLt p q, h1]
  have hx0 : ((((cfg8.win 3).blk t).view.emb (ix2 p q)) 0).val = 8192 * (t.val / 1661) + p.val := by
    show win8_3.index t (0 : Fin 2) * 8192 + 1 * p.val = _; omega
  have hx1 : ((((cfg8.win 3).blk t).view.emb (ix2 p q)) 1).val = q.val := by
    show win8_3.index t (1 : Fin 2) * 32 + 1 * q.val = _; omega
  unfold outArr32
  have hxlt : 8192 * (t.val / 1661) + p.val < 106496 := by have := p.isLt; omega
  have hcol : (⟨((((cfg8.win 3).blk t).view.emb (ix2 p q)) 1).val, idx2_lt1 _⟩ : Fin 32) = q := Fin.ext hx1
  rw [hcol]
  simp only [hx0]
  refine congrArg₂ (fun a b : EReal => a + b) ?_ ?_
  · exact tiles_all (V c main_v33) (V c main_v50) ⟨8192 * (t.val / 1661) + p.val, hxlt⟩ q
  · show V c main_arg7 (((cfg8.win 2).blk t).view.emb (ix1 q)) = _
    refine congrArg _ (funext fun a => Fin.ext ?_)
    match a with
    | ⟨0, _⟩ => show win8_2.index t (0 : Fin 1) * 32 + 1 * q.val = q.val; omega

/-- An index of the scatter's array is in point t's block iff its row is in node tile t / 1661. -/
theorem mem_blk (t : Fin cfg8.N) (i : S106496x32.Idx) :
    i ∈ ((cfg8.win 3).blk t).view.set ↔ ∀ a : Fin 2, win8_3.index t a * S8192x32.size a ≤ (i a).val ∧ (i a).val < win8_3.index t a * S8192x32.size a + S8192x32.size a := by
  show i ∈ ((View.whole (Pipeline.arrRef spec8 3)).slice (win8_3.rect t)).set ↔ _
  rw [View.set_slice_whole, Rect.mem_set_unit]
  exact Iff.rfl

/-- Every index is in the block of its node tile's last point. -/
theorem cover (i : S106496x32.Idx) : ∃ t : Fin cfg8.N, (cfg8.win 3).flush t = true ∧ i ∈ ((cfg8.win 3).blk t).view.set := by
  have hi0 : (i 0).val < 106496 := idx2_lt0 i
  have hi1 : (i 1).val < 32 := idx2_lt1 i
  have hlt : 1661 * ((i 0).val / 8192) + 1660 < cfg8.N := by rw [show cfg8.N = 21593 from N_8]; omega
  refine ⟨⟨1661 * ((i 0).val / 8192) + 1660, hlt⟩, (R8.flush_3 _).mpr (by show (1661 * ((i 0).val / 8192) + 1660) % 1661 = 1660; omega), ?_⟩
  rw [mem_blk]
  obtain ⟨e0, e1, e2, e3, e4, e5, e6⟩ := idx ⟨1661 * ((i 0).val / 8192) + 1660, hlt⟩
  intro a
  match a with
  | ⟨0, _⟩ =>
    show win8_3.index _ (0 : Fin 2) * 8192 ≤ (i 0).val ∧ (i 0).val < win8_3.index _ (0 : Fin 2) * 8192 + 8192
    rw [e5]; show (1661 * ((i 0).val / 8192) + 1660) / 1661 * 8192 ≤ (i 0).val ∧ (i 0).val < (1661 * ((i 0).val / 8192) + 1660) / 1661 * 8192 + 8192
    have : (1661 * ((i 0).val / 8192) + 1660) / 1661 = (i 0).val / 8192 := by omega
    rw [this]; omega
  | ⟨1, _⟩ =>
    show win8_3.index _ (1 : Fin 2) * 32 ≤ (i 1).val ∧ (i 1).val < win8_3.index _ (1 : Fin 2) * 32 + 32
    rw [e6]; omega

/-- THE SCATTER'S ARRAY after the region. -/
theorem final (c : Dev nD) : (R8.dat V c).arrAt 3 cfg8.N = outArr32 (V c main_v33) (V c main_v50) (V c main_arg7) :=
  (R8.dat V c).arrAt_eq_of_cover 3 _ (fun t hf => flushed_eq V c t hf) cover

end Cert.Proof.KV8

end
-- ==== Proof.LibSegSum.lean ====
/-
  Scatter-adds along a column of row indices, at the ideal values, read at one entry — for any extents.

  A table x : [N, C] receives updates u : [E, C] at a column [E, 1] of row indices (what a segment sum of E rows into N
  segments lowers to): update element (e, c) is added at (r e, c), where r e is edge e's index read as a signed integer,
  and is dropped when r e is outside [0, N).  So the result at (n, q) is

      x(n, q) + Σ_{e < E} [r e = n] · u(e, q)                                   (scatterRows_apply),

  the bracket meaning: the summand is u(e, q) where the equation holds and 0 elsewhere.  The vector form — x : [N],
  u : [E], the same column of indices — has at n the value x(n) + Σ_{e < E} [r e = n] · u(e)   (scatterVec_apply).

  Both follow from the exact landing condition of one update element (rows_lands_iff, vec_lands_iff): it lands on an
  entry iff its row index, read signed, IS that entry's row and (for rows) its column is that entry's column.  The sums
  are finite sums on the extended reals, which form a commutative monoid under addition, so nothing about finiteness of
  the summands is needed.
  Imports only the library.
-/
import Idealize.ShloMosaic.PureOps.Ideal.Laws
import Idealize.ShloMosaic.Lib.ValueIdx
import Idealize.ShloMosaic.Lib.Pipeline.Value

noncomputable section

open scoped BigOperators

namespace Cert.LibSegSum

open Idealize.ShloMosaic Idealize.ShloMosaic.ValueIdx

/-! ## Rows: a table [N, C], indices [E, 1], updates [E, C] -/

/-- The dimension numbers of a row scatter: the updates' axis 1 is the window axis and goes to the table's axis 1, the
    table's axis 0 is indexed by the one component of the index vector. -/
abbrev rowsScatter (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N C E w : Nat} (wf : ScatterDims.WF ⟨2, ![N, C]⟩ ⟨2, ![E, 1]⟩ ⟨2, ![E, C]⟩ [1] [0] [0] 1)
  (idx : IVec ⟨2, ![E, 1]⟩ w) (u : (⟨2, ![E, C]⟩ : Shape).Idx)

/-- On the row axis the window starts at the edge's index, read signed. -/
theorem rows_start_row :
    (rowsScatter N C E wf).start u idx (0 : Fin 2) = (idx (ix2 (u 0) (0 : Fin 1))).toInt := by
  unfold ScatterDims.start
  rw [dif_pos (show (0 : Fin 2) ∈ (rowsScatter N C E wf).scatterDimsToOperandDims from List.mem_singleton.mpr rfl)]
  refine congrArg (fun k => (idx k).toInt) (funext fun b => Fin.ext ?_)
  match b with
  | ⟨0, _⟩ => rfl
  | ⟨1, _⟩ => rfl

/-- On the column axis the window starts at 0. -/
theorem rows_start_col : (rowsScatter N C E wf).start u idx (1 : Fin 2) = 0 := by
  unfold ScatterDims.start
  exact dif_neg (show ¬ (1 : Fin 2) ∈ ([0] : List (Fin 2)) by decide)

/-- The row axis is inserted: no window coordinate there. -/
theorem rows_window_row : (rowsScatter N C E wf).window u (0 : Fin 2) = 0 := by
  unfold ScatterDims.window
  exact dif_neg (show ¬ (0 : Fin 2) ∈ (rowsScatter N C E wf).sKept by
    simp [ScatterDims.sKept, Shape.kept, List.mem_filter, List.mem_finRange])

/-- On the column axis the window coordinate is the update's own column. -/
theorem rows_window_col : (rowsScatter N C E wf).window u (1 : Fin 2) = (u 1).val := by
  unfold ScatterDims.window
  rw [dif_pos (show (1 : Fin 2) ∈ (rowsScatter N C E wf).sKept by
    simp [ScatterDims.sKept, Shape.kept, List.mem_filter, List.mem_finRange])]
  rfl

/-- An update element lands on the entry i exactly when its edge's index, read signed, is i's row and its column is
    i's column. -/
theorem rows_lands_iff (i : (⟨2, ![N, C]⟩ : Shape).Idx) :
    (rowsScatter N C E wf).resultIdx? u idx = some i
      ↔ (idx (ix2 (u 0) (0 : Fin 1))).toInt = ((i 0).val : Int) ∧ (u 1).val = (i 1).val := by
  have hi0 : (i 0).val < N := idx2_lt0 i
  have hi1 : (i 1).val < C := idx2_lt1 i
  have hu1 : (u 1).val < C := idx2_lt1 u
  unfold ScatterDims.resultIdx?
  split
  · rename_i hall
    have h0 := (hall 0).1
    rw [rows_start_row, rows_window_row] at h0
    constructor
    · intro h
      have e0 : ((rowsScatter N C E wf).start u idx 0 + (rowsScatter N C E wf).window u 0).toNat = (i 0).val :=
        congrArg Fin.val (congrFun (Option.some.inj h) 0)
      have e1 : ((rowsScatter N C E wf).start u idx 1 + (rowsScatter N C E wf).window u 1).toNat = (i 1).val :=
        congrArg Fin.val (congrFun (Option.some.inj h) 1)
      rw [rows_start_row, rows_window_row] at e0
      rw [rows_start_col, rows_window_col] at e1
      constructor <;> omega
    · rintro ⟨hr, hc⟩
      refine congrArg some (funext fun a => Fin.ext ?_)
      match a with
      | ⟨0, _⟩ =>
        show ((rowsScatter N C E wf).start u idx 0 + (rowsScatter N C E wf).window u 0).toNat = (i 0).val
        rw [rows_start_row, rows_window_row]; omega
      | ⟨1, _⟩ =>
        show ((rowsScatter N C E wf).start u idx 1 + (rowsScatter N C E wf).window u 1).toNat = (i 1).val
        rw [rows_start_col, rows_window_col]; omega
  · rename_i hno
    constructor
    · intro h; exact absurd h (by simp)
    · rintro ⟨hr, hc⟩
      refine absurd (fun a => ?_) hno
      match a with
      | ⟨0, _⟩ =>
        show 0 ≤ (rowsScatter N C E wf).start u idx 0 + (rowsScatter N C E wf).window u 0
          ∧ (rowsScatter N C E wf).start u idx 0 + (rowsScatter N C E wf).window u 0 < (N : Int)
        rw [rows_start_row, rows_window_row]; omega
      | ⟨1, _⟩ =>
        show 0 ≤ (rowsScatter N C E wf).start u idx 1 + (rowsScatter N C E wf).window u 1
          ∧ (rowsScatter N C E wf).start u idx 1 + (rowsScatter N C E wf).window u 1 < (C : Int)
        rw [rows_start_col, rows_window_col]; omega

end Rows

/-- A row scatter-add read at (n, q): the table's entry plus the updates (e, q) of the edges e whose index is n. -/
theorem scatterRows_apply {N C E w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ)
    (n : Fin N) (q : Fin C) :
    Host.scatterAdd (F := Ideal) (rowsScatter N C E wf) x idx upd (ix2 n q)
      = x (ix2 n q) + ∑ e : Fin E, if (idx (ix2 e (0 : Fin 1))).toInt = (n.val : Int) then upd (ix2 e q) else 0 := by
  simp only [Host.scatterAdd, Ideal.hostScatterAdd_def, Ideal.hostScatterAdd]
  refine congrArg (x (ix2 n q) + ·) ?_
  rw [Finset.sum_filter, sum_idx2]
  refine Finset.sum_congr rfl fun e _ => ?_
  by_cases hr : (idx (ix2 e (0 : Fin 1))).toInt = (n.val : Int)
  · rw [if_pos hr]
    rw [Finset.sum_eq_single q]
    · exact if_pos ((rows_lands_iff wf idx (ix2 e q) (ix2 n q)).mpr ⟨hr, rfl⟩)
    · intro c _ hc
      exact if_neg fun h => hc (Fin.ext ((rows_lands_iff wf idx (ix2 e c) (ix2 n q)).mp h).2)
    · intro h; exact absurd (Finset.mem_univ q) h
  · rw [if_neg hr]
    exact Finset.sum_eq_zero fun c _ => if_neg fun h => hr ((rows_lands_iff wf idx (ix2 e c) (ix2 n q)).mp h).1

/-! ## A vector [N], indices [E, 1], updates [E] -/

/-- The dimension numbers of a scatter of scalars: no window axis, the vector's one axis indexed by the one component of
    the index vector. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)
  (idx : IVec ⟨2, ![E, 1]⟩ w) (u : (⟨1, ![E]⟩ : Shape).Idx)

/-- The window starts at the edge's index, read signed. -/
theorem vec_start : (vecScatter N E wf).start u idx (0 : Fin 1) = (idx (ix2 (u 0) (0 : Fin 1))).toInt := by
  unfold ScatterDims.start
  rw [dif_pos (show (0 : Fin 1) ∈ (vecScatter N E wf).scatterDimsToOperandDims from List.mem_singleton.mpr rfl)]
  refine congrArg (fun k => (idx k).toInt) (funext fun b => Fin.ext ?_)
  match b with
  | ⟨0, _⟩ => rfl
  | ⟨1, _⟩ => rfl

/-- The one axis is inserted: no window coordinate. -/
theorem vec_window : (vecScatter N E wf).window u (0 : Fin 1) = 0 := by
  unfold ScatterDims.window
  exact dif_neg (show ¬ (0 : Fin 1) ∈ (vecScatter N E wf).sKept by
    simp [ScatterDims.sKept, Shape.kept, List.mem_filter, List.mem_finRange])

/-- An update lands on the entry i exactly when its edge's index, read signed, is i. -/
theorem vec_lands_iff (i : (⟨1, ![N]⟩ : Shape).Idx) :
    (vecScatter N E wf).resultIdx? u idx = some i ↔ (idx (ix2 (u 0) (0 : Fin 1))).toInt = ((i 0).val : Int) := by
  have hi0 : (i 0).val < N := (i 0).isLt
  unfold ScatterDims.resultIdx?
  split
  · rename_i hall
    have h0 := (hall 0).1
    rw [vec_start, vec_window] at h0
    constructor
    · intro h
      have e0 : ((vecScatter N E wf).start u idx 0 + (vecScatter N E wf).window u 0).toNat = (i 0).val :=
        congrArg Fin.val (congrFun (Option.some.inj h) 0)
      rw [vec_start, vec_window] at e0
      omega
    · intro hr
      refine congrArg some (funext fun a => Fin.ext ?_)
      obtain rfl : a = 0 := Subsingleton.elim _ _
      show ((vecScatter N E wf).start u idx 0 + (vecScatter N E wf).window u 0).toNat = (i 0).val
      rw [vec_start, vec_window]; omega
  · rename_i hno
    constructor
    · intro h; exact absurd h (by simp)
    · intro hr
      refine absurd (fun a => ?_) hno
      obtain rfl : a = 0 := Subsingleton.elim _ _
      show 0 ≤ (vecScatter N E wf).start u idx 0 + (vecScatter N E wf).window u 0
        ∧ (vecScatter N E wf).start u idx 0 + (vecScatter N E wf).window u 0 < (N : Int)
      rw [vec_start, vec_window]; omega

end Vec

/-- A sum over the index set of a one-dimensional array is the sum over its coordinate. -/
theorem sum_idx1 {M : Type*} [AddCommMonoid M] {n : Nat} (f : (⟨1, ![n]⟩ : Shape).Idx → M) :
    ∑ i, f i = ∑ a : Fin n, f (ix1 a) := by
  refine (Equiv.sum_comp (⟨fun a => ix1 a, fun i => i 0, fun _ => rfl, fun i => (eq_ix1 i).symm⟩ :
    Fin n ≃ (⟨1, ![n]⟩ : Shape).Idx) f).symm.trans ?_
  rfl

/-- A scatter-add of scalars read at n: the vector's entry plus the updates of the edges whose index is n. -/
theorem scatterVec_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (vecScatter N E wf) x idx upd (ix1 n)
      = x (ix1 n) + ∑ e : Fin E, if (idx (ix2 e (0 : Fin 1))).toInt = (n.val : Int) then upd (ix1 e) else 0 := by
  simp only [Host.scatterAdd, Ideal.hostScatterAdd_def, Ideal.hostScatterAdd]
  refine congrArg (x (ix1 n) + ·) ?_
  rw [Finset.sum_filter, sum_idx1]
  refine Finset.sum_congr rfl fun e _ => ?_
  by_cases hr : (idx (ix2 e (0 : Fin 1))).toInt = (n.val : Int)
  · rw [if_pos hr]; exact if_pos ((vec_lands_iff wf idx (ix1 e) (ix1 n)).mpr hr)
  · rw [if_neg hr]; exact if_neg fun h => hr ((vec_lands_iff wf idx (ix1 e) (ix1 n)).mp h)

end Cert.LibSegSum

end
-- ==== Proof.LibGraphOps.lean ====
/-
  Rows of a node table gathered along an edge list, and rows scattered back with addition, at the ideal values.

  A table x : [N, J] gathered at a column of E start indices has at (e, j) the entry x(r e, j), where r e is the start
  index of edge e read as a signed integer and clamped into [0, N - 1]; a vector x : [N] gathered the same way has at e
  the entry x(r e).  A scatter-add of updates u : [E, J] into a table [N, J] at a column of E indices adds u(e, j) into
  row d of column j exactly for the edges e whose index, read signed and NOT clamped, is d; an index outside [0, N)
  adds nothing.  So an edge that lands on row d has a non-negative index whose clamp is d itself.

  The law proved here (scatterAdd_rescale): if every update of one scatter is the matching update of another times a
  factor that depends only on the row the edge lands on, and that factor is a non-negative real number, then the first
  scatter's sum is the second's times the factor.  On the extended reals (a + b) * c = a * c + b * c holds for any a, b
  once 0 ≤ c < ⊤, which is what lets the factor leave the sum whatever the summands are.
  Also here: the host's reduction with a maximum body along the columns of a matrix, at a row, as a fold of max over the
  columns (hostRowMax_apply), at any extents.
  Imports only the library.
-/
import Idealize.ShloMosaic.PureOps.Ideal.Laws
import Idealize.ShloMosaic.Lib.ValueIdx
import Idealize.ShloMosaic.Lib.Pipeline.Value

noncomputable section

open scoped BigOperators

namespace Cert.LibGraph

open Idealize.ShloMosaic Idealize.ShloMosaic.ValueIdx

/-! ## A start index read signed and clamped into the table -/

/-- A start index word read as a signed integer and clamped into [0, N - 1]. -/
def clampIdx (N : Nat) (hN : 0 < N) {w : Nat} (v : BitVec w) : Fin N :=
  ⟨min v.toInt.toNat (N - 1), by have := Nat.min_le_right v.toInt.toNat (N - 1); omega⟩

/-- A non-negative index below N is its own clamp. -/
theorem clampIdx_of_landed {N : Nat} (hN : 0 < N) {w : Nat} (v : BitVec w) (d : Fin N) (h : v.toInt = (d.val : Int)) :
    clampIdx N hN v = d := by
  apply Fin.ext
  show min v.toInt.toNat (N - 1) = d.val
  have := d.isLt
  have h' : v.toInt.toNat = d.val := by omega
  rw [h']; omega

/-! ## Gathers of rows -/

/-- The dimension numbers of x[idx] for a table [N, J] and a column [E, 1] of start indices. -/
abbrev rowsGather (N J E : Nat) (wf : GatherDims.WF ⟨2, ![N, J]⟩ ⟨2, ![E, 1]⟩ ⟨2, ![E, J]⟩ [1] [0] [] [0] [] 1 ![1, J]) :
    GatherDims ⟨2, ![N, J]⟩ ⟨2, ![E, 1]⟩ ⟨2, ![E, J]⟩ where
  offsetDims := [1]
  collapsedSliceDims := [0]
  operandBatchingDims := []
  startIndicesBatchingDims := []
  startIndexMap := [0]
  indexVectorDim := 1
  sliceSizes := ![1, J]
  wf := wf

/-- The gathered table at (e, j) is the table at (clamped start index of e, j). -/
theorem gatherRows_apply {α : Type} {N J E w : Nat} (hN : 0 < N)
    (wf : GatherDims.WF ⟨2, ![N, J]⟩ ⟨2, ![E, 1]⟩ ⟨2, ![E, J]⟩ [1] [0] [] [0] [] 1 ![1, J])
    (x : (⟨2, ![N, J]⟩ : Shape).Idx → α) (idx : IVec ⟨2, ![E, 1]⟩ w) (e : Fin E) (j : Fin J) :
    Host.gather (rowsGather N J E wf) x idx (ix2 e j) = x (ix2 (clampIdx N hN (idx (ix2 e (0 : Fin 1)))) j) := by
  -- the row coordinate: the clamped start index, no batch and no offset part
  have h0 : (rowsGather N J E wf).start (ix2 e j) idx (0 : Fin 2) + (rowsGather N J E wf).batchCoord (ix2 e j) (0 : Fin 2)
      + (rowsGather N J E wf).offCoord (ix2 e j) (0 : Fin 2) = (clampIdx N hN (idx (ix2 e (0 : Fin 1)))).val := by
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ (rowsGather N J E wf).startIndexMap from List.mem_singleton.mpr rfl)]
    have hsi : (rowsGather N J E wf).siIdx (ix2 e j) ⟨List.idxOf (0 : Fin 2) (rowsGather N J E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  -- the column coordinate: no start, no batch part, the result's own column
  have h1 : (rowsGather N J E wf).start (ix2 e j) idx (1 : Fin 2) + (rowsGather N J E wf).batchCoord (ix2 e j) (1 : Fin 2)
      + (rowsGather N J E wf).offCoord (ix2 e j) (1 : Fin 2) = j.val := by
    have hs : (rowsGather N J E wf).start (ix2 e j) idx (1 : Fin 2) = 0 := by
      unfold GatherDims.start
      exact dif_neg (show ¬ (1 : Fin 2) ∈ ([0] : List (Fin 2)) by decide)
    have hk : (1 : Fin 2) ∈ (rowsGather N J E wf).sKept :=
      (GatherDims.mem_sKept _ _).mpr ⟨(show ¬ (1 : Fin 2) ∈ ([0] : List (Fin 2)) by decide), List.not_mem_nil⟩
    rw [hs, GatherDims.batchCoord_eq_zero _ _ _ List.not_mem_nil, Nat.add_zero, Nat.zero_add]
    unfold GatherDims.offCoord
    rw [dif_pos hk]
    rfl
  unfold Host.gather
  refine congrArg x (funext fun a => Fin.ext ?_)
  match a with
  | ⟨0, _⟩ => exact h0
  | ⟨1, _⟩ => exact h1

/-- The dimension numbers of x[idx] for a vector [N] and a column [E, 1] of start indices. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gathered vector at e is the vector at the clamped start index of e. -/
theorem gatherVec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (clampIdx N hN (idx (ix2 e (0 : Fin 1))))) := by
  unfold Host.gather
  refine congrArg x (funext fun a => Fin.ext ?_)
  obtain rfl : a = 0 := Subsingleton.elim _ _
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Scatter-adds of rows -/

/-- The dimension numbers of .at[idx].add(u) for a table [N, J], a column [E, 1] of indices and updates [E, J]. -/
abbrev rowsScatter (N J E : Nat) (wf : ScatterDims.WF ⟨2, ![N, J]⟩ ⟨2, ![E, 1]⟩ ⟨2, ![E, J]⟩ [1] [0] [0] 1) :
    ScatterDims ⟨2, ![N, J]⟩ ⟨2, ![E, 1]⟩ ⟨2, ![E, J]⟩ where
  updateWindowDims := [1]
  insertedWindowDims := [0]
  scatterDimsToOperandDims := [0]
  indexVectorDim := 1
  wf := wf

/-- An update that lands on row d comes from an edge whose index, read signed, is d: it is not negative and its
    value is d. -/
theorem scatterRows_landed {N J E w : Nat} (wf : ScatterDims.WF ⟨2, ![N, J]⟩ ⟨2, ![E, 1]⟩ ⟨2, ![E, J]⟩ [1] [0] [0] 1)
    (idx : IVec ⟨2, ![E, 1]⟩ w) (u : (⟨2, ![E, J]⟩ : Shape).Idx) (i : (⟨2, ![N, J]⟩ : Shape).Idx)
    (h : (rowsScatter N J E wf).resultIdx? u idx = some i) :
    (idx (ix2 (u 0) (0 : Fin 1))).toInt = ((i 0).val : Int) := by
  unfold ScatterDims.resultIdx? at h
  split at h
  · rename_i hall
    have hi := congrFun (Option.some.inj h) 0
    have hv : ((rowsScatter N J E wf).start u idx 0 + (rowsScatter N J E wf).window u 0).toNat = (i 0).val :=
      congrArg Fin.val hi
    have hw : (rowsScatter N J E wf).window u (0 : Fin 2) = 0 := by
      unfold ScatterDims.window
      exact dif_neg (show ¬ (0 : Fin 2) ∈ (rowsScatter N J E wf).sKept by
        simp [ScatterDims.sKept, Shape.kept, List.mem_filter, List.mem_finRange])
    have hst : (rowsScatter N J E wf).start u idx (0 : Fin 2) = (idx (ix2 (u 0) (0 : Fin 1))).toInt := by
      unfold ScatterDims.start
      rw [dif_pos (show (0 : Fin 2) ∈ (rowsScatter N J E wf).scatterDimsToOperandDims from List.mem_singleton.mpr rfl)]
      have hsi : (rowsScatter N J E wf).siIdx u ⟨List.idxOf (0 : Fin 2) (rowsScatter N J E wf).scatterDimsToOperandDims,
          List.idxOf_lt_length_iff.2 (List.mem_singleton.mpr rfl)⟩ = ix2 (u 0) (0 : Fin 1) := by
        funext b; refine Fin.ext ?_
        match b with
        | ⟨0, _⟩ => rfl
        | ⟨1, _⟩ => rfl
      rw [hsi]
      rfl
    have hnn : 0 ≤ (rowsScatter N J E wf).start u idx 0 + (((rowsScatter N J E wf).window u 0 : Nat) : Int) := (hall 0).1
    rw [hw, hst] at hv hnn
    simp only [Nat.cast_zero, add_zero] at hv hnn
    omega
  · exact absurd h (by simp)

/-! ## A factor that leaves a sum -/

/-- A non-negative real factor leaves a finite sum of extended reals. -/
theorem sum_mul_of_nonneg_ne_top {ι : Type} (s : Finset ι) (f : ι → EReal) (c : EReal) (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- THE LAW.  Two scatter-adds into zero tables at the same indices.  If at every update that lands on a row the
    second scatter's update is the first's times a factor c(row), and c(row) is a non-negative real, then at every
    entry the first scatter's sum times c(row) is the second's sum. -/
theorem scatterAdd_rescale {N J E w : Nat} (wf : ScatterDims.WF ⟨2, ![N, J]⟩ ⟨2, ![E, 1]⟩ ⟨2, ![E, J]⟩ [1] [0] [0] 1)
    (z : FVec Ideal ⟨2, ![N, J]⟩ .f32) (hz : ∀ i, z i = 0) (idx : IVec ⟨2, ![E, 1]⟩ w)
    (u₁ u₂ : FVec Ideal ⟨2, ![E, J]⟩ .f32) (c : Fin N → EReal) (h0 : ∀ n, 0 ≤ c n) (ht : ∀ n, c n ≠ ⊤)
    (hu : ∀ (u : (⟨2, ![E, J]⟩ : Shape).Idx) (i : (⟨2, ![N, J]⟩ : Shape).Idx),
      (rowsScatter N J E wf).resultIdx? u idx = some i → u₂ u = u₁ u * c (i 0))
    (i : (⟨2, ![N, J]⟩ : Shape).Idx) :
    Host.scatterAdd (F := Ideal) (rowsScatter N J E wf) z idx u₁ i * c (i 0)
      = Host.scatterAdd (F := Ideal) (rowsScatter N J E wf) z idx u₂ i := by
  simp only [Host.scatterAdd, Ideal.hostScatterAdd_def, Ideal.hostScatterAdd]
  rw [hz i, zero_add, zero_add]
  refine (sum_mul_of_nonneg_ne_top _ _ (c (i 0)) (h0 _) (ht _)).trans ?_
  refine Finset.sum_congr rfl fun u hu' => ?_
  exact (hu u i (Finset.mem_filter.mp hu').2).symm

/-! ## The inverse square root of a degree, guarded -/

/-- where(x > 0, rsqrt x, 0) on the extended reals is a non-negative real number, whatever x is: the inverse root of a
    positive real, 0 at +∞ (rsqrt's value there), and 0 where the guard fails. -/
theorem guardedRsqrt_nonneg_ne_top (x : EReal) :
    0 ≤ Scalar.select (Ideal.cmp .ogt x 0) (Ideal.rsqrt x) (0 : EReal)
      ∧ Scalar.select (Ideal.cmp .ogt x 0) (Ideal.rsqrt x) (0 : EReal) ≠ ⊤ := by
  induction x using EReal.rec with
  | bot => simp [Scalar.select, Ideal.cmp]
  | top =>
    have hr : Ideal.rsqrt (⊤ : EReal) = 0 := rfl
    simp [Scalar.select, Ideal.cmp, hr]
  | coe r =>
    by_cases h : 0 < r
    · have h1 : ¬ r < 0 := not_lt.mpr h.le
      have h2 : r ≠ 0 := h.ne'
      have hc : Ideal.cmp .ogt (r : EReal) 0 = 1#1 := by simp [Ideal.cmp, h]
      have hr : Ideal.rsqrt (r : EReal) = (((Real.sqrt r)⁻¹ : ℝ) : EReal) := by
        show (if r < 0 then (⊥ : EReal) else if r = 0 then ⊤ else (((Real.sqrt r)⁻¹ : ℝ) : EReal)) = _
        rw [if_neg h1, if_neg h2]
      rw [hc, show Scalar.select 1#1 (Ideal.rsqrt (r : EReal)) (0 : EReal) = Ideal.rsqrt (r : EReal) from if_pos rfl, hr]
      exact ⟨by exact_mod_cast inv_nonneg.mpr (Real.sqrt_nonneg r), EReal.coe_ne_top _⟩
    · have hc : Ideal.cmp .ogt (r : EReal) 0 = 0#1 := by simp [Ideal.cmp, h]
      rw [hc, show Scalar.select 0#1 (Ideal.rsqrt (r : EReal)) (0 : EReal) = 0 from if_neg (by decide)]
      exact ⟨le_refl _, EReal.zero_ne_top⟩

/-! ## A negative index wrapped, where the index is not negative -/

/-- where(v < 0, a, v) is v for an index word v that is not negative as a signed integer, whatever a is (in the
    programs a is v + n, the index wrapped from the end). -/
theorem wrapIdx_of_nonneg {w : Nat} (v a z : BitVec w) (hz : z = 0#w) (h : 0 ≤ v.toInt) :
    Scalar.select (IntOp.cmpi .slt v z) a v = v := by
  subst hz
  have : IntOp.cmpi .slt v 0#w = 0#1 := by
    simp only [IntOp.cmpi, BitVec.slt, BitVec.toInt_zero]
    simp [not_lt.mpr h]
  rw [this]
  exact if_neg (by decide)

/-! ## A row's maximum on the host -/

/-- The host's reduction with a maximum body along the columns of an [R, C] matrix, at row p: the fold of max, from the
    initial value, over the columns of that row's entries. -/
theorem hostRowMax_apply {R C : Nat} (x : FVec Ideal ⟨2, ![R, C]⟩ .f32) (init : FVec Ideal ⟨0, ![]⟩ .f32)
    (h' : Shape.ReducesTo (⟨2, ![R, C]⟩ : Shape) [1] ⟨1, ![R]⟩) (h : Shape.Reduces (⟨2, ![R, C]⟩ : Shape) [1] ⟨1, ![R]⟩)
    (hu : 0 < (⟨0, ![]⟩ : Shape).numel) (p : Fin R) :
    Host.reduce FloatOps.maximumf x init h' hu (ix1 p)
      = (Finset.univ : Finset (Fin C)).fold max (init (Shape.Idx.first hu)) (fun k => x (ix2 p k)) := by
  rw [Host.reduce_eq_fold_single FloatOps.maximumf x _ h' h hu]
  exact congrArg (fun f => Finset.fold max (init (Shape.Idx.first hu)) f (Finset.univ : Finset (Fin C)))
    (funext fun k => congrArg x (funext fun d => Fin.ext (by
      match d with
      | ⟨0, _⟩ => rfl
      | ⟨1, _⟩ => rfl)))

end Cert.LibGraph

end
-- ==== Proof.LibBcast.lean ====
/-
  `broadcast_in_dim` of small shapes read at one entry, at ANY extents and any element type.

  * A column [N, 1] repeated along C columns (operand axes to result axes 0, 1) reads, at (n, c), the column at (n, 0)
    (`bcastCol_apply`); a row [1, C] repeated along N rows reads, at (n, c), the row at (0, c) (`bcastRow_apply`).
  * A vector [C] laid as a row [1, C] (operand axis to result axis 1) reads, at (u, c), the vector at c
    (`bcastVecRow_apply`); a vector [N] laid as a column [N, 1] (operand axis to result axis 0) reads, at (n, u), the
    vector at n (`bcastVecCol_apply`).
  * A scalar broadcast to any shape reads, at any index, the scalar (`bcastScalar_apply`).
  Imports only the library.
-/
import Idealize.ShloMosaic.Lib.ValueIdx
import Idealize.ShloMosaic.Lib.Pipeline.Value

noncomputable section

namespace Cert.LibBcast

open Idealize.ShloMosaic Idealize.ShloMosaic.ValueIdx

variable {α : Type}

/-- A column [N, 1] repeated along C columns reads, at (n, c), the column at (n, 0). -/
theorem bcastCol_apply {N C : Nat} (x : (⟨2, ![N, 1]⟩ : Shape).Idx → α)
    (h : (⟨2, ![N, 1]⟩ : Shape).BroadcastsInDim ⟨2, ![N, C]⟩ ![0, 1]) (n : Fin N) (c : Fin C) :
    broadcastInDim ⟨2, ![N, C]⟩ ![0, 1] h x (ix2 n c) = x (ix2 n (0 : Fin 1)) := by
  refine broadcastInDim_apply ![0, 1] h x (ix2 n c) (ix2 n (0 : Fin 1)) fun a => ?_
  match a with
  | ⟨0, _⟩ =>
    show n.val = if N = 1 then 0 else n.val
    split
    · have := n.isLt; omega
    · rfl
  | ⟨1, _⟩ => rfl

/-- A row [1, C] repeated along N rows reads, at (n, c), the row at (0, c). -/
theorem bcastRow_apply {N C : Nat} (x : (⟨2, ![1, C]⟩ : Shape).Idx → α)
    (h : (⟨2, ![1, C]⟩ : Shape).BroadcastsInDim ⟨2, ![N, C]⟩ ![0, 1]) (n : Fin N) (c : Fin C) :
    broadcastInDim ⟨2, ![N, C]⟩ ![0, 1] h x (ix2 n c) = x (ix2 (0 : Fin 1) c) := by
  refine broadcastInDim_apply ![0, 1] h x (ix2 n c) (ix2 (0 : Fin 1) c) fun a => ?_
  match a with
  | ⟨0, _⟩ => rfl
  | ⟨1, _⟩ =>
    show c.val = if C = 1 then 0 else c.val
    split
    · have := c.isLt; omega
    · rfl

/-- A vector [C] laid as a row [1, C] reads, at (u, c), the vector at c. -/
theorem bcastVecRow_apply {C : Nat} (x : (⟨1, ![C]⟩ : Shape).Idx → α)
    (h : (⟨1, ![C]⟩ : Shape).BroadcastsInDim ⟨2, ![1, C]⟩ ![1]) (u : Fin 1) (c : Fin C) :
    broadcastInDim ⟨2, ![1, C]⟩ ![1] h x (ix2 u c) = x (ix1 c) := by
  refine broadcastInDim_apply ![1] h x (ix2 u c) (ix1 c) fun a => ?_
  match a with
  | ⟨0, _⟩ =>
    show c.val = if C = 1 then 0 else c.val
    split
    · have := c.isLt; omega
    · rfl

/-- A vector [N] laid as a column [N, 1] reads, at (n, u), the vector at n. -/
theorem bcastVecCol_apply {N : Nat} (x : (⟨1, ![N]⟩ : Shape).Idx → α)
    (h : (⟨1, ![N]⟩ : Shape).BroadcastsInDim ⟨2, ![N, 1]⟩ ![0]) (n : Fin N) (u : Fin 1) :
    broadcastInDim ⟨2, ![N, 1]⟩ ![0] h x (ix2 n u) = x (ix1 n) := by
  refine broadcastInDim_apply ![0] h x (ix2 n u) (ix1 n) fun a => ?_
  match a with
  | ⟨0, _⟩ =>
    show n.val = if N = 1 then 0 else n.val
    split
    · have := n.isLt; omega
    · rfl

/-- A scalar broadcast to any shape reads, at any index, the scalar. -/
theorem bcastScalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun a => a.elim0

end Cert.LibBcast

end
-- ==== Proof.LibGcn.lean ====
/-
  One layer of normalised neighbour aggregation over an edge list, read at one entry — for any number of nodes N,
  channels C and edges M.

  An edge e has a source word s(e) and a target word d(e).  A word is turned into a node by wrapping a negative word
  from the end (w + nW where w < 0) and clamping the signed result into [0, N - 1]: write g(w) for that node.
  With a node table h : [N, C] and a node weight v : [N], every edge sends h(g(s e), ·) · (v(g(s e)) · v(g(d e))) to
  the node whose number its target word IS (read signed, not wrapped, not clamped; a word outside [0, N) sends
  nothing).  So the aggregate at (n, q) is

      0 + Σ_{e < M} [d(e) = n] · h(g(s e), q) · (v(g(s e)) · v(g(d e)))                          (aggG_apply)

  and the number of edges arriving at n, counted with a weight `one` each, is  0 + Σ_{e < M} [d(e) = n] · one
  (degG_apply).  Both are finite sums of extended reals; nothing needs to be finite.
-/
import Idealize.ShloMosaic.PureOps.Ideal.Laws
import Idealize.ShloMosaic.Lib.ValueIdx
import Idealize.ShloMosaic.Lib.Pipeline.Value
import proofs.«155233_j36086315221040_1_alg».proof.Proof.LibSegSum
import proofs.«155233_j36086315221040_1_alg».proof.Proof.LibGraphOps
import proofs.«155233_j36086315221040_1_alg».proof.Proof.LibBcast

noncomputable section

open scoped BigOperators

namespace Cert.Gcn

open Idealize.ShloMosaic Idealize.ShloMosaic.ValueIdx

/-- The shape of a scalar. -/
abbrev S0 : Shape := ⟨0, ![]⟩

section
variable {N C M : Nat} (hN : 0 < N) (nW : BitVec 32)
  (bM : S0.BroadcastsInDim ⟨1, ![M]⟩ ![]) (bN : S0.BroadcastsInDim ⟨1, ![N]⟩ ![]) (bNC : S0.BroadcastsInDim ⟨2, ![N, C]⟩ ![])
  (bM1 : (⟨1, ![M]⟩ : Shape).BroadcastsInDim ⟨2, ![M, 1]⟩ ![0])
  (bMC : (⟨2, ![M, 1]⟩ : Shape).BroadcastsInDim ⟨2, ![M, C]⟩ ![0, 1])
  (wfSv : ScatterDims.WF ⟨1, ![N]⟩ ⟨2, ![M, 1]⟩ ⟨1, ![M]⟩ [] [0] [0] 1)
  (wfGv : GatherDims.WF ⟨1, ![N]⟩ ⟨2, ![M, 1]⟩ ⟨1, ![M]⟩ [] [0] [] [0] [] 1 ![1])
  (wfGr : GatherDims.WF ⟨2, ![N, C]⟩ ⟨2, ![M, 1]⟩ ⟨2, ![M, C]⟩ [1] [0] [] [0] [] 1 ![1, C])
  (wfSr : ScatterDims.WF ⟨2, ![N, C]⟩ ⟨2, ![M, 1]⟩ ⟨2, ![M, C]⟩ [1] [0] [0] 1)

/-- The node a word names: wrapped from the end where negative, then clamped into the table. -/
def node (w : BitVec 32) : Fin N :=
  LibGraph.clampIdx N hN (Scalar.select (IntOp.cmpi .slt w 0#32) (IntOp.addi w nW) w)

/-- The wrap, on a whole vector of words. -/
def wrapv (v : IVec ⟨1, ![M]⟩ 32) : IVec ⟨1, ![M]⟩ 32 :=
  select (cmpi .slt v (broadcastInDim ⟨1, ![M]⟩ ![] bM (constantI S0 32 0#32)))
    (addi v (broadcastInDim ⟨1, ![M]⟩ ![] bM (constantI S0 32 nW))) v

theorem wrapv_apply (v : IVec ⟨1, ![M]⟩ 32) (e : Fin M) :
    wrapv nW bM v (ix1 e) = Scalar.select (IntOp.cmpi .slt (v (ix1 e)) 0#32) (IntOp.addi (v (ix1 e)) nW) (v (ix1 e)) := by
  show Scalar.select (IntOp.cmpi .slt (v (ix1 e)) (broadcastInDim ⟨1, ![M]⟩ ![] bM (constantI S0 32 0#32) (ix1 e)))
      (IntOp.addi (v (ix1 e)) (broadcastInDim ⟨1, ![M]⟩ ![] bM (constantI S0 32 nW) (ix1 e))) (v (ix1 e)) = _
  rw [LibBcast.bcastScalar_apply, LibBcast.bcastScalar_apply]
  rfl

/-- The number of edges arriving at each node, each counted `one`. -/
def degG (one : BitVec 32) (dst : IVec ⟨1, ![M]⟩ 32) : FVec Ideal ⟨1, ![N]⟩ .f32 :=
  Host.scatterAdd (F := Ideal) (LibSegSum.vecScatter N M wfSv)
    (broadcastInDim ⟨1, ![N]⟩ ![] bN (constant (F := Ideal) S0 .f32 0x00000000#32))
    (broadcastInDim ⟨2, ![M, 1]⟩ ![0] bM1 dst)
    (broadcastInDim ⟨1, ![M]⟩ ![] bM (constant (F := Ideal) S0 .f32 one))

theorem degG_apply (one : BitVec 32) (dst : IVec ⟨1, ![M]⟩ 32) (n : Fin N) :
    (degG bM bN bM1 wfSv one dst (ix1 n) : EReal)
      = (0 : EReal) + ∑ e : Fin M, if (dst (ix1 e)).toInt = (n.val : Int) then (Ideal.ofBits .f32 one : EReal) else (0 : EReal) := by
  unfold degG
  rw [LibSegSum.scatterVec_apply, LibBcast.bcastScalar_apply]
  refine congrArg₂ (· + ·) Ideal.ofBits_zero_f32 (Finset.sum_congr rfl fun e _ => ?_)
  rw [LibBcast.bcastVecCol_apply, LibBcast.bcastScalar_apply]
  rfl

/-- What an edge with source word s and target word d sends to channel q of its target. -/
def term (h : FVec Ideal ⟨2, ![N, C]⟩ .f32) (dinv : FVec Ideal ⟨1, ![N]⟩ .f32) (q : Fin C) (s d : BitVec 32) : EReal :=
  (h (ix2 (node hN nW s) q) : EReal) * ((dinv (ix1 (node hN nW s)) : EReal) * (dinv (ix1 (node hN nW d)) : EReal))

/-- The aggregate: every edge's message scattered, with addition, to its target. -/
def aggG (dinv : FVec Ideal ⟨1, ![N]⟩ .f32) (h : FVec Ideal ⟨2, ![N, C]⟩ .f32) (src dst : IVec ⟨1, ![M]⟩ 32) :
    FVec Ideal ⟨2, ![N, C]⟩ .f32 :=
  Host.scatterAdd (F := Ideal) (LibSegSum.rowsScatter N C M wfSr)
    (broadcastInDim ⟨2, ![N, C]⟩ ![] bNC (constant (F := Ideal) S0 .f32 0x00000000#32))
    (broadcastInDim ⟨2, ![M, 1]⟩ ![0] bM1 dst)
    (mulf (Host.gather (LibGraph.rowsGather N C M wfGr) h (broadcastInDim ⟨2, ![M, 1]⟩ ![0] bM1 (wrapv nW bM src)))
      (broadcastInDim ⟨2, ![M, C]⟩ ![0, 1] bMC (broadcastInDim ⟨2, ![M, 1]⟩ ![0] bM1
        (mulf (Host.gather (LibGraph.vecGather N M wfGv) dinv (broadcastInDim ⟨2, ![M, 1]⟩ ![0] bM1 (wrapv nW bM src)))
          (Host.gather (LibGraph.vecGather N M wfGv) dinv (broadcastInDim ⟨2, ![M, 1]⟩ ![0] bM1 (wrapv nW bM dst)))))))

theorem aggG_apply (dinv : FVec Ideal ⟨1, ![N]⟩ .f32) (h : FVec Ideal ⟨2, ![N, C]⟩ .f32) (src dst : IVec ⟨1, ![M]⟩ 32)
    (n : Fin N) (q : Fin C) :
    (aggG nW bM bNC bM1 bMC wfGv wfGr wfSr dinv h src dst (ix2 n q) : EReal)
      = (0 : EReal) + ∑ e : Fin M, if (dst (ix1 e)).toInt = (n.val : Int)
          then term hN nW h dinv q (src (ix1 e)) (dst (ix1 e)) else (0 : EReal) := by
  unfold aggG term
  rw [LibSegSum.scatterRows_apply, LibBcast.bcastScalar_apply]
  refine congrArg₂ (· + ·) Ideal.ofBits_zero_f32 (Finset.sum_congr rfl fun e _ => ?_)
  rw [LibBcast.bcastVecCol_apply]
  refine if_congr Iff.rfl ?_ rfl
  rw [mulf_apply, LibGraph.gatherRows_apply hN, LibBcast.bcastVecCol_apply, LibBcast.bcastCol_apply,
    LibBcast.bcastVecCol_apply, mulf_apply, LibGraph.gatherVec_apply hN, LibGraph.gatherVec_apply hN,
    LibBcast.bcastVecCol_apply, LibBcast.bcastVecCol_apply, wrapv_apply, wrapv_apply]
  rfl

end

end Cert.Gcn

end
-- ==== Proof.RefSpec.lean ====
/-
  The reference program's result as three graph-convolution layers.

  With s, d : [1700000] the source and target words of the 1600000 given edges followed by one self-loop per node,
      deg(n)  = 0 + Σ_e [d(e) = n] · 1 ,              dinv(n) = rsqrt(if deg(n) > 0 then deg(n) else 1) ,
  one layer sends a node table X : [100000, 64] with weights W and bias b to
      layer(X)(n, q) = (0 + Σ_e [d(e) = n] · (X·W)(node s(e), q) · (dinv(node s(e)) · dinv(node d(e)))) + b(q) ,
  where a word names a node by wrapping a negative word from the end and clamping; and the result is
      layer₃(relu(layer₂(relu(layer₁(x))))) .
  The run's composed term is this function of the argument arrays, literally: each layer's degree count and edge weights
  are the same operations of the edge array written out again.
-/
import proofs.«155233_j36086315221040_1_alg».proof.Proof.RefRunPatched
import proofs.«155233_j36086315221040_1_alg».proof.Proof.LibGcn

set_option maxRecDepth 16384

noncomputable section

namespace Cert.Proof.RefSpec

open Idealize.ShloMosaic Idealize.ShloMosaic.ValueIdx Idealize.ShloMosaic.TcCoe Idealize.SL.Sem
open Cert.ReferenceIdeal Cert.ReferenceIdeal.Facts₀ Cert.ReferenceIdeal.Facts

/-- The source words: the given edges' sources, then every node once (its self-loop). -/
def srcAll (ei : IVec S2x1600000 32) : IVec S1700000 32 :=
  concatenate S1700000 0 [⟨S1600000, shapeCast _ (extractStridedSlice S1x1600000 ![0, 0] ei slices_S2x1600000_S1x1600000_0_0) shapeCasts_S1x1600000_S1600000⟩,
    ⟨S100000, iotaInDim S100000 32 0⟩] concatenates_S1600000_S100000_S1700000_d0

/-- The target words, likewise. -/
def dstAll (ei : IVec S2x1600000 32) : IVec S1700000 32 :=
  concatenate S1700000 0 [⟨S1600000, shapeCast _ (extractStridedSlice S1x1600000 ![1, 0] ei slices_S2x1600000_S1x1600000_1_0) shapeCasts_S1x1600000_S1600000⟩,
    ⟨S100000, iotaInDim S100000 32 0⟩] concatenates_S1600000_S100000_S1700000_d0

/-- The number of edges arriving at each node (self-loop included). -/
def deg (ei : IVec S2x1600000 32) : FVec Ideal S100000 .f32 :=
  Cert.Gcn.degG bcast_S_S1700000 bcast_S_S100000 bcast_S1700000_S1700000x1_0 scatter_S100000_S1700000x1_S1700000_n_0_0_1_wf
    0x3F800000#32 (dstAll ei)

/-- Its guarded inverse square root. -/
def dinv (ei : IVec S2x1600000 32) : FVec Ideal S100000 .f32 :=
  Host.rsqrt (select (cmpf (F := Ideal) .ogt (deg ei) (broadcastInDim S100000 ![] bcast_S_S100000 (constant S_ .f32 0x00000000#32)))
    (deg ei) (broadcastInDim S100000 ![] bcast_S_S100000 (id (constant S_ .f32 0x3F800000#32))))

/-- A layer of 64 output channels. -/
def layer64 (ei : IVec S2x1600000 32) (X : FVec Ideal S100000x64 .f32) (W : FVec Ideal S64x64 .f32) (b : FVec Ideal S64 .f32) :
    FVec Ideal S100000x64 .f32 :=
  addf (Cert.Gcn.aggG 100000#32 bcast_S_S1700000 bcast_S_S100000x64 bcast_S1700000_S1700000x1_0 bcast_S1700000x1_S1700000x64_0_1
      gather_S100000_S1700000x1_S1700000_n_0_n_n_0_1_1_wf gather_S100000x64_S1700000x1_S1700000x64_1_0_n_n_0_1_164_wf
      scatter_S100000x64_S1700000x1_S1700000x64_1_0_0_1_wf (dinv ei)
      (Host.dotGeneral dot_S100000x64_S64x64_S100000x64_1_0_0_1_n_n none X W) (srcAll ei) (dstAll ei))
    (broadcastInDim S100000x64 ![0, 1] bcast_S1x64_S100000x64_0_1 (broadcastInDim S1x64 ![1] bcast_S64_S1x64_1 b))

/-- The last layer, of 32 output channels. -/
def layer32 (ei : IVec S2x1600000 32) (X : FVec Ideal S100000x64 .f32) (W : FVec Ideal S64x32 .f32) (b : FVec Ideal S32 .f32) :
    FVec Ideal S100000x32 .f32 :=
  addf (Cert.Gcn.aggG 100000#32 bcast_S_S1700000 bcast_S_S100000x32 bcast_S1700000_S1700000x1_0 bcast_S1700000x1_S1700000x32_0_1
      gather_S100000_S1700000x1_S1700000_n_0_n_n_0_1_1_wf gather_S100000x32_S1700000x1_S1700000x32_1_0_n_n_0_1_132_wf
      scatter_S100000x32_S1700000x1_S1700000x32_1_0_0_1_wf (dinv ei)
      (Host.dotGeneral dot_S100000x64_S64x32_S100000x32_1_0_0_1_n_n none X W) (srcAll ei) (dstAll ei))
    (broadcastInDim S100000x32 ![0, 1] bcast_S1x32_S100000x32_0_1 (broadcastInDim S1x32 ![1] bcast_S32_S1x32_1 b))

/-- The clip at zero between the layers. -/
def relu (X : FVec Ideal S100000x64 .f32) : FVec Ideal S100000x64 .f32 :=
  maximumf X (broadcastInDim S100000x64 ![] bcast_S_S100000x64 (constant S_ .f32 0x00000000#32))

/-- The whole network as one function of the eight argument arrays. -/
def net (x : FVec Ideal S100000x64 .f32) (ei : IVec S2x1600000 32) (W1 : FVec Ideal S64x64 .f32) (b1 : FVec Ideal S64 .f32)
    (W2 : FVec Ideal S64x64 .f32) (b2 : FVec Ideal S64 .f32) (W3 : FVec Ideal S64x32 .f32) (b3 : FVec Ideal S32 .f32) :
    FVec Ideal S100000x32 .f32 :=
  layer32 ei (relu (layer64 ei (relu (layer64 ei x W1 b1)) W2 b2)) W3 b3

/-- The run's composed term is the network of the argument arrays. -/
theorem res_eq_net (m : (ℓ : Loc nD τ sig) → Buf (Elt Ideal) ℓ) (c : Dev nD) :
    Cert.ReferenceIdeal.ValueP.res_main_v134 (F := Ideal) m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  rfl

end Cert.Proof.RefSpec

end
-- ==== Proof.LibAfter.lean ====
/-
  The buffer contents after two lines of host operations run one after the other are the contents after the second
  line, started from the contents after the first.  Imports only the library.
-/
import Idealize.ShloMosaic.Lib.StableHlo.Run

noncomputable section

namespace Cert.LibAfter

open Idealize.ShloMosaic Idealize.ShloMosaic.StableHlo

variable {τ : Topo} {sig : RefSig} {Val : EltTy → Type}

/-- `after (l₁ ++ l₂) V = after l₂ (after l₁ V)`. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.LibAfter

end
-- ==== Proof.HostRead.lean ====
/-
  What the kernel program's host stretches compute, as terms of the buffers they start from.

  Before the first layer's regions: the source and target words of the 1700000 edges (the given ones, then a self-loop per
  node), each followed by 864 zero words; the edge weights dinv(node s) · dinv(node d), followed by 864 zeros; and the
  node table followed by 6496 zero rows.  Between two layers: the first 100000 rows of the scatter's result, clipped at
  zero, followed by 6496 zero rows.  At the end: the first 100000 rows of the last scatter's result.
-/
import proofs.«155233_j36086315221040_1_alg».proof.Proof.Gen.KernelIdeal.Launch
import proofs.«155233_j36086315221040_1_alg».proof.Proof.LibAfter
import Idealize.ShloMosaic.Lib.StableHlo.Run
import Idealize.ShloMosaic.PureOps.Ideal

set_option maxRecDepth 16384

noncomputable section

namespace Cert.Proof.HostRead

open Cert.KernelIdeal Cert.KernelIdeal.Facts₀ Cert.KernelIdeal.Facts
open Cert.KernelIdeal.Gen (hostOps0 hostOps0_1 hostOps0_2 hostOps0_3 hostOps3 hostOps3_1 hostOps3_2 hostOps3_3 hostOps6 hostOps6_1 hostOps6_2 hostOps6_3 hostOps9)
open Idealize.ShloMosaic Idealize.ShloMosaic.TcCoe Idealize.SL.Sem Idealize.ShloMosaic.StableHlo

/-- The source words of all 1700000 edges, from the edge array. -/
def srcAll (ei : IVec S2x1600000 32) : IVec S1700000 32 :=
  concatenate S1700000 0 [⟨S1600000, shapeCast _ (extractStridedSlice S1x1600000 ![0, 0] ei slices_S2x1600000_S1x1600000_0_0) shapeCasts_S1x1600000_S1600000⟩,
    ⟨S100000, iotaInDim S100000 32 0⟩] concatenates_S1600000_S100000_S1700000_d0
/-- The target words. -/
def dstAll (ei : IVec S2x1600000 32) : IVec S1700000 32 :=
  concatenate S1700000 0 [⟨S1600000, shapeCast _ (extractStridedSlice S1x1600000 ![1, 0] ei slices_S2x1600000_S1x1600000_1_0) shapeCasts_S1x1600000_S1600000⟩,
    ⟨S100000, iotaInDim S100000 32 0⟩] concatenates_S1600000_S100000_S1700000_d0

/-- The buffers after the four stretches before the first region, from a valuation W. -/
abbrev entry1 (W : Valuation τ sig (Elt Ideal)) : Valuation τ sig (Elt Ideal) :=
  StableHlo.after hostOps0_3 (StableHlo.after hostOps0_2 (StableHlo.after hostOps0_1 (StableHlo.after hostOps0 W)))

theorem entry1_flat (W : Valuation τ sig (Elt Ideal)) :
    entry1 W = StableHlo.after (hostOps0 ++ (hostOps0_1 ++ (hostOps0_2 ++ hostOps0_3))) W := by
  unfold entry1
  rw [Cert.LibAfter.after_append, Cert.LibAfter.after_append, Cert.LibAfter.after_append]

/-- The padded source words. -/
theorem spad_eq (W : Valuation τ sig (Elt Ideal)) :
    (entry1 W (Proc.devRef .tc main_v31) : S1700864.Idx → BitVec 32)
      = concatenate S1700864 0 [⟨S1700000, srcAll (W (Proc.devRef .tc main_arg1))⟩,
          ⟨S864, broadcastInDim S864 ![] bcast_S_S864 (constantI S_ 32 0#32)⟩] concatenates_S1700000_S864_S1700864_d0 := by
  rw [entry1_flat]
  dsimp only [hostOps0, hostOps0_1, hostOps0_2, hostOps0_3, List.cons_append, List.nil_append]
  after_results_simp <;> rfl

/-- The padded target words. -/
theorem dpad_eq (W : Valuation τ sig (Elt Ideal)) :
    (entry1 W (Proc.devRef .tc main_v33) : S1700864.Idx → BitVec 32)
      = concatenate S1700864 0 [⟨S1700000, dstAll (W (Proc.devRef .tc main_arg1))⟩,
          ⟨S864, broadcastInDim S864 ![] bcast_S_S864 (constantI S_ 32 0#32)⟩] concatenates_S1700000_S864_S1700864_d0 := by
  rw [entry1_flat]
  dsimp only [hostOps0, hostOps0_1, hostOps0_2, hostOps0_3, List.cons_append, List.nil_append]
  after_results_simp <;> rfl

/-- The number of edges arriving at each node. -/
def deg (ei : IVec S2x1600000 32) : FVec Ideal S100000 .f32 :=
  Host.scatterAdd (F := Ideal) scatter_S100000_S1700000x1_S1700000_n_0_0_1 (broadcastInDim S100000 ![] bcast_S_S100000 (constant (F := Ideal) S_ .f32 0x00000000#32))
    (broadcastInDim S1700000x1 ![0] bcast_S1700000_S1700000x1_0 (dstAll ei)) (broadcastInDim S1700000 ![] bcast_S_S1700000 (constant (F := Ideal) S_ .f32 0x3F800000#32))
/-- Its guarded inverse square root. -/
def dinv (ei : IVec S2x1600000 32) : FVec Ideal S100000 .f32 :=
  Host.rsqrt (select (cmpf (F := Ideal) .ogt (deg ei) (broadcastInDim S100000 ![] bcast_S_S100000 (constant S_ .f32 0x00000000#32)))
    (deg ei) (broadcastInDim S100000 ![] bcast_S_S100000 (id (constant S_ .f32 0x3F800000#32))))
/-- A vector of words wrapped from the end where negative. -/
def wrap (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v
/-- The edge weights. -/
def norm (ei : IVec S2x1600000 32) : FVec Ideal S1700000 .f32 :=
  mulf (Host.gather gather_S100000_S1700000x1_S1700000_n_0_n_n_0_1_1 (dinv ei) (broadcastInDim S1700000x1 ![0] bcast_S1700000_S1700000x1_0 (wrap (srcAll ei))))
    (Host.gather gather_S100000_S1700000x1_S1700000_n_0_n_n_0_1_1 (dinv ei) (broadcastInDim S1700000x1 ![0] bcast_S1700000_S1700000x1_0 (wrap (dstAll ei))))

/-- Stage by stage: the first stretch computes the edge words, the degree count and its test; -/
theorem st0_v5 (W : Valuation τ sig (Elt Ideal)) : (StableHlo.after hostOps0 W (Proc.devRef .tc main_v5) : S1700000.Idx → BitVec 32) = srcAll (W (Proc.devRef .tc main_arg1)) := by
  dsimp only [hostOps0]; after_results <;> rfl
theorem st0_v6 (W : Valuation τ sig (Elt Ideal)) : (StableHlo.after hostOps0 W (Proc.devRef .tc main_v6) : S1700000.Idx → BitVec 32) = dstAll (W (Proc.devRef .tc main_arg1)) := by
  dsimp only [hostOps0]; after_results <;> rfl
theorem st0_v10 (W : Valuation τ sig (Elt Ideal)) : (StableHlo.after hostOps0 W (Proc.devRef .tc main_v10) : S100000.Idx → EReal) = deg (W (Proc.devRef .tc main_arg1)) := by
  dsimp only [hostOps0]; after_results <;> rfl
theorem st0_v12 (W : Valuation τ sig (Elt Ideal)) : (StableHlo.after hostOps0 W (Proc.devRef .tc main_v12) : S100000.Idx → BitVec 1)
    = cmpf (F := Ideal) .ogt (deg (W (Proc.devRef .tc main_arg1))) (broadcastInDim S100000 ![] bcast_S_S100000 (constant S_ .f32 0x00000000#32)) := by
  dsimp only [hostOps0]; after_results <;> rfl
theorem st0_cst2 (W : Valuation τ sig (Elt Ideal)) : (StableHlo.after hostOps0 W (Proc.devRef .tc main_cst_2) : S_.Idx → EReal) = constant (F := Ideal) S_ .f32 0x3F800000#32 := by
  dsimp only [hostOps0]; after_results <;> rfl
/-- the second guards the degree count (and leaves the edge words alone); -/
theorem st1_v13 (W : Valuation τ sig (Elt Ideal)) : (StableHlo.after hostOps0_1 W (Proc.devRef .tc main_v13) : S100000.Idx → EReal)
    = select (W (Proc.devRef .tc main_v12) : S100000.Idx → BitVec 1) (W (Proc.devRef .tc main_v10) : S100000.Idx → EReal)
        (broadcastInDim S100000 ![] bcast_S_S100000 (id (W (Proc.devRef .tc main_cst_2) : S_.Idx → EReal))) := by
  dsimp only [hostOps0_1]; after_results <;> rfl
theorem st1_v5 (W : Valuation τ sig (Elt Ideal)) : StableHlo.after hostOps0_1 W (Proc.devRef .tc main_v5) = W (Proc.devRef .tc main_v5) := by
  dsimp only [hostOps0_1]; after_results <;> rfl
theorem st1_v6 (W : Valuation τ sig (Elt Ideal)) : StableHlo.after hostOps0_1 W (Proc.devRef .tc main_v6) = W (Proc.devRef .tc main_v6) := by
  dsimp only [hostOps0_1]; after_results <;> rfl
/-- the third takes the inverse square root, gathers it at both ends of every edge, multiplies, and pads. -/
theorem st2_v35 (W : Valuation τ sig (Elt Ideal)) : (StableHlo.after hostOps0_2 W (Proc.devRef .tc main_v35) : S1700864.Idx → EReal)
    = concatenate S1700864 0 [⟨S1700000,
          mulf (Host.gather gather_S100000_S1700000x1_S1700000_n_0_n_n_0_1_1 (Host.rsqrt (W (Proc.devRef .tc main_v13) : S100000.Idx → EReal))
              (broadcastInDim S1700000x1 ![0] bcast_S1700000_S1700000x1_0 (wrap (W (Proc.devRef .tc main_v5)))))
            (Host.gather gather_S100000_S1700000x1_S1700000_n_0_n_n_0_1_1 (Host.rsqrt (W (Proc.devRef .tc main_v13) : S100000.Idx → EReal))
              (broadcastInDim S1700000x1 ![0] bcast_S1700000_S1700000x1_0 (wrap (W (Proc.devRef .tc main_v6)))))⟩,
        ⟨S864, broadcastInDim S864 ![] bcast_S_S864 (constant (F := Ideal) S_ .f32 0x00000000#32)⟩] concatenates_S1700000_S864_S1700864_d0 := by
  dsimp only [hostOps0_2]; after_results_simp <;> rfl
theorem st3_v35 (W : Valuation τ sig (Elt Ideal)) : StableHlo.after hostOps0_3 W (Proc.devRef .tc main_v35) = W (Proc.devRef .tc main_v35) := by
  dsimp only [hostOps0_3]; after_results <;> rfl

/-- The padded edge weights. -/
theorem normpad_eq (W : Valuation τ sig (Elt Ideal)) :
    (entry1 W (Proc.devRef .tc main_v35) : S1700864.Idx → EReal)
      = concatenate S1700864 0 [⟨S1700000, norm (W (Proc.devRef .tc main_arg1))⟩,
          ⟨S864, broadcastInDim S864 ![] bcast_S_S864 (constant (F := Ideal) S_ .f32 0x00000000#32)⟩] concatenates_S1700000_S864_S1700864_d0 := by
  unfold entry1
  rw [st3_v35, st2_v35, st1_v13, st1_v5, st1_v6, st0_v5, st0_v6, st0_v12, st0_v10, st0_cst2]
  rfl

/-- A node table followed by 6496 zero rows. -/
def padRows (x : FVec Ideal S100000x64 .f32) : FVec Ideal S106496x64 .f32 :=
  pad S106496x64 ![0, 0] ![6496, 0] ![0, 0] x (sitofp (F := Ideal) .f32 (constantI S_ 32 0#32)) pads_S100000x64_S106496x64_064960_000 h_S_

/-- The padded node table of the first layer. -/
theorem xpad_eq (W : Valuation τ sig (Elt Ideal)) :
    (entry1 W (Proc.devRef .tc main_v36) : S106496x64.Idx → EReal) = padRows (W (Proc.devRef .tc main_arg0)) := by
  rw [entry1_flat]
  dsimp only [hostOps0, hostOps0_1, hostOps0_2, hostOps0_3, List.cons_append, List.nil_append]
  after_results_simp <;> rfl

/-- The clip at zero of the first 100000 rows of a padded result, padded again: what the next layer's transform is given. -/
def nextTable (y : FVec Ideal S106496x64 .f32) : FVec Ideal S106496x64 .f32 :=
  padRows (maximumf (extractStridedSlice S100000x64 ![0, 0] y slices_S106496x64_S100000x64_0_0)
    (broadcastInDim S100000x64 ![] bcast_S_S100000x64 (constant (F := Ideal) S_ .f32 0x00000000#32)))

theorem next1_eq (W : Valuation τ sig (Elt Ideal)) :
    (StableHlo.after hostOps3_3 (StableHlo.after hostOps3_2 (StableHlo.after hostOps3_1 (StableHlo.after hostOps3 W))) (Proc.devRef .tc main_v42) : S106496x64.Idx → EReal)
      = nextTable (W (Proc.devRef .tc main_v39)) := by
  rw [← Cert.LibAfter.after_append, ← Cert.LibAfter.after_append, ← Cert.LibAfter.after_append]
  dsimp only [hostOps3, hostOps3_1, hostOps3_2, hostOps3_3, List.cons_append, List.nil_append]
  after_results_simp <;> rfl

theorem next2_eq (W : Valuation τ sig (Elt Ideal)) :
    (StableHlo.after hostOps6_3 (StableHlo.after hostOps6_2 (StableHlo.after hostOps6_1 (StableHlo.after hostOps6 W))) (Proc.devRef .tc main_v48) : S106496x64.Idx → EReal)
      = nextTable (W (Proc.devRef .tc main_v45)) := by
  rw [← Cert.LibAfter.after_append, ← Cert.LibAfter.after_append, ← Cert.LibAfter.after_append]
  dsimp only [hostOps6, hostOps6_1, hostOps6_2, hostOps6_3, List.cons_append, List.nil_append]
  after_results_simp <;> rfl

/-- The result: the first 100000 rows of the last scatter's array. -/
theorem result_eq (W : Valuation τ sig (Elt Ideal)) :
    (StableHlo.after hostOps9 W (Proc.devRef .tc main_v52) : S100000x32.Idx → EReal)
      = extractStridedSlice S100000x32 ![0, 0] (W (Proc.devRef .tc main_v51)) slices_S106496x32_S100000x32_0_0 := by
  dsimp only [hostOps9]
  after_results_simp <;> rfl

end Cert.Proof.HostRead

end
-- ==== Proof.TileLaws.lean ====
/-
  Tiles and whole arrays.

  The gather walks the padded node table in T tiles of 8192 rows and adds, per tile, the rows whose number the edge's
  source word is; over all tiles that is the one row the word names, provided the word is a row number at all.
  The scatter walks the padded edge list in U tiles of 1024 edges and adds, per tile, the messages whose target word is
  the node row's number; over all tiles that is the sum over the whole edge list of the messages arriving at the row.
  Both are statements about finite sums of extended reals with 0-or-1 factors: nothing needs to be finite.
-/
import proofs.«155233_j36086315221040_1_alg».proof.Proof.LibOneHot
import proofs.«155233_j36086315221040_1_alg».proof.Proof.Words
import Mathlib.Algebra.BigOperators.Fin
import Mathlib.Logic.Equiv.Fin.Basic

open Finset

namespace Cert.Proof.TileLaws

open Cert.LibOneHot Cert.Proof.Words

/-- A sum tile by tile is the sum over the whole range: Σ_{t<U} Σ_{e<K} F(t·K + e) = Σ_{x<U·K} F(x). -/
theorem sum_tiles (U K : ℕ) (F : ℕ → EReal) :
    ∑ t : Fin U, ∑ e : Fin K, F (t.val * K + e.val) = ∑ x : Fin (U * K), F x.val := by
  rw [← Equiv.sum_comp finProdFinEquiv (fun x : Fin (U * K) => F x.val), Fintype.sum_prod_type]
  refine Finset.sum_congr rfl fun t _ => Finset.sum_congr rfl fun e _ => ?_
  congr 1
  show t.val * K + e.val = e.val + K * t.val
  rw [Nat.mul_comm, Nat.add_comm]

/-- The gather over all tiles picks the row the source word names. -/
theorem gather_all_tiles (T : ℕ) (hT : T * 8192 ≤ 2 ^ 31) (s : BitVec 32) (n : ℕ) (hn : n < T * 8192)
    (hs : s.toInt = (n : ℤ)) (f : ℕ → EReal) :
    ∑ k : Fin T, ∑ r : Fin 8192, ind (s = rowWord k.val r) * f (k.val * 8192 + r.val) = f n := by
  have key : ∀ (k : Fin T) (r : Fin 8192),
      ind (s = rowWord k.val r) * f (k.val * 8192 + r.val) = if k.val * 8192 + r.val = n then f n else 0 := by
    intro k r
    have hb : k.val * 8192 + r.val < 2 ^ 31 := by have := k.isLt; have := r.isLt; omega
    rw [ind_mul]
    by_cases h : k.val * 8192 + r.val = n
    · rw [if_pos ((eq_rowWord_iff s _ r hb).2 (by rw [hs, h])), if_pos h, h]
    · rw [if_neg (fun e => h (by
        have := (eq_rowWord_iff s _ r hb).1 e
        rw [hs] at this
        exact_mod_cast this.symm)), if_neg h]
  simp only [key]
  have hq : n / 8192 < T := by omega
  rw [Finset.sum_eq_single (⟨n / 8192, hq⟩ : Fin T)]
  · rw [Finset.sum_eq_single (⟨n % 8192, Nat.mod_lt _ (by norm_num)⟩ : Fin 8192)]
    · rw [if_pos (by show n / 8192 * 8192 + n % 8192 = n; omega)]
    · intro r _ hr
      rw [if_neg]
      intro e
      apply hr
      apply Fin.ext
      show r.val = n % 8192
      have e' : n / 8192 * 8192 + r.val = n := e
      omega
    · intro h; exact absurd (Finset.mem_univ _) h
  · intro k _ hk
    apply Finset.sum_eq_zero
    intro r _
    rw [if_neg]
    intro e
    apply hk
    apply Fin.ext
    show k.val = n / 8192
    have := r.isLt
    omega
  · intro h; exact absurd (Finset.mem_univ _) h

/-- The scatter over all edge tiles, for the node row numbered n0 · 8192 + p: the messages of the whole padded edge list
    whose target word reads that number. -/
theorem scatter_all_tiles (U n0 : ℕ) (p : Fin 8192) (hb : n0 * 8192 + p.val < 2 ^ 31) (d : ℕ → BitVec 32) (g : ℕ → EReal) :
    ∑ t : Fin U, ∑ e : Fin 1024, ind (rowWord n0 p = d (t.val * 1024 + e.val)) * g (t.val * 1024 + e.val)
      = ∑ x : Fin (U * 1024), if (d x.val).toInt = ((n0 * 8192 + p.val : ℕ) : ℤ) then g x.val else 0 := by
  rw [← sum_tiles U 1024 (fun x => if (d x).toInt = ((n0 * 8192 + p.val : ℕ) : ℤ) then g x else 0)]
  refine Finset.sum_congr rfl fun t _ => Finset.sum_congr rfl fun e _ => ?_
  rw [ind_mul]
  refine if_congr ?_ rfl rfl
  rw [eq_comm]
  exact eq_rowWord_iff _ n0 p hb

/-- A sum over a + b positions whose last b terms vanish is the sum over the first a. -/
theorem sum_drop_tail (a b : ℕ) (F : ℕ → EReal) (h : ∀ j, j < b → F (a + j) = 0) :
    ∑ x : Fin (a + b), F x.val = ∑ x : Fin a, F x.val := by
  rw [Fin.sum_univ_add]
  have : ∑ j : Fin b, F (Fin.natAdd a j).val = 0 :=
    Finset.sum_eq_zero fun j _ => h j.val j.isLt
  rw [this, add_zero]
  rfl

end Cert.Proof.TileLaws
-- ==== Proof.LayerLaw.lean ====
/-
  One layer: the tiled dense form against the indexed form, at one entry.

  Fix a channel and write H(r) for the padded node table's column (106496 = 13 · 8192 rows), s(e), d(e) for the
  1700000 source and target words and v for the per-node weight.  The padded edge list has 1700864 = 1661 · 1024
  entries: the real edges with weight v(node s) · v(node d), then 864 appended edges with source word 0, target word 0
  and weight 0.  For a node row n < 100000, numbered (n / 8192) · 8192 + n % 8192 by the kernel, the tiled form

      Σ_{t<1661} Σ_{e'<1024} [row n's number = d⁺(1024 t + e')] · ((Σ_{k<13} Σ_{r<8192} [s⁺(1024 t + e') = number of (k, r)] · H(8192 k + r)) · w⁺(1024 t + e'))

  equals  Σ_{e<1700000} [d(e) = n] · H(node s(e)) · (v(node s(e)) · v(node d(e))),  provided every real source word
  names a node.  An appended edge contributes (…) · 0 = 0 whatever H holds; a real edge's inner double sum is the one
  row its source word names; the outer double sum is the sum over the whole list of the edges arriving at n.
-/
import proofs.«155233_j36086315221040_1_alg».proof.Proof.LibGcn
import proofs.«155233_j36086315221040_1_alg».proof.Proof.TileLaws

noncomputable section

open Finset

namespace Cert.Proof.LayerLaw

open Idealize.ShloMosaic Cert.LibOneHot Cert.Proof.Words Cert.Proof.TileLaws

/-- A word that reads as a node number names that node: wrapping leaves a non-negative word alone and clamping leaves a
    word below the extent alone. -/
theorem node_val {N : ℕ} (hN : 0 < N) (nW w : BitVec 32) (h0 : 0 ≤ w.toInt) (h1 : w.toInt < (N : ℤ)) :
    (Cert.Gcn.node hN nW w).val = w.toInt.toNat := by
  unfold Cert.Gcn.node
  rw [LibGraph.wrapIdx_of_nonneg w _ 0#32 rfl h0]
  exact congrArg Fin.val (LibGraph.clampIdx_of_landed hN w ⟨w.toInt.toNat, by omega⟩ (by show w.toInt = ((w.toInt.toNat : ℕ) : ℤ); omega))

section
variable (s d : Fin 1700000 → BitVec 32) (v : Fin 100000 → EReal) (H : ℕ → EReal)

/-- The padded source words: the real ones, then zeros. -/
def sPad (x : ℕ) : BitVec 32 := if h : x < 1700000 then s ⟨x, h⟩ else 0#32
/-- The padded target words. -/
def dPad (x : ℕ) : BitVec 32 := if h : x < 1700000 then d ⟨x, h⟩ else 0#32
/-- The padded edge weights: v(node s) · v(node d) on the real edges, then zeros. -/
def wPad (x : ℕ) : EReal :=
  if h : x < 1700000 then v (Cert.Gcn.node (N := 100000) (by norm_num) 100000#32 (s ⟨x, h⟩)) * v (Cert.Gcn.node (N := 100000) (by norm_num) 100000#32 (d ⟨x, h⟩))
  else 0

/-- What the gather leaves for padded edge x, before the weight: the table's tiles against the source word. -/
def gathered (x : ℕ) : EReal :=
  ∑ k : Fin 13, ∑ r : Fin 8192, ind (sPad s x = rowWord k.val r) * H (k.val * 8192 + r.val)

/-- A real edge's gathered row is the row its source word names. -/
theorem gathered_real (hs : ∀ e, 0 ≤ (s e).toInt ∧ (s e).toInt < 100000) (e : Fin 1700000) :
    gathered s H e.val = H (Cert.Gcn.node (N := 100000) (by norm_num) 100000#32 (s e)).val := by
  unfold gathered
  have hx : sPad s e.val = s e := by unfold sPad; rw [dif_pos e.isLt]
  rw [hx, node_val (by norm_num) _ _ (hs e).1 (by exact_mod_cast (hs e).2)]
  exact gather_all_tiles 13 (by norm_num) (s e) (s e).toInt.toNat (by have := (hs e).2; omega) (by have := (hs e).1; omega) H

/-- THE LAYER AT AN ENTRY: tiled and padded against indexed. -/
theorem tiled_eq_indexed (hs : ∀ e, 0 ≤ (s e).toInt ∧ (s e).toInt < 100000) (n : Fin 100000) :
    ∑ t : Fin 1661, ∑ e' : Fin 1024,
        ind (rowWord (n.val / 8192) ⟨n.val % 8192, Nat.mod_lt _ (by norm_num)⟩ = dPad d (t.val * 1024 + e'.val))
          * (gathered s H (t.val * 1024 + e'.val) * wPad s d v (t.val * 1024 + e'.val))
      = ∑ e : Fin 1700000, if (d e).toInt = (n.val : ℤ)
          then H (Cert.Gcn.node (N := 100000) (by norm_num) 100000#32 (s e)).val
            * (v (Cert.Gcn.node (N := 100000) (by norm_num) 100000#32 (s e)) * v (Cert.Gcn.node (N := 100000) (by norm_num) 100000#32 (d e)))
          else 0 := by
  have hn := n.isLt
  rw [scatter_all_tiles 1661 (n.val / 8192) ⟨n.val % 8192, Nat.mod_lt _ (by norm_num)⟩ (by show n.val / 8192 * 8192 + n.val % 8192 < 2 ^ 31; omega)
    (dPad d) (fun x => gathered s H x * wPad s d v x)]
  have hrow : ((n.val / 8192 * 8192 + n.val % 8192 : ℕ) : ℤ) = (n.val : ℤ) := by
    have : n.val / 8192 * 8192 + n.val % 8192 = n.val := by omega
    rw [this]
  show ∑ x : Fin (1700000 + 864), (if (dPad d x.val).toInt = ((n.val / 8192 * 8192 + n.val % 8192 : ℕ) : ℤ)
      then gathered s H x.val * wPad s d v x.val else 0) = _
  rw [hrow, sum_drop_tail 1700000 864 (fun x => if (dPad d x).toInt = (n.val : ℤ) then gathered s H x * wPad s d v x else 0)
    (fun j _ => by
      have hw : wPad s d v (1700000 + j) = 0 := by unfold wPad; rw [dif_neg (by omega)]
      show (if _ then gathered s H (1700000 + j) * wPad s d v (1700000 + j) else 0) = 0
      rw [hw, mul_zero]; split <;> rfl)]
  refine Finset.sum_congr rfl fun e _ => ?_
  have hd : dPad d e.val = d e := by unfold dPad; rw [dif_pos e.isLt]
  have hw : wPad s d v e.val = v (Cert.Gcn.node (N := 100000) (by norm_num) 100000#32 (s e)) * v (Cert.Gcn.node (N := 100000) (by norm_num) 100000#32 (d e)) := by
    unfold wPad; rw [dif_pos e.isLt]
  show (if (dPad d e.val).toInt = (n.val : ℤ) then gathered s H e.val * wPad s d v e.val else 0) = _
  rw [hd, hw, gathered_real s H hs e]

end

end Cert.Proof.LayerLaw

end
-- ==== Proof.LibHostDot.lean ====
/-
  The host's matrix product read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values the host's `dot_general` has, at
  entry (p, q), the value
      Σ_{k < K} l(p, k) · r(k, q).
  The sum over the contraction shape's one-axis index type is re-indexed over `Fin K`; the operand indices the
  dimension numbers read at result entry (p, q) and contracted position k are (p, k) and (k, q).

  The hypotheses `hl0` and `hr1` say that the result's axis 0 is the left operand's axis 0 and the result's axis 1
  the right operand's axis 1; for a printed record `D` with no batch axes each is
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibHostDot

open Idealize.ShloMosaic Idealize.ShloMosaic.ValueIdx

/-- `Host.dotGeneral D prec l r (p, q) = Σ_k l(p, k) · r(k, q)` at the ideal values, for two-dimensional operands
    with one contracted axis. -/
theorem dotGeneral_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    Host.dotGeneral D prec l r (ix2 p q) = ∑ k : Fin K, l (ix2 p k) * r (ix2 k q) := by
  simp only [Host.dotGeneral]
  refine (Ideal.dotGeneral_apply D prec _ l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibHostDot

end
-- ==== Proof.LibPadSlice.lean ====
/-
  Two layout operations of a matrix read at one entry, for any extents and element type.

  * Rows appended below an [R, C] matrix (a pad with low = [0, 0], high = [hi, 0], no interior padding, into [R', C]):
    an entry in one of the first R rows is the matrix's own entry (`pad_rows_apply`); the fill value is not read there.
  * A rectangle of [R', C'] entries cut out of an [R, C] matrix at offsets (o0, o1) (a unit-stride slice): entry (p, q)
    of the cut is entry (o0 + p, o1 + q) of the matrix (`slice2_apply`).
  Imports only the library.
-/
import Idealize.ShloMosaic.Lib.Pipeline.Value
import Idealize.ShloMosaic.Lib.ValueIdx

noncomputable section

namespace Cert.LibPadSlice

open Idealize.ShloMosaic Idealize.ShloMosaic.ValueIdx

/-- Rows appended below a matrix: an entry in an original row is the matrix's. -/
theorem pad_rows_apply {α : Type} {R R' C hi : Nat} (x : (⟨2, ![R, C]⟩ : Shape).Idx → α) {u : Shape} (v : u.Idx → α)
    (h : (⟨2, ![R, C]⟩ : Shape).Pads (![0, 0] : Fin 2 → Nat) ![hi, 0] ![0, 0] ⟨2, ![R', C]⟩) (hu : 0 < u.numel)
    (p : Fin R) (hlt : p.val < R') (k : Fin C) :
    pad ⟨2, ![R', C]⟩ ![0, 0] ![hi, 0] ![0, 0] x v h hu (ix2 (⟨p.val, hlt⟩ : Fin R') k) = x (ix2 p k) := by
  unfold pad
  split
  next hin =>
    refine congrArg x (funext fun a => Fin.ext ?_)
    match a with
    | ⟨0, _⟩ => show (p.val - 0) / (0 + 1) = p.val; rw [Nat.sub_zero, Nat.div_one]
    | ⟨1, _⟩ => show (k.val - 0) / (0 + 1) = k.val; rw [Nat.sub_zero, Nat.div_one]
  next hn =>
    refine absurd (fun a => ?_) hn
    match a with
    | ⟨0, _⟩ =>
      refine ⟨Nat.zero_le _, Nat.mod_one _, ?_⟩
      show (p.val - 0) / (0 + 1) < R
      rw [Nat.sub_zero, Nat.div_one]; exact p.isLt
    | ⟨1, _⟩ =>
      refine ⟨Nat.zero_le _, Nat.mod_one _, ?_⟩
      show (k.val - 0) / (0 + 1) < C
      rw [Nat.sub_zero, Nat.div_one]; exact k.isLt

/-- A rectangle cut out of a matrix, at an entry. -/
theorem slice2_apply {α : Type} {R C R' C' o0 o1 : Nat} (x : (⟨2, ![R, C]⟩ : Shape).Idx → α)
    (h : (⟨2, ![R, C]⟩ : Shape).Slices ![o0, o1] ⟨2, ![R', C']⟩) (p : Fin R') (q : Fin C') (p' : Fin R) (q' : Fin C)
    (hp : p'.val = o0 + p.val) (hq : q'.val = o1 + q.val) :
    extractStridedSlice ⟨2, ![R', C']⟩ ![o0, o1] x h (ix2 p q) = x (ix2 p' q') :=
  extractStridedSlice_apply ![o0, o1] x h (ix2 p q) (ix2 p' q') (fun a => by
    match a with
    | ⟨0, _⟩ => exact hp
    | ⟨1, _⟩ => exact hq)

end Cert.LibPadSlice

end
-- ==== Proof.LayerBridge.lean ====
/-
  One layer, whole arrays: the kernel side's three arrays composed — the dense transform of the node table padded with zero
  rows, the gather over the edge list padded with zero-weight edges, the scatter over the padded node rows, and the first
  100000 rows of that — against the reference's layer.  Row n, channel q of both is
      Σ_e [d(e) = n] · (X·W)(node s(e), q) · (dinv(node s(e)) · dinv(node d(e)))  +  b(q) :
  the tiled sums collapse by the one-hot laws, the padding edges carry weight zero, and a real edge's source word names a row
  of the unpadded table, where the padded table's transform is the unpadded one's.
-/
import proofs.«155233_j36086315221040_1_alg».proof.Proof.RefSpec
import proofs.«155233_j36086315221040_1_alg».proof.Proof.HostRead
import proofs.«155233_j36086315221040_1_alg».proof.Proof.KSpec
import proofs.«155233_j36086315221040_1_alg».proof.Proof.LayerLaw
import proofs.«155233_j36086315221040_1_alg».proof.Proof.LibHostDot
import proofs.«155233_j36086315221040_1_alg».proof.Proof.LibPadSlice

set_option maxRecDepth 16384

noncomputable section

namespace Cert.Proof.LayerBridge

open Cert.KernelIdeal Cert.KernelIdeal.Facts₀ Cert.KernelIdeal.Facts
open Idealize.ShloMosaic Idealize.ShloMosaic.ValueIdx
open Cert.LibOneHot (ind)
open Cert.Proof.Words (rowWord)
open Cert.Proof.KSpec Cert.Proof.HostRead

/-- The padded edge words and weights, as the host stretches leave them. -/
def spad (ei : IVec S2x1600000 32) : S1700864.Idx → BitVec 32 :=
  concatenate S1700864 0 [⟨S1700000, srcAll ei⟩, ⟨S864, broadcastInDim S864 ![] bcast_S_S864 (constantI S_ 32 0#32)⟩] concatenates_S1700000_S864_S1700864_d0
def dpad (ei : IVec S2x1600000 32) : S1700864.Idx → BitVec 32 :=
  concatenate S1700864 0 [⟨S1700000, dstAll ei⟩, ⟨S864, broadcastInDim S864 ![] bcast_S_S864 (constantI S_ 32 0#32)⟩] concatenates_S1700000_S864_S1700864_d0
def npad (ei : IVec S2x1600000 32) : S1700864.Idx → EReal :=
  concatenate S1700864 0 [⟨S1700000, HostRead.norm ei⟩, ⟨S864, broadcastInDim S864 ![] bcast_S_S864 (constant (F := Ideal) S_ .f32 0x00000000#32)⟩] concatenates_S1700000_S864_S1700864_d0

/-- The edge words as the kernel program's host stretches build them are the reference's (the same operations of the edge array). -/
theorem srcAll_eq (ei : IVec S2x1600000 32) : srcAll ei = Cert.Proof.RefSpec.srcAll ei := rfl
theorem dstAll_eq (ei : IVec S2x1600000 32) : dstAll ei = Cert.Proof.RefSpec.dstAll ei := rfl

/-- A padded vector at a position: the vector's entry among the first 1700000, the padding after. -/
theorem pad_lo {α : Type} (v : S1700000.Idx → α) (z : S864.Idx → α) (x : ℕ) (hx : x < 1700864) (h : x < 1700000) :
    concatenate S1700864 0 [⟨S1700000, v⟩, ⟨S864, z⟩] concatenates_S1700000_S864_S1700864_d0 (ix1 (⟨x, hx⟩ : Fin 1700864)) = v (ix1 (⟨x, h⟩ : Fin 1700000)) :=
  concatenate_pair_apply_left (t := S1700864) 0 v z concatenates_S1700000_S864_S1700864_d0 (ix1 (⟨x, hx⟩ : Fin 1700864)) rfl (ix1 (⟨x, h⟩ : Fin 1700000)) (fun b => by match b with | ⟨0, _⟩ => rfl)
theorem pad_hi {α : Type} (v : S1700000.Idx → α) (z : S864.Idx → α) (x : ℕ) (hx : x < 1700864) (h : ¬ x < 1700000) :
    concatenate S1700864 0 [⟨S1700000, v⟩, ⟨S864, z⟩] concatenates_S1700000_S864_S1700864_d0 (ix1 (⟨x, hx⟩ : Fin 1700864)) = z (ix1 (⟨x - 1700000, by omega⟩ : Fin 864)) :=
  concatenate_pair_apply_right (t := S1700864) 0 v z concatenates_S1700000_S864_S1700864_d0 (ix1 (⟨x, hx⟩ : Fin 1700864)) rfl rfl (ix1 (⟨x - 1700000, by omega⟩ : Fin 864))
    (fun b hb => absurd (Subsingleton.elim _ _) hb) (by show x - 1700000 + 1700000 = x; omega)

theorem spad_apply (ei : IVec S2x1600000 32) (x : ℕ) (hx : x < 1700864) :
    spad ei (ix1 (⟨x, hx⟩ : Fin 1700864)) = Cert.Proof.LayerLaw.sPad (fun e => Cert.Proof.RefSpec.srcAll ei (ix1 e)) x := by
  unfold spad Cert.Proof.LayerLaw.sPad
  by_cases h : x < 1700000
  · rw [pad_lo _ _ x hx h, dif_pos h, srcAll_eq]
  · rw [pad_hi _ _ x hx h, dif_neg h, Cert.LibBcast.bcastScalar_apply]; rfl
theorem dpad_apply (ei : IVec S2x1600000 32) (x : ℕ) (hx : x < 1700864) :
    dpad ei (ix1 (⟨x, hx⟩ : Fin 1700864)) = Cert.Proof.LayerLaw.dPad (fun e => Cert.Proof.RefSpec.dstAll ei (ix1 e)) x := by
  unfold dpad Cert.Proof.LayerLaw.dPad
  by_cases h : x < 1700000
  · rw [pad_lo _ _ x hx h, dif_pos h, dstAll_eq]
  · rw [pad_hi _ _ x hx h, dif_neg h, Cert.LibBcast.bcastScalar_apply]; rfl

/-- An edge's weight: the guarded inverse square roots of the degree counts at its two ends. -/
theorem norm_apply (ei : IVec S2x1600000 32) (e : Fin 1700000) :
    (HostRead.norm ei (ix1 e) : EReal) = (Cert.Proof.RefSpec.dinv ei (ix1 (Cert.Gcn.node (N := 100000) (by norm_num) 100000#32 (Cert.Proof.RefSpec.srcAll ei (ix1 e)))) : EReal)
      * (Cert.Proof.RefSpec.dinv ei (ix1 (Cert.Gcn.node (N := 100000) (by norm_num) 100000#32 (Cert.Proof.RefSpec.dstAll ei (ix1 e)))) : EReal) := by
  unfold HostRead.norm
  rw [mulf_apply]
  refine congrArg₂ (fun a c : EReal => a * c) ?_ ?_
  · refine (Cert.LibGraph.gatherVec_apply (by norm_num : 0 < 100000) gather_S100000_S1700000x1_S1700000_n_0_n_n_0_1_1_wf _ _ e).trans ?_
    rw [Cert.LibBcast.bcastVecCol_apply]; rfl
  · refine (Cert.LibGraph.gatherVec_apply (by norm_num : 0 < 100000) gather_S100000_S1700000x1_S1700000_n_0_n_n_0_1_1_wf _ _ e).trans ?_
    rw [Cert.LibBcast.bcastVecCol_apply]; rfl

theorem npad_apply (ei : IVec S2x1600000 32) (x : ℕ) (hx : x < 1700864) :
    npad ei (ix1 (⟨x, hx⟩ : Fin 1700864))
      = Cert.Proof.LayerLaw.wPad (fun e => Cert.Proof.RefSpec.srcAll ei (ix1 e)) (fun e => Cert.Proof.RefSpec.dstAll ei (ix1 e)) (fun k => (Cert.Proof.RefSpec.dinv ei (ix1 k) : EReal)) x := by
  unfold npad Cert.Proof.LayerLaw.wPad
  by_cases h : x < 1700000
  · rw [pad_lo _ _ x hx h, dif_pos h]; exact norm_apply ei ⟨x, h⟩
  · rw [pad_hi _ _ x hx h, dif_neg h, Cert.LibBcast.bcastScalar_apply]; exact Ideal.ofBits_zero_f32

/-- A row of the padded table's transform that is a row of the table: the unpadded transform's. -/
theorem table_row64 (X : FVec Ideal S100000x64 .f32) (W : FVec Ideal S64x64 .f32) (k : Fin 100000) (q : Fin 64) :
    prod64 (padRows X) W (ix2 (⟨k.val, by omega⟩ : Fin 106496) q)
      = (Host.dotGeneral (F := Ideal) Cert.ReferenceIdeal.dot_S100000x64_S64x64_S100000x64_1_0_0_1_n_n none X W (ix2 k q) : EReal) := by
  unfold prod64
  rw [Cert.LibHostDot.dotGeneral_ix2 Cert.ReferenceIdeal.dot_S100000x64_S64x64_S100000x64_1_0_0_1_n_n rfl rfl rfl rfl
    (fun i c => by
      unfold DotDims.lhsIdx
      rw [dif_neg (show ¬(0 : Fin _) ∈ Cert.ReferenceIdeal.dot_S100000x64_S64x64_S100000x64_1_0_0_1_n_n.lhsBatch by decide),
        dif_pos (show (0 : Fin _) ∈ Cert.ReferenceIdeal.dot_S100000x64_S64x64_S100000x64_1_0_0_1_n_n.lhsNonContracting by decide)]
      rfl)
    (fun i c => by
      unfold DotDims.rhsIdx
      rw [dif_neg (show ¬(1 : Fin _) ∈ Cert.ReferenceIdeal.dot_S100000x64_S64x64_S100000x64_1_0_0_1_n_n.rhsBatch by decide),
        dif_pos (show (1 : Fin _) ∈ Cert.ReferenceIdeal.dot_S100000x64_S64x64_S100000x64_1_0_0_1_n_n.rhsNonContracting by decide)]
      rfl) none X W k q]
  refine Finset.sum_congr rfl fun j _ => ?_
  refine congrArg (fun z : EReal => z * _) ?_
  exact Cert.LibPadSlice.pad_rows_apply X _ pads_S100000x64_S106496x64_064960_000 h_S_ k (by omega) j

theorem table_row32 (X : FVec Ideal S100000x64 .f32) (W : FVec Ideal S64x32 .f32) (k : Fin 100000) (q : Fin 32) :
    prod32 (padRows X) W (ix2 (⟨k.val, by omega⟩ : Fin 106496) q)
      = (Host.dotGeneral (F := Ideal) Cert.ReferenceIdeal.dot_S100000x64_S64x32_S100000x32_1_0_0_1_n_n none X W (ix2 k q) : EReal) := by
  unfold prod32
  rw [Cert.LibHostDot.dotGeneral_ix2 Cert.ReferenceIdeal.dot_S100000x64_S64x32_S100000x32_1_0_0_1_n_n rfl rfl rfl rfl
    (fun i c => by
      unfold DotDims.lhsIdx
      rw [dif_neg (show ¬(0 : Fin _) ∈ Cert.ReferenceIdeal.dot_S100000x64_S64x32_S100000x32_1_0_0_1_n_n.lhsBatch by decide),
        dif_pos (show (0 : Fin _) ∈ Cert.ReferenceIdeal.dot_S100000x64_S64x32_S100000x32_1_0_0_1_n_n.lhsNonContracting by decide)]
      rfl)
    (fun i c => by
      unfold DotDims.rhsIdx
      rw [dif_neg (show ¬(1 : Fin _) ∈ Cert.ReferenceIdeal.dot_S100000x64_S64x32_S100000x32_1_0_0_1_n_n.rhsBatch by decide),
        dif_pos (show (1 : Fin _) ∈ Cert.ReferenceIdeal.dot_S100000x64_S64x32_S100000x32_1_0_0_1_n_n.rhsNonContracting by decide)]
      rfl) none X W k q]
  refine Finset.sum_congr rfl fun j _ => ?_
  refine congrArg (fun z : EReal => z * _) ?_
  exact Cert.LibPadSlice.pad_rows_apply X _ pads_S100000x64_S106496x64_064960_000 h_S_ k (by omega) j

/-- ONE LAYER of 64 output channels: the first 100000 rows of the scatter's array, over the gather's array, over the dense
    transform of the padded table, are the reference's layer of the unpadded table. -/
theorem layer64_bridge (ei : IVec S2x1600000 32) (hs : ∀ e : Fin 1700000, 0 ≤ (Cert.Proof.RefSpec.srcAll ei (ix1 e)).toInt ∧ (Cert.Proof.RefSpec.srcAll ei (ix1 e)).toInt < 100000)
    (X : FVec Ideal S100000x64 .f32) (W : FVec Ideal S64x64 .f32) (b : FVec Ideal S64 .f32) :
    extractStridedSlice S100000x64 ![0, 0] (outArr64 (dpad ei) (msgArr64 (spad ei) (npad ei) (prod64 (padRows X) W)) b) slices_S106496x64_S100000x64_0_0
      = Cert.Proof.RefSpec.layer64 ei X W b := by
  funext i
  obtain ⟨n, q, rfl⟩ : ∃ (n : Fin 100000) (q : Fin 64), i = ix2 n q := ⟨i 0, i 1, eq_ix2 i⟩
  rw [Cert.LibPadSlice.slice2_apply _ _ n q (⟨n.val, by omega⟩ : Fin 106496) q (by show n.val = 0 + n.val; omega) (by show q.val = 0 + q.val; omega)]
  unfold outArr64 Cert.Proof.RefSpec.layer64
  rw [addf_apply, Cert.Gcn.aggG_apply (by norm_num : 0 < 100000), Cert.LibBcast.bcastRow_apply, Cert.LibBcast.bcastVecRow_apply, zero_add]
  refine congrArg₂ (fun a c : EReal => a + c) ?_ rfl
  -- the column of the transformed padded table, as a function of the row number
  have key := Cert.Proof.LayerLaw.tiled_eq_indexed (fun e => Cert.Proof.RefSpec.srcAll ei (ix1 e)) (fun e => Cert.Proof.RefSpec.dstAll ei (ix1 e))
    (fun k => (Cert.Proof.RefSpec.dinv ei (ix1 k) : EReal))
    (fun r => if h : r < 106496 then prod64 (padRows X) W (ix2 (⟨r, h⟩ : Fin 106496) q) else 0) hs n
  beta_reduce at key
  refine Eq.trans ?_ (key.trans ?_)
  · -- the array's entry is the tiled form
    refine Finset.sum_congr rfl fun t _ => Finset.sum_congr rfl fun e _ => ?_
    have hx : t.val * 1024 + e.val < 1700864 := by have := t.isLt; have := e.isLt; omega
    refine congrArg₂ (fun a c : EReal => a * c) ?_ ?_
    · refine congrArg (fun w : BitVec 32 => ind (rowWord (n.val / 8192) ⟨n.val % 8192, Nat.mod_lt _ (by norm_num)⟩ = w)) ?_
      exact dpad_apply ei _ hx
    · unfold msgArr64
      refine congrArg₂ (fun a c : EReal => a * c) ?_ (npad_apply ei _ hx)
      unfold Cert.Proof.LayerLaw.gathered
      refine Finset.sum_congr rfl fun k _ => Finset.sum_congr rfl fun r _ => ?_
      have hr : k.val * 8192 + r.val < 106496 := by have := k.isLt; have := r.isLt; omega
      refine congrArg₂ (fun a c : EReal => a * c) ?_ ?_
      · exact congrArg (fun w : BitVec 32 => ind (w = rowWord k.val r)) (spad_apply ei _ hx)
      · show prod64 (padRows X) W (ix2 (⟨k.val * 8192 + r.val, hr⟩ : Fin 106496) q)
          = (if h : k.val * 8192 + r.val < 106496 then prod64 (padRows X) W (ix2 (⟨k.val * 8192 + r.val, h⟩ : Fin 106496) q) else 0)
        rw [dif_pos hr]
  · -- the indexed form is the reference's sum
    refine Finset.sum_congr rfl fun e _ => ?_
    refine if_congr Iff.rfl ?_ rfl
    unfold Cert.Gcn.term
    have hnode := (Cert.Gcn.node (N := 100000) (by norm_num) 100000#32 (Cert.Proof.RefSpec.srcAll ei (ix1 e))).isLt
    have hlt : (Cert.Gcn.node (N := 100000) (by norm_num) 100000#32 (Cert.Proof.RefSpec.srcAll ei (ix1 e))).val < 106496 := by omega
    rw [dif_pos hlt, table_row64 X W _ q]

/-- ONE LAYER of 32 output channels: the first 100000 rows of the scatter's array, over the gather's array, over the dense
    transform of the padded table, are the reference's layer of the unpadded table. -/
theorem layer32_bridge (ei : IVec S2x1600000 32) (hs : ∀ e : Fin 1700000, 0 ≤ (Cert.Proof.RefSpec.srcAll ei (ix1 e)).toInt ∧ (Cert.Proof.RefSpec.srcAll ei (ix1 e)).toInt < 100000)
    (X : FVec Ideal S100000x64 .f32) (W : FVec Ideal S64x32 .f32) (b : FVec Ideal S32 .f32) :
    extractStridedSlice S100000x32 ![0, 0] (outArr32 (dpad ei) (msgArr32 (spad ei) (npad ei) (prod32 (padRows X) W)) b) slices_S106496x32_S100000x32_0_0
      = Cert.Proof.RefSpec.layer32 ei X W b := by
  funext i
  obtain ⟨n, q, rfl⟩ : ∃ (n : Fin 100000) (q : Fin 32), i = ix2 n q := ⟨i 0, i 1, eq_ix2 i⟩
  rw [Cert.LibPadSlice.slice2_apply _ _ n q (⟨n.val, by omega⟩ : Fin 106496) q (by show n.val = 0 + n.val; omega) (by show q.val = 0 + q.val; omega)]
  unfold outArr32 Cert.Proof.RefSpec.layer32
  rw [addf_apply, Cert.Gcn.aggG_apply (by norm_num : 0 < 100000), Cert.LibBcast.bcastRow_apply, Cert.LibBcast.bcastVecRow_apply, zero_add]
  refine congrArg₂ (fun a c : EReal => a + c) ?_ rfl
  -- the column of the transformed padded table, as a function of the row number
  have key := Cert.Proof.LayerLaw.tiled_eq_indexed (fun e => Cert.Proof.RefSpec.srcAll ei (ix1 e)) (fun e => Cert.Proof.RefSpec.dstAll ei (ix1 e))
    (fun k => (Cert.Proof.RefSpec.dinv ei (ix1 k) : EReal))
    (fun r => if h : r < 106496 then prod32 (padRows X) W (ix2 (⟨r, h⟩ : Fin 106496) q) else 0) hs n
  beta_reduce at key
  refine Eq.trans ?_ (key.trans ?_)
  · -- the array's entry is the tiled form
    refine Finset.sum_congr rfl fun t _ => Finset.sum_congr rfl fun e _ => ?_
    have hx : t.val * 1024 + e.val < 1700864 := by have := t.isLt; have := e.isLt; omega
    refine congrArg₂ (fun a c : EReal => a * c) ?_ ?_
    · refine congrArg (fun w : BitVec 32 => ind (rowWord (n.val / 8192) ⟨n.val % 8192, Nat.mod_lt _ (by norm_num)⟩ = w)) ?_
      exact dpad_apply ei _ hx
    · unfold msgArr32
      refine congrArg₂ (fun a c : EReal => a * c) ?_ (npad_apply ei _ hx)
      unfold Cert.Proof.LayerLaw.gathered
      refine Finset.sum_congr rfl fun k _ => Finset.sum_congr rfl fun r _ => ?_
      have hr : k.val * 8192 + r.val < 106496 := by have := k.isLt; have := r.isLt; omega
      refine congrArg₂ (fun a c : EReal => a * c) ?_ ?_
      · exact congrArg (fun w : BitVec 32 => ind (w = rowWord k.val r)) (spad_apply ei _ hx)
      · show prod32 (padRows X) W (ix2 (⟨k.val * 8192 + r.val, hr⟩ : Fin 106496) q)
          = (if h : k.val * 8192 + r.val < 106496 then prod32 (padRows X) W (ix2 (⟨k.val * 8192 + r.val, h⟩ : Fin 106496) q) else 0)
        rw [dif_pos hr]
  · -- the indexed form is the reference's sum
    refine Finset.sum_congr rfl fun e _ => ?_
    refine if_congr Iff.rfl ?_ rfl
    unfold Cert.Gcn.term
    have hnode := (Cert.Gcn.node (N := 100000) (by norm_num) 100000#32 (Cert.Proof.RefSpec.srcAll ei (ix1 e))).isLt
    have hlt : (Cert.Gcn.node (N := 100000) (by norm_num) 100000#32 (Cert.Proof.RefSpec.srcAll ei (ix1 e))).val < 106496 := by omega
    rw [dif_pos hlt, table_row32 X W _ q]

end Cert.Proof.LayerBridge

end
-- ==== Proof.KFinal.lean ====
/-
  The kernel program's result is the reference network of the argument arrays, at the ideal values, when every source word
  names a node.

  Reading @main's valuations forward: the host stretches before the first region leave the padded edge words and weights
  and the padded node table; each layer's three regions leave the dense transform of its padded table, the gather over the
  padded edges and the scatter over the padded node rows; the stretches between two layers take the first 100000 rows,
  clip at zero and pad again; the last stretch takes the first 100000 rows.  By the layer law each layer's first 100000
  rows are the reference's layer of its unpadded table, so the chain is layer₃(relu(layer₂(relu(layer₁(x))))).
-/
import proofs.«155233_j36086315221040_1_alg».proof.Proof.KKeeps
import proofs.«155233_j36086315221040_1_alg».proof.Proof.Value0
import proofs.«155233_j36086315221040_1_alg».proof.Proof.Value1
import proofs.«155233_j36086315221040_1_alg».proof.Proof.Value2
import proofs.«155233_j36086315221040_1_alg».proof.Proof.Value3
import proofs.«155233_j36086315221040_1_alg».proof.Proof.Value4
import proofs.«155233_j36086315221040_1_alg».proof.Proof.Value5
import proofs.«155233_j36086315221040_1_alg».proof.Proof.Value6
import proofs.«155233_j36086315221040_1_alg».proof.Proof.Value7
import proofs.«155233_j36086315221040_1_alg».proof.Proof.Value8
import proofs.«155233_j36086315221040_1_alg».proof.Proof.LayerBridge

set_option maxRecDepth 16384

noncomputable section

namespace Cert.Proof.KFinal

open Cert.KernelIdeal Cert.KernelIdeal.Facts₀ Cert.KernelIdeal.Facts
open Idealize.ShloMosaic Idealize.ShloMosaic.TcCoe Idealize.ShloMosaic.ValueIdx
open Idealize.SL.Sem
open Cert.KernelIdeal.Run Cert.Proof.KSpec Cert.Proof.HostRead Cert.Proof.LayerBridge

variable (m : (ℓ : Loc nD τ sig) → Buf (Elt Ideal) ℓ) (ρ : Dev nD → PrngReg) (c : Dev nD)

/-- The eight argument arrays on core c. -/
abbrev aX : FVec Ideal S100000x64 .f32 := m ((c.tc : Thread nD τ).loc main_arg0)
abbrev aE : IVec S2x1600000 32 := m ((c.tc : Thread nD τ).loc main_arg1)
abbrev aW1 : FVec Ideal S64x64 .f32 := m ((c.tc : Thread nD τ).loc main_arg2)
abbrev aB1 : FVec Ideal S64 .f32 := m ((c.tc : Thread nD τ).loc main_arg3)
abbrev aW2 : FVec Ideal S64x64 .f32 := m ((c.tc : Thread nD τ).loc main_arg4)
abbrev aB2 : FVec Ideal S64 .f32 := m ((c.tc : Thread nD τ).loc main_arg5)
abbrev aW3 : FVec Ideal S64x32 .f32 := m ((c.tc : Thread nD τ).loc main_arg6)
abbrev aB3 : FVec Ideal S32 .f32 := m ((c.tc : Thread nD τ).loc main_arg7)

/-! ## What the stretches before the first region leave -/

theorem v31_4 : (W4 m ρ c (Proc.devRef .tc main_v31) : S1700864.Idx → BitVec 32) = spad (aE m c) := spad_eq (W0 m ρ c)
theorem v33_4 : (W4 m ρ c (Proc.devRef .tc main_v33) : S1700864.Idx → BitVec 32) = dpad (aE m c) := dpad_eq (W0 m ρ c)
theorem v35_4 : (W4 m ρ c (Proc.devRef .tc main_v35) : S1700864.Idx → EReal) = npad (aE m c) := normpad_eq (W0 m ρ c)
theorem v36_4 : (W4 m ρ c (Proc.devRef .tc main_v36) : S106496x64.Idx → EReal) = padRows (aX m c) := xpad_eq (W0 m ρ c)

/-! ## The three layers' arrays -/

/-- A layer's three arrays over a padded table. -/
abbrev out64 (ei : IVec S2x1600000 32) (T : S106496x64.Idx → EReal) (W : S64x64.Idx → EReal) (b : S64.Idx → EReal) : S106496x64.Idx → EReal :=
  outArr64 (dpad ei) (msgArr64 (spad ei) (npad ei) (prod64 T W)) b
abbrev out32 (ei : IVec S2x1600000 32) (T : S106496x64.Idx → EReal) (W : S64x32.Idx → EReal) (b : S32.Idx → EReal) : S106496x32.Idx → EReal :=
  outArr32 (dpad ei) (msgArr32 (spad ei) (npad ei) (prod32 T W)) b

/-- After the first layer's scatter. -/
theorem v39_7 : (W7 m ρ c (Proc.devRef .tc main_v39) : S106496x64.Idx → EReal) = out64 (aE m c) (padRows (aX m c)) (aW1 m c) (aB1 m c) := by
  rw [W7_arr m ρ c 3, Cert.Proof.KV2.final (V6 m ρ) c]
  show outArr64 (W6 m ρ c (Proc.devRef .tc main_v33)) (W6 m ρ c (Proc.devRef .tc main_v38)) (W6 m ρ c (Proc.devRef .tc main_arg3)) = _
  rw [keep_main_v33_4_6 m ρ c, v33_4, keep_main_arg3_0_6 m ρ c, W6_arr m ρ c 3, Cert.Proof.KV1.final (V5 m ρ) c]
  show outArr64 _ (msgArr64 (W5 m ρ c (Proc.devRef .tc main_v31)) (W5 m ρ c (Proc.devRef .tc main_v35)) (W5 m ρ c (Proc.devRef .tc main_v37))) _ = _
  rw [keep_main_v31_4_5 m ρ c, v31_4, keep_main_v35_4_5 m ρ c, v35_4, W5_arr m ρ c 2, Cert.Proof.KV0.final (V4 m ρ) c]
  show outArr64 _ (msgArr64 _ _ (prod64 (W4 m ρ c (Proc.devRef .tc main_v36)) (W4 m ρ c (Proc.devRef .tc main_arg2)))) _ = _
  rw [v36_4, keep_main_arg2_0_4 m ρ c]

/-- The second layer's padded table. -/
theorem v42_11 : (W11 m ρ c (Proc.devRef .tc main_v42) : S106496x64.Idx → EReal) = nextTable (W7 m ρ c (Proc.devRef .tc main_v39)) :=
  next1_eq (W7 m ρ c)

/-- After the second layer's scatter. -/
theorem v45_14 : (W14 m ρ c (Proc.devRef .tc main_v45) : S106496x64.Idx → EReal)
    = out64 (aE m c) (W11 m ρ c (Proc.devRef .tc main_v42)) (aW2 m c) (aB2 m c) := by
  rw [W14_arr m ρ c 3, Cert.Proof.KV5.final (V13 m ρ) c]
  show outArr64 (W13 m ρ c (Proc.devRef .tc main_v33)) (W13 m ρ c (Proc.devRef .tc main_v44)) (W13 m ρ c (Proc.devRef .tc main_arg5)) = _
  rw [keep_main_v33_4_13 m ρ c, v33_4, keep_main_arg5_0_13 m ρ c, W13_arr m ρ c 3, Cert.Proof.KV4.final (V12 m ρ) c]
  show outArr64 _ (msgArr64 (W12 m ρ c (Proc.devRef .tc main_v31)) (W12 m ρ c (Proc.devRef .tc main_v35)) (W12 m ρ c (Proc.devRef .tc main_v43))) _ = _
  rw [keep_main_v31_4_12 m ρ c, v31_4, keep_main_v35_4_12 m ρ c, v35_4, W12_arr m ρ c 2, Cert.Proof.KV3.final (V11 m ρ) c]
  show outArr64 _ (msgArr64 _ _ (prod64 (W11 m ρ c (Proc.devRef .tc main_v42)) (W11 m ρ c (Proc.devRef .tc main_arg4)))) _ = _
  rw [keep_main_arg4_0_11 m ρ c]

theorem v48_18 : (W18 m ρ c (Proc.devRef .tc main_v48) : S106496x64.Idx → EReal) = nextTable (W14 m ρ c (Proc.devRef .tc main_v45)) :=
  next2_eq (W14 m ρ c)

/-- After the third layer's scatter. -/
theorem v51_21 : (W21 m ρ c (Proc.devRef .tc main_v51) : S106496x32.Idx → EReal)
    = out32 (aE m c) (W18 m ρ c (Proc.devRef .tc main_v48)) (aW3 m c) (aB3 m c) := by
  rw [W21_arr m ρ c 3, Cert.Proof.KV8.final (V20 m ρ) c]
  show outArr32 (W20 m ρ c (Proc.devRef .tc main_v33)) (W20 m ρ c (Proc.devRef .tc main_v50)) (W20 m ρ c (Proc.devRef .tc main_arg7)) = _
  rw [keep_main_v33_4_20 m ρ c, v33_4, keep_main_arg7_0_20 m ρ c, W20_arr m ρ c 3, Cert.Proof.KV7.final (V19 m ρ) c]
  show outArr32 _ (msgArr32 (W19 m ρ c (Proc.devRef .tc main_v31)) (W19 m ρ c (Proc.devRef .tc main_v35)) (W19 m ρ c (Proc.devRef .tc main_v49))) _ = _
  rw [keep_main_v31_4_19 m ρ c, v31_4, keep_main_v35_4_19 m ρ c, v35_4, W19_arr m ρ c 2, Cert.Proof.KV6.final (V18 m ρ) c]
  show outArr32 _ (msgArr32 _ _ (prod32 (W18 m ρ c (Proc.devRef .tc main_v48)) (W18 m ρ c (Proc.devRef .tc main_arg6)))) _ = _
  rw [keep_main_arg6_0_18 m ρ c]

/-- The result buffer: the first 100000 rows of the third scatter's array. -/
theorem v52_22 : (W22 m ρ c (Proc.devRef .tc main_v52) : S100000x32.Idx → EReal)
    = extractStridedSlice S100000x32 ![0, 0] (W21 m ρ c (Proc.devRef .tc main_v51)) slices_S106496x32_S100000x32_0_0 :=
  result_eq (W21 m ρ c)

/-! ## The chain -/

/-- THE RESULT is the reference network of the arguments, when every source word names a node. -/
theorem result_eq_net (hs : ∀ e : Fin 1700000, 0 ≤ (Cert.Proof.RefSpec.srcAll (aE m c) (ix1 e)).toInt ∧ (Cert.Proof.RefSpec.srcAll (aE m c) (ix1 e)).toInt < 100000) :
    (W22 m ρ c (Proc.devRef .tc main_v52) : S100000x32.Idx → EReal)
      = Cert.Proof.RefSpec.net (aX m c) (aE m c) (aW1 m c) (aB1 m c) (aW2 m c) (aB2 m c) (aW3 m c) (aB3 m c) := by
  have L1 := layer64_bridge (aE m c) hs (aX m c) (aW1 m c) (aB1 m c)
  have T2 : (W11 m ρ c (Proc.devRef .tc main_v42) : S106496x64.Idx → EReal)
      = padRows (Cert.Proof.RefSpec.relu (Cert.Proof.RefSpec.layer64 (aE m c) (aX m c) (aW1 m c) (aB1 m c))) := by
    rw [v42_11, v39_7]
    unfold nextTable
    rw [show extractStridedSlice S100000x64 ![0, 0] (out64 (aE m c) (padRows (aX m c)) (aW1 m c) (aB1 m c)) slices_S106496x64_S100000x64_0_0
        = Cert.Proof.RefSpec.layer64 (aE m c) (aX m c) (aW1 m c) (aB1 m c) from L1]
    rfl
  have L2 := layer64_bridge (aE m c) hs (Cert.Proof.RefSpec.relu (Cert.Proof.RefSpec.layer64 (aE m c) (aX m c) (aW1 m c) (aB1 m c))) (aW2 m c) (aB2 m c)
  have T3 : (W18 m ρ c (Proc.devRef .tc main_v48) : S106496x64.Idx → EReal)
      = padRows (Cert.Proof.RefSpec.relu (Cert.Proof.RefSpec.layer64 (aE m c)
          (Cert.Proof.RefSpec.relu (Cert.Proof.RefSpec.layer64 (aE m c) (aX m c) (aW1 m c) (aB1 m c))) (aW2 m c) (aB2 m c))) := by
    rw [v48_18, v45_14, T2]
    unfold nextTable
    rw [show extractStridedSlice S100000x64 ![0, 0] (out64 (aE m c) (padRows (Cert.Proof.RefSpec.relu (Cert.Proof.RefSpec.layer64 (aE m c) (aX m c) (aW1 m c) (aB1 m c)))) (aW2 m c) (aB2 m c)) slices_S106496x64_S100000x64_0_0
        = _ from L2]
    rfl
  have L3 := layer32_bridge (aE m c) hs (Cert.Proof.RefSpec.relu (Cert.Proof.RefSpec.layer64 (aE m c)
          (Cert.Proof.RefSpec.relu (Cert.Proof.RefSpec.layer64 (aE m c) (aX m c) (aW1 m c) (aB1 m c))) (aW2 m c) (aB2 m c))) (aW3 m c) (aB3 m c)
  rw [v52_22, v51_21, T3]
  exact L3

end Cert.Proof.KFinal

end
-- ==== Proof.SrcRange.lean ====
/-
  What the stated precondition says of the edge list: beside the finiteness of the seven float arrays it ends in
      all((edge_index[0] >= 0) & (edge_index[0] < 100000)) ,
  an "and"-reduction to a scalar of a pointwise conjunction of two signed comparisons of the source row against the
  constants 0 and 100000.  The predicate being all ones therefore says: every source word, read as a signed integer,
  names one of the 100000 nodes.
-/
import proofs.«155233_j36086315221040_1_alg».proof.Pre_finite_inputs
import proofs.«155233_j36086315221040_1_alg».proof.Proof.Gen.Pre_finite_inputs
import Idealize.ShloMosaic.Lib.ReduceAll
import Idealize.ShloMosaic.Lib.ValueIdx

noncomputable section

namespace Cert.Proof.SrcRange

open Idealize.ShloMosaic Idealize.ShloMosaic.ValueIdx Cert.Pre_finite_inputs Cert.Pre_finite_inputs.Facts

/-- A scalar has one index. -/
instance : Subsingleton S_.Idx := ⟨fun a b => funext fun d => d.elim0⟩

/-- The source words of the real edges: row 0 of the edge array, as a vector. -/
def srcRow (ei : IVec S2x1600000 32) : IVec S1600000 32 :=
  shapeCast S1600000 (extractStridedSlice S1x1600000 ![0, 0] ei slices_S2x1600000_S1x1600000_0_0) shapeCasts_S1x1600000_S1600000

/-- Under the precondition every source word of a real edge is a node number: 0 ≤ s < 100000 as a signed integer. -/
theorem src_in_range {F : FTy → Type} [FloatOps F] (a0 : FVec F S100000x64 .f32) (a1 : IVec S2x1600000 32) (a2 : FVec F S64x64 .f32)
    (a3 : FVec F S64 .f32) (a4 : FVec F S64x64 .f32) (a5 : FVec F S64 .f32) (a6 : FVec F S64x32 .f32) (a7 : FVec F S32 .f32)
    (h : fn (F := F) a0 a1 a2 a3 a4 a5 a6 a7 = fun _ => 1#1) (i : S1600000.Idx) :
    0 ≤ (srcRow a1 i).toInt ∧ (srcRow a1 i).toInt < 100000 := by
  have h0 := congrFun h ix0
  dsimp only [fn, fn_part1, fn_part2] at h0
  obtain ⟨-, hr⟩ := IntOp.andi_eq_one.1 h0
  have he := Host.reduce_andi_all _ _ _ _ _ hr i
  obtain ⟨hge, hlt⟩ := IntOp.andi_eq_one.1 he
  have hge' := IntOp.cmpi_sge.1 hge
  have hlt' := IntOp.cmpi_slt.1 hlt
  exact ⟨hge', hlt'⟩

end Cert.Proof.SrcRange

end
-- ==== Proof.SrcAllRange.lean ====
/-
  Every one of the 1700000 source words names a node: a given edge's by the precondition, a self-loop's because it is the
  node's own number.
-/
import proofs.«155233_j36086315221040_1_alg».proof.Proof.HostRead
import proofs.«155233_j36086315221040_1_alg».proof.Proof.SrcRange
import Idealize.ShloMosaic.Lib.IdealHost
import Idealize.ShloMosaic.Lib.Pipeline.Value

set_option maxRecDepth 16384

noncomputable section

namespace Cert.Proof.SrcAllRange

open Cert.KernelIdeal Cert.KernelIdeal.Facts₀ Cert.KernelIdeal.Facts
open Idealize.ShloMosaic Idealize.ShloMosaic.ValueIdx
open Cert.Proof.HostRead

/-- A small natural number as a word reads back as itself. -/
theorem ofNat_toInt (n : ℕ) (h : n < 2 ^ 31) : (BitVec.ofNat 32 n).toInt = (n : ℤ) := by
  rw [BitVec.toInt_ofNat']
  have h1 : ((n : ℕ) : ℤ) < 2 ^ 31 := by exact_mod_cast h
  have h0 : (0 : ℤ) ≤ ((n : ℕ) : ℤ) := Int.natCast_nonneg _
  unfold Int.bmod
  have e : ((n : ℕ) : ℤ) % ((2 ^ 32 : ℕ) : ℤ) = ((n : ℕ) : ℤ) := Int.emod_eq_of_lt h0 (by push_cast; omega)
  rw [e]
  show (if ((n : ℕ) : ℤ) < (((2 ^ 32 : ℕ) : ℤ) + 1) / 2 then ((n : ℕ) : ℤ) else ((n : ℕ) : ℤ) - ((2 ^ 32 : ℕ) : ℤ)) = _
  rw [if_pos (by push_cast; omega)]

/-- The given edges first, then the self-loops: the list of 1700000 at a position. -/
theorem all_lo {α : Type} (v : S1600000.Idx → α) (z : S100000.Idx → α) (x : ℕ) (hx : x < 1700000) (h : x < 1600000) :
    concatenate S1700000 0 [⟨S1600000, v⟩, ⟨S100000, z⟩] concatenates_S1600000_S100000_S1700000_d0 (ix1 (⟨x, hx⟩ : Fin 1700000)) = v (ix1 (⟨x, h⟩ : Fin 1600000)) :=
  concatenate_pair_apply_left (t := S1700000) 0 v z concatenates_S1600000_S100000_S1700000_d0 (ix1 (⟨x, hx⟩ : Fin 1700000)) rfl (ix1 (⟨x, h⟩ : Fin 1600000)) (fun b => by match b with | ⟨0, _⟩ => rfl)
theorem all_hi {α : Type} (v : S1600000.Idx → α) (z : S100000.Idx → α) (x : ℕ) (hx : x < 1700000) (h : ¬ x < 1600000) :
    concatenate S1700000 0 [⟨S1600000, v⟩, ⟨S100000, z⟩] concatenates_S1600000_S100000_S1700000_d0 (ix1 (⟨x, hx⟩ : Fin 1700000)) = z (ix1 (⟨x - 1600000, by omega⟩ : Fin 100000)) :=
  concatenate_pair_apply_right (t := S1700000) 0 v z concatenates_S1600000_S100000_S1700000_d0 (ix1 (⟨x, hx⟩ : Fin 1700000)) rfl rfl (ix1 (⟨x - 1600000, by omega⟩ : Fin 100000))
    (fun b hb => absurd (Subsingleton.elim _ _) hb) (by show x - 1600000 + 1600000 = x; omega)

/-- The source words of all edges are node numbers, given that the given edges' are. -/
theorem srcAll_in_range (ei : IVec S2x1600000 32)
    (h : ∀ i : S1600000.Idx, 0 ≤ (shapeCast S1600000 (extractStridedSlice S1x1600000 ![0, 0] ei slices_S2x1600000_S1x1600000_0_0) shapeCasts_S1x1600000_S1600000 i).toInt
      ∧ (shapeCast S1600000 (extractStridedSlice S1x1600000 ![0, 0] ei slices_S2x1600000_S1x1600000_0_0) shapeCasts_S1x1600000_S1600000 i).toInt < 100000)
    (e : Fin 1700000) : 0 ≤ (srcAll ei (ix1 e)).toInt ∧ (srcAll ei (ix1 e)).toInt < 100000 := by
  obtain ⟨x, hx⟩ := e
  unfold srcAll
  by_cases he : x < 1600000
  · rw [all_lo _ _ x hx he]
    exact h _
  · rw [all_hi _ _ x hx he, iotaInDim_apply]
    show 0 ≤ (BitVec.ofNat 32 (x - 1600000)).toInt ∧ (BitVec.ofNat 32 (x - 1600000)).toInt < 100000
    rw [ofNat_toInt _ (by omega)]
    omega

end Cert.Proof.SrcAllRange

end
-- ==== Proof.lean ====
/-
  The five claims about a three-layer graph convolution written with dense one-hot products.

  * The kernel program's frame, at the word level and at the ideal values: its @main is thirteen stretches of host operations
    around nine kernel regions (per layer a dense transform, a gather and a scatter); each region is run from the contents
    the items before it leave, and the argument arrays come through unchanged (Proof/KRun.lean, Proof/BRun.lean over the nine
    region modules each).
  * The reference's frame: its run with the result dropped (Proof/RefFrame.lean).
  * The idealization rewrote nothing, so there is nothing to preserve.
  * The two idealized programs end with equal results: the kernel program's result is the reference network of the argument
    arrays (Proof/KFinal.lean: the regions' arrays in closed form, the layer law), and so is the reference's (Proof/RefSpec.lean).
    The law needs every given edge's source word to name a node, which the stated precondition says.
-/
import proofs.«155233_j36086315221040_1_alg».proof.Defs
import proofs.«155233_j36086315221040_1_alg».proof.Proof.Gen.Kernel
import proofs.«155233_j36086315221040_1_alg».proof.Proof.Gen.KernelIdeal
import proofs.«155233_j36086315221040_1_alg».proof.Proof.Gen.ReferenceIdeal
import proofs.«155233_j36086315221040_1_alg».proof.Proof.Gen.Pre_finite_inputs
import proofs.«155233_j36086315221040_1_alg».proof.Proof.RefFrame
import proofs.«155233_j36086315221040_1_alg».proof.Proof.KRun
import proofs.«155233_j36086315221040_1_alg».proof.Proof.BRun
import proofs.«155233_j36086315221040_1_alg».proof.Proof.KFinal
import proofs.«155233_j36086315221040_1_alg».proof.Proof.RefSpec
import proofs.«155233_j36086315221040_1_alg».proof.Proof.SrcRange
import proofs.«155233_j36086315221040_1_alg».proof.Proof.SrcAllRange
import Idealize.ShloMosaic.Adequacy
import Idealize.ShloMosaic.Init

set_option maxRecDepth 16384

noncomputable section

namespace Cert.Proof

open Idealize.ShloMosaic Idealize.ShloMosaic.ValueIdx Idealize.SL.Sem

theorem frame_k : Cert.frame_Kernel := fun m ρ _ => Cert.Kernel.Run.frame (F := Bits) m ρ
theorem frame_ki : Cert.frame_KernelIdeal := fun m ρ _ => Cert.KernelIdeal.Run.frame (F := Ideal) m ρ

/-- Under the precondition every source word of the 1700000 edges names a node, on every core. -/
theorem src_ok (m : (ℓ : Loc Cert.KernelIdeal.nD Cert.KernelIdeal.τ Cert.KernelIdeal.sig) → Buf (Elt Ideal) ℓ) (h : Cert.Pre_KernelIdeal m)
    (c : Dev Cert.KernelIdeal.nD) (e : Fin 1700000) :
    0 ≤ (Cert.Proof.RefSpec.srcAll (m ((c.tc : Thread Cert.KernelIdeal.nD Cert.KernelIdeal.τ).loc Cert.KernelIdeal.main_arg1)) (ix1 e)).toInt
      ∧ (Cert.Proof.RefSpec.srcAll (m ((c.tc : Thread Cert.KernelIdeal.nD Cert.KernelIdeal.τ).loc Cert.KernelIdeal.main_arg1)) (ix1 e)).toInt < 100000 :=
  Cert.Proof.SrcAllRange.srcAll_in_range _ (fun i => Cert.Proof.SrcRange.src_in_range _ _ _ _ _ _ _ _ (h c) i) e

theorem algebraic : Cert.algebraic_KernelIdeal_ReferenceIdeal := by
  intro m g m' g' hpre hargs
  refine ⟨fun c => Cert.Proof.RefSpec.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.Run.run_result (F := Ideal) m g)
    obtain ⟨h52, hrest⟩ := h c
    exact ⟨h52.trans (Cert.Proof.KFinal.result_eq_net m g c (src_ok m hpre c)), hrest⟩
  · refine (θ_run Cert.ReferenceIdeal.defs _ _).mono (fun r h c => ?_) (Cert.ReferenceIdeal.ValueP.run (F := Ideal) m' g')
    obtain ⟨h134, hrest⟩ := h c
    obtain ⟨e0, e1, e2, e3, e4, e5, e6, e7⟩ := hargs c
    refine ⟨h134.trans ?_, hrest⟩
    rw [Cert.Proof.RefSpec.res_eq_net, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_k, frame_ki, Cert.Proof.RefSide.frame_ri, trivial, algebraic⟩

end Cert.Proof

end
